-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8192x256 : Shape := ⟨3, ![8, 8192, 256]⟩
abbrev S1024x256 : Shape := ⟨2, ![1024, 256]⟩
abbrev S64x8192 : Shape := ⟨2, ![64, 8192]⟩
abbrev S64 : Shape := ⟨1, ![64]⟩
abbrev S128x256 : Shape := ⟨2, ![128, 256]⟩
abbrev S128 : Shape := ⟨1, ![128]⟩
abbrev S8x1x1 : Shape := ⟨3, ![8, 1, 1]⟩
abbrev S_ : Shape := ⟨0, ![]⟩

class Facts : Prop where
  bcast_S_S8x8192x256 : S_.BroadcastsInDim S8x8192x256 (![] : Fin 0 → Fin S8x8192x256.rank)
  reducesTo_S8x8192x256_S_d0_1_2 : S8x8192x256.ReducesTo [0, 1, 2] S_
  h_S_ : 0 < S_.numel
  bcast_S_S1024x256 : S_.BroadcastsInDim S1024x256 (![] : Fin 0 → Fin S1024x256.rank)
  reducesTo_S1024x256_S_d0_1 : S1024x256.ReducesTo [0, 1] S_
  bcast_S_S64x8192 : S_.BroadcastsInDim S64x8192 (![] : Fin 0 → Fin S64x8192.rank)
  reducesTo_S64x8192_S_d0_1 : S64x8192.ReducesTo [0, 1] S_
  bcast_S_S64 : S_.BroadcastsInDim S64 (![] : Fin 0 → Fin S64.rank)
  reducesTo_S64_S_d0 : S64.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S8x1x1 : S_.BroadcastsInDim S8x1x1 (![] : Fin 0 → Fin S8x1x1.rank)
  reducesTo_S8x1x1_S_d0_1_2 : S8x1x1.ReducesTo [0, 1, 2] S_

variable [Facts]

def fn_part3 {F : FTy → Type} [FloatOps F] (main_arg11 : FVec F S8x1x1 .f32) (main_v48 : IVec S_ 1) (main_v49 : FVec F S8x1x1 .f32) (main_v50 : FVec F S8x1x1 .f32) : IVec S_ 1 :=
  let main_v51 : IVec S8x1x1 1 := cmpf .olt main_v49 main_v50
  let main_c_19 : IVec S_ 1 := constantI S_ 1 1#1
  let main_v52 : IVec S_ 1 := (fun x v => Host.reduce IntOp.andi x v reducesTo_S8x1x1_S_d0_1_2 h_S_) main_v51 main_c_19
  let main_v53 : IVec S_ 1 := andi main_v48 main_v52
  let main_v54 : FVec F S8x1x1 .f32 := Host.absf main_arg11
  let main_cst_20 : FVec F S_ .f32 := constant S_ .f32 0x7F800000#32
  let main_v55 : FVec F S8x1x1 .f32 := broadcastInDim S8x1x1 ![] bcast_S_S8x1x1 main_cst_20
  let main_v56 : IVec S8x1x1 1 := cmpf .olt main_v54 main_v55
  let main_c_21 : IVec S_ 1 := constantI S_ 1 1#1
  let main_v57 : IVec S_ 1 := (fun x v => Host.reduce IntOp.andi x v reducesTo_S8x1x1_S_d0_1_2 h_S_) main_v56 main_c_21
  let main_v58 : IVec S_ 1 := andi main_v53 main_v57
  main_v58

def fn_part2 {F : FTy → Type} [FloatOps F] (main_arg7 : FVec F S128 .f32) (main_arg8 : FVec F S128x256 .f32) (main_arg9 : FVec F S128 .f32) (main_arg10 : FVec F S8x1x1 .f32) (main_arg11 : FVec F S8x1x1 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x256 .f32 := Host.absf main_arg8
  let main_cst_14 : FVec F S_ .f32 := constant S_ .f32 0x7F800000#32
  let main_v40 : FVec F S128x256 .f32 := broadcastInDim S128x256 ![] bcast_S_S128x256 main_cst_14
  let main_v41 : IVec S128x256 1 := cmpf .olt main_v39 main_v40
  let main_c_15 : IVec S_ 1 := constantI S_ 1 1#1
  let main_v42 : IVec S_ 1 := (fun x v => Host.reduce IntOp.andi x v reducesTo_S128x256_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S8x1x1 .f32 := Host.absf main_arg10
  let main_cst_18 : FVec F S_ .f32 := constant S_ .f32 0x7F800000#32
  let main_v50 : FVec F S8x1x1 .f32 := broadcastInDim S8x1x1 ![] bcast_S_S8x1x1 main_cst_18
  fn_part3 (F := F) main_arg11 main_v48 main_v49 main_v50

def fn_part1 {F : FTy → Type} [FloatOps F] (main_arg4 : FVec F S64x8192 .f32) (main_arg5 : FVec F S64 .f32) (main_arg6 : FVec F S128x256 .f32) (main_arg7 : FVec F S128 .f32) (main_arg8 : FVec F S128x256 .f32) (main_arg9 : FVec F S128 .f32) (main_arg10 : FVec F S8x1x1 .f32) (main_arg11 : FVec F S8x1x1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x8192 .f32 := Host.absf main_arg4
  let main_cst_6 : FVec F S_ .f32 := constant S_ .f32 0x7F800000#32
  let main_v20 : FVec F S64x8192 .f32 := broadcastInDim S64x8192 ![] bcast_S_S64x8192 main_cst_6
  let main_v21 : IVec S64x8192 1 := cmpf .olt main_v19 main_v20
  let main_c_7 : IVec S_ 1 := constantI S_ 1 1#1
  let main_v22 : IVec S_ 1 := (fun x v => Host.reduce IntOp.andi x v reducesTo_S64x8192_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x256 .f32 := Host.absf main_arg6
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S8x8192x256 .f32) (main_arg1 : FVec F S1024x256 .f32) (main_arg2 : FVec F S64x8192 .f32) (main_arg3 : FVec F S64 .f32) (main_arg4 : FVec F S64x8192 .f32) (main_arg5 : FVec F S64 .f32) (main_arg6 : FVec F S128x256 .f32) (main_arg7 : FVec F S128 .f32) (main_arg8 : FVec F S128x256 .f32) (main_arg9 : FVec F S128 .f32) (main_arg10 : FVec F S8x1x1 .f32) (main_arg11 : FVec F S8x1x1 .f32) : IVec S_ 1 :=
  let main_v0 : FVec F S8x8192x256 .f32 := Host.absf main_arg0
  let main_cst : FVec F S_ .f32 := constant S_ .f32 0x7F800000#32
  let main_v1 : FVec F S8x8192x256 .f32 := broadcastInDim S8x8192x256 ![] bcast_S_S8x8192x256 main_cst
  let main_v2 : IVec S8x8192x256 1 := cmpf .olt main_v0 main_v1
  let main_c : IVec S_ 1 := constantI S_ 1 1#1
  let main_v3 : IVec S_ 1 := (fun x v => Host.reduce IntOp.andi x v reducesTo_S8x8192x256_S_d0_1_2 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  let main_v9 : FVec F S64x8192 .f32 := Host.absf main_arg2
  let main_cst_2 : FVec F S_ .f32 := constant S_ .f32 0x7F800000#32
  let main_v10 : FVec F S64x8192 .f32 := broadcastInDim S64x8192 ![] bcast_S_S64x8192 main_cst_2
  let main_v11 : IVec S64x8192 1 := cmpf .olt main_v9 main_v10
  let main_c_3 : IVec S_ 1 := constantI S_ 1 1#1
  let main_v12 : IVec S_ 1 := (fun x v => Host.reduce IntOp.andi x v reducesTo_S64x8192_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_arg10 main_arg11 main_v13 main_v16
-- ==== Kernel.lean ====
abbrev S8x8192x256 : Shape := ⟨3, ![8, 8192, 256]⟩
abbrev S1024x256 : Shape := ⟨2, ![1024, 256]⟩
abbrev S64x8192 : Shape := ⟨2, ![64, 8192]⟩
abbrev S64 : Shape := ⟨1, ![64]⟩
abbrev S128x256 : Shape := ⟨2, ![128, 256]⟩
abbrev S128 : Shape := ⟨1, ![128]⟩
abbrev S8x1x1 : Shape := ⟨3, ![8, 1, 1]⟩
abbrev S1x1x64 : Shape := ⟨3, ![1, 1, 64]⟩
abbrev S8x8x32x8192 : Shape := ⟨4, ![8, 8, 32, 8192]⟩
abbrev S8x8x32x32 : Shape := ⟨4, ![8, 8, 32, 32]⟩
abbrev S8x8x32x64 : Shape := ⟨4, ![8, 8, 32, 64]⟩
abbrev S1x2048x256 : Shape := ⟨3, ![1, 2048, 256]⟩
abbrev S1x8x32x2048 : Shape := ⟨4, ![1, 8, 32, 2048]⟩
abbrev S1x8x32x32 : Shape := ⟨4, ![1, 8, 32, 32]⟩
abbrev S1x8x32x64 : Shape := ⟨4, ![1, 8, 32, 64]⟩
abbrev S8x32x32 : Shape := ⟨3, ![8, 32, 32]⟩
abbrev S8x32 : Shape := ⟨2, ![8, 32]⟩
abbrev S8x32x64 : Shape := ⟨3, ![8, 32, 64]⟩
abbrev S2048x256 : Shape := ⟨2, ![2048, 256]⟩
abbrev S1024x2048 : Shape := ⟨2, ![1024, 2048]⟩
abbrev S256x2048 : Shape := ⟨2, ![256, 2048]⟩
abbrev S8x32x2048 : Shape := ⟨3, ![8, 32, 2048]⟩
abbrev S64x2048 : Shape := ⟨2, ![64, 2048]⟩
abbrev S256x64 : Shape := ⟨2, ![256, 64]⟩
abbrev S8x32x1 : Shape := ⟨3, ![8, 32, 1]⟩
abbrev S8x1x32 : Shape := ⟨3, ![8, 1, 32]⟩
abbrev S8x2048x64 : Shape := ⟨3, ![8, 2048, 64]⟩
abbrev S8x2048 : Shape := ⟨2, ![8, 2048]⟩
abbrev S8x2048x1 : Shape := ⟨3, ![8, 2048, 1]⟩
abbrev S8x32x8x8192 : Shape := ⟨4, ![8, 32, 8, 8192]⟩
abbrev S1x128 : Shape := ⟨2, ![1, 128]⟩
abbrev S2048x128 : Shape := ⟨2, ![2048, 128]⟩
abbrev S1x2048x128 : Shape := ⟨3, ![1, 2048, 128]⟩

abbrev nBuf : Space → Nat
  | .hbm => 25
  | .vmem => 44
  | .smem => 0
  | _ => 0

abbrev bufTy : (tb : Table) → Fin (tcTables nBuf tb) → BufTy
  | .hbm, ⟨0, _⟩ => ⟨S8x8192x256, .f32⟩
  | .hbm, ⟨1, _⟩ => ⟨S1024x256, .f32⟩
  | .hbm, ⟨2, _⟩ => ⟨S64x8192, .f32⟩
  | .hbm, ⟨3, _⟩ => ⟨S64, .f32⟩
  | .hbm, ⟨4, _⟩ => ⟨S64x8192, .f32⟩
  | .hbm, ⟨5, _⟩ => ⟨S64, .f32⟩
  | .hbm, ⟨6, _⟩ => ⟨S128x256, .f32⟩
  | .hbm, ⟨7, _⟩ => ⟨S128, .f32⟩
  | .hbm, ⟨8, _⟩ => ⟨S128x256, .f32⟩
  | .hbm, ⟨9, _⟩ => ⟨S128, .f32⟩
  | .hbm, ⟨10, _⟩ => ⟨S8x1x1, .f32⟩
  | .hbm, ⟨11, _⟩ => ⟨S8x1x1, .f32⟩
  | .hbm, ⟨12, _⟩ => ⟨S1x1x64, .f32⟩
  | .hbm, ⟨13, _⟩ => ⟨S1x1x64, .f32⟩
  | .hbm, ⟨14, _⟩ => ⟨S8x8x32x8192, .bf16⟩
  | .hbm, ⟨15, _⟩ => ⟨S8x8x32x8192, .bf16⟩
  | .hbm, ⟨16, _⟩ => ⟨S8x8x32x32, .f32⟩
  | .hbm, ⟨17, _⟩ => ⟨S8x8x32x64, .f32⟩
  | .hbm, ⟨18, _⟩ => ⟨S8x8x32x64, .f32⟩
  | .hbm, ⟨19, _⟩ => ⟨S8x8x32x8192, .bf16⟩
  | .hbm, ⟨20, _⟩ => ⟨S8x32x8x8192, .bf16⟩
  | .hbm, ⟨21, _⟩ => ⟨S8x8192x256, .bf16⟩
  | .hbm, ⟨22, _⟩ => ⟨S1x128, .f32⟩
  | .hbm, ⟨23, _⟩ => ⟨S1x128, .f32⟩
  | .hbm, ⟨24, _⟩ => ⟨S8x8192x256, .f32⟩
  | .local _ .vmem, ⟨0, _⟩ => ⟨S1x2048x256, .f32⟩
  | .local _ .vmem, ⟨1, _⟩ => ⟨S1x2048x256, .f32⟩
  | .local _ .vmem, ⟨2, _⟩ => ⟨S1024x256, .f32⟩
  | .local _ .vmem, ⟨3, _⟩ => ⟨S64x8192, .f32⟩
  | .local _ .vmem, ⟨4, _⟩ => ⟨S1x1x64, .f32⟩
  | .local _ .vmem, ⟨5, _⟩ => ⟨S64x8192, .f32⟩
  | .local _ .vmem, ⟨6, _⟩ => ⟨S1x1x64, .f32⟩
  | .local _ .vmem, ⟨7, _⟩ => ⟨S8x1x1, .f32⟩
  | .local _ .vmem, ⟨8, _⟩ => ⟨S1x8x32x2048, .bf16⟩
  | .local _ .vmem, ⟨9, _⟩ => ⟨S1x8x32x2048, .bf16⟩
  | .local _ .vmem, ⟨10, _⟩ => ⟨S1x8x32x2048, .bf16⟩
  | .local _ .vmem, ⟨11, _⟩ => ⟨S1x8x32x2048, .bf16⟩
  | .local _ .vmem, ⟨12, _⟩ => ⟨S1x8x32x32, .f32⟩
  | .local _ .vmem, ⟨13, _⟩ => ⟨S1x8x32x32, .f32⟩
  | .local _ .vmem, ⟨14, _⟩ => ⟨S1x8x32x64, .f32⟩
  | .local _ .vmem, ⟨15, _⟩ => ⟨S1x8x32x64, .f32⟩
  | .local _ .vmem, ⟨16, _⟩ => ⟨S1x8x32x64, .f32⟩
  | .local _ .vmem, ⟨17, _⟩ => ⟨S1x8x32x64, .f32⟩
  | .local _ .vmem, ⟨18, _⟩ => ⟨S8x32x32, .f32⟩
  | .local _ .vmem, ⟨19, _⟩ => ⟨S8x32, .f32⟩
  | .local _ .vmem, ⟨20, _⟩ => ⟨S8x32, .f32⟩
  | .local _ .vmem, ⟨21, _⟩ => ⟨S8x32x64, .f32⟩
  | .local _ .vmem, ⟨22, _⟩ => ⟨S8x32x64, .f32⟩
  | .local _ .vmem, ⟨23, _⟩ => ⟨S1x8x32x2048, .bf16⟩
  | .local _ .vmem, ⟨24, _⟩ => ⟨S1x8x32x2048, .bf16⟩
  | .local _ .vmem, ⟨25, _⟩ => ⟨S1x8x32x64, .f32⟩
  | .local _ .vmem, ⟨26, _⟩ => ⟨S1x8x32x64, .f32⟩
  | .local _ .vmem, ⟨27, _⟩ => ⟨S1x8x32x64, .f32⟩
  | .local _ .vmem, ⟨28, _⟩ => ⟨S1x8x32x64, .f32⟩
  | .local _ .vmem, ⟨29, _⟩ => ⟨S8x1x1, .f32⟩
  | .local _ .vmem, ⟨30, _⟩ => ⟨S1x8x32x2048, .bf16⟩
  | .local _ .vmem, ⟨31, _⟩ => ⟨S1x8x32x2048, .bf16⟩
  | .local _ .vmem, ⟨32, _⟩ => ⟨S1x8x32x2048, .bf16⟩
  | .local _ .vmem, ⟨33, _⟩ => ⟨S1x8x32x2048, .bf16⟩
  | .local _ .vmem, ⟨34, _⟩ => ⟨S1x8x32x32, .f32⟩
  | .local _ .vmem, ⟨35, _⟩ => ⟨S1x8x32x32, .f32⟩
  | .local _ .vmem, ⟨36, _⟩ => ⟨S1x2048x256, .bf16⟩
  | .local _ .vmem, ⟨37, _⟩ => ⟨S1x2048x256, .bf16⟩
  | .local _ .vmem, ⟨38, _⟩ => ⟨S128x256, .f32⟩
  | .local _ .vmem, ⟨39, _⟩ => ⟨S1x128, .f32⟩
  | .local _ .vmem, ⟨40, _⟩ => ⟨S128x256, .f32⟩
  | .local _ .vmem, ⟨41, _⟩ => ⟨S1x128, .f32⟩
  | .local _ .vmem, ⟨42, _⟩ => ⟨S1x2048x256, .f32⟩
  | .local _ .vmem, ⟨43, _⟩ => ⟨S1x2048x256, .f32⟩
  | _, _ => ⟨S8x8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2_0 : Ref sig .tc := ⟨.hbm, 14, rfl⟩
abbrev main_v2_1 : Ref sig .tc := ⟨.hbm, 15, rfl⟩
abbrev main_v2_2 : Ref sig .tc := ⟨.hbm, 16, rfl⟩
abbrev main_v2_3 : Ref sig .tc := ⟨.hbm, 17, rfl⟩
abbrev main_v2_4 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc1_stg0_0 : Ref sig .tc := ⟨.vmem, 23, rfl⟩
abbrev cc1_stg0_1 : Ref sig .tc := ⟨.vmem, 24, rfl⟩
abbrev cc1_stg1_0 : Ref sig .tc := ⟨.vmem, 25, rfl⟩
abbrev cc1_stg1_1 : Ref sig .tc := ⟨.vmem, 26, rfl⟩
abbrev cc1_stg2_0 : Ref sig .tc := ⟨.vmem, 27, rfl⟩
abbrev cc1_stg2_1 : Ref sig .tc := ⟨.vmem, 28, rfl⟩
abbrev cc1_stg3_0 : Ref sig .tc := ⟨.vmem, 29, rfl⟩
abbrev cc1_stg4_0 : Ref sig .tc := ⟨.vmem, 30, rfl⟩
abbrev cc1_stg4_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg1_1 : Ref sig .tc := ⟨.vmem, 35, rfl⟩
abbrev cc2_stg2_0 : Ref sig .tc := ⟨.vmem, 36, rfl⟩
abbrev cc2_stg2_1 : Ref sig .tc := ⟨.vmem, 37, rfl⟩
abbrev cc2_stg3_0 : Ref sig .tc := ⟨.vmem, 38, rfl⟩
abbrev cc2_stg4_0 : Ref sig .tc := ⟨.vmem, 39, rfl⟩
abbrev cc2_stg5_0 : Ref sig .tc := ⟨.vmem, 40, rfl⟩
abbrev cc2_stg6_0 : Ref sig .tc := ⟨.vmem, 41, rfl⟩
abbrev cc2_stg7_0 : Ref sig .tc := ⟨.vmem, 42, rfl⟩
abbrev cc2_stg7_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem4_0 : DmaSem sig := 25
abbrev cc1_sem4_1 : DmaSem sig := 26
abbrev cc2_sem0_0 : DmaSem sig := 27
abbrev cc2_sem0_1 : DmaSem sig := 28
abbrev cc2_sem1_0 : DmaSem sig := 29
abbrev cc2_sem1_1 : DmaSem sig := 30
abbrev cc2_sem2_0 : DmaSem sig := 31
abbrev cc2_sem2_1 : DmaSem sig := 32
abbrev cc2_sem3_0 : DmaSem sig := 33
abbrev cc2_sem4_0 : DmaSem sig := 34
abbrev cc2_sem5_0 : DmaSem sig := 35
abbrev cc2_sem6_0 : DmaSem sig := 36
abbrev cc2_sem7_0 : DmaSem sig := 37
abbrev cc2_sem7_1 : DmaSem sig := 38

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c2048_i32 : BitVec 32 := 2048#32
  let v28 : BitVec 32 := Scalar.muli arg1 c2048_i32
  v28
def k0_off1 (i : grid0.Coords) : Fin 2 → Nat :=
  let c0_13 : Index := 0#32
  let arg1 : BitVec 32 := BitVec.ofNat 32 (i 1).val
  let c2048_i32 : BitVec 32 := 2048#32
  let v28 : BitVec 32 := Scalar.muli arg1 c2048_i32
  let v29 : BitVec 32 := v28
  let v30 : Index := Scalar.indexCast v29
  ![0, v30.toNat]
def k0_cond2 (i : grid0.Coords) : BitVec 1 :=
  let arg1 : BitVec 32 := BitVec.ofNat 32 (i 1).val
  let c3_i32 : BitVec 32 := 3#32
  let v72 : BitVec 1 := Scalar.cmpi .eq arg1 c3_i32
  let v73 : BitVec 32 := Scalar.extui v72
  let c0_i32_46 : BitVec 32 := 0#32
  let v74 : BitVec 1 := Scalar.cmpi .ne v73 c0_i32_46
  v74

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x8x32x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x32x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x32x32 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x8x32x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x8x32x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev grid1 : Pipeline.Grid := ⟨2, ![8, 4], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage1_0 : Fin 2 → Memref sig .tc .vmem S1x8x32x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x8x32x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x8x32x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S8x1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x8x32x2048 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev grid2 : Pipeline.Grid := ⟨2, ![8, 4], ![false, false]⟩

def cc2_transform_0 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc2_transform_1 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x8x32x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x8x32x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x2048x256 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 1 → Memref sig .tc .vmem S128x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S128x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 2 → Memref sig .tc .vmem S1x2048x256 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]

class Facts₀ : Prop where
  shapeCasts_S64_S1x1x64 : S64.ShapeCasts S1x1x64
  inb_S8x32x32_S8x32x32_0_0_0 : ∀ a, (![0, 0, 0] : Fin 3 → Nat) a + S8x32x32.size a ≤ S8x32x32.size a
  h_S8x32x32 : 0 < S8x32x32.numel
  shapeCasts_S8x32x32_S8x32x32 : S8x32x32.ShapeCasts S8x32x32
  inb_S8x32_S8x32_0_0 : ∀ a, (![0, 0] : Fin 2 → Nat) a + S8x32.size a ≤ S8x32.size a
  h_S8x32 : 0 < S8x32.numel
  shapeCasts_S8x32_S8x32 : S8x32.ShapeCasts S8x32
  inb_S8x32x64_S8x32x64_0_0_0 : ∀ a, (![0, 0, 0] : Fin 3 → Nat) a + S8x32x64.size a ≤ S8x32x64.size a
  h_S8x32x64 : 0 < S8x32x64.numel
  shapeCasts_S8x32x64_S8x32x64 : S8x32x64.ShapeCasts S8x32x64
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  slices_S1024x2048_o0_0_S256x2048 : S1024x2048.Slices ![0, 0] S256x2048
  shapeCasts_S256x2048_S8x32x2048 : S256x2048.ShapeCasts S8x32x2048
  slices_S1024x2048_o256_0_S256x2048 : S1024x2048.Slices ![256, 0] S256x2048
  slices_S1024x2048_o512_0_S256x2048 : S1024x2048.Slices ![512, 0] S256x2048
  slices_S1024x2048_o768_0_S256x2048 : S1024x2048.Slices ![768, 0] S256x2048
  inb_S1x8x32x2048_S1x8x32x2048_0_0_0_0 : ∀ a, (![0, 0, 0, 0] : Fin 4 → Nat) a + S1x8x32x2048.size a ≤ S1x8x32x2048.size a
  h_S1x8x32x2048 : 0 < S1x8x32x2048.numel
  shapeCasts_S1x8x32x2048_S8x32x2048 : S1x8x32x2048.ShapeCasts S8x32x2048
  shapeCasts_S8x32x2048_S1x8x32x2048 : S8x32x2048.ShapeCasts S1x8x32x2048
  packedbf16_S1x8x32x2048_S1x8x32x2048_0_0_0_0 : (Rect.unit (s := S1x8x32x2048) ![0, 0, 0, 0] S1x8x32x2048.size inb_S1x8x32x2048_S1x8x32x2048_0_0_0_0).PackedRows (EltTy.packing .bf16)
  h_S64x2048 : 0 < S64x2048.numel
  reduces_S8x32x2048_S8x32 : S8x32x2048.Reduces [2] S8x32
  shapeCasts_S8x32x2048_S256x2048 : S8x32x2048.ShapeCasts S256x2048
  shapeCasts_S256x64_S8x32x64 : S256x64.ShapeCasts S8x32x64
  shapeCasts_S8x32_S8x32x1 : S8x32.ShapeCasts S8x32x1
  broadcasts_S8x32x1_S8x32x32 : S8x32x1.Broadcasts S8x32x32
  shapeCasts_S8x32_S8x1x32 : S8x32.ShapeCasts S8x1x32
  broadcasts_S8x1x32_S8x32x32 : S8x1x32.Broadcasts S8x32x32
  inb_S8x1x1_S8x1x1_0_0_0 : ∀ a, (![0, 0, 0] : Fin 3 → Nat) a + S8x1x1.size a ≤ S8x1x1.size a
  h_S8x1x1 : 0 < S8x1x1.numel
  broadcasts_S8x1x1_S8x32x32 : S8x1x1.Broadcasts S8x32x32
  reduces_S8x32x32_S8x32 : S8x32x32.Reduces [2] S8x32
  inb_S1x8x32x32_S1x8x32x32_0_0_0_0 : ∀ a, (![0, 0, 0, 0] : Fin 4 → Nat) a + S1x8x32x32.size a ≤ S1x8x32x32.size a
  h_S1x8x32x32 : 0 < S1x8x32x32.numel
  shapeCasts_S1x8x32x32_S8x32x32 : S1x8x32x32.ShapeCasts S8x32x32
  shapeCasts_S8x32x32_S1x8x32x32 : S8x32x32.ShapeCasts S1x8x32x32
  inb_S1x1x64_S1x1x64_0_0_0 : ∀ a, (![0, 0, 0] : Fin 3 → Nat) a + S1x1x64.size a ≤ S1x1x64.size a
  h_S1x1x64 : 0 < S1x1x64.numel
  shapeCasts_S1x1x64_S1x1x64 : S1x1x64.ShapeCasts S1x1x64
  broadcasts_S1x1x64_S8x32x64 : S1x1x64.Broadcasts S8x32x64
  broadcasts_S8x32x1_S8x32x64 : S8x32x1.Broadcasts S8x32x64
  inb_S1x8x32x64_S1x8x32x64_0_0_0_0 : ∀ a, (![0, 0, 0, 0] : Fin 4 → Nat) a + S1x8x32x64.size a ≤ S1x8x32x64.size a
  h_S1x8x32x64 : 0 < S1x8x32x64.numel
  shapeCasts_S1x8x32x64_S8x32x64 : S1x8x32x64.ShapeCasts S8x32x64
  shapeCasts_S8x32x64_S1x8x32x64 : S8x32x64.ShapeCasts S1x8x32x64
  broadcasts_S8x1x1_S8x2048x64 : S8x1x1.Broadcasts S8x2048x64
  reduces_S8x2048x64_S8x2048 : S8x2048x64.Reduces [2] S8x2048
  shapeCasts_S8x2048_S8x2048x1 : S8x2048.ShapeCasts S8x2048x1
  broadcasts_S8x2048x1_S8x2048x64 : S8x2048x1.Broadcasts S8x2048x64
  transposes_S8x8x32x8192_S8x32x8x8192_0_2_1_3 : S8x8x32x8192.Transposes [0, 2, 1, 3] S8x32x8x8192
  shapeCasts_S8x32x8x8192_S8x8192x256 : S8x32x8x8192.ShapeCasts S8x8192x256
  shapeCasts_S128_S1x128 : S128.ShapeCasts S1x128
  inb_S128x256_S128x256_0_0 : ∀ a, (![0, 0] : Fin 2 → Nat) a + S128x256.size a ≤ S128x256.size a
  h_S128x256 : 0 < S128x256.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S1x2048x256_S1x2048x128_0_0_0 : ∀ a, (![0, 0, 0] : Fin 3 → Nat) a + S1x2048x128.size a ≤ S1x2048x256.size a
  h_S1x2048x128 : 0 < S1x2048x128.numel
  shapeCasts_S1x2048x128_S2048x128 : S1x2048x128.ShapeCasts S2048x128
  shapeCasts_S2048x128_S1x2048x128 : S2048x128.ShapeCasts S1x2048x128
  inb_S1x2048x256_S1x2048x128_0_0_128 : ∀ a, (![0, 0, 128] : Fin 3 → Nat) a + S1x2048x128.size a ≤ S1x2048x256.size a
  dot_S1024x256_S2048x256_S1024x2048_1_1_0_0_n_n_wf : DotDims.WF S1024x256 S2048x256 S1024x2048 [1] [1] [0] [0] [] []
  dot_S8x32x2048_S8x32x2048_S8x32x32_2_2_1_1_0_0_wf : DotDims.WF S8x32x2048 S8x32x2048 S8x32x32 [2] [2] [1] [1] [0] [0]
  dot_S256x2048_S64x2048_S256x64_1_1_0_0_n_n_wf : DotDims.WF S256x2048 S64x2048 S256x64 [1] [1] [0] [0] [] []
  dot_S8x32x2048_S8x32x64_S8x2048x64_1_1_2_2_0_0_wf : DotDims.WF S8x32x2048 S8x32x64 S8x2048x64 [1] [1] [2] [2] [0] [0]
  dot_S8x32x64_S8x2048x64_S8x32x2048_2_2_1_1_0_0_wf : DotDims.WF S8x32x64 S8x2048x64 S8x32x2048 [2] [2] [1] [1] [0] [0]
  dot_S8x32x32_S8x32x2048_S8x32x2048_2_1_1_2_0_0_wf : DotDims.WF S8x32x32 S8x32x2048 S8x32x2048 [2] [1] [1] [2] [0] [0]
  dot_S256x2048_S128x256_S2048x128_0_1_1_0_n_n_wf : DotDims.WF S256x2048 S128x256 S2048x128 [0] [1] [1] [0] [] []
  dot_S2048x256_S128x256_S2048x128_1_1_0_0_n_n_wf : DotDims.WF S2048x256 S128x256 S2048x128 [1] [1] [0] [0] [] []
  hrank0 : 0 < grid0.rank
  k0_mult1_dvd : ∀ i : grid0.Coords, 2048 ∣ (k0_mult1 i).toNat
  k0_off1_inb : ∀ i : grid0.Coords, ∀ a, (k0_off1 i) a + S64x2048.size a ≤ S64x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x256.size a ≤ S8x8192x256.size a
  hwx0_0 : ∀ i : grid0.Coords, EltTy.bits .f32 = 32 ∨ (Rect.block (s := S8x8192x256) S1x2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .f32 = 32 ∨ (Rect.block (s := S1024x256) S1024x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x8192.size a ≤ S64x8192.size a
  hwx0_2 : ∀ i : grid0.Coords, EltTy.bits .f32 = 32 ∨ (Rect.block (s := S64x8192) S64x8192.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1x64.size a ≤ S1x1x64.size a
  hwx0_3 : ∀ i : grid0.Coords, EltTy.bits .f32 = 32 ∨ (Rect.block (s := S1x1x64) S1x1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x8192.size a ≤ S64x8192.size a
  hwx0_4 : ∀ i : grid0.Coords, EltTy.bits .f32 = 32 ∨ (Rect.block (s := S64x8192) S64x8192.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1x64.size a ≤ S1x1x64.size a
  hwx0_5 : ∀ i : grid0.Coords, EltTy.bits .f32 = 32 ∨ (Rect.block (s := S1x1x64) S1x1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S8x1x1.size a ≤ S8x1x1.size a
  hwx0_6 : ∀ i : grid0.Coords, EltTy.bits .f32 = 32 ∨ (Rect.block (s := S8x1x1) S8x1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x8x32x2048.size a ≤ S8x8x32x8192.size a
  hwx0_7 : ∀ i : grid0.Coords, EltTy.bits .bf16 = 32 ∨ (Rect.block (s := S8x8x32x8192) S1x8x32x2048.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x8x32x2048.size a ≤ S8x8x32x8192.size a
  hwx0_8 : ∀ i : grid0.Coords, EltTy.bits .bf16 = 32 ∨ (Rect.block (s := S8x8x32x8192) S1x8x32x2048.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x8x32x32.size a ≤ S8x8x32x32.size a
  hwx0_9 : ∀ i : grid0.Coords, EltTy.bits .f32 = 32 ∨ (Rect.block (s := S8x8x32x32) S1x8x32x32.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x8x32x64.size a ≤ S8x8x32x64.size a
  hwx0_10 : ∀ i : grid0.Coords, EltTy.bits .f32 = 32 ∨ (Rect.block (s := S8x8x32x64) S1x8x32x64.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x8x32x64.size a ≤ S8x8x32x64.size a
  hwx0_11 : ∀ i : grid0.Coords, EltTy.bits .f32 = 32 ∨ (Rect.block (s := S8x8x32x64) S1x8x32x64.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x8x32x2048.size a ≤ S8x8x32x8192.size a
  hwx1_0 : ∀ i : grid1.Coords, EltTy.bits .bf16 = 32 ∨ (Rect.block (s := S8x8x32x8192) S1x8x32x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x8x32x64.size a ≤ S8x8x32x64.size a
  hwx1_1 : ∀ i : grid1.Coords, EltTy.bits .f32 = 32 ∨ (Rect.block (s := S8x8x32x64) S1x8x32x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x8x32x64.size a ≤ S8x8x32x64.size a
  hwx1_2 : ∀ i : grid1.Coords, EltTy.bits .f32 = 32 ∨ (Rect.block (s := S8x8x32x64) S1x8x32x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8x1x1.size a ≤ S8x1x1.size a
  hwx1_3 : ∀ i : grid1.Coords, EltTy.bits .f32 = 32 ∨ (Rect.block (s := S8x1x1) S8x1x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x8x32x2048.size a ≤ S8x8x32x8192.size a
  hwx1_4 : ∀ i : grid1.Coords, EltTy.bits .bf16 = 32 ∨ (Rect.block (s := S8x8x32x8192) S1x8x32x2048.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x8x32x2048.size a ≤ S8x8x32x8192.size a
  hwx2_0 : ∀ i : grid2.Coords, EltTy.bits .bf16 = 32 ∨ (Rect.block (s := S8x8x32x8192) S1x8x32x2048.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x8x32x32.size a ≤ S8x8x32x32.size a
  hwx2_1 : ∀ i : grid2.Coords, EltTy.bits .f32 = 32 ∨ (Rect.block (s := S8x8x32x32) S1x8x32x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x2048x256.size a ≤ S8x8192x256.size a
  hwx2_2 : ∀ i : grid2.Coords, EltTy.bits .bf16 = 32 ∨ (Rect.block (s := S8x8192x256) S1x2048x256.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x256.size a ≤ S128x256.size a
  hwx2_3 : ∀ i : grid2.Coords, EltTy.bits .f32 = 32 ∨ (Rect.block (s := S128x256) S128x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x256.size a ≤ S128x256.size a
  hwx2_5 : ∀ i : grid2.Coords, EltTy.bits .f32 = 32 ∨ (Rect.block (s := S128x256) S128x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1x2048x256.size a ≤ S8x8192x256.size a
  hwx2_7 : ∀ i : grid2.Coords, EltTy.bits .f32 = 32 ∨ (Rect.block (s := S8x8192x256) S1x2048x256.size (cc2_transform_7 i) (hinb2_7 i)).WholeWords (EltTy.packing .f32)

variable [Facts₀]

def dot_S1024x256_S2048x256_S1024x2048_1_1_0_0_n_n : DotDims S1024x256 S2048x256 S1024x2048 where
  lhsContracting := [1]
  rhsContracting := [1]
  lhsNonContracting := [0]
  rhsNonContracting := [0]
  lhsBatch := []
  rhsBatch := []
  wf := dot_S1024x256_S2048x256_S1024x2048_1_1_0_0_n_n_wf
def dot_S8x32x2048_S8x32x2048_S8x32x32_2_2_1_1_0_0 : DotDims S8x32x2048 S8x32x2048 S8x32x32 where
  lhsContracting := [2]
  rhsContracting := [2]
  lhsNonContracting := [1]
  rhsNonContracting := [1]
  lhsBatch := [0]
  rhsBatch := [0]
  wf := dot_S8x32x2048_S8x32x2048_S8x32x32_2_2_1_1_0_0_wf
def dot_S256x2048_S64x2048_S256x64_1_1_0_0_n_n : DotDims S256x2048 S64x2048 S256x64 where
  lhsContracting := [1]
  rhsContracting := [1]
  lhsNonContracting := [0]
  rhsNonContracting := [0]
  lhsBatch := []
  rhsBatch := []
  wf := dot_S256x2048_S64x2048_S256x64_1_1_0_0_n_n_wf
def dot_S8x32x2048_S8x32x64_S8x2048x64_1_1_2_2_0_0 : DotDims S8x32x2048 S8x32x64 S8x2048x64 where
  lhsContracting := [1]
  rhsContracting := [1]
  lhsNonContracting := [2]
  rhsNonContracting := [2]
  lhsBatch := [0]
  rhsBatch := [0]
  wf := dot_S8x32x2048_S8x32x64_S8x2048x64_1_1_2_2_0_0_wf
def dot_S8x32x64_S8x2048x64_S8x32x2048_2_2_1_1_0_0 : DotDims S8x32x64 S8x2048x64 S8x32x2048 where
  lhsContracting := [2]
  rhsContracting := [2]
  lhsNonContracting := [1]
  rhsNonContracting := [1]
  lhsBatch := [0]
  rhsBatch := [0]
  wf := dot_S8x32x64_S8x2048x64_S8x32x2048_2_2_1_1_0_0_wf
def dot_S8x32x32_S8x32x2048_S8x32x2048_2_1_1_2_0_0 : DotDims S8x32x32 S8x32x2048 S8x32x2048 where
  lhsContracting := [2]
  rhsContracting := [1]
  lhsNonContracting := [1]
  rhsNonContracting := [2]
  lhsBatch := [0]
  rhsBatch := [0]
  wf := dot_S8x32x32_S8x32x2048_S8x32x2048_2_1_1_2_0_0_wf
def dot_S256x2048_S128x256_S2048x128_0_1_1_0_n_n : DotDims S256x2048 S128x256 S2048x128 where
  lhsContracting := [0]
  rhsContracting := [1]
  lhsNonContracting := [1]
  rhsNonContracting := [0]
  lhsBatch := []
  rhsBatch := []
  wf := dot_S256x2048_S128x256_S2048x128_0_1_1_0_n_n_wf
def dot_S2048x256_S128x256_S2048x128_1_1_0_0_n_n : DotDims S2048x256 S128x256 S2048x128 where
  lhsContracting := [1]
  rhsContracting := [1]
  lhsNonContracting := [0]
  rhsNonContracting := [0]
  lhsBatch := []
  rhsBatch := []
  wf := dot_S2048x256_S128x256_S2048x128_1_1_0_0_n_n_wf

abbrev win0_0 : Pipeline.Window sig grid0 :=
  Pipeline.Window.ofSpec (Memref.whole main_arg0) S1x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x8192.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg10) S8x1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2_0) S1x8x32x2048.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v2_1) S1x8x32x2048.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v2_2) S1x8x32x32.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v2_3) S1x8x32x64.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v2_4) S1x8x32x64.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev idle0 : Fin 12 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond2 i == 1#1) | 10 => fun i => !(k0_cond2 i == 1#1) | 11 => fun i => !(k0_cond2 i == 1#1) | ⟨_ + 12, h⟩ => absurd h (Nat.not_lt.2 (Nat.le_add_left _ _))

abbrev win1_0 : Pipeline.Window sig grid1 :=
  Pipeline.Window.ofSpec (Memref.whole main_v2_0) S1x8x32x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_3) S1x8x32x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2_4) S1x8x32x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg11) S8x1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1x8x32x2048.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v2_1) S1x8x32x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2_2) S1x8x32x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v5) S1x2048x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S128x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v6) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg8) S128x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v7) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v8) S1x2048x256.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S8x8192x256 : Shape := ⟨3, ![8, 8192, 256]⟩
abbrev S1024x256 : Shape := ⟨2, ![1024, 256]⟩
abbrev S64x8192 : Shape := ⟨2, ![64, 8192]⟩
abbrev S64 : Shape := ⟨1, ![64]⟩
abbrev S128x256 : Shape := ⟨2, ![128, 256]⟩
abbrev S128 : Shape := ⟨1, ![128]⟩
abbrev S8x1x1 : Shape := ⟨3, ![8, 1, 1]⟩
abbrev S8x8192x1024 : Shape := ⟨3, ![8, 8192, 1024]⟩
abbrev S8x8192x4x8x32 : Shape := ⟨5, ![8, 8192, 4, 8, 32]⟩
abbrev S4x8x8x32x8192 : Shape := ⟨5, ![4, 8, 8, 32, 8192]⟩
abbrev S1x8x8x32x8192 : Shape := ⟨5, ![1, 8, 8, 32, 8192]⟩
abbrev S8x8x32x8192 : Shape := ⟨4, ![8, 8, 32, 8192]⟩
abbrev S8x8x32x64 : Shape := ⟨4, ![8, 8, 32, 64]⟩
abbrev S1x1x1x64 : Shape := ⟨4, ![1, 1, 1, 64]⟩
abbrev S_ : Shape := ⟨0, ![]⟩
abbrev S8x8x32 : Shape := ⟨3, ![8, 8, 32]⟩
abbrev S8x8x32x1 : Shape := ⟨4, ![8, 8, 32, 1]⟩
abbrev S8x8x32x32 : Shape := ⟨4, ![8, 8, 32, 32]⟩
abbrev S1x8x1x1 : Shape := ⟨4, ![1, 8, 1, 1]⟩
abbrev S8x8192x8x32 : Shape := ⟨4, ![8, 8192, 8, 32]⟩
abbrev S8x8x8192x64 : Shape := ⟨4, ![8, 8, 8192, 64]⟩
abbrev S8x8x8192 : Shape := ⟨3, ![8, 8, 8192]⟩
abbrev S8x8x8192x1 : Shape := ⟨4, ![8, 8, 8192, 1]⟩
abbrev S8x8x8192x32 : Shape := ⟨4, ![8, 8, 8192, 32]⟩
abbrev S8x32x8x8192 : Shape := ⟨4, ![8, 32, 8, 8192]⟩
abbrev S8x8192x128 : Shape := ⟨3, ![8, 8192, 128]⟩
abbrev S1x1x128 : Shape := ⟨3, ![1, 1, 128]⟩

abbrev nBuf : Space → Nat
  | .hbm => 102
  | .vmem => 0
  | .smem => 0
  | _ => 0

abbrev bufTy : (tb : Table) → Fin (tcTables nBuf tb) → BufTy
  | .hbm, ⟨0, _⟩ => ⟨S8x8192x256, .f32⟩
  | .hbm, ⟨1, _⟩ => ⟨S1024x256, .f32⟩
  | .hbm, ⟨2, _⟩ => ⟨S64x8192, .f32⟩
  | .hbm, ⟨3, _⟩ => ⟨S64, .f32⟩
  | .hbm, ⟨4, _⟩ => ⟨S64x8192, .f32⟩
  | .hbm, ⟨5, _⟩ => ⟨S64, .f32⟩
  | .hbm, ⟨6, _⟩ => ⟨S128x256, .f32⟩
  | .hbm, ⟨7, _⟩ => ⟨S128, .f32⟩
  | .hbm, ⟨8, _⟩ => ⟨S128x256, .f32⟩
  | .hbm, ⟨9, _⟩ => ⟨S128, .f32⟩
  | .hbm, ⟨10, _⟩ => ⟨S8x1x1, .f32⟩
  | .hbm, ⟨11, _⟩ => ⟨S8x1x1, .f32⟩
  | .hbm, ⟨12, _⟩ => ⟨S8x8192x1024, .f32⟩
  | .hbm, ⟨13, _⟩ => ⟨S8x8192x4x8x32, .f32⟩
  | .hbm, ⟨14, _⟩ => ⟨S4x8x8x32x8192, .f32⟩
  | .hbm, ⟨15, _⟩ => ⟨S1x8x8x32x8192, .f32⟩
  | .hbm, ⟨16, _⟩ => ⟨S8x8x32x8192, .f32⟩
  | .hbm, ⟨17, _⟩ => ⟨S1x8x8x32x8192, .f32⟩
  | .hbm, ⟨18, _⟩ => ⟨S8x8x32x8192, .f32⟩
  | .hbm, ⟨19, _⟩ => ⟨S1x8x8x32x8192, .f32⟩
  | .hbm, ⟨20, _⟩ => ⟨S8x8x32x8192, .f32⟩
  | .hbm, ⟨21, _⟩ => ⟨S1x8x8x32x8192, .f32⟩
  | .hbm, ⟨22, _⟩ => ⟨S8x8x32x8192, .f32⟩
  | .hbm, ⟨23, _⟩ => ⟨S8x8x32x64, .f32⟩
  | .hbm, ⟨24, _⟩ => ⟨S1x1x1x64, .f32⟩
  | .hbm, ⟨25, _⟩ => ⟨S8x8x32x64, .f32⟩
  | .hbm, ⟨26, _⟩ => ⟨S8x8x32x64, .f32⟩
  | .hbm, ⟨27, _⟩ => ⟨S8x8x32x64, .f32⟩
  | .hbm, ⟨28, _⟩ => ⟨S1x1x1x64, .f32⟩
  | .hbm, ⟨29, _⟩ => ⟨S8x8x32x64, .f32⟩
  | .hbm, ⟨30, _⟩ => ⟨S8x8x32x64, .f32⟩
  | .hbm, ⟨31, _⟩ => ⟨S8x8x32x8192, .f32⟩
  | .hbm, ⟨32, _⟩ => ⟨S_, .f32⟩
  | .hbm, ⟨33, _⟩ => ⟨S8x8x32, .f32⟩
  | .hbm, ⟨34, _⟩ => ⟨S8x8x32x1, .f32⟩
  | .hbm, ⟨35, _⟩ => ⟨S8x8x32x1, .f32⟩
  | .hbm, ⟨36, _⟩ => ⟨S_, .f32⟩
  | .hbm, ⟨37, _⟩ => ⟨S8x8x32x1, .f32⟩
  | .hbm, ⟨38, _⟩ => ⟨S8x8x32x1, .f32⟩
  | .hbm, ⟨39, _⟩ => ⟨S8x8x32x8192, .f32⟩
  | .hbm, ⟨40, _⟩ => ⟨S8x8x32x8192, .f32⟩
  | .hbm, ⟨41, _⟩ => ⟨S8x8x32x8192, .f32⟩
  | .hbm, ⟨42, _⟩ => ⟨S_, .f32⟩
  | .hbm, ⟨43, _⟩ => ⟨S8x8x32, .f32⟩
  | .hbm, ⟨44, _⟩ => ⟨S8x8x32x1, .f32⟩
  | .hbm, ⟨45, _⟩ => ⟨S8x8x32x1, .f32⟩
  | .hbm, ⟨46, _⟩ => ⟨S_, .f32⟩
  | .hbm, ⟨47, _⟩ => ⟨S8x8x32x1, .f32⟩
  | .hbm, ⟨48, _⟩ => ⟨S8x8x32x1, .f32⟩
  | .hbm, ⟨49, _⟩ => ⟨S8x8x32x8192, .f32⟩
  | .hbm, ⟨50, _⟩ => ⟨S8x8x32x8192, .f32⟩
  | .hbm, ⟨51, _⟩ => ⟨S8x8x32x32, .f32⟩
  | .hbm, ⟨52, _⟩ => ⟨S1x8x1x1, .f32⟩
  | .hbm, ⟨53, _⟩ => ⟨S8x8x32x32, .f32⟩
  | .hbm, ⟨54, _⟩ => ⟨S8x8x32x32, .f32⟩
  | .hbm, ⟨55, _⟩ => ⟨S_, .f32⟩
  | .hbm, ⟨56, _⟩ => ⟨S8x8x32, .f32⟩
  | .hbm, ⟨57, _⟩ => ⟨S_, .f32⟩
  | .hbm, ⟨58, _⟩ => ⟨S8x8x32, .f32⟩
  | .hbm, ⟨59, _⟩ => ⟨S8x8x32, .f32⟩
  | .hbm, ⟨60, _⟩ => ⟨S8x8x32x1, .f32⟩
  | .hbm, ⟨61, _⟩ => ⟨S8x8x32x32, .f32⟩
  | .hbm, ⟨62, _⟩ => ⟨S8x8x32x32, .f32⟩
  | .hbm, ⟨63, _⟩ => ⟨S8x8x32x32, .f32⟩
  | .hbm, ⟨64, _⟩ => ⟨S_, .f32⟩
  | .hbm, ⟨65, _⟩ => ⟨S8x8x32, .f32⟩
  | .hbm, ⟨66, _⟩ => ⟨S8x8x32x1, .f32⟩
  | .hbm, ⟨67, _⟩ => ⟨S8x8x32x32, .f32⟩
  | .hbm, ⟨68, _⟩ => ⟨S8x8x32x32, .f32⟩
  | .hbm, ⟨69, _⟩ => ⟨S8x8x32x8192, .f32⟩
  | .hbm, ⟨70, _⟩ => ⟨S8x8192x8x32, .f32⟩
  | .hbm, ⟨71, _⟩ => ⟨S8x8192x256, .f32⟩
  | .hbm, ⟨72, _⟩ => ⟨S8x8x8192x64, .f32⟩
  | .hbm, ⟨73, _⟩ => ⟨S1x8x1x1, .f32⟩
  | .hbm, ⟨74, _⟩ => ⟨S8x8x8192x64, .f32⟩
  | .hbm, ⟨75, _⟩ => ⟨S8x8x8192x64, .f32⟩
  | .hbm, ⟨76, _⟩ => ⟨S_, .f32⟩
  | .hbm, ⟨77, _⟩ => ⟨S8x8x8192, .f32⟩
  | .hbm, ⟨78, _⟩ => ⟨S_, .f32⟩
  | .hbm, ⟨79, _⟩ => ⟨S8x8x8192, .f32⟩
  | .hbm, ⟨80, _⟩ => ⟨S8x8x8192, .f32⟩
  | .hbm, ⟨81, _⟩ => ⟨S8x8x8192x1, .f32⟩
  | .hbm, ⟨82, _⟩ => ⟨S8x8x8192x64, .f32⟩
  | .hbm, ⟨83, _⟩ => ⟨S8x8x8192x64, .f32⟩
  | .hbm, ⟨84, _⟩ => ⟨S8x8x8192x64, .f32⟩
  | .hbm, ⟨85, _⟩ => ⟨S_, .f32⟩
  | .hbm, ⟨86, _⟩ => ⟨S8x8x8192, .f32⟩
  | .hbm, ⟨87, _⟩ => ⟨S8x8x8192x1, .f32⟩
  | .hbm, ⟨88, _⟩ => ⟨S8x8x8192x64, .f32⟩
  | .hbm, ⟨89, _⟩ => ⟨S8x8x8192x64, .f32⟩
  | .hbm, ⟨90, _⟩ => ⟨S8x8x8192x32, .f32⟩
  | .hbm, ⟨91, _⟩ => ⟨S8x32x8x8192, .f32⟩
  | .hbm, ⟨92, _⟩ => ⟨S8x8192x256, .f32⟩
  | .hbm, ⟨93, _⟩ => ⟨S8x8192x128, .f32⟩
  | .hbm, ⟨94, _⟩ => ⟨S1x1x128, .f32⟩
  | .hbm, ⟨95, _⟩ => ⟨S8x8192x128, .f32⟩
  | .hbm, ⟨96, _⟩ => ⟨S8x8192x128, .f32⟩
  | .hbm, ⟨97, _⟩ => ⟨S8x8192x128, .f32⟩
  | .hbm, ⟨98, _⟩ => ⟨S1x1x128, .f32⟩
  | .hbm, ⟨99, _⟩ => ⟨S8x8192x128, .f32⟩
  | .hbm, ⟨100, _⟩ => ⟨S8x8192x128, .f32⟩
  | .hbm, ⟨101, _⟩ => ⟨S8x8192x256, .f32⟩
  | _, _ => ⟨S8x8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_0 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_1 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_2 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_3 : Ref sig .tc := ⟨.hbm, 55, rfl⟩
abbrev main_v39 : Ref sig .tc := ⟨.hbm, 56, rfl⟩
abbrev main_cst_4 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_5 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_6 : Ref sig .tc := ⟨.hbm, 76, rfl⟩
abbrev main_v57 : Ref sig .tc := ⟨.hbm, 77, rfl⟩
abbrev main_cst_7 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_8 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩

abbrev nD : Nat := 1
abbrev τ : Topo := Topo.v7x

variable {F : FTy → Type} [FloatOps F]

class Facts₀ : Prop where
  shapeCasts_S8x8192x1024_S8x8192x4x8x32 : S8x8192x1024.ShapeCasts S8x8192x4x8x32
  transposes_S8x8192x4x8x32_S4x8x8x32x8192_2_0_3_4_1 : S8x8192x4x8x32.Transposes [2, 0, 3, 4, 1] S4x8x8x32x8192
  slices_S4x8x8x32x8192_S1x8x8x32x8192_0_0_0_0_0 : S4x8x8x32x8192.Slices ![0, 0, 0, 0, 0] S1x8x8x32x8192
  shapeCasts_S1x8x8x32x8192_S8x8x32x8192 : S1x8x8x32x8192.ShapeCasts S8x8x32x8192
  slices_S4x8x8x32x8192_S1x8x8x32x8192_1_0_0_0_0 : S4x8x8x32x8192.Slices ![1, 0, 0, 0, 0] S1x8x8x32x8192
  slices_S4x8x8x32x8192_S1x8x8x32x8192_2_0_0_0_0 : S4x8x8x32x8192.Slices ![2, 0, 0, 0, 0] S1x8x8x32x8192
  slices_S4x8x8x32x8192_S1x8x8x32x8192_3_0_0_0_0 : S4x8x8x32x8192.Slices ![3, 0, 0, 0, 0] S1x8x8x32x8192
  bcast_S64_S1x1x1x64_3 : S64.BroadcastsInDim S1x1x1x64 (![3] : Fin 1 → Fin S1x1x1x64.rank)
  bcast_S1x1x1x64_S8x8x32x64_0_1_2_3 : S1x1x1x64.BroadcastsInDim S8x8x32x64 (![0, 1, 2, 3] : Fin 4 → Fin S8x8x32x64.rank)
  reducesTo_S8x8x32x8192_S8x8x32_d3 : S8x8x32x8192.ReducesTo [3] S8x8x32
  h_S_ : 0 < S_.numel
  bcast_S8x8x32_S8x8x32x1_0_1_2 : S8x8x32.BroadcastsInDim S8x8x32x1 (![0, 1, 2] : Fin 3 → Fin S8x8x32x1.rank)
  bcast_S_S8x8x32x1 : S_.BroadcastsInDim S8x8x32x1 (![] : Fin 0 → Fin S8x8x32x1.rank)
  bcast_S8x8x32x1_S8x8x32x8192_0_1_2_3 : S8x8x32x1.BroadcastsInDim S8x8x32x8192 (![0, 1, 2, 3] : Fin 4 → Fin S8x8x32x8192.rank)
  bcast_S8x1x1_S1x8x1x1_1_2_3 : S8x1x1.BroadcastsInDim S1x8x1x1 (![1, 2, 3] : Fin 3 → Fin S1x8x1x1.rank)
  bcast_S1x8x1x1_S8x8x32x32_0_1_2_3 : S1x8x1x1.BroadcastsInDim S8x8x32x32 (![0, 1, 2, 3] : Fin 4 → Fin S8x8x32x32.rank)
  reducesTo_S8x8x32x32_S8x8x32_d3 : S8x8x32x32.ReducesTo [3] S8x8x32
  bcast_S_S8x8x32 : S_.BroadcastsInDim S8x8x32 (![] : Fin 0 → Fin S8x8x32.rank)
  bcast_S8x8x32x1_S8x8x32x32_0_1_2_3 : S8x8x32x1.BroadcastsInDim S8x8x32x32 (![0, 1, 2, 3] : Fin 4 → Fin S8x8x32x32.rank)
  transposes_S8x8x32x8192_S8x8192x8x32_0_3_1_2 : S8x8x32x8192.Transposes [0, 3, 1, 2] S8x8192x8x32
  shapeCasts_S8x8192x8x32_S8x8192x256 : S8x8192x8x32.ShapeCasts S8x8192x256
  bcast_S1x8x1x1_S8x8x8192x64_0_1_2_3 : S1x8x1x1.BroadcastsInDim S8x8x8192x64 (![0, 1, 2, 3] : Fin 4 → Fin S8x8x8192x64.rank)
  reducesTo_S8x8x8192x64_S8x8x8192_d3 : S8x8x8192x64.ReducesTo [3] S8x8x8192
  bcast_S_S8x8x8192 : S_.BroadcastsInDim S8x8x8192 (![] : Fin 0 → Fin S8x8x8192.rank)
  bcast_S8x8x8192_S8x8x8192x1_0_1_2 : S8x8x8192.BroadcastsInDim S8x8x8192x1 (![0, 1, 2] : Fin 3 → Fin S8x8x8192x1.rank)
  bcast_S8x8x8192x1_S8x8x8192x64_0_1_2_3 : S8x8x8192x1.BroadcastsInDim S8x8x8192x64 (![0, 1, 2, 3] : Fin 4 → Fin S8x8x8192x64.rank)
  transposes_S8x8x8192x32_S8x32x8x8192_0_3_1_2 : S8x8x8192x32.Transposes [0, 3, 1, 2] S8x32x8x8192
  shapeCasts_S8x32x8x8192_S8x8192x256 : S8x32x8x8192.ShapeCasts S8x8192x256
  bcast_S128_S1x1x128_2 : S128.BroadcastsInDim S1x1x128 (![2] : Fin 1 → Fin S1x1x128.rank)
  bcast_S1x1x128_S8x8192x128_0_1_2 : S1x1x128.BroadcastsInDim S8x8192x128 (![0, 1, 2] : Fin 3 → Fin S8x8192x128.rank)
  concatenates_S8x8192x128_S8x8192x128_S8x8192x256_d2 : Shape.Concatenates [S8x8192x128, S8x8192x128] S8x8192x256 2
  dot_S8x8192x256_S1024x256_S8x8192x1024_2_1_01_0_n_n_wf : DotDims.WF S8x8192x256 S1024x256 S8x8192x1024 [2] [1] [0, 1] [0] [] []
  dot_S8x8x32x8192_S64x8192_S8x8x32x64_3_1_012_0_n_n_wf : DotDims.WF S8x8x32x8192 S64x8192 S8x8x32x64 [3] [1] [0, 1, 2] [0] [] []
  dot_S8x8x32x8192_S8x8x32x8192_S8x8x32x32_3_3_2_2_01_01_wf : DotDims.WF S8x8x32x8192 S8x8x32x8192 S8x8x32x32 [3] [3] [2] [2] [0, 1] [0, 1]
  dot_S8x8x32x32_S8x8x32x8192_S8x8x32x8192_3_2_2_3_01_01_wf : DotDims.WF S8x8x32x32 S8x8x32x8192 S8x8x32x8192 [3] [2] [2] [3] [0, 1] [0, 1]
  dot_S8x8x32x8192_S8x8x32x64_S8x8x8192x64_2_2_3_3_01_01_wf : DotDims.WF S8x8x32x8192 S8x8x32x64 S8x8x8192x64 [2] [2] [3] [3] [0, 1] [0, 1]
  dot_S8x8x8192x64_S8x8x32x64_S8x8x8192x32_3_3_2_2_01_01_wf : DotDims.WF S8x8x8192x64 S8x8x32x64 S8x8x8192x32 [3] [3] [2] [2] [0, 1] [0, 1]
  dot_S8x8192x256_S128x256_S8x8192x128_2_1_01_0_n_n_wf : DotDims.WF S8x8192x256 S128x256 S8x8192x128 [2] [1] [0, 1] [0] [] []

variable [Facts₀]

def dot_S8x8192x256_S1024x256_S8x8192x1024_2_1_01_0_n_n : DotDims S8x8192x256 S1024x256 S8x8192x1024 where
  lhsContracting := [2]
  rhsContracting := [1]
  lhsNonContracting := [0, 1]
  rhsNonContracting := [0]
  lhsBatch := []
  rhsBatch := []
  wf := dot_S8x8192x256_S1024x256_S8x8192x1024_2_1_01_0_n_n_wf
def dot_S8x8x32x8192_S64x8192_S8x8x32x64_3_1_012_0_n_n : DotDims S8x8x32x8192 S64x8192 S8x8x32x64 where
  lhsContracting := [3]
  rhsContracting := [1]
  lhsNonContracting := [0, 1, 2]
  rhsNonContracting := [0]
  lhsBatch := []
  rhsBatch := []
  wf := dot_S8x8x32x8192_S64x8192_S8x8x32x64_3_1_012_0_n_n_wf
def dot_S8x8x32x8192_S8x8x32x8192_S8x8x32x32_3_3_2_2_01_01 : DotDims S8x8x32x8192 S8x8x32x8192 S8x8x32x32 where
  lhsContracting := [3]
  rhsContracting := [3]
  lhsNonContracting := [2]
  rhsNonContracting := [2]
  lhsBatch := [0, 1]
  rhsBatch := [0, 1]
  wf := dot_S8x8x32x8192_S8x8x32x8192_S8x8x32x32_3_3_2_2_01_01_wf
def dot_S8x8x32x32_S8x8x32x8192_S8x8x32x8192_3_2_2_3_01_01 : DotDims S8x8x32x32 S8x8x32x8192 S8x8x32x8192 where
  lhsContracting := [3]
  rhsContracting := [2]
  lhsNonContracting := [2]
  rhsNonContracting := [3]
  lhsBatch := [0, 1]
  rhsBatch := [0, 1]
  wf := dot_S8x8x32x32_S8x8x32x8192_S8x8x32x8192_3_2_2_3_01_01_wf
def dot_S8x8x32x8192_S8x8x32x64_S8x8x8192x64_2_2_3_3_01_01 : DotDims S8x8x32x8192 S8x8x32x64 S8x8x8192x64 where
  lhsContracting := [2]
  rhsContracting := [2]
  lhsNonContracting := [3]
  rhsNonContracting := [3]
  lhsBatch := [0, 1]
  rhsBatch := [0, 1]
  wf := dot_S8x8x32x8192_S8x8x32x64_S8x8x8192x64_2_2_3_3_01_01_wf
def dot_S8x8x8192x64_S8x8x32x64_S8x8x8192x32_3_3_2_2_01_01 : DotDims S8x8x8192x64 S8x8x32x64 S8x8x8192x32 where
  lhsContracting := [3]
  rhsContracting := [3]
  lhsNonContracting := [2]
  rhsNonContracting := [2]
  lhsBatch := [0, 1]
  rhsBatch := [0, 1]
  wf := dot_S8x8x8192x64_S8x8x32x64_S8x8x8192x32_3_3_2_2_01_01_wf
def dot_S8x8192x256_S128x256_S8x8192x128_2_1_01_0_n_n : DotDims S8x8192x256 S128x256 S8x8192x128 where
  lhsContracting := [2]
  rhsContracting := [1]
  lhsNonContracting := [0, 1]
  rhsNonContracting := [0]
  lhsBatch := []
  rhsBatch := []
  wf := dot_S8x8192x256_S128x256_S8x8192x128_2_1_01_0_n_n_wf

class Facts : Prop extends Facts₀ where

variable [Facts]
-- ==== Proof.Pass1Runs.lean ====
/-
  The first kernel call, one grid point at a time: what the three control cases share.
  The grid is (batch b, token tile j), j fastest, four tiles of 2048 tokens per batch.  At every point the body
  projects the x block to q, k, v_ca, v_sa (heads × head-dim × 2048 tokens), stores the q and v_ca blocks, and adds
  the tile's contribution to five accumulators it keeps between points: the raw Gram matrix ∑_n q[d,n] k[e,n], the
  squared row norms of q and of k, and the low-rank projections ∑_n k[d,n] WE[p,n], ∑_n v_sa[d,n] WF[p,n].
  At the first tile of a batch (j = 0) it zeroes the accumulators first; at the last (j = 3) it also turns them into
  the three per-batch results (softmaxed channel attention, scaled key projection, value projection).
  Hence three cases: first tile, middle tiles, last tile.  This module fixes the two conditions in closed form over
  the grid, where the three per-batch outputs are idle, the names of the staging and scratch memrefs, and the
  region invariant with the five accumulators named.
-/
import proofs.«149626_j38448547234132_2_alg».proof.Proof.Gen.KernelIdeal.Launch
import proofs.«149626_j38448547234132_2_alg».proof.Proof.Gen.KernelIdeal.Skeleton
import proofs.«149626_j38448547234132_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Pass1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, in closed form over the grid -/

/-- "This is the first token tile of its batch": the body's first `if`, from the grid coordinates. -/
abbrev condFirst (i : grid0.Coords) : Prop := (Scalar.cmpi .ne (Scalar.extui (Scalar.cmpi .eq (BitVec.ofNat 32 (i 1).val) 0#32)) 0#32) = 1#1
/-- It holds at the points ≡ 0 (mod 4). -/
theorem hcondFirst : ∀ t : Fin cfg0.N, condFirst (grid0.coords t) ↔ t.val % 4 = 0 :=
  (by decide +kernel : ∀ t : Fin grid0.N, condFirst (grid0.coords t) ↔ t.val % 4 = 0)

/-- "This is the last token tile of its batch": the body's second `if`. -/
abbrev condLast (i : grid0.Coords) : Prop := k0_cond2 i = 1#1
/-- It holds at the points ≡ 3 (mod 4). -/
theorem hcondLast : ∀ t : Fin cfg0.N, condLast (grid0.coords t) ↔ t.val % 4 = 3 :=
  (by decide +kernel : ∀ t : Fin grid0.N, condLast (grid0.coords t) ↔ t.val % 4 = 3)

/-! ## Where the windows are idle -/

theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_3 : ∀ t : Fin cfg0.N, cfg0.idle 3 (grid0.coords t) = false := by decide +kernel
theorem live_4 : ∀ t : Fin cfg0.N, cfg0.idle 4 (grid0.coords t) = false := by decide +kernel
theorem live_5 : ∀ t : Fin cfg0.N, cfg0.idle 5 (grid0.coords t) = false := by decide +kernel
theorem live_6 : ∀ t : Fin cfg0.N, cfg0.idle 6 (grid0.coords t) = false := by decide +kernel
theorem live_7 : ∀ t : Fin cfg0.N, cfg0.idle 7 (grid0.coords t) = false := by decide +kernel
theorem live_8 : ∀ t : Fin cfg0.N, cfg0.idle 8 (grid0.coords t) = false := by decide +kernel
/-- Off the last tile of a batch the body stores nothing into window 9 (the channel-attention weights of the batch): the window is idle there and is not
    written back. On the last tile it is live. -/
theorem idle_9 : ∀ t : Fin cfg0.N, ¬condLast (grid0.coords t) → cfg0.idle 9 (grid0.coords t) = true := by decide +kernel
theorem noFlush_9 : ∀ t : Fin cfg0.N, ¬condLast (grid0.coords t) → (cfg0.win 9).flush t = false := by decide +kernel
theorem liveLast_9 : ∀ t : Fin cfg0.N, condLast (grid0.coords t) → cfg0.idle 9 (grid0.coords t) = false := by decide +kernel
/-- Off the last tile of a batch the body stores nothing into window 10 (the scaled key projection of the batch): the window is idle there and is not
    written back. On the last tile it is live. -/
theorem idle_10 : ∀ t : Fin cfg0.N, ¬condLast (grid0.coords t) → cfg0.idle 10 (grid0.coords t) = true := by decide +kernel
theorem noFlush_10 : ∀ t : Fin cfg0.N, ¬condLast (grid0.coords t) → (cfg0.win 10).flush t = false := by decide +kernel
theorem liveLast_10 : ∀ t : Fin cfg0.N, condLast (grid0.coords t) → cfg0.idle 10 (grid0.coords t) = false := by decide +kernel
/-- Off the last tile of a batch the body stores nothing into window 11 (the value projection of the batch): the window is idle there and is not
    written back. On the last tile it is live. -/
theorem idle_11 : ∀ t : Fin cfg0.N, ¬condLast (grid0.coords t) → cfg0.idle 11 (grid0.coords t) = true := by decide +kernel
theorem noFlush_11 : ∀ t : Fin cfg0.N, ¬condLast (grid0.coords t) → (cfg0.win 11).flush t = false := by decide +kernel
theorem liveLast_11 : ∀ t : Fin cfg0.N, condLast (grid0.coords t) → cfg0.idle 11 (grid0.coords t) = false := by decide +kernel

/-! ## The memrefs the body is called with -/

abbrev ms0 (t : Fin cfg0.N) : Memref sig .tc .vmem S1x2048x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S64x8192 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x64 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S64x8192 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1x64 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S8x1x1 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x8x32x2048 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x8x32x2048 .bf16 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x8x32x32 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S1x8x32x64 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S1x8x32x64 .f32 := win0_11.stage (cfg0.slots t 11)
abbrev hs11 (t : Fin cfg0.N) : (ms11 t).IsWhole := hstage0_11 ((cfg0.slots t 11).cast nbuf0_11)
/-- One staging buffer of window 7, through which its contents are stated. -/
abbrev VO7 : View sig .tc .vmem S1x8x32x2048 .bf16 := (Memref.whole cc0_stg7_0 : Memref sig .tc .vmem S1x8x32x2048 .bf16).view
/-- One staging buffer of window 8, through which its contents are stated. -/
abbrev VO8 : View sig .tc .vmem S1x8x32x2048 .bf16 := (Memref.whole cc0_stg8_0 : Memref sig .tc .vmem S1x8x32x2048 .bf16).view
/-- One staging buffer of window 9, through which its contents are stated. -/
abbrev VO9 : View sig .tc .vmem S1x8x32x32 .f32 := (Memref.whole cc0_stg9_0 : Memref sig .tc .vmem S1x8x32x32 .f32).view
/-- One staging buffer of window 10, through which its contents are stated. -/
abbrev VO10 : View sig .tc .vmem S1x8x32x64 .f32 := (Memref.whole cc0_stg10_0 : Memref sig .tc .vmem S1x8x32x64 .f32).view
/-- One staging buffer of window 11, through which its contents are stated. -/
abbrev VO11 : View sig .tc .vmem S1x8x32x64 .f32 := (Memref.whole cc0_stg11_0 : Memref sig .tc .vmem S1x8x32x64 .f32).view
/-- the running Gram matrix: a whole scoped buffer of the kernel's own. -/
abbrev scM0 : Memref sig .tc .vmem S8x32x32 .f32 := Memref.whole cc0_scratch0
abbrev VS0 : View sig .tc .vmem S8x32x32 .f32 := scM0.view
/-- the running squared row norms of q: a whole scoped buffer of the kernel's own. -/
abbrev scM1 : Memref sig .tc .vmem S8x32 .f32 := Memref.whole cc0_scratch1
abbrev VS1 : View sig .tc .vmem S8x32 .f32 := scM1.view
/-- the running squared row norms of k: a whole scoped buffer of the kernel's own. -/
abbrev scM2 : Memref sig .tc .vmem S8x32 .f32 := Memref.whole cc0_scratch2
abbrev VS2 : View sig .tc .vmem S8x32 .f32 := scM2.view
/-- the running key projection: a whole scoped buffer of the kernel's own. -/
abbrev scM3 : Memref sig .tc .vmem S8x32x64 .f32 := Memref.whole cc0_scratch3
abbrev VS3 : View sig .tc .vmem S8x32x64 .f32 := scM3.view
/-- the running value projection: a whole scoped buffer of the kernel's own. -/
abbrev scM4 : Memref sig .tc .vmem S8x32x64 .f32 := Memref.whole cc0_scratch4
abbrev VS4 : View sig .tc .vmem S8x32x64 .f32 := scM4.view

/-- What rides through the call untouched: every scoped buffer that is neither a staging buffer of this call nor one
    of its five accumulators. -/
abbrev restBut (c : Dev nD) : sProp 𝕄 :=
  Pipeline.scopedRestBut (Ix := Unit) (Name := ℕ) (U := UR sig nD τ) (Lvl := ℕ) (Val := Elt F) spec0 c [cc0_scratch0, cc0_scratch1, cc0_scratch2, cc0_scratch3, cc0_scratch4]

/-- The class invariant with the five accumulators as memrefs owned at some contents. -/
theorem PhiA_eq (c : Dev nD) :
    (Pipeline.ΦA spec0 c : sProp 𝕄)
      = iprop(iprop(iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d) ∗ (∃ d, owns (c : Thread nD τ) scM4 fullShare d)) ∗ restBut c) ∗ (∃ r, prngReg c r)) := by
  unfold Pipeline.ΦA; rw [scopedRest0_split]; simp only [scM0, scM1, scM2, scM3, scM4, owns_whole]; try rfl

end Cert.KernelIdeal.Pass1

end
-- ==== Proof.Pass1RunFirst.lean ====
/-
  The first kernel call at the first token tile of a batch (the accumulators are zeroed, then this tile's contribution is added): the body's whole run.
  On whole memrefs — the seven inputs at their blocks, the q and v_ca output buffers at anything, the three per-batch output buffers at contents handed back untouched,
  the five accumulators at anything — the body runs to its continuation with the inputs as they were and every buffer
  it stored into holding its stores, as a list of pieces (last store first) that the run itself finds.
-/
import proofs.«149626_j38448547234132_2_alg».proof.Proof.Pass1Runs

set_option maxRecDepth 16384

noncomputable section

namespace Cert.KernelIdeal.Pass1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runFirst (c : Dev nD) (i : grid0.Coords) (arg2 : Memref sig .tc .vmem S1x2048x256 .f32) (harg2 : arg2.IsWhole) (arg3 : Memref sig .tc .vmem S1024x256 .f32) (harg3 : arg3.IsWhole) (arg4 : Memref sig .tc .vmem S64x8192 .f32) (harg4 : arg4.IsWhole) (arg5 : Memref sig .tc .vmem S1x1x64 .f32) (harg5 : arg5.IsWhole) (arg6 : Memref sig .tc .vmem S64x8192 .f32) (harg6 : arg6.IsWhole) (arg7 : Memref sig .tc .vmem S1x1x64 .f32) (harg7 : arg7.IsWhole) (arg8 : Memref sig .tc .vmem S8x1x1 .f32) (harg8 : arg8.IsWhole) (arg9 : Memref sig .tc .vmem S1x8x32x2048 .bf16) (harg9 : arg9.IsWhole) (arg10 : Memref sig .tc .vmem S1x8x32x2048 .bf16) (harg10 : arg10.IsWhole) (arg11 : Memref sig .tc .vmem S1x8x32x32 .f32) (harg11 : arg11.IsWhole) (arg12 : Memref sig .tc .vmem S1x8x32x64 .f32) (harg12 : arg12.IsWhole) (arg13 : Memref sig .tc .vmem S1x8x32x64 .f32) (harg13 : arg13.IsWhole) (arg14 : Memref sig .tc .vmem S8x32x32 .f32) (harg14 : arg14.IsWhole) (arg15 : Memref sig .tc .vmem S8x32 .f32) (harg15 : arg15.IsWhole) (arg16 : Memref sig .tc .vmem S8x32 .f32) (harg16 : arg16.IsWhole) (arg17 : Memref sig .tc .vmem S8x32x64 .f32) (harg17 : arg17.IsWhole) (arg18 : Memref sig .tc .vmem S8x32x64 .f32) (harg18 : arg18.IsWhole) (hc0 : condFirst i) (hc1 : ¬condLast i)
    (x0 : Vec F S1x2048x256 .f32) (x1 : Vec F S1024x256 .f32) (x2 : Vec F S64x8192 .f32) (x3 : Vec F S1x1x64 .f32) (x4 : Vec F S64x8192 .f32) (x5 : Vec F S1x1x64 .f32) (x6 : Vec F S8x1x1 .f32) :
    Σ' (L7 : List (View.Piece (Elt F) S1x8x32x2048 .bf16)) (L8 : List (View.Piece (Elt F) S1x8x32x2048 .bf16)) (LS0 : List (View.Piece (Elt F) S8x32x32 .f32)) (LS1 : List (View.Piece (Elt F) S8x32 .f32)) (LS2 : List (View.Piece (Elt F) S8x32 .f32)) (LS3 : List (View.Piece (Elt F) S8x32x64 .f32)), { LS4 : List (View.Piece (Elt F) S8x32x64 .f32) //
      ∀ (xi9 : Vec F S1x8x32x32 .f32) (xi10 : Vec F S1x8x32x64 .f32) (xi11 : Vec F S1x8x32x64 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ (∃ d, owns (c : Thread nD τ) arg9 fullShare d)
            ∗ (∃ d, owns (c : Thread nD τ) arg10 fullShare d)
            ∗ owns (c : Thread nD τ) arg11 fullShare xi9
            ∗ owns (c : Thread nD τ) arg12 fullShare xi10
            ∗ owns (c : Thread nD τ) arg13 fullShare xi11
            ∗ (∃ d, owns (c : Thread nD τ) arg14 fullShare d)
            ∗ (∃ d, owns (c : Thread nD τ) arg15 fullShare d)
            ∗ (∃ d, owns (c : Thread nD τ) arg16 fullShare d)
            ∗ (∃ d, owns (c : Thread nD τ) arg17 fullShare d)
            ∗ (∃ d, owns (c : Thread nD τ) arg18 fullShare d)
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare x4
                ∗ owns (c : Thread nD τ) arg7 fullShare x5
                ∗ owns (c : Thread nD τ) arg8 fullShare x6
                ∗ (∃ f, arg9.view.loc (c : Thread nD τ) ↦[arg9.view.set]{fullShare} arg9.view.writes (Elt F) f L7)
                ∗ (∃ f, arg10.view.loc (c : Thread nD τ) ↦[arg10.view.set]{fullShare} arg10.view.writes (Elt F) f L8)
                ∗ owns (c : Thread nD τ) arg11 fullShare xi9
                ∗ owns (c : Thread nD τ) arg12 fullShare xi10
                ∗ owns (c : Thread nD τ) arg13 fullShare xi11
                ∗ (∃ f, arg14.view.loc (c : Thread nD τ) ↦[arg14.view.set]{fullShare} arg14.view.writes (Elt F) f LS0)
                ∗ (∃ f, arg15.view.loc (c : Thread nD τ) ↦[arg15.view.set]{fullShare} arg15.view.writes (Elt F) f LS1)
                ∗ (∃ f, arg16.view.loc (c : Thread nD τ) ↦[arg16.view.set]{fullShare} arg16.view.writes (Elt F) f LS2)
                ∗ (∃ f, arg17.view.loc (c : Thread nD τ) ↦[arg17.view.set]{fullShare} arg17.view.writes (Elt F) f LS3)
                ∗ (∃ f, arg18.view.loc (c : Thread nD τ) ↦[arg18.view.set]{fullShare} arg18.view.writes (Elt F) f LS4)) -∗ K ⟨⟩))
          ⊢ wp frame (wpE (defs₀ (F := F)) Variants.none c none) E (cc0__pass1_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, ?_, ?_, fun xi9 xi10 xi11 E K => ?run⟩
  case run =>
    simp only [cc0__pass1_kernel_eq_skeleton]; unfold cc0__pass1_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%f10, %hf10, H10⟩, ⟨%f11, %hf11, H11⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg11.eq_unread hf9; obtain rfl := harg12.eq_unread hf10; obtain rfl := harg13.eq_unread hf11
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [HS0]; · iexists _; iexact HS0
    isplitl [HS1]; · iexists _; iexact HS1
    isplitl [HS2]; · iexists _; iexact HS2
    isplitl [HS3]; · iexists _; iexact HS3
    iexists _; iexact HS4

end Cert.KernelIdeal.Pass1

end
-- ==== Proof.Pass1RunMid.lean ====
/-
  The first kernel call at a middle token tile of a batch (this tile's contribution is added to what the tile before left): the body's whole run.
  On whole memrefs — the seven inputs at their blocks, the q and v_ca output buffers at anything, the three per-batch output buffers at contents handed back untouched,
  the five accumulators at what the tile before left — the body runs to its continuation with the inputs as they were and every buffer
  it stored into holding its stores, as a list of pieces (last store first) that the run itself finds.
-/
import proofs.«149626_j38448547234132_2_alg».proof.Proof.Pass1RunFirst

set_option maxRecDepth 16384

noncomputable section

namespace Cert.KernelIdeal.Pass1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runMid (c : Dev nD) (i : grid0.Coords) (arg2 : Memref sig .tc .vmem S1x2048x256 .f32) (harg2 : arg2.IsWhole) (arg3 : Memref sig .tc .vmem S1024x256 .f32) (harg3 : arg3.IsWhole) (arg4 : Memref sig .tc .vmem S64x8192 .f32) (harg4 : arg4.IsWhole) (arg5 : Memref sig .tc .vmem S1x1x64 .f32) (harg5 : arg5.IsWhole) (arg6 : Memref sig .tc .vmem S64x8192 .f32) (harg6 : arg6.IsWhole) (arg7 : Memref sig .tc .vmem S1x1x64 .f32) (harg7 : arg7.IsWhole) (arg8 : Memref sig .tc .vmem S8x1x1 .f32) (harg8 : arg8.IsWhole) (arg9 : Memref sig .tc .vmem S1x8x32x2048 .bf16) (harg9 : arg9.IsWhole) (arg10 : Memref sig .tc .vmem S1x8x32x2048 .bf16) (harg10 : arg10.IsWhole) (arg11 : Memref sig .tc .vmem S1x8x32x32 .f32) (harg11 : arg11.IsWhole) (arg12 : Memref sig .tc .vmem S1x8x32x64 .f32) (harg12 : arg12.IsWhole) (arg13 : Memref sig .tc .vmem S1x8x32x64 .f32) (harg13 : arg13.IsWhole) (arg14 : Memref sig .tc .vmem S8x32x32 .f32) (harg14 : arg14.IsWhole) (arg15 : Memref sig .tc .vmem S8x32 .f32) (harg15 : arg15.IsWhole) (arg16 : Memref sig .tc .vmem S8x32 .f32) (harg16 : arg16.IsWhole) (arg17 : Memref sig .tc .vmem S8x32x64 .f32) (harg17 : arg17.IsWhole) (arg18 : Memref sig .tc .vmem S8x32x64 .f32) (harg18 : arg18.IsWhole) (hc0 : ¬condFirst i) (hc1 : ¬condLast i)
    (x0 : Vec F S1x2048x256 .f32) (x1 : Vec F S1024x256 .f32) (x2 : Vec F S64x8192 .f32) (x3 : Vec F S1x1x64 .f32) (x4 : Vec F S64x8192 .f32) (x5 : Vec F S1x1x64 .f32) (x6 : Vec F S8x1x1 .f32) (xs0 : Vec F S8x32x32 .f32) (xs1 : Vec F S8x32 .f32) (xs2 : Vec F S8x32 .f32) (xs3 : Vec F S8x32x64 .f32) (xs4 : Vec F S8x32x64 .f32) :
    Σ' (L7 : List (View.Piece (Elt F) S1x8x32x2048 .bf16)) (L8 : List (View.Piece (Elt F) S1x8x32x2048 .bf16)) (LS0 : List (View.Piece (Elt F) S8x32x32 .f32)) (LS1 : List (View.Piece (Elt F) S8x32 .f32)) (LS2 : List (View.Piece (Elt F) S8x32 .f32)) (LS3 : List (View.Piece (Elt F) S8x32x64 .f32)), { LS4 : List (View.Piece (Elt F) S8x32x64 .f32) //
      ∀ (xi9 : Vec F S1x8x32x32 .f32) (xi10 : Vec F S1x8x32x64 .f32) (xi11 : Vec F S1x8x32x64 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ (∃ d, owns (c : Thread nD τ) arg9 fullShare d)
            ∗ (∃ d, owns (c : Thread nD τ) arg10 fullShare d)
            ∗ owns (c : Thread nD τ) arg11 fullShare xi9
            ∗ owns (c : Thread nD τ) arg12 fullShare xi10
            ∗ owns (c : Thread nD τ) arg13 fullShare xi11
            ∗ owns (c : Thread nD τ) arg14 fullShare xs0
            ∗ owns (c : Thread nD τ) arg15 fullShare xs1
            ∗ owns (c : Thread nD τ) arg16 fullShare xs2
            ∗ owns (c : Thread nD τ) arg17 fullShare xs3
            ∗ owns (c : Thread nD τ) arg18 fullShare xs4
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare x4
                ∗ owns (c : Thread nD τ) arg7 fullShare x5
                ∗ owns (c : Thread nD τ) arg8 fullShare x6
                ∗ (∃ f, arg9.view.loc (c : Thread nD τ) ↦[arg9.view.set]{fullShare} arg9.view.writes (Elt F) f L7)
                ∗ (∃ f, arg10.view.loc (c : Thread nD τ) ↦[arg10.view.set]{fullShare} arg10.view.writes (Elt F) f L8)
                ∗ owns (c : Thread nD τ) arg11 fullShare xi9
                ∗ owns (c : Thread nD τ) arg12 fullShare xi10
                ∗ owns (c : Thread nD τ) arg13 fullShare xi11
                ∗ (∃ f, arg14.view.loc (c : Thread nD τ) ↦[arg14.view.set]{fullShare} arg14.view.writes (Elt F) f LS0)
                ∗ (∃ f, arg15.view.loc (c : Thread nD τ) ↦[arg15.view.set]{fullShare} arg15.view.writes (Elt F) f LS1)
                ∗ (∃ f, arg16.view.loc (c : Thread nD τ) ↦[arg16.view.set]{fullShare} arg16.view.writes (Elt F) f LS2)
                ∗ (∃ f, arg17.view.loc (c : Thread nD τ) ↦[arg17.view.set]{fullShare} arg17.view.writes (Elt F) f LS3)
                ∗ (∃ f, arg18.view.loc (c : Thread nD τ) ↦[arg18.view.set]{fullShare} arg18.view.writes (Elt F) f LS4)) -∗ K ⟨⟩))
          ⊢ wp frame (wpE (defs₀ (F := F)) Variants.none c none) E (cc0__pass1_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, ?_, ?_, fun xi9 xi10 xi11 E K => ?run⟩
  case run =>
    simp only [cc0__pass1_kernel_eq_skeleton]; unfold cc0__pass1_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%f10, %hf10, H10⟩, ⟨%f11, %hf11, H11⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg11.eq_unread hf9; obtain rfl := harg12.eq_unread hf10; obtain rfl := harg13.eq_unread hf11; obtain rfl := harg14.eq_unread hfs0; obtain rfl := harg15.eq_unread hfs1; obtain rfl := harg16.eq_unread hfs2; obtain rfl := harg17.eq_unread hfs3; obtain rfl := harg18.eq_unread hfs4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [HS0]; · iexists _; iexact HS0
    isplitl [HS1]; · iexists _; iexact HS1
    isplitl [HS2]; · iexists _; iexact HS2
    isplitl [HS3]; · iexists _; iexact HS3
    iexists _; iexact HS4

end Cert.KernelIdeal.Pass1

end
-- ==== Proof.Pass1RunLast.lean ====
/-
  The first kernel call at the last token tile of a batch (this tile's contribution is added, then the three per-batch results are stored): the body's whole run.
  On whole memrefs — the seven inputs at their blocks, the q and v_ca output buffers at anything, the three per-batch output buffers at anything,
  the five accumulators at what the tile before left — the body runs to its continuation with the inputs as they were and every buffer
  it stored into holding its stores, as a list of pieces (last store first) that the run itself finds.
-/
import proofs.«149626_j38448547234132_2_alg».proof.Proof.Pass1RunMid

set_option maxRecDepth 16384

noncomputable section

namespace Cert.KernelIdeal.Pass1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runLast (c : Dev nD) (i : grid0.Coords) (arg2 : Memref sig .tc .vmem S1x2048x256 .f32) (harg2 : arg2.IsWhole) (arg3 : Memref sig .tc .vmem S1024x256 .f32) (harg3 : arg3.IsWhole) (arg4 : Memref sig .tc .vmem S64x8192 .f32) (harg4 : arg4.IsWhole) (arg5 : Memref sig .tc .vmem S1x1x64 .f32) (harg5 : arg5.IsWhole) (arg6 : Memref sig .tc .vmem S64x8192 .f32) (harg6 : arg6.IsWhole) (arg7 : Memref sig .tc .vmem S1x1x64 .f32) (harg7 : arg7.IsWhole) (arg8 : Memref sig .tc .vmem S8x1x1 .f32) (harg8 : arg8.IsWhole) (arg9 : Memref sig .tc .vmem S1x8x32x2048 .bf16) (harg9 : arg9.IsWhole) (arg10 : Memref sig .tc .vmem S1x8x32x2048 .bf16) (harg10 : arg10.IsWhole) (arg11 : Memref sig .tc .vmem S1x8x32x32 .f32) (harg11 : arg11.IsWhole) (arg12 : Memref sig .tc .vmem S1x8x32x64 .f32) (harg12 : arg12.IsWhole) (arg13 : Memref sig .tc .vmem S1x8x32x64 .f32) (harg13 : arg13.IsWhole) (arg14 : Memref sig .tc .vmem S8x32x32 .f32) (harg14 : arg14.IsWhole) (arg15 : Memref sig .tc .vmem S8x32 .f32) (harg15 : arg15.IsWhole) (arg16 : Memref sig .tc .vmem S8x32 .f32) (harg16 : arg16.IsWhole) (arg17 : Memref sig .tc .vmem S8x32x64 .f32) (harg17 : arg17.IsWhole) (arg18 : Memref sig .tc .vmem S8x32x64 .f32) (harg18 : arg18.IsWhole) (hc0 : ¬condFirst i) (hc1 : condLast i)
    (x0 : Vec F S1x2048x256 .f32) (x1 : Vec F S1024x256 .f32) (x2 : Vec F S64x8192 .f32) (x3 : Vec F S1x1x64 .f32) (x4 : Vec F S64x8192 .f32) (x5 : Vec F S1x1x64 .f32) (x6 : Vec F S8x1x1 .f32) (xs0 : Vec F S8x32x32 .f32) (xs1 : Vec F S8x32 .f32) (xs2 : Vec F S8x32 .f32) (xs3 : Vec F S8x32x64 .f32) (xs4 : Vec F S8x32x64 .f32) :
    Σ' (L7 : List (View.Piece (Elt F) S1x8x32x2048 .bf16)) (L8 : List (View.Piece (Elt F) S1x8x32x2048 .bf16)) (L9 : List (View.Piece (Elt F) S1x8x32x32 .f32)) (L10 : List (View.Piece (Elt F) S1x8x32x64 .f32)) (L11 : List (View.Piece (Elt F) S1x8x32x64 .f32)) (LS0 : List (View.Piece (Elt F) S8x32x32 .f32)) (LS1 : List (View.Piece (Elt F) S8x32 .f32)) (LS2 : List (View.Piece (Elt F) S8x32 .f32)) (LS3 : List (View.Piece (Elt F) S8x32x64 .f32)), { LS4 : List (View.Piece (Elt F) S8x32x64 .f32) //
      ∀ (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ (∃ d, owns (c : Thread nD τ) arg9 fullShare d)
            ∗ (∃ d, owns (c : Thread nD τ) arg10 fullShare d)
            ∗ (∃ d, owns (c : Thread nD τ) arg11 fullShare d)
            ∗ (∃ d, owns (c : Thread nD τ) arg12 fullShare d)
            ∗ (∃ d, owns (c : Thread nD τ) arg13 fullShare d)
            ∗ owns (c : Thread nD τ) arg14 fullShare xs0
            ∗ owns (c : Thread nD τ) arg15 fullShare xs1
            ∗ owns (c : Thread nD τ) arg16 fullShare xs2
            ∗ owns (c : Thread nD τ) arg17 fullShare xs3
            ∗ owns (c : Thread nD τ) arg18 fullShare xs4
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare x4
                ∗ owns (c : Thread nD τ) arg7 fullShare x5
                ∗ owns (c : Thread nD τ) arg8 fullShare x6
                ∗ (∃ f, arg9.view.loc (c : Thread nD τ) ↦[arg9.view.set]{fullShare} arg9.view.writes (Elt F) f L7)
                ∗ (∃ f, arg10.view.loc (c : Thread nD τ) ↦[arg10.view.set]{fullShare} arg10.view.writes (Elt F) f L8)
                ∗ (∃ f, arg11.view.loc (c : Thread nD τ) ↦[arg11.view.set]{fullShare} arg11.view.writes (Elt F) f L9)
                ∗ (∃ f, arg12.view.loc (c : Thread nD τ) ↦[arg12.view.set]{fullShare} arg12.view.writes (Elt F) f L10)
                ∗ (∃ f, arg13.view.loc (c : Thread nD τ) ↦[arg13.view.set]{fullShare} arg13.view.writes (Elt F) f L11)
                ∗ (∃ f, arg14.view.loc (c : Thread nD τ) ↦[arg14.view.set]{fullShare} arg14.view.writes (Elt F) f LS0)
                ∗ (∃ f, arg15.view.loc (c : Thread nD τ) ↦[arg15.view.set]{fullShare} arg15.view.writes (Elt F) f LS1)
                ∗ (∃ f, arg16.view.loc (c : Thread nD τ) ↦[arg16.view.set]{fullShare} arg16.view.writes (Elt F) f LS2)
                ∗ (∃ f, arg17.view.loc (c : Thread nD τ) ↦[arg17.view.set]{fullShare} arg17.view.writes (Elt F) f LS3)
                ∗ (∃ f, arg18.view.loc (c : Thread nD τ) ↦[arg18.view.set]{fullShare} arg18.view.writes (Elt F) f LS4)) -∗ K ⟨⟩))
          ⊢ wp frame (wpE (defs₀ (F := F)) Variants.none c none) E (cc0__pass1_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, ?_, ?_, ?_, ?_, ?_, fun E K => ?run⟩
  case run =>
    simp only [cc0__pass1_kernel_eq_skeleton]; unfold cc0__pass1_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg14.eq_unread hfs0; obtain rfl := harg15.eq_unread hfs1; obtain rfl := harg16.eq_unread hfs2; obtain rfl := harg17.eq_unread hfs3; obtain rfl := harg18.eq_unread hfs4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    isplitl [H9]; · iexists _; iexact H9
    isplitl [H10]; · iexists _; iexact H10
    isplitl [H11]; · iexists _; iexact H11
    isplitl [HS0]; · iexists _; iexact HS0
    isplitl [HS1]; · iexists _; iexact HS1
    isplitl [HS2]; · iexists _; iexact HS2
    isplitl [HS3]; · iexists _; iexact HS3
    iexists _; iexact HS4

end Cert.KernelIdeal.Pass1

end
-- ==== Proof.Pass1Outs.lean ====
/-
  The first kernel call: what every buffer holds after each grid point.
  Per control case, the stores the run found cover each buffer they go into, so the buffer's contents after the
  body are those stores read back.  Point by point this gives a recursion: the first tile of a batch starts the five
  accumulators afresh; a middle or last tile continues from what the tile before left; only the last tile of a batch
  writes the three per-batch outputs (elsewhere those windows are idle and what is recorded for them is a placeholder
  nothing consults).  The region invariant before a point names the accumulators at what the point before left.
-/
import proofs.«149626_j38448547234132_2_alg».proof.Proof.Pass1RunLast

set_option maxRecDepth 16384

noncomputable section

namespace Cert.KernelIdeal.Pass1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The stores of each case cover the buffers they go into -/

theorem coverFirst_o7 (c : Dev nD) (i : grid0.Coords) (arg2 : Memref sig .tc .vmem S1x2048x256 .f32) (harg2 : arg2.IsWhole) (arg3 : Memref sig .tc .vmem S1024x256 .f32) (harg3 : arg3.IsWhole) (arg4 : Memref sig .tc .vmem S64x8192 .f32) (harg4 : arg4.IsWhole) (arg5 : Memref sig .tc .vmem S1x1x64 .f32) (harg5 : arg5.IsWhole) (arg6 : Memref sig .tc .vmem S64x8192 .f32) (harg6 : arg6.IsWhole) (arg7 : Memref sig .tc .vmem S1x1x64 .f32) (harg7 : arg7.IsWhole) (arg8 : Memref sig .tc .vmem S8x1x1 .f32) (harg8 : arg8.IsWhole) (arg9 : Memref sig .tc .vmem S1x8x32x2048 .bf16) (harg9 : arg9.IsWhole) (arg10 : Memref sig .tc .vmem S1x8x32x2048 .bf16) (harg10 : arg10.IsWhole) (arg11 : Memref sig .tc .vmem S1x8x32x32 .f32) (harg11 : arg11.IsWhole) (arg12 : Memref sig .tc .vmem S1x8x32x64 .f32) (harg12 : arg12.IsWhole) (arg13 : Memref sig .tc .vmem S1x8x32x64 .f32) (harg13 : arg13.IsWhole) (arg14 : Memref sig .tc .vmem S8x32x32 .f32) (harg14 : arg14.IsWhole) (arg15 : Memref sig .tc .vmem S8x32 .f32) (harg15 : arg15.IsWhole) (arg16 : Memref sig .tc .vmem S8x32 .f32) (harg16 : arg16.IsWhole) (arg17 : Memref sig .tc .vmem S8x32x64 .f32) (harg17 : arg17.IsWhole) (arg18 : Memref sig .tc .vmem S8x32x64 .f32) (harg18 : arg18.IsWhole) (hc0 : condFirst i) (hc1 : ¬condLast i) (x0 : Vec F S1x2048x256 .f32) (x1 : Vec F S1024x256 .f32) (x2 : Vec F S64x8192 .f32) (x3 : Vec F S1x1x64 .f32) (x4 : Vec F S64x8192 .f32) (x5 : Vec F S1x1x64 .f32) (x6 : Vec F S8x1x1 .f32) (y : S1x8x32x2048.Idx) :
    ∃ pc ∈ (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6).1, y ∈ pc.1.set :=
  View.cover_of_tiledL ((runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6).1) S1x8x32x2048.size (by sl_kernel_rfl) y

theorem coverFirst_o8 (c : Dev nD) (i : grid0.Coords) (arg2 : Memref sig .tc .vmem S1x2048x256 .f32) (harg2 : arg2.IsWhole) (arg3 : Memref sig .tc .vmem S1024x256 .f32) (harg3 : arg3.IsWhole) (arg4 : Memref sig .tc .vmem S64x8192 .f32) (harg4 : arg4.IsWhole) (arg5 : Memref sig .tc .vmem S1x1x64 .f32) (harg5 : arg5.IsWhole) (arg6 : Memref sig .tc .vmem S64x8192 .f32) (harg6 : arg6.IsWhole) (arg7 : Memref sig .tc .vmem S1x1x64 .f32) (harg7 : arg7.IsWhole) (arg8 : Memref sig .tc .vmem S8x1x1 .f32) (harg8 : arg8.IsWhole) (arg9 : Memref sig .tc .vmem S1x8x32x2048 .bf16) (harg9 : arg9.IsWhole) (arg10 : Memref sig .tc .vmem S1x8x32x2048 .bf16) (harg10 : arg10.IsWhole) (arg11 : Memref sig .tc .vmem S1x8x32x32 .f32) (harg11 : arg11.IsWhole) (arg12 : Memref sig .tc .vmem S1x8x32x64 .f32) (harg12 : arg12.IsWhole) (arg13 : Memref sig .tc .vmem S1x8x32x64 .f32) (harg13 : arg13.IsWhole) (arg14 : Memref sig .tc .vmem S8x32x32 .f32) (harg14 : arg14.IsWhole) (arg15 : Memref sig .tc .vmem S8x32 .f32) (harg15 : arg15.IsWhole) (arg16 : Memref sig .tc .vmem S8x32 .f32) (harg16 : arg16.IsWhole) (arg17 : Memref sig .tc .vmem S8x32x64 .f32) (harg17 : arg17.IsWhole) (arg18 : Memref sig .tc .vmem S8x32x64 .f32) (harg18 : arg18.IsWhole) (hc0 : condFirst i) (hc1 : ¬condLast i) (x0 : Vec F S1x2048x256 .f32) (x1 : Vec F S1024x256 .f32) (x2 : Vec F S64x8192 .f32) (x3 : Vec F S1x1x64 .f32) (x4 : Vec F S64x8192 .f32) (x5 : Vec F S1x1x64 .f32) (x6 : Vec F S8x1x1 .f32) (y : S1x8x32x2048.Idx) :
    ∃ pc ∈ (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6).2.1, y ∈ pc.1.set :=
  View.cover_of_tiledL ((runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6).2.1) S1x8x32x2048.size (by sl_kernel_rfl) y

theorem coverFirst_s0 (c : Dev nD) (i : grid0.Coords) (arg2 : Memref sig .tc .vmem S1x2048x256 .f32) (harg2 : arg2.IsWhole) (arg3 : Memref sig .tc .vmem S1024x256 .f32) (harg3 : arg3.IsWhole) (arg4 : Memref sig .tc .vmem S64x8192 .f32) (harg4 : arg4.IsWhole) (arg5 : Memref sig .tc .vmem S1x1x64 .f32) (harg5 : arg5.IsWhole) (arg6 : Memref sig .tc .vmem S64x8192 .f32) (harg6 : arg6.IsWhole) (arg7 : Memref sig .tc .vmem S1x1x64 .f32) (harg7 : arg7.IsWhole) (arg8 : Memref sig .tc .vmem S8x1x1 .f32) (harg8 : arg8.IsWhole) (arg9 : Memref sig .tc .vmem S1x8x32x2048 .bf16) (harg9 : arg9.IsWhole) (arg10 : Memref sig .tc .vmem S1x8x32x2048 .bf16) (harg10 : arg10.IsWhole) (arg11 : Memref sig .tc .vmem S1x8x32x32 .f32) (harg11 : arg11.IsWhole) (arg12 : Memref sig .tc .vmem S1x8x32x64 .f32) (harg12 : arg12.IsWhole) (arg13 : Memref sig .tc .vmem S1x8x32x64 .f32) (harg13 : arg13.IsWhole) (arg14 : Memref sig .tc .vmem S8x32x32 .f32) (harg14 : arg14.IsWhole) (arg15 : Memref sig .tc .vmem S8x32 .f32) (harg15 : arg15.IsWhole) (arg16 : Memref sig .tc .vmem S8x32 .f32) (harg16 : arg16.IsWhole) (arg17 : Memref sig .tc .vmem S8x32x64 .f32) (harg17 : arg17.IsWhole) (arg18 : Memref sig .tc .vmem S8x32x64 .f32) (harg18 : arg18.IsWhole) (hc0 : condFirst i) (hc1 : ¬condLast i) (x0 : Vec F S1x2048x256 .f32) (x1 : Vec F S1024x256 .f32) (x2 : Vec F S64x8192 .f32) (x3 : Vec F S1x1x64 .f32) (x4 : Vec F S64x8192 .f32) (x5 : Vec F S1x1x64 .f32) (x6 : Vec F S8x1x1 .f32) (y : S8x32x32.Idx) :
    ∃ pc ∈ (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6).2.2.1, y ∈ pc.1.set :=
  View.cover_of_tiledL ((runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6).2.2.1) S8x32x32.size (by sl_kernel_rfl) y

theorem coverFirst_s1 (c : Dev nD) (i : grid0.Coords) (arg2 : Memref sig .tc .vmem S1x2048x256 .f32) (harg2 : arg2.IsWhole) (arg3 : Memref sig .tc .vmem S1024x256 .f32) (harg3 : arg3.IsWhole) (arg4 : Memref sig .tc .vmem S64x8192 .f32) (harg4 : arg4.IsWhole) (arg5 : Memref sig .tc .vmem S1x1x64 .f32) (harg5 : arg5.IsWhole) (arg6 : Memref sig .tc .vmem S64x8192 .f32) (harg6 : arg6.IsWhole) (arg7 : Memref sig .tc .vmem S1x1x64 .f32) (harg7 : arg7.IsWhole) (arg8 : Memref sig .tc .vmem S8x1x1 .f32) (harg8 : arg8.IsWhole) (arg9 : Memref sig .tc .vmem S1x8x32x2048 .bf16) (harg9 : arg9.IsWhole) (arg10 : Memref sig .tc .vmem S1x8x32x2048 .bf16) (harg10 : arg10.IsWhole) (arg11 : Memref sig .tc .vmem S1x8x32x32 .f32) (harg11 : arg11.IsWhole) (arg12 : Memref sig .tc .vmem S1x8x32x64 .f32) (harg12 : arg12.IsWhole) (arg13 : Memref sig .tc .vmem S1x8x32x64 .f32) (harg13 : arg13.IsWhole) (arg14 : Memref sig .tc .vmem S8x32x32 .f32) (harg14 : arg14.IsWhole) (arg15 : Memref sig .tc .vmem S8x32 .f32) (harg15 : arg15.IsWhole) (arg16 : Memref sig .tc .vmem S8x32 .f32) (harg16 : arg16.IsWhole) (arg17 : Memref sig .tc .vmem S8x32x64 .f32) (harg17 : arg17.IsWhole) (arg18 : Memref sig .tc .vmem S8x32x64 .f32) (harg18 : arg18.IsWhole) (hc0 : condFirst i) (hc1 : ¬condLast i) (x0 : Vec F S1x2048x256 .f32) (x1 : Vec F S1024x256 .f32) (x2 : Vec F S64x8192 .f32) (x3 : Vec F S1x1x64 .f32) (x4 : Vec F S64x8192 .f32) (x5 : Vec F S1x1x64 .f32) (x6 : Vec F S8x1x1 .f32) (y : S8x32.Idx) :
    ∃ pc ∈ (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6).2.2.2.1, y ∈ pc.1.set :=
  View.cover_of_tiledL ((runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6).2.2.2.1) S8x32.size (by sl_kernel_rfl) y

theorem coverFirst_s2 (c : Dev nD) (i : grid0.Coords) (arg2 : Memref sig .tc .vmem S1x2048x256 .f32) (harg2 : arg2.IsWhole) (arg3 : Memref sig .tc .vmem S1024x256 .f32) (harg3 : arg3.IsWhole) (arg4 : Memref sig .tc .vmem S64x8192 .f32) (harg4 : arg4.IsWhole) (arg5 : Memref sig .tc .vmem S1x1x64 .f32) (harg5 : arg5.IsWhole) (arg6 : Memref sig .tc .vmem S64x8192 .f32) (harg6 : arg6.IsWhole) (arg7 : Memref sig .tc .vmem S1x1x64 .f32) (harg7 : arg7.IsWhole) (arg8 : Memref sig .tc .vmem S8x1x1 .f32) (harg8 : arg8.IsWhole) (arg9 : Memref sig .tc .vmem S1x8x32x2048 .bf16) (harg9 : arg9.IsWhole) (arg10 : Memref sig .tc .vmem S1x8x32x2048 .bf16) (harg10 : arg10.IsWhole) (arg11 : Memref sig .tc .vmem S1x8x32x32 .f32) (harg11 : arg11.IsWhole) (arg12 : Memref sig .tc .vmem S1x8x32x64 .f32) (harg12 : arg12.IsWhole) (arg13 : Memref sig .tc .vmem S1x8x32x64 .f32) (harg13 : arg13.IsWhole) (arg14 : Memref sig .tc .vmem S8x32x32 .f32) (harg14 : arg14.IsWhole) (arg15 : Memref sig .tc .vmem S8x32 .f32) (harg15 : arg15.IsWhole) (arg16 : Memref sig .tc .vmem S8x32 .f32) (harg16 : arg16.IsWhole) (arg17 : Memref sig .tc .vmem S8x32x64 .f32) (harg17 : arg17.IsWhole) (arg18 : Memref sig .tc .vmem S8x32x64 .f32) (harg18 : arg18.IsWhole) (hc0 : condFirst i) (hc1 : ¬condLast i) (x0 : Vec F S1x2048x256 .f32) (x1 : Vec F S1024x256 .f32) (x2 : Vec F S64x8192 .f32) (x3 : Vec F S1x1x64 .f32) (x4 : Vec F S64x8192 .f32) (x5 : Vec F S1x1x64 .f32) (x6 : Vec F S8x1x1 .f32) (y : S8x32.Idx) :
    ∃ pc ∈ (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6).2.2.2.2.1, y ∈ pc.1.set :=
  View.cover_of_tiledL ((runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6).2.2.2.2.1) S8x32.size (by sl_kernel_rfl) y

theorem coverFirst_s3 (c : Dev nD) (i : grid0.Coords) (arg2 : Memref sig .tc .vmem S1x2048x256 .f32) (harg2 : arg2.IsWhole) (arg3 : Memref sig .tc .vmem S1024x256 .f32) (harg3 : arg3.IsWhole) (arg4 : Memref sig .tc .vmem S64x8192 .f32) (harg4 : arg4.IsWhole) (arg5 : Memref sig .tc .vmem S1x1x64 .f32) (harg5 : arg5.IsWhole) (arg6 : Memref sig .tc .vmem S64x8192 .f32) (harg6 : arg6.IsWhole) (arg7 : Memref sig .tc .vmem S1x1x64 .f32) (harg7 : arg7.IsWhole) (arg8 : Memref sig .tc .vmem S8x1x1 .f32) (harg8 : arg8.IsWhole) (arg9 : Memref sig .tc .vmem S1x8x32x2048 .bf16) (harg9 : arg9.IsWhole) (arg10 : Memref sig .tc .vmem S1x8x32x2048 .bf16) (harg10 : arg10.IsWhole) (arg11 : Memref sig .tc .vmem S1x8x32x32 .f32) (harg11 : arg11.IsWhole) (arg12 : Memref sig .tc .vmem S1x8x32x64 .f32) (harg12 : arg12.IsWhole) (arg13 : Memref sig .tc .vmem S1x8x32x64 .f32) (harg13 : arg13.IsWhole) (arg14 : Memref sig .tc .vmem S8x32x32 .f32) (harg14 : arg14.IsWhole) (arg15 : Memref sig .tc .vmem S8x32 .f32) (harg15 : arg15.IsWhole) (arg16 : Memref sig .tc .vmem S8x32 .f32) (harg16 : arg16.IsWhole) (arg17 : Memref sig .tc .vmem S8x32x64 .f32) (harg17 : arg17.IsWhole) (arg18 : Memref sig .tc .vmem S8x32x64 .f32) (harg18 : arg18.IsWhole) (hc0 : condFirst i) (hc1 : ¬condLast i) (x0 : Vec F S1x2048x256 .f32) (x1 : Vec F S1024x256 .f32) (x2 : Vec F S64x8192 .f32) (x3 : Vec F S1x1x64 .f32) (x4 : Vec F S64x8192 .f32) (x5 : Vec F S1x1x64 .f32) (x6 : Vec F S8x1x1 .f32) (y : S8x32x64.Idx) :
    ∃ pc ∈ (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6).2.2.2.2.2.1, y ∈ pc.1.set :=
  View.cover_of_tiledL ((runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6).2.2.2.2.2.1) S8x32x64.size (by sl_kernel_rfl) y

theorem coverFirst_s4 (c : Dev nD) (i : grid0.Coords) (arg2 : Memref sig .tc .vmem S1x2048x256 .f32) (harg2 : arg2.IsWhole) (arg3 : Memref sig .tc .vmem S1024x256 .f32) (harg3 : arg3.IsWhole) (arg4 : Memref sig .tc .vmem S64x8192 .f32) (harg4 : arg4.IsWhole) (arg5 : Memref sig .tc .vmem S1x1x64 .f32) (harg5 : arg5.IsWhole) (arg6 : Memref sig .tc .vmem S64x8192 .f32) (harg6 : arg6.IsWhole) (arg7 : Memref sig .tc .vmem S1x1x64 .f32) (harg7 : arg7.IsWhole) (arg8 : Memref sig .tc .vmem S8x1x1 .f32) (harg8 : arg8.IsWhole) (arg9 : Memref sig .tc .vmem S1x8x32x2048 .bf16) (harg9 : arg9.IsWhole) (arg10 : Memref sig .tc .vmem S1x8x32x2048 .bf16) (harg10 : arg10.IsWhole) (arg11 : Memref sig .tc .vmem S1x8x32x32 .f32) (harg11 : arg11.IsWhole) (arg12 : Memref sig .tc .vmem S1x8x32x64 .f32) (harg12 : arg12.IsWhole) (arg13 : Memref sig .tc .vmem S1x8x32x64 .f32) (harg13 : arg13.IsWhole) (arg14 : Memref sig .tc .vmem S8x32x32 .f32) (harg14 : arg14.IsWhole) (arg15 : Memref sig .tc .vmem S8x32 .f32) (harg15 : arg15.IsWhole) (arg16 : Memref sig .tc .vmem S8x32 .f32) (harg16 : arg16.IsWhole) (arg17 : Memref sig .tc .vmem S8x32x64 .f32) (harg17 : arg17.IsWhole) (arg18 : Memref sig .tc .vmem S8x32x64 .f32) (harg18 : arg18.IsWhole) (hc0 : condFirst i) (hc1 : ¬condLast i) (x0 : Vec F S1x2048x256 .f32) (x1 : Vec F S1024x256 .f32) (x2 : Vec F S64x8192 .f32) (x3 : Vec F S1x1x64 .f32) (x4 : Vec F S64x8192 .f32) (x5 : Vec F S1x1x64 .f32) (x6 : Vec F S8x1x1 .f32) (y : S8x32x64.Idx) :
    ∃ pc ∈ (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6).2.2.2.2.2.2.1, y ∈ pc.1.set :=
  View.cover_of_tiledL ((runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6).2.2.2.2.2.2.1) S8x32x64.size (by sl_kernel_rfl) y

theorem coverMid_o7 (c : Dev nD) (i : grid0.Coords) (arg2 : Memref sig .tc .vmem S1x2048x256 .f32) (harg2 : arg2.IsWhole) (arg3 : Memref sig .tc .vmem S1024x256 .f32) (harg3 : arg3.IsWhole) (arg4 : Memref sig .tc .vmem S64x8192 .f32) (harg4 : arg4.IsWhole) (arg5 : Memref sig .tc .vmem S1x1x64 .f32) (harg5 : arg5.IsWhole) (arg6 : Memref sig .tc .vmem S64x8192 .f32) (harg6 : arg6.IsWhole) (arg7 : Memref sig .tc .vmem S1x1x64 .f32) (harg7 : arg7.IsWhole) (arg8 : Memref sig .tc .vmem S8x1x1 .f32) (harg8 : arg8.IsWhole) (arg9 : Memref sig .tc .vmem S1x8x32x2048 .bf16) (harg9 : arg9.IsWhole) (arg10 : Memref sig .tc .vmem S1x8x32x2048 .bf16) (harg10 : arg10.IsWhole) (arg11 : Memref sig .tc .vmem S1x8x32x32 .f32) (harg11 : arg11.IsWhole) (arg12 : Memref sig .tc .vmem S1x8x32x64 .f32) (harg12 : arg12.IsWhole) (arg13 : Memref sig .tc .vmem S1x8x32x64 .f32) (harg13 : arg13.IsWhole) (arg14 : Memref sig .tc .vmem S8x32x32 .f32) (harg14 : arg14.IsWhole) (arg15 : Memref sig .tc .vmem S8x32 .f32) (harg15 : arg15.IsWhole) (arg16 : Memref sig .tc .vmem S8x32 .f32) (harg16 : arg16.IsWhole) (arg17 : Memref sig .tc .vmem S8x32x64 .f32) (harg17 : arg17.IsWhole) (arg18 : Memref sig .tc .vmem S8x32x64 .f32) (harg18 : arg18.IsWhole) (hc0 : ¬condFirst i) (hc1 : ¬condLast i) (x0 : Vec F S1x2048x256 .f32) (x1 : Vec F S1024x256 .f32) (x2 : Vec F S64x8192 .f32) (x3 : Vec F S1x1x64 .f32) (x4 : Vec F S64x8192 .f32) (x5 : Vec F S1x1x64 .f32) (x6 : Vec F S8x1x1 .f32) (xs0 : Vec F S8x32x32 .f32) (xs1 : Vec F S8x32 .f32) (xs2 : Vec F S8x32 .f32) (xs3 : Vec F S8x32x64 .f32) (xs4 : Vec F S8x32x64 .f32) (y : S1x8x32x2048.Idx) :
    ∃ pc ∈ (runMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4).1, y ∈ pc.1.set :=
  View.cover_of_tiledL ((runMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4).1) S1x8x32x2048.size (by sl_kernel_rfl) y

theorem coverMid_o8 (c : Dev nD) (i : grid0.Coords) (arg2 : Memref sig .tc .vmem S1x2048x256 .f32) (harg2 : arg2.IsWhole) (arg3 : Memref sig .tc .vmem S1024x256 .f32) (harg3 : arg3.IsWhole) (arg4 : Memref sig .tc .vmem S64x8192 .f32) (harg4 : arg4.IsWhole) (arg5 : Memref sig .tc .vmem S1x1x64 .f32) (harg5 : arg5.IsWhole) (arg6 : Memref sig .tc .vmem S64x8192 .f32) (harg6 : arg6.IsWhole) (arg7 : Memref sig .tc .vmem S1x1x64 .f32) (harg7 : arg7.IsWhole) (arg8 : Memref sig .tc .vmem S8x1x1 .f32) (harg8 : arg8.IsWhole) (arg9 : Memref sig .tc .vmem S1x8x32x2048 .bf16) (harg9 : arg9.IsWhole) (arg10 : Memref sig .tc .vmem S1x8x32x2048 .bf16) (harg10 : arg10.IsWhole) (arg11 : Memref sig .tc .vmem S1x8x32x32 .f32) (harg11 : arg11.IsWhole) (arg12 : Memref sig .tc .vmem S1x8x32x64 .f32) (harg12 : arg12.IsWhole) (arg13 : Memref sig .tc .vmem S1x8x32x64 .f32) (harg13 : arg13.IsWhole) (arg14 : Memref sig .tc .vmem S8x32x32 .f32) (harg14 : arg14.IsWhole) (arg15 : Memref sig .tc .vmem S8x32 .f32) (harg15 : arg15.IsWhole) (arg16 : Memref sig .tc .vmem S8x32 .f32) (harg16 : arg16.IsWhole) (arg17 : Memref sig .tc .vmem S8x32x64 .f32) (harg17 : arg17.IsWhole) (arg18 : Memref sig .tc .vmem S8x32x64 .f32) (harg18 : arg18.IsWhole) (hc0 : ¬condFirst i) (hc1 : ¬condLast i) (x0 : Vec F S1x2048x256 .f32) (x1 : Vec F S1024x256 .f32) (x2 : Vec F S64x8192 .f32) (x3 : Vec F S1x1x64 .f32) (x4 : Vec F S64x8192 .f32) (x5 : Vec F S1x1x64 .f32) (x6 : Vec F S8x1x1 .f32) (xs0 : Vec F S8x32x32 .f32) (xs1 : Vec F S8x32 .f32) (xs2 : Vec F S8x32 .f32) (xs3 : Vec F S8x32x64 .f32) (xs4 : Vec F S8x32x64 .f32) (y : S1x8x32x2048.Idx) :
    ∃ pc ∈ (runMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4).2.1, y ∈ pc.1.set :=
  View.cover_of_tiledL ((runMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4).2.1) S1x8x32x2048.size (by sl_kernel_rfl) y

theorem coverMid_s0 (c : Dev nD) (i : grid0.Coords) (arg2 : Memref sig .tc .vmem S1x2048x256 .f32) (harg2 : arg2.IsWhole) (arg3 : Memref sig .tc .vmem S1024x256 .f32) (harg3 : arg3.IsWhole) (arg4 : Memref sig .tc .vmem S64x8192 .f32) (harg4 : arg4.IsWhole) (arg5 : Memref sig .tc .vmem S1x1x64 .f32) (harg5 : arg5.IsWhole) (arg6 : Memref sig .tc .vmem S64x8192 .f32) (harg6 : arg6.IsWhole) (arg7 : Memref sig .tc .vmem S1x1x64 .f32) (harg7 : arg7.IsWhole) (arg8 : Memref sig .tc .vmem S8x1x1 .f32) (harg8 : arg8.IsWhole) (arg9 : Memref sig .tc .vmem S1x8x32x2048 .bf16) (harg9 : arg9.IsWhole) (arg10 : Memref sig .tc .vmem S1x8x32x2048 .bf16) (harg10 : arg10.IsWhole) (arg11 : Memref sig .tc .vmem S1x8x32x32 .f32) (harg11 : arg11.IsWhole) (arg12 : Memref sig .tc .vmem S1x8x32x64 .f32) (harg12 : arg12.IsWhole) (arg13 : Memref sig .tc .vmem S1x8x32x64 .f32) (harg13 : arg13.IsWhole) (arg14 : Memref sig .tc .vmem S8x32x32 .f32) (harg14 : arg14.IsWhole) (arg15 : Memref sig .tc .vmem S8x32 .f32) (harg15 : arg15.IsWhole) (arg16 : Memref sig .tc .vmem S8x32 .f32) (harg16 : arg16.IsWhole) (arg17 : Memref sig .tc .vmem S8x32x64 .f32) (harg17 : arg17.IsWhole) (arg18 : Memref sig .tc .vmem S8x32x64 .f32) (harg18 : arg18.IsWhole) (hc0 : ¬condFirst i) (hc1 : ¬condLast i) (x0 : Vec F S1x2048x256 .f32) (x1 : Vec F S1024x256 .f32) (x2 : Vec F S64x8192 .f32) (x3 : Vec F S1x1x64 .f32) (x4 : Vec F S64x8192 .f32) (x5 : Vec F S1x1x64 .f32) (x6 : Vec F S8x1x1 .f32) (xs0 : Vec F S8x32x32 .f32) (xs1 : Vec F S8x32 .f32) (xs2 : Vec F S8x32 .f32) (xs3 : Vec F S8x32x64 .f32) (xs4 : Vec F S8x32x64 .f32) (y : S8x32x32.Idx) :
    ∃ pc ∈ (runMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4).2.2.1, y ∈ pc.1.set :=
  View.cover_of_tiledL ((runMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4).2.2.1) S8x32x32.size (by sl_kernel_rfl) y

theorem coverMid_s1 (c : Dev nD) (i : grid0.Coords) (arg2 : Memref sig .tc .vmem S1x2048x256 .f32) (harg2 : arg2.IsWhole) (arg3 : Memref sig .tc .vmem S1024x256 .f32) (harg3 : arg3.IsWhole) (arg4 : Memref sig .tc .vmem S64x8192 .f32) (harg4 : arg4.IsWhole) (arg5 : Memref sig .tc .vmem S1x1x64 .f32) (harg5 : arg5.IsWhole) (arg6 : Memref sig .tc .vmem S64x8192 .f32) (harg6 : arg6.IsWhole) (arg7 : Memref sig .tc .vmem S1x1x64 .f32) (harg7 : arg7.IsWhole) (arg8 : Memref sig .tc .vmem S8x1x1 .f32) (harg8 : arg8.IsWhole) (arg9 : Memref sig .tc .vmem S1x8x32x2048 .bf16) (harg9 : arg9.IsWhole) (arg10 : Memref sig .tc .vmem S1x8x32x2048 .bf16) (harg10 : arg10.IsWhole) (arg11 : Memref sig .tc .vmem S1x8x32x32 .f32) (harg11 : arg11.IsWhole) (arg12 : Memref sig .tc .vmem S1x8x32x64 .f32) (harg12 : arg12.IsWhole) (arg13 : Memref sig .tc .vmem S1x8x32x64 .f32) (harg13 : arg13.IsWhole) (arg14 : Memref sig .tc .vmem S8x32x32 .f32) (harg14 : arg14.IsWhole) (arg15 : Memref sig .tc .vmem S8x32 .f32) (harg15 : arg15.IsWhole) (arg16 : Memref sig .tc .vmem S8x32 .f32) (harg16 : arg16.IsWhole) (arg17 : Memref sig .tc .vmem S8x32x64 .f32) (harg17 : arg17.IsWhole) (arg18 : Memref sig .tc .vmem S8x32x64 .f32) (harg18 : arg18.IsWhole) (hc0 : ¬condFirst i) (hc1 : ¬condLast i) (x0 : Vec F S1x2048x256 .f32) (x1 : Vec F S1024x256 .f32) (x2 : Vec F S64x8192 .f32) (x3 : Vec F S1x1x64 .f32) (x4 : Vec F S64x8192 .f32) (x5 : Vec F S1x1x64 .f32) (x6 : Vec F S8x1x1 .f32) (xs0 : Vec F S8x32x32 .f32) (xs1 : Vec F S8x32 .f32) (xs2 : Vec F S8x32 .f32) (xs3 : Vec F S8x32x64 .f32) (xs4 : Vec F S8x32x64 .f32) (y : S8x32.Idx) :
    ∃ pc ∈ (runMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4).2.2.2.1, y ∈ pc.1.set :=
  View.cover_of_tiledL ((runMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4).2.2.2.1) S8x32.size (by sl_kernel_rfl) y

theorem coverMid_s2 (c : Dev nD) (i : grid0.Coords) (arg2 : Memref sig .tc .vmem S1x2048x256 .f32) (harg2 : arg2.IsWhole) (arg3 : Memref sig .tc .vmem S1024x256 .f32) (harg3 : arg3.IsWhole) (arg4 : Memref sig .tc .vmem S64x8192 .f32) (harg4 : arg4.IsWhole) (arg5 : Memref sig .tc .vmem S1x1x64 .f32) (harg5 : arg5.IsWhole) (arg6 : Memref sig .tc .vmem S64x8192 .f32) (harg6 : arg6.IsWhole) (arg7 : Memref sig .tc .vmem S1x1x64 .f32) (harg7 : arg7.IsWhole) (arg8 : Memref sig .tc .vmem S8x1x1 .f32) (harg8 : arg8.IsWhole) (arg9 : Memref sig .tc .vmem S1x8x32x2048 .bf16) (harg9 : arg9.IsWhole) (arg10 : Memref sig .tc .vmem S1x8x32x2048 .bf16) (harg10 : arg10.IsWhole) (arg11 : Memref sig .tc .vmem S1x8x32x32 .f32) (harg11 : arg11.IsWhole) (arg12 : Memref sig .tc .vmem S1x8x32x64 .f32) (harg12 : arg12.IsWhole) (arg13 : Memref sig .tc .vmem S1x8x32x64 .f32) (harg13 : arg13.IsWhole) (arg14 : Memref sig .tc .vmem S8x32x32 .f32) (harg14 : arg14.IsWhole) (arg15 : Memref sig .tc .vmem S8x32 .f32) (harg15 : arg15.IsWhole) (arg16 : Memref sig .tc .vmem S8x32 .f32) (harg16 : arg16.IsWhole) (arg17 : Memref sig .tc .vmem S8x32x64 .f32) (harg17 : arg17.IsWhole) (arg18 : Memref sig .tc .vmem S8x32x64 .f32) (harg18 : arg18.IsWhole) (hc0 : ¬condFirst i) (hc1 : ¬condLast i) (x0 : Vec F S1x2048x256 .f32) (x1 : Vec F S1024x256 .f32) (x2 : Vec F S64x8192 .f32) (x3 : Vec F S1x1x64 .f32) (x4 : Vec F S64x8192 .f32) (x5 : Vec F S1x1x64 .f32) (x6 : Vec F S8x1x1 .f32) (xs0 : Vec F S8x32x32 .f32) (xs1 : Vec F S8x32 .f32) (xs2 : Vec F S8x32 .f32) (xs3 : Vec F S8x32x64 .f32) (xs4 : Vec F S8x32x64 .f32) (y : S8x32.Idx) :
    ∃ pc ∈ (runMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4).2.2.2.2.1, y ∈ pc.1.set :=
  View.cover_of_tiledL ((runMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4).2.2.2.2.1) S8x32.size (by sl_kernel_rfl) y

theorem coverMid_s3 (c : Dev nD) (i : grid0.Coords) (arg2 : Memref sig .tc .vmem S1x2048x256 .f32) (harg2 : arg2.IsWhole) (arg3 : Memref sig .tc .vmem S1024x256 .f32) (harg3 : arg3.IsWhole) (arg4 : Memref sig .tc .vmem S64x8192 .f32) (harg4 : arg4.IsWhole) (arg5 : Memref sig .tc .vmem S1x1x64 .f32) (harg5 : arg5.IsWhole) (arg6 : Memref sig .tc .vmem S64x8192 .f32) (harg6 : arg6.IsWhole) (arg7 : Memref sig .tc .vmem S1x1x64 .f32) (harg7 : arg7.IsWhole) (arg8 : Memref sig .tc .vmem S8x1x1 .f32) (harg8 : arg8.IsWhole) (arg9 : Memref sig .tc .vmem S1x8x32x2048 .bf16) (harg9 : arg9.IsWhole) (arg10 : Memref sig .tc .vmem S1x8x32x2048 .bf16) (harg10 : arg10.IsWhole) (arg11 : Memref sig .tc .vmem S1x8x32x32 .f32) (harg11 : arg11.IsWhole) (arg12 : Memref sig .tc .vmem S1x8x32x64 .f32) (harg12 : arg12.IsWhole) (arg13 : Memref sig .tc .vmem S1x8x32x64 .f32) (harg13 : arg13.IsWhole) (arg14 : Memref sig .tc .vmem S8x32x32 .f32) (harg14 : arg14.IsWhole) (arg15 : Memref sig .tc .vmem S8x32 .f32) (harg15 : arg15.IsWhole) (arg16 : Memref sig .tc .vmem S8x32 .f32) (harg16 : arg16.IsWhole) (arg17 : Memref sig .tc .vmem S8x32x64 .f32) (harg17 : arg17.IsWhole) (arg18 : Memref sig .tc .vmem S8x32x64 .f32) (harg18 : arg18.IsWhole) (hc0 : ¬condFirst i) (hc1 : ¬condLast i) (x0 : Vec F S1x2048x256 .f32) (x1 : Vec F S1024x256 .f32) (x2 : Vec F S64x8192 .f32) (x3 : Vec F S1x1x64 .f32) (x4 : Vec F S64x8192 .f32) (x5 : Vec F S1x1x64 .f32) (x6 : Vec F S8x1x1 .f32) (xs0 : Vec F S8x32x32 .f32) (xs1 : Vec F S8x32 .f32) (xs2 : Vec F S8x32 .f32) (xs3 : Vec F S8x32x64 .f32) (xs4 : Vec F S8x32x64 .f32) (y : S8x32x64.Idx) :
    ∃ pc ∈ (runMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4).2.2.2.2.2.1, y ∈ pc.1.set :=
  View.cover_of_tiledL ((runMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4).2.2.2.2.2.1) S8x32x64.size (by sl_kernel_rfl) y

theorem coverMid_s4 (c : Dev nD) (i : grid0.Coords) (arg2 : Memref sig .tc .vmem S1x2048x256 .f32) (harg2 : arg2.IsWhole) (arg3 : Memref sig .tc .vmem S1024x256 .f32) (harg3 : arg3.IsWhole) (arg4 : Memref sig .tc .vmem S64x8192 .f32) (harg4 : arg4.IsWhole) (arg5 : Memref sig .tc .vmem S1x1x64 .f32) (harg5 : arg5.IsWhole) (arg6 : Memref sig .tc .vmem S64x8192 .f32) (harg6 : arg6.IsWhole) (arg7 : Memref sig .tc .vmem S1x1x64 .f32) (harg7 : arg7.IsWhole) (arg8 : Memref sig .tc .vmem S8x1x1 .f32) (harg8 : arg8.IsWhole) (arg9 : Memref sig .tc .vmem S1x8x32x2048 .bf16) (harg9 : arg9.IsWhole) (arg10 : Memref sig .tc .vmem S1x8x32x2048 .bf16) (harg10 : arg10.IsWhole) (arg11 : Memref sig .tc .vmem S1x8x32x32 .f32) (harg11 : arg11.IsWhole) (arg12 : Memref sig .tc .vmem S1x8x32x64 .f32) (harg12 : arg12.IsWhole) (arg13 : Memref sig .tc .vmem S1x8x32x64 .f32) (harg13 : arg13.IsWhole) (arg14 : Memref sig .tc .vmem S8x32x32 .f32) (harg14 : arg14.IsWhole) (arg15 : Memref sig .tc .vmem S8x32 .f32) (harg15 : arg15.IsWhole) (arg16 : Memref sig .tc .vmem S8x32 .f32) (harg16 : arg16.IsWhole) (arg17 : Memref sig .tc .vmem S8x32x64 .f32) (harg17 : arg17.IsWhole) (arg18 : Memref sig .tc .vmem S8x32x64 .f32) (harg18 : arg18.IsWhole) (hc0 : ¬condFirst i) (hc1 : ¬condLast i) (x0 : Vec F S1x2048x256 .f32) (x1 : Vec F S1024x256 .f32) (x2 : Vec F S64x8192 .f32) (x3 : Vec F S1x1x64 .f32) (x4 : Vec F S64x8192 .f32) (x5 : Vec F S1x1x64 .f32) (x6 : Vec F S8x1x1 .f32) (xs0 : Vec F S8x32x32 .f32) (xs1 : Vec F S8x32 .f32) (xs2 : Vec F S8x32 .f32) (xs3 : Vec F S8x32x64 .f32) (xs4 : Vec F S8x32x64 .f32) (y : S8x32x64.Idx) :
    ∃ pc ∈ (runMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4).2.2.2.2.2.2.1, y ∈ pc.1.set :=
  View.cover_of_tiledL ((runMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4).2.2.2.2.2.2.1) S8x32x64.size (by sl_kernel_rfl) y

theorem coverLast_o7 (c : Dev nD) (i : grid0.Coords) (arg2 : Memref sig .tc .vmem S1x2048x256 .f32) (harg2 : arg2.IsWhole) (arg3 : Memref sig .tc .vmem S1024x256 .f32) (harg3 : arg3.IsWhole) (arg4 : Memref sig .tc .vmem S64x8192 .f32) (harg4 : arg4.IsWhole) (arg5 : Memref sig .tc .vmem S1x1x64 .f32) (harg5 : arg5.IsWhole) (arg6 : Memref sig .tc .vmem S64x8192 .f32) (harg6 : arg6.IsWhole) (arg7 : Memref sig .tc .vmem S1x1x64 .f32) (harg7 : arg7.IsWhole) (arg8 : Memref sig .tc .vmem S8x1x1 .f32) (harg8 : arg8.IsWhole) (arg9 : Memref sig .tc .vmem S1x8x32x2048 .bf16) (harg9 : arg9.IsWhole) (arg10 : Memref sig .tc .vmem S1x8x32x2048 .bf16) (harg10 : arg10.IsWhole) (arg11 : Memref sig .tc .vmem S1x8x32x32 .f32) (harg11 : arg11.IsWhole) (arg12 : Memref sig .tc .vmem S1x8x32x64 .f32) (harg12 : arg12.IsWhole) (arg13 : Memref sig .tc .vmem S1x8x32x64 .f32) (harg13 : arg13.IsWhole) (arg14 : Memref sig .tc .vmem S8x32x32 .f32) (harg14 : arg14.IsWhole) (arg15 : Memref sig .tc .vmem S8x32 .f32) (harg15 : arg15.IsWhole) (arg16 : Memref sig .tc .vmem S8x32 .f32) (harg16 : arg16.IsWhole) (arg17 : Memref sig .tc .vmem S8x32x64 .f32) (harg17 : arg17.IsWhole) (arg18 : Memref sig .tc .vmem S8x32x64 .f32) (harg18 : arg18.IsWhole) (hc0 : ¬condFirst i) (hc1 : condLast i) (x0 : Vec F S1x2048x256 .f32) (x1 : Vec F S1024x256 .f32) (x2 : Vec F S64x8192 .f32) (x3 : Vec F S1x1x64 .f32) (x4 : Vec F S64x8192 .f32) (x5 : Vec F S1x1x64 .f32) (x6 : Vec F S8x1x1 .f32) (xs0 : Vec F S8x32x32 .f32) (xs1 : Vec F S8x32 .f32) (xs2 : Vec F S8x32 .f32) (xs3 : Vec F S8x32x64 .f32) (xs4 : Vec F S8x32x64 .f32) (y : S1x8x32x2048.Idx) :
    ∃ pc ∈ (runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4).1, y ∈ pc.1.set :=
  View.cover_of_tiledL ((runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4).1) S1x8x32x2048.size (by sl_kernel_rfl) y

theorem coverLast_o8 (c : Dev nD) (i : grid0.Coords) (arg2 : Memref sig .tc .vmem S1x2048x256 .f32) (harg2 : arg2.IsWhole) (arg3 : Memref sig .tc .vmem S1024x256 .f32) (harg3 : arg3.IsWhole) (arg4 : Memref sig .tc .vmem S64x8192 .f32) (harg4 : arg4.IsWhole) (arg5 : Memref sig .tc .vmem S1x1x64 .f32) (harg5 : arg5.IsWhole) (arg6 : Memref sig .tc .vmem S64x8192 .f32) (harg6 : arg6.IsWhole) (arg7 : Memref sig .tc .vmem S1x1x64 .f32) (harg7 : arg7.IsWhole) (arg8 : Memref sig .tc .vmem S8x1x1 .f32) (harg8 : arg8.IsWhole) (arg9 : Memref sig .tc .vmem S1x8x32x2048 .bf16) (harg9 : arg9.IsWhole) (arg10 : Memref sig .tc .vmem S1x8x32x2048 .bf16) (harg10 : arg10.IsWhole) (arg11 : Memref sig .tc .vmem S1x8x32x32 .f32) (harg11 : arg11.IsWhole) (arg12 : Memref sig .tc .vmem S1x8x32x64 .f32) (harg12 : arg12.IsWhole) (arg13 : Memref sig .tc .vmem S1x8x32x64 .f32) (harg13 : arg13.IsWhole) (arg14 : Memref sig .tc .vmem S8x32x32 .f32) (harg14 : arg14.IsWhole) (arg15 : Memref sig .tc .vmem S8x32 .f32) (harg15 : arg15.IsWhole) (arg16 : Memref sig .tc .vmem S8x32 .f32) (harg16 : arg16.IsWhole) (arg17 : Memref sig .tc .vmem S8x32x64 .f32) (harg17 : arg17.IsWhole) (arg18 : Memref sig .tc .vmem S8x32x64 .f32) (harg18 : arg18.IsWhole) (hc0 : ¬condFirst i) (hc1 : condLast i) (x0 : Vec F S1x2048x256 .f32) (x1 : Vec F S1024x256 .f32) (x2 : Vec F S64x8192 .f32) (x3 : Vec F S1x1x64 .f32) (x4 : Vec F S64x8192 .f32) (x5 : Vec F S1x1x64 .f32) (x6 : Vec F S8x1x1 .f32) (xs0 : Vec F S8x32x32 .f32) (xs1 : Vec F S8x32 .f32) (xs2 : Vec F S8x32 .f32) (xs3 : Vec F S8x32x64 .f32) (xs4 : Vec F S8x32x64 .f32) (y : S1x8x32x2048.Idx) :
    ∃ pc ∈ (runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4).2.1, y ∈ pc.1.set :=
  View.cover_of_tiledL ((runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4).2.1) S1x8x32x2048.size (by sl_kernel_rfl) y

theorem coverLast_o9 (c : Dev nD) (i : grid0.Coords) (arg2 : Memref sig .tc .vmem S1x2048x256 .f32) (harg2 : arg2.IsWhole) (arg3 : Memref sig .tc .vmem S1024x256 .f32) (harg3 : arg3.IsWhole) (arg4 : Memref sig .tc .vmem S64x8192 .f32) (harg4 : arg4.IsWhole) (arg5 : Memref sig .tc .vmem S1x1x64 .f32) (harg5 : arg5.IsWhole) (arg6 : Memref sig .tc .vmem S64x8192 .f32) (harg6 : arg6.IsWhole) (arg7 : Memref sig .tc .vmem S1x1x64 .f32) (harg7 : arg7.IsWhole) (arg8 : Memref sig .tc .vmem S8x1x1 .f32) (harg8 : arg8.IsWhole) (arg9 : Memref sig .tc .vmem S1x8x32x2048 .bf16) (harg9 : arg9.IsWhole) (arg10 : Memref sig .tc .vmem S1x8x32x2048 .bf16) (harg10 : arg10.IsWhole) (arg11 : Memref sig .tc .vmem S1x8x32x32 .f32) (harg11 : arg11.IsWhole) (arg12 : Memref sig .tc .vmem S1x8x32x64 .f32) (harg12 : arg12.IsWhole) (arg13 : Memref sig .tc .vmem S1x8x32x64 .f32) (harg13 : arg13.IsWhole) (arg14 : Memref sig .tc .vmem S8x32x32 .f32) (harg14 : arg14.IsWhole) (arg15 : Memref sig .tc .vmem S8x32 .f32) (harg15 : arg15.IsWhole) (arg16 : Memref sig .tc .vmem S8x32 .f32) (harg16 : arg16.IsWhole) (arg17 : Memref sig .tc .vmem S8x32x64 .f32) (harg17 : arg17.IsWhole) (arg18 : Memref sig .tc .vmem S8x32x64 .f32) (harg18 : arg18.IsWhole) (hc0 : ¬condFirst i) (hc1 : condLast i) (x0 : Vec F S1x2048x256 .f32) (x1 : Vec F S1024x256 .f32) (x2 : Vec F S64x8192 .f32) (x3 : Vec F S1x1x64 .f32) (x4 : Vec F S64x8192 .f32) (x5 : Vec F S1x1x64 .f32) (x6 : Vec F S8x1x1 .f32) (xs0 : Vec F S8x32x32 .f32) (xs1 : Vec F S8x32 .f32) (xs2 : Vec F S8x32 .f32) (xs3 : Vec F S8x32x64 .f32) (xs4 : Vec F S8x32x64 .f32) (y : S1x8x32x32.Idx) :
    ∃ pc ∈ (runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4).2.2.1, y ∈ pc.1.set :=
  View.cover_of_tiledL ((runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4).2.2.1) S1x8x32x32.size (by sl_kernel_rfl) y

theorem coverLast_o10 (c : Dev nD) (i : grid0.Coords) (arg2 : Memref sig .tc .vmem S1x2048x256 .f32) (harg2 : arg2.IsWhole) (arg3 : Memref sig .tc .vmem S1024x256 .f32) (harg3 : arg3.IsWhole) (arg4 : Memref sig .tc .vmem S64x8192 .f32) (harg4 : arg4.IsWhole) (arg5 : Memref sig .tc .vmem S1x1x64 .f32) (harg5 : arg5.IsWhole) (arg6 : Memref sig .tc .vmem S64x8192 .f32) (harg6 : arg6.IsWhole) (arg7 : Memref sig .tc .vmem S1x1x64 .f32) (harg7 : arg7.IsWhole) (arg8 : Memref sig .tc .vmem S8x1x1 .f32) (harg8 : arg8.IsWhole) (arg9 : Memref sig .tc .vmem S1x8x32x2048 .bf16) (harg9 : arg9.IsWhole) (arg10 : Memref sig .tc .vmem S1x8x32x2048 .bf16) (harg10 : arg10.IsWhole) (arg11 : Memref sig .tc .vmem S1x8x32x32 .f32) (harg11 : arg11.IsWhole) (arg12 : Memref sig .tc .vmem S1x8x32x64 .f32) (harg12 : arg12.IsWhole) (arg13 : Memref sig .tc .vmem S1x8x32x64 .f32) (harg13 : arg13.IsWhole) (arg14 : Memref sig .tc .vmem S8x32x32 .f32) (harg14 : arg14.IsWhole) (arg15 : Memref sig .tc .vmem S8x32 .f32) (harg15 : arg15.IsWhole) (arg16 : Memref sig .tc .vmem S8x32 .f32) (harg16 : arg16.IsWhole) (arg17 : Memref sig .tc .vmem S8x32x64 .f32) (harg17 : arg17.IsWhole) (arg18 : Memref sig .tc .vmem S8x32x64 .f32) (harg18 : arg18.IsWhole) (hc0 : ¬condFirst i) (hc1 : condLast i) (x0 : Vec F S1x2048x256 .f32) (x1 : Vec F S1024x256 .f32) (x2 : Vec F S64x8192 .f32) (x3 : Vec F S1x1x64 .f32) (x4 : Vec F S64x8192 .f32) (x5 : Vec F S1x1x64 .f32) (x6 : Vec F S8x1x1 .f32) (xs0 : Vec F S8x32x32 .f32) (xs1 : Vec F S8x32 .f32) (xs2 : Vec F S8x32 .f32) (xs3 : Vec F S8x32x64 .f32) (xs4 : Vec F S8x32x64 .f32) (y : S1x8x32x64.Idx) :
    ∃ pc ∈ (runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4).2.2.2.1, y ∈ pc.1.set :=
  View.cover_of_tiledL ((runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4).2.2.2.1) S1x8x32x64.size (by sl_kernel_rfl) y

theorem coverLast_o11 (c : Dev nD) (i : grid0.Coords) (arg2 : Memref sig .tc .vmem S1x2048x256 .f32) (harg2 : arg2.IsWhole) (arg3 : Memref sig .tc .vmem S1024x256 .f32) (harg3 : arg3.IsWhole) (arg4 : Memref sig .tc .vmem S64x8192 .f32) (harg4 : arg4.IsWhole) (arg5 : Memref sig .tc .vmem S1x1x64 .f32) (harg5 : arg5.IsWhole) (arg6 : Memref sig .tc .vmem S64x8192 .f32) (harg6 : arg6.IsWhole) (arg7 : Memref sig .tc .vmem S1x1x64 .f32) (harg7 : arg7.IsWhole) (arg8 : Memref sig .tc .vmem S8x1x1 .f32) (harg8 : arg8.IsWhole) (arg9 : Memref sig .tc .vmem S1x8x32x2048 .bf16) (harg9 : arg9.IsWhole) (arg10 : Memref sig .tc .vmem S1x8x32x2048 .bf16) (harg10 : arg10.IsWhole) (arg11 : Memref sig .tc .vmem S1x8x32x32 .f32) (harg11 : arg11.IsWhole) (arg12 : Memref sig .tc .vmem S1x8x32x64 .f32) (harg12 : arg12.IsWhole) (arg13 : Memref sig .tc .vmem S1x8x32x64 .f32) (harg13 : arg13.IsWhole) (arg14 : Memref sig .tc .vmem S8x32x32 .f32) (harg14 : arg14.IsWhole) (arg15 : Memref sig .tc .vmem S8x32 .f32) (harg15 : arg15.IsWhole) (arg16 : Memref sig .tc .vmem S8x32 .f32) (harg16 : arg16.IsWhole) (arg17 : Memref sig .tc .vmem S8x32x64 .f32) (harg17 : arg17.IsWhole) (arg18 : Memref sig .tc .vmem S8x32x64 .f32) (harg18 : arg18.IsWhole) (hc0 : ¬condFirst i) (hc1 : condLast i) (x0 : Vec F S1x2048x256 .f32) (x1 : Vec F S1024x256 .f32) (x2 : Vec F S64x8192 .f32) (x3 : Vec F S1x1x64 .f32) (x4 : Vec F S64x8192 .f32) (x5 : Vec F S1x1x64 .f32) (x6 : Vec F S8x1x1 .f32) (xs0 : Vec F S8x32x32 .f32) (xs1 : Vec F S8x32 .f32) (xs2 : Vec F S8x32 .f32) (xs3 : Vec F S8x32x64 .f32) (xs4 : Vec F S8x32x64 .f32) (y : S1x8x32x64.Idx) :
    ∃ pc ∈ (runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4).2.2.2.2.1, y ∈ pc.1.set :=
  View.cover_of_tiledL ((runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4).2.2.2.2.1) S1x8x32x64.size (by sl_kernel_rfl) y

theorem coverLast_s0 (c : Dev nD) (i : grid0.Coords) (arg2 : Memref sig .tc .vmem S1x2048x256 .f32) (harg2 : arg2.IsWhole) (arg3 : Memref sig .tc .vmem S1024x256 .f32) (harg3 : arg3.IsWhole) (arg4 : Memref sig .tc .vmem S64x8192 .f32) (harg4 : arg4.IsWhole) (arg5 : Memref sig .tc .vmem S1x1x64 .f32) (harg5 : arg5.IsWhole) (arg6 : Memref sig .tc .vmem S64x8192 .f32) (harg6 : arg6.IsWhole) (arg7 : Memref sig .tc .vmem S1x1x64 .f32) (harg7 : arg7.IsWhole) (arg8 : Memref sig .tc .vmem S8x1x1 .f32) (harg8 : arg8.IsWhole) (arg9 : Memref sig .tc .vmem S1x8x32x2048 .bf16) (harg9 : arg9.IsWhole) (arg10 : Memref sig .tc .vmem S1x8x32x2048 .bf16) (harg10 : arg10.IsWhole) (arg11 : Memref sig .tc .vmem S1x8x32x32 .f32) (harg11 : arg11.IsWhole) (arg12 : Memref sig .tc .vmem S1x8x32x64 .f32) (harg12 : arg12.IsWhole) (arg13 : Memref sig .tc .vmem S1x8x32x64 .f32) (harg13 : arg13.IsWhole) (arg14 : Memref sig .tc .vmem S8x32x32 .f32) (harg14 : arg14.IsWhole) (arg15 : Memref sig .tc .vmem S8x32 .f32) (harg15 : arg15.IsWhole) (arg16 : Memref sig .tc .vmem S8x32 .f32) (harg16 : arg16.IsWhole) (arg17 : Memref sig .tc .vmem S8x32x64 .f32) (harg17 : arg17.IsWhole) (arg18 : Memref sig .tc .vmem S8x32x64 .f32) (harg18 : arg18.IsWhole) (hc0 : ¬condFirst i) (hc1 : condLast i) (x0 : Vec F S1x2048x256 .f32) (x1 : Vec F S1024x256 .f32) (x2 : Vec F S64x8192 .f32) (x3 : Vec F S1x1x64 .f32) (x4 : Vec F S64x8192 .f32) (x5 : Vec F S1x1x64 .f32) (x6 : Vec F S8x1x1 .f32) (xs0 : Vec F S8x32x32 .f32) (xs1 : Vec F S8x32 .f32) (xs2 : Vec F S8x32 .f32) (xs3 : Vec F S8x32x64 .f32) (xs4 : Vec F S8x32x64 .f32) (y : S8x32x32.Idx) :
    ∃ pc ∈ (runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4).2.2.2.2.2.1, y ∈ pc.1.set :=
  View.cover_of_tiledL ((runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4).2.2.2.2.2.1) S8x32x32.size (by sl_kernel_rfl) y

theorem coverLast_s1 (c : Dev nD) (i : grid0.Coords) (arg2 : Memref sig .tc .vmem S1x2048x256 .f32) (harg2 : arg2.IsWhole) (arg3 : Memref sig .tc .vmem S1024x256 .f32) (harg3 : arg3.IsWhole) (arg4 : Memref sig .tc .vmem S64x8192 .f32) (harg4 : arg4.IsWhole) (arg5 : Memref sig .tc .vmem S1x1x64 .f32) (harg5 : arg5.IsWhole) (arg6 : Memref sig .tc .vmem S64x8192 .f32) (harg6 : arg6.IsWhole) (arg7 : Memref sig .tc .vmem S1x1x64 .f32) (harg7 : arg7.IsWhole) (arg8 : Memref sig .tc .vmem S8x1x1 .f32) (harg8 : arg8.IsWhole) (arg9 : Memref sig .tc .vmem S1x8x32x2048 .bf16) (harg9 : arg9.IsWhole) (arg10 : Memref sig .tc .vmem S1x8x32x2048 .bf16) (harg10 : arg10.IsWhole) (arg11 : Memref sig .tc .vmem S1x8x32x32 .f32) (harg11 : arg11.IsWhole) (arg12 : Memref sig .tc .vmem S1x8x32x64 .f32) (harg12 : arg12.IsWhole) (arg13 : Memref sig .tc .vmem S1x8x32x64 .f32) (harg13 : arg13.IsWhole) (arg14 : Memref sig .tc .vmem S8x32x32 .f32) (harg14 : arg14.IsWhole) (arg15 : Memref sig .tc .vmem S8x32 .f32) (harg15 : arg15.IsWhole) (arg16 : Memref sig .tc .vmem S8x32 .f32) (harg16 : arg16.IsWhole) (arg17 : Memref sig .tc .vmem S8x32x64 .f32) (harg17 : arg17.IsWhole) (arg18 : Memref sig .tc .vmem S8x32x64 .f32) (harg18 : arg18.IsWhole) (hc0 : ¬condFirst i) (hc1 : condLast i) (x0 : Vec F S1x2048x256 .f32) (x1 : Vec F S1024x256 .f32) (x2 : Vec F S64x8192 .f32) (x3 : Vec F S1x1x64 .f32) (x4 : Vec F S64x8192 .f32) (x5 : Vec F S1x1x64 .f32) (x6 : Vec F S8x1x1 .f32) (xs0 : Vec F S8x32x32 .f32) (xs1 : Vec F S8x32 .f32) (xs2 : Vec F S8x32 .f32) (xs3 : Vec F S8x32x64 .f32) (xs4 : Vec F S8x32x64 .f32) (y : S8x32.Idx) :
    ∃ pc ∈ (runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4).2.2.2.2.2.2.1, y ∈ pc.1.set :=
  View.cover_of_tiledL ((runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4).2.2.2.2.2.2.1) S8x32.size (by sl_kernel_rfl) y

theorem coverLast_s2 (c : Dev nD) (i : grid0.Coords) (arg2 : Memref sig .tc .vmem S1x2048x256 .f32) (harg2 : arg2.IsWhole) (arg3 : Memref sig .tc .vmem S1024x256 .f32) (harg3 : arg3.IsWhole) (arg4 : Memref sig .tc .vmem S64x8192 .f32) (harg4 : arg4.IsWhole) (arg5 : Memref sig .tc .vmem S1x1x64 .f32) (harg5 : arg5.IsWhole) (arg6 : Memref sig .tc .vmem S64x8192 .f32) (harg6 : arg6.IsWhole) (arg7 : Memref sig .tc .vmem S1x1x64 .f32) (harg7 : arg7.IsWhole) (arg8 : Memref sig .tc .vmem S8x1x1 .f32) (harg8 : arg8.IsWhole) (arg9 : Memref sig .tc .vmem S1x8x32x2048 .bf16) (harg9 : arg9.IsWhole) (arg10 : Memref sig .tc .vmem S1x8x32x2048 .bf16) (harg10 : arg10.IsWhole) (arg11 : Memref sig .tc .vmem S1x8x32x32 .f32) (harg11 : arg11.IsWhole) (arg12 : Memref sig .tc .vmem S1x8x32x64 .f32) (harg12 : arg12.IsWhole) (arg13 : Memref sig .tc .vmem S1x8x32x64 .f32) (harg13 : arg13.IsWhole) (arg14 : Memref sig .tc .vmem S8x32x32 .f32) (harg14 : arg14.IsWhole) (arg15 : Memref sig .tc .vmem S8x32 .f32) (harg15 : arg15.IsWhole) (arg16 : Memref sig .tc .vmem S8x32 .f32) (harg16 : arg16.IsWhole) (arg17 : Memref sig .tc .vmem S8x32x64 .f32) (harg17 : arg17.IsWhole) (arg18 : Memref sig .tc .vmem S8x32x64 .f32) (harg18 : arg18.IsWhole) (hc0 : ¬condFirst i) (hc1 : condLast i) (x0 : Vec F S1x2048x256 .f32) (x1 : Vec F S1024x256 .f32) (x2 : Vec F S64x8192 .f32) (x3 : Vec F S1x1x64 .f32) (x4 : Vec F S64x8192 .f32) (x5 : Vec F S1x1x64 .f32) (x6 : Vec F S8x1x1 .f32) (xs0 : Vec F S8x32x32 .f32) (xs1 : Vec F S8x32 .f32) (xs2 : Vec F S8x32 .f32) (xs3 : Vec F S8x32x64 .f32) (xs4 : Vec F S8x32x64 .f32) (y : S8x32.Idx) :
    ∃ pc ∈ (runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4).2.2.2.2.2.2.2.1, y ∈ pc.1.set :=
  View.cover_of_tiledL ((runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4).2.2.2.2.2.2.2.1) S8x32.size (by sl_kernel_rfl) y

theorem coverLast_s3 (c : Dev nD) (i : grid0.Coords) (arg2 : Memref sig .tc .vmem S1x2048x256 .f32) (harg2 : arg2.IsWhole) (arg3 : Memref sig .tc .vmem S1024x256 .f32) (harg3 : arg3.IsWhole) (arg4 : Memref sig .tc .vmem S64x8192 .f32) (harg4 : arg4.IsWhole) (arg5 : Memref sig .tc .vmem S1x1x64 .f32) (harg5 : arg5.IsWhole) (arg6 : Memref sig .tc .vmem S64x8192 .f32) (harg6 : arg6.IsWhole) (arg7 : Memref sig .tc .vmem S1x1x64 .f32) (harg7 : arg7.IsWhole) (arg8 : Memref sig .tc .vmem S8x1x1 .f32) (harg8 : arg8.IsWhole) (arg9 : Memref sig .tc .vmem S1x8x32x2048 .bf16) (harg9 : arg9.IsWhole) (arg10 : Memref sig .tc .vmem S1x8x32x2048 .bf16) (harg10 : arg10.IsWhole) (arg11 : Memref sig .tc .vmem S1x8x32x32 .f32) (harg11 : arg11.IsWhole) (arg12 : Memref sig .tc .vmem S1x8x32x64 .f32) (harg12 : arg12.IsWhole) (arg13 : Memref sig .tc .vmem S1x8x32x64 .f32) (harg13 : arg13.IsWhole) (arg14 : Memref sig .tc .vmem S8x32x32 .f32) (harg14 : arg14.IsWhole) (arg15 : Memref sig .tc .vmem S8x32 .f32) (harg15 : arg15.IsWhole) (arg16 : Memref sig .tc .vmem S8x32 .f32) (harg16 : arg16.IsWhole) (arg17 : Memref sig .tc .vmem S8x32x64 .f32) (harg17 : arg17.IsWhole) (arg18 : Memref sig .tc .vmem S8x32x64 .f32) (harg18 : arg18.IsWhole) (hc0 : ¬condFirst i) (hc1 : condLast i) (x0 : Vec F S1x2048x256 .f32) (x1 : Vec F S1024x256 .f32) (x2 : Vec F S64x8192 .f32) (x3 : Vec F S1x1x64 .f32) (x4 : Vec F S64x8192 .f32) (x5 : Vec F S1x1x64 .f32) (x6 : Vec F S8x1x1 .f32) (xs0 : Vec F S8x32x32 .f32) (xs1 : Vec F S8x32 .f32) (xs2 : Vec F S8x32 .f32) (xs3 : Vec F S8x32x64 .f32) (xs4 : Vec F S8x32x64 .f32) (y : S8x32x64.Idx) :
    ∃ pc ∈ (runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4).2.2.2.2.2.2.2.2.1, y ∈ pc.1.set :=
  View.cover_of_tiledL ((runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4).2.2.2.2.2.2.2.2.1) S8x32x64.size (by sl_kernel_rfl) y

theorem coverLast_s4 (c : Dev nD) (i : grid0.Coords) (arg2 : Memref sig .tc .vmem S1x2048x256 .f32) (harg2 : arg2.IsWhole) (arg3 : Memref sig .tc .vmem S1024x256 .f32) (harg3 : arg3.IsWhole) (arg4 : Memref sig .tc .vmem S64x8192 .f32) (harg4 : arg4.IsWhole) (arg5 : Memref sig .tc .vmem S1x1x64 .f32) (harg5 : arg5.IsWhole) (arg6 : Memref sig .tc .vmem S64x8192 .f32) (harg6 : arg6.IsWhole) (arg7 : Memref sig .tc .vmem S1x1x64 .f32) (harg7 : arg7.IsWhole) (arg8 : Memref sig .tc .vmem S8x1x1 .f32) (harg8 : arg8.IsWhole) (arg9 : Memref sig .tc .vmem S1x8x32x2048 .bf16) (harg9 : arg9.IsWhole) (arg10 : Memref sig .tc .vmem S1x8x32x2048 .bf16) (harg10 : arg10.IsWhole) (arg11 : Memref sig .tc .vmem S1x8x32x32 .f32) (harg11 : arg11.IsWhole) (arg12 : Memref sig .tc .vmem S1x8x32x64 .f32) (harg12 : arg12.IsWhole) (arg13 : Memref sig .tc .vmem S1x8x32x64 .f32) (harg13 : arg13.IsWhole) (arg14 : Memref sig .tc .vmem S8x32x32 .f32) (harg14 : arg14.IsWhole) (arg15 : Memref sig .tc .vmem S8x32 .f32) (harg15 : arg15.IsWhole) (arg16 : Memref sig .tc .vmem S8x32 .f32) (harg16 : arg16.IsWhole) (arg17 : Memref sig .tc .vmem S8x32x64 .f32) (harg17 : arg17.IsWhole) (arg18 : Memref sig .tc .vmem S8x32x64 .f32) (harg18 : arg18.IsWhole) (hc0 : ¬condFirst i) (hc1 : condLast i) (x0 : Vec F S1x2048x256 .f32) (x1 : Vec F S1024x256 .f32) (x2 : Vec F S64x8192 .f32) (x3 : Vec F S1x1x64 .f32) (x4 : Vec F S64x8192 .f32) (x5 : Vec F S1x1x64 .f32) (x6 : Vec F S8x1x1 .f32) (xs0 : Vec F S8x32x32 .f32) (xs1 : Vec F S8x32 .f32) (xs2 : Vec F S8x32 .f32) (xs3 : Vec F S8x32x64 .f32) (xs4 : Vec F S8x32x64 .f32) (y : S8x32x64.Idx) :
    ∃ pc ∈ (runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4).2.2.2.2.2.2.2.2.2.1, y ∈ pc.1.set :=
  View.cover_of_tiledL ((runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4).2.2.2.2.2.2.2.2.2.1) S8x32x64.size (by sl_kernel_rfl) y

/-! ## What the output buffers and the accumulators hold after a point -/

/-- The five output staging buffers (windows 7–11) and the five accumulators after the body at one point. -/
structure Outs (F : FTy → Type) [FloatOps F] where
  o7 : Vec F S1x8x32x2048 .bf16
  o8 : Vec F S1x8x32x2048 .bf16
  o9 : Vec F S1x8x32x32 .f32
  o10 : Vec F S1x8x32x64 .f32
  o11 : Vec F S1x8x32x64 .f32
  s0 : Vec F S8x32x32 .f32
  s1 : Vec F S8x32 .f32
  s2 : Vec F S8x32 .f32
  s3 : Vec F S8x32x64 .f32
  s4 : Vec F S8x32x64 .f32

-- the buffer contents when the call is entered
variable (V : (c : Dev nD) → (b : Ref sig .tc) → Buf (Elt F) ((c : Thread nD τ).loc b))

/-- Window `w`'s block at point `t`, cut out of its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- After the first tile of a batch. -/
def ptFirst (c : Dev nD) (t : Fin cfg0.N) (h0 : t.val % 4 = 0) : Outs F where
    o7 := VO7.read (Elt F) (VO7.writes (Elt F) VO7.junk (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM0 (Memref.isWhole_whole _) scM1 (Memref.isWhole_whole _) scM2 (Memref.isWhole_whole _) scM3 (Memref.isWhole_whole _) scM4 (Memref.isWhole_whole _) ((hcondFirst t).mpr h0) (fun h => absurd ((hcondLast t).mp h) (by omega)) (iblk V c 0 t) (iblk V c 1 t) (iblk V c 2 t) (iblk V c 3 t) (iblk V c 4 t) (iblk V c 5 t) (iblk V c 6 t)).1)
    o8 := VO8.read (Elt F) (VO8.writes (Elt F) VO8.junk (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM0 (Memref.isWhole_whole _) scM1 (Memref.isWhole_whole _) scM2 (Memref.isWhole_whole _) scM3 (Memref.isWhole_whole _) scM4 (Memref.isWhole_whole _) ((hcondFirst t).mpr h0) (fun h => absurd ((hcondLast t).mp h) (by omega)) (iblk V c 0 t) (iblk V c 1 t) (iblk V c 2 t) (iblk V c 3 t) (iblk V c 4 t) (iblk V c 5 t) (iblk V c 6 t)).2.1)
    o9 := VO9.read (Elt F) VO9.junk
    o10 := VO10.read (Elt F) VO10.junk
    o11 := VO11.read (Elt F) VO11.junk
    s0 := VS0.read (Elt F) (VS0.writes (Elt F) VS0.junk (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM0 (Memref.isWhole_whole _) scM1 (Memref.isWhole_whole _) scM2 (Memref.isWhole_whole _) scM3 (Memref.isWhole_whole _) scM4 (Memref.isWhole_whole _) ((hcondFirst t).mpr h0) (fun h => absurd ((hcondLast t).mp h) (by omega)) (iblk V c 0 t) (iblk V c 1 t) (iblk V c 2 t) (iblk V c 3 t) (iblk V c 4 t) (iblk V c 5 t) (iblk V c 6 t)).2.2.1)
    s1 := VS1.read (Elt F) (VS1.writes (Elt F) VS1.junk (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM0 (Memref.isWhole_whole _) scM1 (Memref.isWhole_whole _) scM2 (Memref.isWhole_whole _) scM3 (Memref.isWhole_whole _) scM4 (Memref.isWhole_whole _) ((hcondFirst t).mpr h0) (fun h => absurd ((hcondLast t).mp h) (by omega)) (iblk V c 0 t) (iblk V c 1 t) (iblk V c 2 t) (iblk V c 3 t) (iblk V c 4 t) (iblk V c 5 t) (iblk V c 6 t)).2.2.2.1)
    s2 := VS2.read (Elt F) (VS2.writes (Elt F) VS2.junk (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM0 (Memref.isWhole_whole _) scM1 (Memref.isWhole_whole _) scM2 (Memref.isWhole_whole _) scM3 (Memref.isWhole_whole _) scM4 (Memref.isWhole_whole _) ((hcondFirst t).mpr h0) (fun h => absurd ((hcondLast t).mp h) (by omega)) (iblk V c 0 t) (iblk V c 1 t) (iblk V c 2 t) (iblk V c 3 t) (iblk V c 4 t) (iblk V c 5 t) (iblk V c 6 t)).2.2.2.2.1)
    s3 := VS3.read (Elt F) (VS3.writes (Elt F) VS3.junk (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM0 (Memref.isWhole_whole _) scM1 (Memref.isWhole_whole _) scM2 (Memref.isWhole_whole _) scM3 (Memref.isWhole_whole _) scM4 (Memref.isWhole_whole _) ((hcondFirst t).mpr h0) (fun h => absurd ((hcondLast t).mp h) (by omega)) (iblk V c 0 t) (iblk V c 1 t) (iblk V c 2 t) (iblk V c 3 t) (iblk V c 4 t) (iblk V c 5 t) (iblk V c 6 t)).2.2.2.2.2.1)
    s4 := VS4.read (Elt F) (VS4.writes (Elt F) VS4.junk (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM0 (Memref.isWhole_whole _) scM1 (Memref.isWhole_whole _) scM2 (Memref.isWhole_whole _) scM3 (Memref.isWhole_whole _) scM4 (Memref.isWhole_whole _) ((hcondFirst t).mpr h0) (fun h => absurd ((hcondLast t).mp h) (by omega)) (iblk V c 0 t) (iblk V c 1 t) (iblk V c 2 t) (iblk V c 3 t) (iblk V c 4 t) (iblk V c 5 t) (iblk V c 6 t)).2.2.2.2.2.2.1)

/-- After a middle tile, over what the tile before left in the accumulators. -/
def ptMid (c : Dev nD) (t : Fin cfg0.N) (h0 : ¬t.val % 4 = 0) (h1 : ¬t.val % 4 = 3) (p : Outs F) : Outs F where
    o7 := VO7.read (Elt F) (VO7.writes (Elt F) VO7.junk (runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM0 (Memref.isWhole_whole _) scM1 (Memref.isWhole_whole _) scM2 (Memref.isWhole_whole _) scM3 (Memref.isWhole_whole _) scM4 (Memref.isWhole_whole _) (fun h => h0 ((hcondFirst t).mp h)) (fun h => h1 ((hcondLast t).mp h)) (iblk V c 0 t) (iblk V c 1 t) (iblk V c 2 t) (iblk V c 3 t) (iblk V c 4 t) (iblk V c 5 t) (iblk V c 6 t) (p).s0 (p).s1 (p).s2 (p).s3 (p).s4).1)
    o8 := VO8.read (Elt F) (VO8.writes (Elt F) VO8.junk (runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM0 (Memref.isWhole_whole _) scM1 (Memref.isWhole_whole _) scM2 (Memref.isWhole_whole _) scM3 (Memref.isWhole_whole _) scM4 (Memref.isWhole_whole _) (fun h => h0 ((hcondFirst t).mp h)) (fun h => h1 ((hcondLast t).mp h)) (iblk V c 0 t) (iblk V c 1 t) (iblk V c 2 t) (iblk V c 3 t) (iblk V c 4 t) (iblk V c 5 t) (iblk V c 6 t) (p).s0 (p).s1 (p).s2 (p).s3 (p).s4).2.1)
    o9 := VO9.read (Elt F) VO9.junk
    o10 := VO10.read (Elt F) VO10.junk
    o11 := VO11.read (Elt F) VO11.junk
    s0 := VS0.read (Elt F) (VS0.writes (Elt F) VS0.junk (runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM0 (Memref.isWhole_whole _) scM1 (Memref.isWhole_whole _) scM2 (Memref.isWhole_whole _) scM3 (Memref.isWhole_whole _) scM4 (Memref.isWhole_whole _) (fun h => h0 ((hcondFirst t).mp h)) (fun h => h1 ((hcondLast t).mp h)) (iblk V c 0 t) (iblk V c 1 t) (iblk V c 2 t) (iblk V c 3 t) (iblk V c 4 t) (iblk V c 5 t) (iblk V c 6 t) (p).s0 (p).s1 (p).s2 (p).s3 (p).s4).2.2.1)
    s1 := VS1.read (Elt F) (VS1.writes (Elt F) VS1.junk (runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM0 (Memref.isWhole_whole _) scM1 (Memref.isWhole_whole _) scM2 (Memref.isWhole_whole _) scM3 (Memref.isWhole_whole _) scM4 (Memref.isWhole_whole _) (fun h => h0 ((hcondFirst t).mp h)) (fun h => h1 ((hcondLast t).mp h)) (iblk V c 0 t) (iblk V c 1 t) (iblk V c 2 t) (iblk V c 3 t) (iblk V c 4 t) (iblk V c 5 t) (iblk V c 6 t) (p).s0 (p).s1 (p).s2 (p).s3 (p).s4).2.2.2.1)
    s2 := VS2.read (Elt F) (VS2.writes (Elt F) VS2.junk (runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM0 (Memref.isWhole_whole _) scM1 (Memref.isWhole_whole _) scM2 (Memref.isWhole_whole _) scM3 (Memref.isWhole_whole _) scM4 (Memref.isWhole_whole _) (fun h => h0 ((hcondFirst t).mp h)) (fun h => h1 ((hcondLast t).mp h)) (iblk V c 0 t) (iblk V c 1 t) (iblk V c 2 t) (iblk V c 3 t) (iblk V c 4 t) (iblk V c 5 t) (iblk V c 6 t) (p).s0 (p).s1 (p).s2 (p).s3 (p).s4).2.2.2.2.1)
    s3 := VS3.read (Elt F) (VS3.writes (Elt F) VS3.junk (runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM0 (Memref.isWhole_whole _) scM1 (Memref.isWhole_whole _) scM2 (Memref.isWhole_whole _) scM3 (Memref.isWhole_whole _) scM4 (Memref.isWhole_whole _) (fun h => h0 ((hcondFirst t).mp h)) (fun h => h1 ((hcondLast t).mp h)) (iblk V c 0 t) (iblk V c 1 t) (iblk V c 2 t) (iblk V c 3 t) (iblk V c 4 t) (iblk V c 5 t) (iblk V c 6 t) (p).s0 (p).s1 (p).s2 (p).s3 (p).s4).2.2.2.2.2.1)
    s4 := VS4.read (Elt F) (VS4.writes (Elt F) VS4.junk (runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM0 (Memref.isWhole_whole _) scM1 (Memref.isWhole_whole _) scM2 (Memref.isWhole_whole _) scM3 (Memref.isWhole_whole _) scM4 (Memref.isWhole_whole _) (fun h => h0 ((hcondFirst t).mp h)) (fun h => h1 ((hcondLast t).mp h)) (iblk V c 0 t) (iblk V c 1 t) (iblk V c 2 t) (iblk V c 3 t) (iblk V c 4 t) (iblk V c 5 t) (iblk V c 6 t) (p).s0 (p).s1 (p).s2 (p).s3 (p).s4).2.2.2.2.2.2.1)

/-- After the last tile of a batch, over what the tile before left in the accumulators. -/
def ptLast (c : Dev nD) (t : Fin cfg0.N) (h0 : ¬t.val % 4 = 0) (h1 : t.val % 4 = 3) (p : Outs F) : Outs F where
    o7 := VO7.read (Elt F) (VO7.writes (Elt F) VO7.junk (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM0 (Memref.isWhole_whole _) scM1 (Memref.isWhole_whole _) scM2 (Memref.isWhole_whole _) scM3 (Memref.isWhole_whole _) scM4 (Memref.isWhole_whole _) (fun h => h0 ((hcondFirst t).mp h)) ((hcondLast t).mpr h1) (iblk V c 0 t) (iblk V c 1 t) (iblk V c 2 t) (iblk V c 3 t) (iblk V c 4 t) (iblk V c 5 t) (iblk V c 6 t) (p).s0 (p).s1 (p).s2 (p).s3 (p).s4).1)
    o8 := VO8.read (Elt F) (VO8.writes (Elt F) VO8.junk (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM0 (Memref.isWhole_whole _) scM1 (Memref.isWhole_whole _) scM2 (Memref.isWhole_whole _) scM3 (Memref.isWhole_whole _) scM4 (Memref.isWhole_whole _) (fun h => h0 ((hcondFirst t).mp h)) ((hcondLast t).mpr h1) (iblk V c 0 t) (iblk V c 1 t) (iblk V c 2 t) (iblk V c 3 t) (iblk V c 4 t) (iblk V c 5 t) (iblk V c 6 t) (p).s0 (p).s1 (p).s2 (p).s3 (p).s4).2.1)
    o9 := VO9.read (Elt F) (VO9.writes (Elt F) VO9.junk (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM0 (Memref.isWhole_whole _) scM1 (Memref.isWhole_whole _) scM2 (Memref.isWhole_whole _) scM3 (Memref.isWhole_whole _) scM4 (Memref.isWhole_whole _) (fun h => h0 ((hcondFirst t).mp h)) ((hcondLast t).mpr h1) (iblk V c 0 t) (iblk V c 1 t) (iblk V c 2 t) (iblk V c 3 t) (iblk V c 4 t) (iblk V c 5 t) (iblk V c 6 t) (p).s0 (p).s1 (p).s2 (p).s3 (p).s4).2.2.1)
    o10 := VO10.read (Elt F) (VO10.writes (Elt F) VO10.junk (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM0 (Memref.isWhole_whole _) scM1 (Memref.isWhole_whole _) scM2 (Memref.isWhole_whole _) scM3 (Memref.isWhole_whole _) scM4 (Memref.isWhole_whole _) (fun h => h0 ((hcondFirst t).mp h)) ((hcondLast t).mpr h1) (iblk V c 0 t) (iblk V c 1 t) (iblk V c 2 t) (iblk V c 3 t) (iblk V c 4 t) (iblk V c 5 t) (iblk V c 6 t) (p).s0 (p).s1 (p).s2 (p).s3 (p).s4).2.2.2.1)
    o11 := VO11.read (Elt F) (VO11.writes (Elt F) VO11.junk (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM0 (Memref.isWhole_whole _) scM1 (Memref.isWhole_whole _) scM2 (Memref.isWhole_whole _) scM3 (Memref.isWhole_whole _) scM4 (Memref.isWhole_whole _) (fun h => h0 ((hcondFirst t).mp h)) ((hcondLast t).mpr h1) (iblk V c 0 t) (iblk V c 1 t) (iblk V c 2 t) (iblk V c 3 t) (iblk V c 4 t) (iblk V c 5 t) (iblk V c 6 t) (p).s0 (p).s1 (p).s2 (p).s3 (p).s4).2.2.2.2.1)
    s0 := VS0.read (Elt F) (VS0.writes (Elt F) VS0.junk (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM0 (Memref.isWhole_whole _) scM1 (Memref.isWhole_whole _) scM2 (Memref.isWhole_whole _) scM3 (Memref.isWhole_whole _) scM4 (Memref.isWhole_whole _) (fun h => h0 ((hcondFirst t).mp h)) ((hcondLast t).mpr h1) (iblk V c 0 t) (iblk V c 1 t) (iblk V c 2 t) (iblk V c 3 t) (iblk V c 4 t) (iblk V c 5 t) (iblk V c 6 t) (p).s0 (p).s1 (p).s2 (p).s3 (p).s4).2.2.2.2.2.1)
    s1 := VS1.read (Elt F) (VS1.writes (Elt F) VS1.junk (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM0 (Memref.isWhole_whole _) scM1 (Memref.isWhole_whole _) scM2 (Memref.isWhole_whole _) scM3 (Memref.isWhole_whole _) scM4 (Memref.isWhole_whole _) (fun h => h0 ((hcondFirst t).mp h)) ((hcondLast t).mpr h1) (iblk V c 0 t) (iblk V c 1 t) (iblk V c 2 t) (iblk V c 3 t) (iblk V c 4 t) (iblk V c 5 t) (iblk V c 6 t) (p).s0 (p).s1 (p).s2 (p).s3 (p).s4).2.2.2.2.2.2.1)
    s2 := VS2.read (Elt F) (VS2.writes (Elt F) VS2.junk (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM0 (Memref.isWhole_whole _) scM1 (Memref.isWhole_whole _) scM2 (Memref.isWhole_whole _) scM3 (Memref.isWhole_whole _) scM4 (Memref.isWhole_whole _) (fun h => h0 ((hcondFirst t).mp h)) ((hcondLast t).mpr h1) (iblk V c 0 t) (iblk V c 1 t) (iblk V c 2 t) (iblk V c 3 t) (iblk V c 4 t) (iblk V c 5 t) (iblk V c 6 t) (p).s0 (p).s1 (p).s2 (p).s3 (p).s4).2.2.2.2.2.2.2.1)
    s3 := VS3.read (Elt F) (VS3.writes (Elt F) VS3.junk (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM0 (Memref.isWhole_whole _) scM1 (Memref.isWhole_whole _) scM2 (Memref.isWhole_whole _) scM3 (Memref.isWhole_whole _) scM4 (Memref.isWhole_whole _) (fun h => h0 ((hcondFirst t).mp h)) ((hcondLast t).mpr h1) (iblk V c 0 t) (iblk V c 1 t) (iblk V c 2 t) (iblk V c 3 t) (iblk V c 4 t) (iblk V c 5 t) (iblk V c 6 t) (p).s0 (p).s1 (p).s2 (p).s3 (p).s4).2.2.2.2.2.2.2.2.1)
    s4 := VS4.read (Elt F) (VS4.writes (Elt F) VS4.junk (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM0 (Memref.isWhole_whole _) scM1 (Memref.isWhole_whole _) scM2 (Memref.isWhole_whole _) scM3 (Memref.isWhole_whole _) scM4 (Memref.isWhole_whole _) (fun h => h0 ((hcondFirst t).mp h)) ((hcondLast t).mpr h1) (iblk V c 0 t) (iblk V c 1 t) (iblk V c 2 t) (iblk V c 3 t) (iblk V c 4 t) (iblk V c 5 t) (iblk V c 6 t) (p).s0 (p).s1 (p).s2 (p).s3 (p).s4).2.2.2.2.2.2.2.2.2.1)

/-- THE ACCUMULATION: the buffers after the body at position `n`, by the case the position is in. -/
def outsAt (c : Dev nD) : (n : ℕ) → n < cfg0.N → Outs F
  | 0, hn => ptFirst V c ⟨0, hn⟩ (Nat.zero_mod _)
  | n + 1, hn =>
    if h0 : (n + 1) % 4 = 0 then ptFirst V c ⟨n + 1, hn⟩ h0
    else if h1 : (n + 1) % 4 = 3 then ptLast V c ⟨n + 1, hn⟩ h0 h1 (outsAt c n (Nat.lt_of_succ_lt hn))
    else ptMid V c ⟨n + 1, hn⟩ h0 h1 (outsAt c n (Nat.lt_of_succ_lt hn))

theorem outsAt_first (c : Dev nD) (t : Fin cfg0.N) (h0 : t.val % 4 = 0) :
    outsAt V c t.val t.isLt = ptFirst V c t h0 := by
  obtain ⟨n, hn⟩ := t
  cases n with
  | zero => rfl
  | succ n => exact (dif_pos h0).trans rfl

theorem outsAt_mid (c : Dev nD) (t : Fin cfg0.N) (h0 : ¬t.val % 4 = 0) (h1 : ¬t.val % 4 = 3) :
    outsAt V c t.val t.isLt = ptMid V c t h0 h1 (outsAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem outsAt_last (c : Dev nD) (t : Fin cfg0.N) (h0 : ¬t.val % 4 = 0) (h1 : t.val % 4 = 3) :
    outsAt V c t.val t.isLt = ptLast V c t h0 h1 (outsAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-! ## The region invariant -/

/-- The five accumulators at given contents, beside the scoped buffers the call never touches and the generator
    register at some state. -/
def accAt (c : Dev nD) (p : Outs F) : sProp 𝕄 :=
  iprop(iprop(iprop(owns (c : Thread nD τ) scM0 fullShare p.s0 ∗ owns (c : Thread nD τ) scM1 fullShare p.s1 ∗ owns (c : Thread nD τ) scM2 fullShare p.s2 ∗ owns (c : Thread nD τ) scM3 fullShare p.s3 ∗ owns (c : Thread nD τ) scM4 fullShare p.s4) ∗ restBut c) ∗ (∃ r, prngReg c r))

/-- The invariant before position `n`: before the first point the accumulators hold anything; afterwards what the
    point before left. -/
def PhiS (c : Dev nD) : (n : ℕ) → n ≤ cfg0.N → sProp 𝕄
  | 0, _ => Pipeline.ΦA spec0 c
  | n + 1, hn => accAt c (outsAt V c n hn)

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) : PhiS V c (n + 1) hn = accAt c (outsAt V c n hn) := rfl

theorem PhiS_pos (c : Dev nD) (n : ℕ) (h : n ≤ cfg0.N) (hz : n ≠ 0) :
    PhiS V c n h = accAt c (outsAt V c (n - 1) (by omega)) := by
  cases n with
  | zero => exact absurd rfl hz
  | succ n => rfl

end Cert.KernelIdeal.Pass1

end
-- ==== Proof.Pass1Region.lean ====
/-
  The first kernel call as a pipeline: its proof data and the body obligation.
  After the body at a point each input buffer still holds its block; the q and v_ca buffers hold the point's blocks;
  the three per-batch output buffers hold their results after the last tile of a batch and are idle elsewhere; the
  invariant hands the body the five accumulators at what the point before left (at anything before the very first
  point) and takes them back at this point's contents.  The obligation is checked case by case: a first tile (at the
  very first point of the grid, or later), a middle tile, a last tile.
-/
import proofs.«149626_j38448547234132_2_alg».proof.Proof.Pass1Outs

set_option maxRecDepth 16384

noncomputable section

namespace Cert.KernelIdeal.Pass1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The inputs are in their staging buffers at every point -/

/-- Window 0 (the x block of the point: one batch, 2048 tokens, all 256 channels). -/
theorem before_in0 {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Window 1 (the whole projection matrix). -/
theorem before_in1 {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Window 2 (the whole key low-rank matrix). -/
theorem before_in2 {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Window 3 (the key low-rank bias). -/
theorem before_in3 {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Window 4 (the whole value low-rank matrix). -/
theorem before_in4 {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Window 5 (the value low-rank bias). -/
theorem before_in5 {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Window 6 (the channel-attention temperature). -/
theorem before_in6 {c : Dev nD} (dat : Dat τ (Elt F) Unit ℕ (UR sig nD τ) ℕ cfg0 c) (hA : dat.A 6 = V c (Pipeline.arrRef spec0 6))
    (hafter : ∀ t, dat.after 6 t = iblk V c 6 t) (t : Fin cfg0.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => (outsAt V c t.val t.isLt).o7
    | ⟨8, _⟩ => (outsAt V c t.val t.isLt).o8
    | ⟨9, _⟩ => (outsAt V c t.val t.isLt).o9
    | ⟨10, _⟩ => (outsAt V c t.val t.isLt).o10
    | ⟨11, _⟩ => (outsAt V c t.val t.isLt).o11
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem Phi_castSucc (c : Dev nD) (t : Fin cfg0.N) :
    (dat V c).Φ t.castSucc = PhiS V c t.val (Nat.le_of_lt t.isLt) := by
  dsimp only [dat]; simp only [Fin.coe_castSucc]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = iblk V c 5 t := by dsimp only [dat]
theorem after_6 (c : Dev nD) (t : Fin cfg0.N) : (dat V c).after 6 t = iblk V c 6 t := by dsimp only [dat]
theorem after_7 (c : Dev nD) (t : Fin cfg0.N) : (dat V c).after 7 t = (outsAt V c t.val t.isLt).o7 := by dsimp only [dat]
theorem after_8 (c : Dev nD) (t : Fin cfg0.N) : (dat V c).after 8 t = (outsAt V c t.val t.isLt).o8 := by dsimp only [dat]
theorem after_9 (c : Dev nD) (t : Fin cfg0.N) : (dat V c).after 9 t = (outsAt V c t.val t.isLt).o9 := by dsimp only [dat]
theorem after_10 (c : Dev nD) (t : Fin cfg0.N) : (dat V c).after 10 t = (outsAt V c t.val t.isLt).o10 := by dsimp only [dat]
theorem after_11 (c : Dev nD) (t : Fin cfg0.N) : (dat V c).after 11 t = (outsAt V c t.val t.isLt).o11 := by dsimp only [dat]

theorem before_0 (c : Dev nD) (t : Fin cfg0.N) (d) : (dat V c).before 0 t d = iblk V c 0 t :=
  before_in0 V (dat V c) (A_eq V c 0) (after_0 V c) t d
theorem before_1 (c : Dev nD) (t : Fin cfg0.N) (d) : (dat V c).before 1 t d = iblk V c 1 t :=
  before_in1 V (dat V c) (A_eq V c 1) (after_1 V c) t d
theorem before_2 (c : Dev nD) (t : Fin cfg0.N) (d) : (dat V c).before 2 t d = iblk V c 2 t :=
  before_in2 V (dat V c) (A_eq V c 2) (after_2 V c) t d
theorem before_3 (c : Dev nD) (t : Fin cfg0.N) (d) : (dat V c).before 3 t d = iblk V c 3 t :=
  before_in3 V (dat V c) (A_eq V c 3) (after_3 V c) t d
theorem before_4 (c : Dev nD) (t : Fin cfg0.N) (d) : (dat V c).before 4 t d = iblk V c 4 t :=
  before_in4 V (dat V c) (A_eq V c 4) (after_4 V c) t d
theorem before_5 (c : Dev nD) (t : Fin cfg0.N) (d) : (dat V c).before 5 t d = iblk V c 5 t :=
  before_in5 V (dat V c) (A_eq V c 5) (after_5 V c) t d
theorem before_6 (c : Dev nD) (t : Fin cfg0.N) (d) : (dat V c).before 6 t d = iblk V c 6 t :=
  before_in6 V (dat V c) (A_eq V c 6) (after_6 V c) t d

/-! ## The body obligation -/

def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d))
    ∗ (∃ d, owns (c : Thread nD τ) (ms7 t) fullShare ((dat V c).before 7 t d))
    ∗ (∃ d, owns (c : Thread nD τ) (ms8 t) fullShare ((dat V c).before 8 t d))
    ∗ (∃ d, owns (c : Thread nD τ) (ms9 t) fullShare ((dat V c).before 9 t d))
    ∗ (∃ d, owns (c : Thread nD τ) (ms10 t) fullShare ((dat V c).before 10 t d))
    ∗ (∃ d, owns (c : Thread nD τ) (ms11 t) fullShare ((dat V c).before 11 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t
    ∗ (dat V c).leavesExact 10 t
    ∗ (dat V c).leavesExact 11 t)

/-- The precondition with the inputs' buffers at their blocks. -/
theorem bodyPre_eq (c : Dev nD) (t : Fin cfg0.N) :
    bodyPre V c t = iprop((dat V c).Φ t.castSucc ∗ (dat V c).owesAt () t.castSucc
    ∗ (∃ d : (cfg0.win 0).block.Idx → Elt F (cfg0.win 0).elt, owns (c : Thread nD τ) (ms0 t) fullShare (iblk V c 0 t))
    ∗ (∃ d : (cfg0.win 1).block.Idx → Elt F (cfg0.win 1).elt, owns (c : Thread nD τ) (ms1 t) fullShare (iblk V c 1 t))
    ∗ (∃ d : (cfg0.win 2).block.Idx → Elt F (cfg0.win 2).elt, owns (c : Thread nD τ) (ms2 t) fullShare (iblk V c 2 t))
    ∗ (∃ d : (cfg0.win 3).block.Idx → Elt F (cfg0.win 3).elt, owns (c : Thread nD τ) (ms3 t) fullShare (iblk V c 3 t))
    ∗ (∃ d : (cfg0.win 4).block.Idx → Elt F (cfg0.win 4).elt, owns (c : Thread nD τ) (ms4 t) fullShare (iblk V c 4 t))
    ∗ (∃ d : (cfg0.win 5).block.Idx → Elt F (cfg0.win 5).elt, owns (c : Thread nD τ) (ms5 t) fullShare (iblk V c 5 t))
    ∗ (∃ d : (cfg0.win 6).block.Idx → Elt F (cfg0.win 6).elt, owns (c : Thread nD τ) (ms6 t) fullShare (iblk V c 6 t))
    ∗ (∃ d, owns (c : Thread nD τ) (ms7 t) fullShare ((dat V c).before 7 t d))
    ∗ (∃ d, owns (c : Thread nD τ) (ms8 t) fullShare ((dat V c).before 8 t d))
    ∗ (∃ d, owns (c : Thread nD τ) (ms9 t) fullShare ((dat V c).before 9 t d))
    ∗ (∃ d, owns (c : Thread nD τ) (ms10 t) fullShare ((dat V c).before 10 t d))
    ∗ (∃ d, owns (c : Thread nD τ) (ms11 t) fullShare ((dat V c).before 11 t d))) := by
  unfold bodyPre
  simp only [before_0, before_1, before_2, before_3, before_4, before_5, before_6]

/-- The postcondition off the last tile of a batch: the accumulators at this point's contents, the inputs in
    place, the q and v_ca buffers at the point's blocks, the three per-batch buffers handed back as found. -/
theorem bodyPost_notLast (c : Dev nD) (t : Fin cfg0.N) (hnl : ¬condLast (grid0.coords t)) :
    bodyPost V c t = iprop(accAt c (outsAt V c t.val t.isLt) ∗ (dat V c).owesAt () t.castSucc
    ∗ owns (c : Thread nD τ) (ms0 t) fullShare (iblk V c 0 t)
    ∗ owns (c : Thread nD τ) (ms1 t) fullShare (iblk V c 1 t)
    ∗ owns (c : Thread nD τ) (ms2 t) fullShare (iblk V c 2 t)
    ∗ owns (c : Thread nD τ) (ms3 t) fullShare (iblk V c 3 t)
    ∗ owns (c : Thread nD τ) (ms4 t) fullShare (iblk V c 4 t)
    ∗ owns (c : Thread nD τ) (ms5 t) fullShare (iblk V c 5 t)
    ∗ owns (c : Thread nD τ) (ms6 t) fullShare (iblk V c 6 t)
    ∗ owns (c : Thread nD τ) (ms7 t) fullShare (outsAt V c t.val t.isLt).o7
    ∗ owns (c : Thread nD τ) (ms8 t) fullShare (outsAt V c t.val t.isLt).o8
    ∗ (∃ d, owns (c : Thread nD τ) (ms9 t) fullShare ((dat V c).before 9 t d))
    ∗ (∃ d, owns (c : Thread nD τ) (ms10 t) fullShare ((dat V c).before 10 t d))
    ∗ (∃ d, owns (c : Thread nD τ) (ms11 t) fullShare ((dat V c).before 11 t d))) := by
  unfold bodyPost
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
    unfold Dat.leavesExact; rw [live_0 t]]
  rw [show (dat V c).leavesExact 1 t = owns (c : Thread nD τ) (ms1 t) fullShare ((dat V c).after 1 t) from by
    unfold Dat.leavesExact; rw [live_1 t]]
  rw [show (dat V c).leavesExact 2 t = owns (c : Thread nD τ) (ms2 t) fullShare ((dat V c).after 2 t) from by
    unfold Dat.leavesExact; rw [live_2 t]]
  rw [show (dat V c).leavesExact 3 t = owns (c : Thread nD τ) (ms3 t) fullShare ((dat V c).after 3 t) from by
    unfold Dat.leavesExact; rw [live_3 t]]
  rw [show (dat V c).leavesExact 4 t = owns (c : Thread nD τ) (ms4 t) fullShare ((dat V c).after 4 t) from by
    unfold Dat.leavesExact; rw [live_4 t]]
  rw [show (dat V c).leavesExact 5 t = owns (c : Thread nD τ) (ms5 t) fullShare ((dat V c).after 5 t) from by
    unfold Dat.leavesExact; rw [live_5 t]]
  rw [show (dat V c).leavesExact 6 t = owns (c : Thread nD τ) (ms6 t) fullShare ((dat V c).after 6 t) from by
    unfold Dat.leavesExact; rw [live_6 t]]
  rw [show (dat V c).leavesExact 7 t = owns (c : Thread nD τ) (ms7 t) fullShare ((dat V c).after 7 t) from by
    unfold Dat.leavesExact; rw [live_7 t]]
  rw [show (dat V c).leavesExact 8 t = owns (c : Thread nD τ) (ms8 t) fullShare ((dat V c).after 8 t) from by
    unfold Dat.leavesExact; rw [live_8 t]]
  rw [after_0, after_1, after_2, after_3, after_4, after_5, after_6, after_7, after_8]
  rw [Dat.leavesExact_idle (dat V c) 9 t (idle_9 t hnl) (noFlush_9 t hnl)]
  rw [Dat.leavesExact_idle (dat V c) 10 t (idle_10 t hnl) (noFlush_10 t hnl)]
  rw [Dat.leavesExact_idle (dat V c) 11 t (idle_11 t hnl) (noFlush_11 t hnl)]
  try rfl

/-- The postcondition at the last tile of a batch: as above, with the three per-batch buffers at their results. -/
theorem bodyPost_last (c : Dev nD) (t : Fin cfg0.N) (hl : condLast (grid0.coords t)) :
    bodyPost V c t = iprop(accAt c (outsAt V c t.val t.isLt) ∗ (dat V c).owesAt () t.castSucc
    ∗ owns (c : Thread nD τ) (ms0 t) fullShare (iblk V c 0 t)
    ∗ owns (c : Thread nD τ) (ms1 t) fullShare (iblk V c 1 t)
    ∗ owns (c : Thread nD τ) (ms2 t) fullShare (iblk V c 2 t)
    ∗ owns (c : Thread nD τ) (ms3 t) fullShare (iblk V c 3 t)
    ∗ owns (c : Thread nD τ) (ms4 t) fullShare (iblk V c 4 t)
    ∗ owns (c : Thread nD τ) (ms5 t) fullShare (iblk V c 5 t)
    ∗ owns (c : Thread nD τ) (ms6 t) fullShare (iblk V c 6 t)
    ∗ owns (c : Thread nD τ) (ms7 t) fullShare (outsAt V c t.val t.isLt).o7
    ∗ owns (c : Thread nD τ) (ms8 t) fullShare (outsAt V c t.val t.isLt).o8
    ∗ owns (c : Thread nD τ) (ms9 t) fullShare (outsAt V c t.val t.isLt).o9
    ∗ owns (c : Thread nD τ) (ms10 t) fullShare (outsAt V c t.val t.isLt).o10
    ∗ owns (c : Thread nD τ) (ms11 t) fullShare (outsAt V c t.val t.isLt).o11) := by
  unfold bodyPost
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
    unfold Dat.leavesExact; rw [live_0 t]]
  rw [show (dat V c).leavesExact 1 t = owns (c : Thread nD τ) (ms1 t) fullShare ((dat V c).after 1 t) from by
    unfold Dat.leavesExact; rw [live_1 t]]
  rw [show (dat V c).leavesExact 2 t = owns (c : Thread nD τ) (ms2 t) fullShare ((dat V c).after 2 t) from by
    unfold Dat.leavesExact; rw [live_2 t]]
  rw [show (dat V c).leavesExact 3 t = owns (c : Thread nD τ) (ms3 t) fullShare ((dat V c).after 3 t) from by
    unfold Dat.leavesExact; rw [live_3 t]]
  rw [show (dat V c).leavesExact 4 t = owns (c : Thread nD τ) (ms4 t) fullShare ((dat V c).after 4 t) from by
    unfold Dat.leavesExact; rw [live_4 t]]
  rw [show (dat V c).leavesExact 5 t = owns (c : Thread nD τ) (ms5 t) fullShare ((dat V c).after 5 t) from by
    unfold Dat.leavesExact; rw [live_5 t]]
  rw [show (dat V c).leavesExact 6 t = owns (c : Thread nD τ) (ms6 t) fullShare ((dat V c).after 6 t) from by
    unfold Dat.leavesExact; rw [live_6 t]]
  rw [show (dat V c).leavesExact 7 t = owns (c : Thread nD τ) (ms7 t) fullShare ((dat V c).after 7 t) from by
    unfold Dat.leavesExact; rw [live_7 t]]
  rw [show (dat V c).leavesExact 8 t = owns (c : Thread nD τ) (ms8 t) fullShare ((dat V c).after 8 t) from by
    unfold Dat.leavesExact; rw [live_8 t]]
  rw [show (dat V c).leavesExact 9 t = owns (c : Thread nD τ) (ms9 t) fullShare ((dat V c).after 9 t) from by
    unfold Dat.leavesExact; rw [liveLast_9 t hl]]
  rw [show (dat V c).leavesExact 10 t = owns (c : Thread nD τ) (ms10 t) fullShare ((dat V c).after 10 t) from by
    unfold Dat.leavesExact; rw [liveLast_10 t hl]]
  rw [show (dat V c).leavesExact 11 t = owns (c : Thread nD τ) (ms11 t) fullShare ((dat V c).after 11 t) from by
    unfold Dat.leavesExact; rw [liveLast_11 t hl]]
  rw [after_0, after_1, after_2, after_3, after_4, after_5, after_6, after_7, after_8, after_9, after_10, after_11]

/-! ## The invariant at the call's two ends -/

/-- What the call is entered with is the invariant before the first point. -/
theorem Phi_in (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After the last point the invariant gives the class invariant back: the accumulators' contents are forgotten. -/
theorem Phi_out (c : Dev nD) : (dat V c).Φ (Fin.last cfg0.N) ⊢ Pipeline.ΦA spec0 c := by
  have hne : (Fin.last cfg0.N).val ≠ 0 := by rw [Fin.val_last]; have : cfg0.N = 32 := N_0; omega
  rw [show (dat V c).Φ (Fin.last cfg0.N) = PhiS V c (Fin.last cfg0.N).val (Nat.le_of_lt_succ (Fin.last cfg0.N).isLt) from rfl,
    PhiS_pos V c _ _ hne, PhiA_eq]
  unfold accAt
  iintro ⟨⟨⟨HS0, HS1, HS2, HS3, HS4⟩, Hrest⟩, Hg⟩
  isplitl [HS0 HS1 HS2 HS3 HS4 Hrest]
  · isplitl [HS0 HS1 HS2 HS3 HS4]
    · isplitl [HS0]; · iexists _; iexact HS0
      isplitl [HS1]; · iexists _; iexact HS1
      isplitl [HS2]; · iexists _; iexact HS2
      isplitl [HS3]; · iexists _; iexact HS3
      iexists _; iexact HS4
    iexact Hrest
  iexact Hg

end Cert.KernelIdeal.Pass1

end
-- ==== Proof.Pass1ObFirst0.lean ====
/-
  The first kernel call's body obligation at the very first point of the grid: a first tile, the accumulators found at anything.
-/
import proofs.«149626_j38448547234132_2_alg».proof.Proof.Pass1Region

set_option maxRecDepth 16384

noncomputable section

namespace Cert.KernelIdeal.Pass1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 8000000 in
theorem sound_first0 (c : Dev nD) (t : Fin cfg0.N) (h0 : t.val % 4 = 0) (hz : t.val = 0) : bodyPre V c t ⊢ wp frame (wpE (defs₀ (F := F)) Variants.none c none) Set.univ (bodyAt0 t) (fun _ => bodyPost V c t) := by
  have hnl : ¬condLast (grid0.coords t) := fun h => by have := (hcondLast t).mp h; omega
  have hΦ : (dat V c).Φ t.castSucc = Pipeline.ΦA spec0 c := (Phi_castSucc V c t).trans (PhiS_zero V c _ _ hz)
  rw [bodyPre_eq, hΦ, PhiA_eq, bodyPost_notLast V c t hnl, outsAt_first V c t h0]
  unfold bodyAt0 accAt ptFirst; dsimp only
  iintro ⟨⟨⟨⟨HS0, HS1, HS2, HS3, HS4⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM0 (Memref.isWhole_whole _) scM1 (Memref.isWhole_whole _) scM2 (Memref.isWhole_whole _) scM3 (Memref.isWhole_whole _) scM4 (Memref.isWhole_whole _) ((hcondFirst t).mpr h0) hnl (iblk V c 0 t) (iblk V c 1 t) (iblk V c 2 t) (iblk V c 3 t) (iblk V c 4 t) (iblk V c 5 t) (iblk V c 6 t)).2.2.2.2.2.2.2 _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexact H9
  isplitl [H10]; · iexact H10
  isplitl [H11]; · iexact H11
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, ⟨%e7, H7⟩, ⟨%e8, H8⟩, H9, H10, H11, ⟨%es0, HS0⟩, ⟨%es1, HS1⟩, ⟨%es2, HS2⟩, ⟨%es3, HS3⟩, ⟨%es4, HS4⟩⟩
  isplitl [HS0 HS1 HS2 HS3 HS4 Hrest Hg]
  · isplitl [HS0 HS1 HS2 HS3 HS4 Hrest]
    · isplitl [HS0 HS1 HS2 HS3 HS4]
      · isplitl [HS0]
        · unfold owns; iexists _; isplitr
          swap; · iexact HS0
          ipureintro; exact View.read_writes_of_cover _ _ _ _ _ (coverFirst_s0 c _ _ _ _ _ _ _ _ _ _ _ _ _ _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (coverFirst_s1 c _ _ _ _ _ _ _ _ _ _ _ _ _ _ _ _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (coverFirst_s2 c _ _ _ _ _ _ _ _ _ _ _ _ _ _ _ _ _ _ _ _ _ _ _ _ _ _ _ _ _ _ _ _ _ _ _ _ _ _ _ _ _ _ _ _)
        isplitl [HS3]
        · unfold owns; iexists _; isplitr
          swap; · iexact HS3
          ipureintro; exact View.read_writes_of_cover _ _ _ _ _ (coverFirst_s3 c _ _ _ _ _ _ _ _ _ _ _ _ _ _ _ _ _ _ _ _ _ _ _ _ _ _ _ _ _ _ _ _ _ _ _ _ _ _ _ _ _ _ _ _)
        unfold owns; iexists _; isplitr
        swap; · iexact HS4
        ipureintro; exact View.read_writes_of_cover _ _ _ _ _ (coverFirst_s4 c _ _ _ _ _ _ _ _ _ _ _ _ _ _ _ _ _ _ _ _ _ _ _ _ _ _ _ _ _ _ _ _ _ _ _ _ _ _ _ _ _ _ _ _)
      iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (coverFirst_o7 c _ _ _ _ _ _ _ _ _ _ _ _ _ _ _ _ _ _ _ _ _ _ _ _ _ _ _ _ _ _ _ _ _ _ _ _ _ _ _ _ _ _ _ _)
  isplitl [H8]
  · unfold owns; iexists _; isplitr
    swap; · iexact H8
    ipureintro; exact View.read_writes_of_cover _ _ _ _ _ (coverFirst_o8 c _ _ _ _ _ _ _ _ _ _ _ _ _ _ _ _ _ _ _ _ _ _ _ _ _ _ _ _ _ _ _ _ _ _ _ _ _ _ _ _ _ _ _ _)
  isplitl [H9]; · iexists _; iexact H9
  isplitl [H10]; · iexists _; iexact H10
  iexists _; iexact H11

end Cert.KernelIdeal.Pass1

end
-- ==== Proof.Pass1ObFirst.lean ====
/-
  The first kernel call's body obligation at a first tile of a later batch: the accumulators found at what the batch before left, and overwritten.
-/
import proofs.«149626_j38448547234132_2_alg».proof.Proof.Pass1Region

set_option maxRecDepth 16384

noncomputable section

namespace Cert.KernelIdeal.Pass1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 8000000 in
theorem sound_first (c : Dev nD) (t : Fin cfg0.N) (h0 : t.val % 4 = 0) (hz : t.val ≠ 0) : bodyPre V c t ⊢ wp frame (wpE (defs₀ (F := F)) Variants.none c none) Set.univ (bodyAt0 t) (fun _ => bodyPost V c t) := by
  have hnl : ¬condLast (grid0.coords t) := fun h => by have := (hcondLast t).mp h; omega
  have hΦ : (dat V c).Φ t.castSucc = accAt c (outsAt V c (t.val - 1) (by omega)) := (Phi_castSucc V c t).trans (PhiS_pos V c _ _ hz)
  rw [bodyPre_eq, hΦ, bodyPost_notLast V c t hnl, outsAt_first V c t h0]
  unfold bodyAt0 accAt ptFirst; dsimp only
  iintro ⟨⟨⟨⟨HS0, HS1, HS2, HS3, HS4⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM0 (Memref.isWhole_whole _) scM1 (Memref.isWhole_whole _) scM2 (Memref.isWhole_whole _) scM3 (Memref.isWhole_whole _) scM4 (Memref.isWhole_whole _) ((hcondFirst t).mpr h0) hnl (iblk V c 0 t) (iblk V c 1 t) (iblk V c 2 t) (iblk V c 3 t) (iblk V c 4 t) (iblk V c 5 t) (iblk V c 6 t)).2.2.2.2.2.2.2 _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexact H9
  isplitl [H10]; · iexact H10
  isplitl [H11]; · iexact H11
  isplitl [HS0]; · iexists _; iexact HS0
  isplitl [HS1]; · iexists _; iexact HS1
  isplitl [HS2]; · iexists _; iexact HS2
  isplitl [HS3]; · iexists _; iexact HS3
  isplitl [HS4]; · iexists _; iexact HS4
  iintro ⟨H0, H1, H2, H3, H4, H5, H6, ⟨%e7, H7⟩, ⟨%e8, H8⟩, H9, H10, H11, ⟨%es0, HS0⟩, ⟨%es1, HS1⟩, ⟨%es2, HS2⟩, ⟨%es3, HS3⟩, ⟨%es4, HS4⟩⟩
  isplitl [HS0 HS1 HS2 HS3 HS4 Hrest Hg]
  · isplitl [HS0 HS1 HS2 HS3 HS4 Hrest]
    · isplitl [HS0 HS1 HS2 HS3 HS4]
      · isplitl [HS0]
        · unfold owns; iexists _; isplitr
          swap; · iexact HS0
          ipureintro; exact View.read_writes_of_cover _ _ _ _ _ (coverFirst_s0 c _ _ _ _ _ _ _ _ _ _ _ _ _ _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (coverFirst_s1 c _ _ _ _ _ _ _ _ _ _ _ _ _ _ _ _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (coverFirst_s2 c _ _ _ _ _ _ _ _ _ _ _ _ _ _ _ _ _ _ _ _ _ _ _ _ _ _ _ _ _ _ _ _ _ _ _ _ _ _ _ _ _ _ _ _)
        isplitl [HS3]
        · unfold owns; iexists _; isplitr
          swap; · iexact HS3
          ipureintro; exact View.read_writes_of_cover _ _ _ _ _ (coverFirst_s3 c _ _ _ _ _ _ _ _ _ _ _ _ _ _ _ _ _ _ _ _ _ _ _ _ _ _ _ _ _ _ _ _ _ _ _ _ _ _ _ _ _ _ _ _)
        unfold owns; iexists _; isplitr
        swap; · iexact HS4
        ipureintro; exact View.read_writes_of_cover _ _ _ _ _ (coverFirst_s4 c _ _ _ _ _ _ _ _ _ _ _ _ _ _ _ _ _ _ _ _ _ _ _ _ _ _ _ _ _ _ _ _ _ _ _ _ _ _ _ _ _ _ _ _)
      iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (coverFirst_o7 c _ _ _ _ _ _ _ _ _ _ _ _ _ _ _ _ _ _ _ _ _ _ _ _ _ _ _ _ _ _ _ _ _ _ _ _ _ _ _ _ _ _ _ _)
  isplitl [H8]
  · unfold owns; iexists _; isplitr
    swap; · iexact H8
    ipureintro; exact View.read_writes_of_cover _ _ _ _ _ (coverFirst_o8 c _ _ _ _ _ _ _ _ _ _ _ _ _ _ _ _ _ _ _ _ _ _ _ _ _ _ _ _ _ _ _ _ _ _ _ _ _ _ _ _ _ _ _ _)
  isplitl [H9]; · iexists _; iexact H9
  isplitl [H10]; · iexists _; iexact H10
  iexists _; iexact H11

end Cert.KernelIdeal.Pass1

end
-- ==== Proof.Pass1ObMid.lean ====
/-
  The first kernel call's body obligation at a middle tile: the accumulators continue from what the tile before left.
-/
import proofs.«149626_j38448547234132_2_alg».proof.Proof.Pass1Region

set_option maxRecDepth 16384

noncomputable section

namespace Cert.KernelIdeal.Pass1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 8000000 in
theorem sound_mid (c : Dev nD) (t : Fin cfg0.N) (h0 : ¬t.val % 4 = 0) (h1 : ¬t.val % 4 = 3) : bodyPre V c t ⊢ wp frame (wpE (defs₀ (F := F)) Variants.none c none) Set.univ (bodyAt0 t) (fun _ => bodyPost V c t) := by
  have hz : t.val ≠ 0 := fun e => h0 (by rw [e])
  have hnl : ¬condLast (grid0.coords t) := fun h => h1 ((hcondLast t).mp h)
  have hΦ : (dat V c).Φ t.castSucc = accAt c (outsAt V c (t.val - 1) (by omega)) := (Phi_castSucc V c t).trans (PhiS_pos V c _ _ hz)
  rw [bodyPre_eq, hΦ, bodyPost_notLast V c t hnl, outsAt_mid V c t h0 h1]
  unfold bodyAt0 accAt ptMid; dsimp only
  iintro ⟨⟨⟨⟨HS0, HS1, HS2, HS3, HS4⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM0 (Memref.isWhole_whole _) scM1 (Memref.isWhole_whole _) scM2 (Memref.isWhole_whole _) scM3 (Memref.isWhole_whole _) scM4 (Memref.isWhole_whole _) (fun h => h0 ((hcondFirst t).mp h)) (fun h => h1 ((hcondLast t).mp h)) (iblk V c 0 t) (iblk V c 1 t) (iblk V c 2 t) (iblk V c 3 t) (iblk V c 4 t) (iblk V c 5 t) (iblk V c 6 t) _ _ _ _ _).2.2.2.2.2.2.2 _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexact H9
  isplitl [H10]; · iexact H10
  isplitl [H11]; · iexact H11
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, ⟨%e7, H7⟩, ⟨%e8, H8⟩, H9, H10, H11, ⟨%es0, HS0⟩, ⟨%es1, HS1⟩, ⟨%es2, HS2⟩, ⟨%es3, HS3⟩, ⟨%es4, HS4⟩⟩
  isplitl [HS0 HS1 HS2 HS3 HS4 Hrest Hg]
  · isplitl [HS0 HS1 HS2 HS3 HS4 Hrest]
    · isplitl [HS0 HS1 HS2 HS3 HS4]
      · isplitl [HS0]
        · unfold owns; iexists _; isplitr
          swap; · iexact HS0
          ipureintro; exact View.read_writes_of_cover _ _ _ _ _ (coverMid_s0 c _ _ _ _ _ _ _ _ _ _ _ _ _ _ _ _ _ _ _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (coverMid_s1 c _ _ _ _ _ _ _ _ _ _ _ _ _ _ _ _ _ _ _ _ _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (coverMid_s2 c _ _ _ _ _ _ _ _ _ _ _ _ _ _ _ _ _ _ _ _ _ _ _ _ _ _ _ _ _ _ _ _ _ _ _ _ _ _ _ _ _ _ _ _ _ _ _ _ _)
        isplitl [HS3]
        · unfold owns; iexists _; isplitr
          swap; · iexact HS3
          ipureintro; exact View.read_writes_of_cover _ _ _ _ _ (coverMid_s3 c _ _ _ _ _ _ _ _ _ _ _ _ _ _ _ _ _ _ _ _ _ _ _ _ _ _ _ _ _ _ _ _ _ _ _ _ _ _ _ _ _ _ _ _ _ _ _ _ _)
        unfold owns; iexists _; isplitr
        swap; · iexact HS4
        ipureintro; exact View.read_writes_of_cover _ _ _ _ _ (coverMid_s4 c _ _ _ _ _ _ _ _ _ _ _ _ _ _ _ _ _ _ _ _ _ _ _ _ _ _ _ _ _ _ _ _ _ _ _ _ _ _ _ _ _ _ _ _ _ _ _ _ _)
      iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (coverMid_o7 c _ _ _ _ _ _ _ _ _ _ _ _ _ _ _ _ _ _ _ _ _ _ _ _ _ _ _ _ _ _ _ _ _ _ _ _ _ _ _ _ _ _ _ _ _ _ _ _ _)
  isplitl [H8]
  · unfold owns; iexists _; isplitr
    swap; · iexact H8
    ipureintro; exact View.read_writes_of_cover _ _ _ _ _ (coverMid_o8 c _ _ _ _ _ _ _ _ _ _ _ _ _ _ _ _ _ _ _ _ _ _ _ _ _ _ _ _ _ _ _ _ _ _ _ _ _ _ _ _ _ _ _ _ _ _ _ _ _)
  isplitl [H9]; · iexists _; iexact H9
  isplitl [H10]; · iexists _; iexact H10
  iexists _; iexact H11

end Cert.KernelIdeal.Pass1

end
-- ==== Proof.Pass1ObLast.lean ====
/-
  The first kernel call's body obligation at the last tile of a batch: the accumulators continue, and the three per-batch results are stored.
-/
import proofs.«149626_j38448547234132_2_alg».proof.Proof.Pass1Region

set_option maxRecDepth 16384

noncomputable section

namespace Cert.KernelIdeal.Pass1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 8000000 in
theorem sound_last (c : Dev nD) (t : Fin cfg0.N) (h0 : ¬t.val % 4 = 0) (h1 : t.val % 4 = 3) : bodyPre V c t ⊢ wp frame (wpE (defs₀ (F := F)) Variants.none c none) Set.univ (bodyAt0 t) (fun _ => bodyPost V c t) := by
  have hz : t.val ≠ 0 := fun e => h0 (by rw [e])
  have hl : condLast (grid0.coords t) := (hcondLast t).mpr h1
  have hΦ : (dat V c).Φ t.castSucc = accAt c (outsAt V c (t.val - 1) (by omega)) := (Phi_castSucc V c t).trans (PhiS_pos V c _ _ hz)
  rw [bodyPre_eq, hΦ, bodyPost_last V c t hl, outsAt_last V c t h0 h1]
  unfold bodyAt0 accAt ptLast; dsimp only
  iintro ⟨⟨⟨⟨HS0, HS1, HS2, HS3, HS4⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM0 (Memref.isWhole_whole _) scM1 (Memref.isWhole_whole _) scM2 (Memref.isWhole_whole _) scM3 (Memref.isWhole_whole _) scM4 (Memref.isWhole_whole _) (fun h => h0 ((hcondFirst t).mp h)) ((hcondLast t).mpr h1) (iblk V c 0 t) (iblk V c 1 t) (iblk V c 2 t) (iblk V c 3 t) (iblk V c 4 t) (iblk V c 5 t) (iblk V c 6 t) _ _ _ _ _).2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, ⟨%e7, H7⟩, ⟨%e8, H8⟩, ⟨%e9, H9⟩, ⟨%e10, H10⟩, ⟨%e11, H11⟩, ⟨%es0, HS0⟩, ⟨%es1, HS1⟩, ⟨%es2, HS2⟩, ⟨%es3, HS3⟩, ⟨%es4, HS4⟩⟩
  isplitl [HS0 HS1 HS2 HS3 HS4 Hrest Hg]
  · isplitl [HS0 HS1 HS2 HS3 HS4 Hrest]
    · isplitl [HS0 HS1 HS2 HS3 HS4]
      · isplitl [HS0]
        · unfold owns; iexists _; isplitr
          swap; · iexact HS0
          ipureintro; exact View.read_writes_of_cover _ _ _ _ _ (coverLast_s0 c _ _ _ _ _ _ _ _ _ _ _ _ _ _ _ _ _ _ _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (coverLast_s1 c _ _ _ _ _ _ _ _ _ _ _ _ _ _ _ _ _ _ _ _ _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (coverLast_s2 c _ _ _ _ _ _ _ _ _ _ _ _ _ _ _ _ _ _ _ _ _ _ _ _ _ _ _ _ _ _ _ _ _ _ _ _ _ _ _ _ _ _ _ _ _ _ _ _ _)
        isplitl [HS3]
        · unfold owns; iexists _; isplitr
          swap; · iexact HS3
          ipureintro; exact View.read_writes_of_cover _ _ _ _ _ (coverLast_s3 c _ _ _ _ _ _ _ _ _ _ _ _ _ _ _ _ _ _ _ _ _ _ _ _ _ _ _ _ _ _ _ _ _ _ _ _ _ _ _ _ _ _ _ _ _ _ _ _ _)
        unfold owns; iexists _; isplitr
        swap; · iexact HS4
        ipureintro; exact View.read_writes_of_cover _ _ _ _ _ (coverLast_s4 c _ _ _ _ _ _ _ _ _ _ _ _ _ _ _ _ _ _ _ _ _ _ _ _ _ _ _ _ _ _ _ _ _ _ _ _ _ _ _ _ _ _ _ _ _ _ _ _ _)
      iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (coverLast_o7 c _ _ _ _ _ _ _ _ _ _ _ _ _ _ _ _ _ _ _ _ _ _ _ _ _ _ _ _ _ _ _ _ _ _ _ _ _ _ _ _ _ _ _ _ _ _ _ _ _)
  isplitl [H8]
  · unfold owns; iexists _; isplitr
    swap; · iexact H8
    ipureintro; exact View.read_writes_of_cover _ _ _ _ _ (coverLast_o8 c _ _ _ _ _ _ _ _ _ _ _ _ _ _ _ _ _ _ _ _ _ _ _ _ _ _ _ _ _ _ _ _ _ _ _ _ _ _ _ _ _ _ _ _ _ _ _ _ _)
  isplitl [H9]
  · unfold owns; iexists _; isplitr
    swap; · iexact H9
    ipureintro; exact View.read_writes_of_cover _ _ _ _ _ (coverLast_o9 c _ _ _ _ _ _ _ _ _ _ _ _ _ _ _ _ _ _ _ _ _ _ _ _ _ _ _ _ _ _ _ _ _ _ _ _ _ _ _ _ _ _ _ _ _ _ _ _ _)
  isplitl [H10]
  · unfold owns; iexists _; isplitr
    swap; · iexact H10
    ipureintro; exact View.read_writes_of_cover _ _ _ _ _ (coverLast_o10 c _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H11
  ipureintro; exact View.read_writes_of_cover _ _ _ _ _ (coverLast_o11 c _ _ _ _ _ _ _ _ _ _ _ _ _ _ _ _ _ _ _ _ _ _ _ _ _ _ _ _ _ _ _ _ _ _ _ _ _ _ _ _ _ _ _ _ _ _ _ _ _)

end Cert.KernelIdeal.Pass1

end
-- ==== Proof.Pass1Ob.lean ====
/-
  The first kernel call's body obligation at every point, by the case the point is in.
-/
import proofs.«149626_j38448547234132_2_alg».proof.Proof.Pass1ObFirst0
import proofs.«149626_j38448547234132_2_alg».proof.Proof.Pass1ObFirst
import proofs.«149626_j38448547234132_2_alg».proof.Proof.Pass1ObMid
import proofs.«149626_j38448547234132_2_alg».proof.Proof.Pass1ObLast

set_option maxRecDepth 16384

noncomputable section

namespace Cert.KernelIdeal.Pass1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem sound_body (c : Dev nD) (t : Fin cfg0.N) : bodyPre V c t ⊢ wp frame (wpE (defs₀ (F := F)) Variants.none c none) Set.univ (bodyAt0 t) (fun _ => bodyPost V c t) := by
  by_cases h0 : t.val % 4 = 0
  · by_cases hz : t.val = 0
    · exact sound_first0 V c t h0 hz
    · exact sound_first V c t h0 hz
  · by_cases h1 : t.val % 4 = 3
    · exact sound_last V c t h0 h1
    · exact sound_mid V c t h0 h1

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.Pass1

end
-- ==== Proof.SpatialBody.lean ====
/-
  The spatial-attention call (the second of the three kernel calls): what one grid point does, at any float
  instance.  A point (b, j) is handed the block q[b, :, :, 2048 j : 2048 (j+1)] (heads × head-dim × tokens), the two
  per-batch statistics k_proj[b] and v_proj[b] (heads × head-dim × 64), and the per-head temperature.  It leaves,
  in the output block of the same token range, for every head h, channel d and token n,
      ∑_p v_proj[h, d, p] · softmax_p ( temp[h] · ∑_d' q[h, d', n] · k_proj[h, d', p] ).
  The body is one store of one pure term of its four loads; this module records that term as the block the point
  writes back, and the separation-logic triple of the body, from which the pipeline's obligation follows.
-/
import proofs.«149626_j38448547234132_2_alg».proof.Proof.Gen.KernelIdeal.Launch
import proofs.«149626_j38448547234132_2_alg».proof.Proof.Gen.KernelIdeal.Skeleton
import proofs.«149626_j38448547234132_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Spatial

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the call is entered: everything below is stated at this parameter
variable (V : (c : Dev nD) → (b : Ref sig .tc) → Buf (Elt F) ((c : Thread nD τ).loc b))

/-! ## The blocks a point reads -/

/-- Window `w`'s block at point `t`, cut out of its array as the call finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The q block is in its staging buffer at every point (it is fetched at every point). -/
theorem before_q {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The k_proj block of the point's batch is in its staging buffer at every point: it is fetched when the batch
    changes, and its block index does not move in between. -/
theorem before_kproj {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The same for the v_proj block. -/
theorem before_vproj {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The temperature, one whole block fetched once, stays in its staging buffer. -/
theorem before_temp {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## What the body stores -/

/-- The whole of each staging buffer, as the rectangle the body loads or stores. -/
abbrev rTok : Rect S1x8x32x2048 := Rect.unit (s := S1x8x32x2048) ![0, 0, 0, 0] S1x8x32x2048.size inb_S1x8x32x2048_S1x8x32x2048_0_0_0_0
abbrev rStat : Rect S1x8x32x64 := Rect.unit (s := S1x8x32x64) ![0, 0, 0, 0] S1x8x32x64.size inb_S1x8x32x64_S1x8x32x64_0_0_0_0
abbrev rTemp : Rect S8x1x1 := Rect.unit (s := S8x1x1) ![0, 0, 0] S8x1x1.size inb_S8x1x1_S8x1x1_0_0_0

/-- The output block after the body, from the four input blocks: its one store, of the body's one term. -/
def outBlock (q : Vec F S1x8x32x2048 .bf16) (kp : Vec F S1x8x32x64 .f32) (vp : Vec F S1x8x32x64 .f32) (tmp : Vec F S8x1x1 .f32) :
    Vec F S1x8x32x2048 .bf16 :=
  View.canon [⟨rTok, k1_pay1 (View.ld q rTok) (View.ld kp rStat) (View.ld vp rStat) (View.ld tmp rTemp)⟩]

/-- The one store is of the whole block, so it covers it. -/
theorem outBlock_cover (p0 : Vec F S1x8x32x2048 .bf16) (y : S1x8x32x2048.Idx) :
    ∃ pc ∈ ([⟨rTok, p0⟩] : List (View.Piece (Elt F) S1x8x32x2048 .bf16)), y ∈ pc.1.set :=
  View.cover_of_tiled [⟨rTok, p0⟩] S1x8x32x2048.size (by rfl) y

/-! ## The body's triple -/

set_option maxHeartbeats 1000000 in
/-- The body, on whole staging memrefs holding the four input blocks and an output buffer at anything, runs to its
    continuation with the inputs as they were and the output at `outBlock` of the inputs. -/
theorem sound_kernel (c : Dev nD) (E : Set ℕ) (i : grid1.Coords)
    (arg2 : Memref sig .tc .vmem S1x8x32x2048 .bf16) (harg2 : arg2.IsWhole) (arg3 : Memref sig .tc .vmem S1x8x32x64 .f32) (harg3 : arg3.IsWhole)
    (arg4 : Memref sig .tc .vmem S1x8x32x64 .f32) (harg4 : arg4.IsWhole) (arg5 : Memref sig .tc .vmem S8x1x1 .f32) (harg5 : arg5.IsWhole)
    (arg6 : Memref sig .tc .vmem S1x8x32x2048 .bf16) (harg6 : arg6.IsWhole)
    (q : Vec F S1x8x32x2048 .bf16) (kp : Vec F S1x8x32x64 .f32) (vp : Vec F S1x8x32x64 .f32) (tmp : Vec F S8x1x1 .f32) (K : PUnit → sProp 𝕄) :
    iprop(owns (c : Thread nD τ) arg2 fullShare q ∗ owns (c : Thread nD τ) arg3 fullShare kp ∗ owns (c : Thread nD τ) arg4 fullShare vp
        ∗ owns (c : Thread nD τ) arg5 fullShare tmp ∗ (∃ d, owns (c : Thread nD τ) arg6 fullShare d)
        ∗ (iprop(owns (c : Thread nD τ) arg2 fullShare q ∗ owns (c : Thread nD τ) arg3 fullShare kp ∗ owns (c : Thread nD τ) arg4 fullShare vp
            ∗ owns (c : Thread nD τ) arg5 fullShare tmp ∗ owns (c : Thread nD τ) arg6 fullShare (outBlock q kp vp tmp)) -∗ K ⟨⟩))
      ⊢ wp frame (wpE (defs₀ (F := F)) Variants.none c none) E (cc1__spatial_kernel i arg2 harg2 arg3 harg3 arg4 harg4 arg5 harg5 arg6 harg6) K := by
  simp only [cc1__spatial_kernel_eq_skeleton]; unfold cc1__spatial_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (outBlock_cover _)

end Cert.KernelIdeal.Spatial

end
-- ==== Proof.SpatialRegion.lean ====
/-
  The spatial-attention call as a pipeline: the proof data of its thirty-two points and the body obligation.
  Every input block is in its staging buffer when the body is called (the per-batch statistics and the temperature
  stay put between fetches), the body leaves the inputs in place and the output buffer at the point's block, and
  nothing else is touched: the region invariant is the untouched scoped rest beside the generator register.
-/
import proofs.«149626_j38448547234132_2_alg».proof.Proof.SpatialBody

set_option maxRecDepth 16384

noncomputable section

namespace Cert.KernelIdeal.Spatial

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The proof data of the call on core `c`: the arrays as the call finds them; after the body at point `t` each
    input's buffer at its block and the output's at `outBlock` of the input blocks; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => outBlock (iblk V c 0 t) (iblk V c 1 t) (iblk V c 2 t) (iblk V c 3 t)
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) :
    (dat V c).after 4 t = outBlock (iblk V c 0 t) (iblk V c 1 t) (iblk V c 2 t) (iblk V c 3 t) := by dsimp only [dat]

theorem before_0 (c : Dev nD) (t : Fin cfg1.N) (d) : (dat V c).before 0 t d = iblk V c 0 t :=
  before_q V (dat V c) (A_eq V c 0) (after_0 V c) t d
theorem before_1 (c : Dev nD) (t : Fin cfg1.N) (d) : (dat V c).before 1 t d = iblk V c 1 t :=
  before_kproj V (dat V c) (A_eq V c 1) (after_1 V c) t d
theorem before_2 (c : Dev nD) (t : Fin cfg1.N) (d) : (dat V c).before 2 t d = iblk V c 2 t :=
  before_vproj V (dat V c) (A_eq V c 2) (after_2 V c) t d
theorem before_3 (c : Dev nD) (t : Fin cfg1.N) (d) : (dat V c).before 3 t d = iblk V c 3 t :=
  before_temp V (dat V c) (A_eq V c 3) (after_3 V c) t d

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t))

/-- The body at any point: the inputs' memrefs hold their blocks, so the body's triple applies; the invariant and
    the core's dues pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dat (F := F) V c) (defs₀ (F := F)) Variants.none () Set.univ := fun t => by
  rw [bigSep_W1, bigSep_W1]
  exact sound_body V c t

end Cert.KernelIdeal.Spatial

end
-- ==== Proof.FinalBody.lean ====
/-
  The last kernel call: what one grid point does, at any float instance.  A point (b, j) is handed the v_ca block
  v_ca[b, :, :, 2048 j : 2048 (j+1)], the channel-attention weights of batch b, the re-laid spatial-attention block
  (tokens 2048 j … of batch b, 256 channels), and the two output projections with their biases.  It writes the
  output block of the same tokens in two halves: columns 0–127 are the spatial branch,
      ∑_c x_sa[n, c] · Wo1[o, c] + bo1[o],
  columns 128–255 the channel branch,
      ∑_{h,d} ( ∑_e attn[h, d, e] · v_ca[h, e, n] ) · Wo2[o, 32 h + d] + bo2[o].
  This module records the two stored terms as the block the point writes back, and the body's triple.
-/
import proofs.«149626_j38448547234132_2_alg».proof.Proof.Gen.KernelIdeal.Launch
import proofs.«149626_j38448547234132_2_alg».proof.Proof.Gen.KernelIdeal.Skeleton
import proofs.«149626_j38448547234132_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Final

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the call is entered: everything below is stated at this parameter
variable (V : (c : Dev nD) → (b : Ref sig .tc) → Buf (Elt F) ((c : Thread nD τ).loc b))

/-! ## The blocks a point reads -/

/-- Window `w`'s block at point `t`, cut out of its array as the call finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The v_ca block of the point (fetched at every point): it is in its staging buffer at every point, fetched there or not. -/
theorem before_vca {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The channel-attention weights of the point's batch (fetched when the batch changes): it is in its staging buffer at every point, fetched there or not. -/
theorem before_attn {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The re-laid spatial-attention block of the point (fetched at every point): it is in its staging buffer at every point, fetched there or not. -/
theorem before_xsa {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The first output projection, whole, fetched once: it is in its staging buffer at every point, fetched there or not. -/
theorem before_wo1 {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Its bias as a row, fetched once: it is in its staging buffer at every point, fetched there or not. -/
theorem before_bo1 {c : Dev nD} (dat : Dat τ (Elt F) Unit ℕ (UR sig nD τ) ℕ cfg2 c) (hA : dat.A 4 = V c (Pipeline.arrRef spec2 4))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- The second output projection, whole, fetched once: it is in its staging buffer at every point, fetched there or not. -/
theorem before_wo2 {c : Dev nD} (dat : Dat τ (Elt F) Unit ℕ (UR sig nD τ) ℕ cfg2 c) (hA : dat.A 5 = V c (Pipeline.arrRef spec2 5))
    (hafter : ∀ t, dat.after 5 t = iblk V c 5 t) (t : Fin cfg2.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Its bias as a row, fetched once: it is in its staging buffer at every point, fetched there or not. -/
theorem before_bo2 {c : Dev nD} (dat : Dat τ (Elt F) Unit ℕ (UR sig nD τ) ℕ cfg2 c) (hA : dat.A 6 = V c (Pipeline.arrRef spec2 6))
    (hafter : ∀ t, dat.after 6 t = iblk V c 6 t) (t : Fin cfg2.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## What the body stores -/

abbrev rVca : Rect S1x8x32x2048 := Rect.unit (s := S1x8x32x2048) ![0, 0, 0, 0] S1x8x32x2048.size inb_S1x8x32x2048_S1x8x32x2048_0_0_0_0
abbrev rAttn : Rect S1x8x32x32 := Rect.unit (s := S1x8x32x32) ![0, 0, 0, 0] S1x8x32x32.size inb_S1x8x32x32_S1x8x32x32_0_0_0_0
abbrev rXsa : Rect S1x2048x256 := Rect.unit (s := S1x2048x256) ![0, 0, 0] S1x2048x256.size inb_S1x2048x256_S1x2048x256_0_0_0
abbrev rW : Rect S128x256 := Rect.unit (s := S128x256) ![0, 0] S128x256.size inb_S128x256_S128x256_0_0
abbrev rB : Rect S1x128 := Rect.unit (s := S1x128) ![0, 0] S1x128.size inb_S1x128_S1x128_0_0
/-- The two halves of the output block: columns 0–127 and columns 128–255. -/
abbrev rLo : Rect S1x2048x256 := Rect.unit (s := S1x2048x256) ![0, 0, 0] S1x2048x128.size inb_S1x2048x256_S1x2048x128_0_0_0
abbrev rHi : Rect S1x2048x256 := Rect.unit (s := S1x2048x256) ![0, 0, 128] S1x2048x128.size inb_S1x2048x256_S1x2048x128_0_0_128

/-- The output block after the body, from the seven input blocks: its two stores, the later one first. -/
def outBlock (vca : Vec F S1x8x32x2048 .bf16) (attn : Vec F S1x8x32x32 .f32) (xsa : Vec F S1x2048x256 .bf16)
    (wo1 : Vec F S128x256 .f32) (bo1 : Vec F S1x128 .f32) (wo2 : Vec F S128x256 .f32) (bo2 : Vec F S1x128 .f32) : Vec F S1x2048x256 .f32 :=
  View.canon [⟨rHi, k2_pay1 (k2_pay2 (View.ld attn rAttn) (View.ld vca rVca) (View.ld wo2 rW) (View.ld bo2 rB))⟩,
    ⟨rLo, k2_pay3 (View.ld xsa rXsa) (View.ld wo1 rW) (View.ld bo1 rB)⟩]

/-- The two halves tile the block, so they cover it. -/
theorem outBlock_cover (p1 p0 : Vec F S1x2048x128 .f32) (y : S1x2048x256.Idx) :
    ∃ pc ∈ ([⟨rHi, p1⟩, ⟨rLo, p0⟩] : List (View.Piece (Elt F) S1x2048x256 .f32)), y ∈ pc.1.set :=
  View.cover_of_tiled [⟨rHi, p1⟩, ⟨rLo, p0⟩] S1x2048x128.size (by rfl) y

/-! ## The body's triple -/

set_option maxHeartbeats 2000000 in
/-- The body, on whole staging memrefs holding the seven input blocks and an output buffer at anything, runs to its
    continuation with the inputs as they were and the output at `outBlock` of the inputs. -/
theorem sound_kernel (c : Dev nD) (E : Set ℕ) (i : grid2.Coords)
    (arg2 : Memref sig .tc .vmem S1x8x32x2048 .bf16) (harg2 : arg2.IsWhole) (arg3 : Memref sig .tc .vmem S1x8x32x32 .f32) (harg3 : arg3.IsWhole) (arg4 : Memref sig .tc .vmem S1x2048x256 .bf16) (harg4 : arg4.IsWhole) (arg5 : Memref sig .tc .vmem S128x256 .f32) (harg5 : arg5.IsWhole) (arg6 : Memref sig .tc .vmem S1x128 .f32) (harg6 : arg6.IsWhole) (arg7 : Memref sig .tc .vmem S128x256 .f32) (harg7 : arg7.IsWhole) (arg8 : Memref sig .tc .vmem S1x128 .f32) (harg8 : arg8.IsWhole)
    (arg9 : Memref sig .tc .vmem S1x2048x256 .f32) (harg9 : arg9.IsWhole)
    (vca : Vec F S1x8x32x2048 .bf16) (attn : Vec F S1x8x32x32 .f32) (xsa : Vec F S1x2048x256 .bf16) (wo1 : Vec F S128x256 .f32) (bo1 : Vec F S1x128 .f32) (wo2 : Vec F S128x256 .f32) (bo2 : Vec F S1x128 .f32) (K : PUnit → sProp 𝕄) :
    iprop(owns (c : Thread nD τ) arg2 fullShare vca ∗ owns (c : Thread nD τ) arg3 fullShare attn ∗ owns (c : Thread nD τ) arg4 fullShare xsa ∗ owns (c : Thread nD τ) arg5 fullShare wo1 ∗ owns (c : Thread nD τ) arg6 fullShare bo1 ∗ owns (c : Thread nD τ) arg7 fullShare wo2 ∗ owns (c : Thread nD τ) arg8 fullShare bo2
        ∗ (∃ d, owns (c : Thread nD τ) arg9 fullShare d)
        ∗ (iprop(owns (c : Thread nD τ) arg2 fullShare vca ∗ owns (c : Thread nD τ) arg3 fullShare attn ∗ owns (c : Thread nD τ) arg4 fullShare xsa ∗ owns (c : Thread nD τ) arg5 fullShare wo1 ∗ owns (c : Thread nD τ) arg6 fullShare bo1 ∗ owns (c : Thread nD τ) arg7 fullShare wo2 ∗ owns (c : Thread nD τ) arg8 fullShare bo2
            ∗ owns (c : Thread nD τ) arg9 fullShare (outBlock vca attn xsa wo1 bo1 wo2 bo2)) -∗ K ⟨⟩))
      ⊢ wp frame (wpE (defs₀ (F := F)) Variants.none c none) E (cc2__final_kernel i arg2 harg2 arg3 harg3 arg4 harg4 arg5 harg5 arg6 harg6 arg7 harg7 arg8 harg8 arg9 harg9) K := by
  simp only [cc2__final_kernel_eq_skeleton]; unfold cc2__final_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (outBlock_cover _ _)

end Cert.KernelIdeal.Final

end
-- ==== Proof.FinalRegion.lean ====
/-
  The last call as a pipeline: the proof data of its thirty-two points and the body obligation.  Every input block is
  in its staging buffer when the body is called; the body leaves the inputs in place and the output buffer at the
  point's block (both halves stored); the region invariant is the untouched scoped rest beside the generator register.
-/
import proofs.«149626_j38448547234132_2_alg».proof.Proof.FinalBody

set_option maxRecDepth 16384

noncomputable section

namespace Cert.KernelIdeal.Final

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The proof data of the call on core `c`: the arrays as the call finds them; after the body at point `t` each
    input's buffer at its block and the output's at `outBlock` of the input blocks; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => outBlock (iblk V c 0 t) (iblk V c 1 t) (iblk V c 2 t) (iblk V c 3 t) (iblk V c 4 t) (iblk V c 5 t) (iblk V c 6 t)
  Φ _ := Pipeline.ΦA spec2 c
  q _ := fullShare
  owed _ := 0

theorem A_eq (c : Dev nD) (w : Fin cfg2.W) : (dat V c).A w = V c (Pipeline.arrRef spec2 w) := by
  dsimp only [dat]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = iblk V c 3 t := by dsimp only [dat]
theorem after_4 (c : Dev nD) (t : Fin cfg2.N) : (dat V c).after 4 t = iblk V c 4 t := by dsimp only [dat]
theorem after_5 (c : Dev nD) (t : Fin cfg2.N) : (dat V c).after 5 t = iblk V c 5 t := by dsimp only [dat]
theorem after_6 (c : Dev nD) (t : Fin cfg2.N) : (dat V c).after 6 t = iblk V c 6 t := by dsimp only [dat]
theorem after_7 (c : Dev nD) (t : Fin cfg2.N) :
    (dat V c).after 7 t = outBlock (iblk V c 0 t) (iblk V c 1 t) (iblk V c 2 t) (iblk V c 3 t) (iblk V c 4 t) (iblk V c 5 t) (iblk V c 6 t) := by dsimp only [dat]

theorem before_0 (c : Dev nD) (t : Fin cfg2.N) (d) : (dat V c).before 0 t d = iblk V c 0 t :=
  before_vca V (dat V c) (A_eq V c 0) (after_0 V c) t d
theorem before_1 (c : Dev nD) (t : Fin cfg2.N) (d) : (dat V c).before 1 t d = iblk V c 1 t :=
  before_attn V (dat V c) (A_eq V c 1) (after_1 V c) t d
theorem before_2 (c : Dev nD) (t : Fin cfg2.N) (d) : (dat V c).before 2 t d = iblk V c 2 t :=
  before_xsa V (dat V c) (A_eq V c 2) (after_2 V c) t d
theorem before_3 (c : Dev nD) (t : Fin cfg2.N) (d) : (dat V c).before 3 t d = iblk V c 3 t :=
  before_wo1 V (dat V c) (A_eq V c 3) (after_3 V c) t d
theorem before_4 (c : Dev nD) (t : Fin cfg2.N) (d) : (dat V c).before 4 t d = iblk V c 4 t :=
  before_bo1 V (dat V c) (A_eq V c 4) (after_4 V c) t d
theorem before_5 (c : Dev nD) (t : Fin cfg2.N) (d) : (dat V c).before 5 t d = iblk V c 5 t :=
  before_wo2 V (dat V c) (A_eq V c 5) (after_5 V c) t d
theorem before_6 (c : Dev nD) (t : Fin cfg2.N) (d) : (dat V c).before 6 t d = iblk V c 6 t :=
  before_bo2 V (dat V c) (A_eq V c 6) (after_6 V c) t d

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d))
    ∗ (∃ d, owns (c : Thread nD τ) (st2_6 t) fullShare ((dat V c).before 6 t d))
    ∗ (∃ d, owns (c : Thread nD τ) (st2_7 t) fullShare ((dat V c).before 7 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t)
    ∗ owns (c : Thread nD τ) (st2_6 t) fullShare ((dat V c).after 6 t)
    ∗ owns (c : Thread nD τ) (st2_7 t) fullShare ((dat V c).after 7 t))

/-- The body at any point: the inputs' memrefs hold their blocks, so the body's triple applies; the invariant and
    the core's dues pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3, before_4, before_5, before_6]
  rw [show (dat V c).Φ t.succ = (dat V c).Φ t.castSucc from rfl,
    show (dat V c).owesAt () t.succ = (dat V c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk V c 0 t) (iblk V c 1 t) (iblk V c 2 t) (iblk V c 3 t) (iblk V c 4 t) (iblk V c 5 t) (iblk V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dat (F := F) V c) (defs₀ (F := F)) Variants.none () Set.univ := fun t => by
  rw [bigSep_W2, bigSep_W2]
  exact sound_body V c t

end Cert.KernelIdeal.Final

end
-- ==== Proof.WholeRun.lean ====
/-
  The whole program: two reshapes on the host, the first kernel call, the spatial-attention call, a transpose and three
  reshapes on the host, the last call.  The buffers' contents at each boundary are a fold from the launch memory: a
  host stretch applies its operations; a call leaves each of its arrays at what its write-backs add up to and every
  other buffer as it found it.  Each call is entered from "every unscoped buffer at the boundary's contents, the
  generator register at some state, nothing owed" and left in the same form, so the three calls and two host stretches
  chain.  From the run: no argument array is ever written (each is read back through the fold to the launch memory),
  and the result array holds what the last call's write-backs add up to.
-/
import proofs.«149626_j38448547234132_2_alg».proof.Proof.Pass1Ob
import proofs.«149626_j38448547234132_2_alg».proof.Proof.SpatialRegion
import proofs.«149626_j38448547234132_2_alg».proof.Proof.FinalRegion
import proofs.«149626_j38448547234132_2_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev B0 : Dev nD → Valuation τ sig (Elt F) := fun c b => (s₀ m ρ).mem ((c : Dev nD), b)
/-- After the two bias reshapes (the first call's entry). -/
abbrev B1 : Dev nD → Valuation τ sig (Elt F) := fun c => StableHlo.after hostOps0 (B0 m ρ c)
abbrev E1 : (c : Dev nD) → (b : Ref sig .tc) → Buf (Elt F) ((c : Thread nD τ).loc b) := fun c b => B1 m ρ c b
/-- At call 0's exit: its arrays at what the pipeline leaves (the inputs as entered, each output's write-backs folded),
    every other buffer as entered. -/
def B2 (c : Dev nD) : Valuation τ sig (Elt F) :=
  Pipeline.withArrays spec0 c (B1 m ρ c) fun w => (Pass1.dat (E1 m ρ) c).arrAt w cfg0.N
theorem B2_arr (c : Dev nD) (w : Fin cfg0.W) :
    B2 m ρ c (Proc.devRef .tc (Pipeline.arrRef spec0 w)) = (Pass1.dat (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem hF0 (c : Dev nD) (w : Fin cfg0.W) : (Pass1.dat (E1 m ρ) c).arrAt w cfg0.N = E2 m ρ c (Pipeline.arrRef spec0 w) :=
  (B2_arr m ρ c w).symm
theorem hrest0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)

/-- At call 1's exit: its arrays at what the pipeline leaves (the inputs as entered, each output's write-backs folded),
    every other buffer as entered. -/
def B3 (c : Dev nD) : Valuation τ sig (Elt F) :=
  Pipeline.withArrays spec1 c (B2 m ρ c) fun w => (Spatial.dat (E2 m ρ) c).arrAt w cfg1.N
theorem B3_arr (c : Dev nD) (w : Fin cfg1.W) :
    B3 m ρ c (Proc.devRef .tc (Pipeline.arrRef spec1 w)) = (Spatial.dat (E2 m ρ) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m ρ c (Proc.devRef .tc b) = B2 m ρ c (Proc.devRef .tc b) := by
  unfold B3; exact Pipeline.withArrays_of_ne spec1 c _ _ b hb
abbrev E3 : (c : Dev nD) → (b : Ref sig .tc) → Buf (Elt F) ((c : Thread nD τ).loc b) := fun c b => B3 m ρ c b
theorem hF1 (c : Dev nD) (w : Fin cfg1.W) : (Spatial.dat (E2 m ρ) c).arrAt w cfg1.N = E3 m ρ c (Pipeline.arrRef spec1 w) :=
  (B3_arr m ρ c w).symm
theorem hrest1 (c : Dev nD) : ∀ b, b ∉ Finset.univ.image (Pipeline.arrRef spec1) → E3 m ρ c b = E2 m ρ c b :=
  fun b hb => B3_of_ne m ρ c b fun w e => hb (Finset.mem_image.mpr ⟨w, Finset.mem_univ _, e⟩)

/-- After the transpose and the three reshapes (the last call's entry). -/
abbrev B4 : Dev nD → Valuation τ sig (Elt F) := fun c => StableHlo.after hostOps2 (B3 m ρ c)
abbrev E4 : (c : Dev nD) → (b : Ref sig .tc) → Buf (Elt F) ((c : Thread nD τ).loc b) := fun c b => B4 m ρ c b
/-- At call 2's exit: its arrays at what the pipeline leaves (the inputs as entered, each output's write-backs folded),
    every other buffer as entered. -/
def B5 (c : Dev nD) : Valuation τ sig (Elt F) :=
  Pipeline.withArrays spec2 c (B4 m ρ c) fun w => (Final.dat (E4 m ρ) c).arrAt w cfg2.N
theorem B5_arr (c : Dev nD) (w : Fin cfg2.W) :
    B5 m ρ c (Proc.devRef .tc (Pipeline.arrRef spec2 w)) = (Final.dat (E4 m ρ) c).arrAt w cfg2.N := by
  unfold B5; exact Pipeline.withArrays_arr spec2 launch2.win.arr_inj c _ _ w
theorem B5_of_ne (c : Dev nD) (b : Ref sig .tc) (hb : ∀ w, Pipeline.arrRef spec2 w ≠ b) :
    B5 m ρ c (Proc.devRef .tc b) = B4 m ρ c (Proc.devRef .tc b) := by
  unfold B5; exact Pipeline.withArrays_of_ne spec2 c _ _ b hb
abbrev E5 : (c : Dev nD) → (b : Ref sig .tc) → Buf (Elt F) ((c : Thread nD τ).loc b) := fun c b => B5 m ρ c b
theorem hF2 (c : Dev nD) (w : Fin cfg2.W) : (Final.dat (E4 m ρ) c).arrAt w cfg2.N = E5 m ρ c (Pipeline.arrRef spec2 w) :=
  (B5_arr m ρ c w).symm
theorem hrest2 (c : Dev nD) : ∀ b, b ∉ Finset.univ.image (Pipeline.arrRef spec2) → E5 m ρ c b = E4 m ρ c b :=
  fun b hb => B5_of_ne m ρ c b fun w e => hb (Finset.mem_image.mpr ⟨w, Finset.mem_univ _, e⟩)

/-! ## No argument array is ever written -/

theorem B5_main_arg0 (c : Dev nD) : B5 m ρ c (Proc.devRef .tc main_arg0) = m ((c : Thread nD τ).loc main_arg0) :=
  calc B5 m ρ c (Proc.devRef .tc main_arg0)
    _ = B4 m ρ c (Proc.devRef .tc main_arg0) := B5_of_ne m ρ c main_arg0 (by decide)
    _ = B3 m ρ c (Proc.devRef .tc main_arg0) := StableHlo.after_of_writes_sub hostOps2 _ hostOps2_writes (by decide)
    _ = B2 m ρ c (Proc.devRef .tc main_arg0) := B3_of_ne m ρ c main_arg0 (by decide)
    _ = B1 m ρ c (Proc.devRef .tc main_arg0) := (B2_arr m ρ c 0).trans (((Pass1.dat (E1 m ρ) c).arrAt_in 0 rfl _).trans (Pass1.A_eq (E1 m ρ) c 0))
    _ = B0 m ρ c (Proc.devRef .tc main_arg0) := StableHlo.after_of_writes_sub hostOps0 _ hostOps0_writes (by decide)
    _ = m ((c : Thread nD τ).loc main_arg0) := rfl

theorem B5_main_arg1 (c : Dev nD) : B5 m ρ c (Proc.devRef .tc main_arg1) = m ((c : Thread nD τ).loc main_arg1) :=
  calc B5 m ρ c (Proc.devRef .tc main_arg1)
    _ = B4 m ρ c (Proc.devRef .tc main_arg1) := B5_of_ne m ρ c main_arg1 (by decide)
    _ = B3 m ρ c (Proc.devRef .tc main_arg1) := StableHlo.after_of_writes_sub hostOps2 _ hostOps2_writes (by decide)
    _ = B2 m ρ c (Proc.devRef .tc main_arg1) := B3_of_ne m ρ c main_arg1 (by decide)
    _ = B1 m ρ c (Proc.devRef .tc main_arg1) := (B2_arr m ρ c 1).trans (((Pass1.dat (E1 m ρ) c).arrAt_in 1 rfl _).trans (Pass1.A_eq (E1 m ρ) c 1))
    _ = B0 m ρ c (Proc.devRef .tc main_arg1) := StableHlo.after_of_writes_sub hostOps0 _ hostOps0_writes (by decide)
    _ = m ((c : Thread nD τ).loc main_arg1) := rfl

theorem B5_main_arg2 (c : Dev nD) : B5 m ρ c (Proc.devRef .tc main_arg2) = m ((c : Thread nD τ).loc main_arg2) :=
  calc B5 m ρ c (Proc.devRef .tc main_arg2)
    _ = B4 m ρ c (Proc.devRef .tc main_arg2) := B5_of_ne m ρ c main_arg2 (by decide)
    _ = B3 m ρ c (Proc.devRef .tc main_arg2) := StableHlo.after_of_writes_sub hostOps2 _ hostOps2_writes (by decide)
    _ = B2 m ρ c (Proc.devRef .tc main_arg2) := B3_of_ne m ρ c main_arg2 (by decide)
    _ = B1 m ρ c (Proc.devRef .tc main_arg2) := (B2_arr m ρ c 2).trans (((Pass1.dat (E1 m ρ) c).arrAt_in 2 rfl _).trans (Pass1.A_eq (E1 m ρ) c 2))
    _ = B0 m ρ c (Proc.devRef .tc main_arg2) := StableHlo.after_of_writes_sub hostOps0 _ hostOps0_writes (by decide)
    _ = m ((c : Thread nD τ).loc main_arg2) := rfl

theorem B5_main_arg3 (c : Dev nD) : B5 m ρ c (Proc.devRef .tc main_arg3) = m ((c : Thread nD τ).loc main_arg3) :=
  calc B5 m ρ c (Proc.devRef .tc main_arg3)
    _ = B4 m ρ c (Proc.devRef .tc main_arg3) := B5_of_ne m ρ c main_arg3 (by decide)
    _ = B3 m ρ c (Proc.devRef .tc main_arg3) := StableHlo.after_of_writes_sub hostOps2 _ hostOps2_writes (by decide)
    _ = B2 m ρ c (Proc.devRef .tc main_arg3) := B3_of_ne m ρ c main_arg3 (by decide)
    _ = B1 m ρ c (Proc.devRef .tc main_arg3) := B2_of_ne m ρ c main_arg3 (by decide)
    _ = B0 m ρ c (Proc.devRef .tc main_arg3) := StableHlo.after_of_writes_sub hostOps0 _ hostOps0_writes (by decide)
    _ = m ((c : Thread nD τ).loc main_arg3) := rfl

theorem B5_main_arg4 (c : Dev nD) : B5 m ρ c (Proc.devRef .tc main_arg4) = m ((c : Thread nD τ).loc main_arg4) :=
  calc B5 m ρ c (Proc.devRef .tc main_arg4)
    _ = B4 m ρ c (Proc.devRef .tc main_arg4) := B5_of_ne m ρ c main_arg4 (by decide)
    _ = B3 m ρ c (Proc.devRef .tc main_arg4) := StableHlo.after_of_writes_sub hostOps2 _ hostOps2_writes (by decide)
    _ = B2 m ρ c (Proc.devRef .tc main_arg4) := B3_of_ne m ρ c main_arg4 (by decide)
    _ = B1 m ρ c (Proc.devRef .tc main_arg4) := (B2_arr m ρ c 4).trans (((Pass1.dat (E1 m ρ) c).arrAt_in 4 rfl _).trans (Pass1.A_eq (E1 m ρ) c 4))
    _ = B0 m ρ c (Proc.devRef .tc main_arg4) := StableHlo.after_of_writes_sub hostOps0 _ hostOps0_writes (by decide)
    _ = m ((c : Thread nD τ).loc main_arg4) := rfl

theorem B5_main_arg5 (c : Dev nD) : B5 m ρ c (Proc.devRef .tc main_arg5) = m ((c : Thread nD τ).loc main_arg5) :=
  calc B5 m ρ c (Proc.devRef .tc main_arg5)
    _ = B4 m ρ c (Proc.devRef .tc main_arg5) := B5_of_ne m ρ c main_arg5 (by decide)
    _ = B3 m ρ c (Proc.devRef .tc main_arg5) := StableHlo.after_of_writes_sub hostOps2 _ hostOps2_writes (by decide)
    _ = B2 m ρ c (Proc.devRef .tc main_arg5) := B3_of_ne m ρ c main_arg5 (by decide)
    _ = B1 m ρ c (Proc.devRef .tc main_arg5) := B2_of_ne m ρ c main_arg5 (by decide)
    _ = B0 m ρ c (Proc.devRef .tc main_arg5) := StableHlo.after_of_writes_sub hostOps0 _ hostOps0_writes (by decide)
    _ = m ((c : Thread nD τ).loc main_arg5) := rfl

theorem B5_main_arg6 (c : Dev nD) : B5 m ρ c (Proc.devRef .tc main_arg6) = m ((c : Thread nD τ).loc main_arg6) :=
  calc B5 m ρ c (Proc.devRef .tc main_arg6)
    _ = B4 m ρ c (Proc.devRef .tc main_arg6) := (B5_arr m ρ c 3).trans (((Final.dat (E4 m ρ) c).arrAt_in 3 rfl _).trans (Final.A_eq (E4 m ρ) c 3))
    _ = B3 m ρ c (Proc.devRef .tc main_arg6) := StableHlo.after_of_writes_sub hostOps2 _ hostOps2_writes (by decide)
    _ = B2 m ρ c (Proc.devRef .tc main_arg6) := B3_of_ne m ρ c main_arg6 (by decide)
    _ = B1 m ρ c (Proc.devRef .tc main_arg6) := B2_of_ne m ρ c main_arg6 (by decide)
    _ = B0 m ρ c (Proc.devRef .tc main_arg6) := StableHlo.after_of_writes_sub hostOps0 _ hostOps0_writes (by decide)
    _ = m ((c : Thread nD τ).loc main_arg6) := rfl

theorem B5_main_arg7 (c : Dev nD) : B5 m ρ c (Proc.devRef .tc main_arg7) = m ((c : Thread nD τ).loc main_arg7) :=
  calc B5 m ρ c (Proc.devRef .tc main_arg7)
    _ = B4 m ρ c (Proc.devRef .tc main_arg7) := B5_of_ne m ρ c main_arg7 (by decide)
    _ = B3 m ρ c (Proc.devRef .tc main_arg7) := StableHlo.after_of_writes_sub hostOps2 _ hostOps2_writes (by decide)
    _ = B2 m ρ c (Proc.devRef .tc main_arg7) := B3_of_ne m ρ c main_arg7 (by decide)
    _ = B1 m ρ c (Proc.devRef .tc main_arg7) := B2_of_ne m ρ c main_arg7 (by decide)
    _ = B0 m ρ c (Proc.devRef .tc main_arg7) := StableHlo.after_of_writes_sub hostOps0 _ hostOps0_writes (by decide)
    _ = m ((c : Thread nD τ).loc main_arg7) := rfl

theorem B5_main_arg8 (c : Dev nD) : B5 m ρ c (Proc.devRef .tc main_arg8) = m ((c : Thread nD τ).loc main_arg8) :=
  calc B5 m ρ c (Proc.devRef .tc main_arg8)
    _ = B4 m ρ c (Proc.devRef .tc main_arg8) := (B5_arr m ρ c 5).trans (((Final.dat (E4 m ρ) c).arrAt_in 5 rfl _).trans (Final.A_eq (E4 m ρ) c 5))
    _ = B3 m ρ c (Proc.devRef .tc main_arg8) := StableHlo.after_of_writes_sub hostOps2 _ hostOps2_writes (by decide)
    _ = B2 m ρ c (Proc.devRef .tc main_arg8) := B3_of_ne m ρ c main_arg8 (by decide)
    _ = B1 m ρ c (Proc.devRef .tc main_arg8) := B2_of_ne m ρ c main_arg8 (by decide)
    _ = B0 m ρ c (Proc.devRef .tc main_arg8) := StableHlo.after_of_writes_sub hostOps0 _ hostOps0_writes (by decide)
    _ = m ((c : Thread nD τ).loc main_arg8) := rfl

theorem B5_main_arg9 (c : Dev nD) : B5 m ρ c (Proc.devRef .tc main_arg9) = m ((c : Thread nD τ).loc main_arg9) :=
  calc B5 m ρ c (Proc.devRef .tc main_arg9)
    _ = B4 m ρ c (Proc.devRef .tc main_arg9) := B5_of_ne m ρ c main_arg9 (by decide)
    _ = B3 m ρ c (Proc.devRef .tc main_arg9) := StableHlo.after_of_writes_sub hostOps2 _ hostOps2_writes (by decide)
    _ = B2 m ρ c (Proc.devRef .tc main_arg9) := B3_of_ne m ρ c main_arg9 (by decide)
    _ = B1 m ρ c (Proc.devRef .tc main_arg9) := B2_of_ne m ρ c main_arg9 (by decide)
    _ = B0 m ρ c (Proc.devRef .tc main_arg9) := StableHlo.after_of_writes_sub hostOps0 _ hostOps0_writes (by decide)
    _ = m ((c : Thread nD τ).loc main_arg9) := rfl

theorem B5_main_arg10 (c : Dev nD) : B5 m ρ c (Proc.devRef .tc main_arg10) = m ((c : Thread nD τ).loc main_arg10) :=
  calc B5 m ρ c (Proc.devRef .tc main_arg10)
    _ = B4 m ρ c (Proc.devRef .tc main_arg10) := B5_of_ne m ρ c main_arg10 (by decide)
    _ = B3 m ρ c (Proc.devRef .tc main_arg10) := StableHlo.after_of_writes_sub hostOps2 _ hostOps2_writes (by decide)
    _ = B2 m ρ c (Proc.devRef .tc main_arg10) := B3_of_ne m ρ c main_arg10 (by decide)
    _ = B1 m ρ c (Proc.devRef .tc main_arg10) := (B2_arr m ρ c 6).trans (((Pass1.dat (E1 m ρ) c).arrAt_in 6 rfl _).trans (Pass1.A_eq (E1 m ρ) c 6))
    _ = B0 m ρ c (Proc.devRef .tc main_arg10) := StableHlo.after_of_writes_sub hostOps0 _ hostOps0_writes (by decide)
    _ = m ((c : Thread nD τ).loc main_arg10) := rfl

theorem B5_main_arg11 (c : Dev nD) : B5 m ρ c (Proc.devRef .tc main_arg11) = m ((c : Thread nD τ).loc main_arg11) :=
  calc B5 m ρ c (Proc.devRef .tc main_arg11)
    _ = B4 m ρ c (Proc.devRef .tc main_arg11) := B5_of_ne m ρ c main_arg11 (by decide)
    _ = B3 m ρ c (Proc.devRef .tc main_arg11) := StableHlo.after_of_writes_sub hostOps2 _ hostOps2_writes (by decide)
    _ = B2 m ρ c (Proc.devRef .tc main_arg11) := (B3_arr m ρ c 3).trans (((Spatial.dat (E2 m ρ) c).arrAt_in 3 rfl _).trans (Spatial.A_eq (E2 m ρ) c 3))
    _ = B1 m ρ c (Proc.devRef .tc main_arg11) := B2_of_ne m ρ c main_arg11 (by decide)
    _ = B0 m ρ c (Proc.devRef .tc main_arg11) := StableHlo.after_of_writes_sub hostOps0 _ hostOps0_writes (by decide)
    _ = m ((c : Thread nD τ).loc main_arg11) := rfl

/-! ## The proof data family and the thread state -/

/-- Every call's proof data, each at its call's entry contents. -/
def pdats : (p : Fin 3) → (c : Dev nD) → Dat τ (Elt F) Unit ℕ (UR sig nD τ) ℕ (Pipeline.pin (pcfgs (F := F)) adm p) c
  | ⟨0, _⟩ => fun c => Pass1.dat (E1 m ρ) c
  | ⟨1, _⟩ => fun c => Spatial.dat (E2 m ρ) c
  | ⟨2, _⟩ => fun c => Final.dat (E4 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (B5 m ρ c) ∗ ∃ r, prngReg c r)

/-! ## The calls as segments -/

set_option backward.isDefEq.respectTransparency.types false in
/-- Call 0 over the thread state: entered with every unscoped buffer at `B1`, left with them at `B2`.  Its
    arrays are split out of the unscoped buffers and put back at what the pipeline leaves; the generator register
    goes into the invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Pass1.body_obligation (E1 m ρ) c).loose
  hwaits := Pipeline.hwaits_of_owed_zero _ _ _ _ L lv 0 fun _ _ => rfl
  pre c := iprop(StableHlo.held (c : Thread nD τ) (Pipeline.ucRefs τ sig) (B1 m ρ c) ∗ R c)
  post c := iprop(StableHlo.held (c : Thread nD τ) (Pipeline.ucRefs τ sig) (B2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none,
      show (pdats m ρ 0 c).Φ (Fin.last _) = (Pass1.dat (E1 m ρ) c).Φ (Fin.last cfg0.N) from rfl]
    have hout0 := Pass1.Phi_out (E1 m ρ) c
    iintro HPhi
    ihave HA := hout0 $$ HPhi
    unfold Pipeline.ΦA
    icases HA with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 over the thread state: entered with every unscoped buffer at `B2`, left with them at `B3`.  Its
    arrays are split out of the unscoped buffers and put back at what the pipeline leaves; the generator register
    goes into the invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Spatial.body_obligation (E2 m ρ) c).loose
  hwaits := Pipeline.hwaits_of_owed_zero _ _ _ _ L lv 1 fun _ _ => rfl
  pre c := iprop(StableHlo.held (c : Thread nD τ) (Pipeline.ucRefs τ sig) (B2 m ρ c) ∗ R c)
  post c := iprop(StableHlo.held (c : Thread nD τ) (Pipeline.ucRefs τ sig) (B3 m ρ c) ∗ R c)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E2 m ρ c) (E3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 over the thread state: entered with every unscoped buffer at `B4`, left with them at `B5`.  Its
    arrays are split out of the unscoped buffers and put back at what the pipeline leaves; the generator register
    goes into the invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Final.body_obligation (E4 m ρ) c).loose
  hwaits := Pipeline.hwaits_of_owed_zero _ _ _ _ L lv 2 fun _ _ => rfl
  pre c := iprop(StableHlo.held (c : Thread nD τ) (Pipeline.ucRefs τ sig) (B4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    rw [show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E4 m ρ c) (E5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs : List (Pipeline.Seg (pcfgs (F := F)) adm (pdats m ρ) () defs₀ 𝒱₀ L lv) :=
  [ .host (hseg hostOps0 hostOps0_sub hostOps0_fresh (B0 m ρ)),
    .region (reg0 m ρ),
    .region (reg1 m ρ),
    .host (hseg hostOps2 hostOps2_sub hostOps2_fresh (B3 m ρ)),
    .region (reg2 m ρ) ]
theorem main_run (c : Dev nD) : main (F := F) c = Pipeline.Seg.run (segs m ρ) := (main_chain c).trans (by chain_rfl)

set_option backward.isDefEq.respectTransparency.types false in
/-- Every weakly fair execution from `m` with zero counters terminates, faulting nowhere, with every unscoped buffer
    at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = B5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B5 m ρ c b)
    (hfin := fun c s' => by
      iintro ⟨⟨Hh, -⟩, HSI⟩
      unfold StableHlo.held
      imodintro
      iapply (pointsTo_read_all (Pipeline.ucRefs τ sig) (fun b => (((c : Thread nD τ)).1, b)) (B5 m ρ c) s')
      isplitl [Hh] <;> iassumption)
    (hQ := fun s h c => h c)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)
      ∧       r.2.mem ((c.tc : Thread nD τ).loc main_arg11) = m ((c.tc : Thread nD τ).loc main_arg11)) :=
  (θ_run defs _ _).mono (fun _ h c => ⟨(h c _ (mem_uc main_arg0 (by decide))).trans (B5_main_arg0 m ρ c),
    (h c _ (mem_uc main_arg1 (by decide))).trans (B5_main_arg1 m ρ c),
    (h c _ (mem_uc main_arg2 (by decide))).trans (B5_main_arg2 m ρ c),
    (h c _ (mem_uc main_arg3 (by decide))).trans (B5_main_arg3 m ρ c),
    (h c _ (mem_uc main_arg4 (by decide))).trans (B5_main_arg4 m ρ c),
    (h c _ (mem_uc main_arg5 (by decide))).trans (B5_main_arg5 m ρ c),
    (h c _ (mem_uc main_arg6 (by decide))).trans (B5_main_arg6 m ρ c),
    (h c _ (mem_uc main_arg7 (by decide))).trans (B5_main_arg7 m ρ c),
    (h c _ (mem_uc main_arg8 (by decide))).trans (B5_main_arg8 m ρ c),
    (h c _ (mem_uc main_arg9 (by decide))).trans (B5_main_arg9 m ρ c),
    (h c _ (mem_uc main_arg10 (by decide))).trans (B5_main_arg10 m ρ c),
    (h c _ (mem_uc main_arg11 (by decide))).trans (B5_main_arg11 m ρ c)⟩) (run m ρ)

/-- What the result array ends at: what the last call's write-backs add up to. -/
def result (c : Dev nD) : Buf (Elt F) ((c.tc : Thread nD τ).loc main_v8) := (Final.dat (E4 m ρ) c).arrAt 7 cfg2.N

/-- The run with the result named and the arguments unchanged. -/
theorem run_result : θ_run defs (onTc (τ := τ) (main (F := F))) ⟨m, fun _ => 0, ρ⟩ (fun r => ∀ c : Dev nD,
      r.2.mem ((c.tc : Thread nD τ).loc main_v8) = result m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(h c _ (mem_uc main_v8 (by decide))).trans (B5_arr m ρ c 7),
    (h c _ (mem_uc main_arg0 (by decide))).trans (B5_main_arg0 m ρ c),
    (h c _ (mem_uc main_arg1 (by decide))).trans (B5_main_arg1 m ρ c),
    (h c _ (mem_uc main_arg2 (by decide))).trans (B5_main_arg2 m ρ c),
    (h c _ (mem_uc main_arg3 (by decide))).trans (B5_main_arg3 m ρ c),
    (h c _ (mem_uc main_arg4 (by decide))).trans (B5_main_arg4 m ρ c),
    (h c _ (mem_uc main_arg5 (by decide))).trans (B5_main_arg5 m ρ c),
    (h c _ (mem_uc main_arg6 (by decide))).trans (B5_main_arg6 m ρ c),
    (h c _ (mem_uc main_arg7 (by decide))).trans (B5_main_arg7 m ρ c),
    (h c _ (mem_uc main_arg8 (by decide))).trans (B5_main_arg8 m ρ c),
    (h c _ (mem_uc main_arg9 (by decide))).trans (B5_main_arg9 m ρ c),
    (h c _ (mem_uc main_arg10 (by decide))).trans (B5_main_arg10 m ρ c),
    (h c _ (mem_uc main_arg11 (by decide))).trans (B5_main_arg11 m ρ c)⟩) (run m ρ)

end Cert.KernelIdeal.Whole

end
-- ==== Proof.Bits.Pass1Runs.lean ====
/-
  The first kernel call, one grid point at a time: what the three control cases share.
  The grid is (batch b, token tile j), j fastest, four tiles of 2048 tokens per batch.  At every point the body
  projects the x block to q, k, v_ca, v_sa (heads × head-dim × 2048 tokens), stores the q and v_ca blocks, and adds
  the tile's contribution to five accumulators it keeps between points: the raw Gram matrix ∑_n q[d,n] k[e,n], the
  squared row norms of q and of k, and the low-rank projections ∑_n k[d,n] WE[p,n], ∑_n v_sa[d,n] WF[p,n].
  At the first tile of a batch (j = 0) it zeroes the accumulators first; at the last (j = 3) it also turns them into
  the three per-batch results (softmaxed channel attention, scaled key projection, value projection).
  Hence three cases: first tile, middle tiles, last tile.  This module fixes the two conditions in closed form over
  the grid, where the three per-batch outputs are idle, the names of the staging and scratch memrefs, and the
  region invariant with the five accumulators named.
-/
import proofs.«149626_j38448547234132_2_alg».proof.Proof.Gen.Kernel.Launch
import proofs.«149626_j38448547234132_2_alg».proof.Proof.Gen.Kernel.Skeleton
import proofs.«149626_j38448547234132_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Pass1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, in closed form over the grid -/

/-- "This is the first token tile of its batch": the body's first `if`, from the grid coordinates. -/
abbrev condFirst (i : grid0.Coords) : Prop := (Scalar.cmpi .ne (Scalar.extui (Scalar.cmpi .eq (BitVec.ofNat 32 (i 1).val) 0#32)) 0#32) = 1#1
/-- It holds at the points ≡ 0 (mod 4). -/
theorem hcondFirst : ∀ t : Fin cfg0.N, condFirst (grid0.coords t) ↔ t.val % 4 = 0 :=
  (by decide +kernel : ∀ t : Fin grid0.N, condFirst (grid0.coords t) ↔ t.val % 4 = 0)

/-- "This is the last token tile of its batch": the body's second `if`. -/
abbrev condLast (i : grid0.Coords) : Prop := k0_cond2 i = 1#1
/-- It holds at the points ≡ 3 (mod 4). -/
theorem hcondLast : ∀ t : Fin cfg0.N, condLast (grid0.coords t) ↔ t.val % 4 = 3 :=
  (by decide +kernel : ∀ t : Fin grid0.N, condLast (grid0.coords t) ↔ t.val % 4 = 3)

/-! ## Where the windows are idle -/

theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_3 : ∀ t : Fin cfg0.N, cfg0.idle 3 (grid0.coords t) = false := by decide +kernel
theorem live_4 : ∀ t : Fin cfg0.N, cfg0.idle 4 (grid0.coords t) = false := by decide +kernel
theorem live_5 : ∀ t : Fin cfg0.N, cfg0.idle 5 (grid0.coords t) = false := by decide +kernel
theorem live_6 : ∀ t : Fin cfg0.N, cfg0.idle 6 (grid0.coords t) = false := by decide +kernel
theorem live_7 : ∀ t : Fin cfg0.N, cfg0.idle 7 (grid0.coords t) = false := by decide +kernel
theorem live_8 : ∀ t : Fin cfg0.N, cfg0.idle 8 (grid0.coords t) = false := by decide +kernel
/-- Off the last tile of a batch the body stores nothing into window 9 (the channel-attention weights of the batch): the window is idle there and is not
    written back. On the last tile it is live. -/
theorem idle_9 : ∀ t : Fin cfg0.N, ¬condLast (grid0.coords t) → cfg0.idle 9 (grid0.coords t) = true := by decide +kernel
theorem noFlush_9 : ∀ t : Fin cfg0.N, ¬condLast (grid0.coords t) → (cfg0.win 9).flush t = false := by decide +kernel
theorem liveLast_9 : ∀ t : Fin cfg0.N, condLast (grid0.coords t) → cfg0.idle 9 (grid0.coords t) = false := by decide +kernel
/-- Off the last tile of a batch the body stores nothing into window 10 (the scaled key projection of the batch): the window is idle there and is not
    written back. On the last tile it is live. -/
theorem idle_10 : ∀ t : Fin cfg0.N, ¬condLast (grid0.coords t) → cfg0.idle 10 (grid0.coords t) = true := by decide +kernel
theorem noFlush_10 : ∀ t : Fin cfg0.N, ¬condLast (grid0.coords t) → (cfg0.win 10).flush t = false := by decide +kernel
theorem liveLast_10 : ∀ t : Fin cfg0.N, condLast (grid0.coords t) → cfg0.idle 10 (grid0.coords t) = false := by decide +kernel
/-- Off the last tile of a batch the body stores nothing into window 11 (the value projection of the batch): the window is idle there and is not
    written back. On the last tile it is live. -/
theorem idle_11 : ∀ t : Fin cfg0.N, ¬condLast (grid0.coords t) → cfg0.idle 11 (grid0.coords t) = true := by decide +kernel
theorem noFlush_11 : ∀ t : Fin cfg0.N, ¬condLast (grid0.coords t) → (cfg0.win 11).flush t = false := by decide +kernel
theorem liveLast_11 : ∀ t : Fin cfg0.N, condLast (grid0.coords t) → cfg0.idle 11 (grid0.coords t) = false := by decide +kernel

/-! ## The memrefs the body is called with -/

abbrev ms0 (t : Fin cfg0.N) : Memref sig .tc .vmem S1x2048x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S64x8192 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x64 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S64x8192 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1x64 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S8x1x1 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x8x32x2048 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x8x32x2048 .bf16 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x8x32x32 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S1x8x32x64 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S1x8x32x64 .f32 := win0_11.stage (cfg0.slots t 11)
abbrev hs11 (t : Fin cfg0.N) : (ms11 t).IsWhole := hstage0_11 ((cfg0.slots t 11).cast nbuf0_11)
/-- One staging buffer of window 7, through which its contents are stated. -/
abbrev VO7 : View sig .tc .vmem S1x8x32x2048 .bf16 := (Memref.whole cc0_stg7_0 : Memref sig .tc .vmem S1x8x32x2048 .bf16).view
/-- One staging buffer of window 8, through which its contents are stated. -/
abbrev VO8 : View sig .tc .vmem S1x8x32x2048 .bf16 := (Memref.whole cc0_stg8_0 : Memref sig .tc .vmem S1x8x32x2048 .bf16).view
/-- One staging buffer of window 9, through which its contents are stated. -/
abbrev VO9 : View sig .tc .vmem S1x8x32x32 .f32 := (Memref.whole cc0_stg9_0 : Memref sig .tc .vmem S1x8x32x32 .f32).view
/-- One staging buffer of window 10, through which its contents are stated. -/
abbrev VO10 : View sig .tc .vmem S1x8x32x64 .f32 := (Memref.whole cc0_stg10_0 : Memref sig .tc .vmem S1x8x32x64 .f32).view
/-- One staging buffer of window 11, through which its contents are stated. -/
abbrev VO11 : View sig .tc .vmem S1x8x32x64 .f32 := (Memref.whole cc0_stg11_0 : Memref sig .tc .vmem S1x8x32x64 .f32).view
/-- the running Gram matrix: a whole scoped buffer of the kernel's own. -/
abbrev scM0 : Memref sig .tc .vmem S8x32x32 .f32 := Memref.whole cc0_scratch0
abbrev VS0 : View sig .tc .vmem S8x32x32 .f32 := scM0.view
/-- the running squared row norms of q: a whole scoped buffer of the kernel's own. -/
abbrev scM1 : Memref sig .tc .vmem S8x32 .f32 := Memref.whole cc0_scratch1
abbrev VS1 : View sig .tc .vmem S8x32 .f32 := scM1.view
/-- the running squared row norms of k: a whole scoped buffer of the kernel's own. -/
abbrev scM2 : Memref sig .tc .vmem S8x32 .f32 := Memref.whole cc0_scratch2
abbrev VS2 : View sig .tc .vmem S8x32 .f32 := scM2.view
/-- the running key projection: a whole scoped buffer of the kernel's own. -/
abbrev scM3 : Memref sig .tc .vmem S8x32x64 .f32 := Memref.whole cc0_scratch3
abbrev VS3 : View sig .tc .vmem S8x32x64 .f32 := scM3.view
/-- the running value projection: a whole scoped buffer of the kernel's own. -/
abbrev scM4 : Memref sig .tc .vmem S8x32x64 .f32 := Memref.whole cc0_scratch4
abbrev VS4 : View sig .tc .vmem S8x32x64 .f32 := scM4.view

/-- What rides through the call untouched: every scoped buffer that is neither a staging buffer of this call nor one
    of its five accumulators. -/
abbrev restBut (c : Dev nD) : sProp 𝕄 :=
  Pipeline.scopedRestBut (Ix := Unit) (Name := ℕ) (U := UR sig nD τ) (Lvl := ℕ) (Val := Elt F) spec0 c [cc0_scratch0, cc0_scratch1, cc0_scratch2, cc0_scratch3, cc0_scratch4]

/-- The class invariant with the five accumulators as memrefs owned at some contents. -/
theorem PhiA_eq (c : Dev nD) :
    (Pipeline.ΦA spec0 c : sProp 𝕄)
      = iprop(iprop(iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d) ∗ (∃ d, owns (c : Thread nD τ) scM4 fullShare d)) ∗ restBut c) ∗ (∃ r, prngReg c r)) := by
  unfold Pipeline.ΦA; rw [scopedRest0_split]; simp only [scM0, scM1, scM2, scM3, scM4, owns_whole]; try rfl

end Cert.Kernel.Pass1

end
-- ==== Proof.Bits.Pass1RunFirst.lean ====
/-
  The first kernel call at the first token tile of a batch (the accumulators are zeroed, then this tile's contribution is added): the body's whole run.
  On whole memrefs — the seven inputs at their blocks, the q and v_ca output buffers at anything, the three per-batch output buffers at contents handed back untouched,
  the five accumulators at anything — the body runs to its continuation with the inputs as they were and every buffer
  it stored into holding its stores, as a list of pieces (last store first) that the run itself finds.
-/
import proofs.«149626_j38448547234132_2_alg».proof.Proof.Bits.Pass1Runs

set_option maxRecDepth 16384

noncomputable section

namespace Cert.Kernel.Pass1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runFirst (c : Dev nD) (i : grid0.Coords) (arg2 : Memref sig .tc .vmem S1x2048x256 .f32) (harg2 : arg2.IsWhole) (arg3 : Memref sig .tc .vmem S1024x256 .f32) (harg3 : arg3.IsWhole) (arg4 : Memref sig .tc .vmem S64x8192 .f32) (harg4 : arg4.IsWhole) (arg5 : Memref sig .tc .vmem S1x1x64 .f32) (harg5 : arg5.IsWhole) (arg6 : Memref sig .tc .vmem S64x8192 .f32) (harg6 : arg6.IsWhole) (arg7 : Memref sig .tc .vmem S1x1x64 .f32) (harg7 : arg7.IsWhole) (arg8 : Memref sig .tc .vmem S8x1x1 .f32) (harg8 : arg8.IsWhole) (arg9 : Memref sig .tc .vmem S1x8x32x2048 .bf16) (harg9 : arg9.IsWhole) (arg10 : Memref sig .tc .vmem S1x8x32x2048 .bf16) (harg10 : arg10.IsWhole) (arg11 : Memref sig .tc .vmem S1x8x32x32 .f32) (harg11 : arg11.IsWhole) (arg12 : Memref sig .tc .vmem S1x8x32x64 .f32) (harg12 : arg12.IsWhole) (arg13 : Memref sig .tc .vmem S1x8x32x64 .f32) (harg13 : arg13.IsWhole) (arg14 : Memref sig .tc .vmem S8x32x32 .f32) (harg14 : arg14.IsWhole) (arg15 : Memref sig .tc .vmem S8x32 .f32) (harg15 : arg15.IsWhole) (arg16 : Memref sig .tc .vmem S8x32 .f32) (harg16 : arg16.IsWhole) (arg17 : Memref sig .tc .vmem S8x32x64 .f32) (harg17 : arg17.IsWhole) (arg18 : Memref sig .tc .vmem S8x32x64 .f32) (harg18 : arg18.IsWhole) (hc0 : condFirst i) (hc1 : ¬condLast i)
    (x0 : Vec F S1x2048x256 .f32) (x1 : Vec F S1024x256 .f32) (x2 : Vec F S64x8192 .f32) (x3 : Vec F S1x1x64 .f32) (x4 : Vec F S64x8192 .f32) (x5 : Vec F S1x1x64 .f32) (x6 : Vec F S8x1x1 .f32) :
    Σ' (L7 : List (View.Piece (Elt F) S1x8x32x2048 .bf16)) (L8 : List (View.Piece (Elt F) S1x8x32x2048 .bf16)) (LS0 : List (View.Piece (Elt F) S8x32x32 .f32)) (LS1 : List (View.Piece (Elt F) S8x32 .f32)) (LS2 : List (View.Piece (Elt F) S8x32 .f32)) (LS3 : List (View.Piece (Elt F) S8x32x64 .f32)), { LS4 : List (View.Piece (Elt F) S8x32x64 .f32) //
      ∀ (xi9 : Vec F S1x8x32x32 .f32) (xi10 : Vec F S1x8x32x64 .f32) (xi11 : Vec F S1x8x32x64 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ (∃ d, owns (c : Thread nD τ) arg9 fullShare d)
            ∗ (∃ d, owns (c : Thread nD τ) arg10 fullShare d)
            ∗ owns (c : Thread nD τ) arg11 fullShare xi9
            ∗ owns (c : Thread nD τ) arg12 fullShare xi10
            ∗ owns (c : Thread nD τ) arg13 fullShare xi11
            ∗ (∃ d, owns (c : Thread nD τ) arg14 fullShare d)
            ∗ (∃ d, owns (c : Thread nD τ) arg15 fullShare d)
            ∗ (∃ d, owns (c : Thread nD τ) arg16 fullShare d)
            ∗ (∃ d, owns (c : Thread nD τ) arg17 fullShare d)
            ∗ (∃ d, owns (c : Thread nD τ) arg18 fullShare d)
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare x4
                ∗ owns (c : Thread nD τ) arg7 fullShare x5
                ∗ owns (c : Thread nD τ) arg8 fullShare x6
                ∗ (∃ f, arg9.view.loc (c : Thread nD τ) ↦[arg9.view.set]{fullShare} arg9.view.writes (Elt F) f L7)
                ∗ (∃ f, arg10.view.loc (c : Thread nD τ) ↦[arg10.view.set]{fullShare} arg10.view.writes (Elt F) f L8)
                ∗ owns (c : Thread nD τ) arg11 fullShare xi9
                ∗ owns (c : Thread nD τ) arg12 fullShare xi10
                ∗ owns (c : Thread nD τ) arg13 fullShare xi11
                ∗ (∃ f, arg14.view.loc (c : Thread nD τ) ↦[arg14.view.set]{fullShare} arg14.view.writes (Elt F) f LS0)
                ∗ (∃ f, arg15.view.loc (c : Thread nD τ) ↦[arg15.view.set]{fullShare} arg15.view.writes (Elt F) f LS1)
                ∗ (∃ f, arg16.view.loc (c : Thread nD τ) ↦[arg16.view.set]{fullShare} arg16.view.writes (Elt F) f LS2)
                ∗ (∃ f, arg17.view.loc (c : Thread nD τ) ↦[arg17.view.set]{fullShare} arg17.view.writes (Elt F) f LS3)
                ∗ (∃ f, arg18.view.loc (c : Thread nD τ) ↦[arg18.view.set]{fullShare} arg18.view.writes (Elt F) f LS4)) -∗ K ⟨⟩))
          ⊢ wp frame (wpE (defs₀ (F := F)) Variants.none c none) E (cc0__pass1_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, ?_, ?_, fun xi9 xi10 xi11 E K => ?run⟩
  case run =>
    simp only [cc0__pass1_kernel_eq_skeleton]; unfold cc0__pass1_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%f10, %hf10, H10⟩, ⟨%f11, %hf11, H11⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg11.eq_unread hf9; obtain rfl := harg12.eq_unread hf10; obtain rfl := harg13.eq_unread hf11
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [HS0]; · iexists _; iexact HS0
    isplitl [HS1]; · iexists _; iexact HS1
    isplitl [HS2]; · iexists _; iexact HS2
    isplitl [HS3]; · iexists _; iexact HS3
    iexists _; iexact HS4

end Cert.Kernel.Pass1

end
-- ==== Proof.Bits.Pass1RunMid.lean ====
/-
  The first kernel call at a middle token tile of a batch (this tile's contribution is added to what the tile before left): the body's whole run.
  On whole memrefs — the seven inputs at their blocks, the q and v_ca output buffers at anything, the three per-batch output buffers at contents handed back untouched,
  the five accumulators at what the tile before left — the body runs to its continuation with the inputs as they were and every buffer
  it stored into holding its stores, as a list of pieces (last store first) that the run itself finds.
-/
import proofs.«149626_j38448547234132_2_alg».proof.Proof.Bits.Pass1RunFirst

set_option maxRecDepth 16384

noncomputable section

namespace Cert.Kernel.Pass1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runMid (c : Dev nD) (i : grid0.Coords) (arg2 : Memref sig .tc .vmem S1x2048x256 .f32) (harg2 : arg2.IsWhole) (arg3 : Memref sig .tc .vmem S1024x256 .f32) (harg3 : arg3.IsWhole) (arg4 : Memref sig .tc .vmem S64x8192 .f32) (harg4 : arg4.IsWhole) (arg5 : Memref sig .tc .vmem S1x1x64 .f32) (harg5 : arg5.IsWhole) (arg6 : Memref sig .tc .vmem S64x8192 .f32) (harg6 : arg6.IsWhole) (arg7 : Memref sig .tc .vmem S1x1x64 .f32) (harg7 : arg7.IsWhole) (arg8 : Memref sig .tc .vmem S8x1x1 .f32) (harg8 : arg8.IsWhole) (arg9 : Memref sig .tc .vmem S1x8x32x2048 .bf16) (harg9 : arg9.IsWhole) (arg10 : Memref sig .tc .vmem S1x8x32x2048 .bf16) (harg10 : arg10.IsWhole) (arg11 : Memref sig .tc .vmem S1x8x32x32 .f32) (harg11 : arg11.IsWhole) (arg12 : Memref sig .tc .vmem S1x8x32x64 .f32) (harg12 : arg12.IsWhole) (arg13 : Memref sig .tc .vmem S1x8x32x64 .f32) (harg13 : arg13.IsWhole) (arg14 : Memref sig .tc .vmem S8x32x32 .f32) (harg14 : arg14.IsWhole) (arg15 : Memref sig .tc .vmem S8x32 .f32) (harg15 : arg15.IsWhole) (arg16 : Memref sig .tc .vmem S8x32 .f32) (harg16 : arg16.IsWhole) (arg17 : Memref sig .tc .vmem S8x32x64 .f32) (harg17 : arg17.IsWhole) (arg18 : Memref sig .tc .vmem S8x32x64 .f32) (harg18 : arg18.IsWhole) (hc0 : ¬condFirst i) (hc1 : ¬condLast i)
    (x0 : Vec F S1x2048x256 .f32) (x1 : Vec F S1024x256 .f32) (x2 : Vec F S64x8192 .f32) (x3 : Vec F S1x1x64 .f32) (x4 : Vec F S64x8192 .f32) (x5 : Vec F S1x1x64 .f32) (x6 : Vec F S8x1x1 .f32) (xs0 : Vec F S8x32x32 .f32) (xs1 : Vec F S8x32 .f32) (xs2 : Vec F S8x32 .f32) (xs3 : Vec F S8x32x64 .f32) (xs4 : Vec F S8x32x64 .f32) :
    Σ' (L7 : List (View.Piece (Elt F) S1x8x32x2048 .bf16)) (L8 : List (View.Piece (Elt F) S1x8x32x2048 .bf16)) (LS0 : List (View.Piece (Elt F) S8x32x32 .f32)) (LS1 : List (View.Piece (Elt F) S8x32 .f32)) (LS2 : List (View.Piece (Elt F) S8x32 .f32)) (LS3 : List (View.Piece (Elt F) S8x32x64 .f32)), { LS4 : List (View.Piece (Elt F) S8x32x64 .f32) //
      ∀ (xi9 : Vec F S1x8x32x32 .f32) (xi10 : Vec F S1x8x32x64 .f32) (xi11 : Vec F S1x8x32x64 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ (∃ d, owns (c : Thread nD τ) arg9 fullShare d)
            ∗ (∃ d, owns (c : Thread nD τ) arg10 fullShare d)
            ∗ owns (c : Thread nD τ) arg11 fullShare xi9
            ∗ owns (c : Thread nD τ) arg12 fullShare xi10
            ∗ owns (c : Thread nD τ) arg13 fullShare xi11
            ∗ owns (c : Thread nD τ) arg14 fullShare xs0
            ∗ owns (c : Thread nD τ) arg15 fullShare xs1
            ∗ owns (c : Thread nD τ) arg16 fullShare xs2
            ∗ owns (c : Thread nD τ) arg17 fullShare xs3
            ∗ owns (c : Thread nD τ) arg18 fullShare xs4
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare x4
                ∗ owns (c : Thread nD τ) arg7 fullShare x5
                ∗ owns (c : Thread nD τ) arg8 fullShare x6
                ∗ (∃ f, arg9.view.loc (c : Thread nD τ) ↦[arg9.view.set]{fullShare} arg9.view.writes (Elt F) f L7)
                ∗ (∃ f, arg10.view.loc (c : Thread nD τ) ↦[arg10.view.set]{fullShare} arg10.view.writes (Elt F) f L8)
                ∗ owns (c : Thread nD τ) arg11 fullShare xi9
                ∗ owns (c : Thread nD τ) arg12 fullShare xi10
                ∗ owns (c : Thread nD τ) arg13 fullShare xi11
                ∗ (∃ f, arg14.view.loc (c : Thread nD τ) ↦[arg14.view.set]{fullShare} arg14.view.writes (Elt F) f LS0)
                ∗ (∃ f, arg15.view.loc (c : Thread nD τ) ↦[arg15.view.set]{fullShare} arg15.view.writes (Elt F) f LS1)
                ∗ (∃ f, arg16.view.loc (c : Thread nD τ) ↦[arg16.view.set]{fullShare} arg16.view.writes (Elt F) f LS2)
                ∗ (∃ f, arg17.view.loc (c : Thread nD τ) ↦[arg17.view.set]{fullShare} arg17.view.writes (Elt F) f LS3)
                ∗ (∃ f, arg18.view.loc (c : Thread nD τ) ↦[arg18.view.set]{fullShare} arg18.view.writes (Elt F) f LS4)) -∗ K ⟨⟩))
          ⊢ wp frame (wpE (defs₀ (F := F)) Variants.none c none) E (cc0__pass1_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, ?_, ?_, fun xi9 xi10 xi11 E K => ?run⟩
  case run =>
    simp only [cc0__pass1_kernel_eq_skeleton]; unfold cc0__pass1_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%f10, %hf10, H10⟩, ⟨%f11, %hf11, H11⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg11.eq_unread hf9; obtain rfl := harg12.eq_unread hf10; obtain rfl := harg13.eq_unread hf11; obtain rfl := harg14.eq_unread hfs0; obtain rfl := harg15.eq_unread hfs1; obtain rfl := harg16.eq_unread hfs2; obtain rfl := harg17.eq_unread hfs3; obtain rfl := harg18.eq_unread hfs4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [HS0]; · iexists _; iexact HS0
    isplitl [HS1]; · iexists _; iexact HS1
    isplitl [HS2]; · iexists _; iexact HS2
    isplitl [HS3]; · iexists _; iexact HS3
    iexists _; iexact HS4

end Cert.Kernel.Pass1

end
-- ==== Proof.Bits.Pass1RunLast.lean ====
/-
  The first kernel call at the last token tile of a batch (this tile's contribution is added, then the three per-batch results are stored): the body's whole run.
  On whole memrefs — the seven inputs at their blocks, the q and v_ca output buffers at anything, the three per-batch output buffers at anything,
  the five accumulators at what the tile before left — the body runs to its continuation with the inputs as they were and every buffer
  it stored into holding its stores, as a list of pieces (last store first) that the run itself finds.
-/
import proofs.«149626_j38448547234132_2_alg».proof.Proof.Bits.Pass1RunMid

set_option maxRecDepth 16384

noncomputable section

namespace Cert.Kernel.Pass1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runLast (c : Dev nD) (i : grid0.Coords) (arg2 : Memref sig .tc .vmem S1x2048x256 .f32) (harg2 : arg2.IsWhole) (arg3 : Memref sig .tc .vmem S1024x256 .f32) (harg3 : arg3.IsWhole) (arg4 : Memref sig .tc .vmem S64x8192 .f32) (harg4 : arg4.IsWhole) (arg5 : Memref sig .tc .vmem S1x1x64 .f32) (harg5 : arg5.IsWhole) (arg6 : Memref sig .tc .vmem S64x8192 .f32) (harg6 : arg6.IsWhole) (arg7 : Memref sig .tc .vmem S1x1x64 .f32) (harg7 : arg7.IsWhole) (arg8 : Memref sig .tc .vmem S8x1x1 .f32) (harg8 : arg8.IsWhole) (arg9 : Memref sig .tc .vmem S1x8x32x2048 .bf16) (harg9 : arg9.IsWhole) (arg10 : Memref sig .tc .vmem S1x8x32x2048 .bf16) (harg10 : arg10.IsWhole) (arg11 : Memref sig .tc .vmem S1x8x32x32 .f32) (harg11 : arg11.IsWhole) (arg12 : Memref sig .tc .vmem S1x8x32x64 .f32) (harg12 : arg12.IsWhole) (arg13 : Memref sig .tc .vmem S1x8x32x64 .f32) (harg13 : arg13.IsWhole) (arg14 : Memref sig .tc .vmem S8x32x32 .f32) (harg14 : arg14.IsWhole) (arg15 : Memref sig .tc .vmem S8x32 .f32) (harg15 : arg15.IsWhole) (arg16 : Memref sig .tc .vmem S8x32 .f32) (harg16 : arg16.IsWhole) (arg17 : Memref sig .tc .vmem S8x32x64 .f32) (harg17 : arg17.IsWhole) (arg18 : Memref sig .tc .vmem S8x32x64 .f32) (harg18 : arg18.IsWhole) (hc0 : ¬condFirst i) (hc1 : condLast i)
    (x0 : Vec F S1x2048x256 .f32) (x1 : Vec F S1024x256 .f32) (x2 : Vec F S64x8192 .f32) (x3 : Vec F S1x1x64 .f32) (x4 : Vec F S64x8192 .f32) (x5 : Vec F S1x1x64 .f32) (x6 : Vec F S8x1x1 .f32) (xs0 : Vec F S8x32x32 .f32) (xs1 : Vec F S8x32 .f32) (xs2 : Vec F S8x32 .f32) (xs3 : Vec F S8x32x64 .f32) (xs4 : Vec F S8x32x64 .f32) :
    Σ' (L7 : List (View.Piece (Elt F) S1x8x32x2048 .bf16)) (L8 : List (View.Piece (Elt F) S1x8x32x2048 .bf16)) (L9 : List (View.Piece (Elt F) S1x8x32x32 .f32)) (L10 : List (View.Piece (Elt F) S1x8x32x64 .f32)) (L11 : List (View.Piece (Elt F) S1x8x32x64 .f32)) (LS0 : List (View.Piece (Elt F) S8x32x32 .f32)) (LS1 : List (View.Piece (Elt F) S8x32 .f32)) (LS2 : List (View.Piece (Elt F) S8x32 .f32)) (LS3 : List (View.Piece (Elt F) S8x32x64 .f32)), { LS4 : List (View.Piece (Elt F) S8x32x64 .f32) //
      ∀ (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ (∃ d, owns (c : Thread nD τ) arg9 fullShare d)
            ∗ (∃ d, owns (c : Thread nD τ) arg10 fullShare d)
            ∗ (∃ d, owns (c : Thread nD τ) arg11 fullShare d)
            ∗ (∃ d, owns (c : Thread nD τ) arg12 fullShare d)
            ∗ (∃ d, owns (c : Thread nD τ) arg13 fullShare d)
            ∗ owns (c : Thread nD τ) arg14 fullShare xs0
            ∗ owns (c : Thread nD τ) arg15 fullShare xs1
            ∗ owns (c : Thread nD τ) arg16 fullShare xs2
            ∗ owns (c : Thread nD τ) arg17 fullShare xs3
            ∗ owns (c : Thread nD τ) arg18 fullShare xs4
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare x4
                ∗ owns (c : Thread nD τ) arg7 fullShare x5
                ∗ owns (c : Thread nD τ) arg8 fullShare x6
                ∗ (∃ f, arg9.view.loc (c : Thread nD τ) ↦[arg9.view.set]{fullShare} arg9.view.writes (Elt F) f L7)
                ∗ (∃ f, arg10.view.loc (c : Thread nD τ) ↦[arg10.view.set]{fullShare} arg10.view.writes (Elt F) f L8)
                ∗ (∃ f, arg11.view.loc (c : Thread nD τ) ↦[arg11.view.set]{fullShare} arg11.view.writes (Elt F) f L9)
                ∗ (∃ f, arg12.view.loc (c : Thread nD τ) ↦[arg12.view.set]{fullShare} arg12.view.writes (Elt F) f L10)
                ∗ (∃ f, arg13.view.loc (c : Thread nD τ) ↦[arg13.view.set]{fullShare} arg13.view.writes (Elt F) f L11)
                ∗ (∃ f, arg14.view.loc (c : Thread nD τ) ↦[arg14.view.set]{fullShare} arg14.view.writes (Elt F) f LS0)
                ∗ (∃ f, arg15.view.loc (c : Thread nD τ) ↦[arg15.view.set]{fullShare} arg15.view.writes (Elt F) f LS1)
                ∗ (∃ f, arg16.view.loc (c : Thread nD τ) ↦[arg16.view.set]{fullShare} arg16.view.writes (Elt F) f LS2)
                ∗ (∃ f, arg17.view.loc (c : Thread nD τ) ↦[arg17.view.set]{fullShare} arg17.view.writes (Elt F) f LS3)
                ∗ (∃ f, arg18.view.loc (c : Thread nD τ) ↦[arg18.view.set]{fullShare} arg18.view.writes (Elt F) f LS4)) -∗ K ⟨⟩))
          ⊢ wp frame (wpE (defs₀ (F := F)) Variants.none c none) E (cc0__pass1_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, ?_, ?_, ?_, ?_, ?_, fun E K => ?run⟩
  case run =>
    simp only [cc0__pass1_kernel_eq_skeleton]; unfold cc0__pass1_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg14.eq_unread hfs0; obtain rfl := harg15.eq_unread hfs1; obtain rfl := harg16.eq_unread hfs2; obtain rfl := harg17.eq_unread hfs3; obtain rfl := harg18.eq_unread hfs4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    isplitl [H9]; · iexists _; iexact H9
    isplitl [H10]; · iexists _; iexact H10
    isplitl [H11]; · iexists _; iexact H11
    isplitl [HS0]; · iexists _; iexact HS0
    isplitl [HS1]; · iexists _; iexact HS1
    isplitl [HS2]; · iexists _; iexact HS2
    isplitl [HS3]; · iexists _; iexact HS3
    iexists _; iexact HS4

end Cert.Kernel.Pass1

end
-- ==== Proof.Bits.Pass1Outs.lean ====
/-
  The first kernel call: what every buffer holds after each grid point.
  Per control case, the stores the run found cover each buffer they go into, so the buffer's contents after the
  body are those stores read back.  Point by point this gives a recursion: the first tile of a batch starts the five
  accumulators afresh; a middle or last tile continues from what the tile before left; only the last tile of a batch
  writes the three per-batch outputs (elsewhere those windows are idle and what is recorded for them is a placeholder
  nothing consults).  The region invariant before a point names the accumulators at what the point before left.
-/
import proofs.«149626_j38448547234132_2_alg».proof.Proof.Bits.Pass1RunLast

set_option maxRecDepth 16384

noncomputable section

namespace Cert.Kernel.Pass1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The stores of each case cover the buffers they go into -/

theorem coverFirst_o7 (c : Dev nD) (i : grid0.Coords) (arg2 : Memref sig .tc .vmem S1x2048x256 .f32) (harg2 : arg2.IsWhole) (arg3 : Memref sig .tc .vmem S1024x256 .f32) (harg3 : arg3.IsWhole) (arg4 : Memref sig .tc .vmem S64x8192 .f32) (harg4 : arg4.IsWhole) (arg5 : Memref sig .tc .vmem S1x1x64 .f32) (harg5 : arg5.IsWhole) (arg6 : Memref sig .tc .vmem S64x8192 .f32) (harg6 : arg6.IsWhole) (arg7 : Memref sig .tc .vmem S1x1x64 .f32) (harg7 : arg7.IsWhole) (arg8 : Memref sig .tc .vmem S8x1x1 .f32) (harg8 : arg8.IsWhole) (arg9 : Memref sig .tc .vmem S1x8x32x2048 .bf16) (harg9 : arg9.IsWhole) (arg10 : Memref sig .tc .vmem S1x8x32x2048 .bf16) (harg10 : arg10.IsWhole) (arg11 : Memref sig .tc .vmem S1x8x32x32 .f32) (harg11 : arg11.IsWhole) (arg12 : Memref sig .tc .vmem S1x8x32x64 .f32) (harg12 : arg12.IsWhole) (arg13 : Memref sig .tc .vmem S1x8x32x64 .f32) (harg13 : arg13.IsWhole) (arg14 : Memref sig .tc .vmem S8x32x32 .f32) (harg14 : arg14.IsWhole) (arg15 : Memref sig .tc .vmem S8x32 .f32) (harg15 : arg15.IsWhole) (arg16 : Memref sig .tc .vmem S8x32 .f32) (harg16 : arg16.IsWhole) (arg17 : Memref sig .tc .vmem S8x32x64 .f32) (harg17 : arg17.IsWhole) (arg18 : Memref sig .tc .vmem S8x32x64 .f32) (harg18 : arg18.IsWhole) (hc0 : condFirst i) (hc1 : ¬condLast i) (x0 : Vec F S1x2048x256 .f32) (x1 : Vec F S1024x256 .f32) (x2 : Vec F S64x8192 .f32) (x3 : Vec F S1x1x64 .f32) (x4 : Vec F S64x8192 .f32) (x5 : Vec F S1x1x64 .f32) (x6 : Vec F S8x1x1 .f32) (y : S1x8x32x2048.Idx) :
    ∃ pc ∈ (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6).1, y ∈ pc.1.set :=
  View.cover_of_tiledL ((runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6).1) S1x8x32x2048.size (by sl_kernel_rfl) y

theorem coverFirst_o8 (c : Dev nD) (i : grid0.Coords) (arg2 : Memref sig .tc .vmem S1x2048x256 .f32) (harg2 : arg2.IsWhole) (arg3 : Memref sig .tc .vmem S1024x256 .f32) (harg3 : arg3.IsWhole) (arg4 : Memref sig .tc .vmem S64x8192 .f32) (harg4 : arg4.IsWhole) (arg5 : Memref sig .tc .vmem S1x1x64 .f32) (harg5 : arg5.IsWhole) (arg6 : Memref sig .tc .vmem S64x8192 .f32) (harg6 : arg6.IsWhole) (arg7 : Memref sig .tc .vmem S1x1x64 .f32) (harg7 : arg7.IsWhole) (arg8 : Memref sig .tc .vmem S8x1x1 .f32) (harg8 : arg8.IsWhole) (arg9 : Memref sig .tc .vmem S1x8x32x2048 .bf16) (harg9 : arg9.IsWhole) (arg10 : Memref sig .tc .vmem S1x8x32x2048 .bf16) (harg10 : arg10.IsWhole) (arg11 : Memref sig .tc .vmem S1x8x32x32 .f32) (harg11 : arg11.IsWhole) (arg12 : Memref sig .tc .vmem S1x8x32x64 .f32) (harg12 : arg12.IsWhole) (arg13 : Memref sig .tc .vmem S1x8x32x64 .f32) (harg13 : arg13.IsWhole) (arg14 : Memref sig .tc .vmem S8x32x32 .f32) (harg14 : arg14.IsWhole) (arg15 : Memref sig .tc .vmem S8x32 .f32) (harg15 : arg15.IsWhole) (arg16 : Memref sig .tc .vmem S8x32 .f32) (harg16 : arg16.IsWhole) (arg17 : Memref sig .tc .vmem S8x32x64 .f32) (harg17 : arg17.IsWhole) (arg18 : Memref sig .tc .vmem S8x32x64 .f32) (harg18 : arg18.IsWhole) (hc0 : condFirst i) (hc1 : ¬condLast i) (x0 : Vec F S1x2048x256 .f32) (x1 : Vec F S1024x256 .f32) (x2 : Vec F S64x8192 .f32) (x3 : Vec F S1x1x64 .f32) (x4 : Vec F S64x8192 .f32) (x5 : Vec F S1x1x64 .f32) (x6 : Vec F S8x1x1 .f32) (y : S1x8x32x2048.Idx) :
    ∃ pc ∈ (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6).2.1, y ∈ pc.1.set :=
  View.cover_of_tiledL ((runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6).2.1) S1x8x32x2048.size (by sl_kernel_rfl) y

theorem coverFirst_s0 (c : Dev nD) (i : grid0.Coords) (arg2 : Memref sig .tc .vmem S1x2048x256 .f32) (harg2 : arg2.IsWhole) (arg3 : Memref sig .tc .vmem S1024x256 .f32) (harg3 : arg3.IsWhole) (arg4 : Memref sig .tc .vmem S64x8192 .f32) (harg4 : arg4.IsWhole) (arg5 : Memref sig .tc .vmem S1x1x64 .f32) (harg5 : arg5.IsWhole) (arg6 : Memref sig .tc .vmem S64x8192 .f32) (harg6 : arg6.IsWhole) (arg7 : Memref sig .tc .vmem S1x1x64 .f32) (harg7 : arg7.IsWhole) (arg8 : Memref sig .tc .vmem S8x1x1 .f32) (harg8 : arg8.IsWhole) (arg9 : Memref sig .tc .vmem S1x8x32x2048 .bf16) (harg9 : arg9.IsWhole) (arg10 : Memref sig .tc .vmem S1x8x32x2048 .bf16) (harg10 : arg10.IsWhole) (arg11 : Memref sig .tc .vmem S1x8x32x32 .f32) (harg11 : arg11.IsWhole) (arg12 : Memref sig .tc .vmem S1x8x32x64 .f32) (harg12 : arg12.IsWhole) (arg13 : Memref sig .tc .vmem S1x8x32x64 .f32) (harg13 : arg13.IsWhole) (arg14 : Memref sig .tc .vmem S8x32x32 .f32) (harg14 : arg14.IsWhole) (arg15 : Memref sig .tc .vmem S8x32 .f32) (harg15 : arg15.IsWhole) (arg16 : Memref sig .tc .vmem S8x32 .f32) (harg16 : arg16.IsWhole) (arg17 : Memref sig .tc .vmem S8x32x64 .f32) (harg17 : arg17.IsWhole) (arg18 : Memref sig .tc .vmem S8x32x64 .f32) (harg18 : arg18.IsWhole) (hc0 : condFirst i) (hc1 : ¬condLast i) (x0 : Vec F S1x2048x256 .f32) (x1 : Vec F S1024x256 .f32) (x2 : Vec F S64x8192 .f32) (x3 : Vec F S1x1x64 .f32) (x4 : Vec F S64x8192 .f32) (x5 : Vec F S1x1x64 .f32) (x6 : Vec F S8x1x1 .f32) (y : S8x32x32.Idx) :
    ∃ pc ∈ (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6).2.2.1, y ∈ pc.1.set :=
  View.cover_of_tiledL ((runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6).2.2.1) S8x32x32.size (by sl_kernel_rfl) y

theorem coverFirst_s1 (c : Dev nD) (i : grid0.Coords) (arg2 : Memref sig .tc .vmem S1x2048x256 .f32) (harg2 : arg2.IsWhole) (arg3 : Memref sig .tc .vmem S1024x256 .f32) (harg3 : arg3.IsWhole) (arg4 : Memref sig .tc .vmem S64x8192 .f32) (harg4 : arg4.IsWhole) (arg5 : Memref sig .tc .vmem S1x1x64 .f32) (harg5 : arg5.IsWhole) (arg6 : Memref sig .tc .vmem S64x8192 .f32) (harg6 : arg6.IsWhole) (arg7 : Memref sig .tc .vmem S1x1x64 .f32) (harg7 : arg7.IsWhole) (arg8 : Memref sig .tc .vmem S8x1x1 .f32) (harg8 : arg8.IsWhole) (arg9 : Memref sig .tc .vmem S1x8x32x2048 .bf16) (harg9 : arg9.IsWhole) (arg10 : Memref sig .tc .vmem S1x8x32x2048 .bf16) (harg10 : arg10.IsWhole) (arg11 : Memref sig .tc .vmem S1x8x32x32 .f32) (harg11 : arg11.IsWhole) (arg12 : Memref sig .tc .vmem S1x8x32x64 .f32) (harg12 : arg12.IsWhole) (arg13 : Memref sig .tc .vmem S1x8x32x64 .f32) (harg13 : arg13.IsWhole) (arg14 : Memref sig .tc .vmem S8x32x32 .f32) (harg14 : arg14.IsWhole) (arg15 : Memref sig .tc .vmem S8x32 .f32) (harg15 : arg15.IsWhole) (arg16 : Memref sig .tc .vmem S8x32 .f32) (harg16 : arg16.IsWhole) (arg17 : Memref sig .tc .vmem S8x32x64 .f32) (harg17 : arg17.IsWhole) (arg18 : Memref sig .tc .vmem S8x32x64 .f32) (harg18 : arg18.IsWhole) (hc0 : condFirst i) (hc1 : ¬condLast i) (x0 : Vec F S1x2048x256 .f32) (x1 : Vec F S1024x256 .f32) (x2 : Vec F S64x8192 .f32) (x3 : Vec F S1x1x64 .f32) (x4 : Vec F S64x8192 .f32) (x5 : Vec F S1x1x64 .f32) (x6 : Vec F S8x1x1 .f32) (y : S8x32.Idx) :
    ∃ pc ∈ (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6).2.2.2.1, y ∈ pc.1.set :=
  View.cover_of_tiledL ((runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6).2.2.2.1) S8x32.size (by sl_kernel_rfl) y

theorem coverFirst_s2 (c : Dev nD) (i : grid0.Coords) (arg2 : Memref sig .tc .vmem S1x2048x256 .f32) (harg2 : arg2.IsWhole) (arg3 : Memref sig .tc .vmem S1024x256 .f32) (harg3 : arg3.IsWhole) (arg4 : Memref sig .tc .vmem S64x8192 .f32) (harg4 : arg4.IsWhole) (arg5 : Memref sig .tc .vmem S1x1x64 .f32) (harg5 : arg5.IsWhole) (arg6 : Memref sig .tc .vmem S64x8192 .f32) (harg6 : arg6.IsWhole) (arg7 : Memref sig .tc .vmem S1x1x64 .f32) (harg7 : arg7.IsWhole) (arg8 : Memref sig .tc .vmem S8x1x1 .f32) (harg8 : arg8.IsWhole) (arg9 : Memref sig .tc .vmem S1x8x32x2048 .bf16) (harg9 : arg9.IsWhole) (arg10 : Memref sig .tc .vmem S1x8x32x2048 .bf16) (harg10 : arg10.IsWhole) (arg11 : Memref sig .tc .vmem S1x8x32x32 .f32) (harg11 : arg11.IsWhole) (arg12 : Memref sig .tc .vmem S1x8x32x64 .f32) (harg12 : arg12.IsWhole) (arg13 : Memref sig .tc .vmem S1x8x32x64 .f32) (harg13 : arg13.IsWhole) (arg14 : Memref sig .tc .vmem S8x32x32 .f32) (harg14 : arg14.IsWhole) (arg15 : Memref sig .tc .vmem S8x32 .f32) (harg15 : arg15.IsWhole) (arg16 : Memref sig .tc .vmem S8x32 .f32) (harg16 : arg16.IsWhole) (arg17 : Memref sig .tc .vmem S8x32x64 .f32) (harg17 : arg17.IsWhole) (arg18 : Memref sig .tc .vmem S8x32x64 .f32) (harg18 : arg18.IsWhole) (hc0 : condFirst i) (hc1 : ¬condLast i) (x0 : Vec F S1x2048x256 .f32) (x1 : Vec F S1024x256 .f32) (x2 : Vec F S64x8192 .f32) (x3 : Vec F S1x1x64 .f32) (x4 : Vec F S64x8192 .f32) (x5 : Vec F S1x1x64 .f32) (x6 : Vec F S8x1x1 .f32) (y : S8x32.Idx) :
    ∃ pc ∈ (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6).2.2.2.2.1, y ∈ pc.1.set :=
  View.cover_of_tiledL ((runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6).2.2.2.2.1) S8x32.size (by sl_kernel_rfl) y

theorem coverFirst_s3 (c : Dev nD) (i : grid0.Coords) (arg2 : Memref sig .tc .vmem S1x2048x256 .f32) (harg2 : arg2.IsWhole) (arg3 : Memref sig .tc .vmem S1024x256 .f32) (harg3 : arg3.IsWhole) (arg4 : Memref sig .tc .vmem S64x8192 .f32) (harg4 : arg4.IsWhole) (arg5 : Memref sig .tc .vmem S1x1x64 .f32) (harg5 : arg5.IsWhole) (arg6 : Memref sig .tc .vmem S64x8192 .f32) (harg6 : arg6.IsWhole) (arg7 : Memref sig .tc .vmem S1x1x64 .f32) (harg7 : arg7.IsWhole) (arg8 : Memref sig .tc .vmem S8x1x1 .f32) (harg8 : arg8.IsWhole) (arg9 : Memref sig .tc .vmem S1x8x32x2048 .bf16) (harg9 : arg9.IsWhole) (arg10 : Memref sig .tc .vmem S1x8x32x2048 .bf16) (harg10 : arg10.IsWhole) (arg11 : Memref sig .tc .vmem S1x8x32x32 .f32) (harg11 : arg11.IsWhole) (arg12 : Memref sig .tc .vmem S1x8x32x64 .f32) (harg12 : arg12.IsWhole) (arg13 : Memref sig .tc .vmem S1x8x32x64 .f32) (harg13 : arg13.IsWhole) (arg14 : Memref sig .tc .vmem S8x32x32 .f32) (harg14 : arg14.IsWhole) (arg15 : Memref sig .tc .vmem S8x32 .f32) (harg15 : arg15.IsWhole) (arg16 : Memref sig .tc .vmem S8x32 .f32) (harg16 : arg16.IsWhole) (arg17 : Memref sig .tc .vmem S8x32x64 .f32) (harg17 : arg17.IsWhole) (arg18 : Memref sig .tc .vmem S8x32x64 .f32) (harg18 : arg18.IsWhole) (hc0 : condFirst i) (hc1 : ¬condLast i) (x0 : Vec F S1x2048x256 .f32) (x1 : Vec F S1024x256 .f32) (x2 : Vec F S64x8192 .f32) (x3 : Vec F S1x1x64 .f32) (x4 : Vec F S64x8192 .f32) (x5 : Vec F S1x1x64 .f32) (x6 : Vec F S8x1x1 .f32) (y : S8x32x64.Idx) :
    ∃ pc ∈ (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6).2.2.2.2.2.1, y ∈ pc.1.set :=
  View.cover_of_tiledL ((runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6).2.2.2.2.2.1) S8x32x64.size (by sl_kernel_rfl) y

theorem coverFirst_s4 (c : Dev nD) (i : grid0.Coords) (arg2 : Memref sig .tc .vmem S1x2048x256 .f32) (harg2 : arg2.IsWhole) (arg3 : Memref sig .tc .vmem S1024x256 .f32) (harg3 : arg3.IsWhole) (arg4 : Memref sig .tc .vmem S64x8192 .f32) (harg4 : arg4.IsWhole) (arg5 : Memref sig .tc .vmem S1x1x64 .f32) (harg5 : arg5.IsWhole) (arg6 : Memref sig .tc .vmem S64x8192 .f32) (harg6 : arg6.IsWhole) (arg7 : Memref sig .tc .vmem S1x1x64 .f32) (harg7 : arg7.IsWhole) (arg8 : Memref sig .tc .vmem S8x1x1 .f32) (harg8 : arg8.IsWhole) (arg9 : Memref sig .tc .vmem S1x8x32x2048 .bf16) (harg9 : arg9.IsWhole) (arg10 : Memref sig .tc .vmem S1x8x32x2048 .bf16) (harg10 : arg10.IsWhole) (arg11 : Memref sig .tc .vmem S1x8x32x32 .f32) (harg11 : arg11.IsWhole) (arg12 : Memref sig .tc .vmem S1x8x32x64 .f32) (harg12 : arg12.IsWhole) (arg13 : Memref sig .tc .vmem S1x8x32x64 .f32) (harg13 : arg13.IsWhole) (arg14 : Memref sig .tc .vmem S8x32x32 .f32) (harg14 : arg14.IsWhole) (arg15 : Memref sig .tc .vmem S8x32 .f32) (harg15 : arg15.IsWhole) (arg16 : Memref sig .tc .vmem S8x32 .f32) (harg16 : arg16.IsWhole) (arg17 : Memref sig .tc .vmem S8x32x64 .f32) (harg17 : arg17.IsWhole) (arg18 : Memref sig .tc .vmem S8x32x64 .f32) (harg18 : arg18.IsWhole) (hc0 : condFirst i) (hc1 : ¬condLast i) (x0 : Vec F S1x2048x256 .f32) (x1 : Vec F S1024x256 .f32) (x2 : Vec F S64x8192 .f32) (x3 : Vec F S1x1x64 .f32) (x4 : Vec F S64x8192 .f32) (x5 : Vec F S1x1x64 .f32) (x6 : Vec F S8x1x1 .f32) (y : S8x32x64.Idx) :
    ∃ pc ∈ (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6).2.2.2.2.2.2.1, y ∈ pc.1.set :=
  View.cover_of_tiledL ((runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6).2.2.2.2.2.2.1) S8x32x64.size (by sl_kernel_rfl) y

theorem coverMid_o7 (c : Dev nD) (i : grid0.Coords) (arg2 : Memref sig .tc .vmem S1x2048x256 .f32) (harg2 : arg2.IsWhole) (arg3 : Memref sig .tc .vmem S1024x256 .f32) (harg3 : arg3.IsWhole) (arg4 : Memref sig .tc .vmem S64x8192 .f32) (harg4 : arg4.IsWhole) (arg5 : Memref sig .tc .vmem S1x1x64 .f32) (harg5 : arg5.IsWhole) (arg6 : Memref sig .tc .vmem S64x8192 .f32) (harg6 : arg6.IsWhole) (arg7 : Memref sig .tc .vmem S1x1x64 .f32) (harg7 : arg7.IsWhole) (arg8 : Memref sig .tc .vmem S8x1x1 .f32) (harg8 : arg8.IsWhole) (arg9 : Memref sig .tc .vmem S1x8x32x2048 .bf16) (harg9 : arg9.IsWhole) (arg10 : Memref sig .tc .vmem S1x8x32x2048 .bf16) (harg10 : arg10.IsWhole) (arg11 : Memref sig .tc .vmem S1x8x32x32 .f32) (harg11 : arg11.IsWhole) (arg12 : Memref sig .tc .vmem S1x8x32x64 .f32) (harg12 : arg12.IsWhole) (arg13 : Memref sig .tc .vmem S1x8x32x64 .f32) (harg13 : arg13.IsWhole) (arg14 : Memref sig .tc .vmem S8x32x32 .f32) (harg14 : arg14.IsWhole) (arg15 : Memref sig .tc .vmem S8x32 .f32) (harg15 : arg15.IsWhole) (arg16 : Memref sig .tc .vmem S8x32 .f32) (harg16 : arg16.IsWhole) (arg17 : Memref sig .tc .vmem S8x32x64 .f32) (harg17 : arg17.IsWhole) (arg18 : Memref sig .tc .vmem S8x32x64 .f32) (harg18 : arg18.IsWhole) (hc0 : ¬condFirst i) (hc1 : ¬condLast i) (x0 : Vec F S1x2048x256 .f32) (x1 : Vec F S1024x256 .f32) (x2 : Vec F S64x8192 .f32) (x3 : Vec F S1x1x64 .f32) (x4 : Vec F S64x8192 .f32) (x5 : Vec F S1x1x64 .f32) (x6 : Vec F S8x1x1 .f32) (xs0 : Vec F S8x32x32 .f32) (xs1 : Vec F S8x32 .f32) (xs2 : Vec F S8x32 .f32) (xs3 : Vec F S8x32x64 .f32) (xs4 : Vec F S8x32x64 .f32) (y : S1x8x32x2048.Idx) :
    ∃ pc ∈ (runMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4).1, y ∈ pc.1.set :=
  View.cover_of_tiledL ((runMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4).1) S1x8x32x2048.size (by sl_kernel_rfl) y

theorem coverMid_o8 (c : Dev nD) (i : grid0.Coords) (arg2 : Memref sig .tc .vmem S1x2048x256 .f32) (harg2 : arg2.IsWhole) (arg3 : Memref sig .tc .vmem S1024x256 .f32) (harg3 : arg3.IsWhole) (arg4 : Memref sig .tc .vmem S64x8192 .f32) (harg4 : arg4.IsWhole) (arg5 : Memref sig .tc .vmem S1x1x64 .f32) (harg5 : arg5.IsWhole) (arg6 : Memref sig .tc .vmem S64x8192 .f32) (harg6 : arg6.IsWhole) (arg7 : Memref sig .tc .vmem S1x1x64 .f32) (harg7 : arg7.IsWhole) (arg8 : Memref sig .tc .vmem S8x1x1 .f32) (harg8 : arg8.IsWhole) (arg9 : Memref sig .tc .vmem S1x8x32x2048 .bf16) (harg9 : arg9.IsWhole) (arg10 : Memref sig .tc .vmem S1x8x32x2048 .bf16) (harg10 : arg10.IsWhole) (arg11 : Memref sig .tc .vmem S1x8x32x32 .f32) (harg11 : arg11.IsWhole) (arg12 : Memref sig .tc .vmem S1x8x32x64 .f32) (harg12 : arg12.IsWhole) (arg13 : Memref sig .tc .vmem S1x8x32x64 .f32) (harg13 : arg13.IsWhole) (arg14 : Memref sig .tc .vmem S8x32x32 .f32) (harg14 : arg14.IsWhole) (arg15 : Memref sig .tc .vmem S8x32 .f32) (harg15 : arg15.IsWhole) (arg16 : Memref sig .tc .vmem S8x32 .f32) (harg16 : arg16.IsWhole) (arg17 : Memref sig .tc .vmem S8x32x64 .f32) (harg17 : arg17.IsWhole) (arg18 : Memref sig .tc .vmem S8x32x64 .f32) (harg18 : arg18.IsWhole) (hc0 : ¬condFirst i) (hc1 : ¬condLast i) (x0 : Vec F S1x2048x256 .f32) (x1 : Vec F S1024x256 .f32) (x2 : Vec F S64x8192 .f32) (x3 : Vec F S1x1x64 .f32) (x4 : Vec F S64x8192 .f32) (x5 : Vec F S1x1x64 .f32) (x6 : Vec F S8x1x1 .f32) (xs0 : Vec F S8x32x32 .f32) (xs1 : Vec F S8x32 .f32) (xs2 : Vec F S8x32 .f32) (xs3 : Vec F S8x32x64 .f32) (xs4 : Vec F S8x32x64 .f32) (y : S1x8x32x2048.Idx) :
    ∃ pc ∈ (runMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4).2.1, y ∈ pc.1.set :=
  View.cover_of_tiledL ((runMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4).2.1) S1x8x32x2048.size (by sl_kernel_rfl) y

theorem coverMid_s0 (c : Dev nD) (i : grid0.Coords) (arg2 : Memref sig .tc .vmem S1x2048x256 .f32) (harg2 : arg2.IsWhole) (arg3 : Memref sig .tc .vmem S1024x256 .f32) (harg3 : arg3.IsWhole) (arg4 : Memref sig .tc .vmem S64x8192 .f32) (harg4 : arg4.IsWhole) (arg5 : Memref sig .tc .vmem S1x1x64 .f32) (harg5 : arg5.IsWhole) (arg6 : Memref sig .tc .vmem S64x8192 .f32) (harg6 : arg6.IsWhole) (arg7 : Memref sig .tc .vmem S1x1x64 .f32) (harg7 : arg7.IsWhole) (arg8 : Memref sig .tc .vmem S8x1x1 .f32) (harg8 : arg8.IsWhole) (arg9 : Memref sig .tc .vmem S1x8x32x2048 .bf16) (harg9 : arg9.IsWhole) (arg10 : Memref sig .tc .vmem S1x8x32x2048 .bf16) (harg10 : arg10.IsWhole) (arg11 : Memref sig .tc .vmem S1x8x32x32 .f32) (harg11 : arg11.IsWhole) (arg12 : Memref sig .tc .vmem S1x8x32x64 .f32) (harg12 : arg12.IsWhole) (arg13 : Memref sig .tc .vmem S1x8x32x64 .f32) (harg13 : arg13.IsWhole) (arg14 : Memref sig .tc .vmem S8x32x32 .f32) (harg14 : arg14.IsWhole) (arg15 : Memref sig .tc .vmem S8x32 .f32) (harg15 : arg15.IsWhole) (arg16 : Memref sig .tc .vmem S8x32 .f32) (harg16 : arg16.IsWhole) (arg17 : Memref sig .tc .vmem S8x32x64 .f32) (harg17 : arg17.IsWhole) (arg18 : Memref sig .tc .vmem S8x32x64 .f32) (harg18 : arg18.IsWhole) (hc0 : ¬condFirst i) (hc1 : ¬condLast i) (x0 : Vec F S1x2048x256 .f32) (x1 : Vec F S1024x256 .f32) (x2 : Vec F S64x8192 .f32) (x3 : Vec F S1x1x64 .f32) (x4 : Vec F S64x8192 .f32) (x5 : Vec F S1x1x64 .f32) (x6 : Vec F S8x1x1 .f32) (xs0 : Vec F S8x32x32 .f32) (xs1 : Vec F S8x32 .f32) (xs2 : Vec F S8x32 .f32) (xs3 : Vec F S8x32x64 .f32) (xs4 : Vec F S8x32x64 .f32) (y : S8x32x32.Idx) :
    ∃ pc ∈ (runMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4).2.2.1, y ∈ pc.1.set :=
  View.cover_of_tiledL ((runMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4).2.2.1) S8x32x32.size (by sl_kernel_rfl) y

theorem coverMid_s1 (c : Dev nD) (i : grid0.Coords) (arg2 : Memref sig .tc .vmem S1x2048x256 .f32) (harg2 : arg2.IsWhole) (arg3 : Memref sig .tc .vmem S1024x256 .f32) (harg3 : arg3.IsWhole) (arg4 : Memref sig .tc .vmem S64x8192 .f32) (harg4 : arg4.IsWhole) (arg5 : Memref sig .tc .vmem S1x1x64 .f32) (harg5 : arg5.IsWhole) (arg6 : Memref sig .tc .vmem S64x8192 .f32) (harg6 : arg6.IsWhole) (arg7 : Memref sig .tc .vmem S1x1x64 .f32) (harg7 : arg7.IsWhole) (arg8 : Memref sig .tc .vmem S8x1x1 .f32) (harg8 : arg8.IsWhole) (arg9 : Memref sig .tc .vmem S1x8x32x2048 .bf16) (harg9 : arg9.IsWhole) (arg10 : Memref sig .tc .vmem S1x8x32x2048 .bf16) (harg10 : arg10.IsWhole) (arg11 : Memref sig .tc .vmem S1x8x32x32 .f32) (harg11 : arg11.IsWhole) (arg12 : Memref sig .tc .vmem S1x8x32x64 .f32) (harg12 : arg12.IsWhole) (arg13 : Memref sig .tc .vmem S1x8x32x64 .f32) (harg13 : arg13.IsWhole) (arg14 : Memref sig .tc .vmem S8x32x32 .f32) (harg14 : arg14.IsWhole) (arg15 : Memref sig .tc .vmem S8x32 .f32) (harg15 : arg15.IsWhole) (arg16 : Memref sig .tc .vmem S8x32 .f32) (harg16 : arg16.IsWhole) (arg17 : Memref sig .tc .vmem S8x32x64 .f32) (harg17 : arg17.IsWhole) (arg18 : Memref sig .tc .vmem S8x32x64 .f32) (harg18 : arg18.IsWhole) (hc0 : ¬condFirst i) (hc1 : ¬condLast i) (x0 : Vec F S1x2048x256 .f32) (x1 : Vec F S1024x256 .f32) (x2 : Vec F S64x8192 .f32) (x3 : Vec F S1x1x64 .f32) (x4 : Vec F S64x8192 .f32) (x5 : Vec F S1x1x64 .f32) (x6 : Vec F S8x1x1 .f32) (xs0 : Vec F S8x32x32 .f32) (xs1 : Vec F S8x32 .f32) (xs2 : Vec F S8x32 .f32) (xs3 : Vec F S8x32x64 .f32) (xs4 : Vec F S8x32x64 .f32) (y : S8x32.Idx) :
    ∃ pc ∈ (runMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4).2.2.2.1, y ∈ pc.1.set :=
  View.cover_of_tiledL ((runMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4).2.2.2.1) S8x32.size (by sl_kernel_rfl) y

theorem coverMid_s2 (c : Dev nD) (i : grid0.Coords) (arg2 : Memref sig .tc .vmem S1x2048x256 .f32) (harg2 : arg2.IsWhole) (arg3 : Memref sig .tc .vmem S1024x256 .f32) (harg3 : arg3.IsWhole) (arg4 : Memref sig .tc .vmem S64x8192 .f32) (harg4 : arg4.IsWhole) (arg5 : Memref sig .tc .vmem S1x1x64 .f32) (harg5 : arg5.IsWhole) (arg6 : Memref sig .tc .vmem S64x8192 .f32) (harg6 : arg6.IsWhole) (arg7 : Memref sig .tc .vmem S1x1x64 .f32) (harg7 : arg7.IsWhole) (arg8 : Memref sig .tc .vmem S8x1x1 .f32) (harg8 : arg8.IsWhole) (arg9 : Memref sig .tc .vmem S1x8x32x2048 .bf16) (harg9 : arg9.IsWhole) (arg10 : Memref sig .tc .vmem S1x8x32x2048 .bf16) (harg10 : arg10.IsWhole) (arg11 : Memref sig .tc .vmem S1x8x32x32 .f32) (harg11 : arg11.IsWhole) (arg12 : Memref sig .tc .vmem S1x8x32x64 .f32) (harg12 : arg12.IsWhole) (arg13 : Memref sig .tc .vmem S1x8x32x64 .f32) (harg13 : arg13.IsWhole) (arg14 : Memref sig .tc .vmem S8x32x32 .f32) (harg14 : arg14.IsWhole) (arg15 : Memref sig .tc .vmem S8x32 .f32) (harg15 : arg15.IsWhole) (arg16 : Memref sig .tc .vmem S8x32 .f32) (harg16 : arg16.IsWhole) (arg17 : Memref sig .tc .vmem S8x32x64 .f32) (harg17 : arg17.IsWhole) (arg18 : Memref sig .tc .vmem S8x32x64 .f32) (harg18 : arg18.IsWhole) (hc0 : ¬condFirst i) (hc1 : ¬condLast i) (x0 : Vec F S1x2048x256 .f32) (x1 : Vec F S1024x256 .f32) (x2 : Vec F S64x8192 .f32) (x3 : Vec F S1x1x64 .f32) (x4 : Vec F S64x8192 .f32) (x5 : Vec F S1x1x64 .f32) (x6 : Vec F S8x1x1 .f32) (xs0 : Vec F S8x32x32 .f32) (xs1 : Vec F S8x32 .f32) (xs2 : Vec F S8x32 .f32) (xs3 : Vec F S8x32x64 .f32) (xs4 : Vec F S8x32x64 .f32) (y : S8x32.Idx) :
    ∃ pc ∈ (runMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4).2.2.2.2.1, y ∈ pc.1.set :=
  View.cover_of_tiledL ((runMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4).2.2.2.2.1) S8x32.size (by sl_kernel_rfl) y

theorem coverMid_s3 (c : Dev nD) (i : grid0.Coords) (arg2 : Memref sig .tc .vmem S1x2048x256 .f32) (harg2 : arg2.IsWhole) (arg3 : Memref sig .tc .vmem S1024x256 .f32) (harg3 : arg3.IsWhole) (arg4 : Memref sig .tc .vmem S64x8192 .f32) (harg4 : arg4.IsWhole) (arg5 : Memref sig .tc .vmem S1x1x64 .f32) (harg5 : arg5.IsWhole) (arg6 : Memref sig .tc .vmem S64x8192 .f32) (harg6 : arg6.IsWhole) (arg7 : Memref sig .tc .vmem S1x1x64 .f32) (harg7 : arg7.IsWhole) (arg8 : Memref sig .tc .vmem S8x1x1 .f32) (harg8 : arg8.IsWhole) (arg9 : Memref sig .tc .vmem S1x8x32x2048 .bf16) (harg9 : arg9.IsWhole) (arg10 : Memref sig .tc .vmem S1x8x32x2048 .bf16) (harg10 : arg10.IsWhole) (arg11 : Memref sig .tc .vmem S1x8x32x32 .f32) (harg11 : arg11.IsWhole) (arg12 : Memref sig .tc .vmem S1x8x32x64 .f32) (harg12 : arg12.IsWhole) (arg13 : Memref sig .tc .vmem S1x8x32x64 .f32) (harg13 : arg13.IsWhole) (arg14 : Memref sig .tc .vmem S8x32x32 .f32) (harg14 : arg14.IsWhole) (arg15 : Memref sig .tc .vmem S8x32 .f32) (harg15 : arg15.IsWhole) (arg16 : Memref sig .tc .vmem S8x32 .f32) (harg16 : arg16.IsWhole) (arg17 : Memref sig .tc .vmem S8x32x64 .f32) (harg17 : arg17.IsWhole) (arg18 : Memref sig .tc .vmem S8x32x64 .f32) (harg18 : arg18.IsWhole) (hc0 : ¬condFirst i) (hc1 : ¬condLast i) (x0 : Vec F S1x2048x256 .f32) (x1 : Vec F S1024x256 .f32) (x2 : Vec F S64x8192 .f32) (x3 : Vec F S1x1x64 .f32) (x4 : Vec F S64x8192 .f32) (x5 : Vec F S1x1x64 .f32) (x6 : Vec F S8x1x1 .f32) (xs0 : Vec F S8x32x32 .f32) (xs1 : Vec F S8x32 .f32) (xs2 : Vec F S8x32 .f32) (xs3 : Vec F S8x32x64 .f32) (xs4 : Vec F S8x32x64 .f32) (y : S8x32x64.Idx) :
    ∃ pc ∈ (runMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4).2.2.2.2.2.1, y ∈ pc.1.set :=
  View.cover_of_tiledL ((runMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4).2.2.2.2.2.1) S8x32x64.size (by sl_kernel_rfl) y

theorem coverMid_s4 (c : Dev nD) (i : grid0.Coords) (arg2 : Memref sig .tc .vmem S1x2048x256 .f32) (harg2 : arg2.IsWhole) (arg3 : Memref sig .tc .vmem S1024x256 .f32) (harg3 : arg3.IsWhole) (arg4 : Memref sig .tc .vmem S64x8192 .f32) (harg4 : arg4.IsWhole) (arg5 : Memref sig .tc .vmem S1x1x64 .f32) (harg5 : arg5.IsWhole) (arg6 : Memref sig .tc .vmem S64x8192 .f32) (harg6 : arg6.IsWhole) (arg7 : Memref sig .tc .vmem S1x1x64 .f32) (harg7 : arg7.IsWhole) (arg8 : Memref sig .tc .vmem S8x1x1 .f32) (harg8 : arg8.IsWhole) (arg9 : Memref sig .tc .vmem S1x8x32x2048 .bf16) (harg9 : arg9.IsWhole) (arg10 : Memref sig .tc .vmem S1x8x32x2048 .bf16) (harg10 : arg10.IsWhole) (arg11 : Memref sig .tc .vmem S1x8x32x32 .f32) (harg11 : arg11.IsWhole) (arg12 : Memref sig .tc .vmem S1x8x32x64 .f32) (harg12 : arg12.IsWhole) (arg13 : Memref sig .tc .vmem S1x8x32x64 .f32) (harg13 : arg13.IsWhole) (arg14 : Memref sig .tc .vmem S8x32x32 .f32) (harg14 : arg14.IsWhole) (arg15 : Memref sig .tc .vmem S8x32 .f32) (harg15 : arg15.IsWhole) (arg16 : Memref sig .tc .vmem S8x32 .f32) (harg16 : arg16.IsWhole) (arg17 : Memref sig .tc .vmem S8x32x64 .f32) (harg17 : arg17.IsWhole) (arg18 : Memref sig .tc .vmem S8x32x64 .f32) (harg18 : arg18.IsWhole) (hc0 : ¬condFirst i) (hc1 : ¬condLast i) (x0 : Vec F S1x2048x256 .f32) (x1 : Vec F S1024x256 .f32) (x2 : Vec F S64x8192 .f32) (x3 : Vec F S1x1x64 .f32) (x4 : Vec F S64x8192 .f32) (x5 : Vec F S1x1x64 .f32) (x6 : Vec F S8x1x1 .f32) (xs0 : Vec F S8x32x32 .f32) (xs1 : Vec F S8x32 .f32) (xs2 : Vec F S8x32 .f32) (xs3 : Vec F S8x32x64 .f32) (xs4 : Vec F S8x32x64 .f32) (y : S8x32x64.Idx) :
    ∃ pc ∈ (runMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4).2.2.2.2.2.2.1, y ∈ pc.1.set :=
  View.cover_of_tiledL ((runMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4).2.2.2.2.2.2.1) S8x32x64.size (by sl_kernel_rfl) y

theorem coverLast_o7 (c : Dev nD) (i : grid0.Coords) (arg2 : Memref sig .tc .vmem S1x2048x256 .f32) (harg2 : arg2.IsWhole) (arg3 : Memref sig .tc .vmem S1024x256 .f32) (harg3 : arg3.IsWhole) (arg4 : Memref sig .tc .vmem S64x8192 .f32) (harg4 : arg4.IsWhole) (arg5 : Memref sig .tc .vmem S1x1x64 .f32) (harg5 : arg5.IsWhole) (arg6 : Memref sig .tc .vmem S64x8192 .f32) (harg6 : arg6.IsWhole) (arg7 : Memref sig .tc .vmem S1x1x64 .f32) (harg7 : arg7.IsWhole) (arg8 : Memref sig .tc .vmem S8x1x1 .f32) (harg8 : arg8.IsWhole) (arg9 : Memref sig .tc .vmem S1x8x32x2048 .bf16) (harg9 : arg9.IsWhole) (arg10 : Memref sig .tc .vmem S1x8x32x2048 .bf16) (harg10 : arg10.IsWhole) (arg11 : Memref sig .tc .vmem S1x8x32x32 .f32) (harg11 : arg11.IsWhole) (arg12 : Memref sig .tc .vmem S1x8x32x64 .f32) (harg12 : arg12.IsWhole) (arg13 : Memref sig .tc .vmem S1x8x32x64 .f32) (harg13 : arg13.IsWhole) (arg14 : Memref sig .tc .vmem S8x32x32 .f32) (harg14 : arg14.IsWhole) (arg15 : Memref sig .tc .vmem S8x32 .f32) (harg15 : arg15.IsWhole) (arg16 : Memref sig .tc .vmem S8x32 .f32) (harg16 : arg16.IsWhole) (arg17 : Memref sig .tc .vmem S8x32x64 .f32) (harg17 : arg17.IsWhole) (arg18 : Memref sig .tc .vmem S8x32x64 .f32) (harg18 : arg18.IsWhole) (hc0 : ¬condFirst i) (hc1 : condLast i) (x0 : Vec F S1x2048x256 .f32) (x1 : Vec F S1024x256 .f32) (x2 : Vec F S64x8192 .f32) (x3 : Vec F S1x1x64 .f32) (x4 : Vec F S64x8192 .f32) (x5 : Vec F S1x1x64 .f32) (x6 : Vec F S8x1x1 .f32) (xs0 : Vec F S8x32x32 .f32) (xs1 : Vec F S8x32 .f32) (xs2 : Vec F S8x32 .f32) (xs3 : Vec F S8x32x64 .f32) (xs4 : Vec F S8x32x64 .f32) (y : S1x8x32x2048.Idx) :
    ∃ pc ∈ (runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4).1, y ∈ pc.1.set :=
  View.cover_of_tiledL ((runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4).1) S1x8x32x2048.size (by sl_kernel_rfl) y

theorem coverLast_o8 (c : Dev nD) (i : grid0.Coords) (arg2 : Memref sig .tc .vmem S1x2048x256 .f32) (harg2 : arg2.IsWhole) (arg3 : Memref sig .tc .vmem S1024x256 .f32) (harg3 : arg3.IsWhole) (arg4 : Memref sig .tc .vmem S64x8192 .f32) (harg4 : arg4.IsWhole) (arg5 : Memref sig .tc .vmem S1x1x64 .f32) (harg5 : arg5.IsWhole) (arg6 : Memref sig .tc .vmem S64x8192 .f32) (harg6 : arg6.IsWhole) (arg7 : Memref sig .tc .vmem S1x1x64 .f32) (harg7 : arg7.IsWhole) (arg8 : Memref sig .tc .vmem S8x1x1 .f32) (harg8 : arg8.IsWhole) (arg9 : Memref sig .tc .vmem S1x8x32x2048 .bf16) (harg9 : arg9.IsWhole) (arg10 : Memref sig .tc .vmem S1x8x32x2048 .bf16) (harg10 : arg10.IsWhole) (arg11 : Memref sig .tc .vmem S1x8x32x32 .f32) (harg11 : arg11.IsWhole) (arg12 : Memref sig .tc .vmem S1x8x32x64 .f32) (harg12 : arg12.IsWhole) (arg13 : Memref sig .tc .vmem S1x8x32x64 .f32) (harg13 : arg13.IsWhole) (arg14 : Memref sig .tc .vmem S8x32x32 .f32) (harg14 : arg14.IsWhole) (arg15 : Memref sig .tc .vmem S8x32 .f32) (harg15 : arg15.IsWhole) (arg16 : Memref sig .tc .vmem S8x32 .f32) (harg16 : arg16.IsWhole) (arg17 : Memref sig .tc .vmem S8x32x64 .f32) (harg17 : arg17.IsWhole) (arg18 : Memref sig .tc .vmem S8x32x64 .f32) (harg18 : arg18.IsWhole) (hc0 : ¬condFirst i) (hc1 : condLast i) (x0 : Vec F S1x2048x256 .f32) (x1 : Vec F S1024x256 .f32) (x2 : Vec F S64x8192 .f32) (x3 : Vec F S1x1x64 .f32) (x4 : Vec F S64x8192 .f32) (x5 : Vec F S1x1x64 .f32) (x6 : Vec F S8x1x1 .f32) (xs0 : Vec F S8x32x32 .f32) (xs1 : Vec F S8x32 .f32) (xs2 : Vec F S8x32 .f32) (xs3 : Vec F S8x32x64 .f32) (xs4 : Vec F S8x32x64 .f32) (y : S1x8x32x2048.Idx) :
    ∃ pc ∈ (runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4).2.1, y ∈ pc.1.set :=
  View.cover_of_tiledL ((runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4).2.1) S1x8x32x2048.size (by sl_kernel_rfl) y

theorem coverLast_o9 (c : Dev nD) (i : grid0.Coords) (arg2 : Memref sig .tc .vmem S1x2048x256 .f32) (harg2 : arg2.IsWhole) (arg3 : Memref sig .tc .vmem S1024x256 .f32) (harg3 : arg3.IsWhole) (arg4 : Memref sig .tc .vmem S64x8192 .f32) (harg4 : arg4.IsWhole) (arg5 : Memref sig .tc .vmem S1x1x64 .f32) (harg5 : arg5.IsWhole) (arg6 : Memref sig .tc .vmem S64x8192 .f32) (harg6 : arg6.IsWhole) (arg7 : Memref sig .tc .vmem S1x1x64 .f32) (harg7 : arg7.IsWhole) (arg8 : Memref sig .tc .vmem S8x1x1 .f32) (harg8 : arg8.IsWhole) (arg9 : Memref sig .tc .vmem S1x8x32x2048 .bf16) (harg9 : arg9.IsWhole) (arg10 : Memref sig .tc .vmem S1x8x32x2048 .bf16) (harg10 : arg10.IsWhole) (arg11 : Memref sig .tc .vmem S1x8x32x32 .f32) (harg11 : arg11.IsWhole) (arg12 : Memref sig .tc .vmem S1x8x32x64 .f32) (harg12 : arg12.IsWhole) (arg13 : Memref sig .tc .vmem S1x8x32x64 .f32) (harg13 : arg13.IsWhole) (arg14 : Memref sig .tc .vmem S8x32x32 .f32) (harg14 : arg14.IsWhole) (arg15 : Memref sig .tc .vmem S8x32 .f32) (harg15 : arg15.IsWhole) (arg16 : Memref sig .tc .vmem S8x32 .f32) (harg16 : arg16.IsWhole) (arg17 : Memref sig .tc .vmem S8x32x64 .f32) (harg17 : arg17.IsWhole) (arg18 : Memref sig .tc .vmem S8x32x64 .f32) (harg18 : arg18.IsWhole) (hc0 : ¬condFirst i) (hc1 : condLast i) (x0 : Vec F S1x2048x256 .f32) (x1 : Vec F S1024x256 .f32) (x2 : Vec F S64x8192 .f32) (x3 : Vec F S1x1x64 .f32) (x4 : Vec F S64x8192 .f32) (x5 : Vec F S1x1x64 .f32) (x6 : Vec F S8x1x1 .f32) (xs0 : Vec F S8x32x32 .f32) (xs1 : Vec F S8x32 .f32) (xs2 : Vec F S8x32 .f32) (xs3 : Vec F S8x32x64 .f32) (xs4 : Vec F S8x32x64 .f32) (y : S1x8x32x32.Idx) :
    ∃ pc ∈ (runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4).2.2.1, y ∈ pc.1.set :=
  View.cover_of_tiledL ((runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4).2.2.1) S1x8x32x32.size (by sl_kernel_rfl) y

theorem coverLast_o10 (c : Dev nD) (i : grid0.Coords) (arg2 : Memref sig .tc .vmem S1x2048x256 .f32) (harg2 : arg2.IsWhole) (arg3 : Memref sig .tc .vmem S1024x256 .f32) (harg3 : arg3.IsWhole) (arg4 : Memref sig .tc .vmem S64x8192 .f32) (harg4 : arg4.IsWhole) (arg5 : Memref sig .tc .vmem S1x1x64 .f32) (harg5 : arg5.IsWhole) (arg6 : Memref sig .tc .vmem S64x8192 .f32) (harg6 : arg6.IsWhole) (arg7 : Memref sig .tc .vmem S1x1x64 .f32) (harg7 : arg7.IsWhole) (arg8 : Memref sig .tc .vmem S8x1x1 .f32) (harg8 : arg8.IsWhole) (arg9 : Memref sig .tc .vmem S1x8x32x2048 .bf16) (harg9 : arg9.IsWhole) (arg10 : Memref sig .tc .vmem S1x8x32x2048 .bf16) (harg10 : arg10.IsWhole) (arg11 : Memref sig .tc .vmem S1x8x32x32 .f32) (harg11 : arg11.IsWhole) (arg12 : Memref sig .tc .vmem S1x8x32x64 .f32) (harg12 : arg12.IsWhole) (arg13 : Memref sig .tc .vmem S1x8x32x64 .f32) (harg13 : arg13.IsWhole) (arg14 : Memref sig .tc .vmem S8x32x32 .f32) (harg14 : arg14.IsWhole) (arg15 : Memref sig .tc .vmem S8x32 .f32) (harg15 : arg15.IsWhole) (arg16 : Memref sig .tc .vmem S8x32 .f32) (harg16 : arg16.IsWhole) (arg17 : Memref sig .tc .vmem S8x32x64 .f32) (harg17 : arg17.IsWhole) (arg18 : Memref sig .tc .vmem S8x32x64 .f32) (harg18 : arg18.IsWhole) (hc0 : ¬condFirst i) (hc1 : condLast i) (x0 : Vec F S1x2048x256 .f32) (x1 : Vec F S1024x256 .f32) (x2 : Vec F S64x8192 .f32) (x3 : Vec F S1x1x64 .f32) (x4 : Vec F S64x8192 .f32) (x5 : Vec F S1x1x64 .f32) (x6 : Vec F S8x1x1 .f32) (xs0 : Vec F S8x32x32 .f32) (xs1 : Vec F S8x32 .f32) (xs2 : Vec F S8x32 .f32) (xs3 : Vec F S8x32x64 .f32) (xs4 : Vec F S8x32x64 .f32) (y : S1x8x32x64.Idx) :
    ∃ pc ∈ (runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4).2.2.2.1, y ∈ pc.1.set :=
  View.cover_of_tiledL ((runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4).2.2.2.1) S1x8x32x64.size (by sl_kernel_rfl) y

theorem coverLast_o11 (c : Dev nD) (i : grid0.Coords) (arg2 : Memref sig .tc .vmem S1x2048x256 .f32) (harg2 : arg2.IsWhole) (arg3 : Memref sig .tc .vmem S1024x256 .f32) (harg3 : arg3.IsWhole) (arg4 : Memref sig .tc .vmem S64x8192 .f32) (harg4 : arg4.IsWhole) (arg5 : Memref sig .tc .vmem S1x1x64 .f32) (harg5 : arg5.IsWhole) (arg6 : Memref sig .tc .vmem S64x8192 .f32) (harg6 : arg6.IsWhole) (arg7 : Memref sig .tc .vmem S1x1x64 .f32) (harg7 : arg7.IsWhole) (arg8 : Memref sig .tc .vmem S8x1x1 .f32) (harg8 : arg8.IsWhole) (arg9 : Memref sig .tc .vmem S1x8x32x2048 .bf16) (harg9 : arg9.IsWhole) (arg10 : Memref sig .tc .vmem S1x8x32x2048 .bf16) (harg10 : arg10.IsWhole) (arg11 : Memref sig .tc .vmem S1x8x32x32 .f32) (harg11 : arg11.IsWhole) (arg12 : Memref sig .tc .vmem S1x8x32x64 .f32) (harg12 : arg12.IsWhole) (arg13 : Memref sig .tc .vmem S1x8x32x64 .f32) (harg13 : arg13.IsWhole) (arg14 : Memref sig .tc .vmem S8x32x32 .f32) (harg14 : arg14.IsWhole) (arg15 : Memref sig .tc .vmem S8x32 .f32) (harg15 : arg15.IsWhole) (arg16 : Memref sig .tc .vmem S8x32 .f32) (harg16 : arg16.IsWhole) (arg17 : Memref sig .tc .vmem S8x32x64 .f32) (harg17 : arg17.IsWhole) (arg18 : Memref sig .tc .vmem S8x32x64 .f32) (harg18 : arg18.IsWhole) (hc0 : ¬condFirst i) (hc1 : condLast i) (x0 : Vec F S1x2048x256 .f32) (x1 : Vec F S1024x256 .f32) (x2 : Vec F S64x8192 .f32) (x3 : Vec F S1x1x64 .f32) (x4 : Vec F S64x8192 .f32) (x5 : Vec F S1x1x64 .f32) (x6 : Vec F S8x1x1 .f32) (xs0 : Vec F S8x32x32 .f32) (xs1 : Vec F S8x32 .f32) (xs2 : Vec F S8x32 .f32) (xs3 : Vec F S8x32x64 .f32) (xs4 : Vec F S8x32x64 .f32) (y : S1x8x32x64.Idx) :
    ∃ pc ∈ (runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4).2.2.2.2.1, y ∈ pc.1.set :=
  View.cover_of_tiledL ((runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4).2.2.2.2.1) S1x8x32x64.size (by sl_kernel_rfl) y

theorem coverLast_s0 (c : Dev nD) (i : grid0.Coords) (arg2 : Memref sig .tc .vmem S1x2048x256 .f32) (harg2 : arg2.IsWhole) (arg3 : Memref sig .tc .vmem S1024x256 .f32) (harg3 : arg3.IsWhole) (arg4 : Memref sig .tc .vmem S64x8192 .f32) (harg4 : arg4.IsWhole) (arg5 : Memref sig .tc .vmem S1x1x64 .f32) (harg5 : arg5.IsWhole) (arg6 : Memref sig .tc .vmem S64x8192 .f32) (harg6 : arg6.IsWhole) (arg7 : Memref sig .tc .vmem S1x1x64 .f32) (harg7 : arg7.IsWhole) (arg8 : Memref sig .tc .vmem S8x1x1 .f32) (harg8 : arg8.IsWhole) (arg9 : Memref sig .tc .vmem S1x8x32x2048 .bf16) (harg9 : arg9.IsWhole) (arg10 : Memref sig .tc .vmem S1x8x32x2048 .bf16) (harg10 : arg10.IsWhole) (arg11 : Memref sig .tc .vmem S1x8x32x32 .f32) (harg11 : arg11.IsWhole) (arg12 : Memref sig .tc .vmem S1x8x32x64 .f32) (harg12 : arg12.IsWhole) (arg13 : Memref sig .tc .vmem S1x8x32x64 .f32) (harg13 : arg13.IsWhole) (arg14 : Memref sig .tc .vmem S8x32x32 .f32) (harg14 : arg14.IsWhole) (arg15 : Memref sig .tc .vmem S8x32 .f32) (harg15 : arg15.IsWhole) (arg16 : Memref sig .tc .vmem S8x32 .f32) (harg16 : arg16.IsWhole) (arg17 : Memref sig .tc .vmem S8x32x64 .f32) (harg17 : arg17.IsWhole) (arg18 : Memref sig .tc .vmem S8x32x64 .f32) (harg18 : arg18.IsWhole) (hc0 : ¬condFirst i) (hc1 : condLast i) (x0 : Vec F S1x2048x256 .f32) (x1 : Vec F S1024x256 .f32) (x2 : Vec F S64x8192 .f32) (x3 : Vec F S1x1x64 .f32) (x4 : Vec F S64x8192 .f32) (x5 : Vec F S1x1x64 .f32) (x6 : Vec F S8x1x1 .f32) (xs0 : Vec F S8x32x32 .f32) (xs1 : Vec F S8x32 .f32) (xs2 : Vec F S8x32 .f32) (xs3 : Vec F S8x32x64 .f32) (xs4 : Vec F S8x32x64 .f32) (y : S8x32x32.Idx) :
    ∃ pc ∈ (runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4).2.2.2.2.2.1, y ∈ pc.1.set :=
  View.cover_of_tiledL ((runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4).2.2.2.2.2.1) S8x32x32.size (by sl_kernel_rfl) y

theorem coverLast_s1 (c : Dev nD) (i : grid0.Coords) (arg2 : Memref sig .tc .vmem S1x2048x256 .f32) (harg2 : arg2.IsWhole) (arg3 : Memref sig .tc .vmem S1024x256 .f32) (harg3 : arg3.IsWhole) (arg4 : Memref sig .tc .vmem S64x8192 .f32) (harg4 : arg4.IsWhole) (arg5 : Memref sig .tc .vmem S1x1x64 .f32) (harg5 : arg5.IsWhole) (arg6 : Memref sig .tc .vmem S64x8192 .f32) (harg6 : arg6.IsWhole) (arg7 : Memref sig .tc .vmem S1x1x64 .f32) (harg7 : arg7.IsWhole) (arg8 : Memref sig .tc .vmem S8x1x1 .f32) (harg8 : arg8.IsWhole) (arg9 : Memref sig .tc .vmem S1x8x32x2048 .bf16) (harg9 : arg9.IsWhole) (arg10 : Memref sig .tc .vmem S1x8x32x2048 .bf16) (harg10 : arg10.IsWhole) (arg11 : Memref sig .tc .vmem S1x8x32x32 .f32) (harg11 : arg11.IsWhole) (arg12 : Memref sig .tc .vmem S1x8x32x64 .f32) (harg12 : arg12.IsWhole) (arg13 : Memref sig .tc .vmem S1x8x32x64 .f32) (harg13 : arg13.IsWhole) (arg14 : Memref sig .tc .vmem S8x32x32 .f32) (harg14 : arg14.IsWhole) (arg15 : Memref sig .tc .vmem S8x32 .f32) (harg15 : arg15.IsWhole) (arg16 : Memref sig .tc .vmem S8x32 .f32) (harg16 : arg16.IsWhole) (arg17 : Memref sig .tc .vmem S8x32x64 .f32) (harg17 : arg17.IsWhole) (arg18 : Memref sig .tc .vmem S8x32x64 .f32) (harg18 : arg18.IsWhole) (hc0 : ¬condFirst i) (hc1 : condLast i) (x0 : Vec F S1x2048x256 .f32) (x1 : Vec F S1024x256 .f32) (x2 : Vec F S64x8192 .f32) (x3 : Vec F S1x1x64 .f32) (x4 : Vec F S64x8192 .f32) (x5 : Vec F S1x1x64 .f32) (x6 : Vec F S8x1x1 .f32) (xs0 : Vec F S8x32x32 .f32) (xs1 : Vec F S8x32 .f32) (xs2 : Vec F S8x32 .f32) (xs3 : Vec F S8x32x64 .f32) (xs4 : Vec F S8x32x64 .f32) (y : S8x32.Idx) :
    ∃ pc ∈ (runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4).2.2.2.2.2.2.1, y ∈ pc.1.set :=
  View.cover_of_tiledL ((runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4).2.2.2.2.2.2.1) S8x32.size (by sl_kernel_rfl) y

theorem coverLast_s2 (c : Dev nD) (i : grid0.Coords) (arg2 : Memref sig .tc .vmem S1x2048x256 .f32) (harg2 : arg2.IsWhole) (arg3 : Memref sig .tc .vmem S1024x256 .f32) (harg3 : arg3.IsWhole) (arg4 : Memref sig .tc .vmem S64x8192 .f32) (harg4 : arg4.IsWhole) (arg5 : Memref sig .tc .vmem S1x1x64 .f32) (harg5 : arg5.IsWhole) (arg6 : Memref sig .tc .vmem S64x8192 .f32) (harg6 : arg6.IsWhole) (arg7 : Memref sig .tc .vmem S1x1x64 .f32) (harg7 : arg7.IsWhole) (arg8 : Memref sig .tc .vmem S8x1x1 .f32) (harg8 : arg8.IsWhole) (arg9 : Memref sig .tc .vmem S1x8x32x2048 .bf16) (harg9 : arg9.IsWhole) (arg10 : Memref sig .tc .vmem S1x8x32x2048 .bf16) (harg10 : arg10.IsWhole) (arg11 : Memref sig .tc .vmem S1x8x32x32 .f32) (harg11 : arg11.IsWhole) (arg12 : Memref sig .tc .vmem S1x8x32x64 .f32) (harg12 : arg12.IsWhole) (arg13 : Memref sig .tc .vmem S1x8x32x64 .f32) (harg13 : arg13.IsWhole) (arg14 : Memref sig .tc .vmem S8x32x32 .f32) (harg14 : arg14.IsWhole) (arg15 : Memref sig .tc .vmem S8x32 .f32) (harg15 : arg15.IsWhole) (arg16 : Memref sig .tc .vmem S8x32 .f32) (harg16 : arg16.IsWhole) (arg17 : Memref sig .tc .vmem S8x32x64 .f32) (harg17 : arg17.IsWhole) (arg18 : Memref sig .tc .vmem S8x32x64 .f32) (harg18 : arg18.IsWhole) (hc0 : ¬condFirst i) (hc1 : condLast i) (x0 : Vec F S1x2048x256 .f32) (x1 : Vec F S1024x256 .f32) (x2 : Vec F S64x8192 .f32) (x3 : Vec F S1x1x64 .f32) (x4 : Vec F S64x8192 .f32) (x5 : Vec F S1x1x64 .f32) (x6 : Vec F S8x1x1 .f32) (xs0 : Vec F S8x32x32 .f32) (xs1 : Vec F S8x32 .f32) (xs2 : Vec F S8x32 .f32) (xs3 : Vec F S8x32x64 .f32) (xs4 : Vec F S8x32x64 .f32) (y : S8x32.Idx) :
    ∃ pc ∈ (runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4).2.2.2.2.2.2.2.1, y ∈ pc.1.set :=
  View.cover_of_tiledL ((runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4).2.2.2.2.2.2.2.1) S8x32.size (by sl_kernel_rfl) y

theorem coverLast_s3 (c : Dev nD) (i : grid0.Coords) (arg2 : Memref sig .tc .vmem S1x2048x256 .f32) (harg2 : arg2.IsWhole) (arg3 : Memref sig .tc .vmem S1024x256 .f32) (harg3 : arg3.IsWhole) (arg4 : Memref sig .tc .vmem S64x8192 .f32) (harg4 : arg4.IsWhole) (arg5 : Memref sig .tc .vmem S1x1x64 .f32) (harg5 : arg5.IsWhole) (arg6 : Memref sig .tc .vmem S64x8192 .f32) (harg6 : arg6.IsWhole) (arg7 : Memref sig .tc .vmem S1x1x64 .f32) (harg7 : arg7.IsWhole) (arg8 : Memref sig .tc .vmem S8x1x1 .f32) (harg8 : arg8.IsWhole) (arg9 : Memref sig .tc .vmem S1x8x32x2048 .bf16) (harg9 : arg9.IsWhole) (arg10 : Memref sig .tc .vmem S1x8x32x2048 .bf16) (harg10 : arg10.IsWhole) (arg11 : Memref sig .tc .vmem S1x8x32x32 .f32) (harg11 : arg11.IsWhole) (arg12 : Memref sig .tc .vmem S1x8x32x64 .f32) (harg12 : arg12.IsWhole) (arg13 : Memref sig .tc .vmem S1x8x32x64 .f32) (harg13 : arg13.IsWhole) (arg14 : Memref sig .tc .vmem S8x32x32 .f32) (harg14 : arg14.IsWhole) (arg15 : Memref sig .tc .vmem S8x32 .f32) (harg15 : arg15.IsWhole) (arg16 : Memref sig .tc .vmem S8x32 .f32) (harg16 : arg16.IsWhole) (arg17 : Memref sig .tc .vmem S8x32x64 .f32) (harg17 : arg17.IsWhole) (arg18 : Memref sig .tc .vmem S8x32x64 .f32) (harg18 : arg18.IsWhole) (hc0 : ¬condFirst i) (hc1 : condLast i) (x0 : Vec F S1x2048x256 .f32) (x1 : Vec F S1024x256 .f32) (x2 : Vec F S64x8192 .f32) (x3 : Vec F S1x1x64 .f32) (x4 : Vec F S64x8192 .f32) (x5 : Vec F S1x1x64 .f32) (x6 : Vec F S8x1x1 .f32) (xs0 : Vec F S8x32x32 .f32) (xs1 : Vec F S8x32 .f32) (xs2 : Vec F S8x32 .f32) (xs3 : Vec F S8x32x64 .f32) (xs4 : Vec F S8x32x64 .f32) (y : S8x32x64.Idx) :
    ∃ pc ∈ (runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4).2.2.2.2.2.2.2.2.1, y ∈ pc.1.set :=
  View.cover_of_tiledL ((runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4).2.2.2.2.2.2.2.2.1) S8x32x64.size (by sl_kernel_rfl) y

theorem coverLast_s4 (c : Dev nD) (i : grid0.Coords) (arg2 : Memref sig .tc .vmem S1x2048x256 .f32) (harg2 : arg2.IsWhole) (arg3 : Memref sig .tc .vmem S1024x256 .f32) (harg3 : arg3.IsWhole) (arg4 : Memref sig .tc .vmem S64x8192 .f32) (harg4 : arg4.IsWhole) (arg5 : Memref sig .tc .vmem S1x1x64 .f32) (harg5 : arg5.IsWhole) (arg6 : Memref sig .tc .vmem S64x8192 .f32) (harg6 : arg6.IsWhole) (arg7 : Memref sig .tc .vmem S1x1x64 .f32) (harg7 : arg7.IsWhole) (arg8 : Memref sig .tc .vmem S8x1x1 .f32) (harg8 : arg8.IsWhole) (arg9 : Memref sig .tc .vmem S1x8x32x2048 .bf16) (harg9 : arg9.IsWhole) (arg10 : Memref sig .tc .vmem S1x8x32x2048 .bf16) (harg10 : arg10.IsWhole) (arg11 : Memref sig .tc .vmem S1x8x32x32 .f32) (harg11 : arg11.IsWhole) (arg12 : Memref sig .tc .vmem S1x8x32x64 .f32) (harg12 : arg12.IsWhole) (arg13 : Memref sig .tc .vmem S1x8x32x64 .f32) (harg13 : arg13.IsWhole) (arg14 : Memref sig .tc .vmem S8x32x32 .f32) (harg14 : arg14.IsWhole) (arg15 : Memref sig .tc .vmem S8x32 .f32) (harg15 : arg15.IsWhole) (arg16 : Memref sig .tc .vmem S8x32 .f32) (harg16 : arg16.IsWhole) (arg17 : Memref sig .tc .vmem S8x32x64 .f32) (harg17 : arg17.IsWhole) (arg18 : Memref sig .tc .vmem S8x32x64 .f32) (harg18 : arg18.IsWhole) (hc0 : ¬condFirst i) (hc1 : condLast i) (x0 : Vec F S1x2048x256 .f32) (x1 : Vec F S1024x256 .f32) (x2 : Vec F S64x8192 .f32) (x3 : Vec F S1x1x64 .f32) (x4 : Vec F S64x8192 .f32) (x5 : Vec F S1x1x64 .f32) (x6 : Vec F S8x1x1 .f32) (xs0 : Vec F S8x32x32 .f32) (xs1 : Vec F S8x32 .f32) (xs2 : Vec F S8x32 .f32) (xs3 : Vec F S8x32x64 .f32) (xs4 : Vec F S8x32x64 .f32) (y : S8x32x64.Idx) :
    ∃ pc ∈ (runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4).2.2.2.2.2.2.2.2.2.1, y ∈ pc.1.set :=
  View.cover_of_tiledL ((runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4).2.2.2.2.2.2.2.2.2.1) S8x32x64.size (by sl_kernel_rfl) y

/-! ## What the output buffers and the accumulators hold after a point -/

/-- The five output staging buffers (windows 7–11) and the five accumulators after the body at one point. -/
structure Outs (F : FTy → Type) [FloatOps F] where
  o7 : Vec F S1x8x32x2048 .bf16
  o8 : Vec F S1x8x32x2048 .bf16
  o9 : Vec F S1x8x32x32 .f32
  o10 : Vec F S1x8x32x64 .f32
  o11 : Vec F S1x8x32x64 .f32
  s0 : Vec F S8x32x32 .f32
  s1 : Vec F S8x32 .f32
  s2 : Vec F S8x32 .f32
  s3 : Vec F S8x32x64 .f32
  s4 : Vec F S8x32x64 .f32

-- the buffer contents when the call is entered
variable (V : (c : Dev nD) → (b : Ref sig .tc) → Buf (Elt F) ((c : Thread nD τ).loc b))

/-- Window `w`'s block at point `t`, cut out of its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- After the first tile of a batch. -/
def ptFirst (c : Dev nD) (t : Fin cfg0.N) (h0 : t.val % 4 = 0) : Outs F where
    o7 := VO7.read (Elt F) (VO7.writes (Elt F) VO7.junk (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM0 (Memref.isWhole_whole _) scM1 (Memref.isWhole_whole _) scM2 (Memref.isWhole_whole _) scM3 (Memref.isWhole_whole _) scM4 (Memref.isWhole_whole _) ((hcondFirst t).mpr h0) (fun h => absurd ((hcondLast t).mp h) (by omega)) (iblk V c 0 t) (iblk V c 1 t) (iblk V c 2 t) (iblk V c 3 t) (iblk V c 4 t) (iblk V c 5 t) (iblk V c 6 t)).1)
    o8 := VO8.read (Elt F) (VO8.writes (Elt F) VO8.junk (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM0 (Memref.isWhole_whole _) scM1 (Memref.isWhole_whole _) scM2 (Memref.isWhole_whole _) scM3 (Memref.isWhole_whole _) scM4 (Memref.isWhole_whole _) ((hcondFirst t).mpr h0) (fun h => absurd ((hcondLast t).mp h) (by omega)) (iblk V c 0 t) (iblk V c 1 t) (iblk V c 2 t) (iblk V c 3 t) (iblk V c 4 t) (iblk V c 5 t) (iblk V c 6 t)).2.1)
    o9 := VO9.read (Elt F) VO9.junk
    o10 := VO10.read (Elt F) VO10.junk
    o11 := VO11.read (Elt F) VO11.junk
    s0 := VS0.read (Elt F) (VS0.writes (Elt F) VS0.junk (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM0 (Memref.isWhole_whole _) scM1 (Memref.isWhole_whole _) scM2 (Memref.isWhole_whole _) scM3 (Memref.isWhole_whole _) scM4 (Memref.isWhole_whole _) ((hcondFirst t).mpr h0) (fun h => absurd ((hcondLast t).mp h) (by omega)) (iblk V c 0 t) (iblk V c 1 t) (iblk V c 2 t) (iblk V c 3 t) (iblk V c 4 t) (iblk V c 5 t) (iblk V c 6 t)).2.2.1)
    s1 := VS1.read (Elt F) (VS1.writes (Elt F) VS1.junk (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM0 (Memref.isWhole_whole _) scM1 (Memref.isWhole_whole _) scM2 (Memref.isWhole_whole _) scM3 (Memref.isWhole_whole _) scM4 (Memref.isWhole_whole _) ((hcondFirst t).mpr h0) (fun h => absurd ((hcondLast t).mp h) (by omega)) (iblk V c 0 t) (iblk V c 1 t) (iblk V c 2 t) (iblk V c 3 t) (iblk V c 4 t) (iblk V c 5 t) (iblk V c 6 t)).2.2.2.1)
    s2 := VS2.read (Elt F) (VS2.writes (Elt F) VS2.junk (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM0 (Memref.isWhole_whole _) scM1 (Memref.isWhole_whole _) scM2 (Memref.isWhole_whole _) scM3 (Memref.isWhole_whole _) scM4 (Memref.isWhole_whole _) ((hcondFirst t).mpr h0) (fun h => absurd ((hcondLast t).mp h) (by omega)) (iblk V c 0 t) (iblk V c 1 t) (iblk V c 2 t) (iblk V c 3 t) (iblk V c 4 t) (iblk V c 5 t) (iblk V c 6 t)).2.2.2.2.1)
    s3 := VS3.read (Elt F) (VS3.writes (Elt F) VS3.junk (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM0 (Memref.isWhole_whole _) scM1 (Memref.isWhole_whole _) scM2 (Memref.isWhole_whole _) scM3 (Memref.isWhole_whole _) scM4 (Memref.isWhole_whole _) ((hcondFirst t).mpr h0) (fun h => absurd ((hcondLast t).mp h) (by omega)) (iblk V c 0 t) (iblk V c 1 t) (iblk V c 2 t) (iblk V c 3 t) (iblk V c 4 t) (iblk V c 5 t) (iblk V c 6 t)).2.2.2.2.2.1)
    s4 := VS4.read (Elt F) (VS4.writes (Elt F) VS4.junk (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM0 (Memref.isWhole_whole _) scM1 (Memref.isWhole_whole _) scM2 (Memref.isWhole_whole _) scM3 (Memref.isWhole_whole _) scM4 (Memref.isWhole_whole _) ((hcondFirst t).mpr h0) (fun h => absurd ((hcondLast t).mp h) (by omega)) (iblk V c 0 t) (iblk V c 1 t) (iblk V c 2 t) (iblk V c 3 t) (iblk V c 4 t) (iblk V c 5 t) (iblk V c 6 t)).2.2.2.2.2.2.1)

/-- After a middle tile, over what the tile before left in the accumulators. -/
def ptMid (c : Dev nD) (t : Fin cfg0.N) (h0 : ¬t.val % 4 = 0) (h1 : ¬t.val % 4 = 3) (p : Outs F) : Outs F where
    o7 := VO7.read (Elt F) (VO7.writes (Elt F) VO7.junk (runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM0 (Memref.isWhole_whole _) scM1 (Memref.isWhole_whole _) scM2 (Memref.isWhole_whole _) scM3 (Memref.isWhole_whole _) scM4 (Memref.isWhole_whole _) (fun h => h0 ((hcondFirst t).mp h)) (fun h => h1 ((hcondLast t).mp h)) (iblk V c 0 t) (iblk V c 1 t) (iblk V c 2 t) (iblk V c 3 t) (iblk V c 4 t) (iblk V c 5 t) (iblk V c 6 t) (p).s0 (p).s1 (p).s2 (p).s3 (p).s4).1)
    o8 := VO8.read (Elt F) (VO8.writes (Elt F) VO8.junk (runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM0 (Memref.isWhole_whole _) scM1 (Memref.isWhole_whole _) scM2 (Memref.isWhole_whole _) scM3 (Memref.isWhole_whole _) scM4 (Memref.isWhole_whole _) (fun h => h0 ((hcondFirst t).mp h)) (fun h => h1 ((hcondLast t).mp h)) (iblk V c 0 t) (iblk V c 1 t) (iblk V c 2 t) (iblk V c 3 t) (iblk V c 4 t) (iblk V c 5 t) (iblk V c 6 t) (p).s0 (p).s1 (p).s2 (p).s3 (p).s4).2.1)
    o9 := VO9.read (Elt F) VO9.junk
    o10 := VO10.read (Elt F) VO10.junk
    o11 := VO11.read (Elt F) VO11.junk
    s0 := VS0.read (Elt F) (VS0.writes (Elt F) VS0.junk (runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM0 (Memref.isWhole_whole _) scM1 (Memref.isWhole_whole _) scM2 (Memref.isWhole_whole _) scM3 (Memref.isWhole_whole _) scM4 (Memref.isWhole_whole _) (fun h => h0 ((hcondFirst t).mp h)) (fun h => h1 ((hcondLast t).mp h)) (iblk V c 0 t) (iblk V c 1 t) (iblk V c 2 t) (iblk V c 3 t) (iblk V c 4 t) (iblk V c 5 t) (iblk V c 6 t) (p).s0 (p).s1 (p).s2 (p).s3 (p).s4).2.2.1)
    s1 := VS1.read (Elt F) (VS1.writes (Elt F) VS1.junk (runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM0 (Memref.isWhole_whole _) scM1 (Memref.isWhole_whole _) scM2 (Memref.isWhole_whole _) scM3 (Memref.isWhole_whole _) scM4 (Memref.isWhole_whole _) (fun h => h0 ((hcondFirst t).mp h)) (fun h => h1 ((hcondLast t).mp h)) (iblk V c 0 t) (iblk V c 1 t) (iblk V c 2 t) (iblk V c 3 t) (iblk V c 4 t) (iblk V c 5 t) (iblk V c 6 t) (p).s0 (p).s1 (p).s2 (p).s3 (p).s4).2.2.2.1)
    s2 := VS2.read (Elt F) (VS2.writes (Elt F) VS2.junk (runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM0 (Memref.isWhole_whole _) scM1 (Memref.isWhole_whole _) scM2 (Memref.isWhole_whole _) scM3 (Memref.isWhole_whole _) scM4 (Memref.isWhole_whole _) (fun h => h0 ((hcondFirst t).mp h)) (fun h => h1 ((hcondLast t).mp h)) (iblk V c 0 t) (iblk V c 1 t) (iblk V c 2 t) (iblk V c 3 t) (iblk V c 4 t) (iblk V c 5 t) (iblk V c 6 t) (p).s0 (p).s1 (p).s2 (p).s3 (p).s4).2.2.2.2.1)
    s3 := VS3.read (Elt F) (VS3.writes (Elt F) VS3.junk (runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM0 (Memref.isWhole_whole _) scM1 (Memref.isWhole_whole _) scM2 (Memref.isWhole_whole _) scM3 (Memref.isWhole_whole _) scM4 (Memref.isWhole_whole _) (fun h => h0 ((hcondFirst t).mp h)) (fun h => h1 ((hcondLast t).mp h)) (iblk V c 0 t) (iblk V c 1 t) (iblk V c 2 t) (iblk V c 3 t) (iblk V c 4 t) (iblk V c 5 t) (iblk V c 6 t) (p).s0 (p).s1 (p).s2 (p).s3 (p).s4).2.2.2.2.2.1)
    s4 := VS4.read (Elt F) (VS4.writes (Elt F) VS4.junk (runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM0 (Memref.isWhole_whole _) scM1 (Memref.isWhole_whole _) scM2 (Memref.isWhole_whole _) scM3 (Memref.isWhole_whole _) scM4 (Memref.isWhole_whole _) (fun h => h0 ((hcondFirst t).mp h)) (fun h => h1 ((hcondLast t).mp h)) (iblk V c 0 t) (iblk V c 1 t) (iblk V c 2 t) (iblk V c 3 t) (iblk V c 4 t) (iblk V c 5 t) (iblk V c 6 t) (p).s0 (p).s1 (p).s2 (p).s3 (p).s4).2.2.2.2.2.2.1)

/-- After the last tile of a batch, over what the tile before left in the accumulators. -/
def ptLast (c : Dev nD) (t : Fin cfg0.N) (h0 : ¬t.val % 4 = 0) (h1 : t.val % 4 = 3) (p : Outs F) : Outs F where
    o7 := VO7.read (Elt F) (VO7.writes (Elt F) VO7.junk (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM0 (Memref.isWhole_whole _) scM1 (Memref.isWhole_whole _) scM2 (Memref.isWhole_whole _) scM3 (Memref.isWhole_whole _) scM4 (Memref.isWhole_whole _) (fun h => h0 ((hcondFirst t).mp h)) ((hcondLast t).mpr h1) (iblk V c 0 t) (iblk V c 1 t) (iblk V c 2 t) (iblk V c 3 t) (iblk V c 4 t) (iblk V c 5 t) (iblk V c 6 t) (p).s0 (p).s1 (p).s2 (p).s3 (p).s4).1)
    o8 := VO8.read (Elt F) (VO8.writes (Elt F) VO8.junk (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM0 (Memref.isWhole_whole _) scM1 (Memref.isWhole_whole _) scM2 (Memref.isWhole_whole _) scM3 (Memref.isWhole_whole _) scM4 (Memref.isWhole_whole _) (fun h => h0 ((hcondFirst t).mp h)) ((hcondLast t).mpr h1) (iblk V c 0 t) (iblk V c 1 t) (iblk V c 2 t) (iblk V c 3 t) (iblk V c 4 t) (iblk V c 5 t) (iblk V c 6 t) (p).s0 (p).s1 (p).s2 (p).s3 (p).s4).2.1)
    o9 := VO9.read (Elt F) (VO9.writes (Elt F) VO9.junk (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM0 (Memref.isWhole_whole _) scM1 (Memref.isWhole_whole _) scM2 (Memref.isWhole_whole _) scM3 (Memref.isWhole_whole _) scM4 (Memref.isWhole_whole _) (fun h => h0 ((hcondFirst t).mp h)) ((hcondLast t).mpr h1) (iblk V c 0 t) (iblk V c 1 t) (iblk V c 2 t) (iblk V c 3 t) (iblk V c 4 t) (iblk V c 5 t) (iblk V c 6 t) (p).s0 (p).s1 (p).s2 (p).s3 (p).s4).2.2.1)
    o10 := VO10.read (Elt F) (VO10.writes (Elt F) VO10.junk (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM0 (Memref.isWhole_whole _) scM1 (Memref.isWhole_whole _) scM2 (Memref.isWhole_whole _) scM3 (Memref.isWhole_whole _) scM4 (Memref.isWhole_whole _) (fun h => h0 ((hcondFirst t).mp h)) ((hcondLast t).mpr h1) (iblk V c 0 t) (iblk V c 1 t) (iblk V c 2 t) (iblk V c 3 t) (iblk V c 4 t) (iblk V c 5 t) (iblk V c 6 t) (p).s0 (p).s1 (p).s2 (p).s3 (p).s4).2.2.2.1)
    o11 := VO11.read (Elt F) (VO11.writes (Elt F) VO11.junk (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM0 (Memref.isWhole_whole _) scM1 (Memref.isWhole_whole _) scM2 (Memref.isWhole_whole _) scM3 (Memref.isWhole_whole _) scM4 (Memref.isWhole_whole _) (fun h => h0 ((hcondFirst t).mp h)) ((hcondLast t).mpr h1) (iblk V c 0 t) (iblk V c 1 t) (iblk V c 2 t) (iblk V c 3 t) (iblk V c 4 t) (iblk V c 5 t) (iblk V c 6 t) (p).s0 (p).s1 (p).s2 (p).s3 (p).s4).2.2.2.2.1)
    s0 := VS0.read (Elt F) (VS0.writes (Elt F) VS0.junk (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM0 (Memref.isWhole_whole _) scM1 (Memref.isWhole_whole _) scM2 (Memref.isWhole_whole _) scM3 (Memref.isWhole_whole _) scM4 (Memref.isWhole_whole _) (fun h => h0 ((hcondFirst t).mp h)) ((hcondLast t).mpr h1) (iblk V c 0 t) (iblk V c 1 t) (iblk V c 2 t) (iblk V c 3 t) (iblk V c 4 t) (iblk V c 5 t) (iblk V c 6 t) (p).s0 (p).s1 (p).s2 (p).s3 (p).s4).2.2.2.2.2.1)
    s1 := VS1.read (Elt F) (VS1.writes (Elt F) VS1.junk (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM0 (Memref.isWhole_whole _) scM1 (Memref.isWhole_whole _) scM2 (Memref.isWhole_whole _) scM3 (Memref.isWhole_whole _) scM4 (Memref.isWhole_whole _) (fun h => h0 ((hcondFirst t).mp h)) ((hcondLast t).mpr h1) (iblk V c 0 t) (iblk V c 1 t) (iblk V c 2 t) (iblk V c 3 t) (iblk V c 4 t) (iblk V c 5 t) (iblk V c 6 t) (p).s0 (p).s1 (p).s2 (p).s3 (p).s4).2.2.2.2.2.2.1)
    s2 := VS2.read (Elt F) (VS2.writes (Elt F) VS2.junk (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM0 (Memref.isWhole_whole _) scM1 (Memref.isWhole_whole _) scM2 (Memref.isWhole_whole _) scM3 (Memref.isWhole_whole _) scM4 (Memref.isWhole_whole _) (fun h => h0 ((hcondFirst t).mp h)) ((hcondLast t).mpr h1) (iblk V c 0 t) (iblk V c 1 t) (iblk V c 2 t) (iblk V c 3 t) (iblk V c 4 t) (iblk V c 5 t) (iblk V c 6 t) (p).s0 (p).s1 (p).s2 (p).s3 (p).s4).2.2.2.2.2.2.2.1)
    s3 := VS3.read (Elt F) (VS3.writes (Elt F) VS3.junk (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM0 (Memref.isWhole_whole _) scM1 (Memref.isWhole_whole _) scM2 (Memref.isWhole_whole _) scM3 (Memref.isWhole_whole _) scM4 (Memref.isWhole_whole _) (fun h => h0 ((hcondFirst t).mp h)) ((hcondLast t).mpr h1) (iblk V c 0 t) (iblk V c 1 t) (iblk V c 2 t) (iblk V c 3 t) (iblk V c 4 t) (iblk V c 5 t) (iblk V c 6 t) (p).s0 (p).s1 (p).s2 (p).s3 (p).s4).2.2.2.2.2.2.2.2.1)
    s4 := VS4.read (Elt F) (VS4.writes (Elt F) VS4.junk (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM0 (Memref.isWhole_whole _) scM1 (Memref.isWhole_whole _) scM2 (Memref.isWhole_whole _) scM3 (Memref.isWhole_whole _) scM4 (Memref.isWhole_whole _) (fun h => h0 ((hcondFirst t).mp h)) ((hcondLast t).mpr h1) (iblk V c 0 t) (iblk V c 1 t) (iblk V c 2 t) (iblk V c 3 t) (iblk V c 4 t) (iblk V c 5 t) (iblk V c 6 t) (p).s0 (p).s1 (p).s2 (p).s3 (p).s4).2.2.2.2.2.2.2.2.2.1)

/-- THE ACCUMULATION: the buffers after the body at position `n`, by the case the position is in. -/
def outsAt (c : Dev nD) : (n : ℕ) → n < cfg0.N → Outs F
  | 0, hn => ptFirst V c ⟨0, hn⟩ (Nat.zero_mod _)
  | n + 1, hn =>
    if h0 : (n + 1) % 4 = 0 then ptFirst V c ⟨n + 1, hn⟩ h0
    else if h1 : (n + 1) % 4 = 3 then ptLast V c ⟨n + 1, hn⟩ h0 h1 (outsAt c n (Nat.lt_of_succ_lt hn))
    else ptMid V c ⟨n + 1, hn⟩ h0 h1 (outsAt c n (Nat.lt_of_succ_lt hn))

theorem outsAt_first (c : Dev nD) (t : Fin cfg0.N) (h0 : t.val % 4 = 0) :
    outsAt V c t.val t.isLt = ptFirst V c t h0 := by
  obtain ⟨n, hn⟩ := t
  cases n with
  | zero => rfl
  | succ n => exact (dif_pos h0).trans rfl

theorem outsAt_mid (c : Dev nD) (t : Fin cfg0.N) (h0 : ¬t.val % 4 = 0) (h1 : ¬t.val % 4 = 3) :
    outsAt V c t.val t.isLt = ptMid V c t h0 h1 (outsAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem outsAt_last (c : Dev nD) (t : Fin cfg0.N) (h0 : ¬t.val % 4 = 0) (h1 : t.val % 4 = 3) :
    outsAt V c t.val t.isLt = ptLast V c t h0 h1 (outsAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-! ## The region invariant -/

/-- The five accumulators at given contents, beside the scoped buffers the call never touches and the generator
    register at some state. -/
def accAt (c : Dev nD) (p : Outs F) : sProp 𝕄 :=
  iprop(iprop(iprop(owns (c : Thread nD τ) scM0 fullShare p.s0 ∗ owns (c : Thread nD τ) scM1 fullShare p.s1 ∗ owns (c : Thread nD τ) scM2 fullShare p.s2 ∗ owns (c : Thread nD τ) scM3 fullShare p.s3 ∗ owns (c : Thread nD τ) scM4 fullShare p.s4) ∗ restBut c) ∗ (∃ r, prngReg c r))

/-- The invariant before position `n`: before the first point the accumulators hold anything; afterwards what the
    point before left. -/
def PhiS (c : Dev nD) : (n : ℕ) → n ≤ cfg0.N → sProp 𝕄
  | 0, _ => Pipeline.ΦA spec0 c
  | n + 1, hn => accAt c (outsAt V c n hn)

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) : PhiS V c (n + 1) hn = accAt c (outsAt V c n hn) := rfl

theorem PhiS_pos (c : Dev nD) (n : ℕ) (h : n ≤ cfg0.N) (hz : n ≠ 0) :
    PhiS V c n h = accAt c (outsAt V c (n - 1) (by omega)) := by
  cases n with
  | zero => exact absurd rfl hz
  | succ n => rfl

end Cert.Kernel.Pass1

end
-- ==== Proof.Bits.Pass1Region.lean ====
/-
  The first kernel call as a pipeline: its proof data and the body obligation.
  After the body at a point each input buffer still holds its block; the q and v_ca buffers hold the point's blocks;
  the three per-batch output buffers hold their results after the last tile of a batch and are idle elsewhere; the
  invariant hands the body the five accumulators at what the point before left (at anything before the very first
  point) and takes them back at this point's contents.  The obligation is checked case by case: a first tile (at the
  very first point of the grid, or later), a middle tile, a last tile.
-/
import proofs.«149626_j38448547234132_2_alg».proof.Proof.Bits.Pass1Outs

set_option maxRecDepth 16384

noncomputable section

namespace Cert.Kernel.Pass1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The inputs are in their staging buffers at every point -/

/-- Window 0 (the x block of the point: one batch, 2048 tokens, all 256 channels). -/
theorem before_in0 {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Window 1 (the whole projection matrix). -/
theorem before_in1 {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Window 2 (the whole key low-rank matrix). -/
theorem before_in2 {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Window 3 (the key low-rank bias). -/
theorem before_in3 {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Window 4 (the whole value low-rank matrix). -/
theorem before_in4 {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Window 5 (the value low-rank bias). -/
theorem before_in5 {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Window 6 (the channel-attention temperature). -/
theorem before_in6 {c : Dev nD} (dat : Dat τ (Elt F) Unit ℕ (UR sig nD τ) ℕ cfg0 c) (hA : dat.A 6 = V c (Pipeline.arrRef spec0 6))
    (hafter : ∀ t, dat.after 6 t = iblk V c 6 t) (t : Fin cfg0.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => (outsAt V c t.val t.isLt).o7
    | ⟨8, _⟩ => (outsAt V c t.val t.isLt).o8
    | ⟨9, _⟩ => (outsAt V c t.val t.isLt).o9
    | ⟨10, _⟩ => (outsAt V c t.val t.isLt).o10
    | ⟨11, _⟩ => (outsAt V c t.val t.isLt).o11
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem Phi_castSucc (c : Dev nD) (t : Fin cfg0.N) :
    (dat V c).Φ t.castSucc = PhiS V c t.val (Nat.le_of_lt t.isLt) := by
  dsimp only [dat]; simp only [Fin.coe_castSucc]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = iblk V c 5 t := by dsimp only [dat]
theorem after_6 (c : Dev nD) (t : Fin cfg0.N) : (dat V c).after 6 t = iblk V c 6 t := by dsimp only [dat]
theorem after_7 (c : Dev nD) (t : Fin cfg0.N) : (dat V c).after 7 t = (outsAt V c t.val t.isLt).o7 := by dsimp only [dat]
theorem after_8 (c : Dev nD) (t : Fin cfg0.N) : (dat V c).after 8 t = (outsAt V c t.val t.isLt).o8 := by dsimp only [dat]
theorem after_9 (c : Dev nD) (t : Fin cfg0.N) : (dat V c).after 9 t = (outsAt V c t.val t.isLt).o9 := by dsimp only [dat]
theorem after_10 (c : Dev nD) (t : Fin cfg0.N) : (dat V c).after 10 t = (outsAt V c t.val t.isLt).o10 := by dsimp only [dat]
theorem after_11 (c : Dev nD) (t : Fin cfg0.N) : (dat V c).after 11 t = (outsAt V c t.val t.isLt).o11 := by dsimp only [dat]

theorem before_0 (c : Dev nD) (t : Fin cfg0.N) (d) : (dat V c).before 0 t d = iblk V c 0 t :=
  before_in0 V (dat V c) (A_eq V c 0) (after_0 V c) t d
theorem before_1 (c : Dev nD) (t : Fin cfg0.N) (d) : (dat V c).before 1 t d = iblk V c 1 t :=
  before_in1 V (dat V c) (A_eq V c 1) (after_1 V c) t d
theorem before_2 (c : Dev nD) (t : Fin cfg0.N) (d) : (dat V c).before 2 t d = iblk V c 2 t :=
  before_in2 V (dat V c) (A_eq V c 2) (after_2 V c) t d
theorem before_3 (c : Dev nD) (t : Fin cfg0.N) (d) : (dat V c).before 3 t d = iblk V c 3 t :=
  before_in3 V (dat V c) (A_eq V c 3) (after_3 V c) t d
theorem before_4 (c : Dev nD) (t : Fin cfg0.N) (d) : (dat V c).before 4 t d = iblk V c 4 t :=
  before_in4 V (dat V c) (A_eq V c 4) (after_4 V c) t d
theorem before_5 (c : Dev nD) (t : Fin cfg0.N) (d) : (dat V c).before 5 t d = iblk V c 5 t :=
  before_in5 V (dat V c) (A_eq V c 5) (after_5 V c) t d
theorem before_6 (c : Dev nD) (t : Fin cfg0.N) (d) : (dat V c).before 6 t d = iblk V c 6 t :=
  before_in6 V (dat V c) (A_eq V c 6) (after_6 V c) t d

/-! ## The body obligation -/

def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d))
    ∗ (∃ d, owns (c : Thread nD τ) (ms7 t) fullShare ((dat V c).before 7 t d))
    ∗ (∃ d, owns (c : Thread nD τ) (ms8 t) fullShare ((dat V c).before 8 t d))
    ∗ (∃ d, owns (c : Thread nD τ) (ms9 t) fullShare ((dat V c).before 9 t d))
    ∗ (∃ d, owns (c : Thread nD τ) (ms10 t) fullShare ((dat V c).before 10 t d))
    ∗ (∃ d, owns (c : Thread nD τ) (ms11 t) fullShare ((dat V c).before 11 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t
    ∗ (dat V c).leavesExact 10 t
    ∗ (dat V c).leavesExact 11 t)

/-- The precondition with the inputs' buffers at their blocks. -/
theorem bodyPre_eq (c : Dev nD) (t : Fin cfg0.N) :
    bodyPre V c t = iprop((dat V c).Φ t.castSucc ∗ (dat V c).owesAt () t.castSucc
    ∗ (∃ d : (cfg0.win 0).block.Idx → Elt F (cfg0.win 0).elt, owns (c : Thread nD τ) (ms0 t) fullShare (iblk V c 0 t))
    ∗ (∃ d : (cfg0.win 1).block.Idx → Elt F (cfg0.win 1).elt, owns (c : Thread nD τ) (ms1 t) fullShare (iblk V c 1 t))
    ∗ (∃ d : (cfg0.win 2).block.Idx → Elt F (cfg0.win 2).elt, owns (c : Thread nD τ) (ms2 t) fullShare (iblk V c 2 t))
    ∗ (∃ d : (cfg0.win 3).block.Idx → Elt F (cfg0.win 3).elt, owns (c : Thread nD τ) (ms3 t) fullShare (iblk V c 3 t))
    ∗ (∃ d : (cfg0.win 4).block.Idx → Elt F (cfg0.win 4).elt, owns (c : Thread nD τ) (ms4 t) fullShare (iblk V c 4 t))
    ∗ (∃ d : (cfg0.win 5).block.Idx → Elt F (cfg0.win 5).elt, owns (c : Thread nD τ) (ms5 t) fullShare (iblk V c 5 t))
    ∗ (∃ d : (cfg0.win 6).block.Idx → Elt F (cfg0.win 6).elt, owns (c : Thread nD τ) (ms6 t) fullShare (iblk V c 6 t))
    ∗ (∃ d, owns (c : Thread nD τ) (ms7 t) fullShare ((dat V c).before 7 t d))
    ∗ (∃ d, owns (c : Thread nD τ) (ms8 t) fullShare ((dat V c).before 8 t d))
    ∗ (∃ d, owns (c : Thread nD τ) (ms9 t) fullShare ((dat V c).before 9 t d))
    ∗ (∃ d, owns (c : Thread nD τ) (ms10 t) fullShare ((dat V c).before 10 t d))
    ∗ (∃ d, owns (c : Thread nD τ) (ms11 t) fullShare ((dat V c).before 11 t d))) := by
  unfold bodyPre
  simp only [before_0, before_1, before_2, before_3, before_4, before_5, before_6]

/-- The postcondition off the last tile of a batch: the accumulators at this point's contents, the inputs in
    place, the q and v_ca buffers at the point's blocks, the three per-batch buffers handed back as found. -/
theorem bodyPost_notLast (c : Dev nD) (t : Fin cfg0.N) (hnl : ¬condLast (grid0.coords t)) :
    bodyPost V c t = iprop(accAt c (outsAt V c t.val t.isLt) ∗ (dat V c).owesAt () t.castSucc
    ∗ owns (c : Thread nD τ) (ms0 t) fullShare (iblk V c 0 t)
    ∗ owns (c : Thread nD τ) (ms1 t) fullShare (iblk V c 1 t)
    ∗ owns (c : Thread nD τ) (ms2 t) fullShare (iblk V c 2 t)
    ∗ owns (c : Thread nD τ) (ms3 t) fullShare (iblk V c 3 t)
    ∗ owns (c : Thread nD τ) (ms4 t) fullShare (iblk V c 4 t)
    ∗ owns (c : Thread nD τ) (ms5 t) fullShare (iblk V c 5 t)
    ∗ owns (c : Thread nD τ) (ms6 t) fullShare (iblk V c 6 t)
    ∗ owns (c : Thread nD τ) (ms7 t) fullShare (outsAt V c t.val t.isLt).o7
    ∗ owns (c : Thread nD τ) (ms8 t) fullShare (outsAt V c t.val t.isLt).o8
    ∗ (∃ d, owns (c : Thread nD τ) (ms9 t) fullShare ((dat V c).before 9 t d))
    ∗ (∃ d, owns (c : Thread nD τ) (ms10 t) fullShare ((dat V c).before 10 t d))
    ∗ (∃ d, owns (c : Thread nD τ) (ms11 t) fullShare ((dat V c).before 11 t d))) := by
  unfold bodyPost
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
    unfold Dat.leavesExact; rw [live_0 t]]
  rw [show (dat V c).leavesExact 1 t = owns (c : Thread nD τ) (ms1 t) fullShare ((dat V c).after 1 t) from by
    unfold Dat.leavesExact; rw [live_1 t]]
  rw [show (dat V c).leavesExact 2 t = owns (c : Thread nD τ) (ms2 t) fullShare ((dat V c).after 2 t) from by
    unfold Dat.leavesExact; rw [live_2 t]]
  rw [show (dat V c).leavesExact 3 t = owns (c : Thread nD τ) (ms3 t) fullShare ((dat V c).after 3 t) from by
    unfold Dat.leavesExact; rw [live_3 t]]
  rw [show (dat V c).leavesExact 4 t = owns (c : Thread nD τ) (ms4 t) fullShare ((dat V c).after 4 t) from by
    unfold Dat.leavesExact; rw [live_4 t]]
  rw [show (dat V c).leavesExact 5 t = owns (c : Thread nD τ) (ms5 t) fullShare ((dat V c).after 5 t) from by
    unfold Dat.leavesExact; rw [live_5 t]]
  rw [show (dat V c).leavesExact 6 t = owns (c : Thread nD τ) (ms6 t) fullShare ((dat V c).after 6 t) from by
    unfold Dat.leavesExact; rw [live_6 t]]
  rw [show (dat V c).leavesExact 7 t = owns (c : Thread nD τ) (ms7 t) fullShare ((dat V c).after 7 t) from by
    unfold Dat.leavesExact; rw [live_7 t]]
  rw [show (dat V c).leavesExact 8 t = owns (c : Thread nD τ) (ms8 t) fullShare ((dat V c).after 8 t) from by
    unfold Dat.leavesExact; rw [live_8 t]]
  rw [after_0, after_1, after_2, after_3, after_4, after_5, after_6, after_7, after_8]
  rw [Dat.leavesExact_idle (dat V c) 9 t (idle_9 t hnl) (noFlush_9 t hnl)]
  rw [Dat.leavesExact_idle (dat V c) 10 t (idle_10 t hnl) (noFlush_10 t hnl)]
  rw [Dat.leavesExact_idle (dat V c) 11 t (idle_11 t hnl) (noFlush_11 t hnl)]
  try rfl

/-- The postcondition at the last tile of a batch: as above, with the three per-batch buffers at their results. -/
theorem bodyPost_last (c : Dev nD) (t : Fin cfg0.N) (hl : condLast (grid0.coords t)) :
    bodyPost V c t = iprop(accAt c (outsAt V c t.val t.isLt) ∗ (dat V c).owesAt () t.castSucc
    ∗ owns (c : Thread nD τ) (ms0 t) fullShare (iblk V c 0 t)
    ∗ owns (c : Thread nD τ) (ms1 t) fullShare (iblk V c 1 t)
    ∗ owns (c : Thread nD τ) (ms2 t) fullShare (iblk V c 2 t)
    ∗ owns (c : Thread nD τ) (ms3 t) fullShare (iblk V c 3 t)
    ∗ owns (c : Thread nD τ) (ms4 t) fullShare (iblk V c 4 t)
    ∗ owns (c : Thread nD τ) (ms5 t) fullShare (iblk V c 5 t)
    ∗ owns (c : Thread nD τ) (ms6 t) fullShare (iblk V c 6 t)
    ∗ owns (c : Thread nD τ) (ms7 t) fullShare (outsAt V c t.val t.isLt).o7
    ∗ owns (c : Thread nD τ) (ms8 t) fullShare (outsAt V c t.val t.isLt).o8
    ∗ owns (c : Thread nD τ) (ms9 t) fullShare (outsAt V c t.val t.isLt).o9
    ∗ owns (c : Thread nD τ) (ms10 t) fullShare (outsAt V c t.val t.isLt).o10
    ∗ owns (c : Thread nD τ) (ms11 t) fullShare (outsAt V c t.val t.isLt).o11) := by
  unfold bodyPost
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
    unfold Dat.leavesExact; rw [live_0 t]]
  rw [show (dat V c).leavesExact 1 t = owns (c : Thread nD τ) (ms1 t) fullShare ((dat V c).after 1 t) from by
    unfold Dat.leavesExact; rw [live_1 t]]
  rw [show (dat V c).leavesExact 2 t = owns (c : Thread nD τ) (ms2 t) fullShare ((dat V c).after 2 t) from by
    unfold Dat.leavesExact; rw [live_2 t]]
  rw [show (dat V c).leavesExact 3 t = owns (c : Thread nD τ) (ms3 t) fullShare ((dat V c).after 3 t) from by
    unfold Dat.leavesExact; rw [live_3 t]]
  rw [show (dat V c).leavesExact 4 t = owns (c : Thread nD τ) (ms4 t) fullShare ((dat V c).after 4 t) from by
    unfold Dat.leavesExact; rw [live_4 t]]
  rw [show (dat V c).leavesExact 5 t = owns (c : Thread nD τ) (ms5 t) fullShare ((dat V c).after 5 t) from by
    unfold Dat.leavesExact; rw [live_5 t]]
  rw [show (dat V c).leavesExact 6 t = owns (c : Thread nD τ) (ms6 t) fullShare ((dat V c).after 6 t) from by
    unfold Dat.leavesExact; rw [live_6 t]]
  rw [show (dat V c).leavesExact 7 t = owns (c : Thread nD τ) (ms7 t) fullShare ((dat V c).after 7 t) from by
    unfold Dat.leavesExact; rw [live_7 t]]
  rw [show (dat V c).leavesExact 8 t = owns (c : Thread nD τ) (ms8 t) fullShare ((dat V c).after 8 t) from by
    unfold Dat.leavesExact; rw [live_8 t]]
  rw [show (dat V c).leavesExact 9 t = owns (c : Thread nD τ) (ms9 t) fullShare ((dat V c).after 9 t) from by
    unfold Dat.leavesExact; rw [liveLast_9 t hl]]
  rw [show (dat V c).leavesExact 10 t = owns (c : Thread nD τ) (ms10 t) fullShare ((dat V c).after 10 t) from by
    unfold Dat.leavesExact; rw [liveLast_10 t hl]]
  rw [show (dat V c).leavesExact 11 t = owns (c : Thread nD τ) (ms11 t) fullShare ((dat V c).after 11 t) from by
    unfold Dat.leavesExact; rw [liveLast_11 t hl]]
  rw [after_0, after_1, after_2, after_3, after_4, after_5, after_6, after_7, after_8, after_9, after_10, after_11]

/-! ## The invariant at the call's two ends -/

/-- What the call is entered with is the invariant before the first point. -/
theorem Phi_in (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After the last point the invariant gives the class invariant back: the accumulators' contents are forgotten. -/
theorem Phi_out (c : Dev nD) : (dat V c).Φ (Fin.last cfg0.N) ⊢ Pipeline.ΦA spec0 c := by
  have hne : (Fin.last cfg0.N).val ≠ 0 := by rw [Fin.val_last]; have : cfg0.N = 32 := N_0; omega
  rw [show (dat V c).Φ (Fin.last cfg0.N) = PhiS V c (Fin.last cfg0.N).val (Nat.le_of_lt_succ (Fin.last cfg0.N).isLt) from rfl,
    PhiS_pos V c _ _ hne, PhiA_eq]
  unfold accAt
  iintro ⟨⟨⟨HS0, HS1, HS2, HS3, HS4⟩, Hrest⟩, Hg⟩
  isplitl [HS0 HS1 HS2 HS3 HS4 Hrest]
  · isplitl [HS0 HS1 HS2 HS3 HS4]
    · isplitl [HS0]; · iexists _; iexact HS0
      isplitl [HS1]; · iexists _; iexact HS1
      isplitl [HS2]; · iexists _; iexact HS2
      isplitl [HS3]; · iexists _; iexact HS3
      iexists _; iexact HS4
    iexact Hrest
  iexact Hg

end Cert.Kernel.Pass1

end
-- ==== Proof.Bits.Pass1ObFirst0.lean ====
/-
  The first kernel call's body obligation at the very first point of the grid: a first tile, the accumulators found at anything.
-/
import proofs.«149626_j38448547234132_2_alg».proof.Proof.Bits.Pass1Region

set_option maxRecDepth 16384

noncomputable section

namespace Cert.Kernel.Pass1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 8000000 in
theorem sound_first0 (c : Dev nD) (t : Fin cfg0.N) (h0 : t.val % 4 = 0) (hz : t.val = 0) : bodyPre V c t ⊢ wp frame (wpE (defs₀ (F := F)) Variants.none c none) Set.univ (bodyAt0 t) (fun _ => bodyPost V c t) := by
  have hnl : ¬condLast (grid0.coords t) := fun h => by have := (hcondLast t).mp h; omega
  have hΦ : (dat V c).Φ t.castSucc = Pipeline.ΦA spec0 c := (Phi_castSucc V c t).trans (PhiS_zero V c _ _ hz)
  rw [bodyPre_eq, hΦ, PhiA_eq, bodyPost_notLast V c t hnl, outsAt_first V c t h0]
  unfold bodyAt0 accAt ptFirst; dsimp only
  iintro ⟨⟨⟨⟨HS0, HS1, HS2, HS3, HS4⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM0 (Memref.isWhole_whole _) scM1 (Memref.isWhole_whole _) scM2 (Memref.isWhole_whole _) scM3 (Memref.isWhole_whole _) scM4 (Memref.isWhole_whole _) ((hcondFirst t).mpr h0) hnl (iblk V c 0 t) (iblk V c 1 t) (iblk V c 2 t) (iblk V c 3 t) (iblk V c 4 t) (iblk V c 5 t) (iblk V c 6 t)).2.2.2.2.2.2.2 _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexact H9
  isplitl [H10]; · iexact H10
  isplitl [H11]; · iexact H11
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, ⟨%e7, H7⟩, ⟨%e8, H8⟩, H9, H10, H11, ⟨%es0, HS0⟩, ⟨%es1, HS1⟩, ⟨%es2, HS2⟩, ⟨%es3, HS3⟩, ⟨%es4, HS4⟩⟩
  isplitl [HS0 HS1 HS2 HS3 HS4 Hrest Hg]
  · isplitl [HS0 HS1 HS2 HS3 HS4 Hrest]
    · isplitl [HS0 HS1 HS2 HS3 HS4]
      · isplitl [HS0]
        · unfold owns; iexists _; isplitr
          swap; · iexact HS0
          ipureintro; exact View.read_writes_of_cover _ _ _ _ _ (coverFirst_s0 c _ _ _ _ _ _ _ _ _ _ _ _ _ _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (coverFirst_s1 c _ _ _ _ _ _ _ _ _ _ _ _ _ _ _ _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (coverFirst_s2 c _ _ _ _ _ _ _ _ _ _ _ _ _ _ _ _ _ _ _ _ _ _ _ _ _ _ _ _ _ _ _ _ _ _ _ _ _ _ _ _ _ _ _ _)
        isplitl [HS3]
        · unfold owns; iexists _; isplitr
          swap; · iexact HS3
          ipureintro; exact View.read_writes_of_cover _ _ _ _ _ (coverFirst_s3 c _ _ _ _ _ _ _ _ _ _ _ _ _ _ _ _ _ _ _ _ _ _ _ _ _ _ _ _ _ _ _ _ _ _ _ _ _ _ _ _ _ _ _ _)
        unfold owns; iexists _; isplitr
        swap; · iexact HS4
        ipureintro; exact View.read_writes_of_cover _ _ _ _ _ (coverFirst_s4 c _ _ _ _ _ _ _ _ _ _ _ _ _ _ _ _ _ _ _ _ _ _ _ _ _ _ _ _ _ _ _ _ _ _ _ _ _ _ _ _ _ _ _ _)
      iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (coverFirst_o7 c _ _ _ _ _ _ _ _ _ _ _ _ _ _ _ _ _ _ _ _ _ _ _ _ _ _ _ _ _ _ _ _ _ _ _ _ _ _ _ _ _ _ _ _)
  isplitl [H8]
  · unfold owns; iexists _; isplitr
    swap; · iexact H8
    ipureintro; exact View.read_writes_of_cover _ _ _ _ _ (coverFirst_o8 c _ _ _ _ _ _ _ _ _ _ _ _ _ _ _ _ _ _ _ _ _ _ _ _ _ _ _ _ _ _ _ _ _ _ _ _ _ _ _ _ _ _ _ _)
  isplitl [H9]; · iexists _; iexact H9
  isplitl [H10]; · iexists _; iexact H10
  iexists _; iexact H11

end Cert.Kernel.Pass1

end
-- ==== Proof.Bits.Pass1ObFirst.lean ====
/-
  The first kernel call's body obligation at a first tile of a later batch: the accumulators found at what the batch before left, and overwritten.
-/
import proofs.«149626_j38448547234132_2_alg».proof.Proof.Bits.Pass1Region

set_option maxRecDepth 16384

noncomputable section

namespace Cert.Kernel.Pass1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 8000000 in
theorem sound_first (c : Dev nD) (t : Fin cfg0.N) (h0 : t.val % 4 = 0) (hz : t.val ≠ 0) : bodyPre V c t ⊢ wp frame (wpE (defs₀ (F := F)) Variants.none c none) Set.univ (bodyAt0 t) (fun _ => bodyPost V c t) := by
  have hnl : ¬condLast (grid0.coords t) := fun h => by have := (hcondLast t).mp h; omega
  have hΦ : (dat V c).Φ t.castSucc = accAt c (outsAt V c (t.val - 1) (by omega)) := (Phi_castSucc V c t).trans (PhiS_pos V c _ _ hz)
  rw [bodyPre_eq, hΦ, bodyPost_notLast V c t hnl, outsAt_first V c t h0]
  unfold bodyAt0 accAt ptFirst; dsimp only
  iintro ⟨⟨⟨⟨HS0, HS1, HS2, HS3, HS4⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM0 (Memref.isWhole_whole _) scM1 (Memref.isWhole_whole _) scM2 (Memref.isWhole_whole _) scM3 (Memref.isWhole_whole _) scM4 (Memref.isWhole_whole _) ((hcondFirst t).mpr h0) hnl (iblk V c 0 t) (iblk V c 1 t) (iblk V c 2 t) (iblk V c 3 t) (iblk V c 4 t) (iblk V c 5 t) (iblk V c 6 t)).2.2.2.2.2.2.2 _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexact H9
  isplitl [H10]; · iexact H10
  isplitl [H11]; · iexact H11
  isplitl [HS0]; · iexists _; iexact HS0
  isplitl [HS1]; · iexists _; iexact HS1
  isplitl [HS2]; · iexists _; iexact HS2
  isplitl [HS3]; · iexists _; iexact HS3
  isplitl [HS4]; · iexists _; iexact HS4
  iintro ⟨H0, H1, H2, H3, H4, H5, H6, ⟨%e7, H7⟩, ⟨%e8, H8⟩, H9, H10, H11, ⟨%es0, HS0⟩, ⟨%es1, HS1⟩, ⟨%es2, HS2⟩, ⟨%es3, HS3⟩, ⟨%es4, HS4⟩⟩
  isplitl [HS0 HS1 HS2 HS3 HS4 Hrest Hg]
  · isplitl [HS0 HS1 HS2 HS3 HS4 Hrest]
    · isplitl [HS0 HS1 HS2 HS3 HS4]
      · isplitl [HS0]
        · unfold owns; iexists _; isplitr
          swap; · iexact HS0
          ipureintro; exact View.read_writes_of_cover _ _ _ _ _ (coverFirst_s0 c _ _ _ _ _ _ _ _ _ _ _ _ _ _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (coverFirst_s1 c _ _ _ _ _ _ _ _ _ _ _ _ _ _ _ _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (coverFirst_s2 c _ _ _ _ _ _ _ _ _ _ _ _ _ _ _ _ _ _ _ _ _ _ _ _ _ _ _ _ _ _ _ _ _ _ _ _ _ _ _ _ _ _ _ _)
        isplitl [HS3]
        · unfold owns; iexists _; isplitr
          swap; · iexact HS3
          ipureintro; exact View.read_writes_of_cover _ _ _ _ _ (coverFirst_s3 c _ _ _ _ _ _ _ _ _ _ _ _ _ _ _ _ _ _ _ _ _ _ _ _ _ _ _ _ _ _ _ _ _ _ _ _ _ _ _ _ _ _ _ _)
        unfold owns; iexists _; isplitr
        swap; · iexact HS4
        ipureintro; exact View.read_writes_of_cover _ _ _ _ _ (coverFirst_s4 c _ _ _ _ _ _ _ _ _ _ _ _ _ _ _ _ _ _ _ _ _ _ _ _ _ _ _ _ _ _ _ _ _ _ _ _ _ _ _ _ _ _ _ _)
      iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (coverFirst_o7 c _ _ _ _ _ _ _ _ _ _ _ _ _ _ _ _ _ _ _ _ _ _ _ _ _ _ _ _ _ _ _ _ _ _ _ _ _ _ _ _ _ _ _ _)
  isplitl [H8]
  · unfold owns; iexists _; isplitr
    swap; · iexact H8
    ipureintro; exact View.read_writes_of_cover _ _ _ _ _ (coverFirst_o8 c _ _ _ _ _ _ _ _ _ _ _ _ _ _ _ _ _ _ _ _ _ _ _ _ _ _ _ _ _ _ _ _ _ _ _ _ _ _ _ _ _ _ _ _)
  isplitl [H9]; · iexists _; iexact H9
  isplitl [H10]; · iexists _; iexact H10
  iexists _; iexact H11

end Cert.Kernel.Pass1

end
-- ==== Proof.Bits.Pass1ObMid.lean ====
/-
  The first kernel call's body obligation at a middle tile: the accumulators continue from what the tile before left.
-/
import proofs.«149626_j38448547234132_2_alg».proof.Proof.Bits.Pass1Region

set_option maxRecDepth 16384

noncomputable section

namespace Cert.Kernel.Pass1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 8000000 in
theorem sound_mid (c : Dev nD) (t : Fin cfg0.N) (h0 : ¬t.val % 4 = 0) (h1 : ¬t.val % 4 = 3) : bodyPre V c t ⊢ wp frame (wpE (defs₀ (F := F)) Variants.none c none) Set.univ (bodyAt0 t) (fun _ => bodyPost V c t) := by
  have hz : t.val ≠ 0 := fun e => h0 (by rw [e])
  have hnl : ¬condLast (grid0.coords t) := fun h => h1 ((hcondLast t).mp h)
  have hΦ : (dat V c).Φ t.castSucc = accAt c (outsAt V c (t.val - 1) (by omega)) := (Phi_castSucc V c t).trans (PhiS_pos V c _ _ hz)
  rw [bodyPre_eq, hΦ, bodyPost_notLast V c t hnl, outsAt_mid V c t h0 h1]
  unfold bodyAt0 accAt ptMid; dsimp only
  iintro ⟨⟨⟨⟨HS0, HS1, HS2, HS3, HS4⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM0 (Memref.isWhole_whole _) scM1 (Memref.isWhole_whole _) scM2 (Memref.isWhole_whole _) scM3 (Memref.isWhole_whole _) scM4 (Memref.isWhole_whole _) (fun h => h0 ((hcondFirst t).mp h)) (fun h => h1 ((hcondLast t).mp h)) (iblk V c 0 t) (iblk V c 1 t) (iblk V c 2 t) (iblk V c 3 t) (iblk V c 4 t) (iblk V c 5 t) (iblk V c 6 t) _ _ _ _ _).2.2.2.2.2.2.2 _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexact H9
  isplitl [H10]; · iexact H10
  isplitl [H11]; · iexact H11
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, ⟨%e7, H7⟩, ⟨%e8, H8⟩, H9, H10, H11, ⟨%es0, HS0⟩, ⟨%es1, HS1⟩, ⟨%es2, HS2⟩, ⟨%es3, HS3⟩, ⟨%es4, HS4⟩⟩
  isplitl [HS0 HS1 HS2 HS3 HS4 Hrest Hg]
  · isplitl [HS0 HS1 HS2 HS3 HS4 Hrest]
    · isplitl [HS0 HS1 HS2 HS3 HS4]
      · isplitl [HS0]
        · unfold owns; iexists _; isplitr
          swap; · iexact HS0
          ipureintro; exact View.read_writes_of_cover _ _ _ _ _ (coverMid_s0 c _ _ _ _ _ _ _ _ _ _ _ _ _ _ _ _ _ _ _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (coverMid_s1 c _ _ _ _ _ _ _ _ _ _ _ _ _ _ _ _ _ _ _ _ _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (coverMid_s2 c _ _ _ _ _ _ _ _ _ _ _ _ _ _ _ _ _ _ _ _ _ _ _ _ _ _ _ _ _ _ _ _ _ _ _ _ _ _ _ _ _ _ _ _ _ _ _ _ _)
        isplitl [HS3]
        · unfold owns; iexists _; isplitr
          swap; · iexact HS3
          ipureintro; exact View.read_writes_of_cover _ _ _ _ _ (coverMid_s3 c _ _ _ _ _ _ _ _ _ _ _ _ _ _ _ _ _ _ _ _ _ _ _ _ _ _ _ _ _ _ _ _ _ _ _ _ _ _ _ _ _ _ _ _ _ _ _ _ _)
        unfold owns; iexists _; isplitr
        swap; · iexact HS4
        ipureintro; exact View.read_writes_of_cover _ _ _ _ _ (coverMid_s4 c _ _ _ _ _ _ _ _ _ _ _ _ _ _ _ _ _ _ _ _ _ _ _ _ _ _ _ _ _ _ _ _ _ _ _ _ _ _ _ _ _ _ _ _ _ _ _ _ _)
      iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (coverMid_o7 c _ _ _ _ _ _ _ _ _ _ _ _ _ _ _ _ _ _ _ _ _ _ _ _ _ _ _ _ _ _ _ _ _ _ _ _ _ _ _ _ _ _ _ _ _ _ _ _ _)
  isplitl [H8]
  · unfold owns; iexists _; isplitr
    swap; · iexact H8
    ipureintro; exact View.read_writes_of_cover _ _ _ _ _ (coverMid_o8 c _ _ _ _ _ _ _ _ _ _ _ _ _ _ _ _ _ _ _ _ _ _ _ _ _ _ _ _ _ _ _ _ _ _ _ _ _ _ _ _ _ _ _ _ _ _ _ _ _)
  isplitl [H9]; · iexists _; iexact H9
  isplitl [H10]; · iexists _; iexact H10
  iexists _; iexact H11

end Cert.Kernel.Pass1

end
-- ==== Proof.Bits.Pass1ObLast.lean ====
/-
  The first kernel call's body obligation at the last tile of a batch: the accumulators continue, and the three per-batch results are stored.
-/
import proofs.«149626_j38448547234132_2_alg».proof.Proof.Bits.Pass1Region

set_option maxRecDepth 16384

noncomputable section

namespace Cert.Kernel.Pass1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 8000000 in
theorem sound_last (c : Dev nD) (t : Fin cfg0.N) (h0 : ¬t.val % 4 = 0) (h1 : t.val % 4 = 3) : bodyPre V c t ⊢ wp frame (wpE (defs₀ (F := F)) Variants.none c none) Set.univ (bodyAt0 t) (fun _ => bodyPost V c t) := by
  have hz : t.val ≠ 0 := fun e => h0 (by rw [e])
  have hl : condLast (grid0.coords t) := (hcondLast t).mpr h1
  have hΦ : (dat V c).Φ t.castSucc = accAt c (outsAt V c (t.val - 1) (by omega)) := (Phi_castSucc V c t).trans (PhiS_pos V c _ _ hz)
  rw [bodyPre_eq, hΦ, bodyPost_last V c t hl, outsAt_last V c t h0 h1]
  unfold bodyAt0 accAt ptLast; dsimp only
  iintro ⟨⟨⟨⟨HS0, HS1, HS2, HS3, HS4⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM0 (Memref.isWhole_whole _) scM1 (Memref.isWhole_whole _) scM2 (Memref.isWhole_whole _) scM3 (Memref.isWhole_whole _) scM4 (Memref.isWhole_whole _) (fun h => h0 ((hcondFirst t).mp h)) ((hcondLast t).mpr h1) (iblk V c 0 t) (iblk V c 1 t) (iblk V c 2 t) (iblk V c 3 t) (iblk V c 4 t) (iblk V c 5 t) (iblk V c 6 t) _ _ _ _ _).2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, ⟨%e7, H7⟩, ⟨%e8, H8⟩, ⟨%e9, H9⟩, ⟨%e10, H10⟩, ⟨%e11, H11⟩, ⟨%es0, HS0⟩, ⟨%es1, HS1⟩, ⟨%es2, HS2⟩, ⟨%es3, HS3⟩, ⟨%es4, HS4⟩⟩
  isplitl [HS0 HS1 HS2 HS3 HS4 Hrest Hg]
  · isplitl [HS0 HS1 HS2 HS3 HS4 Hrest]
    · isplitl [HS0 HS1 HS2 HS3 HS4]
      · isplitl [HS0]
        · unfold owns; iexists _; isplitr
          swap; · iexact HS0
          ipureintro; exact View.read_writes_of_cover _ _ _ _ _ (coverLast_s0 c _ _ _ _ _ _ _ _ _ _ _ _ _ _ _ _ _ _ _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (coverLast_s1 c _ _ _ _ _ _ _ _ _ _ _ _ _ _ _ _ _ _ _ _ _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (coverLast_s2 c _ _ _ _ _ _ _ _ _ _ _ _ _ _ _ _ _ _ _ _ _ _ _ _ _ _ _ _ _ _ _ _ _ _ _ _ _ _ _ _ _ _ _ _ _ _ _ _ _)
        isplitl [HS3]
        · unfold owns; iexists _; isplitr
          swap; · iexact HS3
          ipureintro; exact View.read_writes_of_cover _ _ _ _ _ (coverLast_s3 c _ _ _ _ _ _ _ _ _ _ _ _ _ _ _ _ _ _ _ _ _ _ _ _ _ _ _ _ _ _ _ _ _ _ _ _ _ _ _ _ _ _ _ _ _ _ _ _ _)
        unfold owns; iexists _; isplitr
        swap; · iexact HS4
        ipureintro; exact View.read_writes_of_cover _ _ _ _ _ (coverLast_s4 c _ _ _ _ _ _ _ _ _ _ _ _ _ _ _ _ _ _ _ _ _ _ _ _ _ _ _ _ _ _ _ _ _ _ _ _ _ _ _ _ _ _ _ _ _ _ _ _ _)
      iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (coverLast_o7 c _ _ _ _ _ _ _ _ _ _ _ _ _ _ _ _ _ _ _ _ _ _ _ _ _ _ _ _ _ _ _ _ _ _ _ _ _ _ _ _ _ _ _ _ _ _ _ _ _)
  isplitl [H8]
  · unfold owns; iexists _; isplitr
    swap; · iexact H8
    ipureintro; exact View.read_writes_of_cover _ _ _ _ _ (coverLast_o8 c _ _ _ _ _ _ _ _ _ _ _ _ _ _ _ _ _ _ _ _ _ _ _ _ _ _ _ _ _ _ _ _ _ _ _ _ _ _ _ _ _ _ _ _ _ _ _ _ _)
  isplitl [H9]
  · unfold owns; iexists _; isplitr
    swap; · iexact H9
    ipureintro; exact View.read_writes_of_cover _ _ _ _ _ (coverLast_o9 c _ _ _ _ _ _ _ _ _ _ _ _ _ _ _ _ _ _ _ _ _ _ _ _ _ _ _ _ _ _ _ _ _ _ _ _ _ _ _ _ _ _ _ _ _ _ _ _ _)
  isplitl [H10]
  · unfold owns; iexists _; isplitr
    swap; · iexact H10
    ipureintro; exact View.read_writes_of_cover _ _ _ _ _ (coverLast_o10 c _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H11
  ipureintro; exact View.read_writes_of_cover _ _ _ _ _ (coverLast_o11 c _ _ _ _ _ _ _ _ _ _ _ _ _ _ _ _ _ _ _ _ _ _ _ _ _ _ _ _ _ _ _ _ _ _ _ _ _ _ _ _ _ _ _ _ _ _ _ _ _)

end Cert.Kernel.Pass1

end
-- ==== Proof.Bits.Pass1Ob.lean ====
/-
  The first kernel call's body obligation at every point, by the case the point is in.
-/
import proofs.«149626_j38448547234132_2_alg».proof.Proof.Bits.Pass1ObFirst0
import proofs.«149626_j38448547234132_2_alg».proof.Proof.Bits.Pass1ObFirst
import proofs.«149626_j38448547234132_2_alg».proof.Proof.Bits.Pass1ObMid
import proofs.«149626_j38448547234132_2_alg».proof.Proof.Bits.Pass1ObLast

set_option maxRecDepth 16384

noncomputable section

namespace Cert.Kernel.Pass1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem sound_body (c : Dev nD) (t : Fin cfg0.N) : bodyPre V c t ⊢ wp frame (wpE (defs₀ (F := F)) Variants.none c none) Set.univ (bodyAt0 t) (fun _ => bodyPost V c t) := by
  by_cases h0 : t.val % 4 = 0
  · by_cases hz : t.val = 0
    · exact sound_first0 V c t h0 hz
    · exact sound_first V c t h0 hz
  · by_cases h1 : t.val % 4 = 3
    · exact sound_last V c t h0 h1
    · exact sound_mid V c t h0 h1

/-- The library's body obligation, at every point. -/
theorem body_obligation (c : Dev nD) : BodyObligation (dat (F := F) V c) (defs₀ (F := F)) Variants.none () Set.univ := fun t => by
  rw [bigSep_W0, bigSep_W0]
  exact sound_body V c t

end Cert.Kernel.Pass1

end
-- ==== Proof.Bits.SpatialBody.lean ====
/-
  The spatial-attention call (the second of the three kernel calls): what one grid point does, at any float
  instance.  A point (b, j) is handed the block q[b, :, :, 2048 j : 2048 (j+1)] (heads × head-dim × tokens), the two
  per-batch statistics k_proj[b] and v_proj[b] (heads × head-dim × 64), and the per-head temperature.  It leaves,
  in the output block of the same token range, for every head h, channel d and token n,
      ∑_p v_proj[h, d, p] · softmax_p ( temp[h] · ∑_d' q[h, d', n] · k_proj[h, d', p] ).
  The body is one store of one pure term of its four loads; this module records that term as the block the point
  writes back, and the separation-logic triple of the body, from which the pipeline's obligation follows.
-/
import proofs.«149626_j38448547234132_2_alg».proof.Proof.Gen.Kernel.Launch
import proofs.«149626_j38448547234132_2_alg».proof.Proof.Gen.Kernel.Skeleton
import proofs.«149626_j38448547234132_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Spatial

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the call is entered: everything below is stated at this parameter
variable (V : (c : Dev nD) → (b : Ref sig .tc) → Buf (Elt F) ((c : Thread nD τ).loc b))

/-! ## The blocks a point reads -/

/-- Window `w`'s block at point `t`, cut out of its array as the call finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The q block is in its staging buffer at every point (it is fetched at every point). -/
theorem before_q {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The k_proj block of the point's batch is in its staging buffer at every point: it is fetched when the batch
    changes, and its block index does not move in between. -/
theorem before_kproj {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The same for the v_proj block. -/
theorem before_vproj {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The temperature, one whole block fetched once, stays in its staging buffer. -/
theorem before_temp {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## What the body stores -/

/-- The whole of each staging buffer, as the rectangle the body loads or stores. -/
abbrev rTok : Rect S1x8x32x2048 := Rect.unit (s := S1x8x32x2048) ![0, 0, 0, 0] S1x8x32x2048.size inb_S1x8x32x2048_S1x8x32x2048_0_0_0_0
abbrev rStat : Rect S1x8x32x64 := Rect.unit (s := S1x8x32x64) ![0, 0, 0, 0] S1x8x32x64.size inb_S1x8x32x64_S1x8x32x64_0_0_0_0
abbrev rTemp : Rect S8x1x1 := Rect.unit (s := S8x1x1) ![0, 0, 0] S8x1x1.size inb_S8x1x1_S8x1x1_0_0_0

/-- The output block after the body, from the four input blocks: its one store, of the body's one term. -/
def outBlock (q : Vec F S1x8x32x2048 .bf16) (kp : Vec F S1x8x32x64 .f32) (vp : Vec F S1x8x32x64 .f32) (tmp : Vec F S8x1x1 .f32) :
    Vec F S1x8x32x2048 .bf16 :=
  View.canon [⟨rTok, k1_pay1 (View.ld q rTok) (View.ld kp rStat) (View.ld vp rStat) (View.ld tmp rTemp)⟩]

/-- The one store is of the whole block, so it covers it. -/
theorem outBlock_cover (p0 : Vec F S1x8x32x2048 .bf16) (y : S1x8x32x2048.Idx) :
    ∃ pc ∈ ([⟨rTok, p0⟩] : List (View.Piece (Elt F) S1x8x32x2048 .bf16)), y ∈ pc.1.set :=
  View.cover_of_tiled [⟨rTok, p0⟩] S1x8x32x2048.size (by rfl) y

/-! ## The body's triple -/

set_option maxHeartbeats 1000000 in
/-- The body, on whole staging memrefs holding the four input blocks and an output buffer at anything, runs to its
    continuation with the inputs as they were and the output at `outBlock` of the inputs. -/
theorem sound_kernel (c : Dev nD) (E : Set ℕ) (i : grid1.Coords)
    (arg2 : Memref sig .tc .vmem S1x8x32x2048 .bf16) (harg2 : arg2.IsWhole) (arg3 : Memref sig .tc .vmem S1x8x32x64 .f32) (harg3 : arg3.IsWhole)
    (arg4 : Memref sig .tc .vmem S1x8x32x64 .f32) (harg4 : arg4.IsWhole) (arg5 : Memref sig .tc .vmem S8x1x1 .f32) (harg5 : arg5.IsWhole)
    (arg6 : Memref sig .tc .vmem S1x8x32x2048 .bf16) (harg6 : arg6.IsWhole)
    (q : Vec F S1x8x32x2048 .bf16) (kp : Vec F S1x8x32x64 .f32) (vp : Vec F S1x8x32x64 .f32) (tmp : Vec F S8x1x1 .f32) (K : PUnit → sProp 𝕄) :
    iprop(owns (c : Thread nD τ) arg2 fullShare q ∗ owns (c : Thread nD τ) arg3 fullShare kp ∗ owns (c : Thread nD τ) arg4 fullShare vp
        ∗ owns (c : Thread nD τ) arg5 fullShare tmp ∗ (∃ d, owns (c : Thread nD τ) arg6 fullShare d)
        ∗ (iprop(owns (c : Thread nD τ) arg2 fullShare q ∗ owns (c : Thread nD τ) arg3 fullShare kp ∗ owns (c : Thread nD τ) arg4 fullShare vp
            ∗ owns (c : Thread nD τ) arg5 fullShare tmp ∗ owns (c : Thread nD τ) arg6 fullShare (outBlock q kp vp tmp)) -∗ K ⟨⟩))
      ⊢ wp frame (wpE (defs₀ (F := F)) Variants.none c none) E (cc1__spatial_kernel i arg2 harg2 arg3 harg3 arg4 harg4 arg5 harg5 arg6 harg6) K := by
  simp only [cc1__spatial_kernel_eq_skeleton]; unfold cc1__spatial_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (outBlock_cover _)

end Cert.Kernel.Spatial

end
-- ==== Proof.Bits.SpatialRegion.lean ====
/-
  The spatial-attention call as a pipeline: the proof data of its thirty-two points and the body obligation.
  Every input block is in its staging buffer when the body is called (the per-batch statistics and the temperature
  stay put between fetches), the body leaves the inputs in place and the output buffer at the point's block, and
  nothing else is touched: the region invariant is the untouched scoped rest beside the generator register.
-/
import proofs.«149626_j38448547234132_2_alg».proof.Proof.Bits.SpatialBody

set_option maxRecDepth 16384

noncomputable section

namespace Cert.Kernel.Spatial

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The proof data of the call on core `c`: the arrays as the call finds them; after the body at point `t` each
    input's buffer at its block and the output's at `outBlock` of the input blocks; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => outBlock (iblk V c 0 t) (iblk V c 1 t) (iblk V c 2 t) (iblk V c 3 t)
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) :
    (dat V c).after 4 t = outBlock (iblk V c 0 t) (iblk V c 1 t) (iblk V c 2 t) (iblk V c 3 t) := by dsimp only [dat]

theorem before_0 (c : Dev nD) (t : Fin cfg1.N) (d) : (dat V c).before 0 t d = iblk V c 0 t :=
  before_q V (dat V c) (A_eq V c 0) (after_0 V c) t d
theorem before_1 (c : Dev nD) (t : Fin cfg1.N) (d) : (dat V c).before 1 t d = iblk V c 1 t :=
  before_kproj V (dat V c) (A_eq V c 1) (after_1 V c) t d
theorem before_2 (c : Dev nD) (t : Fin cfg1.N) (d) : (dat V c).before 2 t d = iblk V c 2 t :=
  before_vproj V (dat V c) (A_eq V c 2) (after_2 V c) t d
theorem before_3 (c : Dev nD) (t : Fin cfg1.N) (d) : (dat V c).before 3 t d = iblk V c 3 t :=
  before_temp V (dat V c) (A_eq V c 3) (after_3 V c) t d

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t))

/-- The body at any point: the inputs' memrefs hold their blocks, so the body's triple applies; the invariant and
    the core's dues pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dat (F := F) V c) (defs₀ (F := F)) Variants.none () Set.univ := fun t => by
  rw [bigSep_W1, bigSep_W1]
  exact sound_body V c t

end Cert.Kernel.Spatial

end
-- ==== Proof.Bits.FinalBody.lean ====
/-
  The last kernel call: what one grid point does, at any float instance.  A point (b, j) is handed the v_ca block
  v_ca[b, :, :, 2048 j : 2048 (j+1)], the channel-attention weights of batch b, the re-laid spatial-attention block
  (tokens 2048 j … of batch b, 256 channels), and the two output projections with their biases.  It writes the
  output block of the same tokens in two halves: columns 0–127 are the spatial branch,
      ∑_c x_sa[n, c] · Wo1[o, c] + bo1[o],
  columns 128–255 the channel branch,
      ∑_{h,d} ( ∑_e attn[h, d, e] · v_ca[h, e, n] ) · Wo2[o, 32 h + d] + bo2[o].
  This module records the two stored terms as the block the point writes back, and the body's triple.
-/
import proofs.«149626_j38448547234132_2_alg».proof.Proof.Gen.Kernel.Launch
import proofs.«149626_j38448547234132_2_alg».proof.Proof.Gen.Kernel.Skeleton
import proofs.«149626_j38448547234132_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Final

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the call is entered: everything below is stated at this parameter
variable (V : (c : Dev nD) → (b : Ref sig .tc) → Buf (Elt F) ((c : Thread nD τ).loc b))

/-! ## The blocks a point reads -/

/-- Window `w`'s block at point `t`, cut out of its array as the call finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The v_ca block of the point (fetched at every point): it is in its staging buffer at every point, fetched there or not. -/
theorem before_vca {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The channel-attention weights of the point's batch (fetched when the batch changes): it is in its staging buffer at every point, fetched there or not. -/
theorem before_attn {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The re-laid spatial-attention block of the point (fetched at every point): it is in its staging buffer at every point, fetched there or not. -/
theorem before_xsa {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The first output projection, whole, fetched once: it is in its staging buffer at every point, fetched there or not. -/
theorem before_wo1 {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Its bias as a row, fetched once: it is in its staging buffer at every point, fetched there or not. -/
theorem before_bo1 {c : Dev nD} (dat : Dat τ (Elt F) Unit ℕ (UR sig nD τ) ℕ cfg2 c) (hA : dat.A 4 = V c (Pipeline.arrRef spec2 4))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- The second output projection, whole, fetched once: it is in its staging buffer at every point, fetched there or not. -/
theorem before_wo2 {c : Dev nD} (dat : Dat τ (Elt F) Unit ℕ (UR sig nD τ) ℕ cfg2 c) (hA : dat.A 5 = V c (Pipeline.arrRef spec2 5))
    (hafter : ∀ t, dat.after 5 t = iblk V c 5 t) (t : Fin cfg2.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Its bias as a row, fetched once: it is in its staging buffer at every point, fetched there or not. -/
theorem before_bo2 {c : Dev nD} (dat : Dat τ (Elt F) Unit ℕ (UR sig nD τ) ℕ cfg2 c) (hA : dat.A 6 = V c (Pipeline.arrRef spec2 6))
    (hafter : ∀ t, dat.after 6 t = iblk V c 6 t) (t : Fin cfg2.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## What the body stores -/

abbrev rVca : Rect S1x8x32x2048 := Rect.unit (s := S1x8x32x2048) ![0, 0, 0, 0] S1x8x32x2048.size inb_S1x8x32x2048_S1x8x32x2048_0_0_0_0
abbrev rAttn : Rect S1x8x32x32 := Rect.unit (s := S1x8x32x32) ![0, 0, 0, 0] S1x8x32x32.size inb_S1x8x32x32_S1x8x32x32_0_0_0_0
abbrev rXsa : Rect S1x2048x256 := Rect.unit (s := S1x2048x256) ![0, 0, 0] S1x2048x256.size inb_S1x2048x256_S1x2048x256_0_0_0
abbrev rW : Rect S128x256 := Rect.unit (s := S128x256) ![0, 0] S128x256.size inb_S128x256_S128x256_0_0
abbrev rB : Rect S1x128 := Rect.unit (s := S1x128) ![0, 0] S1x128.size inb_S1x128_S1x128_0_0
/-- The two halves of the output block: columns 0–127 and columns 128–255. -/
abbrev rLo : Rect S1x2048x256 := Rect.unit (s := S1x2048x256) ![0, 0, 0] S1x2048x128.size inb_S1x2048x256_S1x2048x128_0_0_0
abbrev rHi : Rect S1x2048x256 := Rect.unit (s := S1x2048x256) ![0, 0, 128] S1x2048x128.size inb_S1x2048x256_S1x2048x128_0_0_128

/-- The output block after the body, from the seven input blocks: its two stores, the later one first. -/
def outBlock (vca : Vec F S1x8x32x2048 .bf16) (attn : Vec F S1x8x32x32 .f32) (xsa : Vec F S1x2048x256 .bf16)
    (wo1 : Vec F S128x256 .f32) (bo1 : Vec F S1x128 .f32) (wo2 : Vec F S128x256 .f32) (bo2 : Vec F S1x128 .f32) : Vec F S1x2048x256 .f32 :=
  View.canon [⟨rHi, k2_pay1 (k2_pay2 (View.ld attn rAttn) (View.ld vca rVca) (View.ld wo2 rW) (View.ld bo2 rB))⟩,
    ⟨rLo, k2_pay3 (View.ld xsa rXsa) (View.ld wo1 rW) (View.ld bo1 rB)⟩]

/-- The two halves tile the block, so they cover it. -/
theorem outBlock_cover (p1 p0 : Vec F S1x2048x128 .f32) (y : S1x2048x256.Idx) :
    ∃ pc ∈ ([⟨rHi, p1⟩, ⟨rLo, p0⟩] : List (View.Piece (Elt F) S1x2048x256 .f32)), y ∈ pc.1.set :=
  View.cover_of_tiled [⟨rHi, p1⟩, ⟨rLo, p0⟩] S1x2048x128.size (by rfl) y

/-! ## The body's triple -/

set_option maxHeartbeats 2000000 in
/-- The body, on whole staging memrefs holding the seven input blocks and an output buffer at anything, runs to its
    continuation with the inputs as they were and the output at `outBlock` of the inputs. -/
theorem sound_kernel (c : Dev nD) (E : Set ℕ) (i : grid2.Coords)
    (arg2 : Memref sig .tc .vmem S1x8x32x2048 .bf16) (harg2 : arg2.IsWhole) (arg3 : Memref sig .tc .vmem S1x8x32x32 .f32) (harg3 : arg3.IsWhole) (arg4 : Memref sig .tc .vmem S1x2048x256 .bf16) (harg4 : arg4.IsWhole) (arg5 : Memref sig .tc .vmem S128x256 .f32) (harg5 : arg5.IsWhole) (arg6 : Memref sig .tc .vmem S1x128 .f32) (harg6 : arg6.IsWhole) (arg7 : Memref sig .tc .vmem S128x256 .f32) (harg7 : arg7.IsWhole) (arg8 : Memref sig .tc .vmem S1x128 .f32) (harg8 : arg8.IsWhole)
    (arg9 : Memref sig .tc .vmem S1x2048x256 .f32) (harg9 : arg9.IsWhole)
    (vca : Vec F S1x8x32x2048 .bf16) (attn : Vec F S1x8x32x32 .f32) (xsa : Vec F S1x2048x256 .bf16) (wo1 : Vec F S128x256 .f32) (bo1 : Vec F S1x128 .f32) (wo2 : Vec F S128x256 .f32) (bo2 : Vec F S1x128 .f32) (K : PUnit → sProp 𝕄) :
    iprop(owns (c : Thread nD τ) arg2 fullShare vca ∗ owns (c : Thread nD τ) arg3 fullShare attn ∗ owns (c : Thread nD τ) arg4 fullShare xsa ∗ owns (c : Thread nD τ) arg5 fullShare wo1 ∗ owns (c : Thread nD τ) arg6 fullShare bo1 ∗ owns (c : Thread nD τ) arg7 fullShare wo2 ∗ owns (c : Thread nD τ) arg8 fullShare bo2
        ∗ (∃ d, owns (c : Thread nD τ) arg9 fullShare d)
        ∗ (iprop(owns (c : Thread nD τ) arg2 fullShare vca ∗ owns (c : Thread nD τ) arg3 fullShare attn ∗ owns (c : Thread nD τ) arg4 fullShare xsa ∗ owns (c : Thread nD τ) arg5 fullShare wo1 ∗ owns (c : Thread nD τ) arg6 fullShare bo1 ∗ owns (c : Thread nD τ) arg7 fullShare wo2 ∗ owns (c : Thread nD τ) arg8 fullShare bo2
            ∗ owns (c : Thread nD τ) arg9 fullShare (outBlock vca attn xsa wo1 bo1 wo2 bo2)) -∗ K ⟨⟩))
      ⊢ wp frame (wpE (defs₀ (F := F)) Variants.none c none) E (cc2__final_kernel i arg2 harg2 arg3 harg3 arg4 harg4 arg5 harg5 arg6 harg6 arg7 harg7 arg8 harg8 arg9 harg9) K := by
  simp only [cc2__final_kernel_eq_skeleton]; unfold cc2__final_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (outBlock_cover _ _)

end Cert.Kernel.Final

end
-- ==== Proof.Bits.FinalRegion.lean ====
/-
  The last call as a pipeline: the proof data of its thirty-two points and the body obligation.  Every input block is
  in its staging buffer when the body is called; the body leaves the inputs in place and the output buffer at the
  point's block (both halves stored); the region invariant is the untouched scoped rest beside the generator register.
-/
import proofs.«149626_j38448547234132_2_alg».proof.Proof.Bits.FinalBody

set_option maxRecDepth 16384

noncomputable section

namespace Cert.Kernel.Final

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The proof data of the call on core `c`: the arrays as the call finds them; after the body at point `t` each
    input's buffer at its block and the output's at `outBlock` of the input blocks; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => outBlock (iblk V c 0 t) (iblk V c 1 t) (iblk V c 2 t) (iblk V c 3 t) (iblk V c 4 t) (iblk V c 5 t) (iblk V c 6 t)
  Φ _ := Pipeline.ΦA spec2 c
  q _ := fullShare
  owed _ := 0

theorem A_eq (c : Dev nD) (w : Fin cfg2.W) : (dat V c).A w = V c (Pipeline.arrRef spec2 w) := by
  dsimp only [dat]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = iblk V c 3 t := by dsimp only [dat]
theorem after_4 (c : Dev nD) (t : Fin cfg2.N) : (dat V c).after 4 t = iblk V c 4 t := by dsimp only [dat]
theorem after_5 (c : Dev nD) (t : Fin cfg2.N) : (dat V c).after 5 t = iblk V c 5 t := by dsimp only [dat]
theorem after_6 (c : Dev nD) (t : Fin cfg2.N) : (dat V c).after 6 t = iblk V c 6 t := by dsimp only [dat]
theorem after_7 (c : Dev nD) (t : Fin cfg2.N) :
    (dat V c).after 7 t = outBlock (iblk V c 0 t) (iblk V c 1 t) (iblk V c 2 t) (iblk V c 3 t) (iblk V c 4 t) (iblk V c 5 t) (iblk V c 6 t) := by dsimp only [dat]

theorem before_0 (c : Dev nD) (t : Fin cfg2.N) (d) : (dat V c).before 0 t d = iblk V c 0 t :=
  before_vca V (dat V c) (A_eq V c 0) (after_0 V c) t d
theorem before_1 (c : Dev nD) (t : Fin cfg2.N) (d) : (dat V c).before 1 t d = iblk V c 1 t :=
  before_attn V (dat V c) (A_eq V c 1) (after_1 V c) t d
theorem before_2 (c : Dev nD) (t : Fin cfg2.N) (d) : (dat V c).before 2 t d = iblk V c 2 t :=
  before_xsa V (dat V c) (A_eq V c 2) (after_2 V c) t d
theorem before_3 (c : Dev nD) (t : Fin cfg2.N) (d) : (dat V c).before 3 t d = iblk V c 3 t :=
  before_wo1 V (dat V c) (A_eq V c 3) (after_3 V c) t d
theorem before_4 (c : Dev nD) (t : Fin cfg2.N) (d) : (dat V c).before 4 t d = iblk V c 4 t :=
  before_bo1 V (dat V c) (A_eq V c 4) (after_4 V c) t d
theorem before_5 (c : Dev nD) (t : Fin cfg2.N) (d) : (dat V c).before 5 t d = iblk V c 5 t :=
  before_wo2 V (dat V c) (A_eq V c 5) (after_5 V c) t d
theorem before_6 (c : Dev nD) (t : Fin cfg2.N) (d) : (dat V c).before 6 t d = iblk V c 6 t :=
  before_bo2 V (dat V c) (A_eq V c 6) (after_6 V c) t d

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d))
    ∗ (∃ d, owns (c : Thread nD τ) (st2_6 t) fullShare ((dat V c).before 6 t d))
    ∗ (∃ d, owns (c : Thread nD τ) (st2_7 t) fullShare ((dat V c).before 7 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t)
    ∗ owns (c : Thread nD τ) (st2_6 t) fullShare ((dat V c).after 6 t)
    ∗ owns (c : Thread nD τ) (st2_7 t) fullShare ((dat V c).after 7 t))

/-- The body at any point: the inputs' memrefs hold their blocks, so the body's triple applies; the invariant and
    the core's dues pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3, before_4, before_5, before_6]
  rw [show (dat V c).Φ t.succ = (dat V c).Φ t.castSucc from rfl,
    show (dat V c).owesAt () t.succ = (dat V c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk V c 0 t) (iblk V c 1 t) (iblk V c 2 t) (iblk V c 3 t) (iblk V c 4 t) (iblk V c 5 t) (iblk V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dat (F := F) V c) (defs₀ (F := F)) Variants.none () Set.univ := fun t => by
  rw [bigSep_W2, bigSep_W2]
  exact sound_body V c t

end Cert.Kernel.Final

end
-- ==== Proof.Bits.WholeRun.lean ====
/-
  The whole program: two reshapes on the host, the first kernel call, the spatial-attention call, a transpose and three
  reshapes on the host, the last call.  The buffers' contents at each boundary are a fold from the launch memory: a
  host stretch applies its operations; a call leaves each of its arrays at what its write-backs add up to and every
  other buffer as it found it.  Each call is entered from "every unscoped buffer at the boundary's contents, the
  generator register at some state, nothing owed" and left in the same form, so the three calls and two host stretches
  chain.  From the run: no argument array is ever written (each is read back through the fold to the launch memory),
  and the result array holds what the last call's write-backs add up to.
-/
import proofs.«149626_j38448547234132_2_alg».proof.Proof.Bits.Pass1Ob
import proofs.«149626_j38448547234132_2_alg».proof.Proof.Bits.SpatialRegion
import proofs.«149626_j38448547234132_2_alg».proof.Proof.Bits.FinalRegion
import proofs.«149626_j38448547234132_2_alg».proof.Proof.Gen.Kernel.Regions
import Idealize.ShloMosaic.Lib.Pipeline.RegionsLoop
import Idealize.ShloMosaic.Lib.Pipeline.FrameSuffix

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev B0 : Dev nD → Valuation τ sig (Elt F) := fun c b => (s₀ m ρ).mem ((c : Dev nD), b)
/-- After the two bias reshapes (the first call's entry). -/
abbrev B1 : Dev nD → Valuation τ sig (Elt F) := fun c => StableHlo.after hostOps0 (B0 m ρ c)
abbrev E1 : (c : Dev nD) → (b : Ref sig .tc) → Buf (Elt F) ((c : Thread nD τ).loc b) := fun c b => B1 m ρ c b
/-- At call 0's exit: its arrays at what the pipeline leaves (the inputs as entered, each output's write-backs folded),
    every other buffer as entered. -/
def B2 (c : Dev nD) : Valuation τ sig (Elt F) :=
  Pipeline.withArrays spec0 c (B1 m ρ c) fun w => (Pass1.dat (E1 m ρ) c).arrAt w cfg0.N
theorem B2_arr (c : Dev nD) (w : Fin cfg0.W) :
    B2 m ρ c (Proc.devRef .tc (Pipeline.arrRef spec0 w)) = (Pass1.dat (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem hF0 (c : Dev nD) (w : Fin cfg0.W) : (Pass1.dat (E1 m ρ) c).arrAt w cfg0.N = E2 m ρ c (Pipeline.arrRef spec0 w) :=
  (B2_arr m ρ c w).symm
theorem hrest0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)

/-- At call 1's exit: its arrays at what the pipeline leaves (the inputs as entered, each output's write-backs folded),
    every other buffer as entered. -/
def B3 (c : Dev nD) : Valuation τ sig (Elt F) :=
  Pipeline.withArrays spec1 c (B2 m ρ c) fun w => (Spatial.dat (E2 m ρ) c).arrAt w cfg1.N
theorem B3_arr (c : Dev nD) (w : Fin cfg1.W) :
    B3 m ρ c (Proc.devRef .tc (Pipeline.arrRef spec1 w)) = (Spatial.dat (E2 m ρ) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m ρ c (Proc.devRef .tc b) = B2 m ρ c (Proc.devRef .tc b) := by
  unfold B3; exact Pipeline.withArrays_of_ne spec1 c _ _ b hb
abbrev E3 : (c : Dev nD) → (b : Ref sig .tc) → Buf (Elt F) ((c : Thread nD τ).loc b) := fun c b => B3 m ρ c b
theorem hF1 (c : Dev nD) (w : Fin cfg1.W) : (Spatial.dat (E2 m ρ) c).arrAt w cfg1.N = E3 m ρ c (Pipeline.arrRef spec1 w) :=
  (B3_arr m ρ c w).symm
theorem hrest1 (c : Dev nD) : ∀ b, b ∉ Finset.univ.image (Pipeline.arrRef spec1) → E3 m ρ c b = E2 m ρ c b :=
  fun b hb => B3_of_ne m ρ c b fun w e => hb (Finset.mem_image.mpr ⟨w, Finset.mem_univ _, e⟩)

/-- After the transpose and the three reshapes (the last call's entry). -/
abbrev B4 : Dev nD → Valuation τ sig (Elt F) := fun c => StableHlo.after hostOps2 (B3 m ρ c)
abbrev E4 : (c : Dev nD) → (b : Ref sig .tc) → Buf (Elt F) ((c : Thread nD τ).loc b) := fun c b => B4 m ρ c b
/-- At call 2's exit: its arrays at what the pipeline leaves (the inputs as entered, each output's write-backs folded),
    every other buffer as entered. -/
def B5 (c : Dev nD) : Valuation τ sig (Elt F) :=
  Pipeline.withArrays spec2 c (B4 m ρ c) fun w => (Final.dat (E4 m ρ) c).arrAt w cfg2.N
theorem B5_arr (c : Dev nD) (w : Fin cfg2.W) :
    B5 m ρ c (Proc.devRef .tc (Pipeline.arrRef spec2 w)) = (Final.dat (E4 m ρ) c).arrAt w cfg2.N := by
  unfold B5; exact Pipeline.withArrays_arr spec2 launch2.win.arr_inj c _ _ w
theorem B5_of_ne (c : Dev nD) (b : Ref sig .tc) (hb : ∀ w, Pipeline.arrRef spec2 w ≠ b) :
    B5 m ρ c (Proc.devRef .tc b) = B4 m ρ c (Proc.devRef .tc b) := by
  unfold B5; exact Pipeline.withArrays_of_ne spec2 c _ _ b hb
abbrev E5 : (c : Dev nD) → (b : Ref sig .tc) → Buf (Elt F) ((c : Thread nD τ).loc b) := fun c b => B5 m ρ c b
theorem hF2 (c : Dev nD) (w : Fin cfg2.W) : (Final.dat (E4 m ρ) c).arrAt w cfg2.N = E5 m ρ c (Pipeline.arrRef spec2 w) :=
  (B5_arr m ρ c w).symm
theorem hrest2 (c : Dev nD) : ∀ b, b ∉ Finset.univ.image (Pipeline.arrRef spec2) → E5 m ρ c b = E4 m ρ c b :=
  fun b hb => B5_of_ne m ρ c b fun w e => hb (Finset.mem_image.mpr ⟨w, Finset.mem_univ _, e⟩)

/-! ## No argument array is ever written -/

theorem B5_main_arg0 (c : Dev nD) : B5 m ρ c (Proc.devRef .tc main_arg0) = m ((c : Thread nD τ).loc main_arg0) :=
  calc B5 m ρ c (Proc.devRef .tc main_arg0)
    _ = B4 m ρ c (Proc.devRef .tc main_arg0) := B5_of_ne m ρ c main_arg0 (by decide)
    _ = B3 m ρ c (Proc.devRef .tc main_arg0) := StableHlo.after_of_writes_sub hostOps2 _ hostOps2_writes (by decide)
    _ = B2 m ρ c (Proc.devRef .tc main_arg0) := B3_of_ne m ρ c main_arg0 (by decide)
    _ = B1 m ρ c (Proc.devRef .tc main_arg0) := (B2_arr m ρ c 0).trans (((Pass1.dat (E1 m ρ) c).arrAt_in 0 rfl _).trans (Pass1.A_eq (E1 m ρ) c 0))
    _ = B0 m ρ c (Proc.devRef .tc main_arg0) := StableHlo.after_of_writes_sub hostOps0 _ hostOps0_writes (by decide)
    _ = m ((c : Thread nD τ).loc main_arg0) := rfl

theorem B5_main_arg1 (c : Dev nD) : B5 m ρ c (Proc.devRef .tc main_arg1) = m ((c : Thread nD τ).loc main_arg1) :=
  calc B5 m ρ c (Proc.devRef .tc main_arg1)
    _ = B4 m ρ c (Proc.devRef .tc main_arg1) := B5_of_ne m ρ c main_arg1 (by decide)
    _ = B3 m ρ c (Proc.devRef .tc main_arg1) := StableHlo.after_of_writes_sub hostOps2 _ hostOps2_writes (by decide)
    _ = B2 m ρ c (Proc.devRef .tc main_arg1) := B3_of_ne m ρ c main_arg1 (by decide)
    _ = B1 m ρ c (Proc.devRef .tc main_arg1) := (B2_arr m ρ c 1).trans (((Pass1.dat (E1 m ρ) c).arrAt_in 1 rfl _).trans (Pass1.A_eq (E1 m ρ) c 1))
    _ = B0 m ρ c (Proc.devRef .tc main_arg1) := StableHlo.after_of_writes_sub hostOps0 _ hostOps0_writes (by decide)
    _ = m ((c : Thread nD τ).loc main_arg1) := rfl

theorem B5_main_arg2 (c : Dev nD) : B5 m ρ c (Proc.devRef .tc main_arg2) = m ((c : Thread nD τ).loc main_arg2) :=
  calc B5 m ρ c (Proc.devRef .tc main_arg2)
    _ = B4 m ρ c (Proc.devRef .tc main_arg2) := B5_of_ne m ρ c main_arg2 (by decide)
    _ = B3 m ρ c (Proc.devRef .tc main_arg2) := StableHlo.after_of_writes_sub hostOps2 _ hostOps2_writes (by decide)
    _ = B2 m ρ c (Proc.devRef .tc main_arg2) := B3_of_ne m ρ c main_arg2 (by decide)
    _ = B1 m ρ c (Proc.devRef .tc main_arg2) := (B2_arr m ρ c 2).trans (((Pass1.dat (E1 m ρ) c).arrAt_in 2 rfl _).trans (Pass1.A_eq (E1 m ρ) c 2))
    _ = B0 m ρ c (Proc.devRef .tc main_arg2) := StableHlo.after_of_writes_sub hostOps0 _ hostOps0_writes (by decide)
    _ = m ((c : Thread nD τ).loc main_arg2) := rfl

theorem B5_main_arg3 (c : Dev nD) : B5 m ρ c (Proc.devRef .tc main_arg3) = m ((c : Thread nD τ).loc main_arg3) :=
  calc B5 m ρ c (Proc.devRef .tc main_arg3)
    _ = B4 m ρ c (Proc.devRef .tc main_arg3) := B5_of_ne m ρ c main_arg3 (by decide)
    _ = B3 m ρ c (Proc.devRef .tc main_arg3) := StableHlo.after_of_writes_sub hostOps2 _ hostOps2_writes (by decide)
    _ = B2 m ρ c (Proc.devRef .tc main_arg3) := B3_of_ne m ρ c main_arg3 (by decide)
    _ = B1 m ρ c (Proc.devRef .tc main_arg3) := B2_of_ne m ρ c main_arg3 (by decide)
    _ = B0 m ρ c (Proc.devRef .tc main_arg3) := StableHlo.after_of_writes_sub hostOps0 _ hostOps0_writes (by decide)
    _ = m ((c : Thread nD τ).loc main_arg3) := rfl

theorem B5_main_arg4 (c : Dev nD) : B5 m ρ c (Proc.devRef .tc main_arg4) = m ((c : Thread nD τ).loc main_arg4) :=
  calc B5 m ρ c (Proc.devRef .tc main_arg4)
    _ = B4 m ρ c (Proc.devRef .tc main_arg4) := B5_of_ne m ρ c main_arg4 (by decide)
    _ = B3 m ρ c (Proc.devRef .tc main_arg4) := StableHlo.after_of_writes_sub hostOps2 _ hostOps2_writes (by decide)
    _ = B2 m ρ c (Proc.devRef .tc main_arg4) := B3_of_ne m ρ c main_arg4 (by decide)
    _ = B1 m ρ c (Proc.devRef .tc main_arg4) := (B2_arr m ρ c 4).trans (((Pass1.dat (E1 m ρ) c).arrAt_in 4 rfl _).trans (Pass1.A_eq (E1 m ρ) c 4))
    _ = B0 m ρ c (Proc.devRef .tc main_arg4) := StableHlo.after_of_writes_sub hostOps0 _ hostOps0_writes (by decide)
    _ = m ((c : Thread nD τ).loc main_arg4) := rfl

theorem B5_main_arg5 (c : Dev nD) : B5 m ρ c (Proc.devRef .tc main_arg5) = m ((c : Thread nD τ).loc main_arg5) :=
  calc B5 m ρ c (Proc.devRef .tc main_arg5)
    _ = B4 m ρ c (Proc.devRef .tc main_arg5) := B5_of_ne m ρ c main_arg5 (by decide)
    _ = B3 m ρ c (Proc.devRef .tc main_arg5) := StableHlo.after_of_writes_sub hostOps2 _ hostOps2_writes (by decide)
    _ = B2 m ρ c (Proc.devRef .tc main_arg5) := B3_of_ne m ρ c main_arg5 (by decide)
    _ = B1 m ρ c (Proc.devRef .tc main_arg5) := B2_of_ne m ρ c main_arg5 (by decide)
    _ = B0 m ρ c (Proc.devRef .tc main_arg5) := StableHlo.after_of_writes_sub hostOps0 _ hostOps0_writes (by decide)
    _ = m ((c : Thread nD τ).loc main_arg5) := rfl

theorem B5_main_arg6 (c : Dev nD) : B5 m ρ c (Proc.devRef .tc main_arg6) = m ((c : Thread nD τ).loc main_arg6) :=
  calc B5 m ρ c (Proc.devRef .tc main_arg6)
    _ = B4 m ρ c (Proc.devRef .tc main_arg6) := (B5_arr m ρ c 3).trans (((Final.dat (E4 m ρ) c).arrAt_in 3 rfl _).trans (Final.A_eq (E4 m ρ) c 3))
    _ = B3 m ρ c (Proc.devRef .tc main_arg6) := StableHlo.after_of_writes_sub hostOps2 _ hostOps2_writes (by decide)
    _ = B2 m ρ c (Proc.devRef .tc main_arg6) := B3_of_ne m ρ c main_arg6 (by decide)
    _ = B1 m ρ c (Proc.devRef .tc main_arg6) := B2_of_ne m ρ c main_arg6 (by decide)
    _ = B0 m ρ c (Proc.devRef .tc main_arg6) := StableHlo.after_of_writes_sub hostOps0 _ hostOps0_writes (by decide)
    _ = m ((c : Thread nD τ).loc main_arg6) := rfl

theorem B5_main_arg7 (c : Dev nD) : B5 m ρ c (Proc.devRef .tc main_arg7) = m ((c : Thread nD τ).loc main_arg7) :=
  calc B5 m ρ c (Proc.devRef .tc main_arg7)
    _ = B4 m ρ c (Proc.devRef .tc main_arg7) := B5_of_ne m ρ c main_arg7 (by decide)
    _ = B3 m ρ c (Proc.devRef .tc main_arg7) := StableHlo.after_of_writes_sub hostOps2 _ hostOps2_writes (by decide)
    _ = B2 m ρ c (Proc.devRef .tc main_arg7) := B3_of_ne m ρ c main_arg7 (by decide)
    _ = B1 m ρ c (Proc.devRef .tc main_arg7) := B2_of_ne m ρ c main_arg7 (by decide)
    _ = B0 m ρ c (Proc.devRef .tc main_arg7) := StableHlo.after_of_writes_sub hostOps0 _ hostOps0_writes (by decide)
    _ = m ((c : Thread nD τ).loc main_arg7) := rfl

theorem B5_main_arg8 (c : Dev nD) : B5 m ρ c (Proc.devRef .tc main_arg8) = m ((c : Thread nD τ).loc main_arg8) :=
  calc B5 m ρ c (Proc.devRef .tc main_arg8)
    _ = B4 m ρ c (Proc.devRef .tc main_arg8) := (B5_arr m ρ c 5).trans (((Final.dat (E4 m ρ) c).arrAt_in 5 rfl _).trans (Final.A_eq (E4 m ρ) c 5))
    _ = B3 m ρ c (Proc.devRef .tc main_arg8) := StableHlo.after_of_writes_sub hostOps2 _ hostOps2_writes (by decide)
    _ = B2 m ρ c (Proc.devRef .tc main_arg8) := B3_of_ne m ρ c main_arg8 (by decide)
    _ = B1 m ρ c (Proc.devRef .tc main_arg8) := B2_of_ne m ρ c main_arg8 (by decide)
    _ = B0 m ρ c (Proc.devRef .tc main_arg8) := StableHlo.after_of_writes_sub hostOps0 _ hostOps0_writes (by decide)
    _ = m ((c : Thread nD τ).loc main_arg8) := rfl

theorem B5_main_arg9 (c : Dev nD) : B5 m ρ c (Proc.devRef .tc main_arg9) = m ((c : Thread nD τ).loc main_arg9) :=
  calc B5 m ρ c (Proc.devRef .tc main_arg9)
    _ = B4 m ρ c (Proc.devRef .tc main_arg9) := B5_of_ne m ρ c main_arg9 (by decide)
    _ = B3 m ρ c (Proc.devRef .tc main_arg9) := StableHlo.after_of_writes_sub hostOps2 _ hostOps2_writes (by decide)
    _ = B2 m ρ c (Proc.devRef .tc main_arg9) := B3_of_ne m ρ c main_arg9 (by decide)
    _ = B1 m ρ c (Proc.devRef .tc main_arg9) := B2_of_ne m ρ c main_arg9 (by decide)
    _ = B0 m ρ c (Proc.devRef .tc main_arg9) := StableHlo.after_of_writes_sub hostOps0 _ hostOps0_writes (by decide)
    _ = m ((c : Thread nD τ).loc main_arg9) := rfl

theorem B5_main_arg10 (c : Dev nD) : B5 m ρ c (Proc.devRef .tc main_arg10) = m ((c : Thread nD τ).loc main_arg10) :=
  calc B5 m ρ c (Proc.devRef .tc main_arg10)
    _ = B4 m ρ c (Proc.devRef .tc main_arg10) := B5_of_ne m ρ c main_arg10 (by decide)
    _ = B3 m ρ c (Proc.devRef .tc main_arg10) := StableHlo.after_of_writes_sub hostOps2 _ hostOps2_writes (by decide)
    _ = B2 m ρ c (Proc.devRef .tc main_arg10) := B3_of_ne m ρ c main_arg10 (by decide)
    _ = B1 m ρ c (Proc.devRef .tc main_arg10) := (B2_arr m ρ c 6).trans (((Pass1.dat (E1 m ρ) c).arrAt_in 6 rfl _).trans (Pass1.A_eq (E1 m ρ) c 6))
    _ = B0 m ρ c (Proc.devRef .tc main_arg10) := StableHlo.after_of_writes_sub hostOps0 _ hostOps0_writes (by decide)
    _ = m ((c : Thread nD τ).loc main_arg10) := rfl

theorem B5_main_arg11 (c : Dev nD) : B5 m ρ c (Proc.devRef .tc main_arg11) = m ((c : Thread nD τ).loc main_arg11) :=
  calc B5 m ρ c (Proc.devRef .tc main_arg11)
    _ = B4 m ρ c (Proc.devRef .tc main_arg11) := B5_of_ne m ρ c main_arg11 (by decide)
    _ = B3 m ρ c (Proc.devRef .tc main_arg11) := StableHlo.after_of_writes_sub hostOps2 _ hostOps2_writes (by decide)
    _ = B2 m ρ c (Proc.devRef .tc main_arg11) := (B3_arr m ρ c 3).trans (((Spatial.dat (E2 m ρ) c).arrAt_in 3 rfl _).trans (Spatial.A_eq (E2 m ρ) c 3))
    _ = B1 m ρ c (Proc.devRef .tc main_arg11) := B2_of_ne m ρ c main_arg11 (by decide)
    _ = B0 m ρ c (Proc.devRef .tc main_arg11) := StableHlo.after_of_writes_sub hostOps0 _ hostOps0_writes (by decide)
    _ = m ((c : Thread nD τ).loc main_arg11) := rfl

/-! ## The proof data family and the thread state -/

/-- Every call's proof data, each at its call's entry contents. -/
def pdats : (p : Fin 3) → (c : Dev nD) → Dat τ (Elt F) Unit ℕ (UR sig nD τ) ℕ (Pipeline.pin (pcfgs (F := F)) adm p) c
  | ⟨0, _⟩ => fun c => Pass1.dat (E1 m ρ) c
  | ⟨1, _⟩ => fun c => Spatial.dat (E2 m ρ) c
  | ⟨2, _⟩ => fun c => Final.dat (E4 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (B5 m ρ c) ∗ ∃ r, prngReg c r)

/-! ## The calls as segments -/

set_option backward.isDefEq.respectTransparency.types false in
/-- Call 0 over the thread state: entered with every unscoped buffer at `B1`, left with them at `B2`.  Its
    arrays are split out of the unscoped buffers and put back at what the pipeline leaves; the generator register
    goes into the invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Pass1.body_obligation (E1 m ρ) c).loose
  hwaits := Pipeline.hwaits_of_owed_zero _ _ _ _ L lv 0 fun _ _ => rfl
  pre c := iprop(StableHlo.held (c : Thread nD τ) (Pipeline.ucRefs τ sig) (B1 m ρ c) ∗ R c)
  post c := iprop(StableHlo.held (c : Thread nD τ) (Pipeline.ucRefs τ sig) (B2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none,
      show (pdats m ρ 0 c).Φ (Fin.last _) = (Pass1.dat (E1 m ρ) c).Φ (Fin.last cfg0.N) from rfl]
    have hout0 := Pass1.Phi_out (E1 m ρ) c
    iintro HPhi
    ihave HA := hout0 $$ HPhi
    unfold Pipeline.ΦA
    icases HA with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 over the thread state: entered with every unscoped buffer at `B2`, left with them at `B3`.  Its
    arrays are split out of the unscoped buffers and put back at what the pipeline leaves; the generator register
    goes into the invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Spatial.body_obligation (E2 m ρ) c).loose
  hwaits := Pipeline.hwaits_of_owed_zero _ _ _ _ L lv 1 fun _ _ => rfl
  pre c := iprop(StableHlo.held (c : Thread nD τ) (Pipeline.ucRefs τ sig) (B2 m ρ c) ∗ R c)
  post c := iprop(StableHlo.held (c : Thread nD τ) (Pipeline.ucRefs τ sig) (B3 m ρ c) ∗ R c)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E2 m ρ c) (E3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 over the thread state: entered with every unscoped buffer at `B4`, left with them at `B5`.  Its
    arrays are split out of the unscoped buffers and put back at what the pipeline leaves; the generator register
    goes into the invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Final.body_obligation (E4 m ρ) c).loose
  hwaits := Pipeline.hwaits_of_owed_zero _ _ _ _ L lv 2 fun _ _ => rfl
  pre c := iprop(StableHlo.held (c : Thread nD τ) (Pipeline.ucRefs τ sig) (B4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    rw [show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E4 m ρ c) (E5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs : List (Pipeline.Seg (pcfgs (F := F)) adm (pdats m ρ) () defs₀ 𝒱₀ L lv) :=
  [ .host (hseg hostOps0 hostOps0_sub hostOps0_fresh (B0 m ρ)),
    .region (reg0 m ρ),
    .region (reg1 m ρ),
    .host (hseg hostOps2 hostOps2_sub hostOps2_fresh (B3 m ρ)),
    .region (reg2 m ρ) ]
theorem main_run (c : Dev nD) : main (F := F) c = Pipeline.Seg.run (segs m ρ) := (main_chain c).trans (by chain_rfl)

set_option backward.isDefEq.respectTransparency.types false in
/-- Every weakly fair execution from `m` with zero counters terminates, faulting nowhere, with every unscoped buffer
    at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = B5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B5 m ρ c b)
    (hfin := fun c s' => by
      iintro ⟨⟨Hh, -⟩, HSI⟩
      unfold StableHlo.held
      imodintro
      iapply (pointsTo_read_all (Pipeline.ucRefs τ sig) (fun b => (((c : Thread nD τ)).1, b)) (B5 m ρ c) s')
      isplitl [Hh] <;> iassumption)
    (hQ := fun s h c => h c)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)
      ∧       r.2.mem ((c.tc : Thread nD τ).loc main_arg11) = m ((c.tc : Thread nD τ).loc main_arg11)) :=
  (θ_run defs _ _).mono (fun _ h c => ⟨(h c _ (mem_uc main_arg0 (by decide))).trans (B5_main_arg0 m ρ c),
    (h c _ (mem_uc main_arg1 (by decide))).trans (B5_main_arg1 m ρ c),
    (h c _ (mem_uc main_arg2 (by decide))).trans (B5_main_arg2 m ρ c),
    (h c _ (mem_uc main_arg3 (by decide))).trans (B5_main_arg3 m ρ c),
    (h c _ (mem_uc main_arg4 (by decide))).trans (B5_main_arg4 m ρ c),
    (h c _ (mem_uc main_arg5 (by decide))).trans (B5_main_arg5 m ρ c),
    (h c _ (mem_uc main_arg6 (by decide))).trans (B5_main_arg6 m ρ c),
    (h c _ (mem_uc main_arg7 (by decide))).trans (B5_main_arg7 m ρ c),
    (h c _ (mem_uc main_arg8 (by decide))).trans (B5_main_arg8 m ρ c),
    (h c _ (mem_uc main_arg9 (by decide))).trans (B5_main_arg9 m ρ c),
    (h c _ (mem_uc main_arg10 (by decide))).trans (B5_main_arg10 m ρ c),
    (h c _ (mem_uc main_arg11 (by decide))).trans (B5_main_arg11 m ρ c)⟩) (run m ρ)

/-- What the result array ends at: what the last call's write-backs add up to. -/
def result (c : Dev nD) : Buf (Elt F) ((c.tc : Thread nD τ).loc main_v8) := (Final.dat (E4 m ρ) c).arrAt 7 cfg2.N

/-- The run with the result named and the arguments unchanged. -/
theorem run_result : θ_run defs (onTc (τ := τ) (main (F := F))) ⟨m, fun _ => 0, ρ⟩ (fun r => ∀ c : Dev nD,
      r.2.mem ((c.tc : Thread nD τ).loc main_v8) = result m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(h c _ (mem_uc main_v8 (by decide))).trans (B5_arr m ρ c 7),
    (h c _ (mem_uc main_arg0 (by decide))).trans (B5_main_arg0 m ρ c),
    (h c _ (mem_uc main_arg1 (by decide))).trans (B5_main_arg1 m ρ c),
    (h c _ (mem_uc main_arg2 (by decide))).trans (B5_main_arg2 m ρ c),
    (h c _ (mem_uc main_arg3 (by decide))).trans (B5_main_arg3 m ρ c),
    (h c _ (mem_uc main_arg4 (by decide))).trans (B5_main_arg4 m ρ c),
    (h c _ (mem_uc main_arg5 (by decide))).trans (B5_main_arg5 m ρ c),
    (h c _ (mem_uc main_arg6 (by decide))).trans (B5_main_arg6 m ρ c),
    (h c _ (mem_uc main_arg7 (by decide))).trans (B5_main_arg7 m ρ c),
    (h c _ (mem_uc main_arg8 (by decide))).trans (B5_main_arg8 m ρ c),
    (h c _ (mem_uc main_arg9 (by decide))).trans (B5_main_arg9 m ρ c),
    (h c _ (mem_uc main_arg10 (by decide))).trans (B5_main_arg10 m ρ c),
    (h c _ (mem_uc main_arg11 (by decide))).trans (B5_main_arg11 m ρ c)⟩) (run m ρ)

end Cert.Kernel.Whole

end
-- ==== Proof.ValueSpec.lean ====
/-
  What the two programs compute, element by element over the extended reals, in the two arrangements they use.
  Shapes: 8 batches, 8192 tokens, 256 channels = 8 heads × 32; the projection W has 4 × 256 rows (q, k, v_ca, v_sa);
  64 low-rank token mixtures; outputs 128 + 128 channels.
  Common to both: the projection of a token onto a row, a softmax weight (maximum taken from −∞, shifted
  exponentials, their sum), the re-laying of the spatial branch (the [b, d, h, n] array read as [b, 8192, 256]).
  The kernel's arrangement (`k…`): sums over tokens are taken tile by tile (4 tiles of 2048), the RAW Gram matrix and
  squared row norms first, the factors 1 / max(‖·‖, eps) applied to the finished sums; 1/‖q‖ is folded into the key
  projection.  The reference's arrangement (`r…`): q and k are divided by max(‖·‖, eps) first, sums run over all 8192
  tokens at once.  Each kernel call's result is stated as a function of the ARRAYS it is entered with, so that the
  three calls compose.
-/
import Idealize.ShloMosaic.PureOps.Ideal
import Idealize.ShloMosaic.Lib.ValueIdx

noncomputable section

namespace Cert.Spec

open Idealize.ShloMosaic Idealize.ShloMosaic.ValueIdx

abbrev Arr1 (a : Nat) := (⟨1, ![a]⟩ : Shape).Idx → EReal
abbrev Arr2 (a b : Nat) := (⟨2, ![a, b]⟩ : Shape).Idx → EReal
abbrev Arr3 (a b c : Nat) := (⟨3, ![a, b, c]⟩ : Shape).Idx → EReal
abbrev Arr4 (a b c d : Nat) := (⟨4, ![a, b, c, d]⟩ : Shape).Idx → EReal

/-- An array from its entries by coordinates. -/
def of2 {a b : Nat} (f : Fin a → Fin b → EReal) : Arr2 a b := fun i => f ⟨(i 0).val, (i 0).isLt⟩ ⟨(i 1).val, (i 1).isLt⟩
def of3 {a b c : Nat} (f : Fin a → Fin b → Fin c → EReal) : Arr3 a b c :=
  fun i => f ⟨(i 0).val, (i 0).isLt⟩ ⟨(i 1).val, (i 1).isLt⟩ ⟨(i 2).val, (i 2).isLt⟩
def of4 {a b c d : Nat} (f : Fin a → Fin b → Fin c → Fin d → EReal) : Arr4 a b c d :=
  fun i => f ⟨(i 0).val, (i 0).isLt⟩ ⟨(i 1).val, (i 1).isLt⟩ ⟨(i 2).val, (i 2).isLt⟩ ⟨(i 3).val, (i 3).isLt⟩

theorem of2_apply {a b : Nat} (f : Fin a → Fin b → EReal) (p : Fin a) (q : Fin b) : of2 f (ix2 p q) = f p q := rfl
theorem of3_apply {a b c : Nat} (f : Fin a → Fin b → Fin c → EReal) (p : Fin a) (q : Fin b) (r : Fin c) :
    of3 f (ix3 p q r) = f p q r := rfl
theorem of4_apply {a b c d : Nat} (f : Fin a → Fin b → Fin c → Fin d → EReal) (p : Fin a) (q : Fin b) (r : Fin c) (s : Fin d) :
    of4 f (ix4 p q r s) = f p q r s := rfl

/-- The three float literals of the programs. -/
def eps : EReal := Ideal.ofBits .f32 0x2B8CBCCC#32
def one : EReal := Ideal.ofBits .f32 0x3F800000#32
def ninf : EReal := Ideal.ofBits .f32 0xFF800000#32

/-- The softmax weight of entry `k` in a finite family of scores. -/
def smax {ι : Type} [Fintype ι] (s : ι → EReal) (k : ι) : EReal :=
  Ideal.div (Ideal.exp (s k - (Finset.univ : Finset ι).fold max ninf s))
    (∑ l : ι, Ideal.exp (s l - (Finset.univ : Finset ι).fold max ninf s))

/-- Row `32 h + d` of part `part` of the projection matrix. -/
def row (part : Fin 4) (h : Fin 8) (d : Fin 32) : Fin 1024 := ⟨part.val * 256 + h.val * 32 + d.val, by omega⟩
/-- Token `n'` of tile `j`. -/
def tok (j : Fin 4) (n' : Fin 2048) : Fin 8192 := ⟨j.val * 2048 + n'.val, by omega⟩
/-- Channel `32 h + d`. -/
def chan (h : Fin 8) (d : Fin 32) : Fin 256 := ⟨h.val * 32 + d.val, by omega⟩

/-- The re-laying of the spatial branch: the [b, d, h, n] arrangement of a [b, h, d, n] array read row-major as
    [b, 8192, 256]. -/
def relay (f : Fin 8 → Fin 8 → Fin 32 → Fin 8192 → EReal) (b : Fin 8) (N : Fin 8192) (C : Fin 256) : EReal :=
  f b ⟨(N.val * 256 + C.val) / 8192 % 8, Nat.mod_lt _ (by decide)⟩ ⟨(N.val * 256 + C.val) / 65536, by omega⟩
    ⟨(N.val * 256 + C.val) % 8192, Nat.mod_lt _ (by decide)⟩

/-! ## The kernel's arrangement -/

section Kernel

/-- Call 0, from x and the projection matrix: a projected entry (factor order: matrix × token). -/
def kproj (W : Arr2 1024 256) (X : Arr3 8 8192 256) (part : Fin 4) (b : Fin 8) (h : Fin 8) (d : Fin 32) (n : Fin 8192) : EReal :=
  ∑ c : Fin 256, W (ix2 (row part h d) c) * X (ix3 b n c)

variable (W : Arr2 1024 256) (X : Arr3 8 8192 256)

/-- The raw Gram matrix, tile by tile. -/
def kgram (b : Fin 8) (h : Fin 8) (d e : Fin 32) : EReal :=
  ∑ j : Fin 4, ∑ n' : Fin 2048, kproj W X 0 b h d (tok j n') * kproj W X 1 b h e (tok j n')
/-- The squared row norm of part `part`, tile by tile. -/
def knsq (part : Fin 4) (b : Fin 8) (h : Fin 8) (d : Fin 32) : EReal :=
  ∑ j : Fin 4, ∑ n' : Fin 2048, kproj W X part b h d (tok j n') * kproj W X part b h d (tok j n')
/-- 1 / max(‖row‖, eps). -/
def kinv (part : Fin 4) (b : Fin 8) (h : Fin 8) (d : Fin 32) : EReal :=
  Ideal.div one (max (Ideal.sqrt (knsq W X part b h d)) eps)
/-- A low-rank projection of part `part` by the mixture matrix `M`, tile by tile. -/
def klow (part : Fin 4) (M : Arr2 64 8192) (b : Fin 8) (h : Fin 8) (d : Fin 32) (p : Fin 64) : EReal :=
  ∑ j : Fin 4, ∑ n' : Fin 2048, kproj W X part b h d (tok j n') * M (ix2 p (tok j n'))

/-- Call 0's five results. -/
def kq (b : Fin 8) (h : Fin 8) (d : Fin 32) (n : Fin 8192) : EReal := kproj W X 0 b h d n
def kvca (b : Fin 8) (h : Fin 8) (d : Fin 32) (n : Fin 8192) : EReal := kproj W X 2 b h d n
def klogit (t1 : Arr3 8 1 1) (b : Fin 8) (h : Fin 8) (d e : Fin 32) : EReal :=
  kgram W X b h d e * kinv W X 0 b h d * kinv W X 1 b h e * t1 (ix3 h 0 0)
def kattn (t1 : Arr3 8 1 1) (b : Fin 8) (h : Fin 8) (d e : Fin 32) : EReal :=
  smax (fun e' => klogit W X t1 b h d e') e
def kkps (WE : Arr2 64 8192) (bE : Arr3 1 1 64) (b : Fin 8) (h : Fin 8) (d : Fin 32) (p : Fin 64) : EReal :=
  (klow W X 1 WE b h d p + bE (ix3 0 0 p)) * kinv W X 0 b h d
def kvp (WF : Arr2 64 8192) (bF : Arr3 1 1 64) (b : Fin 8) (h : Fin 8) (d : Fin 32) (p : Fin 64) : EReal :=
  klow W X 3 WF b h d p + bF (ix3 0 0 p)

end Kernel

/-- Call 1, from the arrays it is entered with: a score, and the spatial-attention entry. -/
def kscore (Q : Arr4 8 8 32 8192) (KPS : Arr4 8 8 32 64) (t2 : Arr3 8 1 1) (b : Fin 8) (h : Fin 8) (n : Fin 8192) (p : Fin 64) : EReal :=
  (∑ d : Fin 32, Q (ix4 b h d n) * KPS (ix4 b h d p)) * t2 (ix3 h 0 0)
def kxsa (Q : Arr4 8 8 32 8192) (KPS VP : Arr4 8 8 32 64) (t2 : Arr3 8 1 1) (b : Fin 8) (h : Fin 8) (d : Fin 32) (n : Fin 8192) : EReal :=
  ∑ p : Fin 64, VP (ix4 b h d p) * smax (fun p' => kscore Q KPS t2 b h n p') p

/-- Call 2, from the arrays it is entered with: the channel-attention entry and the output entry. -/
def kxca (ATTN : Arr4 8 8 32 32) (VCA : Arr4 8 8 32 8192) (b : Fin 8) (h : Fin 8) (d : Fin 32) (n : Fin 8192) : EReal :=
  ∑ e : Fin 32, ATTN (ix4 b h d e) * VCA (ix4 b h e n)
def kout (VCA : Arr4 8 8 32 8192) (ATTN : Arr4 8 8 32 32) (XR : Arr3 8 8192 256) (Wo1 : Arr2 128 256) (bo1 : Arr2 1 128)
    (Wo2 : Arr2 128 256) (bo2 : Arr2 1 128) (b : Fin 8) (n : Fin 8192) (o : Fin 256) : EReal :=
  if ho : o.val < 128 then
    (∑ c : Fin 256, XR (ix3 b n c) * Wo1 (ix2 ⟨o.val, ho⟩ c)) + bo1 (ix2 0 ⟨o.val, ho⟩)
  else
    (∑ c : Fin 256, kxca ATTN VCA b ⟨c.val / 32, by omega⟩ ⟨c.val % 32, Nat.mod_lt _ (by decide)⟩ n
        * Wo2 (ix2 ⟨o.val - 128, by omega⟩ c)) + bo2 (ix2 0 ⟨o.val - 128, by omega⟩)

/-! ## The reference's arrangement -/

section Reference

variable (X : Arr3 8 8192 256) (W : Arr2 1024 256)

/-- A projected entry (factor order: token × matrix). -/
def rproj (part : Fin 4) (b : Fin 8) (h : Fin 8) (d : Fin 32) (n : Fin 8192) : EReal :=
  ∑ c : Fin 256, X (ix3 b n c) * W (ix2 (row part h d) c)
/-- max(‖row‖, eps) over all tokens. -/
def rnorm (part : Fin 4) (b : Fin 8) (h : Fin 8) (d : Fin 32) : EReal :=
  max (Ideal.sqrt (∑ n : Fin 8192, rproj X W part b h d n * rproj X W part b h d n)) eps
/-- A row-normalised entry. -/
def rn (part : Fin 4) (b : Fin 8) (h : Fin 8) (d : Fin 32) (n : Fin 8192) : EReal :=
  Ideal.div (rproj X W part b h d n) (rnorm X W part b h d)
def rlogit (t1 : Arr3 8 1 1) (b : Fin 8) (h : Fin 8) (d e : Fin 32) : EReal :=
  (∑ n : Fin 8192, rn X W 0 b h d n * rn X W 1 b h e n) * t1 (ix3 h 0 0)
def rattn (t1 : Arr3 8 1 1) (b : Fin 8) (h : Fin 8) (d e : Fin 32) : EReal :=
  smax (fun e' => rlogit X W t1 b h d e') e
def rxca (t1 : Arr3 8 1 1) (b : Fin 8) (h : Fin 8) (d : Fin 32) (n : Fin 8192) : EReal :=
  ∑ e : Fin 32, rattn X W t1 b h d e * rproj X W 2 b h e n
def rlow (part : Fin 4) (M : Arr2 64 8192) (bias : Arr1 64) (b : Fin 8) (h : Fin 8) (d : Fin 32) (p : Fin 64) : EReal :=
  (∑ n : Fin 8192, rproj X W part b h d n * M (ix2 p n)) + bias (ix1 p)
def rscore (WE : Arr2 64 8192) (bE : Arr1 64) (t2 : Arr3 8 1 1) (b : Fin 8) (h : Fin 8) (n : Fin 8192) (p : Fin 64) : EReal :=
  (∑ d : Fin 32, rn X W 0 b h d n * rlow X W 1 WE bE b h d p) * t2 (ix3 h 0 0)
/-- The spatial-attention entry, in the kernel's index order [b, h, d, n]. -/
def rxsa (WE : Arr2 64 8192) (bE : Arr1 64) (WF : Arr2 64 8192) (bF : Arr1 64) (t2 : Arr3 8 1 1)
    (b : Fin 8) (h : Fin 8) (d : Fin 32) (n : Fin 8192) : EReal :=
  ∑ p : Fin 64, smax (fun p' => rscore X W WE bE t2 b h n p') p * rlow X W 3 WF bF b h d p
def rout (WE : Arr2 64 8192) (bE : Arr1 64) (WF : Arr2 64 8192) (bF : Arr1 64) (Wo1 : Arr2 128 256) (bo1 : Arr1 128)
    (Wo2 : Arr2 128 256) (bo2 : Arr1 128) (t1 t2 : Arr3 8 1 1) (b : Fin 8) (n : Fin 8192) (o : Fin 256) : EReal :=
  if ho : o.val < 128 then
    (∑ c : Fin 256, relay (rxsa X W WE bE WF bF t2) b n c * Wo1 (ix2 ⟨o.val, ho⟩ c)) + bo1 (ix1 ⟨o.val, ho⟩)
  else
    (∑ c : Fin 256, rxca X W t1 b ⟨c.val / 32, by omega⟩ ⟨c.val % 32, Nat.mod_lt _ (by decide)⟩ n
        * Wo2 (ix2 ⟨o.val - 128, by omega⟩ c)) + bo2 (ix1 ⟨o.val - 128, by omega⟩)

end Reference

end Cert.Spec

end
-- ==== Proof.RefValueProj.lean ====
/-
  The reference's projections read at explicit coordinates: the four parts of the projected array, the two low-rank
  token mixtures with their biases, the two row norms and the two row-normalised parts.

  The projected array is a product [b, n, 1024] re-laid as [part, b, h, d, n]; an entry of part `p` is the sum over the
  256 channels of the token's entry times the entry of row `256 p + 32 h + d` of the projection matrix. The index
  arithmetic of each re-laying is linear over literal extents.
-/
import proofs.«149626_j38448547234132_2_alg».proof.Proof.RefRead
import proofs.«149626_j38448547234132_2_alg».proof.Proof.ValueSpec
import Idealize.ShloMosaic.Lib.ValueIdx
import Idealize.ShloMosaic.Lib.Pipeline.Value
import Idealize.ShloMosaic.PureOps.Ideal.Laws

set_option maxRecDepth 16384

noncomputable section

namespace Cert.ReferenceIdeal.RefValue

open Idealize.ShloMosaic Idealize.ShloMosaic.TcCoe Idealize.ShloMosaic.ValueIdx Idealize.SL.Sem
open Cert.ReferenceIdeal Cert Cert.ReferenceIdeal.ReadP Cert.ReferenceIdeal.Gen

variable (X : Spec.Arr3 8 8192 256) (W : Spec.Arr2 1024 256)

/-- The transposed projection array at (part, b, h, d, n). -/
theorem v2_at (p : Fin 4) (b h : Fin 8) (d : Fin 32) (n : Fin 8192) :
    val_main_v2 (F := Ideal) X W (ix5 p b h d n) = Spec.rproj X W p b h d n := by
  rw [val_main_v2_apply, val_main_v1_apply, val_main_v0_apply]
  unfold Spec.rproj
  refine Finset.sum_congr rfl fun c _ => ?_
  have hb := b.isLt; have hh := h.isLt; have hd := d.isLt; have hn := n.isLt; have hp := p.isLt
  refine congrArg₂ (· * ·) (congrArg X (funext fun a => Fin.ext ?_)) (congrArg W (funext fun a => Fin.ext ?_))
  · match a with
    | ⟨0, _⟩ => show ((((b.val * 8192 + n.val) * 4 + p.val) * 8 + h.val) * 32 + d.val) / 8388608 = b.val; omega
    | ⟨1, _⟩ => show ((((b.val * 8192 + n.val) * 4 + p.val) * 8 + h.val) * 32 + d.val) / 1024 % 8192 = n.val; omega
    | ⟨2, _⟩ => rfl
  · match a with
    | ⟨0, _⟩ => show ((((b.val * 8192 + n.val) * 4 + p.val) * 8 + h.val) * 32 + d.val) % 1024 = p.val * 256 + h.val * 32 + d.val; omega
    | ⟨1, _⟩ => rfl

theorem v4_at (b h : Fin 8) (d : Fin 32) (n : Fin 8192) :
    val_main_v4 (F := Ideal) X W (ix4 b h d n) = Spec.rproj X W 0 b h d n := by
  rw [val_main_v4_apply, val_main_v3_apply]
  refine (congrArg (val_main_v2 (F := Ideal) X W) (funext fun a => Fin.ext ?_)).trans (v2_at X W 0 b h d n)
  have hb := b.isLt; have hh := h.isLt; have hd := d.isLt; have hn := n.isLt
  match a with
  | ⟨0, _⟩ => rfl
  | ⟨1, _⟩ => show (((b.val * 8 + h.val) * 32 + d.val) * 8192 + n.val) / 2097152 % 8 = b.val; omega
  | ⟨2, _⟩ => show (((b.val * 8 + h.val) * 32 + d.val) * 8192 + n.val) / 262144 % 8 = h.val; omega
  | ⟨3, _⟩ => show (((b.val * 8 + h.val) * 32 + d.val) * 8192 + n.val) / 8192 % 32 = d.val; omega
  | ⟨4, _⟩ => show (((b.val * 8 + h.val) * 32 + d.val) * 8192 + n.val) % 8192 = n.val; omega

theorem v6_at (b h : Fin 8) (d : Fin 32) (n : Fin 8192) :
    val_main_v6 (F := Ideal) X W (ix4 b h d n) = Spec.rproj X W 1 b h d n := by
  rw [val_main_v6_apply, val_main_v5_apply]
  refine (congrArg (val_main_v2 (F := Ideal) X W) (funext fun a => Fin.ext ?_)).trans (v2_at X W 1 b h d n)
  have hb := b.isLt; have hh := h.isLt; have hd := d.isLt; have hn := n.isLt
  match a with
  | ⟨0, _⟩ => rfl
  | ⟨1, _⟩ => show (((b.val * 8 + h.val) * 32 + d.val) * 8192 + n.val) / 2097152 % 8 = b.val; omega
  | ⟨2, _⟩ => show (((b.val * 8 + h.val) * 32 + d.val) * 8192 + n.val) / 262144 % 8 = h.val; omega
  | ⟨3, _⟩ => show (((b.val * 8 + h.val) * 32 + d.val) * 8192 + n.val) / 8192 % 32 = d.val; omega
  | ⟨4, _⟩ => show (((b.val * 8 + h.val) * 32 + d.val) * 8192 + n.val) % 8192 = n.val; omega

theorem v8_at (b h : Fin 8) (d : Fin 32) (n : Fin 8192) :
    val_main_v8 (F := Ideal) X W (ix4 b h d n) = Spec.rproj X W 2 b h d n := by
  rw [val_main_v8_apply, val_main_v7_apply]
  refine (congrArg (val_main_v2 (F := Ideal) X W) (funext fun a => Fin.ext ?_)).trans (v2_at X W 2 b h d n)
  have hb := b.isLt; have hh := h.isLt; have hd := d.isLt; have hn := n.isLt
  match a with
  | ⟨0, _⟩ => rfl
  | ⟨1, _⟩ => show (((b.val * 8 + h.val) * 32 + d.val) * 8192 + n.val) / 2097152 % 8 = b.val; omega
  | ⟨2, _⟩ => show (((b.val * 8 + h.val) * 32 + d.val) * 8192 + n.val) / 262144 % 8 = h.val; omega
  | ⟨3, _⟩ => show (((b.val * 8 + h.val) * 32 + d.val) * 8192 + n.val) / 8192 % 32 = d.val; omega
  | ⟨4, _⟩ => show (((b.val * 8 + h.val) * 32 + d.val) * 8192 + n.val) % 8192 = n.val; omega

theorem v10_at (b h : Fin 8) (d : Fin 32) (n : Fin 8192) :
    val_main_v10 (F := Ideal) X W (ix4 b h d n) = Spec.rproj X W 3 b h d n := by
  rw [val_main_v10_apply, val_main_v9_apply]
  refine (congrArg (val_main_v2 (F := Ideal) X W) (funext fun a => Fin.ext ?_)).trans (v2_at X W 3 b h d n)
  have hb := b.isLt; have hh := h.isLt; have hd := d.isLt; have hn := n.isLt
  match a with
  | ⟨0, _⟩ => rfl
  | ⟨1, _⟩ => show (((b.val * 8 + h.val) * 32 + d.val) * 8192 + n.val) / 2097152 % 8 = b.val; omega
  | ⟨2, _⟩ => show (((b.val * 8 + h.val) * 32 + d.val) * 8192 + n.val) / 262144 % 8 = h.val; omega
  | ⟨3, _⟩ => show (((b.val * 8 + h.val) * 32 + d.val) * 8192 + n.val) / 8192 % 32 = d.val; omega
  | ⟨4, _⟩ => show (((b.val * 8 + h.val) * 32 + d.val) * 8192 + n.val) % 8192 = n.val; omega

theorem v14_at (WE : Spec.Arr2 64 8192) (bE : Spec.Arr1 64) (b h : Fin 8) (d : Fin 32) (p : Fin 64) :
    val_main_v14 (F := Ideal) X W WE bE (ix4 b h d p) = Spec.rlow X W 1 WE bE b h d p := by
  rw [val_main_v14_apply, val_main_v11_apply, val_main_v13_apply, val_main_v12_apply]
  simp only [Ideal.addf_def]
  unfold Spec.rlow
  refine congrArg₂ (· + ·) (Finset.sum_congr rfl fun n _ => ?_) (congrArg bE (funext fun a => Fin.ext ?_))
  · refine congrArg₂ (· * ·) ?_ (congrArg WE (funext fun a => Fin.ext ?_))
    · exact (congrArg (val_main_v6 (F := Ideal) X W) (funext fun a => Fin.ext (by
        match a with | ⟨0, _⟩ => rfl | ⟨1, _⟩ => rfl | ⟨2, _⟩ => rfl | ⟨3, _⟩ => rfl))).trans (v6_at X W b h d n)
    · match a with | ⟨0, _⟩ => rfl | ⟨1, _⟩ => rfl
  · match a with | ⟨0, _⟩ => rfl

theorem v18_at (WF : Spec.Arr2 64 8192) (bF : Spec.Arr1 64) (b h : Fin 8) (d : Fin 32) (p : Fin 64) :
    val_main_v18 (F := Ideal) X W WF bF (ix4 b h d p) = Spec.rlow X W 3 WF bF b h d p := by
  rw [val_main_v18_apply, val_main_v15_apply, val_main_v17_apply, val_main_v16_apply]
  simp only [Ideal.addf_def]
  unfold Spec.rlow
  refine congrArg₂ (· + ·) (Finset.sum_congr rfl fun n _ => ?_) (congrArg bF (funext fun a => Fin.ext ?_))
  · refine congrArg₂ (· * ·) ?_ (congrArg WF (funext fun a => Fin.ext ?_))
    · exact (congrArg (val_main_v10 (F := Ideal) X W) (funext fun a => Fin.ext (by
        match a with | ⟨0, _⟩ => rfl | ⟨1, _⟩ => rfl | ⟨2, _⟩ => rfl | ⟨3, _⟩ => rfl))).trans (v10_at X W b h d n)
    · match a with | ⟨0, _⟩ => rfl | ⟨1, _⟩ => rfl
  · match a with | ⟨0, _⟩ => rfl

theorem v24_at (b h : Fin 8) (d : Fin 32) (z : Fin 1) :
    val_main_v24 (F := Ideal) X W (ix4 b h d z) = Spec.rnorm X W 0 b h d := by
  rw [val_main_v24_apply, val_main_v22_apply, val_main_v21_apply, val_main_v20_apply, val_main_v23_apply,
    val_main_cst_0_apply, val_main_cst_apply]
  simp only [Ideal.maximumf_def, Ideal.hostUnary_sqrt_def, Ideal.ofBits_def, Ideal.ofBits_zero_f32, zero_add]
  unfold Spec.rnorm Spec.eps
  refine congrArg (fun s => max (Ideal.sqrt s) _) (Finset.sum_congr rfl fun n _ => ?_)
  rw [val_main_v19_apply, Ideal.mulf_def]
  have e : idx_main_v20 (idx_main_v21 (ix4 b h d z)) n = ix4 b h d n := funext fun a => Fin.ext (by
    match a with | ⟨0, _⟩ => rfl | ⟨1, _⟩ => rfl | ⟨2, _⟩ => rfl | ⟨3, _⟩ => rfl)
  rw [e, v4_at]

theorem v26_at (b h : Fin 8) (d : Fin 32) (n : Fin 8192) :
    val_main_v26 (F := Ideal) X W (ix4 b h d n) = Spec.rn X W 0 b h d n := by
  rw [val_main_v26_apply, val_main_v25_apply, Ideal.hostDivf_def, v4_at]
  have e : idx_main_v25 (ix4 b h d n) = ix4 b h d (0 : Fin 1) := funext fun a => Fin.ext (by
    match a with | ⟨0, _⟩ => rfl | ⟨1, _⟩ => rfl | ⟨2, _⟩ => rfl | ⟨3, _⟩ => rfl)
  rw [e, v24_at]
  rfl

theorem v32_at (b h : Fin 8) (d : Fin 32) (z : Fin 1) :
    val_main_v32 (F := Ideal) X W (ix4 b h d z) = Spec.rnorm X W 1 b h d := by
  rw [val_main_v32_apply, val_main_v30_apply, val_main_v29_apply, val_main_v28_apply, val_main_v31_apply,
    val_main_cst_2_apply, val_main_cst_1_apply]
  simp only [Ideal.maximumf_def, Ideal.hostUnary_sqrt_def, Ideal.ofBits_def, Ideal.ofBits_zero_f32, zero_add]
  unfold Spec.rnorm Spec.eps
  refine congrArg (fun s => max (Ideal.sqrt s) _) (Finset.sum_congr rfl fun n _ => ?_)
  rw [val_main_v27_apply, Ideal.mulf_def]
  have e : idx_main_v28 (idx_main_v29 (ix4 b h d z)) n = ix4 b h d n := funext fun a => Fin.ext (by
    match a with | ⟨0, _⟩ => rfl | ⟨1, _⟩ => rfl | ⟨2, _⟩ => rfl | ⟨3, _⟩ => rfl)
  rw [e, v6_at]

theorem v34_at (b h : Fin 8) (d : Fin 32) (n : Fin 8192) :
    val_main_v34 (F := Ideal) X W (ix4 b h d n) = Spec.rn X W 1 b h d n := by
  rw [val_main_v34_apply, val_main_v33_apply, Ideal.hostDivf_def, v6_at]
  have e : idx_main_v33 (ix4 b h d n) = ix4 b h d (0 : Fin 1) := funext fun a => Fin.ext (by
    match a with | ⟨0, _⟩ => rfl | ⟨1, _⟩ => rfl | ⟨2, _⟩ => rfl | ⟨3, _⟩ => rfl)
  rw [e, v32_at]
  rfl

end Cert.ReferenceIdeal.RefValue

end
-- ==== Proof.RefValueFold.lean ====
/-
  Two general facts the reference's two softmaxes use.

  A host maximum reduction over the last axis of a rank-4 array, at the exact extended reals, is at `(p, q, r)` the fold
  of `max` from the initial value over the entries `(p, q, r, k)` (`max` is commutative and associative, so the order
  of the fold is immaterial). And the maximum of a starting value with a fold of `max` started from that same value is
  the fold: the starting value is below it.
-/
import proofs.«149626_j38448547234132_2_alg».proof.Proof.ValueSpec
import Idealize.ShloMosaic.Lib.ValueIdx
import Idealize.ShloMosaic.Lib.Pipeline.Value
import Idealize.ShloMosaic.PureOps.Ideal.Laws

set_option maxRecDepth 16384

noncomputable section

namespace Cert.ReferenceIdeal.RefValue

open Idealize.ShloMosaic Idealize.ShloMosaic.ValueIdx
open Cert

/-- The host maximum over the last axis of a rank-4 array, read at `(p, q, r)`. -/
theorem host_max_last {a b c e : ℕ} (x : (⟨4, ![a, b, c, e]⟩ : Shape).Idx → EReal) (init : (⟨0, ![]⟩ : Shape).Idx → EReal)
    (h' : (⟨4, ![a, b, c, e]⟩ : Shape).ReducesTo [3] ⟨3, ![a, b, c]⟩)
    (h : (⟨4, ![a, b, c, e]⟩ : Shape).Reduces [3] ⟨3, ![a, b, c]⟩) (hu : 0 < (⟨0, ![]⟩ : Shape).numel)
    (p : Fin a) (q : Fin b) (r : Fin c) :
    Host.reduce (FloatOps.maximumf (F := Ideal) (φ := .f32)) x init h' hu (ix3 p q r)
      = (Finset.univ : Finset (Fin e)).fold max (init (Shape.Idx.first hu)) (fun k => x (ix4 p q r k)) := by
  refine (Host.reduce_eq_fold_single (FloatOps.maximumf (F := Ideal) (φ := .f32)) x init h' h hu (ix3 p q r)).trans ?_
  show (Finset.univ : Finset (Fin e)).fold max (init (Shape.Idx.first hu)) (fun k => x (h.lift (ix3 p q r) k)) = _
  refine congrArg (Finset.fold max _ · Finset.univ) (funext fun k => congrArg x (funext fun d => Fin.ext ?_))
  match d with
  | ⟨0, _⟩ => rfl
  | ⟨1, _⟩ => rfl
  | ⟨2, _⟩ => rfl
  | ⟨3, _⟩ => rfl

/-- A fold of `max` is at least its starting value. -/
theorem max_fold_start {ι : Type} (S : Finset ι) (s : ι → EReal) (a : EReal) :
    max a (S.fold max a s) = S.fold max a s :=
  max_eq_right ((Finset.le_fold_max a).mpr (Or.inl le_rfl))

end Cert.ReferenceIdeal.RefValue

end
-- ==== Proof.RefValueCa.lean ====
/-
  The reference's channel-attention branch read at explicit coordinates: the logits (the product of the two
  row-normalised parts over all tokens, times the head's temperature), their softmax over the last axis (maximum from
  the starting value −∞, shifted exponentials, their sum from zero), the attention applied to the third part of the
  projection, and the result re-laid as [b, n, 256].
-/
import proofs.«149626_j38448547234132_2_alg».proof.Proof.RefValueProj
import proofs.«149626_j38448547234132_2_alg».proof.Proof.RefValueFold
import proofs.«149626_j38448547234132_2_alg».proof.Proof.RefRead
import proofs.«149626_j38448547234132_2_alg».proof.Proof.ValueSpec
import Idealize.ShloMosaic.Lib.ValueIdx
import Idealize.ShloMosaic.Lib.Pipeline.Value
import Idealize.ShloMosaic.PureOps.Ideal.Laws

set_option maxRecDepth 16384

noncomputable section

namespace Cert.ReferenceIdeal.RefValue

open Idealize.ShloMosaic Idealize.ShloMosaic.TcCoe Idealize.ShloMosaic.ValueIdx Idealize.SL.Sem
open Cert.ReferenceIdeal Cert Cert.ReferenceIdeal.ReadP Cert.ReferenceIdeal.Gen

variable (X : Spec.Arr3 8 8192 256) (W : Spec.Arr2 1024 256) (t1 : Spec.Arr3 8 1 1)

/-- The logits. -/
theorem v38_at (b h : Fin 8) (d e : Fin 32) :
    val_main_v38 (F := Ideal) X W t1 (ix4 b h d e) = Spec.rlogit X W t1 b h d e := by
  rw [val_main_v38_apply, val_main_v35_apply, val_main_v37_apply, val_main_v36_apply, Ideal.mulf_def]
  unfold Spec.rlogit
  refine congrArg₂ (· * ·) (Finset.sum_congr rfl fun n _ => ?_) (congrArg t1 (funext fun a => Fin.ext ?_))
  · have el : lidx_main_v35 (ix4 b h d e) n = ix4 b h d n := funext fun a => Fin.ext (by match a with | ⟨0, _⟩ => rfl | ⟨1, _⟩ => rfl | ⟨2, _⟩ => rfl | ⟨3, _⟩ => rfl)
    have er : ridx_main_v35 (ix4 b h d e) n = ix4 b h e n := funext fun a => Fin.ext (by match a with | ⟨0, _⟩ => rfl | ⟨1, _⟩ => rfl | ⟨2, _⟩ => rfl | ⟨3, _⟩ => rfl)
    rw [el, er, v26_at, v34_at]
  · match a with | ⟨0, _⟩ => rfl | ⟨1, _⟩ => rfl | ⟨2, _⟩ => rfl

/-- The row maximum of the logits, taken from −∞. -/
theorem v41_at (b h : Fin 8) (d : Fin 32) :
    val_main_v41 (F := Ideal) X W t1 (ix3 b h d)
      = (Finset.univ : Finset (Fin 32)).fold max Spec.ninf (fun e => Spec.rlogit X W t1 b h d e) := by
  have h39 : val_main_v39 (F := Ideal) X W t1 (ix3 b h d)
      = (Finset.univ : Finset (Fin 32)).fold max Spec.ninf (fun e => Spec.rlogit X W t1 b h d e) := by
    unfold val_main_v39
    refine (host_max_last _ _ reducesTo_S8x8x32x32_S8x8x32_d3 (by decide) h_S_ b h d).trans ?_
    rw [val_main_cst_3_apply]
    exact congrArg (Finset.fold max _ · Finset.univ) (funext fun e => v38_at X W t1 b h d e)
  rw [val_main_v41_apply, val_main_v40_apply, val_main_cst_4_apply, h39]
  exact max_fold_start _ _ _

/-- The softmax weights. -/
theorem v49_at (b h : Fin 8) (d e : Fin 32) :
    val_main_v49 (F := Ideal) X W t1 (ix4 b h d e) = Spec.rattn X W t1 b h d e := by
  have hexp : ∀ e' : Fin 32, val_main_v45 (F := Ideal) X W t1 (ix4 b h d e')
      = Ideal.exp (Spec.rlogit X W t1 b h d e'
          - (Finset.univ : Finset (Fin 32)).fold max Spec.ninf (fun l => Spec.rlogit X W t1 b h d l)) := by
    intro e'
    rw [val_main_v45_apply, val_main_v44_apply, val_main_v43_apply, val_main_v42_apply, v38_at]
    have e1 : idx_main_v42 (idx_main_v43 (ix4 b h d e')) = ix3 b h d := funext fun a => Fin.ext (by match a with | ⟨0, _⟩ => rfl | ⟨1, _⟩ => rfl | ⟨2, _⟩ => rfl)
    rw [e1, v41_at]
    rfl
  have e2 : ∀ k : Fin 32, idx_main_v46 (idx_main_v47 (idx_main_v48 (ix4 b h d e))) k = ix4 b h d k :=
    fun k => funext fun a => Fin.ext (by match a with | ⟨0, _⟩ => rfl | ⟨1, _⟩ => rfl | ⟨2, _⟩ => rfl | ⟨3, _⟩ => rfl)
  rw [val_main_v49_apply, val_main_v48_apply, val_main_v47_apply, val_main_v46_apply, val_main_cst_5_apply, hexp]
  simp only [e2, hexp, Ideal.hostDivf_def, Ideal.ofBits_def, Ideal.ofBits_zero_f32, zero_add]
  rfl

/-- The attention applied to the third part of the projection. -/
theorem v50_at (b h : Fin 8) (d : Fin 32) (n : Fin 8192) :
    val_main_v50 (F := Ideal) X W t1 (ix4 b h d n) = Spec.rxca X W t1 b h d n := by
  rw [val_main_v50_apply]
  unfold Spec.rxca
  refine Finset.sum_congr rfl fun e _ => ?_
  have el : lidx_main_v50 (ix4 b h d n) e = ix4 b h d e := funext fun a => Fin.ext (by match a with | ⟨0, _⟩ => rfl | ⟨1, _⟩ => rfl | ⟨2, _⟩ => rfl | ⟨3, _⟩ => rfl)
  have er : ridx_main_v50 (ix4 b h d n) e = ix4 b h e n := funext fun a => Fin.ext (by match a with | ⟨0, _⟩ => rfl | ⟨1, _⟩ => rfl | ⟨2, _⟩ => rfl | ⟨3, _⟩ => rfl)
  rw [el, er, v49_at, v8_at]

/-- The branch re-laid as [b, n, 256]: channel `c` is head `c / 32`, entry `c % 32`. -/
theorem v52_at (b : Fin 8) (n : Fin 8192) (c : Fin 256) :
    val_main_v52 (F := Ideal) X W t1 (ix3 b n c)
      = Spec.rxca X W t1 b ⟨c.val / 32, by omega⟩ ⟨c.val % 32, Nat.mod_lt _ (by decide)⟩ n := by
  rw [val_main_v52_apply, val_main_v51_apply]
  refine (congrArg (val_main_v50 (F := Ideal) X W t1) (funext fun a => Fin.ext ?_)).trans (v50_at X W t1 b _ _ n)
  have hb := b.isLt; have hn := n.isLt; have hc := c.isLt
  match a with
  | ⟨0, _⟩ => show ((b.val * 8192 + n.val) * 256 + c.val) / 2097152 = b.val; omega
  | ⟨1, _⟩ => show ((b.val * 8192 + n.val) * 256 + c.val) / 32 % 8 = c.val / 32; omega
  | ⟨2, _⟩ => show ((b.val * 8192 + n.val) * 256 + c.val) % 32 = c.val % 32; omega
  | ⟨3, _⟩ => show ((b.val * 8192 + n.val) * 256 + c.val) / 256 % 8192 = n.val; omega

end Cert.ReferenceIdeal.RefValue

end
-- ==== Proof.RefValueSa.lean ====
/-
  The reference's spatial-attention branch read at explicit coordinates: the scores (the first row-normalised part
  against the low-rank key mixture over the 32 entries of a head, times the head's temperature), their softmax over
  the 64 mixtures (maximum from the starting value −∞, shifted exponentials, their sum from zero), the weights applied
  to the low-rank value mixture, and the result re-laid: the [b, h, n, d] array arranged [b, d, h, n] and read
  row-major as [b, 8192, 256].
-/
import proofs.«149626_j38448547234132_2_alg».proof.Proof.RefValueProj
import proofs.«149626_j38448547234132_2_alg».proof.Proof.RefValueFold
import proofs.«149626_j38448547234132_2_alg».proof.Proof.RefRead
import proofs.«149626_j38448547234132_2_alg».proof.Proof.ValueSpec
import Idealize.ShloMosaic.Lib.ValueIdx
import Idealize.ShloMosaic.Lib.Pipeline.Value
import Idealize.ShloMosaic.PureOps.Ideal.Laws

set_option maxRecDepth 16384

noncomputable section

namespace Cert.ReferenceIdeal.RefValue

open Idealize.ShloMosaic Idealize.ShloMosaic.TcCoe Idealize.ShloMosaic.ValueIdx Idealize.SL.Sem
open Cert.ReferenceIdeal Cert Cert.ReferenceIdeal.ReadP Cert.ReferenceIdeal.Gen

variable (X : Spec.Arr3 8 8192 256) (W : Spec.Arr2 1024 256) (WE : Spec.Arr2 64 8192) (bE : Spec.Arr1 64)
  (WF : Spec.Arr2 64 8192) (bF : Spec.Arr1 64) (t2 : Spec.Arr3 8 1 1)

/-- The scores. -/
theorem v56_at (b h : Fin 8) (n : Fin 8192) (p : Fin 64) :
    val_main_v56 (F := Ideal) X W WE bE t2 (ix4 b h n p) = Spec.rscore X W WE bE t2 b h n p := by
  rw [val_main_v56_apply, val_main_v53_apply, val_main_v55_apply, val_main_v54_apply, Ideal.mulf_def]
  unfold Spec.rscore
  refine congrArg₂ (· * ·) (Finset.sum_congr rfl fun d _ => ?_) (congrArg t2 (funext fun a => Fin.ext ?_))
  · have el : lidx_main_v53 (ix4 b h n p) d = ix4 b h d n := funext fun a => Fin.ext (by match a with | ⟨0, _⟩ => rfl | ⟨1, _⟩ => rfl | ⟨2, _⟩ => rfl | ⟨3, _⟩ => rfl)
    have er : ridx_main_v53 (ix4 b h n p) d = ix4 b h d p := funext fun a => Fin.ext (by match a with | ⟨0, _⟩ => rfl | ⟨1, _⟩ => rfl | ⟨2, _⟩ => rfl | ⟨3, _⟩ => rfl)
    rw [el, er, v26_at, v14_at]
  · match a with | ⟨0, _⟩ => rfl | ⟨1, _⟩ => rfl | ⟨2, _⟩ => rfl

/-- The row maximum of the scores, taken from −∞. -/
theorem v59_at (b h : Fin 8) (n : Fin 8192) :
    val_main_v59 (F := Ideal) X W WE bE t2 (ix3 b h n)
      = (Finset.univ : Finset (Fin 64)).fold max Spec.ninf (fun p => Spec.rscore X W WE bE t2 b h n p) := by
  have h57 : val_main_v57 (F := Ideal) X W WE bE t2 (ix3 b h n)
      = (Finset.univ : Finset (Fin 64)).fold max Spec.ninf (fun p => Spec.rscore X W WE bE t2 b h n p) := by
    unfold val_main_v57
    refine (host_max_last _ _ reducesTo_S8x8x8192x64_S8x8x8192_d3 (by decide) h_S_ b h n).trans ?_
    rw [val_main_cst_6_apply]
    exact congrArg (Finset.fold max _ · Finset.univ) (funext fun p => v56_at X W WE bE t2 b h n p)
  rw [val_main_v59_apply, val_main_v58_apply, val_main_cst_7_apply, h57]
  exact max_fold_start _ _ _

/-- The softmax weights. -/
theorem v67_at (b h : Fin 8) (n : Fin 8192) (p : Fin 64) :
    val_main_v67 (F := Ideal) X W WE bE t2 (ix4 b h n p)
      = Spec.smax (fun p' => Spec.rscore X W WE bE t2 b h n p') p := by
  have hexp : ∀ p' : Fin 64, val_main_v63 (F := Ideal) X W WE bE t2 (ix4 b h n p')
      = Ideal.exp (Spec.rscore X W WE bE t2 b h n p'
          - (Finset.univ : Finset (Fin 64)).fold max Spec.ninf (fun l => Spec.rscore X W WE bE t2 b h n l)) := by
    intro p'
    rw [val_main_v63_apply, val_main_v62_apply, val_main_v61_apply, val_main_v60_apply, v56_at]
    have e1 : idx_main_v60 (idx_main_v61 (ix4 b h n p')) = ix3 b h n := funext fun a => Fin.ext (by match a with | ⟨0, _⟩ => rfl | ⟨1, _⟩ => rfl | ⟨2, _⟩ => rfl)
    rw [e1, v59_at]
    rfl
  have e2 : ∀ k : Fin 64, idx_main_v64 (idx_main_v65 (idx_main_v66 (ix4 b h n p))) k = ix4 b h n k :=
    fun k => funext fun a => Fin.ext (by match a with | ⟨0, _⟩ => rfl | ⟨1, _⟩ => rfl | ⟨2, _⟩ => rfl | ⟨3, _⟩ => rfl)
  rw [val_main_v67_apply, val_main_v66_apply, val_main_v65_apply, val_main_v64_apply, val_main_cst_8_apply, hexp]
  simp only [e2, hexp, Ideal.hostDivf_def, Ideal.ofBits_def, Ideal.ofBits_zero_f32, zero_add]
  rfl

/-- The weights applied to the low-rank value mixture; the array's index order is [b, h, n, d]. -/
theorem v68_at (b h : Fin 8) (n : Fin 8192) (d : Fin 32) :
    val_main_v68 (F := Ideal) X W WE bE WF bF t2 (ix4 b h n d) = Spec.rxsa X W WE bE WF bF t2 b h d n := by
  rw [val_main_v68_apply]
  unfold Spec.rxsa
  refine Finset.sum_congr rfl fun p _ => ?_
  have el : lidx_main_v68 (ix4 b h n d) p = ix4 b h n p := funext fun a => Fin.ext (by match a with | ⟨0, _⟩ => rfl | ⟨1, _⟩ => rfl | ⟨2, _⟩ => rfl | ⟨3, _⟩ => rfl)
  have er : ridx_main_v68 (ix4 b h n d) p = ix4 b h d p := funext fun a => Fin.ext (by match a with | ⟨0, _⟩ => rfl | ⟨1, _⟩ => rfl | ⟨2, _⟩ => rfl | ⟨3, _⟩ => rfl)
  rw [el, er, v67_at, v18_at]

/-- The branch re-laid as [b, 8192, 256]. -/
theorem v70_at (b : Fin 8) (n : Fin 8192) (c : Fin 256) :
    val_main_v70 (F := Ideal) X W WE bE WF bF t2 (ix3 b n c) = Spec.relay (Spec.rxsa X W WE bE WF bF t2) b n c := by
  rw [val_main_v70_apply, val_main_v69_apply]
  unfold Spec.relay
  refine (congrArg (val_main_v68 (F := Ideal) X W WE bE WF bF t2) (funext fun a => Fin.ext ?_)).trans
    (v68_at X W WE bE WF bF t2 b _ _ _)
  have hb := b.isLt; have hn := n.isLt; have hc := c.isLt
  match a with
  | ⟨0, _⟩ => show ((b.val * 8192 + n.val) * 256 + c.val) / 2097152 = b.val; omega
  | ⟨1, _⟩ => show ((b.val * 8192 + n.val) * 256 + c.val) / 8192 % 8 = (n.val * 256 + c.val) / 8192 % 8; omega
  | ⟨2, _⟩ => show ((b.val * 8192 + n.val) * 256 + c.val) % 8192 = (n.val * 256 + c.val) % 8192; omega
  | ⟨3, _⟩ => show ((b.val * 8192 + n.val) * 256 + c.val) / 65536 % 32 = (n.val * 256 + c.val) / 65536; omega

end Cert.ReferenceIdeal.RefValue

end
-- ==== Proof.RefValue.lean ====
/-
  The reference's value: its result array is, entry by entry, the specification in the reference's own arrangement
  — the two halves of the last axis are the spatial branch's and the channel branch's output projections plus their
  biases, over the stages read in the modules before this one (projections, low-rank projections, row norms, the two
  softmaxes, the channel attention applied, the spatial attention re-laid).
-/
import proofs.«149626_j38448547234132_2_alg».proof.Proof.RefRun
import proofs.«149626_j38448547234132_2_alg».proof.Proof.RefRead
import proofs.«149626_j38448547234132_2_alg».proof.Proof.RefValueCa
import proofs.«149626_j38448547234132_2_alg».proof.Proof.RefValueSa
import proofs.«149626_j38448547234132_2_alg».proof.Proof.ValueSpec
import Idealize.ShloMosaic.Lib.ValueIdx
import Idealize.ShloMosaic.Lib.Pipeline.Value
import Idealize.ShloMosaic.PureOps.Ideal.Laws

/-
  The reference's value: its result array, element by element, is the specification's `rout`.

  The two branches (spatial attention re-laid, channel attention re-laid) each pass through an output projection with a
  bias, [b, n, 256] × [128, 256] → [b, n, 128]; the result joins the two along the last axis, so column `o` below 128
  comes from the first and column `o` from 128 on from the second at `o − 128`.
-/

set_option maxRecDepth 16384

noncomputable section

namespace Cert.ReferenceIdeal.RefValue

open Idealize.ShloMosaic Idealize.ShloMosaic.TcCoe Idealize.ShloMosaic.ValueIdx Idealize.SL.Sem
open Cert.ReferenceIdeal Cert Cert.ReferenceIdeal.ReadP Cert.ReferenceIdeal.Gen

section Stages

variable (X : Spec.Arr3 8 8192 256) (W : Spec.Arr2 1024 256) (WE : Spec.Arr2 64 8192) (bE : Spec.Arr1 64)
  (WF : Spec.Arr2 64 8192) (bF : Spec.Arr1 64) (Wo1 : Spec.Arr2 128 256) (bo1 : Spec.Arr1 128)
  (Wo2 : Spec.Arr2 128 256) (bo2 : Spec.Arr1 128) (t1 t2 : Spec.Arr3 8 1 1)

/-- The spatial branch's output projection with its bias. -/
theorem v74_at (b : Fin 8) (n : Fin 8192) (o : Fin 128) :
    val_main_v74 (F := Ideal) X W WE bE WF bF Wo1 bo1 t2 (ix3 b n o)
      = (∑ c : Fin 256, Spec.relay (Spec.rxsa X W WE bE WF bF t2) b n c * Wo1 (ix2 o c)) + bo1 (ix1 o) := by
  rw [val_main_v74_apply, val_main_v71_apply, val_main_v73_apply, val_main_v72_apply, Ideal.addf_def]
  refine congrArg₂ (· + ·) (Finset.sum_congr rfl fun c _ => ?_) (congrArg bo1 (funext fun a => Fin.ext ?_))
  · have el : lidx_main_v71 (ix3 b n o) c = ix3 b n c := funext fun a => Fin.ext (by match a with | ⟨0, _⟩ => rfl | ⟨1, _⟩ => rfl | ⟨2, _⟩ => rfl)
    have er : ridx_main_v71 (ix3 b n o) c = ix2 o c := funext fun a => Fin.ext (by match a with | ⟨0, _⟩ => rfl | ⟨1, _⟩ => rfl)
    rw [el, er, v70_at]
  · match a with | ⟨0, _⟩ => rfl

/-- The channel branch's output projection with its bias. -/
theorem v78_at (b : Fin 8) (n : Fin 8192) (o : Fin 128) :
    val_main_v78 (F := Ideal) X W Wo2 bo2 t1 (ix3 b n o)
      = (∑ c : Fin 256, Spec.rxca X W t1 b ⟨c.val / 32, by omega⟩ ⟨c.val % 32, Nat.mod_lt _ (by decide)⟩ n
          * Wo2 (ix2 o c)) + bo2 (ix1 o) := by
  rw [val_main_v78_apply, val_main_v75_apply, val_main_v77_apply, val_main_v76_apply, Ideal.addf_def]
  refine congrArg₂ (· + ·) (Finset.sum_congr rfl fun c _ => ?_) (congrArg bo2 (funext fun a => Fin.ext ?_))
  · have el : lidx_main_v75 (ix3 b n o) c = ix3 b n c := funext fun a => Fin.ext (by match a with | ⟨0, _⟩ => rfl | ⟨1, _⟩ => rfl | ⟨2, _⟩ => rfl)
    have er : ridx_main_v75 (ix3 b n o) c = ix2 o c := funext fun a => Fin.ext (by match a with | ⟨0, _⟩ => rfl | ⟨1, _⟩ => rfl)
    rw [el, er, v52_at]
  · match a with | ⟨0, _⟩ => rfl

/-- The joined result at `(b, n, o)`. -/
theorem out_at (b : Fin 8) (n : Fin 8192) (o : Fin 256) :
    val_main_v79 (F := Ideal) X W WE bE WF bF Wo1 bo1 Wo2 bo2 t1 t2 (ix3 b n o)
      = Spec.rout X W WE bE WF bF Wo1 bo1 Wo2 bo2 t1 t2 b n o := by
  unfold val_main_v79 Spec.rout
  by_cases ho : o.val < 128
  · rw [dif_pos ho]
    refine (concatenate_pair_apply_left _ _ _ concatenates_S8x8192x128_S8x8192x128_S8x8192x256_d2 (ix3 b n o) rfl
      (ix3 b n ⟨o.val, ho⟩) (fun a => ?_)).trans (v74_at X W WE bE WF bF Wo1 bo1 t2 b n ⟨o.val, ho⟩)
    match a with | ⟨0, _⟩ => rfl | ⟨1, _⟩ => rfl | ⟨2, _⟩ => rfl
  · rw [dif_neg ho]
    have ho' : 128 ≤ o.val := Nat.le_of_not_lt ho
    have ho2 : o.val - 128 < 128 := by have := o.isLt; omega
    refine (concatenate_pair_apply_right _ _ _ concatenates_S8x8192x128_S8x8192x128_S8x8192x256_d2 (ix3 b n o) rfl rfl
      (ix3 b n ⟨o.val - 128, ho2⟩) (fun a hne => ?_) ?_).trans (v78_at X W Wo2 bo2 t1 b n ⟨o.val - 128, ho2⟩)
    · match a with
      | ⟨0, _⟩ => rfl
      | ⟨1, _⟩ => rfl
      | ⟨2, _⟩ => exact absurd (Fin.ext rfl) hne
    · show (o.val - 128) + 128 = o.val
      omega

end Stages

/-- The reference's result, element by element, in the reference's own arrangement. -/
theorem ref_value (m : (ℓ : Loc nD τ sig) → Buf (Elt Ideal) ℓ) (c : Dev nD) :
    Cert.ReferenceIdeal.ValueP.res_main_v79 (F := Ideal) m c
      = Spec.of3 (Spec.rout (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) := by
  rw [val_main_v79_eq]
  funext i
  obtain ⟨b, n, o, rfl⟩ : ∃ (b : Fin 8) (n : Fin 8192) (o : Fin 256), i = ix3 b n o := ⟨i 0, i 1, i 2, eq_ix3 i⟩
  rw [Spec.of3_apply]
  exact out_at _ _ _ _ _ _ _ _ _ _ _ _ b n o

end Cert.ReferenceIdeal.RefValue

end
-- ==== Proof.HostValue.lean ====
/-
  What each kernel call is entered with, in terms of the arguments and the previous calls' results.  The first call
  sees the arguments and the two low-rank biases as [1,1,64] arrays; the second sees the first call's q, scaled key
  projection and value projection and the spatial temperature; the last sees the first call's v_ca and
  channel-attention arrays, the two output projections, their biases as [1,128] arrays, and the second call's array
  re-laid: its [b, d, h, n] transpose read row-major as [8, 8192, 256], which is entry (b, h, d, n) with
  flat = 256 N + C, d = flat / 65536, h = flat / 8192 mod 8, n = flat mod 8192.  Nothing between two calls writes an
  array that is not listed there.
-/
import proofs.«149626_j38448547234132_2_alg».proof.Proof.WholeRun
import proofs.«149626_j38448547234132_2_alg».proof.Proof.ValueSpec
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.HostValue

open Idealize.ShloMosaic Idealize.ShloMosaic.TcCoe Idealize.ShloMosaic.ValueIdx Idealize.SL.Sem
open Cert.KernelIdeal Cert.KernelIdeal.Gen Cert.KernelIdeal.Whole Cert

/-! ## Three re-layings read at an index -/

/-- A vector of `n` entries viewed `[1, 1, n]`: entry `(·, ·, p)` is entry `p`. -/
theorem vec_11n_apply {α : Type} {n : ℕ} (x : (⟨1, ![n]⟩ : Shape).Idx → α)
    (hs : (⟨1, ![n]⟩ : Shape).ShapeCasts ⟨3, ![1, 1, n]⟩) (i : (⟨3, ![1, 1, n]⟩ : Shape).Idx) :
    shapeCast ⟨3, ![1, 1, n]⟩ x hs i = x (ix1 ⟨(i 2).val, (i 2).isLt⟩) := by
  refine shapeCast_apply x hs i _ ?_
  rw [Shape.rowMajor_val_one, Shape.rowMajor_val_three]
  have h0 : (i 0).val < 1 := (i 0).isLt
  have h1 : (i 1).val < 1 := (i 1).isLt
  show (i 2).val = ((i 0).val * 1 + (i 1).val) * n + (i 2).val
  rw [show (i 0).val = 0 by omega, show (i 1).val = 0 by omega, Nat.zero_mul, Nat.zero_add]

/-- A vector of `n` entries viewed `[1, n]`: entry `(·, q)` is entry `q`. -/
theorem vec_1n_apply {α : Type} {n : ℕ} (x : (⟨1, ![n]⟩ : Shape).Idx → α)
    (hs : (⟨1, ![n]⟩ : Shape).ShapeCasts ⟨2, ![1, n]⟩) (i : (⟨2, ![1, n]⟩ : Shape).Idx) :
    shapeCast ⟨2, ![1, n]⟩ x hs i = x (ix1 ⟨(i 1).val, (i 1).isLt⟩) := by
  refine shapeCast_apply x hs i _ ?_
  rw [Shape.rowMajor_val_one, Shape.rowMajor_val_two]
  have h0 : (i 0).val < 1 := (i 0).isLt
  show (i 1).val = (i 0).val * n + (i 1).val
  rw [show (i 0).val = 0 by omega, Nat.zero_mul, Nat.zero_add]

/-- The `[b, h, d, n]` array with its two middle axes exchanged, read row-major as `[8, 8192, 256]`: entry `(b, N, C)` is
    entry `(b, h, d, n)` with `256 N + C = 65536 d + 8192 h + n`. -/
theorem relay_apply (X : Spec.Arr4 8 8 32 8192) (i : (⟨3, ![8, 8192, 256]⟩ : Shape).Idx) :
    shapeCast S8x8192x256 (transpose S8x32x8x8192 [0, 2, 1, 3] X transposes_S8x8x32x8192_S8x32x8x8192_0_2_1_3)
        shapeCasts_S8x32x8x8192_S8x8192x256 i
      = Spec.of3 (Spec.relay (fun b h d n => X (ix4 b h d n))) i := by
  have hb : (i 0).val < 8 := (i 0).isLt
  have hN : (i 1).val < 8192 := (i 1).isLt
  have hC : (i 2).val < 256 := (i 2).isLt
  refine (shapeCast_apply _ _ i
    (ix4 (⟨(i 0).val, hb⟩ : Fin 8) (⟨((i 1).val * 256 + (i 2).val) / 65536, by omega⟩ : Fin 32)
      (⟨((i 1).val * 256 + (i 2).val) / 8192 % 8, by omega⟩ : Fin 8)
      (⟨((i 1).val * 256 + (i 2).val) % 8192, by omega⟩ : Fin 8192)) ?_).trans ?_
  · rw [Shape.rowMajor_val_four, Shape.rowMajor_val_three]
    show (((i 0).val * 32 + ((i 1).val * 256 + (i 2).val) / 65536) * 8 + ((i 1).val * 256 + (i 2).val) / 8192 % 8) * 8192
        + ((i 1).val * 256 + (i 2).val) % 8192 = ((i 0).val * 8192 + (i 1).val) * 256 + (i 2).val
    omega
  · refine (transpose_apply _ X _ _
      (ix4 (⟨(i 0).val, hb⟩ : Fin 8) (⟨((i 1).val * 256 + (i 2).val) / 8192 % 8, by omega⟩ : Fin 8)
        (⟨((i 1).val * 256 + (i 2).val) / 65536, by omega⟩ : Fin 32)
        (⟨((i 1).val * 256 + (i 2).val) % 8192, by omega⟩ : Fin 8192)) ?_).trans ?_
    · intro a
      match a with
      | ⟨0, _⟩ => rfl
      | ⟨1, _⟩ => rfl
      | ⟨2, _⟩ => rfl
      | ⟨3, _⟩ => rfl
    · rfl

variable (m : (ℓ : Loc nD τ sig) → Buf (Elt Ideal) ℓ) (ρ : Dev nD → PrngReg) (c : Dev nD)

/-! ## The first call's entry: the arguments, and the two biases as [1,1,64] arrays -/

theorem E1_arg0 : E1 (F := Ideal) m ρ c main_arg0 = (m ((c.tc : Thread nD τ).loc main_arg0)) := (StableHlo.after_of_writes_sub hostOps0 _ hostOps0_writes (by decide)).trans rfl
theorem E1_arg1 : E1 (F := Ideal) m ρ c main_arg1 = (m ((c.tc : Thread nD τ).loc main_arg1)) := (StableHlo.after_of_writes_sub hostOps0 _ hostOps0_writes (by decide)).trans rfl
theorem E1_arg2 : E1 (F := Ideal) m ρ c main_arg2 = (m ((c.tc : Thread nD τ).loc main_arg2)) := (StableHlo.after_of_writes_sub hostOps0 _ hostOps0_writes (by decide)).trans rfl
theorem E1_arg4 : E1 (F := Ideal) m ρ c main_arg4 = (m ((c.tc : Thread nD τ).loc main_arg4)) := (StableHlo.after_of_writes_sub hostOps0 _ hostOps0_writes (by decide)).trans rfl
theorem E1_arg10 : E1 (F := Ideal) m ρ c main_arg10 = (m ((c.tc : Thread nD τ).loc main_arg10)) := (StableHlo.after_of_writes_sub hostOps0 _ hostOps0_writes (by decide)).trans rfl
theorem E1_v0 : (E1 (F := Ideal) m ρ c main_v0 : Spec.Arr3 1 1 64) = Spec.of3 (fun _ _ p => ((m ((c.tc : Thread nD τ).loc main_arg3)) : Spec.Arr1 64) (ix1 p)) := by
  show StableHlo.after hostOps0 _ (Proc.devRef .tc main_v0) = _
  after_results
  funext i
  exact vec_11n_apply (m ((c.tc : Thread nD τ).loc main_arg3)) shapeCasts_S64_S1x1x64 i
theorem E1_v1 : (E1 (F := Ideal) m ρ c main_v1 : Spec.Arr3 1 1 64) = Spec.of3 (fun _ _ p => ((m ((c.tc : Thread nD τ).loc main_arg5)) : Spec.Arr1 64) (ix1 p)) := by
  show StableHlo.after hostOps0 _ (Proc.devRef .tc main_v1) = _
  after_results
  funext i
  exact vec_11n_apply (m ((c.tc : Thread nD τ).loc main_arg5)) shapeCasts_S64_S1x1x64 i

/-! ## The second call's entry: three of the first call's results and the temperature -/

theorem E2_q : E2 (F := Ideal) m ρ c main_v2_0 = (Pass1.dat (E1 (F := Ideal) m ρ) c).arrAt 7 cfg0.N := B2_arr m ρ c 7
theorem E2_kps : E2 (F := Ideal) m ρ c main_v2_3 = (Pass1.dat (E1 (F := Ideal) m ρ) c).arrAt 10 cfg0.N := B2_arr m ρ c 10
theorem E2_vp : E2 (F := Ideal) m ρ c main_v2_4 = (Pass1.dat (E1 (F := Ideal) m ρ) c).arrAt 11 cfg0.N := B2_arr m ρ c 11
theorem E2_arg11 : E2 (F := Ideal) m ρ c main_arg11 = (m ((c.tc : Thread nD τ).loc main_arg11)) := (B2_of_ne m ρ c main_arg11 (by decide)).trans ((StableHlo.after_of_writes_sub hostOps0 _ hostOps0_writes (by decide)).trans rfl)

/-! ## The last call's entry -/

theorem E4_vca : E4 (F := Ideal) m ρ c main_v2_1 = (Pass1.dat (E1 (F := Ideal) m ρ) c).arrAt 8 cfg0.N := (StableHlo.after_of_writes_sub hostOps2 _ hostOps2_writes (by decide)).trans ((B3_of_ne m ρ c main_v2_1 (by decide)).trans (B2_arr m ρ c 8))
theorem E4_attn : E4 (F := Ideal) m ρ c main_v2_2 = (Pass1.dat (E1 (F := Ideal) m ρ) c).arrAt 9 cfg0.N := (StableHlo.after_of_writes_sub hostOps2 _ hostOps2_writes (by decide)).trans ((B3_of_ne m ρ c main_v2_2 (by decide)).trans (B2_arr m ρ c 9))
/-- The transpose (0,2,1,3) and the reshape to [8, 8192, 256] of the second call's result are its re-laying. -/
theorem E4_xr : (E4 (F := Ideal) m ρ c main_v5 : Spec.Arr3 8 8192 256)
    = Spec.of3 (Spec.relay (fun b h d n => ((Spatial.dat (E2 (F := Ideal) m ρ) c).arrAt 4 cfg1.N : Spec.Arr4 8 8 32 8192) (ix4 b h d n))) := by
  show StableHlo.after hostOps2 _ (Proc.devRef .tc main_v5) = _
  after_results
  have e : B3 (F := Ideal) m ρ c (Proc.devRef .tc main_v3) = (Spatial.dat (E2 (F := Ideal) m ρ) c).arrAt 4 cfg1.N :=
    B3_arr m ρ c 4
  funext i
  show shapeCast S8x8192x256 (transpose S8x32x8x8192 [0, 2, 1, 3] (B3 (F := Ideal) m ρ c (Proc.devRef .tc main_v3))
      transposes_S8x8x32x8192_S8x32x8x8192_0_2_1_3) shapeCasts_S8x32x8x8192_S8x8192x256 i = _
  rw [e]
  exact relay_apply _ i
theorem E4_arg6 : E4 (F := Ideal) m ρ c main_arg6 = (m ((c.tc : Thread nD τ).loc main_arg6)) := (StableHlo.after_of_writes_sub hostOps2 _ hostOps2_writes (by decide)).trans ((B3_of_ne m ρ c main_arg6 (by decide)).trans ((B2_of_ne m ρ c main_arg6 (by decide)).trans ((StableHlo.after_of_writes_sub hostOps0 _ hostOps0_writes (by decide)).trans rfl)))
theorem E4_arg8 : E4 (F := Ideal) m ρ c main_arg8 = (m ((c.tc : Thread nD τ).loc main_arg8)) := (StableHlo.after_of_writes_sub hostOps2 _ hostOps2_writes (by decide)).trans ((B3_of_ne m ρ c main_arg8 (by decide)).trans ((B2_of_ne m ρ c main_arg8 (by decide)).trans ((StableHlo.after_of_writes_sub hostOps0 _ hostOps0_writes (by decide)).trans rfl)))
theorem E4_v6 : (E4 (F := Ideal) m ρ c main_v6 : Spec.Arr2 1 128) = Spec.of2 (fun _ q => ((m ((c.tc : Thread nD τ).loc main_arg7)) : Spec.Arr1 128) (ix1 q)) := by
  show StableHlo.after hostOps2 _ (Proc.devRef .tc main_v6) = _
  after_results
  have e : B3 (F := Ideal) m ρ c (Proc.devRef .tc main_arg7) = m ((c.tc : Thread nD τ).loc main_arg7) :=
    (B3_of_ne m ρ c main_arg7 (by decide)).trans ((B2_of_ne m ρ c main_arg7 (by decide)).trans ((StableHlo.after_of_writes_sub hostOps0 _ hostOps0_writes (by decide)).trans rfl))
  funext i
  show shapeCast S1x128 (B3 (F := Ideal) m ρ c (Proc.devRef .tc main_arg7)) shapeCasts_S128_S1x128 i = _
  rw [e]
  exact vec_1n_apply _ _ i
theorem E4_v7 : (E4 (F := Ideal) m ρ c main_v7 : Spec.Arr2 1 128) = Spec.of2 (fun _ q => ((m ((c.tc : Thread nD τ).loc main_arg9)) : Spec.Arr1 128) (ix1 q)) := by
  show StableHlo.after hostOps2 _ (Proc.devRef .tc main_v7) = _
  after_results
  have e : B3 (F := Ideal) m ρ c (Proc.devRef .tc main_arg9) = m ((c.tc : Thread nD τ).loc main_arg9) :=
    (B3_of_ne m ρ c main_arg9 (by decide)).trans ((B2_of_ne m ρ c main_arg9 (by decide)).trans ((StableHlo.after_of_writes_sub hostOps0 _ hostOps0_writes (by decide)).trans rfl))
  funext i
  show shapeCast S1x128 (B3 (F := Ideal) m ρ c (Proc.devRef .tc main_arg9)) shapeCasts_S128_S1x128 i = _
  rw [e]
  exact vec_1n_apply _ _ i

end Cert.KernelIdeal.HostValue

end
-- ==== Proof.LibMatmulNT.lean ====
/-
  A matrix product against a transposed right factor, read at an index at the exact extended reals: a general lemma.

  With dimension numbers that contract axis 1 of an `[M, K]` left factor with axis 1 of an `[N, K]` right factor (no
  batch axes; the result `[M, N]`), and a zero accumulator, entry `(p, q)` of the product is the sum over `e` of
  `lhs (p, e) * rhs (q, e)`: row `p` of the left factor against row `q` of the right one.
-/
import Idealize.ShloMosaic.PureOps.Ideal
import Idealize.ShloMosaic.PureOps.Ideal.Laws
import Idealize.ShloMosaic.Lib.ValueIdx

noncomputable section

namespace Cert.LibMatmulNT

open Idealize.ShloMosaic Idealize.ShloMosaic.ValueIdx

variable {M N K : ℕ}

/-- The dimension numbers "rows against rows": contract axis 1 with axis 1, keep axis 0 of each factor, no batch. -/
abbrev dims (wf : DotDims.WF (⟨2, ![M, K]⟩ : Shape) (⟨2, ![N, K]⟩ : Shape) (⟨2, ![M, N]⟩ : Shape) [1] [1] [0] [0] [] []) :
    DotDims (⟨2, ![M, K]⟩ : Shape) (⟨2, ![N, K]⟩ : Shape) (⟨2, ![M, N]⟩ : Shape) where
  lhsContracting := [1]
  rhsContracting := [1]
  lhsNonContracting := [0]
  rhsNonContracting := [0]
  lhsBatch := []
  rhsBatch := []
  wf := wf

variable (wf : DotDims.WF (⟨2, ![M, K]⟩ : Shape) (⟨2, ![N, K]⟩ : Shape) (⟨2, ![M, N]⟩ : Shape) [1] [1] [0] [0] [] [])

/-- The left index keeps the result's row coordinate on its own row axis. -/
theorem lhsIdx_row (j : (⟨2, ![M, N]⟩ : Shape).Idx) (k : (dims wf).contr.Idx) :
    ((dims wf).lhsIdx j k 0).val = (j 0).val := by
  unfold DotDims.lhsIdx
  rw [dif_neg (show ¬(0 : Fin (⟨2, ![M, K]⟩ : Shape).rank) ∈ (dims wf).lhsBatch from List.not_mem_nil),
    dif_pos (show (0 : Fin (⟨2, ![M, K]⟩ : Shape).rank) ∈ (dims wf).lhsNonContracting from List.mem_singleton.mpr rfl)]
  rfl

/-- The right index puts the result's column coordinate on its own row axis. -/
theorem rhsIdx_row (j : (⟨2, ![M, N]⟩ : Shape).Idx) (k : (dims wf).contr.Idx) :
    ((dims wf).rhsIdx j k 0).val = (j 1).val := by
  unfold DotDims.rhsIdx
  rw [dif_neg (show ¬(0 : Fin (⟨2, ![N, K]⟩ : Shape).rank) ∈ (dims wf).rhsBatch from List.not_mem_nil),
    dif_pos (show (0 : Fin (⟨2, ![N, K]⟩ : Shape).rank) ∈ (dims wf).rhsNonContracting from List.mem_singleton.mpr rfl)]
  rfl

/-- The left index at result `(p, q)` and contraction position `e` is `(p, e)`. -/
theorem lhsIdx_eq (p : Fin M) (q : Fin N) (e : Fin K) :
    (dims wf).lhsIdx (ix2 p q) ((contrEquiv1 (dims wf) K rfl rfl).symm e) = ix2 p e := by
  have he := contrEquiv1_symm_val (dims wf) K rfl rfl e
  funext a
  apply Fin.ext
  match a with
  | ⟨0, _⟩ => exact lhsIdx_row wf _ _
  | ⟨1, _⟩ => exact ((dims wf).lhsIdx_val_of_single rfl _ _).trans he

/-- The right index at result `(p, q)` and contraction position `e` is `(q, e)`. -/
theorem rhsIdx_eq (p : Fin M) (q : Fin N) (e : Fin K) :
    (dims wf).rhsIdx (ix2 p q) ((contrEquiv1 (dims wf) K rfl rfl).symm e) = ix2 q e := by
  have he := contrEquiv1_symm_val (dims wf) K rfl rfl e
  funext a
  apply Fin.ext
  match a with
  | ⟨0, _⟩ => exact rhsIdx_row wf _ _
  | ⟨1, _⟩ => exact ((dims wf).rhsIdx_val_of_single rfl _ _).trans he

/-- Entry `(p, q)` of the product into a zero accumulator: row `p` of `lhs` against row `q` of `rhs`. -/
theorem matmul_zero_apply {φ₁ φ₂ : FTy} (prec : Option ContractPrecision)
    (lhs : FVec Ideal (⟨2, ![M, K]⟩ : Shape) φ₁) (rhs : FVec Ideal (⟨2, ![N, K]⟩ : Shape) φ₂) (p : Fin M) (q : Fin N) :
    FloatOps.matmul (dims wf) prec lhs rhs (constant (F := Ideal) (⟨2, ![M, N]⟩ : Shape) .f32 0x00000000#32) (ix2 p q)
      = ∑ e : Fin K, lhs (ix2 p e) * rhs (ix2 q e) := by
  rw [Ideal.matmul_constant_zero_apply, ← Equiv.sum_comp (contrEquiv1 (dims wf) K rfl rfl).symm]
  refine Finset.sum_congr rfl fun e _ => ?_
  rw [lhsIdx_eq wf p q e, rhsIdx_eq wf p q e]

end Cert.LibMatmulNT

end
-- ==== Proof.LibGroupsToRows.lean ====
/-
  Groups of rows flattened: a general layout lemma, the converse of the row-block cast. An `[a, b, d]` array viewed as
  the matrix `[n, d]` of its `n = a * b` rows keeps the row-major order, so row `p * b + q` of the matrix is row `q` of
  group `p`.
-/
import Idealize.ShloMosaic.Lib.Pipeline.Value
import Idealize.ShloMosaic.Lib.ValueIdx

namespace Cert.Layout

open Idealize.ShloMosaic Idealize.ShloMosaic.ValueIdx

/-- An `[a, b, d]` array viewed `[n, d]` (so `n = a * b`) reads, at row `p * b + q` and column `r`, the operand's entry
    `(p, q, r)`. -/
theorem shapeCast_groups_rows_apply {α : Type} {n a b d : ℕ} (x : (⟨3, ![a, b, d]⟩ : Shape).Idx → α)
    (h : (⟨3, ![a, b, d]⟩ : Shape).ShapeCasts ⟨2, ![n, d]⟩) (p : Fin a) (q : Fin b) (r : Fin d)
    (hpq : p.val * b + q.val < n) :
    shapeCast ⟨2, ![n, d]⟩ x h (ix2 ⟨p.val * b + q.val, hpq⟩ r) = x (ix3 p q r) := by
  refine shapeCast_apply x h _ _ ?_
  rw [Shape.rowMajor_val_two, Shape.rowMajor_val_three]
  rfl

end Cert.Layout
-- ==== Proof.FinalValuePay.lean ====
/-
  The two stored terms of the last call's body read at an index, at the exact extended reals.
  The spatial half: a block of 2048 tokens times the first output projection, plus its bias row.
  The channel half: per head, the attention weights times the v_ca block; the 8 × 32 head rows laid as 256 channel rows;
  that matrix (channels × tokens) contracted over its channel axis with the second output projection; plus its bias row.
-/
import proofs.«149626_j38448547234132_2_alg».proof.Proof.Gen.KernelIdeal.Skeleton
import proofs.«149626_j38448547234132_2_alg».proof.Proof.LibMatmulNT
import proofs.«149626_j38448547234132_2_alg».proof.Proof.LibGroupsToRows
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.FinalValue

open Idealize.ShloMosaic Idealize.ShloMosaic.ValueIdx
open Cert.KernelIdeal Cert.KernelIdeal.Gen Cert

/-- The spatial half's product: rows of the token block against rows of the projection. -/
theorem matmul_sa_apply (x : FVec Ideal S2048x256 .bf16) (w : FVec Ideal S128x256 .bf16) (n : Fin 2048) (o : Fin 128) :
    FloatOps.matmul dot_S2048x256_S128x256_S2048x128_1_1_0_0_n_n none x w (constant (F := Ideal) S2048x128 .f32 0x00000000#32) (ix2 n o)
      = ∑ c : Fin 256, x (ix2 n c) * w (ix2 o c) :=
  LibMatmulNT.matmul_zero_apply dot_S2048x256_S128x256_S2048x128_1_1_0_0_n_n_wf none x w n o

/-- The spatial half at token `n` of the block and output channel `o`. -/
theorem pay3_apply (xsa : Vec Ideal S1x2048x256 .bf16) (wo1 : Vec Ideal S128x256 .f32) (bo1 : Vec Ideal S1x128 .f32)
    (u : Fin 1) (n : Fin 2048) (o : Fin 128) :
    k2_pay3 xsa wo1 bo1 (ix3 u n o) = (∑ c : Fin 256, xsa (ix3 (0 : Fin 1) n c) * wo1 (ix2 o c)) + bo1 (ix2 (0 : Fin 1) o) := by
  unfold k2_pay3
  rw [shapeCast_ab_1ab_apply, addf_apply, shapeCast_self, broadcastTo_1b_ab_apply]
  refine congrArg (· + bo1 (ix2 (0 : Fin 1) o)) ((matmul_sa_apply _ _ n o).trans ?_)
  refine Finset.sum_congr rfl fun c _ => ?_
  rw [shapeCast_1ab_ab_apply, truncf_apply]

/-! ## The channel half's two products -/

theorem heads_lhs_0 (i : S8x32x2048.Idx) (q : dot_S8x32x32_S8x32x2048_S8x32x2048_2_1_1_2_0_0.contr.Idx) : (dot_S8x32x32_S8x32x2048_S8x32x2048_2_1_1_2_0_0.lhsIdx i q 0).val = (i 0).val := by
  unfold DotDims.lhsIdx
  rw [dif_pos (show (0 : Fin S8x32x32.rank) ∈ dot_S8x32x32_S8x32x2048_S8x32x2048_2_1_1_2_0_0.lhsBatch by decide)]
  rfl
theorem heads_lhs_1 (i : S8x32x2048.Idx) (q : dot_S8x32x32_S8x32x2048_S8x32x2048_2_1_1_2_0_0.contr.Idx) : (dot_S8x32x32_S8x32x2048_S8x32x2048_2_1_1_2_0_0.lhsIdx i q 1).val = (i 1).val := by
  unfold DotDims.lhsIdx
  rw [dif_neg (show ¬(1 : Fin S8x32x32.rank) ∈ dot_S8x32x32_S8x32x2048_S8x32x2048_2_1_1_2_0_0.lhsBatch by decide),
    dif_pos (show (1 : Fin S8x32x32.rank) ∈ dot_S8x32x32_S8x32x2048_S8x32x2048_2_1_1_2_0_0.lhsNonContracting by decide)]
  rfl
theorem heads_lhs_2 (i : S8x32x2048.Idx) (q : dot_S8x32x32_S8x32x2048_S8x32x2048_2_1_1_2_0_0.contr.Idx) : (dot_S8x32x32_S8x32x2048_S8x32x2048_2_1_1_2_0_0.lhsIdx i q 2).val = (q ⟨0, by decide⟩).val :=
  dot_S8x32x32_S8x32x2048_S8x32x2048_2_1_1_2_0_0.lhsIdx_val_of_single rfl i q
theorem heads_rhs_0 (i : S8x32x2048.Idx) (q : dot_S8x32x32_S8x32x2048_S8x32x2048_2_1_1_2_0_0.contr.Idx) : (dot_S8x32x32_S8x32x2048_S8x32x2048_2_1_1_2_0_0.rhsIdx i q 0).val = (i 0).val := by
  unfold DotDims.rhsIdx
  rw [dif_pos (show (0 : Fin S8x32x2048.rank) ∈ dot_S8x32x32_S8x32x2048_S8x32x2048_2_1_1_2_0_0.rhsBatch by decide)]
  rfl
theorem heads_rhs_1 (i : S8x32x2048.Idx) (q : dot_S8x32x32_S8x32x2048_S8x32x2048_2_1_1_2_0_0.contr.Idx) : (dot_S8x32x32_S8x32x2048_S8x32x2048_2_1_1_2_0_0.rhsIdx i q 1).val = (q ⟨0, by decide⟩).val :=
  dot_S8x32x32_S8x32x2048_S8x32x2048_2_1_1_2_0_0.rhsIdx_val_of_single rfl i q
theorem heads_rhs_2 (i : S8x32x2048.Idx) (q : dot_S8x32x32_S8x32x2048_S8x32x2048_2_1_1_2_0_0.contr.Idx) : (dot_S8x32x32_S8x32x2048_S8x32x2048_2_1_1_2_0_0.rhsIdx i q 2).val = (i 2).val := by
  unfold DotDims.rhsIdx
  rw [dif_neg (show ¬(2 : Fin S8x32x2048.rank) ∈ dot_S8x32x32_S8x32x2048_S8x32x2048_2_1_1_2_0_0.rhsBatch by decide),
    dif_pos (show (2 : Fin S8x32x2048.rank) ∈ dot_S8x32x32_S8x32x2048_S8x32x2048_2_1_1_2_0_0.rhsNonContracting by decide)]
  rfl

/-- The per-head product into a zero accumulator: entry `(h, d, n)` is row `d` of head `h`'s weights against column `n`
    of head `h`'s block. -/
theorem matmul_heads_apply (a : FVec Ideal S8x32x32 .bf16) (v : FVec Ideal S8x32x2048 .bf16) (h : Fin 8) (d : Fin 32) (n : Fin 2048) :
    FloatOps.matmul dot_S8x32x32_S8x32x2048_S8x32x2048_2_1_1_2_0_0 none a v (constant (F := Ideal) S8x32x2048 .f32 0x00000000#32) (ix3 h d n)
      = ∑ e : Fin 32, a (ix3 h d e) * v (ix3 h e n) := by
  rw [Ideal.matmul_constant_zero_apply, ← Equiv.sum_comp (contrEquiv1 dot_S8x32x32_S8x32x2048_S8x32x2048_2_1_1_2_0_0 32 rfl rfl).symm]
  refine Finset.sum_congr rfl fun e _ => ?_
  have he := contrEquiv1_symm_val dot_S8x32x32_S8x32x2048_S8x32x2048_2_1_1_2_0_0 32 rfl rfl e
  have el : dot_S8x32x32_S8x32x2048_S8x32x2048_2_1_1_2_0_0.lhsIdx (ix3 h d n) ((contrEquiv1 dot_S8x32x32_S8x32x2048_S8x32x2048_2_1_1_2_0_0 32 rfl rfl).symm e) = ix3 h d e := funext fun a => Fin.ext (by
    match a with
    | ⟨0, _⟩ => exact heads_lhs_0 _ _
    | ⟨1, _⟩ => exact heads_lhs_1 _ _
    | ⟨2, _⟩ => exact (heads_lhs_2 _ _).trans he)
  have er : dot_S8x32x32_S8x32x2048_S8x32x2048_2_1_1_2_0_0.rhsIdx (ix3 h d n) ((contrEquiv1 dot_S8x32x32_S8x32x2048_S8x32x2048_2_1_1_2_0_0 32 rfl rfl).symm e) = ix3 h e n := funext fun a => Fin.ext (by
    match a with
    | ⟨0, _⟩ => exact heads_rhs_0 _ _
    | ⟨1, _⟩ => exact (heads_rhs_1 _ _).trans he
    | ⟨2, _⟩ => exact heads_rhs_2 _ _)
  rw [el, er]

theorem proj_lhs_0 (i : S2048x128.Idx) (q : dot_S256x2048_S128x256_S2048x128_0_1_1_0_n_n.contr.Idx) : (dot_S256x2048_S128x256_S2048x128_0_1_1_0_n_n.lhsIdx i q 0).val = (q ⟨0, by decide⟩).val :=
  dot_S256x2048_S128x256_S2048x128_0_1_1_0_n_n.lhsIdx_val_of_single rfl i q
theorem proj_lhs_1 (i : S2048x128.Idx) (q : dot_S256x2048_S128x256_S2048x128_0_1_1_0_n_n.contr.Idx) : (dot_S256x2048_S128x256_S2048x128_0_1_1_0_n_n.lhsIdx i q 1).val = (i 0).val := by
  unfold DotDims.lhsIdx
  rw [dif_neg (show ¬(1 : Fin S256x2048.rank) ∈ dot_S256x2048_S128x256_S2048x128_0_1_1_0_n_n.lhsBatch by decide),
    dif_pos (show (1 : Fin S256x2048.rank) ∈ dot_S256x2048_S128x256_S2048x128_0_1_1_0_n_n.lhsNonContracting by decide)]
  rfl
theorem proj_rhs_0 (i : S2048x128.Idx) (q : dot_S256x2048_S128x256_S2048x128_0_1_1_0_n_n.contr.Idx) : (dot_S256x2048_S128x256_S2048x128_0_1_1_0_n_n.rhsIdx i q 0).val = (i 1).val := by
  unfold DotDims.rhsIdx
  rw [dif_neg (show ¬(0 : Fin S128x256.rank) ∈ dot_S256x2048_S128x256_S2048x128_0_1_1_0_n_n.rhsBatch by decide),
    dif_pos (show (0 : Fin S128x256.rank) ∈ dot_S256x2048_S128x256_S2048x128_0_1_1_0_n_n.rhsNonContracting by decide)]
  rfl
theorem proj_rhs_1 (i : S2048x128.Idx) (q : dot_S256x2048_S128x256_S2048x128_0_1_1_0_n_n.contr.Idx) : (dot_S256x2048_S128x256_S2048x128_0_1_1_0_n_n.rhsIdx i q 1).val = (q ⟨0, by decide⟩).val :=
  dot_S256x2048_S128x256_S2048x128_0_1_1_0_n_n.rhsIdx_val_of_single rfl i q

/-- The projection into a zero accumulator: entry `(n, o)` is column `n` of the left factor against row `o` of the
    right one. -/
theorem matmul_proj_apply (x : FVec Ideal S256x2048 .bf16) (w : FVec Ideal S128x256 .bf16) (n : Fin 2048) (o : Fin 128) :
    FloatOps.matmul dot_S256x2048_S128x256_S2048x128_0_1_1_0_n_n none x w (constant (F := Ideal) S2048x128 .f32 0x00000000#32) (ix2 n o)
      = ∑ c : Fin 256, x (ix2 c n) * w (ix2 o c) := by
  rw [Ideal.matmul_constant_zero_apply, ← Equiv.sum_comp (contrEquiv1 dot_S256x2048_S128x256_S2048x128_0_1_1_0_n_n 256 rfl rfl).symm]
  refine Finset.sum_congr rfl fun c _ => ?_
  have he := contrEquiv1_symm_val dot_S256x2048_S128x256_S2048x128_0_1_1_0_n_n 256 rfl rfl c
  have el : dot_S256x2048_S128x256_S2048x128_0_1_1_0_n_n.lhsIdx (ix2 n o) ((contrEquiv1 dot_S256x2048_S128x256_S2048x128_0_1_1_0_n_n 256 rfl rfl).symm c) = ix2 c n := funext fun a => Fin.ext (by
    match a with
    | ⟨0, _⟩ => exact (proj_lhs_0 _ _).trans he
    | ⟨1, _⟩ => exact proj_lhs_1 _ _)
  have er : dot_S256x2048_S128x256_S2048x128_0_1_1_0_n_n.rhsIdx (ix2 n o) ((contrEquiv1 dot_S256x2048_S128x256_S2048x128_0_1_1_0_n_n 256 rfl rfl).symm c) = ix2 o c := funext fun a => Fin.ext (by
    match a with
    | ⟨0, _⟩ => exact proj_rhs_0 _ _
    | ⟨1, _⟩ => exact (proj_rhs_1 _ _).trans he)
  rw [el, er]

/-- The channel half at token `n` of the block and output channel `o`. -/
theorem pay12_apply (attn : Vec Ideal S1x8x32x32 .f32) (vca : Vec Ideal S1x8x32x2048 .bf16) (wo2 : Vec Ideal S128x256 .f32)
    (bo2 : Vec Ideal S1x128 .f32) (u : Fin 1) (n : Fin 2048) (o : Fin 128) :
    k2_pay1 (k2_pay2 attn vca wo2 bo2) (ix3 u n o)
      = (∑ c : Fin 256, (∑ e : Fin 32, attn (ix4 (0 : Fin 1) (⟨c.val / 32, by omega⟩ : Fin 8) (⟨c.val % 32, Nat.mod_lt _ (by decide)⟩ : Fin 32) e)
            * vca (ix4 (0 : Fin 1) (⟨c.val / 32, by omega⟩ : Fin 8) e n)) * wo2 (ix2 o c)) + bo2 (ix2 (0 : Fin 1) o) := by
  unfold k2_pay1 k2_pay2
  rw [shapeCast_ab_1ab_apply, addf_apply, shapeCast_self, broadcastTo_1b_ab_apply]
  refine congrArg (· + bo2 (ix2 (0 : Fin 1) o)) ((matmul_proj_apply _ _ n o).trans ?_)
  refine Finset.sum_congr rfl fun c _ => ?_
  rw [truncf_apply, truncf_apply]
  refine congrArg (· * wo2 (ix2 o c)) ?_
  refine (shapeCast_apply _ shapeCasts_S8x32x2048_S256x2048 (ix2 c n)
    (ix3 (⟨c.val / 32, by omega⟩ : Fin 8) (⟨c.val % 32, Nat.mod_lt _ (by decide)⟩ : Fin 32) n) ?_).trans ?_
  · rw [Shape.rowMajor_val_three, Shape.rowMajor_val_two]
    show (c.val / 32 * 32 + c.val % 32) * 2048 + n.val = c.val * 2048 + n.val
    omega
  · refine (matmul_heads_apply _ _ _ _ n).trans ?_
    refine Finset.sum_congr rfl fun e _ => ?_
    rw [truncf_apply, shapeCast_1abc_abc_apply, shapeCast_1abc_abc_apply]

end Cert.KernelIdeal.FinalValue

end
-- ==== Proof.FinalValueBlock.lean ====
/-
  The output block a grid point writes, read at an index: the two half-width stores laid side by side. Columns 0–127
  are the spatial half, columns 128–255 the channel half, each as the sums its product and bias row give.
-/
import proofs.«149626_j38448547234132_2_alg».proof.Proof.FinalBody
import proofs.«149626_j38448547234132_2_alg».proof.Proof.FinalValuePay

set_option maxRecDepth 16384

noncomputable section

namespace Cert.KernelIdeal.FinalValue

open Idealize.ShloMosaic Idealize.ShloMosaic.ValueIdx
open Cert.KernelIdeal Cert.KernelIdeal.Gen Cert.KernelIdeal.Final Cert

theorem zeros4 : (![0, 0, 0, 0] : Fin 4 → Nat) = fun _ => 0 := funext fun a => by fin_cases a <;> rfl
theorem zeros3 : (![0, 0, 0] : Fin 3 → Nat) = fun _ => 0 := funext fun a => by fin_cases a <;> rfl
theorem zeros2 : (![0, 0] : Fin 2 → Nat) = fun _ => 0 := funext fun a => by fin_cases a <;> rfl

/-- The newest of a list of stores, made through a unit-stride rectangle, is what an index inside the rectangle reads:
    the store's payload at the index minus the offsets. -/
theorem canon_cons_unit_of_mem {s : Shape} {e : EltTy} {Val : EltTy → Type} [∀ e, Nonempty (Val e)] {off size : Fin s.rank → ℕ}
    (inb : ∀ a, off a + size a ≤ s.size a) (w : (Rect.unit off size inb).shape.Idx → Val e) (L : List (View.Piece Val s e))
    (y : s.Idx) (x : (Rect.unit off size inb).shape.Idx) (hx : ∀ a, (y a).val = off a + (x a).val) :
    View.canon ((⟨Rect.unit off size inb, w⟩ : View.Piece Val s e) :: L) y = w x := by
  have hy : (Rect.unit off size inb).emb x = y := funext fun a => Fin.ext (by
    show off a + 1 * (x a).val = (y a).val
    rw [hx a, Nat.one_mul])
  rw [← hy]
  exact View.canon_cons_emb _ w L x

/-- An index that misses the newest store's unit-stride rectangle on some axis reads what the earlier stores left. -/
theorem canon_cons_unit_of_not_mem {s : Shape} {e : EltTy} {Val : EltTy → Type} [∀ e, Nonempty (Val e)] {off size : Fin s.rank → ℕ}
    (inb : ∀ a, off a + size a ≤ s.size a) (w : (Rect.unit off size inb).shape.Idx → Val e) (L : List (View.Piece Val s e))
    (y : s.Idx) (a : Fin s.rank) (ha : (y a).val < off a ∨ off a + size a ≤ (y a).val) :
    View.canon ((⟨Rect.unit off size inb, w⟩ : View.Piece Val s e) :: L) y = View.canon L y := by
  refine View.canon_cons_of_not_mem _ L ?_
  show y ∉ (Rect.unit off size inb).set
  rw [Rect.mem_set_unit]
  intro hall
  have := hall a
  omega

/-- Entry `(n, o)` of the block a point writes, from its seven input blocks. -/
def blockFn (vca : Vec Ideal S1x8x32x2048 .bf16) (attn : Vec Ideal S1x8x32x32 .f32) (xsa : Vec Ideal S1x2048x256 .bf16)
    (wo1 : Vec Ideal S128x256 .f32) (bo1 : Vec Ideal S1x128 .f32) (wo2 : Vec Ideal S128x256 .f32) (bo2 : Vec Ideal S1x128 .f32)
    (n : Fin 2048) (o : Fin 256) : EReal :=
  if ho : o.val < 128 then
    (∑ c : Fin 256, xsa (ix3 (0 : Fin 1) n c) * wo1 (ix2 (⟨o.val, ho⟩ : Fin 128) c)) + bo1 (ix2 (0 : Fin 1) (⟨o.val, ho⟩ : Fin 128))
  else
    (∑ c : Fin 256, (∑ e : Fin 32, attn (ix4 (0 : Fin 1) (⟨c.val / 32, by omega⟩ : Fin 8) (⟨c.val % 32, Nat.mod_lt _ (by decide)⟩ : Fin 32) e)
        * vca (ix4 (0 : Fin 1) (⟨c.val / 32, by omega⟩ : Fin 8) e n)) * wo2 (ix2 (⟨o.val - 128, by omega⟩ : Fin 128) c))
      + bo2 (ix2 (0 : Fin 1) (⟨o.val - 128, by omega⟩ : Fin 128))

/-- The block a point writes, at token `n` and channel `o`. -/
theorem outBlock_apply (vca : Vec Ideal S1x8x32x2048 .bf16) (attn : Vec Ideal S1x8x32x32 .f32) (xsa : Vec Ideal S1x2048x256 .bf16)
    (wo1 : Vec Ideal S128x256 .f32) (bo1 : Vec Ideal S1x128 .f32) (wo2 : Vec Ideal S128x256 .f32) (bo2 : Vec Ideal S1x128 .f32)
    (u : Fin 1) (n : Fin 2048) (o : Fin 256) :
    outBlock vca attn xsa wo1 bo1 wo2 bo2 (ix3 u n o) = blockFn vca attn xsa wo1 bo1 wo2 bo2 n o := by
  unfold outBlock blockFn
  simp only [View.ld_unit_zero (S := S1x8x32x2048) zeros4, View.ld_unit_zero (S := S1x8x32x32) zeros4,
    View.ld_unit_zero (S := S1x2048x256) zeros3, View.ld_unit_zero (S := S128x256) zeros2, View.ld_unit_zero (S := S1x128) zeros2]
  by_cases ho : o.val < 128
  · rw [dif_pos ho]
    refine (canon_cons_unit_of_not_mem _ _ _ (ix3 u n o) (2 : Fin 3) (Or.inl (show o.val < 128 from ho))).trans ?_
    refine (canon_cons_unit_of_mem _ _ _ (ix3 u n o) (ix3 u n (⟨o.val, ho⟩ : Fin 128)) fun a => ?_).trans (pay3_apply xsa wo1 bo1 u n _)
    match a with
    | ⟨0, _⟩ => show u.val = 0 + u.val; omega
    | ⟨1, _⟩ => show n.val = 0 + n.val; omega
    | ⟨2, _⟩ => show o.val = 0 + o.val; omega
  · rw [dif_neg ho]
    refine (canon_cons_unit_of_mem _ _ _ (ix3 u n o) (ix3 u n (⟨o.val - 128, by omega⟩ : Fin 128)) fun a => ?_).trans
      (pay12_apply attn vca wo2 bo2 u n _)
    match a with
    | ⟨0, _⟩ => show u.val = 0 + u.val; omega
    | ⟨1, _⟩ => show n.val = 0 + n.val; omega
    | ⟨2, _⟩ => show o.val = 128 + (o.val - 128); omega

end Cert.KernelIdeal.FinalValue

end
-- ==== Proof.FinalValue.lean ====
/-
  The last kernel call's value: the [8, 8192, 256] array its write-backs add up to, as a function of the arrays the
  call is entered with.  Entry (b, n, o) is, for o < 128, the spatial half ∑_c XR(b,n,c)·Wo1(o,c) + bo1(o), and for
  o ≥ 128 the channel half ∑_c (∑_e ATTN(b,h,d,e)·VCA(b,h,e,n))·Wo2(o−128,c) + bo2(o−128) with c = 32h + d.
  The point covering token n of batch b is 4b + n / 2048; each input block is its array at block index × size +
  the coordinate inside the block; the point's two stored halves are the two sums above.
-/
import proofs.«149626_j38448547234132_2_alg».proof.Proof.FinalRegion
import proofs.«149626_j38448547234132_2_alg».proof.Proof.ValueSpec
import proofs.«149626_j38448547234132_2_alg».proof.Proof.FinalValueBlock
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.FinalValue

open Idealize.ShloMosaic Idealize.ShloMosaic.TcCoe Idealize.ShloMosaic.ValueIdx Idealize.SL.Sem
open Cert.KernelIdeal Cert.KernelIdeal.Gen Cert.KernelIdeal.Final Cert
open Idealize.ShloMosaic.Pipeline (Dat)

/-! ## A point's block from blocks that are pieces of the arrays -/

/-- If the seven input blocks of the point of batch `b` and tile `j` are the pieces of the arrays the windows name, the
    block the point writes is the piece of the output function at the tile's tokens. -/
theorem blockFn_eq (vca : Vec Ideal S1x8x32x2048 .bf16) (attn : Vec Ideal S1x8x32x32 .f32) (xsa : Vec Ideal S1x2048x256 .bf16)
    (wo1 : Vec Ideal S128x256 .f32) (bo1 : Vec Ideal S1x128 .f32) (wo2 : Vec Ideal S128x256 .f32) (bo2 : Vec Ideal S1x128 .f32)
    (VCA : Spec.Arr4 8 8 32 8192) (ATTN : Spec.Arr4 8 8 32 32) (XR : Spec.Arr3 8 8192 256) (Wo1 : Spec.Arr2 128 256)
    (Bo1 : Spec.Arr2 1 128) (Wo2 : Spec.Arr2 128 256) (Bo2 : Spec.Arr2 1 128) (b : Fin 8) (j : Fin 4)
    (hvca : ∀ (u : Fin 1) (h : Fin 8) (e : Fin 32) (n : Fin 2048), vca (ix4 u h e n) = VCA (ix4 b h e (Spec.tok j n)))
    (hattn : ∀ (u : Fin 1) (h : Fin 8) (d e : Fin 32), attn (ix4 u h d e) = ATTN (ix4 b h d e))
    (hxsa : ∀ (u : Fin 1) (n : Fin 2048) (c : Fin 256), xsa (ix3 u n c) = XR (ix3 b (Spec.tok j n) c))
    (hwo1 : ∀ (o : Fin 128) (c : Fin 256), wo1 (ix2 o c) = Wo1 (ix2 o c))
    (hbo1 : ∀ (u : Fin 1) (o : Fin 128), bo1 (ix2 u o) = Bo1 (ix2 u o))
    (hwo2 : ∀ (o : Fin 128) (c : Fin 256), wo2 (ix2 o c) = Wo2 (ix2 o c))
    (hbo2 : ∀ (u : Fin 1) (o : Fin 128), bo2 (ix2 u o) = Bo2 (ix2 u o))
    (n : Fin 2048) (o : Fin 256) :
    blockFn vca attn xsa wo1 bo1 wo2 bo2 n o = Spec.kout VCA ATTN XR Wo1 Bo1 Wo2 Bo2 b (Spec.tok j n) o := by
  unfold blockFn Spec.kout Spec.kxca
  by_cases ho : o.val < 128
  · rw [dif_pos ho, dif_pos ho, hbo1]
    refine congrArg (· + Bo1 (ix2 (0 : Fin 1) (⟨o.val, ho⟩ : Fin 128))) (Finset.sum_congr rfl fun c _ => ?_)
    rw [hxsa, hwo1]
  · rw [dif_neg ho, dif_neg ho, hbo2]
    refine congrArg (· + Bo2 (ix2 (0 : Fin 1) (⟨o.val - 128, by omega⟩ : Fin 128))) (Finset.sum_congr rfl fun c _ => ?_)
    rw [hwo2]
    refine congrArg (· * Wo2 (ix2 (⟨o.val - 128, by omega⟩ : Fin 128) c)) (Finset.sum_congr rfl fun e _ => ?_)
    rw [hattn, hvca]

/-! ## Blocks are pieces of the arrays -/

section Blocks

variable (V : (c : Dev nD) → (b : Ref sig .tc) → Buf (Elt Ideal) ((c : Thread nD τ).loc b))

theorem point_lt (t : Fin cfg2.N) : t.val < 32 := Nat.lt_of_lt_of_eq t.isLt N_2

/-- The batch of point `t`, -/
def batchOf (t : Fin cfg2.N) : Fin 8 := ⟨t.val / 4, by have := point_lt t; omega⟩
/-- and its tile of tokens. -/
def tileOf (t : Fin cfg2.N) : Fin 4 := ⟨t.val % 4, Nat.mod_lt _ (by decide)⟩

/-- The printed index maps over the grid: point `t` is batch `t / 4`, tile `t % 4`; the weights and biases are whole. -/
theorem idx_facts : ∀ t : Fin cfg2.N,
    (win2_0.index t (0 : Fin 4) = t.val / 4 ∧ win2_0.index t (1 : Fin 4) = 0 ∧ win2_0.index t (2 : Fin 4) = 0 ∧ win2_0.index t (3 : Fin 4) = t.val % 4)
    ∧ (win2_1.index t (0 : Fin 4) = t.val / 4 ∧ win2_1.index t (1 : Fin 4) = 0 ∧ win2_1.index t (2 : Fin 4) = 0 ∧ win2_1.index t (3 : Fin 4) = 0)
    ∧ (win2_2.index t (0 : Fin 3) = t.val / 4 ∧ win2_2.index t (1 : Fin 3) = t.val % 4 ∧ win2_2.index t (2 : Fin 3) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 3) = t.val / 4 ∧ win2_7.index t (1 : Fin 3) = t.val % 4 ∧ win2_7.index t (2 : Fin 3) = 0) :=
  (by decide +kernel : ∀ t : Fin grid2.N, _)

/-- The v_ca block of point `t` is the array at batch `t / 4` and the tile's tokens. -/
theorem iblk0_apply (c : Dev nD) (t : Fin cfg2.N) (u : Fin 1) (h : Fin 8) (e : Fin 32) (n : Fin 2048) :
    (iblk V c 0 t : Vec Ideal S1x8x32x2048 .bf16) (ix4 u h e n)
      = (V c main_v2_1 : S8x8x32x8192.Idx → EReal) (ix4 (batchOf t) h e (Spec.tok (tileOf t) n)) := by
  obtain ⟨⟨e0, e1, e2, e3⟩, -⟩ := idx_facts t
  unfold iblk
  rw [View.read_apply]
  show V c main_v2_1 _ = V c main_v2_1 _
  congr 1
  funext a
  apply Fin.ext
  match a with
  | ⟨0, _⟩ => show win2_0.index t (0 : Fin 4) * 1 + 1 * u.val = t.val / 4; rw [e0]; omega
  | ⟨1, _⟩ => show win2_0.index t (1 : Fin 4) * 8 + 1 * h.val = h.val; rw [e1]; omega
  | ⟨2, _⟩ => show win2_0.index t (2 : Fin 4) * 32 + 1 * e.val = e.val; rw [e2]; omega
  | ⟨3, _⟩ => show win2_0.index t (3 : Fin 4) * 2048 + 1 * n.val = t.val % 4 * 2048 + n.val; rw [e3]; omega

/-- The channel-attention block of point `t` is the array at batch `t / 4`. -/
theorem iblk1_apply (c : Dev nD) (t : Fin cfg2.N) (u : Fin 1) (h : Fin 8) (d e : Fin 32) :
    (iblk V c 1 t : Vec Ideal S1x8x32x32 .f32) (ix4 u h d e)
      = (V c main_v2_2 : S8x8x32x32.Idx → EReal) (ix4 (batchOf t) h d e) := by
  obtain ⟨-, ⟨e0, e1, e2, e3⟩, -⟩ := idx_facts t
  unfold iblk
  rw [View.read_apply]
  show V c main_v2_2 _ = V c main_v2_2 _
  congr 1
  funext a
  apply Fin.ext
  match a with
  | ⟨0, _⟩ => show win2_1.index t (0 : Fin 4) * 1 + 1 * u.val = t.val / 4; rw [e0]; omega
  | ⟨1, _⟩ => show win2_1.index t (1 : Fin 4) * 8 + 1 * h.val = h.val; rw [e1]; omega
  | ⟨2, _⟩ => show win2_1.index t (2 : Fin 4) * 32 + 1 * d.val = d.val; rw [e2]; omega
  | ⟨3, _⟩ => show win2_1.index t (3 : Fin 4) * 32 + 1 * e.val = e.val; rw [e3]; omega

/-- The spatial-attention block of point `t` is the array at batch `t / 4` and the tile's tokens. -/
theorem iblk2_apply (c : Dev nD) (t : Fin cfg2.N) (u : Fin 1) (n : Fin 2048) (k : Fin 256) :
    (iblk V c 2 t : Vec Ideal S1x2048x256 .bf16) (ix3 u n k)
      = (V c main_v5 : S8x8192x256.Idx → EReal) (ix3 (batchOf t) (Spec.tok (tileOf t) n) k) := by
  obtain ⟨-, -, ⟨e0, e1, e2⟩, -⟩ := idx_facts t
  unfold iblk
  rw [View.read_apply]
  show V c main_v5 _ = V c main_v5 _
  congr 1
  funext a
  apply Fin.ext
  match a with
  | ⟨0, _⟩ => show win2_2.index t (0 : Fin 3) * 1 + 1 * u.val = t.val / 4; rw [e0]; omega
  | ⟨1, _⟩ => show win2_2.index t (1 : Fin 3) * 2048 + 1 * n.val = t.val % 4 * 2048 + n.val; rw [e1]; omega
  | ⟨2, _⟩ => show win2_2.index t (2 : Fin 3) * 256 + 1 * k.val = k.val; rw [e2]; omega

/-- The first projection's block is the whole matrix at every point. -/
theorem iblk3_apply (c : Dev nD) (t : Fin cfg2.N) (o : Fin 128) (k : Fin 256) :
    (iblk V c 3 t : Vec Ideal S128x256 .f32) (ix2 o k) = (V c main_arg6 : S128x256.Idx → EReal) (ix2 o k) := by
  obtain ⟨-, -, -, ⟨e0, e1⟩, -⟩ := idx_facts t
  unfold iblk
  rw [View.read_apply]
  show V c main_arg6 _ = V c main_arg6 _
  congr 1
  funext a
  apply Fin.ext
  match a with
  | ⟨0, _⟩ => show win2_3.index t (0 : Fin 2) * 128 + 1 * o.val = o.val; rw [e0]; omega
  | ⟨1, _⟩ => show win2_3.index t (1 : Fin 2) * 256 + 1 * k.val = k.val; rw [e1]; omega

/-- Its bias row likewise. -/
theorem iblk4_apply (c : Dev nD) (t : Fin cfg2.N) (u : Fin 1) (o : Fin 128) :
    (iblk V c 4 t : Vec Ideal S1x128 .f32) (ix2 u o) = (V c main_v6 : S1x128.Idx → EReal) (ix2 u o) := by
  obtain ⟨-, -, -, -, ⟨e0, e1⟩, -⟩ := idx_facts t
  unfold iblk
  rw [View.read_apply]
  show V c main_v6 _ = V c main_v6 _
  congr 1
  funext a
  apply Fin.ext
  match a with
  | ⟨0, _⟩ => show win2_4.index t (0 : Fin 2) * 1 + 1 * u.val = u.val; rw [e0]; omega
  | ⟨1, _⟩ => show win2_4.index t (1 : Fin 2) * 128 + 1 * o.val = o.val; rw [e1]; omega

/-- The second projection's block is the whole matrix at every point. -/
theorem iblk5_apply (c : Dev nD) (t : Fin cfg2.N) (o : Fin 128) (k : Fin 256) :
    (iblk V c 5 t : Vec Ideal S128x256 .f32) (ix2 o k) = (V c main_arg8 : S128x256.Idx → EReal) (ix2 o k) := by
  obtain ⟨-, -, -, -, -, ⟨e0, e1⟩, -⟩ := idx_facts t
  unfold iblk
  rw [View.read_apply]
  show V c main_arg8 _ = V c main_arg8 _
  congr 1
  funext a
  apply Fin.ext
  match a with
  | ⟨0, _⟩ => show win2_5.index t (0 : Fin 2) * 128 + 1 * o.val = o.val; rw [e0]; omega
  | ⟨1, _⟩ => show win2_5.index t (1 : Fin 2) * 256 + 1 * k.val = k.val; rw [e1]; omega

/-- Its bias row likewise. -/
theorem iblk6_apply (c : Dev nD) (t : Fin cfg2.N) (u : Fin 1) (o : Fin 128) :
    (iblk V c 6 t : Vec Ideal S1x128 .f32) (ix2 u o) = (V c main_v7 : S1x128.Idx → EReal) (ix2 u o) := by
  obtain ⟨-, -, -, -, -, -, ⟨e0, e1⟩, -⟩ := idx_facts t
  unfold iblk
  rw [View.read_apply]
  show V c main_v7 _ = V c main_v7 _
  congr 1
  funext a
  apply Fin.ext
  match a with
  | ⟨0, _⟩ => show win2_6.index t (0 : Fin 2) * 1 + 1 * u.val = u.val; rw [e0]; omega
  | ⟨1, _⟩ => show win2_6.index t (1 : Fin 2) * 128 + 1 * o.val = o.val; rw [e1]; omega

/-! ## What a point writes back, and the cover -/

/-- The output function of the arrays the call is entered with. -/
abbrev outFn (c : Dev nD) : Spec.Arr3 8 8192 256 :=
  Spec.of3 (Spec.kout (V c main_v2_1) (V c main_v2_2) (V c main_v5) (V c main_arg6) (V c main_v6) (V c main_arg8) (V c main_v7))

/-- What point `t` writes back is its block of the output function. -/
theorem flushed_eq (c : Dev nD) (t : Fin cfg2.N) :
    (dat (F := Ideal) V c).flushed 7 t = ((cfg2.win 7).blk t).view.read (Elt Ideal) (outFn V c) := by
  show (cfg2.win 7).cut (grid2.coords t) ((dat (F := Ideal) V c).after 7 t) = _
  rw [after_7]
  refine funext fun (y : S1x2048x256.Idx) => ?_
  obtain ⟨u, n, o, rfl⟩ : ∃ (u : Fin 1) (n : Fin 2048) (o : Fin 256), y = ix3 u n o := ⟨y 0, y 1, y 2, eq_ix3 y⟩
  obtain ⟨-, -, -, -, -, -, -, ⟨e0, e1, e2⟩⟩ := idx_facts t
  show outBlock (iblk V c 0 t) (iblk V c 1 t) (iblk V c 2 t) (iblk V c 3 t) (iblk V c 4 t) (iblk V c 5 t) (iblk V c 6 t) (ix3 u n o)
    = outFn V c (((cfg2.win 7).blk t).view.emb (ix3 u n o))
  have hemb : ((cfg2.win 7).blk t).view.emb (ix3 u n o) = (ix3 (batchOf t) (Spec.tok (tileOf t) n) o : S8x8192x256.Idx) := by
    funext a
    apply Fin.ext
    match a with
    | ⟨0, _⟩ => show win2_7.index t (0 : Fin 3) * 1 + 1 * u.val = t.val / 4; rw [e0]; omega
    | ⟨1, _⟩ => show win2_7.index t (1 : Fin 3) * 2048 + 1 * n.val = t.val % 4 * 2048 + n.val; rw [e1]; omega
    | ⟨2, _⟩ => show win2_7.index t (2 : Fin 3) * 256 + 1 * o.val = o.val; rw [e2]; omega
  rw [hemb, outBlock_apply]
  show _ = Spec.kout _ _ _ _ _ _ _ (batchOf t) (Spec.tok (tileOf t) n) o
  exact blockFn_eq _ _ _ _ _ _ _ _ _ _ _ _ _ _ (batchOf t) (tileOf t)
    (fun u h e n => iblk0_apply V c t u h e n) (fun u h d e => iblk1_apply V c t u h d e) (fun u n k => iblk2_apply V c t u n k)
    (fun o k => iblk3_apply V c t o k) (fun u o => iblk4_apply V c t u o) (fun o k => iblk5_apply V c t o k)
    (fun u o => iblk6_apply V c t u o) n o

/-- An index of the array is in point `t`'s block iff each coordinate is in the block's range on its axis. -/
theorem mem_blk (t : Fin cfg2.N) (i : S8x8192x256.Idx) :
    i ∈ ((cfg2.win 7).blk t).view.set ↔ ∀ a : Fin 3, win2_7.index t a * S1x2048x256.size a ≤ (i a).val
      ∧ (i a).val < win2_7.index t a * S1x2048x256.size a + S1x2048x256.size a := by
  show i ∈ ((View.whole main_v8).slice (win2_7.rect t)).set ↔ _
  rw [View.set_slice_whole, Rect.mem_set_unit]
  exact Iff.rfl

/-- Every index of the output array is in some point's block: token `n` of batch `b` is written by point `4 b + n / 2048`. -/
theorem cover (i : S8x8192x256.Idx) : ∃ t : Fin cfg2.N, (cfg2.win 7).flush t = true ∧ i ∈ ((cfg2.win 7).blk t).view.set := by
  have h0 : (i 0).val < 8 := (i 0).isLt
  have h1 : (i 1).val < 8192 := (i 1).isLt
  have h2 : (i 2).val < 256 := (i 2).isLt
  have hN : cfg2.N = 32 := N_2
  obtain ⟨t, ht⟩ : ∃ t : Fin cfg2.N, t.val = 4 * (i 0).val + (i 1).val / 2048 := ⟨⟨_, by rw [hN]; omega⟩, rfl⟩
  obtain ⟨-, -, -, -, -, -, -, ⟨e0, e1, e2⟩⟩ := idx_facts t
  refine ⟨t, flush2_7 t, ?_⟩
  rw [mem_blk]
  intro a
  match a with
  | ⟨0, _⟩ =>
    show win2_7.index t (0 : Fin 3) * 1 ≤ (i 0).val ∧ (i 0).val < win2_7.index t (0 : Fin 3) * 1 + 1
    rw [e0, ht]; omega
  | ⟨1, _⟩ =>
    show win2_7.index t (1 : Fin 3) * 2048 ≤ (i 1).val ∧ (i 1).val < win2_7.index t (1 : Fin 3) * 2048 + 2048
    rw [e1, ht]; omega
  | ⟨2, _⟩ =>
    show win2_7.index t (2 : Fin 3) * 256 ≤ (i 2).val ∧ (i 2).val < win2_7.index t (2 : Fin 3) * 256 + 256
    rw [e2]; omega

end Blocks

/-- The output array after the last call, from the arrays the call is entered with. -/
theorem final (V : (c : Dev nD) → (b : Ref sig .tc) → Buf (Elt Ideal) ((c : Thread nD τ).loc b)) (c : Dev nD) :
    (Cert.KernelIdeal.Final.dat (F := Ideal) V c).arrAt 7 cfg2.N
      = Spec.of3 (Spec.kout (V c main_v2_1) (V c main_v2_2) (V c main_v5) (V c main_arg6) (V c main_v6) (V c main_arg8) (V c main_v7)) :=
  (dat (F := Ideal) V c).arrAt_eq_of_cover 7 (outFn V c) (fun t _ => flushed_eq V c t) cover

end Cert.KernelIdeal.FinalValue

end
-- ==== Proof.LibRank3Layout.lean ====
/-
  Rank-3 layout operations and lane reductions read at an index, over literal-size index constructors.

  A flat array of `a * b` rows viewed as `a` groups of `b` rows; the keep-dimension cast that appends a unit axis; the
  broadcast of that unit axis along the lanes; the broadcast of a leading unit axis over the groups; and, at the
  exact extended reals, the lane sum and the lane maximum of a rank-3 array and the row sum of a rank-2 array, each
  as a sum or a fold over `Fin` of the operand at the index with the reduced coordinate inserted.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibRank3

open Idealize.ShloMosaic Idealize.ShloMosaic.ValueIdx

variable {α : Type}

/-- `[n, d]` viewed `[a, b, d]` (so `n = a * b`): entry `(p, q, r)` is row `p * b + q`, column `r`. -/
theorem shapeCast_rows_apply {n a b d : ℕ} (x : (⟨2, ![n, d]⟩ : Shape).Idx → α)
    (h : (⟨2, ![n, d]⟩ : Shape).ShapeCasts ⟨3, ![a, b, d]⟩) (p : Fin a) (q : Fin b) (r : Fin d)
    (hpq : p.val * b + q.val < n) :
    shapeCast ⟨3, ![a, b, d]⟩ x h (ix3 p q r) = x (ix2 ⟨p.val * b + q.val, hpq⟩ r) := by
  refine shapeCast_apply x h _ _ ?_
  rw [Shape.rowMajor_val_two, Shape.rowMajor_val_three]
  rfl

/-- `[a, b]` viewed `[a, b, 1]`: entry `(p, q, 0)` is entry `(p, q)`. -/
theorem shapeCast_keepdim_apply {a b : ℕ} (x : (⟨2, ![a, b]⟩ : Shape).Idx → α)
    (h : (⟨2, ![a, b]⟩ : Shape).ShapeCasts ⟨3, ![a, b, 1]⟩) (p : Fin a) (q : Fin b) (z : Fin 1) :
    shapeCast ⟨3, ![a, b, 1]⟩ x h (ix3 p q z) = x (ix2 p q) := by
  refine shapeCast_apply x h _ _ ?_
  rw [Shape.rowMajor_val_two, Shape.rowMajor_val_three]
  show p.val * b + q.val = (p.val * b + q.val) * 1 + z.val
  have := z.isLt
  omega

/-- `[a, b, 1]` broadcast along the lanes to `[a, b, c]`: entry `(p, q, r)` is entry `(p, q, 0)`. -/
theorem broadcastTo_lane_apply {a b c : ℕ} (x : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ x h (ix3 p q r) = x (ix3 p q ⟨0, Nat.one_pos⟩) := by
  refine broadcastTo_apply x h _ _ fun d => ?_
  match d with
  | ⟨0, _⟩ =>
    show p.val = if a = 1 then 0 else p.val
    split_ifs with h1
    · have := p.isLt; omega
    · rfl
  | ⟨1, _⟩ =>
    show q.val = if b = 1 then 0 else q.val
    split_ifs with h1
    · have := q.isLt; omega
    · rfl
  | ⟨2, _⟩ =>
    show (0 : ℕ) = if (1 : ℕ) = 1 then 0 else r.val
    rw [if_pos rfl]

/-- `[1, b, c]` broadcast over the groups to `[a, b, c]`: entry `(p, q, r)` is entry `(0, q, r)`. -/
theorem broadcastTo_group_apply {a b c : ℕ} (x : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ x h (ix3 p q r) = x (ix3 ⟨0, Nat.one_pos⟩ q r) := by
  refine broadcastTo_apply x h _ _ fun d => ?_
  match d with
  | ⟨0, _⟩ =>
    show (0 : ℕ) = if (1 : ℕ) = 1 then 0 else p.val
    rw [if_pos rfl]
  | ⟨1, _⟩ =>
    show q.val = if b = 1 then 0 else q.val
    split_ifs with h1
    · have := q.isLt; omega
    · rfl
  | ⟨2, _⟩ =>
    show r.val = if c = 1 then 0 else r.val
    split_ifs with h1
    · have := r.isLt; omega
    · rfl

/-- The lane sum of a rank-3 array at the exact extended reals: at `(p, q)` the sum over `k` of entry `(p, q, k)`. -/
theorem sum_lane_apply {a b c : ℕ} (src : FVec Ideal ⟨3, ![a, b, c]⟩ .f32) (acc : BitVec 32)
    (h : (⟨3, ![a, b, c]⟩ : Shape).Reduces [2] ⟨2, ![a, b]⟩) (hφ : FKind.Formats .f32)
    (hacc : acc = FKind.add.neutral .f32 hφ) (p : Fin a) (q : Fin b) :
    multiReduction .add [2] ⟨2, ![a, b]⟩ src acc h hφ hacc (ix2 p q) = ∑ k : Fin c, src (ix3 p q k) := by
  refine (Ideal.multiReduction_add_single src acc h hφ hacc (ix2 p q)).trans ?_
  refine Finset.sum_congr rfl fun k _ => congrArg src (funext fun d => Fin.ext ?_)
  match d with
  | ⟨0, _⟩ => rfl
  | ⟨1, _⟩ => rfl
  | ⟨2, _⟩ => rfl

/-- The lane maximum of a rank-3 array at the exact extended reals: at `(p, q)` the fold of `max`, from the value of the
    starting pattern, over `k` of entry `(p, q, k)`. -/
theorem max_lane_apply {a b c : ℕ} (src : FVec Ideal ⟨3, ![a, b, c]⟩ .f32) (acc : BitVec 32)
    (h : (⟨3, ![a, b, c]⟩ : Shape).Reduces [2] ⟨2, ![a, b]⟩) (hφ : FKind.Formats .f32)
    (hacc : acc = FKind.maximumf.neutral .f32 hφ) (p : Fin a) (q : Fin b) :
    multiReduction .maximumf [2] ⟨2, ![a, b]⟩ src acc h hφ hacc (ix2 p q)
      = (Finset.univ : Finset (Fin c)).fold max (Ideal.ofBits .f32 acc) (fun k => src (ix3 p q k)) := by
  refine (Ideal.multiReduction_maximumf_single src acc h hφ hacc (ix2 p q)).trans ?_
  refine congrArg (Finset.fold max (Ideal.ofBits .f32 acc) · Finset.univ) (funext fun k => congrArg src (funext fun d => Fin.ext ?_))
  match d with
  | ⟨0, _⟩ => rfl
  | ⟨1, _⟩ => rfl
  | ⟨2, _⟩ => rfl

/-- The row sum of a rank-2 array at the exact extended reals: at `p` the sum over `k` of entry `(p, k)`. -/
theorem sum_row_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.add.neutral .f32 hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun d => Fin.ext ?_)
  match d with
  | ⟨0, _⟩ => rfl
  | ⟨1, _⟩ => rfl

end Cert.LibRank3

end
-- ==== Proof.SpatialValue.lean ====
/-
  The value of the spatial-attention call (the second of the three kernel calls) at the exact extended reals.
  A point's one stored term, read at (0, h, d, n): the value statistics against the softmax weights, over the 64
  mixtures, of the token's scores, a score being the sum over the head dimension of query times key statistic, times
  the head's temperature.  The point t = 4 b + j reads token tile j of batch b of the query array, batch b of the two
  statistics and the whole temperature, and writes token tile j of batch b; the 32 blocks tile the array, so the array
  the write-backs add up to is that entry at every index.
-/
import proofs.«149626_j38448547234132_2_alg».proof.Proof.SpatialRegion
import proofs.«149626_j38448547234132_2_alg».proof.Proof.ValueSpec
import proofs.«149626_j38448547234132_2_alg».proof.Proof.LibRank3Layout
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.SpatialValue

open Idealize.ShloMosaic Idealize.ShloMosaic.TcCoe Idealize.ShloMosaic.ValueIdx Idealize.SL.Sem
open Cert.KernelIdeal Cert.KernelIdeal.Gen Cert

/-! ## The two batched products read at an index -/

/-- The score product: batch axis 0, the head-dimension axes contracted; result [head, token, mixture]. -/
abbrev D1 : DotDims S8x32x2048 S8x32x64 S8x2048x64 := dot_S8x32x2048_S8x32x64_S8x2048x64_1_1_2_2_0_0
/-- The value product: batch axis 0, the mixture axes contracted; result [head, channel, token]. -/
abbrev D2 : DotDims S8x32x64 S8x2048x64 S8x32x2048 := dot_S8x32x64_S8x2048x64_S8x32x2048_2_2_1_1_0_0

theorem D1_lhs0 (j : S8x2048x64.Idx) (k : D1.contr.Idx) : (D1.lhsIdx j k 0).val = (j 0).val := by
  unfold DotDims.lhsIdx
  rw [dif_pos (show (0 : Fin S8x32x2048.rank) ∈ D1.lhsBatch by decide)]
  rfl
theorem D1_lhs1 (j : S8x2048x64.Idx) (k : D1.contr.Idx) : (D1.lhsIdx j k 1).val = (k ⟨0, by decide⟩).val :=
  D1.lhsIdx_val_of_single rfl j k
theorem D1_lhs2 (j : S8x2048x64.Idx) (k : D1.contr.Idx) : (D1.lhsIdx j k 2).val = (j 1).val := by
  unfold DotDims.lhsIdx
  rw [dif_neg (show ¬(2 : Fin S8x32x2048.rank) ∈ D1.lhsBatch by decide),
    dif_pos (show (2 : Fin S8x32x2048.rank) ∈ D1.lhsNonContracting by decide)]
  rfl
theorem D1_rhs0 (j : S8x2048x64.Idx) (k : D1.contr.Idx) : (D1.rhsIdx j k 0).val = (j 0).val := by
  unfold DotDims.rhsIdx
  rw [dif_pos (show (0 : Fin S8x32x64.rank) ∈ D1.rhsBatch by decide)]
  rfl
theorem D1_rhs1 (j : S8x2048x64.Idx) (k : D1.contr.Idx) : (D1.rhsIdx j k 1).val = (k ⟨0, by decide⟩).val :=
  D1.rhsIdx_val_of_single rfl j k
theorem D1_rhs2 (j : S8x2048x64.Idx) (k : D1.contr.Idx) : (D1.rhsIdx j k 2).val = (j 2).val := by
  unfold DotDims.rhsIdx
  rw [dif_neg (show ¬(2 : Fin S8x32x64.rank) ∈ D1.rhsBatch by decide),
    dif_pos (show (2 : Fin S8x32x64.rank) ∈ D1.rhsNonContracting by decide)]
  rfl

/-- Entry (h, n, p) of the score product into a zero accumulator: ∑ over the head dimension. -/
theorem D1_apply {φ₁ φ₂ : FTy} (lhs : FVec Ideal S8x32x2048 φ₁) (rhs : FVec Ideal S8x32x64 φ₂) (h : Fin 8) (n : Fin 2048) (p : Fin 64) :
    FloatOps.matmul D1 none lhs rhs (constant (F := Ideal) S8x2048x64 .f32 0x00000000#32) (ix3 h n p)
      = ∑ e : Fin 32, lhs (ix3 h e n) * rhs (ix3 h e p) := by
  rw [Ideal.matmul_constant_zero_apply, ← Equiv.sum_comp (contrEquiv1 D1 32 rfl rfl).symm]
  refine Finset.sum_congr rfl fun e _ => ?_
  have he := contrEquiv1_symm_val D1 32 rfl rfl e
  have el : D1.lhsIdx (ix3 h n p) ((contrEquiv1 D1 32 rfl rfl).symm e) = ix3 h e n := funext fun a => Fin.ext (by
    match a with
    | ⟨0, _⟩ => exact D1_lhs0 _ _
    | ⟨1, _⟩ => exact (D1_lhs1 _ _).trans he
    | ⟨2, _⟩ => exact D1_lhs2 _ _)
  have er : D1.rhsIdx (ix3 h n p) ((contrEquiv1 D1 32 rfl rfl).symm e) = ix3 h e p := funext fun a => Fin.ext (by
    match a with
    | ⟨0, _⟩ => exact D1_rhs0 _ _
    | ⟨1, _⟩ => exact (D1_rhs1 _ _).trans he
    | ⟨2, _⟩ => exact D1_rhs2 _ _)
  rw [el, er]

theorem D2_lhs0 (j : S8x32x2048.Idx) (k : D2.contr.Idx) : (D2.lhsIdx j k 0).val = (j 0).val := by
  unfold DotDims.lhsIdx
  rw [dif_pos (show (0 : Fin S8x32x64.rank) ∈ D2.lhsBatch by decide)]
  rfl
theorem D2_lhs1 (j : S8x32x2048.Idx) (k : D2.contr.Idx) : (D2.lhsIdx j k 1).val = (j 1).val := by
  unfold DotDims.lhsIdx
  rw [dif_neg (show ¬(1 : Fin S8x32x64.rank) ∈ D2.lhsBatch by decide),
    dif_pos (show (1 : Fin S8x32x64.rank) ∈ D2.lhsNonContracting by decide)]
  rfl
theorem D2_lhs2 (j : S8x32x2048.Idx) (k : D2.contr.Idx) : (D2.lhsIdx j k 2).val = (k ⟨0, by decide⟩).val :=
  D2.lhsIdx_val_of_single rfl j k
theorem D2_rhs0 (j : S8x32x2048.Idx) (k : D2.contr.Idx) : (D2.rhsIdx j k 0).val = (j 0).val := by
  unfold DotDims.rhsIdx
  rw [dif_pos (show (0 : Fin S8x2048x64.rank) ∈ D2.rhsBatch by decide)]
  rfl
theorem D2_rhs1 (j : S8x32x2048.Idx) (k : D2.contr.Idx) : (D2.rhsIdx j k 1).val = (j 2).val := by
  unfold DotDims.rhsIdx
  rw [dif_neg (show ¬(1 : Fin S8x2048x64.rank) ∈ D2.rhsBatch by decide),
    dif_pos (show (1 : Fin S8x2048x64.rank) ∈ D2.rhsNonContracting by decide)]
  rfl
theorem D2_rhs2 (j : S8x32x2048.Idx) (k : D2.contr.Idx) : (D2.rhsIdx j k 2).val = (k ⟨0, by decide⟩).val :=
  D2.rhsIdx_val_of_single rfl j k

/-- Entry (h, d, n) of the value product into a zero accumulator: ∑ over the mixtures. -/
theorem D2_apply {φ₁ φ₂ : FTy} (lhs : FVec Ideal S8x32x64 φ₁) (rhs : FVec Ideal S8x2048x64 φ₂) (h : Fin 8) (d : Fin 32) (n : Fin 2048) :
    FloatOps.matmul D2 none lhs rhs (constant (F := Ideal) S8x32x2048 .f32 0x00000000#32) (ix3 h d n)
      = ∑ p : Fin 64, lhs (ix3 h d p) * rhs (ix3 h n p) := by
  rw [Ideal.matmul_constant_zero_apply, ← Equiv.sum_comp (contrEquiv1 D2 64 rfl rfl).symm]
  refine Finset.sum_congr rfl fun e _ => ?_
  have he := contrEquiv1_symm_val D2 64 rfl rfl e
  have el : D2.lhsIdx (ix3 h d n) ((contrEquiv1 D2 64 rfl rfl).symm e) = ix3 h d e := funext fun a => Fin.ext (by
    match a with
    | ⟨0, _⟩ => exact D2_lhs0 _ _
    | ⟨1, _⟩ => exact D2_lhs1 _ _
    | ⟨2, _⟩ => exact (D2_lhs2 _ _).trans he)
  have er : D2.rhsIdx (ix3 h d n) ((contrEquiv1 D2 64 rfl rfl).symm e) = ix3 h n e := funext fun a => Fin.ext (by
    match a with
    | ⟨0, _⟩ => exact D2_rhs0 _ _
    | ⟨1, _⟩ => exact D2_rhs1 _ _
    | ⟨2, _⟩ => exact (D2_rhs2 _ _).trans he)
  rw [el, er]

/-! ## The softmax over the mixtures and the score array, read at an index -/

/-- The lane maximum, kept as a unit axis and broadcast back along the lanes. -/
def maxV (s : FVec Ideal S8x2048x64 .f32) : FVec Ideal S8x2048x64 .f32 :=
  broadcastTo S8x2048x64
    (shapeCast S8x2048x1 (multiReduction (F := Ideal) .maximumf [2] S8x2048 s 0xFF800000#32 reduces_S8x2048x64_S8x2048 (.inl rfl) rfl)
      shapeCasts_S8x2048_S8x2048x1) broadcasts_S8x2048x1_S8x2048x64
/-- The shifted exponentials. -/
def expV (s : FVec Ideal S8x2048x64 .f32) : FVec Ideal S8x2048x64 .f32 := exp (subf s (maxV s))
/-- Their lane sum, kept as a unit axis and broadcast back along the lanes. -/
def sumV (s : FVec Ideal S8x2048x64 .f32) : FVec Ideal S8x2048x64 .f32 :=
  broadcastTo S8x2048x64
    (shapeCast S8x2048x1 (multiReduction (F := Ideal) .add [2] S8x2048 (expV s) 0x00000000#32 reduces_S8x2048x64_S8x2048 (.inl rfl) rfl)
      shapeCasts_S8x2048_S8x2048x1) broadcasts_S8x2048x1_S8x2048x64
/-- The softmax weights. -/
def softV (s : FVec Ideal S8x2048x64 .f32) : FVec Ideal S8x2048x64 .f32 := divf (expV s) (sumV s)

theorem maxV_apply (s : FVec Ideal S8x2048x64 .f32) (h : Fin 8) (n : Fin 2048) (r : Fin 64) :
    maxV s (ix3 h n r) = (Finset.univ : Finset (Fin 64)).fold max Spec.ninf (fun k => s (ix3 h n k)) :=
  (LibRank3.broadcastTo_lane_apply _ _ h n r).trans
    ((LibRank3.shapeCast_keepdim_apply _ _ h n _).trans (LibRank3.max_lane_apply s _ _ _ _ h n))

theorem expV_apply (s : FVec Ideal S8x2048x64 .f32) (h : Fin 8) (n : Fin 2048) (r : Fin 64) :
    expV s (ix3 h n r) = Ideal.exp (s (ix3 h n r) - (Finset.univ : Finset (Fin 64)).fold max Spec.ninf (fun k => s (ix3 h n k))) := by
  show Ideal.exp (s (ix3 h n r) - maxV s (ix3 h n r)) = _
  rw [maxV_apply]

theorem sumV_apply (s : FVec Ideal S8x2048x64 .f32) (h : Fin 8) (n : Fin 2048) (r : Fin 64) :
    sumV s (ix3 h n r)
      = ∑ l : Fin 64, Ideal.exp (s (ix3 h n l) - (Finset.univ : Finset (Fin 64)).fold max Spec.ninf (fun k => s (ix3 h n k))) :=
  (LibRank3.broadcastTo_lane_apply _ _ h n r).trans
    ((LibRank3.shapeCast_keepdim_apply _ _ h n _).trans
      ((LibRank3.sum_lane_apply (expV s) _ _ _ _ h n).trans (Finset.sum_congr rfl fun l _ => expV_apply s h n l)))

theorem softV_apply (s : FVec Ideal S8x2048x64 .f32) (h : Fin 8) (n : Fin 2048) (p : Fin 64) :
    softV s (ix3 h n p) = Spec.smax (fun p' => s (ix3 h n p')) p := by
  show Ideal.div (expV s (ix3 h n p)) (sumV s (ix3 h n p)) = _
  rw [expV_apply, sumV_apply]
  rfl

/-- The scores of a point: the score product times the head's temperature. -/
def scoreV (q : Vec Ideal S1x8x32x2048 .bf16) (kp : Vec Ideal S1x8x32x64 .f32) (tmp : Vec Ideal S8x1x1 .f32) : FVec Ideal S8x2048x64 .f32 :=
  mulf (matmul D1 none (shapeCast S8x32x2048 q shapeCasts_S1x8x32x2048_S8x32x2048 : FVec Ideal S8x32x2048 .bf16)
      (truncf .bf16 (shapeCast S8x32x64 kp shapeCasts_S1x8x32x64_S8x32x64 : FVec Ideal S8x32x64 .f32) bitsLt_bf16_f32 : FVec Ideal S8x32x64 .bf16)
      (constant S8x2048x64 .f32 0x00000000#32))
    (broadcastTo S8x2048x64 tmp broadcasts_S8x1x1_S8x2048x64)

theorem temp_apply (tmp : Vec Ideal S8x1x1 .f32) (h : Fin 8) (n : Fin 2048) (p : Fin 64) :
    (broadcastTo S8x2048x64 tmp broadcasts_S8x1x1_S8x2048x64 : FVec Ideal S8x2048x64 .f32) (ix3 h n p) = tmp (ix3 h 0 0) := by
  refine broadcastTo_apply tmp _ _ _ fun a => ?_
  match a with
  | ⟨0, _⟩ =>
    show h.val = if (8 : ℕ) = 1 then 0 else h.val
    rw [if_neg (by decide)]
  | ⟨1, _⟩ =>
    show (0 : ℕ) = if (1 : ℕ) = 1 then 0 else n.val
    rw [if_pos rfl]
  | ⟨2, _⟩ =>
    show (0 : ℕ) = if (1 : ℕ) = 1 then 0 else p.val
    rw [if_pos rfl]

theorem scoreV_apply (q : Vec Ideal S1x8x32x2048 .bf16) (kp : Vec Ideal S1x8x32x64 .f32) (tmp : Vec Ideal S8x1x1 .f32)
    (h : Fin 8) (n : Fin 2048) (p : Fin 64) :
    scoreV q kp tmp (ix3 h n p) = (∑ e : Fin 32, q (ix4 (0 : Fin 1) h e n) * kp (ix4 (0 : Fin 1) h e p)) * tmp (ix3 h 0 0) := by
  unfold scoreV
  rw [mulf_apply, temp_apply]
  refine congrArg (· * tmp (ix3 h 0 0)) ?_
  refine (D1_apply _ _ h n p).trans ?_
  refine Finset.sum_congr rfl fun e _ => congrArg₂ (· * ·) ?_ ?_
  · exact shapeCast_1abc_abc_apply q _ h e n
  · exact shapeCast_1abc_abc_apply kp _ h e p

/-- The score of token n against mixture p for head h, from a point's blocks. -/
def score (q : Vec Ideal S1x8x32x2048 .bf16) (kp : Vec Ideal S1x8x32x64 .f32) (tmp : Vec Ideal S8x1x1 .f32)
    (h : Fin 8) (n : Fin 2048) (p : Fin 64) : EReal :=
  (∑ e : Fin 32, q (ix4 (0 : Fin 1) h e n) * kp (ix4 (0 : Fin 1) h e p)) * tmp (ix3 h 0 0)

/-- The payload at (0, h, d, n): the softmax weights of the token's scores against the value statistics. -/
theorem pay_apply (q : Vec Ideal S1x8x32x2048 .bf16) (kp vp : Vec Ideal S1x8x32x64 .f32) (tmp : Vec Ideal S8x1x1 .f32)
    (u : Fin 1) (h : Fin 8) (d : Fin 32) (n : Fin 2048) :
    k1_pay1 (F := Ideal) q kp vp tmp (ix4 u h d n)
      = ∑ p : Fin 64, vp (ix4 (0 : Fin 1) h d p) * Spec.smax (fun p' => score q kp tmp h n p') p := by
  unfold k1_pay1
  refine (shapeCast_abc_1abc_apply _ _ u h d n).trans ?_
  refine (D2_apply _ _ h d n).trans ?_
  refine Finset.sum_congr rfl fun p _ => congrArg₂ (· * ·) ?_ ?_
  · exact shapeCast_1abc_abc_apply vp _ h d p
  · refine (softV_apply (scoreV q kp tmp) h n p).trans ?_
    refine congrArg (fun f => Spec.smax f p) (funext fun p' => ?_)
    exact scoreV_apply q kp tmp h n p'

/-! ## From the points' blocks to the array -/

theorem hz4 : (![0, 0, 0, 0] : Fin 4 → Nat) = fun _ => 0 := funext fun a => by fin_cases a <;> rfl
theorem hz3 : (![0, 0, 0] : Fin 3 → Nat) = fun _ => 0 := funext fun a => by fin_cases a <;> rfl

/-- The printed index maps over the grid: point t = 4 b + j reads token tile j of batch b, the statistics of batch b,
    the whole temperature, and writes token tile j of batch b. -/
theorem idx_facts : ∀ t : Fin cfg1.N,
    win1_0.index t (0 : Fin 4) = t.val / 4 ∧ win1_0.index t (1 : Fin 4) = 0 ∧ win1_0.index t (2 : Fin 4) = 0
    ∧ win1_0.index t (3 : Fin 4) = t.val % 4
    ∧ win1_1.index t (0 : Fin 4) = t.val / 4 ∧ win1_1.index t (1 : Fin 4) = 0 ∧ win1_1.index t (2 : Fin 4) = 0
    ∧ win1_1.index t (3 : Fin 4) = 0
    ∧ win1_2.index t (0 : Fin 4) = t.val / 4 ∧ win1_2.index t (1 : Fin 4) = 0 ∧ win1_2.index t (2 : Fin 4) = 0
    ∧ win1_2.index t (3 : Fin 4) = 0
    ∧ win1_3.index t (0 : Fin 3) = 0 ∧ win1_3.index t (1 : Fin 3) = 0 ∧ win1_3.index t (2 : Fin 3) = 0
    ∧ win1_4.index t (0 : Fin 4) = t.val / 4 ∧ win1_4.index t (1 : Fin 4) = 0 ∧ win1_4.index t (2 : Fin 4) = 0
    ∧ win1_4.index t (3 : Fin 4) = t.val % 4 :=
  (by decide +kernel : ∀ t : Fin grid1.N, _)

section Blocks

variable (V : (c : Dev nD) → (b : Ref sig .tc) → Buf (Elt Ideal) ((c : Thread nD τ).loc b)) (c : Dev nD)

/-- The query block of point t is batch t / 4, token tile t % 4 of the query array. -/
theorem iblk0_apply (t : Fin cfg1.N) (x : S1x8x32x2048.Idx) (k : S8x8x32x8192.Idx)
    (h0 : (k 0).val = t.val / 4) (h1 : (k 1).val = (x 1).val) (h2 : (k 2).val = (x 2).val)
    (h3 : (k 3).val = t.val % 4 * 2048 + (x 3).val) :
    (Spatial.iblk V c 0 t : Vec Ideal S1x8x32x2048 .bf16) x = (V c main_v2_0 : S8x8x32x8192.Idx → EReal) k := by
  obtain ⟨e0, e1, e2, e3, -⟩ := idx_facts t
  have hx0 : (x 0).val < 1 := (x 0).isLt
  unfold Spatial.iblk
  rw [View.read_apply]
  show V c main_v2_0 _ = V c main_v2_0 _
  congr 1
  funext a
  apply Fin.ext
  match a with
  | ⟨0, _⟩ => show win1_0.index t (0 : Fin 4) * 1 + 1 * (x 0).val = (k 0).val; omega
  | ⟨1, _⟩ => show win1_0.index t (1 : Fin 4) * 8 + 1 * (x 1).val = (k 1).val; omega
  | ⟨2, _⟩ => show win1_0.index t (2 : Fin 4) * 32 + 1 * (x 2).val = (k 2).val; omega
  | ⟨3, _⟩ => show win1_0.index t (3 : Fin 4) * 2048 + 1 * (x 3).val = (k 3).val; omega

/-- The key-statistic block of point t is batch t / 4 of its array. -/
theorem iblk1_apply (t : Fin cfg1.N) (x : S1x8x32x64.Idx) (k : S8x8x32x64.Idx)
    (h0 : (k 0).val = t.val / 4) (h1 : (k 1).val = (x 1).val) (h2 : (k 2).val = (x 2).val) (h3 : (k 3).val = (x 3).val) :
    (Spatial.iblk V c 1 t : Vec Ideal S1x8x32x64 .f32) x = (V c main_v2_3 : S8x8x32x64.Idx → EReal) k := by
  obtain ⟨-, -, -, -, e0, e1, e2, e3, -⟩ := idx_facts t
  have hx0 : (x 0).val < 1 := (x 0).isLt
  unfold Spatial.iblk
  rw [View.read_apply]
  show V c main_v2_3 _ = V c main_v2_3 _
  congr 1
  funext a
  apply Fin.ext
  match a with
  | ⟨0, _⟩ => show win1_1.index t (0 : Fin 4) * 1 + 1 * (x 0).val = (k 0).val; omega
  | ⟨1, _⟩ => show win1_1.index t (1 : Fin 4) * 8 + 1 * (x 1).val = (k 1).val; omega
  | ⟨2, _⟩ => show win1_1.index t (2 : Fin 4) * 32 + 1 * (x 2).val = (k 2).val; omega
  | ⟨3, _⟩ => show win1_1.index t (3 : Fin 4) * 64 + 1 * (x 3).val = (k 3).val; omega

/-- The value-statistic block of point t is batch t / 4 of its array. -/
theorem iblk2_apply (t : Fin cfg1.N) (x : S1x8x32x64.Idx) (k : S8x8x32x64.Idx)
    (h0 : (k 0).val = t.val / 4) (h1 : (k 1).val = (x 1).val) (h2 : (k 2).val = (x 2).val) (h3 : (k 3).val = (x 3).val) :
    (Spatial.iblk V c 2 t : Vec Ideal S1x8x32x64 .f32) x = (V c main_v2_4 : S8x8x32x64.Idx → EReal) k := by
  obtain ⟨-, -, -, -, -, -, -, -, e0, e1, e2, e3, -⟩ := idx_facts t
  have hx0 : (x 0).val < 1 := (x 0).isLt
  unfold Spatial.iblk
  rw [View.read_apply]
  show V c main_v2_4 _ = V c main_v2_4 _
  congr 1
  funext a
  apply Fin.ext
  match a with
  | ⟨0, _⟩ => show win1_2.index t (0 : Fin 4) * 1 + 1 * (x 0).val = (k 0).val; omega
  | ⟨1, _⟩ => show win1_2.index t (1 : Fin 4) * 8 + 1 * (x 1).val = (k 1).val; omega
  | ⟨2, _⟩ => show win1_2.index t (2 : Fin 4) * 32 + 1 * (x 2).val = (k 2).val; omega
  | ⟨3, _⟩ => show win1_2.index t (3 : Fin 4) * 64 + 1 * (x 3).val = (k 3).val; omega

/-- The temperature block of every point is the whole temperature array. -/
theorem iblk3_apply (t : Fin cfg1.N) (x : S8x1x1.Idx) :
    (Spatial.iblk V c 3 t : Vec Ideal S8x1x1 .f32) x = (V c main_arg11 : S8x1x1.Idx → EReal) x := by
  obtain ⟨-, -, -, -, -, -, -, -, -, -, -, -, e0, e1, e2, -⟩ := idx_facts t
  unfold Spatial.iblk
  rw [View.read_apply]
  show V c main_arg11 _ = V c main_arg11 _
  congr 1
  funext a
  apply Fin.ext
  match a with
  | ⟨0, _⟩ => show win1_3.index t (0 : Fin 3) * 8 + 1 * (x 0).val = (x 0).val; omega
  | ⟨1, _⟩ => show win1_3.index t (1 : Fin 3) * 1 + 1 * (x 1).val = (x 1).val; omega
  | ⟨2, _⟩ => show win1_3.index t (2 : Fin 3) * 1 + 1 * (x 2).val = (x 2).val; omega

end Blocks

/-- A point's payload at a block index is the spatial-attention entry at the array index the block index sits at, when
    the point's four blocks are the arrays' blocks of batch b and token tile jt. -/
theorem block_eq (Q : Spec.Arr4 8 8 32 8192) (KPS VP : Spec.Arr4 8 8 32 64) (T2 : Spec.Arr3 8 1 1)
    (b : Fin 8) (jt : Fin 4)
    (q : Vec Ideal S1x8x32x2048 .bf16) (kp vp : Vec Ideal S1x8x32x64 .f32) (tmp : Vec Ideal S8x1x1 .f32)
    (hq : ∀ (h : Fin 8) (e : Fin 32) (n : Fin 2048), q (ix4 (0 : Fin 1) h e n) = Q (ix4 b h e (Spec.tok jt n)))
    (hkp : ∀ (h : Fin 8) (e : Fin 32) (p : Fin 64), kp (ix4 (0 : Fin 1) h e p) = KPS (ix4 b h e p))
    (hvp : ∀ (h : Fin 8) (e : Fin 32) (p : Fin 64), vp (ix4 (0 : Fin 1) h e p) = VP (ix4 b h e p))
    (htmp : ∀ h : Fin 8, tmp (ix3 h 0 0) = T2 (ix3 h 0 0))
    (y : S1x8x32x2048.Idx) (i : S8x8x32x8192.Idx)
    (hi0 : (i 0).val = b.val) (hi1 : (i 1).val = (y 1).val) (hi2 : (i 2).val = (y 2).val)
    (hi3 : (i 3).val = jt.val * 2048 + (y 3).val) :
    k1_pay1 (F := Ideal) q kp vp tmp y = Spec.of4 (Spec.kxsa Q KPS VP T2) i := by
  obtain ⟨u, h, d, n, rfl⟩ : ∃ (u : Fin 1) (h : Fin 8) (d : Fin 32) (n : Fin 2048), y = ix4 u h d n :=
    ⟨y 0, y 1, y 2, y 3, eq_ix4 y⟩
  rw [pay_apply]
  have eb : (⟨(i 0).val, (i 0).isLt⟩ : Fin 8) = b := Fin.ext hi0
  have eh : (⟨(i 1).val, (i 1).isLt⟩ : Fin 8) = h := Fin.ext hi1
  have ed : (⟨(i 2).val, (i 2).isLt⟩ : Fin 32) = d := Fin.ext hi2
  have en : (⟨(i 3).val, (i 3).isLt⟩ : Fin 8192) = Spec.tok jt n := Fin.ext hi3
  show _ = Spec.kxsa Q KPS VP T2 ⟨(i 0).val, (i 0).isLt⟩ ⟨(i 1).val, (i 1).isLt⟩ ⟨(i 2).val, (i 2).isLt⟩ ⟨(i 3).val, (i 3).isLt⟩
  rw [eb, eh, ed, en]
  unfold Spec.kxsa
  refine Finset.sum_congr rfl fun p _ => ?_
  rw [hvp]
  refine congrArg (fun f => VP (ix4 b h d p) * Spec.smax f p) (funext fun p' => ?_)
  unfold score Spec.kscore
  rw [htmp]
  refine congrArg (· * T2 (ix3 h 0 0)) (Finset.sum_congr rfl fun e _ => ?_)
  rw [hq, hkp]

section Array

variable (V : (c : Dev nD) → (b : Ref sig .tc) → Buf (Elt Ideal) ((c : Thread nD τ).loc b)) (c : Dev nD)

/-- What point t writes back is block t of the spatial-attention array of the arrays the call is entered with. -/
theorem flushed_eq (t : Fin cfg1.N) :
    (Spatial.dat (F := Ideal) V c).flushed 4 t
      = ((cfg1.win 4).blk t).view.read (Elt Ideal)
          (Spec.of4 (Spec.kxsa (V c main_v2_0) (V c main_v2_3) (V c main_v2_4) (V c main_arg11))) := by
  show (cfg1.win 4).cut (grid1.coords t) ((Spatial.dat V c).after 4 t) = _
  rw [Spatial.after_4]
  unfold Spatial.outBlock
  rw [View.canon_unit_zero hz4]
  simp only [View.ld_unit_zero (S := S1x8x32x2048) hz4, View.ld_unit_zero (S := S1x8x32x64) hz4,
    View.ld_unit_zero (S := S8x1x1) hz3]
  have ht : t.val < 32 := lt_of_lt_of_eq t.isLt (N_1 : cfg1.N = 32)
  obtain ⟨-, -, -, -, -, -, -, -, -, -, -, -, -, -, -, e0, e1, e2, e3⟩ := idx_facts t
  funext j
  have hj0 : (j 0).val < 1 := (j 0).isLt
  show k1_pay1 (F := Ideal) (Spatial.iblk V c 0 t) (Spatial.iblk V c 1 t) (Spatial.iblk V c 2 t) (Spatial.iblk V c 3 t) j
    = Spec.of4 (Spec.kxsa (V c main_v2_0) (V c main_v2_3) (V c main_v2_4) (V c main_arg11)) (((cfg1.win 4).blk t).view.emb j)
  refine block_eq (V c main_v2_0) (V c main_v2_3) (V c main_v2_4) (V c main_arg11) ⟨t.val / 4, by omega⟩ ⟨t.val % 4, by omega⟩
    _ _ _ _ ?_ ?_ ?_ ?_ j (((cfg1.win 4).blk t).view.emb j) ?_ ?_ ?_ ?_
  · intro h e n
    exact iblk0_apply V c t _ _ rfl rfl rfl rfl
  · intro h e p
    exact iblk1_apply V c t _ _ rfl rfl rfl rfl
  · intro h e p
    exact iblk2_apply V c t _ _ rfl rfl rfl rfl
  · intro h
    exact iblk3_apply V c t _
  · show win1_4.index t (0 : Fin 4) * 1 + 1 * (j 0).val = t.val / 4; omega
  · show win1_4.index t (1 : Fin 4) * 8 + 1 * (j 1).val = (j 1).val; omega
  · show win1_4.index t (2 : Fin 4) * 32 + 1 * (j 2).val = (j 2).val; omega
  · show win1_4.index t (3 : Fin 4) * 2048 + 1 * (j 3).val = t.val % 4 * 2048 + (j 3).val; omega

/-- An index of the array is in point t's block iff each coordinate is in the block's range on its axis. -/
theorem mem_blk (t : Fin cfg1.N) (i : S8x8x32x8192.Idx) :
    i ∈ ((cfg1.win 4).blk t).view.set ↔ ∀ a : Fin 4, win1_4.index t a * S1x8x32x2048.size a ≤ (i a).val
      ∧ (i a).val < win1_4.index t a * S1x8x32x2048.size a + S1x8x32x2048.size a := by
  show i ∈ ((View.whole main_v3).slice (win1_4.rect t)).set ↔ _
  rw [View.set_slice_whole, Rect.mem_set_unit]
  exact Iff.rfl

/-- Every index of the array is in the block of the point of its batch and token tile. -/
theorem cover (i : S8x8x32x8192.Idx) :
    ∃ t : Fin cfg1.N, (cfg1.win 4).flush t = true ∧ i ∈ ((cfg1.win 4).blk t).view.set := by
  have h0 : (i 0).val < 8 := (i 0).isLt
  have h1 : (i 1).val < 8 := (i 1).isLt
  have h2 : (i 2).val < 32 := (i 2).isLt
  have h3 : (i 3).val < 8192 := (i 3).isLt
  have hlt : 4 * (i 0).val + (i 3).val / 2048 < cfg1.N := by rw [show cfg1.N = 32 from N_1]; omega
  obtain ⟨t, htv⟩ : ∃ t : Fin cfg1.N, t.val = 4 * (i 0).val + (i 3).val / 2048 := ⟨⟨_, hlt⟩, rfl⟩
  obtain ⟨-, -, -, -, -, -, -, -, -, -, -, -, -, -, -, e0, e1, e2, e3⟩ := idx_facts t
  refine ⟨t, flush1_4 t, ?_⟩
  rw [mem_blk]
  intro a
  match a with
  | ⟨0, _⟩ =>
    show win1_4.index t (0 : Fin 4) * 1 ≤ (i 0).val ∧ (i 0).val < win1_4.index t (0 : Fin 4) * 1 + 1
    omega
  | ⟨1, _⟩ =>
    show win1_4.index t (1 : Fin 4) * 8 ≤ (i 1).val ∧ (i 1).val < win1_4.index t (1 : Fin 4) * 8 + 8
    omega
  | ⟨2, _⟩ =>
    show win1_4.index t (2 : Fin 4) * 32 ≤ (i 2).val ∧ (i 2).val < win1_4.index t (2 : Fin 4) * 32 + 32
    omega
  | ⟨3, _⟩ =>
    show win1_4.index t (3 : Fin 4) * 2048 ≤ (i 3).val ∧ (i 3).val < win1_4.index t (3 : Fin 4) * 2048 + 2048
    omega

end Array

/-- The spatial-attention array after the second call, from the arrays the call is entered with. -/
theorem final (V : (c : Dev nD) → (b : Ref sig .tc) → Buf (Elt Ideal) ((c : Thread nD τ).loc b)) (c : Dev nD) :
    (Cert.KernelIdeal.Spatial.dat (F := Ideal) V c).arrAt 4 cfg1.N
      = Spec.of4 (Spec.kxsa (V c main_v2_0) (V c main_v2_3) (V c main_v2_4) (V c main_arg11)) :=
  (Cert.KernelIdeal.Spatial.dat (F := Ideal) V c).arrAt_eq_of_cover 4
    (Spec.of4 (Spec.kxsa (V c main_v2_0) (V c main_v2_3) (V c main_v2_4) (V c main_arg11)))
    (fun t _ => flushed_eq V c t) cover

end Cert.KernelIdeal.SpatialValue

end
-- ==== Proof.Pass1Names.lean ====
/-
  Names for the first kernel call's value: the batch and the tile of a point (point t is batch t / 4, tile t mod 4),
  and the call's entry arrays as extended-real arrays.
-/
import proofs.«149626_j38448547234132_2_alg».proof.Proof.Pass1Region
import proofs.«149626_j38448547234132_2_alg».proof.Proof.ValueSpec

noncomputable section

namespace Cert.KernelIdeal.Pass1

open Cert.KernelIdeal Cert.KernelIdeal.Gen Cert
open Idealize.ShloMosaic Idealize.ShloMosaic.TcCoe Idealize.ShloMosaic.ValueIdx Idealize.SL.Sem

def bOf (t : Fin cfg0.N) : Fin 8 := ⟨t.val / 4, by have := t.isLt; have : cfg0.N = 32 := N_0; omega⟩
def jOf (t : Fin cfg0.N) : Fin 4 := ⟨t.val % 4, Nat.mod_lt _ (by decide)⟩

variable (V : (c : Dev nD) → (b : Ref sig .tc) → Buf (Elt Ideal) ((c : Thread nD τ).loc b)) (c : Dev nD)

abbrev aX : Spec.Arr3 8 8192 256 := V c main_arg0
abbrev aW : Spec.Arr2 1024 256 := V c main_arg1
abbrev aWE : Spec.Arr2 64 8192 := V c main_arg2
abbrev aBE : Spec.Arr3 1 1 64 := V c main_v0
abbrev aWF : Spec.Arr2 64 8192 := V c main_arg4
abbrev aBF : Spec.Arr3 1 1 64 := V c main_v1
abbrev aT1 : Spec.Arr3 8 1 1 := V c main_arg10

end Cert.KernelIdeal.Pass1

end
-- ==== Proof.ValueCompose.lean ====
/-
  The kernel's three calls composed: the result array as one function of the twelve arguments, in the kernel's
  arrangement.  The last call's array is `kout` of its entry arrays; two of those are the first call's v_ca and
  channel-attention arrays, one is the re-laying of the second call's array, whose own entry arrays are the first
  call's q, scaled key projection and value projection; the biases enter as the [1,1,64] and [1,128] arrays the host
  reshapes make of them.
-/
import proofs.«149626_j38448547234132_2_alg».proof.Proof.WholeRun
import proofs.«149626_j38448547234132_2_alg».proof.Proof.HostValue
import proofs.«149626_j38448547234132_2_alg».proof.Proof.FinalValue
import proofs.«149626_j38448547234132_2_alg».proof.Proof.SpatialValue
import proofs.«149626_j38448547234132_2_alg».proof.Proof.Pass1Names
import proofs.«149626_j38448547234132_2_alg».proof.Proof.ValueSpec

set_option maxRecDepth 16384
set_option maxHeartbeats 2000000

noncomputable section

namespace Cert.KernelIdeal.Compose

open Idealize.ShloMosaic Idealize.ShloMosaic.TcCoe Idealize.ShloMosaic.ValueIdx Idealize.SL.Sem
open Cert.KernelIdeal Cert.KernelIdeal.Gen Cert.KernelIdeal.Whole Cert.KernelIdeal.HostValue Cert Cert.Spec

variable (m : (ℓ : Loc nD τ sig) → Buf (Elt Ideal) ℓ) (ρ : Dev nD → PrngReg) (c : Dev nD)

/-- The kernel's result in its own arrangement, as a function of the argument arrays. -/
def kernelOut : Arr3 8 8192 256 :=
  of3 (kout (of4 (kvca (m ((c.tc : Thread nD τ).loc main_arg1)) (m ((c.tc : Thread nD τ).loc main_arg0)))) (of4 (kattn (m ((c.tc : Thread nD τ).loc main_arg1)) (m ((c.tc : Thread nD τ).loc main_arg0)) (m ((c.tc : Thread nD τ).loc main_arg10))))
    (of3 (relay (kxsa (of4 (kq (m ((c.tc : Thread nD τ).loc main_arg1)) (m ((c.tc : Thread nD τ).loc main_arg0))))
      (of4 (kkps (m ((c.tc : Thread nD τ).loc main_arg1)) (m ((c.tc : Thread nD τ).loc main_arg0)) (m ((c.tc : Thread nD τ).loc main_arg2)) (of3 fun _ _ p => ((m ((c.tc : Thread nD τ).loc main_arg3)) : Arr1 64) (ix1 p))))
      (of4 (kvp (m ((c.tc : Thread nD τ).loc main_arg1)) (m ((c.tc : Thread nD τ).loc main_arg0)) (m ((c.tc : Thread nD τ).loc main_arg4)) (of3 fun _ _ p => ((m ((c.tc : Thread nD τ).loc main_arg5)) : Arr1 64) (ix1 p)))) (m ((c.tc : Thread nD τ).loc main_arg11)))))
    (m ((c.tc : Thread nD τ).loc main_arg6)) (of2 fun _ q => ((m ((c.tc : Thread nD τ).loc main_arg7)) : Arr1 128) (ix1 q)) (m ((c.tc : Thread nD τ).loc main_arg8)) (of2 fun _ q => ((m ((c.tc : Thread nD τ).loc main_arg9)) : Arr1 128) (ix1 q)))

/-- The composition, given the first call's five arrays. -/
theorem result_eq_of
    (hq : (Pass1.dat (E1 (F := Ideal) m ρ) c).arrAt 7 cfg0.N = of4 (kq (Pass1.aW (E1 (F := Ideal) m ρ) c) (Pass1.aX (E1 (F := Ideal) m ρ) c)))
    (hvca : (Pass1.dat (E1 (F := Ideal) m ρ) c).arrAt 8 cfg0.N = of4 (kvca (Pass1.aW (E1 (F := Ideal) m ρ) c) (Pass1.aX (E1 (F := Ideal) m ρ) c)))
    (hattn : (Pass1.dat (E1 (F := Ideal) m ρ) c).arrAt 9 cfg0.N = of4 (kattn (Pass1.aW (E1 (F := Ideal) m ρ) c) (Pass1.aX (E1 (F := Ideal) m ρ) c) (Pass1.aT1 (E1 (F := Ideal) m ρ) c)))
    (hkps : (Pass1.dat (E1 (F := Ideal) m ρ) c).arrAt 10 cfg0.N = of4 (kkps (Pass1.aW (E1 (F := Ideal) m ρ) c) (Pass1.aX (E1 (F := Ideal) m ρ) c) (Pass1.aWE (E1 (F := Ideal) m ρ) c) (Pass1.aBE (E1 (F := Ideal) m ρ) c)))
    (hvp : (Pass1.dat (E1 (F := Ideal) m ρ) c).arrAt 11 cfg0.N = of4 (kvp (Pass1.aW (E1 (F := Ideal) m ρ) c) (Pass1.aX (E1 (F := Ideal) m ρ) c) (Pass1.aWF (E1 (F := Ideal) m ρ) c) (Pass1.aBF (E1 (F := Ideal) m ρ) c))) :
    Whole.result (F := Ideal) m ρ c = kernelOut m c := by
  unfold Whole.result kernelOut
  rw [FinalValue.final (E4 (F := Ideal) m ρ) c]
  rw [E4_vca, E4_attn, E4_xr, E4_arg6, E4_v6, E4_arg8, E4_v7]
  rw [hvca, hattn]
  rw [SpatialValue.final (E2 (F := Ideal) m ρ) c]
  rw [E2_q, E2_kps, E2_vp, E2_arg11]
  rw [hq, hkps, hvp]
  simp only [Pass1.aX, Pass1.aW, Pass1.aWE, Pass1.aBE, Pass1.aWF, Pass1.aBF, Pass1.aT1]
  rw [E1_arg0, E1_arg1, E1_arg2, E1_arg4, E1_arg10, E1_v0, E1_v1]
  simp only [of4_apply]

end Cert.KernelIdeal.Compose

end
-- ==== Proof.Pass1Pieces.lean ====
/-
  The first kernel call: what each case's stores are, as the body's pure terms.
  Every buffer the body stores into is stored whole, so what it holds afterwards is the last store's term; a load
  that follows a store of the same buffer reads that term back.  Hence, at any float instance: the q and v_ca buffers
  hold the tile's projection rows; each accumulator holds "what it held" plus the tile's contribution, where "what it
  held" is zero at a first tile; at a last tile the three per-batch buffers hold the finalising terms of the NEW
  accumulator values.
-/
import proofs.«149626_j38448547234132_2_alg».proof.Proof.Pass1Outs
import Idealize.ShloMosaic.Lib.Pipeline.Value

set_option maxRecDepth 16384

noncomputable section

namespace Cert.KernelIdeal.Pass1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The 2048-token tile of a [64, 8192] mixture matrix that belongs to the point's token range. -/
abbrev tile (i : grid0.Coords) (x : Vec F S64x8192 .f32) : Vec F S64x2048 .f32 :=
  View.ld x (Rect.unit (s := S64x8192) (k0_off1 i) S64x2048.size (Facts₀.k0_off1_inb i))

/-- The five accumulators after a tile, from the tile's blocks and what they held. -/
abbrev acc0 (x0 : Vec F S1x2048x256 .f32) (x1 : Vec F S1024x256 .f32) (a : Vec F S8x32x32 .f32) : Vec F S8x32x32 .f32 :=
  k0_pay21 (k0_pay16 x0 x1) (k0_pay17 x0 x1) a
abbrev acc1 (x0 : Vec F S1x2048x256 .f32) (x1 : Vec F S1024x256 .f32) (a : Vec F S8x32 .f32) : Vec F S8x32 .f32 :=
  k0_pay22 (k0_pay12 x0 x1) a
abbrev acc2 (x0 : Vec F S1x2048x256 .f32) (x1 : Vec F S1024x256 .f32) (a : Vec F S8x32 .f32) : Vec F S8x32 .f32 :=
  k0_pay23 (k0_pay13 x0 x1) a
abbrev acc3 (i : grid0.Coords) (x0 : Vec F S1x2048x256 .f32) (x1 : Vec F S1024x256 .f32) (x2 : Vec F S64x8192 .f32) (a : Vec F S8x32x64 .f32) : Vec F S8x32x64 .f32 :=
  k0_pay25 (k0_pay17 x0 x1) (k0_pay19 (tile i x2)) a
abbrev acc4 (i : grid0.Coords) (x0 : Vec F S1x2048x256 .f32) (x1 : Vec F S1024x256 .f32) (x4 : Vec F S64x8192 .f32) (a : Vec F S8x32x64 .f32) : Vec F S8x32x64 .f32 :=
  k0_pay1 (k0_pay24 (k0_pay18 x0 x1) (k0_pay20 (tile i x4))) a

theorem pieceFirst_o7 (c : Dev nD) (i : grid0.Coords) (arg2 : Memref sig .tc .vmem S1x2048x256 .f32) (harg2 : arg2.IsWhole) (arg3 : Memref sig .tc .vmem S1024x256 .f32) (harg3 : arg3.IsWhole) (arg4 : Memref sig .tc .vmem S64x8192 .f32) (harg4 : arg4.IsWhole) (arg5 : Memref sig .tc .vmem S1x1x64 .f32) (harg5 : arg5.IsWhole) (arg6 : Memref sig .tc .vmem S64x8192 .f32) (harg6 : arg6.IsWhole) (arg7 : Memref sig .tc .vmem S1x1x64 .f32) (harg7 : arg7.IsWhole) (arg8 : Memref sig .tc .vmem S8x1x1 .f32) (harg8 : arg8.IsWhole) (arg9 : Memref sig .tc .vmem S1x8x32x2048 .bf16) (harg9 : arg9.IsWhole) (arg10 : Memref sig .tc .vmem S1x8x32x2048 .bf16) (harg10 : arg10.IsWhole) (arg11 : Memref sig .tc .vmem S1x8x32x32 .f32) (harg11 : arg11.IsWhole) (arg12 : Memref sig .tc .vmem S1x8x32x64 .f32) (harg12 : arg12.IsWhole) (arg13 : Memref sig .tc .vmem S1x8x32x64 .f32) (harg13 : arg13.IsWhole) (arg14 : Memref sig .tc .vmem S8x32x32 .f32) (harg14 : arg14.IsWhole) (arg15 : Memref sig .tc .vmem S8x32 .f32) (harg15 : arg15.IsWhole) (arg16 : Memref sig .tc .vmem S8x32 .f32) (harg16 : arg16.IsWhole) (arg17 : Memref sig .tc .vmem S8x32x64 .f32) (harg17 : arg17.IsWhole) (arg18 : Memref sig .tc .vmem S8x32x64 .f32) (harg18 : arg18.IsWhole) (hc0 : condFirst i) (hc1 : ¬condLast i) (x0 : Vec F S1x2048x256 .f32) (x1 : Vec F S1024x256 .f32) (x2 : Vec F S64x8192 .f32) (x3 : Vec F S1x1x64 .f32) (x4 : Vec F S64x8192 .f32) (x5 : Vec F S1x1x64 .f32) (x6 : Vec F S8x1x1 .f32) :
    VO7.read (Elt F) (VO7.writes (Elt F) VO7.junk (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6).1) = k0_pay14 x0 x1 := by
  rw [View.read_writes_eq_canon _ _ _ (coverFirst_o7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6)]
  unfold runFirst
  dsimp only
  try sl_unfold_words
  rw [View.canon_cons_unit_zero hz4]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S1024x256) hz2, View.ld_unit_zero (S := S8x32) hz2, View.ld_unit_zero (S := S1x2048x256) hz3, View.ld_unit_zero (S := S1x1x64) hz3, View.ld_unit_zero (S := S8x1x1) hz3, View.ld_unit_zero (S := S8x32x32) hz3, View.ld_unit_zero (S := S8x32x64) hz3, View.ld_unit_zero (S := S1x8x32x2048) hz4, View.ld_unit_zero (S := S1x8x32x32) hz4, View.ld_unit_zero (S := S1x8x32x64) hz4, View.readCov_unit_zero (S := S8x32) _ hz2, View.readCov_unit_zero (S := S8x32x32) _ hz3, View.readCov_unit_zero (S := S8x32x64) _ hz3]
  try rfl

theorem pieceFirst_o8 (c : Dev nD) (i : grid0.Coords) (arg2 : Memref sig .tc .vmem S1x2048x256 .f32) (harg2 : arg2.IsWhole) (arg3 : Memref sig .tc .vmem S1024x256 .f32) (harg3 : arg3.IsWhole) (arg4 : Memref sig .tc .vmem S64x8192 .f32) (harg4 : arg4.IsWhole) (arg5 : Memref sig .tc .vmem S1x1x64 .f32) (harg5 : arg5.IsWhole) (arg6 : Memref sig .tc .vmem S64x8192 .f32) (harg6 : arg6.IsWhole) (arg7 : Memref sig .tc .vmem S1x1x64 .f32) (harg7 : arg7.IsWhole) (arg8 : Memref sig .tc .vmem S8x1x1 .f32) (harg8 : arg8.IsWhole) (arg9 : Memref sig .tc .vmem S1x8x32x2048 .bf16) (harg9 : arg9.IsWhole) (arg10 : Memref sig .tc .vmem S1x8x32x2048 .bf16) (harg10 : arg10.IsWhole) (arg11 : Memref sig .tc .vmem S1x8x32x32 .f32) (harg11 : arg11.IsWhole) (arg12 : Memref sig .tc .vmem S1x8x32x64 .f32) (harg12 : arg12.IsWhole) (arg13 : Memref sig .tc .vmem S1x8x32x64 .f32) (harg13 : arg13.IsWhole) (arg14 : Memref sig .tc .vmem S8x32x32 .f32) (harg14 : arg14.IsWhole) (arg15 : Memref sig .tc .vmem S8x32 .f32) (harg15 : arg15.IsWhole) (arg16 : Memref sig .tc .vmem S8x32 .f32) (harg16 : arg16.IsWhole) (arg17 : Memref sig .tc .vmem S8x32x64 .f32) (harg17 : arg17.IsWhole) (arg18 : Memref sig .tc .vmem S8x32x64 .f32) (harg18 : arg18.IsWhole) (hc0 : condFirst i) (hc1 : ¬condLast i) (x0 : Vec F S1x2048x256 .f32) (x1 : Vec F S1024x256 .f32) (x2 : Vec F S64x8192 .f32) (x3 : Vec F S1x1x64 .f32) (x4 : Vec F S64x8192 .f32) (x5 : Vec F S1x1x64 .f32) (x6 : Vec F S8x1x1 .f32) :
    VO8.read (Elt F) (VO8.writes (Elt F) VO8.junk (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6).2.1) = k0_pay15 x0 x1 := by
  rw [View.read_writes_eq_canon _ _ _ (coverFirst_o8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6)]
  unfold runFirst
  dsimp only
  try sl_unfold_words
  rw [View.canon_cons_unit_zero hz4]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S1024x256) hz2, View.ld_unit_zero (S := S8x32) hz2, View.ld_unit_zero (S := S1x2048x256) hz3, View.ld_unit_zero (S := S1x1x64) hz3, View.ld_unit_zero (S := S8x1x1) hz3, View.ld_unit_zero (S := S8x32x32) hz3, View.ld_unit_zero (S := S8x32x64) hz3, View.ld_unit_zero (S := S1x8x32x2048) hz4, View.ld_unit_zero (S := S1x8x32x32) hz4, View.ld_unit_zero (S := S1x8x32x64) hz4, View.readCov_unit_zero (S := S8x32) _ hz2, View.readCov_unit_zero (S := S8x32x32) _ hz3, View.readCov_unit_zero (S := S8x32x64) _ hz3]
  try rfl

theorem pieceFirst_s0 (c : Dev nD) (i : grid0.Coords) (arg2 : Memref sig .tc .vmem S1x2048x256 .f32) (harg2 : arg2.IsWhole) (arg3 : Memref sig .tc .vmem S1024x256 .f32) (harg3 : arg3.IsWhole) (arg4 : Memref sig .tc .vmem S64x8192 .f32) (harg4 : arg4.IsWhole) (arg5 : Memref sig .tc .vmem S1x1x64 .f32) (harg5 : arg5.IsWhole) (arg6 : Memref sig .tc .vmem S64x8192 .f32) (harg6 : arg6.IsWhole) (arg7 : Memref sig .tc .vmem S1x1x64 .f32) (harg7 : arg7.IsWhole) (arg8 : Memref sig .tc .vmem S8x1x1 .f32) (harg8 : arg8.IsWhole) (arg9 : Memref sig .tc .vmem S1x8x32x2048 .bf16) (harg9 : arg9.IsWhole) (arg10 : Memref sig .tc .vmem S1x8x32x2048 .bf16) (harg10 : arg10.IsWhole) (arg11 : Memref sig .tc .vmem S1x8x32x32 .f32) (harg11 : arg11.IsWhole) (arg12 : Memref sig .tc .vmem S1x8x32x64 .f32) (harg12 : arg12.IsWhole) (arg13 : Memref sig .tc .vmem S1x8x32x64 .f32) (harg13 : arg13.IsWhole) (arg14 : Memref sig .tc .vmem S8x32x32 .f32) (harg14 : arg14.IsWhole) (arg15 : Memref sig .tc .vmem S8x32 .f32) (harg15 : arg15.IsWhole) (arg16 : Memref sig .tc .vmem S8x32 .f32) (harg16 : arg16.IsWhole) (arg17 : Memref sig .tc .vmem S8x32x64 .f32) (harg17 : arg17.IsWhole) (arg18 : Memref sig .tc .vmem S8x32x64 .f32) (harg18 : arg18.IsWhole) (hc0 : condFirst i) (hc1 : ¬condLast i) (x0 : Vec F S1x2048x256 .f32) (x1 : Vec F S1024x256 .f32) (x2 : Vec F S64x8192 .f32) (x3 : Vec F S1x1x64 .f32) (x4 : Vec F S64x8192 .f32) (x5 : Vec F S1x1x64 .f32) (x6 : Vec F S8x1x1 .f32) :
    VS0.read (Elt F) (VS0.writes (Elt F) VS0.junk (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6).2.2.1) = acc0 x0 x1 (k0_pay6 (F := F)) := by
  rw [View.read_writes_eq_canon _ _ _ (coverFirst_s0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6)]
  unfold runFirst
  dsimp only
  try sl_unfold_words
  rw [View.canon_cons_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S1024x256) hz2, View.ld_unit_zero (S := S8x32) hz2, View.ld_unit_zero (S := S1x2048x256) hz3, View.ld_unit_zero (S := S1x1x64) hz3, View.ld_unit_zero (S := S8x1x1) hz3, View.ld_unit_zero (S := S8x32x32) hz3, View.ld_unit_zero (S := S8x32x64) hz3, View.ld_unit_zero (S := S1x8x32x2048) hz4, View.ld_unit_zero (S := S1x8x32x32) hz4, View.ld_unit_zero (S := S1x8x32x64) hz4, View.readCov_unit_zero (S := S8x32) _ hz2, View.readCov_unit_zero (S := S8x32x32) _ hz3, View.readCov_unit_zero (S := S8x32x64) _ hz3]
  try rfl

theorem pieceFirst_s1 (c : Dev nD) (i : grid0.Coords) (arg2 : Memref sig .tc .vmem S1x2048x256 .f32) (harg2 : arg2.IsWhole) (arg3 : Memref sig .tc .vmem S1024x256 .f32) (harg3 : arg3.IsWhole) (arg4 : Memref sig .tc .vmem S64x8192 .f32) (harg4 : arg4.IsWhole) (arg5 : Memref sig .tc .vmem S1x1x64 .f32) (harg5 : arg5.IsWhole) (arg6 : Memref sig .tc .vmem S64x8192 .f32) (harg6 : arg6.IsWhole) (arg7 : Memref sig .tc .vmem S1x1x64 .f32) (harg7 : arg7.IsWhole) (arg8 : Memref sig .tc .vmem S8x1x1 .f32) (harg8 : arg8.IsWhole) (arg9 : Memref sig .tc .vmem S1x8x32x2048 .bf16) (harg9 : arg9.IsWhole) (arg10 : Memref sig .tc .vmem S1x8x32x2048 .bf16) (harg10 : arg10.IsWhole) (arg11 : Memref sig .tc .vmem S1x8x32x32 .f32) (harg11 : arg11.IsWhole) (arg12 : Memref sig .tc .vmem S1x8x32x64 .f32) (harg12 : arg12.IsWhole) (arg13 : Memref sig .tc .vmem S1x8x32x64 .f32) (harg13 : arg13.IsWhole) (arg14 : Memref sig .tc .vmem S8x32x32 .f32) (harg14 : arg14.IsWhole) (arg15 : Memref sig .tc .vmem S8x32 .f32) (harg15 : arg15.IsWhole) (arg16 : Memref sig .tc .vmem S8x32 .f32) (harg16 : arg16.IsWhole) (arg17 : Memref sig .tc .vmem S8x32x64 .f32) (harg17 : arg17.IsWhole) (arg18 : Memref sig .tc .vmem S8x32x64 .f32) (harg18 : arg18.IsWhole) (hc0 : condFirst i) (hc1 : ¬condLast i) (x0 : Vec F S1x2048x256 .f32) (x1 : Vec F S1024x256 .f32) (x2 : Vec F S64x8192 .f32) (x3 : Vec F S1x1x64 .f32) (x4 : Vec F S64x8192 .f32) (x5 : Vec F S1x1x64 .f32) (x6 : Vec F S8x1x1 .f32) :
    VS1.read (Elt F) (VS1.writes (Elt F) VS1.junk (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6).2.2.2.1) = acc1 x0 x1 (k0_pay7 (F := F)) := by
  rw [View.read_writes_eq_canon _ _ _ (coverFirst_s1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6)]
  unfold runFirst
  dsimp only
  try sl_unfold_words
  rw [View.canon_cons_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S1024x256) hz2, View.ld_unit_zero (S := S8x32) hz2, View.ld_unit_zero (S := S1x2048x256) hz3, View.ld_unit_zero (S := S1x1x64) hz3, View.ld_unit_zero (S := S8x1x1) hz3, View.ld_unit_zero (S := S8x32x32) hz3, View.ld_unit_zero (S := S8x32x64) hz3, View.ld_unit_zero (S := S1x8x32x2048) hz4, View.ld_unit_zero (S := S1x8x32x32) hz4, View.ld_unit_zero (S := S1x8x32x64) hz4, View.readCov_unit_zero (S := S8x32) _ hz2, View.readCov_unit_zero (S := S8x32x32) _ hz3, View.readCov_unit_zero (S := S8x32x64) _ hz3]
  try rfl

theorem pieceFirst_s2 (c : Dev nD) (i : grid0.Coords) (arg2 : Memref sig .tc .vmem S1x2048x256 .f32) (harg2 : arg2.IsWhole) (arg3 : Memref sig .tc .vmem S1024x256 .f32) (harg3 : arg3.IsWhole) (arg4 : Memref sig .tc .vmem S64x8192 .f32) (harg4 : arg4.IsWhole) (arg5 : Memref sig .tc .vmem S1x1x64 .f32) (harg5 : arg5.IsWhole) (arg6 : Memref sig .tc .vmem S64x8192 .f32) (harg6 : arg6.IsWhole) (arg7 : Memref sig .tc .vmem S1x1x64 .f32) (harg7 : arg7.IsWhole) (arg8 : Memref sig .tc .vmem S8x1x1 .f32) (harg8 : arg8.IsWhole) (arg9 : Memref sig .tc .vmem S1x8x32x2048 .bf16) (harg9 : arg9.IsWhole) (arg10 : Memref sig .tc .vmem S1x8x32x2048 .bf16) (harg10 : arg10.IsWhole) (arg11 : Memref sig .tc .vmem S1x8x32x32 .f32) (harg11 : arg11.IsWhole) (arg12 : Memref sig .tc .vmem S1x8x32x64 .f32) (harg12 : arg12.IsWhole) (arg13 : Memref sig .tc .vmem S1x8x32x64 .f32) (harg13 : arg13.IsWhole) (arg14 : Memref sig .tc .vmem S8x32x32 .f32) (harg14 : arg14.IsWhole) (arg15 : Memref sig .tc .vmem S8x32 .f32) (harg15 : arg15.IsWhole) (arg16 : Memref sig .tc .vmem S8x32 .f32) (harg16 : arg16.IsWhole) (arg17 : Memref sig .tc .vmem S8x32x64 .f32) (harg17 : arg17.IsWhole) (arg18 : Memref sig .tc .vmem S8x32x64 .f32) (harg18 : arg18.IsWhole) (hc0 : condFirst i) (hc1 : ¬condLast i) (x0 : Vec F S1x2048x256 .f32) (x1 : Vec F S1024x256 .f32) (x2 : Vec F S64x8192 .f32) (x3 : Vec F S1x1x64 .f32) (x4 : Vec F S64x8192 .f32) (x5 : Vec F S1x1x64 .f32) (x6 : Vec F S8x1x1 .f32) :
    VS2.read (Elt F) (VS2.writes (Elt F) VS2.junk (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6).2.2.2.2.1) = acc2 x0 x1 (k0_pay8 (F := F)) := by
  rw [View.read_writes_eq_canon _ _ _ (coverFirst_s2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6)]
  unfold runFirst
  dsimp only
  try sl_unfold_words
  rw [View.canon_cons_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S1024x256) hz2, View.ld_unit_zero (S := S8x32) hz2, View.ld_unit_zero (S := S1x2048x256) hz3, View.ld_unit_zero (S := S1x1x64) hz3, View.ld_unit_zero (S := S8x1x1) hz3, View.ld_unit_zero (S := S8x32x32) hz3, View.ld_unit_zero (S := S8x32x64) hz3, View.ld_unit_zero (S := S1x8x32x2048) hz4, View.ld_unit_zero (S := S1x8x32x32) hz4, View.ld_unit_zero (S := S1x8x32x64) hz4, View.readCov_unit_zero (S := S8x32) _ hz2, View.readCov_unit_zero (S := S8x32x32) _ hz3, View.readCov_unit_zero (S := S8x32x64) _ hz3]
  try rfl

theorem pieceFirst_s3 (c : Dev nD) (i : grid0.Coords) (arg2 : Memref sig .tc .vmem S1x2048x256 .f32) (harg2 : arg2.IsWhole) (arg3 : Memref sig .tc .vmem S1024x256 .f32) (harg3 : arg3.IsWhole) (arg4 : Memref sig .tc .vmem S64x8192 .f32) (harg4 : arg4.IsWhole) (arg5 : Memref sig .tc .vmem S1x1x64 .f32) (harg5 : arg5.IsWhole) (arg6 : Memref sig .tc .vmem S64x8192 .f32) (harg6 : arg6.IsWhole) (arg7 : Memref sig .tc .vmem S1x1x64 .f32) (harg7 : arg7.IsWhole) (arg8 : Memref sig .tc .vmem S8x1x1 .f32) (harg8 : arg8.IsWhole) (arg9 : Memref sig .tc .vmem S1x8x32x2048 .bf16) (harg9 : arg9.IsWhole) (arg10 : Memref sig .tc .vmem S1x8x32x2048 .bf16) (harg10 : arg10.IsWhole) (arg11 : Memref sig .tc .vmem S1x8x32x32 .f32) (harg11 : arg11.IsWhole) (arg12 : Memref sig .tc .vmem S1x8x32x64 .f32) (harg12 : arg12.IsWhole) (arg13 : Memref sig .tc .vmem S1x8x32x64 .f32) (harg13 : arg13.IsWhole) (arg14 : Memref sig .tc .vmem S8x32x32 .f32) (harg14 : arg14.IsWhole) (arg15 : Memref sig .tc .vmem S8x32 .f32) (harg15 : arg15.IsWhole) (arg16 : Memref sig .tc .vmem S8x32 .f32) (harg16 : arg16.IsWhole) (arg17 : Memref sig .tc .vmem S8x32x64 .f32) (harg17 : arg17.IsWhole) (arg18 : Memref sig .tc .vmem S8x32x64 .f32) (harg18 : arg18.IsWhole) (hc0 : condFirst i) (hc1 : ¬condLast i) (x0 : Vec F S1x2048x256 .f32) (x1 : Vec F S1024x256 .f32) (x2 : Vec F S64x8192 .f32) (x3 : Vec F S1x1x64 .f32) (x4 : Vec F S64x8192 .f32) (x5 : Vec F S1x1x64 .f32) (x6 : Vec F S8x1x1 .f32) :
    VS3.read (Elt F) (VS3.writes (Elt F) VS3.junk (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6).2.2.2.2.2.1) = acc3 i x0 x1 x2 (k0_pay9 (F := F)) := by
  rw [View.read_writes_eq_canon _ _ _ (coverFirst_s3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6)]
  unfold runFirst
  dsimp only
  try sl_unfold_words
  rw [View.canon_cons_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S1024x256) hz2, View.ld_unit_zero (S := S8x32) hz2, View.ld_unit_zero (S := S1x2048x256) hz3, View.ld_unit_zero (S := S1x1x64) hz3, View.ld_unit_zero (S := S8x1x1) hz3, View.ld_unit_zero (S := S8x32x32) hz3, View.ld_unit_zero (S := S8x32x64) hz3, View.ld_unit_zero (S := S1x8x32x2048) hz4, View.ld_unit_zero (S := S1x8x32x32) hz4, View.ld_unit_zero (S := S1x8x32x64) hz4, View.readCov_unit_zero (S := S8x32) _ hz2, View.readCov_unit_zero (S := S8x32x32) _ hz3, View.readCov_unit_zero (S := S8x32x64) _ hz3]
  try rfl

theorem pieceFirst_s4 (c : Dev nD) (i : grid0.Coords) (arg2 : Memref sig .tc .vmem S1x2048x256 .f32) (harg2 : arg2.IsWhole) (arg3 : Memref sig .tc .vmem S1024x256 .f32) (harg3 : arg3.IsWhole) (arg4 : Memref sig .tc .vmem S64x8192 .f32) (harg4 : arg4.IsWhole) (arg5 : Memref sig .tc .vmem S1x1x64 .f32) (harg5 : arg5.IsWhole) (arg6 : Memref sig .tc .vmem S64x8192 .f32) (harg6 : arg6.IsWhole) (arg7 : Memref sig .tc .vmem S1x1x64 .f32) (harg7 : arg7.IsWhole) (arg8 : Memref sig .tc .vmem S8x1x1 .f32) (harg8 : arg8.IsWhole) (arg9 : Memref sig .tc .vmem S1x8x32x2048 .bf16) (harg9 : arg9.IsWhole) (arg10 : Memref sig .tc .vmem S1x8x32x2048 .bf16) (harg10 : arg10.IsWhole) (arg11 : Memref sig .tc .vmem S1x8x32x32 .f32) (harg11 : arg11.IsWhole) (arg12 : Memref sig .tc .vmem S1x8x32x64 .f32) (harg12 : arg12.IsWhole) (arg13 : Memref sig .tc .vmem S1x8x32x64 .f32) (harg13 : arg13.IsWhole) (arg14 : Memref sig .tc .vmem S8x32x32 .f32) (harg14 : arg14.IsWhole) (arg15 : Memref sig .tc .vmem S8x32 .f32) (harg15 : arg15.IsWhole) (arg16 : Memref sig .tc .vmem S8x32 .f32) (harg16 : arg16.IsWhole) (arg17 : Memref sig .tc .vmem S8x32x64 .f32) (harg17 : arg17.IsWhole) (arg18 : Memref sig .tc .vmem S8x32x64 .f32) (harg18 : arg18.IsWhole) (hc0 : condFirst i) (hc1 : ¬condLast i) (x0 : Vec F S1x2048x256 .f32) (x1 : Vec F S1024x256 .f32) (x2 : Vec F S64x8192 .f32) (x3 : Vec F S1x1x64 .f32) (x4 : Vec F S64x8192 .f32) (x5 : Vec F S1x1x64 .f32) (x6 : Vec F S8x1x1 .f32) :
    VS4.read (Elt F) (VS4.writes (Elt F) VS4.junk (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6).2.2.2.2.2.2.1) = acc4 i x0 x1 x4 (k0_pay10 (F := F)) := by
  rw [View.read_writes_eq_canon _ _ _ (coverFirst_s4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6)]
  unfold runFirst
  dsimp only
  try sl_unfold_words
  rw [View.canon_cons_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S1024x256) hz2, View.ld_unit_zero (S := S8x32) hz2, View.ld_unit_zero (S := S1x2048x256) hz3, View.ld_unit_zero (S := S1x1x64) hz3, View.ld_unit_zero (S := S8x1x1) hz3, View.ld_unit_zero (S := S8x32x32) hz3, View.ld_unit_zero (S := S8x32x64) hz3, View.ld_unit_zero (S := S1x8x32x2048) hz4, View.ld_unit_zero (S := S1x8x32x32) hz4, View.ld_unit_zero (S := S1x8x32x64) hz4, View.readCov_unit_zero (S := S8x32) _ hz2, View.readCov_unit_zero (S := S8x32x32) _ hz3, View.readCov_unit_zero (S := S8x32x64) _ hz3]
  try rfl

theorem pieceMid_o7 (c : Dev nD) (i : grid0.Coords) (arg2 : Memref sig .tc .vmem S1x2048x256 .f32) (harg2 : arg2.IsWhole) (arg3 : Memref sig .tc .vmem S1024x256 .f32) (harg3 : arg3.IsWhole) (arg4 : Memref sig .tc .vmem S64x8192 .f32) (harg4 : arg4.IsWhole) (arg5 : Memref sig .tc .vmem S1x1x64 .f32) (harg5 : arg5.IsWhole) (arg6 : Memref sig .tc .vmem S64x8192 .f32) (harg6 : arg6.IsWhole) (arg7 : Memref sig .tc .vmem S1x1x64 .f32) (harg7 : arg7.IsWhole) (arg8 : Memref sig .tc .vmem S8x1x1 .f32) (harg8 : arg8.IsWhole) (arg9 : Memref sig .tc .vmem S1x8x32x2048 .bf16) (harg9 : arg9.IsWhole) (arg10 : Memref sig .tc .vmem S1x8x32x2048 .bf16) (harg10 : arg10.IsWhole) (arg11 : Memref sig .tc .vmem S1x8x32x32 .f32) (harg11 : arg11.IsWhole) (arg12 : Memref sig .tc .vmem S1x8x32x64 .f32) (harg12 : arg12.IsWhole) (arg13 : Memref sig .tc .vmem S1x8x32x64 .f32) (harg13 : arg13.IsWhole) (arg14 : Memref sig .tc .vmem S8x32x32 .f32) (harg14 : arg14.IsWhole) (arg15 : Memref sig .tc .vmem S8x32 .f32) (harg15 : arg15.IsWhole) (arg16 : Memref sig .tc .vmem S8x32 .f32) (harg16 : arg16.IsWhole) (arg17 : Memref sig .tc .vmem S8x32x64 .f32) (harg17 : arg17.IsWhole) (arg18 : Memref sig .tc .vmem S8x32x64 .f32) (harg18 : arg18.IsWhole) (hc0 : ¬condFirst i) (hc1 : ¬condLast i) (x0 : Vec F S1x2048x256 .f32) (x1 : Vec F S1024x256 .f32) (x2 : Vec F S64x8192 .f32) (x3 : Vec F S1x1x64 .f32) (x4 : Vec F S64x8192 .f32) (x5 : Vec F S1x1x64 .f32) (x6 : Vec F S8x1x1 .f32) (xs0 : Vec F S8x32x32 .f32) (xs1 : Vec F S8x32 .f32) (xs2 : Vec F S8x32 .f32) (xs3 : Vec F S8x32x64 .f32) (xs4 : Vec F S8x32x64 .f32) :
    VO7.read (Elt F) (VO7.writes (Elt F) VO7.junk (runMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4).1) = k0_pay14 x0 x1 := by
  rw [View.read_writes_eq_canon _ _ _ (coverMid_o7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4)]
  unfold runMid
  dsimp only
  try sl_unfold_words
  rw [View.canon_cons_unit_zero hz4]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S1024x256) hz2, View.ld_unit_zero (S := S8x32) hz2, View.ld_unit_zero (S := S1x2048x256) hz3, View.ld_unit_zero (S := S1x1x64) hz3, View.ld_unit_zero (S := S8x1x1) hz3, View.ld_unit_zero (S := S8x32x32) hz3, View.ld_unit_zero (S := S8x32x64) hz3, View.ld_unit_zero (S := S1x8x32x2048) hz4, View.ld_unit_zero (S := S1x8x32x32) hz4, View.ld_unit_zero (S := S1x8x32x64) hz4, View.readCov_unit_zero (S := S8x32) _ hz2, View.readCov_unit_zero (S := S8x32x32) _ hz3, View.readCov_unit_zero (S := S8x32x64) _ hz3]
  try rfl

theorem pieceMid_o8 (c : Dev nD) (i : grid0.Coords) (arg2 : Memref sig .tc .vmem S1x2048x256 .f32) (harg2 : arg2.IsWhole) (arg3 : Memref sig .tc .vmem S1024x256 .f32) (harg3 : arg3.IsWhole) (arg4 : Memref sig .tc .vmem S64x8192 .f32) (harg4 : arg4.IsWhole) (arg5 : Memref sig .tc .vmem S1x1x64 .f32) (harg5 : arg5.IsWhole) (arg6 : Memref sig .tc .vmem S64x8192 .f32) (harg6 : arg6.IsWhole) (arg7 : Memref sig .tc .vmem S1x1x64 .f32) (harg7 : arg7.IsWhole) (arg8 : Memref sig .tc .vmem S8x1x1 .f32) (harg8 : arg8.IsWhole) (arg9 : Memref sig .tc .vmem S1x8x32x2048 .bf16) (harg9 : arg9.IsWhole) (arg10 : Memref sig .tc .vmem S1x8x32x2048 .bf16) (harg10 : arg10.IsWhole) (arg11 : Memref sig .tc .vmem S1x8x32x32 .f32) (harg11 : arg11.IsWhole) (arg12 : Memref sig .tc .vmem S1x8x32x64 .f32) (harg12 : arg12.IsWhole) (arg13 : Memref sig .tc .vmem S1x8x32x64 .f32) (harg13 : arg13.IsWhole) (arg14 : Memref sig .tc .vmem S8x32x32 .f32) (harg14 : arg14.IsWhole) (arg15 : Memref sig .tc .vmem S8x32 .f32) (harg15 : arg15.IsWhole) (arg16 : Memref sig .tc .vmem S8x32 .f32) (harg16 : arg16.IsWhole) (arg17 : Memref sig .tc .vmem S8x32x64 .f32) (harg17 : arg17.IsWhole) (arg18 : Memref sig .tc .vmem S8x32x64 .f32) (harg18 : arg18.IsWhole) (hc0 : ¬condFirst i) (hc1 : ¬condLast i) (x0 : Vec F S1x2048x256 .f32) (x1 : Vec F S1024x256 .f32) (x2 : Vec F S64x8192 .f32) (x3 : Vec F S1x1x64 .f32) (x4 : Vec F S64x8192 .f32) (x5 : Vec F S1x1x64 .f32) (x6 : Vec F S8x1x1 .f32) (xs0 : Vec F S8x32x32 .f32) (xs1 : Vec F S8x32 .f32) (xs2 : Vec F S8x32 .f32) (xs3 : Vec F S8x32x64 .f32) (xs4 : Vec F S8x32x64 .f32) :
    VO8.read (Elt F) (VO8.writes (Elt F) VO8.junk (runMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4).2.1) = k0_pay15 x0 x1 := by
  rw [View.read_writes_eq_canon _ _ _ (coverMid_o8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4)]
  unfold runMid
  dsimp only
  try sl_unfold_words
  rw [View.canon_cons_unit_zero hz4]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S1024x256) hz2, View.ld_unit_zero (S := S8x32) hz2, View.ld_unit_zero (S := S1x2048x256) hz3, View.ld_unit_zero (S := S1x1x64) hz3, View.ld_unit_zero (S := S8x1x1) hz3, View.ld_unit_zero (S := S8x32x32) hz3, View.ld_unit_zero (S := S8x32x64) hz3, View.ld_unit_zero (S := S1x8x32x2048) hz4, View.ld_unit_zero (S := S1x8x32x32) hz4, View.ld_unit_zero (S := S1x8x32x64) hz4, View.readCov_unit_zero (S := S8x32) _ hz2, View.readCov_unit_zero (S := S8x32x32) _ hz3, View.readCov_unit_zero (S := S8x32x64) _ hz3]
  try rfl

theorem pieceMid_s0 (c : Dev nD) (i : grid0.Coords) (arg2 : Memref sig .tc .vmem S1x2048x256 .f32) (harg2 : arg2.IsWhole) (arg3 : Memref sig .tc .vmem S1024x256 .f32) (harg3 : arg3.IsWhole) (arg4 : Memref sig .tc .vmem S64x8192 .f32) (harg4 : arg4.IsWhole) (arg5 : Memref sig .tc .vmem S1x1x64 .f32) (harg5 : arg5.IsWhole) (arg6 : Memref sig .tc .vmem S64x8192 .f32) (harg6 : arg6.IsWhole) (arg7 : Memref sig .tc .vmem S1x1x64 .f32) (harg7 : arg7.IsWhole) (arg8 : Memref sig .tc .vmem S8x1x1 .f32) (harg8 : arg8.IsWhole) (arg9 : Memref sig .tc .vmem S1x8x32x2048 .bf16) (harg9 : arg9.IsWhole) (arg10 : Memref sig .tc .vmem S1x8x32x2048 .bf16) (harg10 : arg10.IsWhole) (arg11 : Memref sig .tc .vmem S1x8x32x32 .f32) (harg11 : arg11.IsWhole) (arg12 : Memref sig .tc .vmem S1x8x32x64 .f32) (harg12 : arg12.IsWhole) (arg13 : Memref sig .tc .vmem S1x8x32x64 .f32) (harg13 : arg13.IsWhole) (arg14 : Memref sig .tc .vmem S8x32x32 .f32) (harg14 : arg14.IsWhole) (arg15 : Memref sig .tc .vmem S8x32 .f32) (harg15 : arg15.IsWhole) (arg16 : Memref sig .tc .vmem S8x32 .f32) (harg16 : arg16.IsWhole) (arg17 : Memref sig .tc .vmem S8x32x64 .f32) (harg17 : arg17.IsWhole) (arg18 : Memref sig .tc .vmem S8x32x64 .f32) (harg18 : arg18.IsWhole) (hc0 : ¬condFirst i) (hc1 : ¬condLast i) (x0 : Vec F S1x2048x256 .f32) (x1 : Vec F S1024x256 .f32) (x2 : Vec F S64x8192 .f32) (x3 : Vec F S1x1x64 .f32) (x4 : Vec F S64x8192 .f32) (x5 : Vec F S1x1x64 .f32) (x6 : Vec F S8x1x1 .f32) (xs0 : Vec F S8x32x32 .f32) (xs1 : Vec F S8x32 .f32) (xs2 : Vec F S8x32 .f32) (xs3 : Vec F S8x32x64 .f32) (xs4 : Vec F S8x32x64 .f32) :
    VS0.read (Elt F) (VS0.writes (Elt F) VS0.junk (runMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4).2.2.1) = acc0 x0 x1 xs0 := by
  rw [View.read_writes_eq_canon _ _ _ (coverMid_s0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4)]
  unfold runMid
  dsimp only
  try sl_unfold_words
  rw [View.canon_cons_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S1024x256) hz2, View.ld_unit_zero (S := S8x32) hz2, View.ld_unit_zero (S := S1x2048x256) hz3, View.ld_unit_zero (S := S1x1x64) hz3, View.ld_unit_zero (S := S8x1x1) hz3, View.ld_unit_zero (S := S8x32x32) hz3, View.ld_unit_zero (S := S8x32x64) hz3, View.ld_unit_zero (S := S1x8x32x2048) hz4, View.ld_unit_zero (S := S1x8x32x32) hz4, View.ld_unit_zero (S := S1x8x32x64) hz4, View.readCov_unit_zero (S := S8x32) _ hz2, View.readCov_unit_zero (S := S8x32x32) _ hz3, View.readCov_unit_zero (S := S8x32x64) _ hz3]
  try rfl

theorem pieceMid_s1 (c : Dev nD) (i : grid0.Coords) (arg2 : Memref sig .tc .vmem S1x2048x256 .f32) (harg2 : arg2.IsWhole) (arg3 : Memref sig .tc .vmem S1024x256 .f32) (harg3 : arg3.IsWhole) (arg4 : Memref sig .tc .vmem S64x8192 .f32) (harg4 : arg4.IsWhole) (arg5 : Memref sig .tc .vmem S1x1x64 .f32) (harg5 : arg5.IsWhole) (arg6 : Memref sig .tc .vmem S64x8192 .f32) (harg6 : arg6.IsWhole) (arg7 : Memref sig .tc .vmem S1x1x64 .f32) (harg7 : arg7.IsWhole) (arg8 : Memref sig .tc .vmem S8x1x1 .f32) (harg8 : arg8.IsWhole) (arg9 : Memref sig .tc .vmem S1x8x32x2048 .bf16) (harg9 : arg9.IsWhole) (arg10 : Memref sig .tc .vmem S1x8x32x2048 .bf16) (harg10 : arg10.IsWhole) (arg11 : Memref sig .tc .vmem S1x8x32x32 .f32) (harg11 : arg11.IsWhole) (arg12 : Memref sig .tc .vmem S1x8x32x64 .f32) (harg12 : arg12.IsWhole) (arg13 : Memref sig .tc .vmem S1x8x32x64 .f32) (harg13 : arg13.IsWhole) (arg14 : Memref sig .tc .vmem S8x32x32 .f32) (harg14 : arg14.IsWhole) (arg15 : Memref sig .tc .vmem S8x32 .f32) (harg15 : arg15.IsWhole) (arg16 : Memref sig .tc .vmem S8x32 .f32) (harg16 : arg16.IsWhole) (arg17 : Memref sig .tc .vmem S8x32x64 .f32) (harg17 : arg17.IsWhole) (arg18 : Memref sig .tc .vmem S8x32x64 .f32) (harg18 : arg18.IsWhole) (hc0 : ¬condFirst i) (hc1 : ¬condLast i) (x0 : Vec F S1x2048x256 .f32) (x1 : Vec F S1024x256 .f32) (x2 : Vec F S64x8192 .f32) (x3 : Vec F S1x1x64 .f32) (x4 : Vec F S64x8192 .f32) (x5 : Vec F S1x1x64 .f32) (x6 : Vec F S8x1x1 .f32) (xs0 : Vec F S8x32x32 .f32) (xs1 : Vec F S8x32 .f32) (xs2 : Vec F S8x32 .f32) (xs3 : Vec F S8x32x64 .f32) (xs4 : Vec F S8x32x64 .f32) :
    VS1.read (Elt F) (VS1.writes (Elt F) VS1.junk (runMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4).2.2.2.1) = acc1 x0 x1 xs1 := by
  rw [View.read_writes_eq_canon _ _ _ (coverMid_s1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4)]
  unfold runMid
  dsimp only
  try sl_unfold_words
  rw [View.canon_cons_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S1024x256) hz2, View.ld_unit_zero (S := S8x32) hz2, View.ld_unit_zero (S := S1x2048x256) hz3, View.ld_unit_zero (S := S1x1x64) hz3, View.ld_unit_zero (S := S8x1x1) hz3, View.ld_unit_zero (S := S8x32x32) hz3, View.ld_unit_zero (S := S8x32x64) hz3, View.ld_unit_zero (S := S1x8x32x2048) hz4, View.ld_unit_zero (S := S1x8x32x32) hz4, View.ld_unit_zero (S := S1x8x32x64) hz4, View.readCov_unit_zero (S := S8x32) _ hz2, View.readCov_unit_zero (S := S8x32x32) _ hz3, View.readCov_unit_zero (S := S8x32x64) _ hz3]
  try rfl

theorem pieceMid_s2 (c : Dev nD) (i : grid0.Coords) (arg2 : Memref sig .tc .vmem S1x2048x256 .f32) (harg2 : arg2.IsWhole) (arg3 : Memref sig .tc .vmem S1024x256 .f32) (harg3 : arg3.IsWhole) (arg4 : Memref sig .tc .vmem S64x8192 .f32) (harg4 : arg4.IsWhole) (arg5 : Memref sig .tc .vmem S1x1x64 .f32) (harg5 : arg5.IsWhole) (arg6 : Memref sig .tc .vmem S64x8192 .f32) (harg6 : arg6.IsWhole) (arg7 : Memref sig .tc .vmem S1x1x64 .f32) (harg7 : arg7.IsWhole) (arg8 : Memref sig .tc .vmem S8x1x1 .f32) (harg8 : arg8.IsWhole) (arg9 : Memref sig .tc .vmem S1x8x32x2048 .bf16) (harg9 : arg9.IsWhole) (arg10 : Memref sig .tc .vmem S1x8x32x2048 .bf16) (harg10 : arg10.IsWhole) (arg11 : Memref sig .tc .vmem S1x8x32x32 .f32) (harg11 : arg11.IsWhole) (arg12 : Memref sig .tc .vmem S1x8x32x64 .f32) (harg12 : arg12.IsWhole) (arg13 : Memref sig .tc .vmem S1x8x32x64 .f32) (harg13 : arg13.IsWhole) (arg14 : Memref sig .tc .vmem S8x32x32 .f32) (harg14 : arg14.IsWhole) (arg15 : Memref sig .tc .vmem S8x32 .f32) (harg15 : arg15.IsWhole) (arg16 : Memref sig .tc .vmem S8x32 .f32) (harg16 : arg16.IsWhole) (arg17 : Memref sig .tc .vmem S8x32x64 .f32) (harg17 : arg17.IsWhole) (arg18 : Memref sig .tc .vmem S8x32x64 .f32) (harg18 : arg18.IsWhole) (hc0 : ¬condFirst i) (hc1 : ¬condLast i) (x0 : Vec F S1x2048x256 .f32) (x1 : Vec F S1024x256 .f32) (x2 : Vec F S64x8192 .f32) (x3 : Vec F S1x1x64 .f32) (x4 : Vec F S64x8192 .f32) (x5 : Vec F S1x1x64 .f32) (x6 : Vec F S8x1x1 .f32) (xs0 : Vec F S8x32x32 .f32) (xs1 : Vec F S8x32 .f32) (xs2 : Vec F S8x32 .f32) (xs3 : Vec F S8x32x64 .f32) (xs4 : Vec F S8x32x64 .f32) :
    VS2.read (Elt F) (VS2.writes (Elt F) VS2.junk (runMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4).2.2.2.2.1) = acc2 x0 x1 xs2 := by
  rw [View.read_writes_eq_canon _ _ _ (coverMid_s2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4)]
  unfold runMid
  dsimp only
  try sl_unfold_words
  rw [View.canon_cons_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S1024x256) hz2, View.ld_unit_zero (S := S8x32) hz2, View.ld_unit_zero (S := S1x2048x256) hz3, View.ld_unit_zero (S := S1x1x64) hz3, View.ld_unit_zero (S := S8x1x1) hz3, View.ld_unit_zero (S := S8x32x32) hz3, View.ld_unit_zero (S := S8x32x64) hz3, View.ld_unit_zero (S := S1x8x32x2048) hz4, View.ld_unit_zero (S := S1x8x32x32) hz4, View.ld_unit_zero (S := S1x8x32x64) hz4, View.readCov_unit_zero (S := S8x32) _ hz2, View.readCov_unit_zero (S := S8x32x32) _ hz3, View.readCov_unit_zero (S := S8x32x64) _ hz3]
  try rfl

theorem pieceMid_s3 (c : Dev nD) (i : grid0.Coords) (arg2 : Memref sig .tc .vmem S1x2048x256 .f32) (harg2 : arg2.IsWhole) (arg3 : Memref sig .tc .vmem S1024x256 .f32) (harg3 : arg3.IsWhole) (arg4 : Memref sig .tc .vmem S64x8192 .f32) (harg4 : arg4.IsWhole) (arg5 : Memref sig .tc .vmem S1x1x64 .f32) (harg5 : arg5.IsWhole) (arg6 : Memref sig .tc .vmem S64x8192 .f32) (harg6 : arg6.IsWhole) (arg7 : Memref sig .tc .vmem S1x1x64 .f32) (harg7 : arg7.IsWhole) (arg8 : Memref sig .tc .vmem S8x1x1 .f32) (harg8 : arg8.IsWhole) (arg9 : Memref sig .tc .vmem S1x8x32x2048 .bf16) (harg9 : arg9.IsWhole) (arg10 : Memref sig .tc .vmem S1x8x32x2048 .bf16) (harg10 : arg10.IsWhole) (arg11 : Memref sig .tc .vmem S1x8x32x32 .f32) (harg11 : arg11.IsWhole) (arg12 : Memref sig .tc .vmem S1x8x32x64 .f32) (harg12 : arg12.IsWhole) (arg13 : Memref sig .tc .vmem S1x8x32x64 .f32) (harg13 : arg13.IsWhole) (arg14 : Memref sig .tc .vmem S8x32x32 .f32) (harg14 : arg14.IsWhole) (arg15 : Memref sig .tc .vmem S8x32 .f32) (harg15 : arg15.IsWhole) (arg16 : Memref sig .tc .vmem S8x32 .f32) (harg16 : arg16.IsWhole) (arg17 : Memref sig .tc .vmem S8x32x64 .f32) (harg17 : arg17.IsWhole) (arg18 : Memref sig .tc .vmem S8x32x64 .f32) (harg18 : arg18.IsWhole) (hc0 : ¬condFirst i) (hc1 : ¬condLast i) (x0 : Vec F S1x2048x256 .f32) (x1 : Vec F S1024x256 .f32) (x2 : Vec F S64x8192 .f32) (x3 : Vec F S1x1x64 .f32) (x4 : Vec F S64x8192 .f32) (x5 : Vec F S1x1x64 .f32) (x6 : Vec F S8x1x1 .f32) (xs0 : Vec F S8x32x32 .f32) (xs1 : Vec F S8x32 .f32) (xs2 : Vec F S8x32 .f32) (xs3 : Vec F S8x32x64 .f32) (xs4 : Vec F S8x32x64 .f32) :
    VS3.read (Elt F) (VS3.writes (Elt F) VS3.junk (runMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4).2.2.2.2.2.1) = acc3 i x0 x1 x2 xs3 := by
  rw [View.read_writes_eq_canon _ _ _ (coverMid_s3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4)]
  unfold runMid
  dsimp only
  try sl_unfold_words
  rw [View.canon_cons_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S1024x256) hz2, View.ld_unit_zero (S := S8x32) hz2, View.ld_unit_zero (S := S1x2048x256) hz3, View.ld_unit_zero (S := S1x1x64) hz3, View.ld_unit_zero (S := S8x1x1) hz3, View.ld_unit_zero (S := S8x32x32) hz3, View.ld_unit_zero (S := S8x32x64) hz3, View.ld_unit_zero (S := S1x8x32x2048) hz4, View.ld_unit_zero (S := S1x8x32x32) hz4, View.ld_unit_zero (S := S1x8x32x64) hz4, View.readCov_unit_zero (S := S8x32) _ hz2, View.readCov_unit_zero (S := S8x32x32) _ hz3, View.readCov_unit_zero (S := S8x32x64) _ hz3]
  try rfl

theorem pieceMid_s4 (c : Dev nD) (i : grid0.Coords) (arg2 : Memref sig .tc .vmem S1x2048x256 .f32) (harg2 : arg2.IsWhole) (arg3 : Memref sig .tc .vmem S1024x256 .f32) (harg3 : arg3.IsWhole) (arg4 : Memref sig .tc .vmem S64x8192 .f32) (harg4 : arg4.IsWhole) (arg5 : Memref sig .tc .vmem S1x1x64 .f32) (harg5 : arg5.IsWhole) (arg6 : Memref sig .tc .vmem S64x8192 .f32) (harg6 : arg6.IsWhole) (arg7 : Memref sig .tc .vmem S1x1x64 .f32) (harg7 : arg7.IsWhole) (arg8 : Memref sig .tc .vmem S8x1x1 .f32) (harg8 : arg8.IsWhole) (arg9 : Memref sig .tc .vmem S1x8x32x2048 .bf16) (harg9 : arg9.IsWhole) (arg10 : Memref sig .tc .vmem S1x8x32x2048 .bf16) (harg10 : arg10.IsWhole) (arg11 : Memref sig .tc .vmem S1x8x32x32 .f32) (harg11 : arg11.IsWhole) (arg12 : Memref sig .tc .vmem S1x8x32x64 .f32) (harg12 : arg12.IsWhole) (arg13 : Memref sig .tc .vmem S1x8x32x64 .f32) (harg13 : arg13.IsWhole) (arg14 : Memref sig .tc .vmem S8x32x32 .f32) (harg14 : arg14.IsWhole) (arg15 : Memref sig .tc .vmem S8x32 .f32) (harg15 : arg15.IsWhole) (arg16 : Memref sig .tc .vmem S8x32 .f32) (harg16 : arg16.IsWhole) (arg17 : Memref sig .tc .vmem S8x32x64 .f32) (harg17 : arg17.IsWhole) (arg18 : Memref sig .tc .vmem S8x32x64 .f32) (harg18 : arg18.IsWhole) (hc0 : ¬condFirst i) (hc1 : ¬condLast i) (x0 : Vec F S1x2048x256 .f32) (x1 : Vec F S1024x256 .f32) (x2 : Vec F S64x8192 .f32) (x3 : Vec F S1x1x64 .f32) (x4 : Vec F S64x8192 .f32) (x5 : Vec F S1x1x64 .f32) (x6 : Vec F S8x1x1 .f32) (xs0 : Vec F S8x32x32 .f32) (xs1 : Vec F S8x32 .f32) (xs2 : Vec F S8x32 .f32) (xs3 : Vec F S8x32x64 .f32) (xs4 : Vec F S8x32x64 .f32) :
    VS4.read (Elt F) (VS4.writes (Elt F) VS4.junk (runMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4).2.2.2.2.2.2.1) = acc4 i x0 x1 x4 xs4 := by
  rw [View.read_writes_eq_canon _ _ _ (coverMid_s4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4)]
  unfold runMid
  dsimp only
  try sl_unfold_words
  rw [View.canon_cons_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S1024x256) hz2, View.ld_unit_zero (S := S8x32) hz2, View.ld_unit_zero (S := S1x2048x256) hz3, View.ld_unit_zero (S := S1x1x64) hz3, View.ld_unit_zero (S := S8x1x1) hz3, View.ld_unit_zero (S := S8x32x32) hz3, View.ld_unit_zero (S := S8x32x64) hz3, View.ld_unit_zero (S := S1x8x32x2048) hz4, View.ld_unit_zero (S := S1x8x32x32) hz4, View.ld_unit_zero (S := S1x8x32x64) hz4, View.readCov_unit_zero (S := S8x32) _ hz2, View.readCov_unit_zero (S := S8x32x32) _ hz3, View.readCov_unit_zero (S := S8x32x64) _ hz3]
  try rfl

theorem pieceLast_o7 (c : Dev nD) (i : grid0.Coords) (arg2 : Memref sig .tc .vmem S1x2048x256 .f32) (harg2 : arg2.IsWhole) (arg3 : Memref sig .tc .vmem S1024x256 .f32) (harg3 : arg3.IsWhole) (arg4 : Memref sig .tc .vmem S64x8192 .f32) (harg4 : arg4.IsWhole) (arg5 : Memref sig .tc .vmem S1x1x64 .f32) (harg5 : arg5.IsWhole) (arg6 : Memref sig .tc .vmem S64x8192 .f32) (harg6 : arg6.IsWhole) (arg7 : Memref sig .tc .vmem S1x1x64 .f32) (harg7 : arg7.IsWhole) (arg8 : Memref sig .tc .vmem S8x1x1 .f32) (harg8 : arg8.IsWhole) (arg9 : Memref sig .tc .vmem S1x8x32x2048 .bf16) (harg9 : arg9.IsWhole) (arg10 : Memref sig .tc .vmem S1x8x32x2048 .bf16) (harg10 : arg10.IsWhole) (arg11 : Memref sig .tc .vmem S1x8x32x32 .f32) (harg11 : arg11.IsWhole) (arg12 : Memref sig .tc .vmem S1x8x32x64 .f32) (harg12 : arg12.IsWhole) (arg13 : Memref sig .tc .vmem S1x8x32x64 .f32) (harg13 : arg13.IsWhole) (arg14 : Memref sig .tc .vmem S8x32x32 .f32) (harg14 : arg14.IsWhole) (arg15 : Memref sig .tc .vmem S8x32 .f32) (harg15 : arg15.IsWhole) (arg16 : Memref sig .tc .vmem S8x32 .f32) (harg16 : arg16.IsWhole) (arg17 : Memref sig .tc .vmem S8x32x64 .f32) (harg17 : arg17.IsWhole) (arg18 : Memref sig .tc .vmem S8x32x64 .f32) (harg18 : arg18.IsWhole) (hc0 : ¬condFirst i) (hc1 : condLast i) (x0 : Vec F S1x2048x256 .f32) (x1 : Vec F S1024x256 .f32) (x2 : Vec F S64x8192 .f32) (x3 : Vec F S1x1x64 .f32) (x4 : Vec F S64x8192 .f32) (x5 : Vec F S1x1x64 .f32) (x6 : Vec F S8x1x1 .f32) (xs0 : Vec F S8x32x32 .f32) (xs1 : Vec F S8x32 .f32) (xs2 : Vec F S8x32 .f32) (xs3 : Vec F S8x32x64 .f32) (xs4 : Vec F S8x32x64 .f32) :
    VO7.read (Elt F) (VO7.writes (Elt F) VO7.junk (runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4).1) = k0_pay14 x0 x1 := by
  rw [View.read_writes_eq_canon _ _ _ (coverLast_o7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4)]
  unfold runLast
  dsimp only
  try sl_unfold_words
  rw [View.canon_cons_unit_zero hz4]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S1024x256) hz2, View.ld_unit_zero (S := S8x32) hz2, View.ld_unit_zero (S := S1x2048x256) hz3, View.ld_unit_zero (S := S1x1x64) hz3, View.ld_unit_zero (S := S8x1x1) hz3, View.ld_unit_zero (S := S8x32x32) hz3, View.ld_unit_zero (S := S8x32x64) hz3, View.ld_unit_zero (S := S1x8x32x2048) hz4, View.ld_unit_zero (S := S1x8x32x32) hz4, View.ld_unit_zero (S := S1x8x32x64) hz4, View.readCov_unit_zero (S := S8x32) _ hz2, View.readCov_unit_zero (S := S8x32x32) _ hz3, View.readCov_unit_zero (S := S8x32x64) _ hz3]
  try rfl

theorem pieceLast_o8 (c : Dev nD) (i : grid0.Coords) (arg2 : Memref sig .tc .vmem S1x2048x256 .f32) (harg2 : arg2.IsWhole) (arg3 : Memref sig .tc .vmem S1024x256 .f32) (harg3 : arg3.IsWhole) (arg4 : Memref sig .tc .vmem S64x8192 .f32) (harg4 : arg4.IsWhole) (arg5 : Memref sig .tc .vmem S1x1x64 .f32) (harg5 : arg5.IsWhole) (arg6 : Memref sig .tc .vmem S64x8192 .f32) (harg6 : arg6.IsWhole) (arg7 : Memref sig .tc .vmem S1x1x64 .f32) (harg7 : arg7.IsWhole) (arg8 : Memref sig .tc .vmem S8x1x1 .f32) (harg8 : arg8.IsWhole) (arg9 : Memref sig .tc .vmem S1x8x32x2048 .bf16) (harg9 : arg9.IsWhole) (arg10 : Memref sig .tc .vmem S1x8x32x2048 .bf16) (harg10 : arg10.IsWhole) (arg11 : Memref sig .tc .vmem S1x8x32x32 .f32) (harg11 : arg11.IsWhole) (arg12 : Memref sig .tc .vmem S1x8x32x64 .f32) (harg12 : arg12.IsWhole) (arg13 : Memref sig .tc .vmem S1x8x32x64 .f32) (harg13 : arg13.IsWhole) (arg14 : Memref sig .tc .vmem S8x32x32 .f32) (harg14 : arg14.IsWhole) (arg15 : Memref sig .tc .vmem S8x32 .f32) (harg15 : arg15.IsWhole) (arg16 : Memref sig .tc .vmem S8x32 .f32) (harg16 : arg16.IsWhole) (arg17 : Memref sig .tc .vmem S8x32x64 .f32) (harg17 : arg17.IsWhole) (arg18 : Memref sig .tc .vmem S8x32x64 .f32) (harg18 : arg18.IsWhole) (hc0 : ¬condFirst i) (hc1 : condLast i) (x0 : Vec F S1x2048x256 .f32) (x1 : Vec F S1024x256 .f32) (x2 : Vec F S64x8192 .f32) (x3 : Vec F S1x1x64 .f32) (x4 : Vec F S64x8192 .f32) (x5 : Vec F S1x1x64 .f32) (x6 : Vec F S8x1x1 .f32) (xs0 : Vec F S8x32x32 .f32) (xs1 : Vec F S8x32 .f32) (xs2 : Vec F S8x32 .f32) (xs3 : Vec F S8x32x64 .f32) (xs4 : Vec F S8x32x64 .f32) :
    VO8.read (Elt F) (VO8.writes (Elt F) VO8.junk (runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4).2.1) = k0_pay15 x0 x1 := by
  rw [View.read_writes_eq_canon _ _ _ (coverLast_o8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4)]
  unfold runLast
  dsimp only
  try sl_unfold_words
  rw [View.canon_cons_unit_zero hz4]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S1024x256) hz2, View.ld_unit_zero (S := S8x32) hz2, View.ld_unit_zero (S := S1x2048x256) hz3, View.ld_unit_zero (S := S1x1x64) hz3, View.ld_unit_zero (S := S8x1x1) hz3, View.ld_unit_zero (S := S8x32x32) hz3, View.ld_unit_zero (S := S8x32x64) hz3, View.ld_unit_zero (S := S1x8x32x2048) hz4, View.ld_unit_zero (S := S1x8x32x32) hz4, View.ld_unit_zero (S := S1x8x32x64) hz4, View.readCov_unit_zero (S := S8x32) _ hz2, View.readCov_unit_zero (S := S8x32x32) _ hz3, View.readCov_unit_zero (S := S8x32x64) _ hz3]
  try rfl

theorem pieceLast_o9 (c : Dev nD) (i : grid0.Coords) (arg2 : Memref sig .tc .vmem S1x2048x256 .f32) (harg2 : arg2.IsWhole) (arg3 : Memref sig .tc .vmem S1024x256 .f32) (harg3 : arg3.IsWhole) (arg4 : Memref sig .tc .vmem S64x8192 .f32) (harg4 : arg4.IsWhole) (arg5 : Memref sig .tc .vmem S1x1x64 .f32) (harg5 : arg5.IsWhole) (arg6 : Memref sig .tc .vmem S64x8192 .f32) (harg6 : arg6.IsWhole) (arg7 : Memref sig .tc .vmem S1x1x64 .f32) (harg7 : arg7.IsWhole) (arg8 : Memref sig .tc .vmem S8x1x1 .f32) (harg8 : arg8.IsWhole) (arg9 : Memref sig .tc .vmem S1x8x32x2048 .bf16) (harg9 : arg9.IsWhole) (arg10 : Memref sig .tc .vmem S1x8x32x2048 .bf16) (harg10 : arg10.IsWhole) (arg11 : Memref sig .tc .vmem S1x8x32x32 .f32) (harg11 : arg11.IsWhole) (arg12 : Memref sig .tc .vmem S1x8x32x64 .f32) (harg12 : arg12.IsWhole) (arg13 : Memref sig .tc .vmem S1x8x32x64 .f32) (harg13 : arg13.IsWhole) (arg14 : Memref sig .tc .vmem S8x32x32 .f32) (harg14 : arg14.IsWhole) (arg15 : Memref sig .tc .vmem S8x32 .f32) (harg15 : arg15.IsWhole) (arg16 : Memref sig .tc .vmem S8x32 .f32) (harg16 : arg16.IsWhole) (arg17 : Memref sig .tc .vmem S8x32x64 .f32) (harg17 : arg17.IsWhole) (arg18 : Memref sig .tc .vmem S8x32x64 .f32) (harg18 : arg18.IsWhole) (hc0 : ¬condFirst i) (hc1 : condLast i) (x0 : Vec F S1x2048x256 .f32) (x1 : Vec F S1024x256 .f32) (x2 : Vec F S64x8192 .f32) (x3 : Vec F S1x1x64 .f32) (x4 : Vec F S64x8192 .f32) (x5 : Vec F S1x1x64 .f32) (x6 : Vec F S8x1x1 .f32) (xs0 : Vec F S8x32x32 .f32) (xs1 : Vec F S8x32 .f32) (xs2 : Vec F S8x32 .f32) (xs3 : Vec F S8x32x64 .f32) (xs4 : Vec F S8x32x64 .f32) :
    VO9.read (Elt F) (VO9.writes (Elt F) VO9.junk (runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4).2.2.1) = k0_pay5 (acc1 x0 x1 xs1) (acc2 x0 x1 xs2) (acc0 x0 x1 xs0) x6 := by
  rw [View.read_writes_eq_canon _ _ _ (coverLast_o9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4)]
  unfold runLast
  dsimp only
  try sl_unfold_words
  rw [View.canon_cons_unit_zero hz4]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S1024x256) hz2, View.ld_unit_zero (S := S8x32) hz2, View.ld_unit_zero (S := S1x2048x256) hz3, View.ld_unit_zero (S := S1x1x64) hz3, View.ld_unit_zero (S := S8x1x1) hz3, View.ld_unit_zero (S := S8x32x32) hz3, View.ld_unit_zero (S := S8x32x64) hz3, View.ld_unit_zero (S := S1x8x32x2048) hz4, View.ld_unit_zero (S := S1x8x32x32) hz4, View.ld_unit_zero (S := S1x8x32x64) hz4, View.readCov_unit_zero (S := S8x32) _ hz2, View.readCov_unit_zero (S := S8x32x32) _ hz3, View.readCov_unit_zero (S := S8x32x64) _ hz3]
  try rfl

theorem pieceLast_o10 (c : Dev nD) (i : grid0.Coords) (arg2 : Memref sig .tc .vmem S1x2048x256 .f32) (harg2 : arg2.IsWhole) (arg3 : Memref sig .tc .vmem S1024x256 .f32) (harg3 : arg3.IsWhole) (arg4 : Memref sig .tc .vmem S64x8192 .f32) (harg4 : arg4.IsWhole) (arg5 : Memref sig .tc .vmem S1x1x64 .f32) (harg5 : arg5.IsWhole) (arg6 : Memref sig .tc .vmem S64x8192 .f32) (harg6 : arg6.IsWhole) (arg7 : Memref sig .tc .vmem S1x1x64 .f32) (harg7 : arg7.IsWhole) (arg8 : Memref sig .tc .vmem S8x1x1 .f32) (harg8 : arg8.IsWhole) (arg9 : Memref sig .tc .vmem S1x8x32x2048 .bf16) (harg9 : arg9.IsWhole) (arg10 : Memref sig .tc .vmem S1x8x32x2048 .bf16) (harg10 : arg10.IsWhole) (arg11 : Memref sig .tc .vmem S1x8x32x32 .f32) (harg11 : arg11.IsWhole) (arg12 : Memref sig .tc .vmem S1x8x32x64 .f32) (harg12 : arg12.IsWhole) (arg13 : Memref sig .tc .vmem S1x8x32x64 .f32) (harg13 : arg13.IsWhole) (arg14 : Memref sig .tc .vmem S8x32x32 .f32) (harg14 : arg14.IsWhole) (arg15 : Memref sig .tc .vmem S8x32 .f32) (harg15 : arg15.IsWhole) (arg16 : Memref sig .tc .vmem S8x32 .f32) (harg16 : arg16.IsWhole) (arg17 : Memref sig .tc .vmem S8x32x64 .f32) (harg17 : arg17.IsWhole) (arg18 : Memref sig .tc .vmem S8x32x64 .f32) (harg18 : arg18.IsWhole) (hc0 : ¬condFirst i) (hc1 : condLast i) (x0 : Vec F S1x2048x256 .f32) (x1 : Vec F S1024x256 .f32) (x2 : Vec F S64x8192 .f32) (x3 : Vec F S1x1x64 .f32) (x4 : Vec F S64x8192 .f32) (x5 : Vec F S1x1x64 .f32) (x6 : Vec F S8x1x1 .f32) (xs0 : Vec F S8x32x32 .f32) (xs1 : Vec F S8x32 .f32) (xs2 : Vec F S8x32 .f32) (xs3 : Vec F S8x32x64 .f32) (xs4 : Vec F S8x32x64 .f32) :
    VO10.read (Elt F) (VO10.writes (Elt F) VO10.junk (runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4).2.2.2.1) = k0_pay2 (k0_pay4 (acc1 x0 x1 xs1)) (acc3 i x0 x1 x2 xs3) x3 := by
  rw [View.read_writes_eq_canon _ _ _ (coverLast_o10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4)]
  unfold runLast
  dsimp only
  try sl_unfold_words
  rw [View.canon_cons_unit_zero hz4]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S1024x256) hz2, View.ld_unit_zero (S := S8x32) hz2, View.ld_unit_zero (S := S1x2048x256) hz3, View.ld_unit_zero (S := S1x1x64) hz3, View.ld_unit_zero (S := S8x1x1) hz3, View.ld_unit_zero (S := S8x32x32) hz3, View.ld_unit_zero (S := S8x32x64) hz3, View.ld_unit_zero (S := S1x8x32x2048) hz4, View.ld_unit_zero (S := S1x8x32x32) hz4, View.ld_unit_zero (S := S1x8x32x64) hz4, View.readCov_unit_zero (S := S8x32) _ hz2, View.readCov_unit_zero (S := S8x32x32) _ hz3, View.readCov_unit_zero (S := S8x32x64) _ hz3]
  try rfl

theorem pieceLast_o11 (c : Dev nD) (i : grid0.Coords) (arg2 : Memref sig .tc .vmem S1x2048x256 .f32) (harg2 : arg2.IsWhole) (arg3 : Memref sig .tc .vmem S1024x256 .f32) (harg3 : arg3.IsWhole) (arg4 : Memref sig .tc .vmem S64x8192 .f32) (harg4 : arg4.IsWhole) (arg5 : Memref sig .tc .vmem S1x1x64 .f32) (harg5 : arg5.IsWhole) (arg6 : Memref sig .tc .vmem S64x8192 .f32) (harg6 : arg6.IsWhole) (arg7 : Memref sig .tc .vmem S1x1x64 .f32) (harg7 : arg7.IsWhole) (arg8 : Memref sig .tc .vmem S8x1x1 .f32) (harg8 : arg8.IsWhole) (arg9 : Memref sig .tc .vmem S1x8x32x2048 .bf16) (harg9 : arg9.IsWhole) (arg10 : Memref sig .tc .vmem S1x8x32x2048 .bf16) (harg10 : arg10.IsWhole) (arg11 : Memref sig .tc .vmem S1x8x32x32 .f32) (harg11 : arg11.IsWhole) (arg12 : Memref sig .tc .vmem S1x8x32x64 .f32) (harg12 : arg12.IsWhole) (arg13 : Memref sig .tc .vmem S1x8x32x64 .f32) (harg13 : arg13.IsWhole) (arg14 : Memref sig .tc .vmem S8x32x32 .f32) (harg14 : arg14.IsWhole) (arg15 : Memref sig .tc .vmem S8x32 .f32) (harg15 : arg15.IsWhole) (arg16 : Memref sig .tc .vmem S8x32 .f32) (harg16 : arg16.IsWhole) (arg17 : Memref sig .tc .vmem S8x32x64 .f32) (harg17 : arg17.IsWhole) (arg18 : Memref sig .tc .vmem S8x32x64 .f32) (harg18 : arg18.IsWhole) (hc0 : ¬condFirst i) (hc1 : condLast i) (x0 : Vec F S1x2048x256 .f32) (x1 : Vec F S1024x256 .f32) (x2 : Vec F S64x8192 .f32) (x3 : Vec F S1x1x64 .f32) (x4 : Vec F S64x8192 .f32) (x5 : Vec F S1x1x64 .f32) (x6 : Vec F S8x1x1 .f32) (xs0 : Vec F S8x32x32 .f32) (xs1 : Vec F S8x32 .f32) (xs2 : Vec F S8x32 .f32) (xs3 : Vec F S8x32x64 .f32) (xs4 : Vec F S8x32x64 .f32) :
    VO11.read (Elt F) (VO11.writes (Elt F) VO11.junk (runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4).2.2.2.2.1) = k0_pay3 (acc4 i x0 x1 x4 xs4) x5 := by
  rw [View.read_writes_eq_canon _ _ _ (coverLast_o11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4)]
  unfold runLast
  dsimp only
  try sl_unfold_words
  rw [View.canon_cons_unit_zero hz4]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S1024x256) hz2, View.ld_unit_zero (S := S8x32) hz2, View.ld_unit_zero (S := S1x2048x256) hz3, View.ld_unit_zero (S := S1x1x64) hz3, View.ld_unit_zero (S := S8x1x1) hz3, View.ld_unit_zero (S := S8x32x32) hz3, View.ld_unit_zero (S := S8x32x64) hz3, View.ld_unit_zero (S := S1x8x32x2048) hz4, View.ld_unit_zero (S := S1x8x32x32) hz4, View.ld_unit_zero (S := S1x8x32x64) hz4, View.readCov_unit_zero (S := S8x32) _ hz2, View.readCov_unit_zero (S := S8x32x32) _ hz3, View.readCov_unit_zero (S := S8x32x64) _ hz3]
  try rfl

theorem pieceLast_s0 (c : Dev nD) (i : grid0.Coords) (arg2 : Memref sig .tc .vmem S1x2048x256 .f32) (harg2 : arg2.IsWhole) (arg3 : Memref sig .tc .vmem S1024x256 .f32) (harg3 : arg3.IsWhole) (arg4 : Memref sig .tc .vmem S64x8192 .f32) (harg4 : arg4.IsWhole) (arg5 : Memref sig .tc .vmem S1x1x64 .f32) (harg5 : arg5.IsWhole) (arg6 : Memref sig .tc .vmem S64x8192 .f32) (harg6 : arg6.IsWhole) (arg7 : Memref sig .tc .vmem S1x1x64 .f32) (harg7 : arg7.IsWhole) (arg8 : Memref sig .tc .vmem S8x1x1 .f32) (harg8 : arg8.IsWhole) (arg9 : Memref sig .tc .vmem S1x8x32x2048 .bf16) (harg9 : arg9.IsWhole) (arg10 : Memref sig .tc .vmem S1x8x32x2048 .bf16) (harg10 : arg10.IsWhole) (arg11 : Memref sig .tc .vmem S1x8x32x32 .f32) (harg11 : arg11.IsWhole) (arg12 : Memref sig .tc .vmem S1x8x32x64 .f32) (harg12 : arg12.IsWhole) (arg13 : Memref sig .tc .vmem S1x8x32x64 .f32) (harg13 : arg13.IsWhole) (arg14 : Memref sig .tc .vmem S8x32x32 .f32) (harg14 : arg14.IsWhole) (arg15 : Memref sig .tc .vmem S8x32 .f32) (harg15 : arg15.IsWhole) (arg16 : Memref sig .tc .vmem S8x32 .f32) (harg16 : arg16.IsWhole) (arg17 : Memref sig .tc .vmem S8x32x64 .f32) (harg17 : arg17.IsWhole) (arg18 : Memref sig .tc .vmem S8x32x64 .f32) (harg18 : arg18.IsWhole) (hc0 : ¬condFirst i) (hc1 : condLast i) (x0 : Vec F S1x2048x256 .f32) (x1 : Vec F S1024x256 .f32) (x2 : Vec F S64x8192 .f32) (x3 : Vec F S1x1x64 .f32) (x4 : Vec F S64x8192 .f32) (x5 : Vec F S1x1x64 .f32) (x6 : Vec F S8x1x1 .f32) (xs0 : Vec F S8x32x32 .f32) (xs1 : Vec F S8x32 .f32) (xs2 : Vec F S8x32 .f32) (xs3 : Vec F S8x32x64 .f32) (xs4 : Vec F S8x32x64 .f32) :
    VS0.read (Elt F) (VS0.writes (Elt F) VS0.junk (runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4).2.2.2.2.2.1) = acc0 x0 x1 xs0 := by
  rw [View.read_writes_eq_canon _ _ _ (coverLast_s0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4)]
  unfold runLast
  dsimp only
  try sl_unfold_words
  rw [View.canon_cons_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S1024x256) hz2, View.ld_unit_zero (S := S8x32) hz2, View.ld_unit_zero (S := S1x2048x256) hz3, View.ld_unit_zero (S := S1x1x64) hz3, View.ld_unit_zero (S := S8x1x1) hz3, View.ld_unit_zero (S := S8x32x32) hz3, View.ld_unit_zero (S := S8x32x64) hz3, View.ld_unit_zero (S := S1x8x32x2048) hz4, View.ld_unit_zero (S := S1x8x32x32) hz4, View.ld_unit_zero (S := S1x8x32x64) hz4, View.readCov_unit_zero (S := S8x32) _ hz2, View.readCov_unit_zero (S := S8x32x32) _ hz3, View.readCov_unit_zero (S := S8x32x64) _ hz3]
  try rfl

theorem pieceLast_s1 (c : Dev nD) (i : grid0.Coords) (arg2 : Memref sig .tc .vmem S1x2048x256 .f32) (harg2 : arg2.IsWhole) (arg3 : Memref sig .tc .vmem S1024x256 .f32) (harg3 : arg3.IsWhole) (arg4 : Memref sig .tc .vmem S64x8192 .f32) (harg4 : arg4.IsWhole) (arg5 : Memref sig .tc .vmem S1x1x64 .f32) (harg5 : arg5.IsWhole) (arg6 : Memref sig .tc .vmem S64x8192 .f32) (harg6 : arg6.IsWhole) (arg7 : Memref sig .tc .vmem S1x1x64 .f32) (harg7 : arg7.IsWhole) (arg8 : Memref sig .tc .vmem S8x1x1 .f32) (harg8 : arg8.IsWhole) (arg9 : Memref sig .tc .vmem S1x8x32x2048 .bf16) (harg9 : arg9.IsWhole) (arg10 : Memref sig .tc .vmem S1x8x32x2048 .bf16) (harg10 : arg10.IsWhole) (arg11 : Memref sig .tc .vmem S1x8x32x32 .f32) (harg11 : arg11.IsWhole) (arg12 : Memref sig .tc .vmem S1x8x32x64 .f32) (harg12 : arg12.IsWhole) (arg13 : Memref sig .tc .vmem S1x8x32x64 .f32) (harg13 : arg13.IsWhole) (arg14 : Memref sig .tc .vmem S8x32x32 .f32) (harg14 : arg14.IsWhole) (arg15 : Memref sig .tc .vmem S8x32 .f32) (harg15 : arg15.IsWhole) (arg16 : Memref sig .tc .vmem S8x32 .f32) (harg16 : arg16.IsWhole) (arg17 : Memref sig .tc .vmem S8x32x64 .f32) (harg17 : arg17.IsWhole) (arg18 : Memref sig .tc .vmem S8x32x64 .f32) (harg18 : arg18.IsWhole) (hc0 : ¬condFirst i) (hc1 : condLast i) (x0 : Vec F S1x2048x256 .f32) (x1 : Vec F S1024x256 .f32) (x2 : Vec F S64x8192 .f32) (x3 : Vec F S1x1x64 .f32) (x4 : Vec F S64x8192 .f32) (x5 : Vec F S1x1x64 .f32) (x6 : Vec F S8x1x1 .f32) (xs0 : Vec F S8x32x32 .f32) (xs1 : Vec F S8x32 .f32) (xs2 : Vec F S8x32 .f32) (xs3 : Vec F S8x32x64 .f32) (xs4 : Vec F S8x32x64 .f32) :
    VS1.read (Elt F) (VS1.writes (Elt F) VS1.junk (runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4).2.2.2.2.2.2.1) = acc1 x0 x1 xs1 := by
  rw [View.read_writes_eq_canon _ _ _ (coverLast_s1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4)]
  unfold runLast
  dsimp only
  try sl_unfold_words
  rw [View.canon_cons_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S1024x256) hz2, View.ld_unit_zero (S := S8x32) hz2, View.ld_unit_zero (S := S1x2048x256) hz3, View.ld_unit_zero (S := S1x1x64) hz3, View.ld_unit_zero (S := S8x1x1) hz3, View.ld_unit_zero (S := S8x32x32) hz3, View.ld_unit_zero (S := S8x32x64) hz3, View.ld_unit_zero (S := S1x8x32x2048) hz4, View.ld_unit_zero (S := S1x8x32x32) hz4, View.ld_unit_zero (S := S1x8x32x64) hz4, View.readCov_unit_zero (S := S8x32) _ hz2, View.readCov_unit_zero (S := S8x32x32) _ hz3, View.readCov_unit_zero (S := S8x32x64) _ hz3]
  try rfl

theorem pieceLast_s2 (c : Dev nD) (i : grid0.Coords) (arg2 : Memref sig .tc .vmem S1x2048x256 .f32) (harg2 : arg2.IsWhole) (arg3 : Memref sig .tc .vmem S1024x256 .f32) (harg3 : arg3.IsWhole) (arg4 : Memref sig .tc .vmem S64x8192 .f32) (harg4 : arg4.IsWhole) (arg5 : Memref sig .tc .vmem S1x1x64 .f32) (harg5 : arg5.IsWhole) (arg6 : Memref sig .tc .vmem S64x8192 .f32) (harg6 : arg6.IsWhole) (arg7 : Memref sig .tc .vmem S1x1x64 .f32) (harg7 : arg7.IsWhole) (arg8 : Memref sig .tc .vmem S8x1x1 .f32) (harg8 : arg8.IsWhole) (arg9 : Memref sig .tc .vmem S1x8x32x2048 .bf16) (harg9 : arg9.IsWhole) (arg10 : Memref sig .tc .vmem S1x8x32x2048 .bf16) (harg10 : arg10.IsWhole) (arg11 : Memref sig .tc .vmem S1x8x32x32 .f32) (harg11 : arg11.IsWhole) (arg12 : Memref sig .tc .vmem S1x8x32x64 .f32) (harg12 : arg12.IsWhole) (arg13 : Memref sig .tc .vmem S1x8x32x64 .f32) (harg13 : arg13.IsWhole) (arg14 : Memref sig .tc .vmem S8x32x32 .f32) (harg14 : arg14.IsWhole) (arg15 : Memref sig .tc .vmem S8x32 .f32) (harg15 : arg15.IsWhole) (arg16 : Memref sig .tc .vmem S8x32 .f32) (harg16 : arg16.IsWhole) (arg17 : Memref sig .tc .vmem S8x32x64 .f32) (harg17 : arg17.IsWhole) (arg18 : Memref sig .tc .vmem S8x32x64 .f32) (harg18 : arg18.IsWhole) (hc0 : ¬condFirst i) (hc1 : condLast i) (x0 : Vec F S1x2048x256 .f32) (x1 : Vec F S1024x256 .f32) (x2 : Vec F S64x8192 .f32) (x3 : Vec F S1x1x64 .f32) (x4 : Vec F S64x8192 .f32) (x5 : Vec F S1x1x64 .f32) (x6 : Vec F S8x1x1 .f32) (xs0 : Vec F S8x32x32 .f32) (xs1 : Vec F S8x32 .f32) (xs2 : Vec F S8x32 .f32) (xs3 : Vec F S8x32x64 .f32) (xs4 : Vec F S8x32x64 .f32) :
    VS2.read (Elt F) (VS2.writes (Elt F) VS2.junk (runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4).2.2.2.2.2.2.2.1) = acc2 x0 x1 xs2 := by
  rw [View.read_writes_eq_canon _ _ _ (coverLast_s2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4)]
  unfold runLast
  dsimp only
  try sl_unfold_words
  rw [View.canon_cons_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S1024x256) hz2, View.ld_unit_zero (S := S8x32) hz2, View.ld_unit_zero (S := S1x2048x256) hz3, View.ld_unit_zero (S := S1x1x64) hz3, View.ld_unit_zero (S := S8x1x1) hz3, View.ld_unit_zero (S := S8x32x32) hz3, View.ld_unit_zero (S := S8x32x64) hz3, View.ld_unit_zero (S := S1x8x32x2048) hz4, View.ld_unit_zero (S := S1x8x32x32) hz4, View.ld_unit_zero (S := S1x8x32x64) hz4, View.readCov_unit_zero (S := S8x32) _ hz2, View.readCov_unit_zero (S := S8x32x32) _ hz3, View.readCov_unit_zero (S := S8x32x64) _ hz3]
  try rfl

theorem pieceLast_s3 (c : Dev nD) (i : grid0.Coords) (arg2 : Memref sig .tc .vmem S1x2048x256 .f32) (harg2 : arg2.IsWhole) (arg3 : Memref sig .tc .vmem S1024x256 .f32) (harg3 : arg3.IsWhole) (arg4 : Memref sig .tc .vmem S64x8192 .f32) (harg4 : arg4.IsWhole) (arg5 : Memref sig .tc .vmem S1x1x64 .f32) (harg5 : arg5.IsWhole) (arg6 : Memref sig .tc .vmem S64x8192 .f32) (harg6 : arg6.IsWhole) (arg7 : Memref sig .tc .vmem S1x1x64 .f32) (harg7 : arg7.IsWhole) (arg8 : Memref sig .tc .vmem S8x1x1 .f32) (harg8 : arg8.IsWhole) (arg9 : Memref sig .tc .vmem S1x8x32x2048 .bf16) (harg9 : arg9.IsWhole) (arg10 : Memref sig .tc .vmem S1x8x32x2048 .bf16) (harg10 : arg10.IsWhole) (arg11 : Memref sig .tc .vmem S1x8x32x32 .f32) (harg11 : arg11.IsWhole) (arg12 : Memref sig .tc .vmem S1x8x32x64 .f32) (harg12 : arg12.IsWhole) (arg13 : Memref sig .tc .vmem S1x8x32x64 .f32) (harg13 : arg13.IsWhole) (arg14 : Memref sig .tc .vmem S8x32x32 .f32) (harg14 : arg14.IsWhole) (arg15 : Memref sig .tc .vmem S8x32 .f32) (harg15 : arg15.IsWhole) (arg16 : Memref sig .tc .vmem S8x32 .f32) (harg16 : arg16.IsWhole) (arg17 : Memref sig .tc .vmem S8x32x64 .f32) (harg17 : arg17.IsWhole) (arg18 : Memref sig .tc .vmem S8x32x64 .f32) (harg18 : arg18.IsWhole) (hc0 : ¬condFirst i) (hc1 : condLast i) (x0 : Vec F S1x2048x256 .f32) (x1 : Vec F S1024x256 .f32) (x2 : Vec F S64x8192 .f32) (x3 : Vec F S1x1x64 .f32) (x4 : Vec F S64x8192 .f32) (x5 : Vec F S1x1x64 .f32) (x6 : Vec F S8x1x1 .f32) (xs0 : Vec F S8x32x32 .f32) (xs1 : Vec F S8x32 .f32) (xs2 : Vec F S8x32 .f32) (xs3 : Vec F S8x32x64 .f32) (xs4 : Vec F S8x32x64 .f32) :
    VS3.read (Elt F) (VS3.writes (Elt F) VS3.junk (runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4).2.2.2.2.2.2.2.2.1) = acc3 i x0 x1 x2 xs3 := by
  rw [View.read_writes_eq_canon _ _ _ (coverLast_s3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4)]
  unfold runLast
  dsimp only
  try sl_unfold_words
  rw [View.canon_cons_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S1024x256) hz2, View.ld_unit_zero (S := S8x32) hz2, View.ld_unit_zero (S := S1x2048x256) hz3, View.ld_unit_zero (S := S1x1x64) hz3, View.ld_unit_zero (S := S8x1x1) hz3, View.ld_unit_zero (S := S8x32x32) hz3, View.ld_unit_zero (S := S8x32x64) hz3, View.ld_unit_zero (S := S1x8x32x2048) hz4, View.ld_unit_zero (S := S1x8x32x32) hz4, View.ld_unit_zero (S := S1x8x32x64) hz4, View.readCov_unit_zero (S := S8x32) _ hz2, View.readCov_unit_zero (S := S8x32x32) _ hz3, View.readCov_unit_zero (S := S8x32x64) _ hz3]
  try rfl

theorem pieceLast_s4 (c : Dev nD) (i : grid0.Coords) (arg2 : Memref sig .tc .vmem S1x2048x256 .f32) (harg2 : arg2.IsWhole) (arg3 : Memref sig .tc .vmem S1024x256 .f32) (harg3 : arg3.IsWhole) (arg4 : Memref sig .tc .vmem S64x8192 .f32) (harg4 : arg4.IsWhole) (arg5 : Memref sig .tc .vmem S1x1x64 .f32) (harg5 : arg5.IsWhole) (arg6 : Memref sig .tc .vmem S64x8192 .f32) (harg6 : arg6.IsWhole) (arg7 : Memref sig .tc .vmem S1x1x64 .f32) (harg7 : arg7.IsWhole) (arg8 : Memref sig .tc .vmem S8x1x1 .f32) (harg8 : arg8.IsWhole) (arg9 : Memref sig .tc .vmem S1x8x32x2048 .bf16) (harg9 : arg9.IsWhole) (arg10 : Memref sig .tc .vmem S1x8x32x2048 .bf16) (harg10 : arg10.IsWhole) (arg11 : Memref sig .tc .vmem S1x8x32x32 .f32) (harg11 : arg11.IsWhole) (arg12 : Memref sig .tc .vmem S1x8x32x64 .f32) (harg12 : arg12.IsWhole) (arg13 : Memref sig .tc .vmem S1x8x32x64 .f32) (harg13 : arg13.IsWhole) (arg14 : Memref sig .tc .vmem S8x32x32 .f32) (harg14 : arg14.IsWhole) (arg15 : Memref sig .tc .vmem S8x32 .f32) (harg15 : arg15.IsWhole) (arg16 : Memref sig .tc .vmem S8x32 .f32) (harg16 : arg16.IsWhole) (arg17 : Memref sig .tc .vmem S8x32x64 .f32) (harg17 : arg17.IsWhole) (arg18 : Memref sig .tc .vmem S8x32x64 .f32) (harg18 : arg18.IsWhole) (hc0 : ¬condFirst i) (hc1 : condLast i) (x0 : Vec F S1x2048x256 .f32) (x1 : Vec F S1024x256 .f32) (x2 : Vec F S64x8192 .f32) (x3 : Vec F S1x1x64 .f32) (x4 : Vec F S64x8192 .f32) (x5 : Vec F S1x1x64 .f32) (x6 : Vec F S8x1x1 .f32) (xs0 : Vec F S8x32x32 .f32) (xs1 : Vec F S8x32 .f32) (xs2 : Vec F S8x32 .f32) (xs3 : Vec F S8x32x64 .f32) (xs4 : Vec F S8x32x64 .f32) :
    VS4.read (Elt F) (VS4.writes (Elt F) VS4.junk (runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4).2.2.2.2.2.2.2.2.2.1) = acc4 i x0 x1 x4 xs4 := by
  rw [View.read_writes_eq_canon _ _ _ (coverLast_s4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 xs0 xs1 xs2 xs3 xs4)]
  unfold runLast
  dsimp only
  try sl_unfold_words
  rw [View.canon_cons_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S1024x256) hz2, View.ld_unit_zero (S := S8x32) hz2, View.ld_unit_zero (S := S1x2048x256) hz3, View.ld_unit_zero (S := S1x1x64) hz3, View.ld_unit_zero (S := S8x1x1) hz3, View.ld_unit_zero (S := S8x32x32) hz3, View.ld_unit_zero (S := S8x32x64) hz3, View.ld_unit_zero (S := S1x8x32x2048) hz4, View.ld_unit_zero (S := S1x8x32x32) hz4, View.ld_unit_zero (S := S1x8x32x64) hz4, View.readCov_unit_zero (S := S8x32) _ hz2, View.readCov_unit_zero (S := S8x32x32) _ hz3, View.readCov_unit_zero (S := S8x32x64) _ hz3]
  try rfl

end Cert.KernelIdeal.Pass1

end
-- ==== Proof.Pass1Blocks.lean ====
/-
  The first kernel call: the blocks a point is handed, read at an index.  Point t is batch t / 4, token tile t mod 4.
  The x block is the 2048 tokens of that tile of that batch; the projection matrix, the two mixture matrices, the two
  biases and the temperature are whole arrays (one block, fetched once); the body itself cuts the tile's 2048 columns
  out of each mixture matrix.
-/
import proofs.«149626_j38448547234132_2_alg».proof.Proof.Pass1Pieces

set_option maxRecDepth 16384

noncomputable section

namespace Cert.KernelIdeal.Pass1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' block indices, decided over the grid -/

theorem idx_x : ∀ t : Fin cfg0.N, win0_0.index t 0 = t.val / 4 ∧ win0_0.index t 1 = t.val % 4 ∧ win0_0.index t 2 = 0 :=
  (by decide +kernel : ∀ t : Fin grid0.N, win0_0.index t 0 = t.val / 4 ∧ win0_0.index t 1 = t.val % 4 ∧ win0_0.index t 2 = 0)
theorem idx_w1 : ∀ t : Fin cfg0.N, win0_1.index t 0 = 0 ∧ win0_1.index t 1 = 0 :=
  (by decide +kernel : ∀ t : Fin grid0.N, win0_1.index t 0 = 0 ∧ win0_1.index t 1 = 0)
theorem idx_w2 : ∀ t : Fin cfg0.N, win0_2.index t 0 = 0 ∧ win0_2.index t 1 = 0 :=
  (by decide +kernel : ∀ t : Fin grid0.N, win0_2.index t 0 = 0 ∧ win0_2.index t 1 = 0)
theorem idx_w3 : ∀ t : Fin cfg0.N, win0_3.index t 0 = 0 ∧ win0_3.index t 1 = 0 ∧ win0_3.index t 2 = 0 :=
  (by decide +kernel : ∀ t : Fin grid0.N, win0_3.index t 0 = 0 ∧ win0_3.index t 1 = 0 ∧ win0_3.index t 2 = 0)
theorem idx_w4 : ∀ t : Fin cfg0.N, win0_4.index t 0 = 0 ∧ win0_4.index t 1 = 0 :=
  (by decide +kernel : ∀ t : Fin grid0.N, win0_4.index t 0 = 0 ∧ win0_4.index t 1 = 0)
theorem idx_w5 : ∀ t : Fin cfg0.N, win0_5.index t 0 = 0 ∧ win0_5.index t 1 = 0 ∧ win0_5.index t 2 = 0 :=
  (by decide +kernel : ∀ t : Fin grid0.N, win0_5.index t 0 = 0 ∧ win0_5.index t 1 = 0 ∧ win0_5.index t 2 = 0)
theorem idx_w6 : ∀ t : Fin cfg0.N, win0_6.index t 0 = 0 ∧ win0_6.index t 1 = 0 ∧ win0_6.index t 2 = 0 :=
  (by decide +kernel : ∀ t : Fin grid0.N, win0_6.index t 0 = 0 ∧ win0_6.index t 1 = 0 ∧ win0_6.index t 2 = 0)
/-- The body's dynamic column offset into a mixture matrix is the tile's first token. -/
theorem off_tile : ∀ t : Fin cfg0.N, k0_off1 (grid0.coords t) 0 = 0 ∧ k0_off1 (grid0.coords t) 1 = t.val % 4 * 2048 :=
  (by decide +kernel : ∀ t : Fin grid0.N, k0_off1 (grid0.coords t) 0 = 0 ∧ k0_off1 (grid0.coords t) 1 = t.val % 4 * 2048)

/-! ## The blocks -/

/-- The x block of point t at (0, n', ch) is x at (t / 4, 2048 (t mod 4) + n', ch). -/
theorem iblk_x_apply (c : Dev nD) (t : Fin cfg0.N) (y : S1x2048x256.Idx) (k : S8x8192x256.Idx)
    (hk0 : (k 0).val = t.val / 4 + (y 0).val) (hk1 : (k 1).val = t.val % 4 * 2048 + (y 1).val) (hk2 : (k 2).val = (y 2).val) :
    (iblk V c 0 t : Vec F S1x2048x256 .f32) y = (V c main_arg0 : S8x8192x256.Idx → Elt F .f32) k := by
  obtain ⟨h0, h1, h2⟩ := idx_x t
  unfold iblk
  rw [View.read_apply]
  show V c main_arg0 _ = V c main_arg0 _
  congr 1
  funext a
  apply Fin.ext
  match a with
  | ⟨0, _⟩ => show win0_0.index t 0 * 1 + 1 * (y 0).val = (k 0).val; rw [h0, hk0]; omega
  | ⟨1, _⟩ => show win0_0.index t 1 * 2048 + 1 * (y 1).val = (k 1).val; rw [h1, hk1]; omega
  | ⟨2, _⟩ => show win0_0.index t 2 * 256 + 1 * (y 2).val = (k 2).val; rw [h2, hk2]; omega

/-- Window 1 is its whole array at every point. -/
theorem iblk_w1 (c : Dev nD) (t : Fin cfg0.N) :
    (iblk V c 1 t : Vec F S1024x256 .f32) = (V c main_arg1 : S1024x256.Idx → Elt F .f32) := by
  obtain ⟨h0, h1⟩ := idx_w1 t
  funext y
  unfold iblk
  rw [View.read_apply]
  show V c main_arg1 _ = V c main_arg1 _
  congr 1
  funext a
  apply Fin.ext
  match a with
  | ⟨0, _⟩ => show win0_1.index t 0 * 1024 + 1 * (y 0).val = (y 0).val; rw [h0]; omega
  | ⟨1, _⟩ => show win0_1.index t 1 * 256 + 1 * (y 1).val = (y 1).val; rw [h1]; omega

/-- Window 2 is its whole array at every point. -/
theorem iblk_w2 (c : Dev nD) (t : Fin cfg0.N) :
    (iblk V c 2 t : Vec F S64x8192 .f32) = (V c main_arg2 : S64x8192.Idx → Elt F .f32) := by
  obtain ⟨h0, h1⟩ := idx_w2 t
  funext y
  unfold iblk
  rw [View.read_apply]
  show V c main_arg2 _ = V c main_arg2 _
  congr 1
  funext a
  apply Fin.ext
  match a with
  | ⟨0, _⟩ => show win0_2.index t 0 * 64 + 1 * (y 0).val = (y 0).val; rw [h0]; omega
  | ⟨1, _⟩ => show win0_2.index t 1 * 8192 + 1 * (y 1).val = (y 1).val; rw [h1]; omega

/-- Window 3 is its whole array at every point. -/
theorem iblk_w3 (c : Dev nD) (t : Fin cfg0.N) :
    (iblk V c 3 t : Vec F S1x1x64 .f32) = (V c main_v0 : S1x1x64.Idx → Elt F .f32) := by
  obtain ⟨h0, h1, h2⟩ := idx_w3 t
  funext y
  unfold iblk
  rw [View.read_apply]
  show V c main_v0 _ = V c main_v0 _
  congr 1
  funext a
  apply Fin.ext
  match a with
  | ⟨0, _⟩ => show win0_3.index t 0 * 1 + 1 * (y 0).val = (y 0).val; rw [h0]; omega
  | ⟨1, _⟩ => show win0_3.index t 1 * 1 + 1 * (y 1).val = (y 1).val; rw [h1]; omega
  | ⟨2, _⟩ => show win0_3.index t 2 * 64 + 1 * (y 2).val = (y 2).val; rw [h2]; omega

/-- Window 4 is its whole array at every point. -/
theorem iblk_w4 (c : Dev nD) (t : Fin cfg0.N) :
    (iblk V c 4 t : Vec F S64x8192 .f32) = (V c main_arg4 : S64x8192.Idx → Elt F .f32) := by
  obtain ⟨h0, h1⟩ := idx_w4 t
  funext y
  unfold iblk
  rw [View.read_apply]
  show V c main_arg4 _ = V c main_arg4 _
  congr 1
  funext a
  apply Fin.ext
  match a with
  | ⟨0, _⟩ => show win0_4.index t 0 * 64 + 1 * (y 0).val = (y 0).val; rw [h0]; omega
  | ⟨1, _⟩ => show win0_4.index t 1 * 8192 + 1 * (y 1).val = (y 1).val; rw [h1]; omega

/-- Window 5 is its whole array at every point. -/
theorem iblk_w5 (c : Dev nD) (t : Fin cfg0.N) :
    (iblk V c 5 t : Vec F S1x1x64 .f32) = (V c main_v1 : S1x1x64.Idx → Elt F .f32) := by
  obtain ⟨h0, h1, h2⟩ := idx_w5 t
  funext y
  unfold iblk
  rw [View.read_apply]
  show V c main_v1 _ = V c main_v1 _
  congr 1
  funext a
  apply Fin.ext
  match a with
  | ⟨0, _⟩ => show win0_5.index t 0 * 1 + 1 * (y 0).val = (y 0).val; rw [h0]; omega
  | ⟨1, _⟩ => show win0_5.index t 1 * 1 + 1 * (y 1).val = (y 1).val; rw [h1]; omega
  | ⟨2, _⟩ => show win0_5.index t 2 * 64 + 1 * (y 2).val = (y 2).val; rw [h2]; omega

/-- Window 6 is its whole array at every point. -/
theorem iblk_w6 (c : Dev nD) (t : Fin cfg0.N) :
    (iblk V c 6 t : Vec F S8x1x1 .f32) = (V c main_arg10 : S8x1x1.Idx → Elt F .f32) := by
  obtain ⟨h0, h1, h2⟩ := idx_w6 t
  funext y
  unfold iblk
  rw [View.read_apply]
  show V c main_arg10 _ = V c main_arg10 _
  congr 1
  funext a
  apply Fin.ext
  match a with
  | ⟨0, _⟩ => show win0_6.index t 0 * 8 + 1 * (y 0).val = (y 0).val; rw [h0]; omega
  | ⟨1, _⟩ => show win0_6.index t 1 * 1 + 1 * (y 1).val = (y 1).val; rw [h1]; omega
  | ⟨2, _⟩ => show win0_6.index t 2 * 1 + 1 * (y 2).val = (y 2).val; rw [h2]; omega

/-- The tile the body cuts out of a mixture matrix at point t: columns 2048 (t mod 4) … -/
theorem tile_apply (t : Fin cfg0.N) (x : Vec F S64x8192 .f32) (y : S64x2048.Idx) (k : S64x8192.Idx)
    (hk0 : (k 0).val = (y 0).val) (hk1 : (k 1).val = t.val % 4 * 2048 + (y 1).val) :
    tile (grid0.coords t) x y = x k := by
  obtain ⟨h0, h1⟩ := off_tile t
  show x _ = x k
  congr 1
  funext a
  apply Fin.ext
  match a with
  | ⟨0, _⟩ => show k0_off1 (grid0.coords t) 0 + 1 * (y 0).val = (k 0).val; rw [h0, hk0]; omega
  | ⟨1, _⟩ => show k0_off1 (grid0.coords t) 1 + 1 * (y 1).val = (k 1).val; rw [h1, hk1]; omega

end Cert.KernelIdeal.Pass1

end
-- ==== Proof.LibRowAxis.lean ====
/-
  A unit axis in the middle of a rank-3 shape, read at an index: general layout lemmas.

  A matrix `[a, d]` viewed as `[a, 1, d]` keeps its row-major order, so entry `(p, 0, r)` of the view is entry `(p, r)`
  of the matrix; and an `[a, 1, d]` array broadcast along its middle axis to `[a, b, d]` repeats row `p` for every
  middle coordinate, so entry `(p, q, r)` of the broadcast is entry `(p, 0, r)` of the operand.
-/
import Idealize.ShloMosaic.Lib.Pipeline.Value
import Idealize.ShloMosaic.Lib.ValueIdx

namespace Cert.LibRowAxis

open Idealize.ShloMosaic Idealize.ShloMosaic.ValueIdx

variable {α : Type}

/-- `[a, d]` viewed `[a, 1, d]`: entry `(p, z, r)` (with `z` the only coordinate of the unit axis) is entry `(p, r)`. -/
theorem shapeCast_ad_a1d_apply {a d : ℕ} (x : (⟨2, ![a, d]⟩ : Shape).Idx → α)
    (h : (⟨2, ![a, d]⟩ : Shape).ShapeCasts ⟨3, ![a, 1, d]⟩) (p : Fin a) (z : Fin 1) (r : Fin d) :
    shapeCast ⟨3, ![a, 1, d]⟩ x h (ix3 p z r) = x (ix2 p r) := by
  refine shapeCast_apply x h _ _ ?_
  rw [Shape.rowMajor_val_two, Shape.rowMajor_val_three]
  show p.val * d + r.val = (p.val * 1 + z.val) * d + r.val
  have hz : z.val = 0 := by have := z.isLt; omega
  rw [hz, Nat.mul_one, Nat.add_zero]

/-- `[a, 1, d]` broadcast along the middle axis to `[a, b, d]`: entry `(p, q, r)` is entry `(p, 0, r)`. -/
theorem broadcastTo_a1d_abd_apply {a b d : ℕ} (x : (⟨3, ![a, 1, d]⟩ : Shape).Idx → α)
    (h : (⟨3, ![a, 1, d]⟩ : Shape).Broadcasts ⟨3, ![a, b, d]⟩) (p : Fin a) (q : Fin b) (r : Fin d) :
    broadcastTo ⟨3, ![a, b, d]⟩ x h (ix3 p q r) = x (ix3 p ⟨0, Nat.one_pos⟩ r) := by
  refine broadcastTo_apply x h _ _ fun ax => ?_
  match ax with
  | ⟨0, _⟩ =>
    show p.val = if a = 1 then 0 else p.val
    split_ifs with h1
    · have := p.isLt; omega
    · rfl
  | ⟨1, _⟩ =>
    show (0 : ℕ) = if (1 : ℕ) = 1 then 0 else q.val
    rw [if_pos rfl]
  | ⟨2, _⟩ =>
    show r.val = if d = 1 then 0 else r.val
    split_ifs with h1
    · have := r.isLt; omega
    · rfl

end Cert.LibRowAxis
-- ==== Proof.Pass1Pay.lean ====
/-
  The first kernel call's arithmetic, term by term, read at an index over the extended reals.  The tile's projection
  is the [1024, 256] matrix against the 2048 tokens of the block, ∑_c W(r, c)·x(n', c); its four 256-row parts, read
  as [8, 32, 2048], are q, k, v_ca, v_sa.  One tile adds to the accumulators ∑_n' q(h,d,n')·k(h,e,n') (Gram matrix),
  ∑_n' q² and ∑_n' k² (squared row norms), ∑_n' k(h,d,n')·WE(p,n') and ∑_n' v_sa(h,d,n')·WF(p,n') (low-rank
  projections).  The last tile's terms: 1 / max(sqrt s, eps); the softmax over e of g·inv_q·inv_k·t1; (kp + bE)·inv_q;
  vp + bF.  The zero terms are zero.
-/
import proofs.«149626_j38448547234132_2_alg».proof.Proof.Gen.KernelIdeal.Skeleton
import proofs.«149626_j38448547234132_2_alg».proof.Proof.ValueSpec
import proofs.«149626_j38448547234132_2_alg».proof.Proof.LibMatmulNT
import proofs.«149626_j38448547234132_2_alg».proof.Proof.LibRank3Layout
import proofs.«149626_j38448547234132_2_alg».proof.Proof.LibGroupsToRows
import proofs.«149626_j38448547234132_2_alg».proof.Proof.LibRowAxis
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Pass1Pay

open Idealize.ShloMosaic Idealize.ShloMosaic.TcCoe Idealize.ShloMosaic.ValueIdx Idealize.SL.Sem
open Cert.KernelIdeal Cert.KernelIdeal.Gen Cert

/-! ## The tile's projection: every entry is a row of the matrix against a token of the block -/

section Projection
variable (x : Vec Ideal S1x2048x256 .f32) (w : Vec Ideal S1024x256 .f32)

/-- Row `(part, h, d)` of the matrix against token `n'` of the block. -/
def tileProj (part : Fin 4) (h : Fin 8) (d : Fin 32) (n' : Fin 2048) : EReal :=
  ∑ c : Fin 256, w (ix2 (Spec.row part h d) c) * x (ix3 0 n' c)

/-- The block with its unit leading axis dropped: entry `(n', c)` is entry `(0, n', c)`. -/
theorem block_rows_apply (n' : Fin 2048) (c : Fin 256) :
    shapeCast S2048x256 x shapeCasts_S1x2048x256_S2048x256 (ix2 n' c) = x (ix3 0 n' c) := by
  refine shapeCast_apply x _ _ _ ?_
  rw [Shape.rowMajor_val_two, Shape.rowMajor_val_three]
  show ((0 : ℕ) * 2048 + n'.val) * 256 + c.val = n'.val * 256 + c.val
  omega

/-- The whole projection: entry `(r, n')` is row `r` of the matrix against token `n'` of the block. -/
theorem pay11_apply (r : Fin 1024) (n' : Fin 2048) :
    k0_pay11 x w (ix2 r n') = ∑ c : Fin 256, w (ix2 r c) * x (ix3 0 n' c) := by
  unfold k0_pay11
  refine (LibMatmulNT.matmul_zero_apply dot_S1024x256_S2048x256_S1024x2048_1_1_0_0_n_n_wf none _ _ r n').trans ?_
  refine Finset.sum_congr rfl fun c _ => ?_
  rw [truncf_apply, truncf_apply, block_rows_apply]

/-- A block of 256 rows of the projection viewed as 8 groups of 32 rows. -/
theorem slice_rows_apply (part : Fin 4) (off : Fin 2 → Nat) (hs : S1024x2048.Slices off S256x2048)
    (h0 : off 0 = part.val * 256) (h1 : off 1 = 0) (h : Fin 8) (d : Fin 32) (n' : Fin 2048) :
    shapeCast S8x32x2048 (extractStridedSlice S256x2048 off (k0_pay11 x w) hs) shapeCasts_S256x2048_S8x32x2048 (ix3 h d n')
      = tileProj x w part h d n' := by
  have hd := d.isLt
  have hh := h.isLt
  have hp := part.isLt
  rw [LibRank3.shapeCast_rows_apply _ _ h d n' (by omega)]
  rw [extractStridedSlice_apply off _ hs _ (ix2 (Spec.row part h d) n') ?_]
  · exact pay11_apply x w _ _
  · intro a
    match a with
    | ⟨0, _⟩ =>
      show part.val * 256 + h.val * 32 + d.val = off 0 + (h.val * 32 + d.val)
      omega
    | ⟨1, _⟩ =>
      show n'.val = off 1 + n'.val
      omega

/-- A rank-3 array given a unit leading axis: entry `(0, h, d, n')` is entry `(h, d, n')`. -/
theorem lead_axis_apply {α : Type} (v : S8x32x2048.Idx → α) (h : Fin 8) (d : Fin 32) (n' : Fin 2048) :
    shapeCast S1x8x32x2048 v shapeCasts_S8x32x2048_S1x8x32x2048 (ix4 0 h d n') = v (ix3 h d n') := by
  refine shapeCast_apply v _ _ _ ?_
  rw [Shape.rowMajor_val_three, Shape.rowMajor_val_four]
  show (h.val * 32 + d.val) * 2048 + n'.val = (((0 : ℕ) * 8 + h.val) * 32 + d.val) * 2048 + n'.val
  omega

theorem pay12_apply (h : Fin 8) (d : Fin 32) (n' : Fin 2048) : k0_pay12 x w (ix3 h d n') = tileProj x w 0 h d n' := by
  unfold k0_pay12
  exact slice_rows_apply x w 0 _ _ rfl rfl h d n'
theorem pay13_apply (h : Fin 8) (d : Fin 32) (n' : Fin 2048) : k0_pay13 x w (ix3 h d n') = tileProj x w 1 h d n' := by
  unfold k0_pay13
  exact slice_rows_apply x w 1 _ _ rfl rfl h d n'
theorem pay14_apply (h : Fin 8) (d : Fin 32) (n' : Fin 2048) : k0_pay14 x w (ix4 0 h d n') = tileProj x w 0 h d n' := by
  unfold k0_pay14
  rw [lead_axis_apply, truncf_apply, pay12_apply]
theorem pay15_apply (h : Fin 8) (d : Fin 32) (n' : Fin 2048) : k0_pay15 x w (ix4 0 h d n') = tileProj x w 2 h d n' := by
  unfold k0_pay15
  rw [lead_axis_apply, truncf_apply]
  exact slice_rows_apply x w 2 _ _ rfl rfl h d n'
theorem pay16_apply (h : Fin 8) (d : Fin 32) (n' : Fin 2048) : k0_pay16 x w (ix3 h d n') = tileProj x w 0 h d n' := by
  unfold k0_pay16
  rw [truncf_apply, pay12_apply]
theorem pay17_apply (h : Fin 8) (d : Fin 32) (n' : Fin 2048) : k0_pay17 x w (ix3 h d n') = tileProj x w 1 h d n' := by
  unfold k0_pay17
  rw [truncf_apply, pay13_apply]
theorem pay18_apply (h : Fin 8) (d : Fin 32) (n' : Fin 2048) : k0_pay18 x w (ix3 h d n') = tileProj x w 3 h d n' := by
  unfold k0_pay18
  rw [truncf_apply]
  exact slice_rows_apply x w 3 _ _ rfl rfl h d n'
end Projection

theorem pay19_apply (v : Vec Ideal S64x2048 .f32) (p : Fin 64) (n' : Fin 2048) : k0_pay19 v (ix2 p n') = v (ix2 p n') := rfl
theorem pay20_apply (v : Vec Ideal S64x2048 .f32) (p : Fin 64) (n' : Fin 2048) : k0_pay20 v (ix2 p n') = v (ix2 p n') := rfl

/-! ## The accumulators: what one tile adds -/

theorem pay6_apply (i : S8x32x32.Idx) : k0_pay6 (F := Ideal) i = 0 := by
  unfold k0_pay6
  rw [shapeCast_self]
  exact Ideal.ofBits_zero_f32
theorem pay7_apply (i : S8x32.Idx) : k0_pay7 (F := Ideal) i = 0 := by
  unfold k0_pay7
  rw [shapeCast_self]
  exact Ideal.ofBits_zero_f32
theorem pay8_apply (i : S8x32.Idx) : k0_pay8 (F := Ideal) i = 0 := by
  unfold k0_pay8
  rw [shapeCast_self]
  exact Ideal.ofBits_zero_f32
theorem pay9_apply (i : S8x32x64.Idx) : k0_pay9 (F := Ideal) i = 0 := by
  unfold k0_pay9
  rw [shapeCast_self]
  exact Ideal.ofBits_zero_f32
theorem pay10_apply (i : S8x32x64.Idx) : k0_pay10 (F := Ideal) i = 0 := by
  unfold k0_pay10
  rw [shapeCast_self]
  exact Ideal.ofBits_zero_f32

/-- 256 rows viewed as 8 groups of 32: entry `(h, d, r)` is row `32 h + d`. -/
theorem groups_of_rows_apply {α : Type} {c : ℕ} (v : (⟨2, ![256, c]⟩ : Shape).Idx → α)
    (hs : (⟨2, ![256, c]⟩ : Shape).ShapeCasts ⟨3, ![8, 32, c]⟩) (h : Fin 8) (d : Fin 32) (r : Fin c) :
    shapeCast ⟨3, ![8, 32, c]⟩ v hs (ix3 h d r) = v (ix2 (Spec.chan h d) r) :=
  LibRank3.shapeCast_rows_apply v hs h d r (Spec.chan h d).isLt

/-- 8 groups of 32 rows viewed as 256 rows: row `32 h + d` is entry `(h, d, r)`. -/
theorem rows_of_groups_apply {α : Type} {c : ℕ} (v : (⟨3, ![8, 32, c]⟩ : Shape).Idx → α)
    (hs : (⟨3, ![8, 32, c]⟩ : Shape).ShapeCasts ⟨2, ![256, c]⟩) (h : Fin 8) (d : Fin 32) (r : Fin c) :
    shapeCast ⟨2, ![256, c]⟩ v hs (ix2 (Spec.chan h d) r) = v (ix3 h d r) :=
  Layout.shapeCast_groups_rows_apply v hs h d r (Spec.chan h d).isLt

/-- The left index of the per-head product of rows keeps the head. -/
theorem gram_lhs_0 (j : S8x32x32.Idx) (k : dot_S8x32x2048_S8x32x2048_S8x32x32_2_2_1_1_0_0.contr.Idx) : (dot_S8x32x2048_S8x32x2048_S8x32x32_2_2_1_1_0_0.lhsIdx j k 0).val = (j 0).val := by
  unfold DotDims.lhsIdx
  rw [dif_pos (show (0 : Fin S8x32x2048.rank) ∈ dot_S8x32x2048_S8x32x2048_S8x32x32_2_2_1_1_0_0.lhsBatch by decide)]
  rfl
/-- … and the result's row coordinate on its own row axis. -/
theorem gram_lhs_1 (j : S8x32x32.Idx) (k : dot_S8x32x2048_S8x32x2048_S8x32x32_2_2_1_1_0_0.contr.Idx) : (dot_S8x32x2048_S8x32x2048_S8x32x32_2_2_1_1_0_0.lhsIdx j k 1).val = (j 1).val := by
  unfold DotDims.lhsIdx
  rw [dif_neg (show ¬(1 : Fin S8x32x2048.rank) ∈ dot_S8x32x2048_S8x32x2048_S8x32x32_2_2_1_1_0_0.lhsBatch by decide),
    dif_pos (show (1 : Fin S8x32x2048.rank) ∈ dot_S8x32x2048_S8x32x2048_S8x32x32_2_2_1_1_0_0.lhsNonContracting by decide)]
  rfl
/-- The right index keeps the head. -/
theorem gram_rhs_0 (j : S8x32x32.Idx) (k : dot_S8x32x2048_S8x32x2048_S8x32x32_2_2_1_1_0_0.contr.Idx) : (dot_S8x32x2048_S8x32x2048_S8x32x32_2_2_1_1_0_0.rhsIdx j k 0).val = (j 0).val := by
  unfold DotDims.rhsIdx
  rw [dif_pos (show (0 : Fin S8x32x2048.rank) ∈ dot_S8x32x2048_S8x32x2048_S8x32x32_2_2_1_1_0_0.rhsBatch by decide)]
  rfl
/-- … and puts the result's column coordinate on its own row axis. -/
theorem gram_rhs_1 (j : S8x32x32.Idx) (k : dot_S8x32x2048_S8x32x2048_S8x32x32_2_2_1_1_0_0.contr.Idx) : (dot_S8x32x2048_S8x32x2048_S8x32x32_2_2_1_1_0_0.rhsIdx j k 1).val = (j 2).val := by
  unfold DotDims.rhsIdx
  rw [dif_neg (show ¬(1 : Fin S8x32x2048.rank) ∈ dot_S8x32x2048_S8x32x2048_S8x32x32_2_2_1_1_0_0.rhsBatch by decide),
    dif_pos (show (1 : Fin S8x32x2048.rank) ∈ dot_S8x32x2048_S8x32x2048_S8x32x32_2_2_1_1_0_0.rhsNonContracting by decide)]
  rfl

/-- The left index of the per-head product of rows at result `(h, d, e)` and contraction position `n'` is `(h, d, n')`. -/
theorem gram_lhsIdx (h : Fin 8) (d e : Fin 32) (n' : Fin 2048) :
    dot_S8x32x2048_S8x32x2048_S8x32x32_2_2_1_1_0_0.lhsIdx (ix3 h d e) ((contrEquiv1 dot_S8x32x2048_S8x32x2048_S8x32x32_2_2_1_1_0_0 2048 rfl rfl).symm n') = ix3 h d n' := by
  have he := contrEquiv1_symm_val dot_S8x32x2048_S8x32x2048_S8x32x32_2_2_1_1_0_0 2048 rfl rfl n'
  funext a
  apply Fin.ext
  match a with
  | ⟨0, _⟩ => exact gram_lhs_0 _ _
  | ⟨1, _⟩ => exact gram_lhs_1 _ _
  | ⟨2, _⟩ => exact (dot_S8x32x2048_S8x32x2048_S8x32x32_2_2_1_1_0_0.lhsIdx_val_of_single rfl _ _).trans he

/-- The right index of the per-head product of rows at result `(h, d, e)` and contraction position `n'` is `(h, e, n')`. -/
theorem gram_rhsIdx (h : Fin 8) (d e : Fin 32) (n' : Fin 2048) :
    dot_S8x32x2048_S8x32x2048_S8x32x32_2_2_1_1_0_0.rhsIdx (ix3 h d e) ((contrEquiv1 dot_S8x32x2048_S8x32x2048_S8x32x32_2_2_1_1_0_0 2048 rfl rfl).symm n') = ix3 h e n' := by
  have he := contrEquiv1_symm_val dot_S8x32x2048_S8x32x2048_S8x32x32_2_2_1_1_0_0 2048 rfl rfl n'
  funext a
  apply Fin.ext
  match a with
  | ⟨0, _⟩ => exact gram_rhs_0 _ _
  | ⟨1, _⟩ => exact gram_rhs_1 _ _
  | ⟨2, _⟩ => exact (dot_S8x32x2048_S8x32x2048_S8x32x32_2_2_1_1_0_0.rhsIdx_val_of_single rfl _ _).trans he

theorem pay21_apply (q k : FVec Ideal S8x32x2048 .bf16) (acc : Vec Ideal S8x32x32 .f32) (h : Fin 8) (d e : Fin 32) :
    k0_pay21 q k acc (ix3 h d e) = acc (ix3 h d e) + ∑ n' : Fin 2048, q (ix3 h d n') * k (ix3 h e n') := by
  unfold k0_pay21
  rw [shapeCast_self, addf_apply]
  refine congrArg _ ?_
  refine (Ideal.matmul_constant_zero_apply dot_S8x32x2048_S8x32x2048_S8x32x32_2_2_1_1_0_0 none q k (ix3 h d e)).trans ?_
  rw [← Equiv.sum_comp (contrEquiv1 dot_S8x32x2048_S8x32x2048_S8x32x32_2_2_1_1_0_0 2048 rfl rfl).symm]
  refine Finset.sum_congr rfl fun n' _ => ?_
  rw [gram_lhsIdx, gram_rhsIdx]
theorem pay22_apply (v : FVec Ideal S8x32x2048 .f32) (acc : Vec Ideal S8x32 .f32) (h : Fin 8) (d : Fin 32) :
    k0_pay22 v acc (ix2 h d) = acc (ix2 h d) + ∑ n' : Fin 2048, v (ix3 h d n') * v (ix3 h d n') := by
  unfold k0_pay22
  rw [shapeCast_self, addf_apply]
  exact congrArg _ (LibRank3.sum_lane_apply _ _ _ _ _ h d)
theorem pay23_apply (v : FVec Ideal S8x32x2048 .f32) (acc : Vec Ideal S8x32 .f32) (h : Fin 8) (d : Fin 32) :
    k0_pay23 v acc (ix2 h d) = acc (ix2 h d) + ∑ n' : Fin 2048, v (ix3 h d n') * v (ix3 h d n') := by
  unfold k0_pay23
  rw [shapeCast_self, addf_apply]
  exact congrArg _ (LibRank3.sum_lane_apply _ _ _ _ _ h d)
theorem pay24_apply (vsa : FVec Ideal S8x32x2048 .bf16) (wf : FVec Ideal S64x2048 .bf16) (h : Fin 8) (d : Fin 32) (p : Fin 64) :
    k0_pay24 vsa wf (ix2 (Spec.chan h d) p) = ∑ n' : Fin 2048, vsa (ix3 h d n') * wf (ix2 p n') := by
  unfold k0_pay24
  refine (LibMatmulNT.matmul_zero_apply dot_S256x2048_S64x2048_S256x64_1_1_0_0_n_n_wf none _ _ (Spec.chan h d) p).trans ?_
  refine Finset.sum_congr rfl fun n' _ => ?_
  rw [rows_of_groups_apply]
theorem pay25_apply (k : FVec Ideal S8x32x2048 .bf16) (we : FVec Ideal S64x2048 .bf16) (acc : Vec Ideal S8x32x64 .f32) (h : Fin 8) (d : Fin 32) (p : Fin 64) :
    k0_pay25 k we acc (ix3 h d p) = acc (ix3 h d p) + ∑ n' : Fin 2048, k (ix3 h d n') * we (ix2 p n') := by
  unfold k0_pay25
  rw [shapeCast_self, addf_apply, groups_of_rows_apply]
  refine congrArg _ ?_
  refine (LibMatmulNT.matmul_zero_apply dot_S256x2048_S64x2048_S256x64_1_1_0_0_n_n_wf none _ _ (Spec.chan h d) p).trans ?_
  refine Finset.sum_congr rfl fun n' _ => ?_
  rw [rows_of_groups_apply]
theorem pay1_apply (v : FVec Ideal S256x64 .f32) (acc : Vec Ideal S8x32x64 .f32) (h : Fin 8) (d : Fin 32) (p : Fin 64) :
    k0_pay1 v acc (ix3 h d p) = acc (ix3 h d p) + v (ix2 (Spec.chan h d) p) := by
  unfold k0_pay1
  rw [shapeCast_self, addf_apply, groups_of_rows_apply]

/-! ## The last tile: the accumulators turned into the three per-batch results -/

/-- A rank-3 array of 8 × 32 rows given a unit leading axis: entry `(0, h, d, r)` is entry `(h, d, r)`. -/
theorem lead_unit_apply {α : Type} {c : ℕ} (v : (⟨3, ![8, 32, c]⟩ : Shape).Idx → α)
    (hs : (⟨3, ![8, 32, c]⟩ : Shape).ShapeCasts ⟨4, ![1, 8, 32, c]⟩) (h : Fin 8) (d : Fin 32) (r : Fin c) :
    shapeCast ⟨4, ![1, 8, 32, c]⟩ v hs (ix4 0 h d r) = v (ix3 h d r) := by
  refine shapeCast_apply v hs _ _ ?_
  rw [Shape.rowMajor_val_three, Shape.rowMajor_val_four]
  show (h.val * 32 + d.val) * c + r.val = (((0 : ℕ) * 8 + h.val) * 32 + d.val) * c + r.val
  rw [Nat.zero_mul, Nat.zero_add]

/-- The bias row broadcast over heads and rows: entry `(h, d, p)` is entry `(0, 0, p)`. -/
theorem bias_broadcast_apply {α : Type} (x : S1x1x64.Idx → α) (h : Fin 8) (d : Fin 32) (p : Fin 64) :
    broadcastTo S8x32x64 x broadcasts_S1x1x64_S8x32x64 (ix3 h d p) = x (ix3 0 0 p) := by
  refine broadcastTo_apply x _ _ _ fun a => ?_
  match a with
  | ⟨0, _⟩ =>
    show (0 : ℕ) = if (1 : ℕ) = 1 then 0 else h.val
    rw [if_pos rfl]
  | ⟨1, _⟩ =>
    show (0 : ℕ) = if (1 : ℕ) = 1 then 0 else d.val
    rw [if_pos rfl]
  | ⟨2, _⟩ =>
    show p.val = if (64 : ℕ) = 1 then 0 else p.val
    rw [if_neg (by decide)]

/-- The per-head temperature broadcast over rows and columns: entry `(h, d, e)` is entry `(h, 0, 0)`. -/
theorem temp_broadcast_apply {α : Type} (t : S8x1x1.Idx → α) (h : Fin 8) (d e : Fin 32) :
    broadcastTo S8x32x32 t broadcasts_S8x1x1_S8x32x32 (ix3 h d e) = t (ix3 h 0 0) := by
  refine broadcastTo_apply t _ _ _ fun a => ?_
  match a with
  | ⟨0, _⟩ =>
    show h.val = if (8 : ℕ) = 1 then 0 else h.val
    rw [if_neg (by decide)]
  | ⟨1, _⟩ =>
    show (0 : ℕ) = if (1 : ℕ) = 1 then 0 else d.val
    rw [if_pos rfl]
  | ⟨2, _⟩ =>
    show (0 : ℕ) = if (1 : ℕ) = 1 then 0 else e.val
    rw [if_pos rfl]

theorem pay4_apply (s : Vec Ideal S8x32 .f32) (h : Fin 8) (d : Fin 32) :
    k0_pay4 s (ix2 h d) = Ideal.div Spec.one (max (Ideal.sqrt (s (ix2 h d))) Spec.eps) := by
  unfold k0_pay4
  rfl

/-- The row maximum of a rank-3 array, kept as a unit lane axis and broadcast back along the lanes. -/
theorem lane_max_apply (L : FVec Ideal S8x32x32 .f32) (h : Fin 8) (d e : Fin 32) :
    broadcastTo S8x32x32
        (shapeCast S8x32x1 (multiReduction (F := Ideal) .maximumf [2] S8x32 L 0xFF800000#32 reduces_S8x32x32_S8x32 (.inl rfl) rfl)
          shapeCasts_S8x32_S8x32x1) broadcasts_S8x32x1_S8x32x32 (ix3 h d e)
      = (Finset.univ : Finset (Fin 32)).fold max Spec.ninf (fun e' => L (ix3 h d e')) := by
  rw [LibRank3.broadcastTo_lane_apply, LibRank3.shapeCast_keepdim_apply]
  exact LibRank3.max_lane_apply L _ _ _ _ h d

/-- The exponentials of a rank-3 array's entries shifted by their row's maximum. -/
def shiftExp (L : FVec Ideal S8x32x32 .f32) : FVec Ideal S8x32x32 .f32 :=
  exp (subf L (broadcastTo S8x32x32
    (shapeCast S8x32x1 (multiReduction (F := Ideal) .maximumf [2] S8x32 L 0xFF800000#32 reduces_S8x32x32_S8x32 (.inl rfl) rfl)
      shapeCasts_S8x32_S8x32x1) broadcasts_S8x32x1_S8x32x32))

theorem shiftExp_apply (L : FVec Ideal S8x32x32 .f32) (h : Fin 8) (d e : Fin 32) :
    shiftExp L (ix3 h d e)
      = Ideal.exp (L (ix3 h d e) - (Finset.univ : Finset (Fin 32)).fold max Spec.ninf (fun e' => L (ix3 h d e'))) := by
  unfold shiftExp
  show Ideal.exp (L (ix3 h d e) - _) = _
  rw [lane_max_apply]

/-- The softmax along the lanes of a rank-3 array, with a unit leading axis added: the softmax weight of each row's entries. -/
theorem softmax_lane_apply (L : FVec Ideal S8x32x32 .f32) (h : Fin 8) (d e : Fin 32) :
    shapeCast S1x8x32x32
        (divf (shiftExp L)
          (broadcastTo S8x32x32
            (shapeCast S8x32x1 (multiReduction (F := Ideal) .add [2] S8x32 (shiftExp L) 0x00000000#32 reduces_S8x32x32_S8x32 (.inl rfl) rfl)
              shapeCasts_S8x32_S8x32x1) broadcasts_S8x32x1_S8x32x32))
        shapeCasts_S8x32x32_S1x8x32x32 (ix4 0 h d e)
      = Spec.smax (fun e' : Fin 32 => L (ix3 h d e')) e := by
  rw [lead_unit_apply, divf_apply, LibRank3.broadcastTo_lane_apply, LibRank3.shapeCast_keepdim_apply]
  refine (congrArg (Ideal.div _) (LibRank3.sum_lane_apply (shiftExp L) _ _ _ _ h d)).trans ?_
  simp only [shiftExp_apply]
  rfl

theorem pay5_apply (sq sk : Vec Ideal S8x32 .f32) (g : Vec Ideal S8x32x32 .f32) (t : Vec Ideal S8x1x1 .f32) (h : Fin 8) (d e : Fin 32) :
    k0_pay5 sq sk g t (ix4 0 h d e)
      = Spec.smax (fun e' : Fin 32 => g (ix3 h d e') * Ideal.div Spec.one (max (Ideal.sqrt (sq (ix2 h d))) Spec.eps) * Ideal.div Spec.one (max (Ideal.sqrt (sk (ix2 h e'))) Spec.eps) * t (ix3 h 0 0)) e := by
  unfold k0_pay5
  refine (softmax_lane_apply _ h d e).trans ?_
  refine congrArg (fun s => Spec.smax s e) (funext fun e' => ?_)
  rw [mulf_apply, mulf_apply, mulf_apply, temp_broadcast_apply, LibRowAxis.broadcastTo_a1d_abd_apply,
    LibRowAxis.shapeCast_ad_a1d_apply, LibRank3.broadcastTo_lane_apply, LibRank3.shapeCast_keepdim_apply, pay4_apply]
  rfl
theorem pay2_apply (iq : FVec Ideal S8x32 .f32) (kp : Vec Ideal S8x32x64 .f32) (be : Vec Ideal S1x1x64 .f32) (h : Fin 8) (d : Fin 32) (p : Fin 64) :
    k0_pay2 iq kp be (ix4 0 h d p) = (kp (ix3 h d p) + be (ix3 0 0 p)) * iq (ix2 h d) := by
  unfold k0_pay2
  rw [lead_unit_apply, mulf_apply, addf_apply, shapeCast_self, bias_broadcast_apply, LibRank3.broadcastTo_lane_apply,
    LibRank3.shapeCast_keepdim_apply]
theorem pay3_apply (vp : Vec Ideal S8x32x64 .f32) (bf : Vec Ideal S1x1x64 .f32) (h : Fin 8) (d : Fin 32) (p : Fin 64) :
    k0_pay3 vp bf (ix4 0 h d p) = vp (ix3 h d p) + bf (ix3 0 0 p) := by
  unfold k0_pay3
  rw [lead_unit_apply, addf_apply, shapeCast_self, bias_broadcast_apply]

end Cert.KernelIdeal.Pass1Pay

end
-- ==== Proof.Pass1Value.lean ====
/-
  The first kernel call's value, point by point (at the extended reals).  Point t is batch t / 4, tile t mod 4.  The
  tile's projected entries are the spec's projections at that batch and at token 2048 (t mod 4) + n'.  Each
  accumulator restarts at a batch's first tile and otherwise adds the tile's contribution to what the tile before
  left, so after point t it holds the sum of the contributions of tiles 0 … t mod 4 of batch t / 4; at the last tile
  that is the sum over all four tiles, i.e. the spec's tile-by-tile sums.
-/
import proofs.«149626_j38448547234132_2_alg».proof.Proof.Pass1Blocks
import proofs.«149626_j38448547234132_2_alg».proof.Proof.Pass1Pay
import proofs.«149626_j38448547234132_2_alg».proof.Proof.ValueSpec
import proofs.«149626_j38448547234132_2_alg».proof.Proof.Pass1Names

set_option maxRecDepth 16384

noncomputable section

namespace Cert.KernelIdeal.Pass1

open Cert.KernelIdeal Cert.KernelIdeal.Gen Cert.KernelIdeal.Pass1Pay Cert
open Idealize.ShloMosaic Idealize.ShloMosaic.TcCoe Idealize.ShloMosaic.ValueIdx Idealize.SL.Sem

/-! ## Partial sums over the four tiles -/

/-- The sum of `f` over the tiles `0 … j`. -/
def part (f : Fin 4 → EReal) (j : ℕ) : EReal := ∑ j' : Fin 4, if j'.val ≤ j then f j' else 0

theorem part_zero (f : Fin 4 → EReal) : part f 0 = f 0 := by
  simp [part, Fin.sum_univ_four]
theorem part_succ (f : Fin 4 → EReal) (j : ℕ) (hj : j + 1 < 4) : part f (j + 1) = part f j + f ⟨j + 1, hj⟩ := by
  have : j = 0 ∨ j = 1 ∨ j = 2 := by omega
  rcases this with rfl | rfl | rfl <;> simp [part, Fin.sum_univ_four, add_assoc]
theorem part_three (f : Fin 4 → EReal) : part f 3 = ∑ j' : Fin 4, f j' := by
  simp [part, Fin.sum_univ_four]

theorem part_of_zero (f : Fin 4 → EReal) (r : ℕ) (hr : r = 0) : part f r = f 0 := by
  subst hr; exact part_zero f
theorem part_of_succ (f : Fin 4 → EReal) (r j : ℕ) (hr : r = j + 1) (hj : j + 1 < 4) :
    part f r = part f j + f ⟨j + 1, hj⟩ := by
  subst hr; exact part_succ f j hj

/-- An accumulator that restarts from zero at every first tile and otherwise adds the tile's contribution holds,
    after point `n`, the contributions of tiles `0 … n mod 4` of batch `n / 4`. -/
theorem accum {ι : Type} (a : (n : ℕ) → n < 32 → ι → EReal) (con : Fin 8 → Fin 4 → ι → EReal)
    (hfirst : ∀ n (hn : n < 32), n % 4 = 0 → ∀ i, a n hn i = 0 + con ⟨n / 4, by omega⟩ ⟨n % 4, Nat.mod_lt _ (by decide)⟩ i)
    (hnext : ∀ n (hn : n + 1 < 32), (n + 1) % 4 ≠ 0 → ∀ i,
      a (n + 1) hn i = a n (by omega) i + con ⟨(n + 1) / 4, by omega⟩ ⟨(n + 1) % 4, Nat.mod_lt _ (by decide)⟩ i) :
    ∀ n (hn : n < 32) i, a n hn i = part (fun j' => con ⟨n / 4, by omega⟩ j' i) (n % 4) := by
  intro n
  induction n with
  | zero =>
    intro hn i
    rw [hfirst 0 hn rfl i, zero_add]
    exact (part_of_zero (fun j' => con ⟨0 / 4, by omega⟩ j' i) (0 % 4) rfl).symm
  | succ n ih =>
    intro hn i
    by_cases h : (n + 1) % 4 = 0
    · have hj : (⟨(n + 1) % 4, Nat.mod_lt _ (by decide)⟩ : Fin 4) = 0 := Fin.ext h
      rw [hfirst (n + 1) hn h i, zero_add, hj, part_of_zero _ ((n + 1) % 4) h]
    · have hq : (n + 1) / 4 = n / 4 := by omega
      have hr : (n + 1) % 4 = n % 4 + 1 := by omega
      have hlt : n % 4 + 1 < 4 := by omega
      have hb : (⟨(n + 1) / 4, by omega⟩ : Fin 8) = ⟨n / 4, by omega⟩ := Fin.ext hq
      have hj : (⟨(n + 1) % 4, Nat.mod_lt _ (by decide)⟩ : Fin 4) = ⟨n % 4 + 1, hlt⟩ := Fin.ext hr
      rw [hnext n hn h i, ih (by omega) i, hb, hj, part_of_succ _ ((n + 1) % 4) (n % 4) hr hlt]

/-! ## The tile's projection in the spec's terms -/

section Points
variable (V : (c : Dev nD) → (b : Ref sig .tc) → Buf (Elt Ideal) ((c : Thread nD τ).loc b)) (c : Dev nD)

theorem tileProj_eq (t : Fin cfg0.N) (pt : Fin 4) (h : Fin 8) (d : Fin 32) (n' : Fin 2048) :
    tileProj (iblk V c 0 t) (iblk V c 1 t) pt h d n' = Spec.kproj (aW V c) (aX V c) pt (bOf t) h d (Spec.tok (jOf t) n') := by
  unfold tileProj Spec.kproj
  refine Finset.sum_congr rfl fun ch _ => ?_
  rw [iblk_w1 V c t]
  congr 1
  exact iblk_x_apply V c t (ix3 0 n' ch) (ix3 (bOf t) (Spec.tok (jOf t) n') ch)
    (by show t.val / 4 = t.val / 4 + 0; rfl) (by show t.val % 4 * 2048 + n'.val = t.val % 4 * 2048 + n'.val; rfl) rfl

theorem tileWE_eq (t : Fin cfg0.N) (p : Fin 64) (n' : Fin 2048) :
    tile (grid0.coords t) (iblk V c 2 t) (ix2 p n') = aWE V c (ix2 p (Spec.tok (jOf t) n')) := by
  rw [iblk_w2 V c t]
  exact tile_apply t _ (ix2 p n') (ix2 p (Spec.tok (jOf t) n')) rfl
    (by show t.val % 4 * 2048 + n'.val = t.val % 4 * 2048 + n'.val; rfl)

theorem tileWF_eq (t : Fin cfg0.N) (p : Fin 64) (n' : Fin 2048) :
    tile (grid0.coords t) (iblk V c 4 t) (ix2 p n') = aWF V c (ix2 p (Spec.tok (jOf t) n')) := by
  rw [iblk_w4 V c t]
  exact tile_apply t _ (ix2 p n') (ix2 p (Spec.tok (jOf t) n')) rfl
    (by show t.val % 4 * 2048 + n'.val = t.val % 4 * 2048 + n'.val; rfl)

end Points

/-! ## What one tile adds to each accumulator -/

section Steps
variable (x0 : Vec Ideal S1x2048x256 .f32) (x1 : Vec Ideal S1024x256 .f32)

theorem acc0_apply (a : Vec Ideal S8x32x32 .f32) (h : Fin 8) (d e : Fin 32) :
    acc0 x0 x1 a (ix3 h d e) = a (ix3 h d e) + ∑ n' : Fin 2048, tileProj x0 x1 0 h d n' * tileProj x0 x1 1 h e n' := by
  show k0_pay21 (k0_pay16 x0 x1) (k0_pay17 x0 x1) a (ix3 h d e) = _
  rw [pay21_apply]; simp only [pay16_apply, pay17_apply]
theorem acc1_apply (a : Vec Ideal S8x32 .f32) (h : Fin 8) (d : Fin 32) :
    acc1 x0 x1 a (ix2 h d) = a (ix2 h d) + ∑ n' : Fin 2048, tileProj x0 x1 0 h d n' * tileProj x0 x1 0 h d n' := by
  show k0_pay22 (k0_pay12 x0 x1) a (ix2 h d) = _
  rw [pay22_apply]; simp only [pay12_apply]
theorem acc2_apply (a : Vec Ideal S8x32 .f32) (h : Fin 8) (d : Fin 32) :
    acc2 x0 x1 a (ix2 h d) = a (ix2 h d) + ∑ n' : Fin 2048, tileProj x0 x1 1 h d n' * tileProj x0 x1 1 h d n' := by
  show k0_pay23 (k0_pay13 x0 x1) a (ix2 h d) = _
  rw [pay23_apply]; simp only [pay13_apply]
theorem acc3_apply (i : grid0.Coords) (x2 : Vec Ideal S64x8192 .f32) (a : Vec Ideal S8x32x64 .f32) (h : Fin 8) (d : Fin 32) (p : Fin 64) :
    acc3 i x0 x1 x2 a (ix3 h d p) = a (ix3 h d p) + ∑ n' : Fin 2048, tileProj x0 x1 1 h d n' * tile i x2 (ix2 p n') := by
  show k0_pay25 (k0_pay17 x0 x1) (k0_pay19 (tile i x2)) a (ix3 h d p) = _
  rw [pay25_apply]; simp only [pay17_apply, pay19_apply]
theorem acc4_apply (i : grid0.Coords) (x4 : Vec Ideal S64x8192 .f32) (a : Vec Ideal S8x32x64 .f32) (h : Fin 8) (d : Fin 32) (p : Fin 64) :
    acc4 i x0 x1 x4 a (ix3 h d p) = a (ix3 h d p) + ∑ n' : Fin 2048, tileProj x0 x1 3 h d n' * tile i x4 (ix2 p n') := by
  show k0_pay1 (k0_pay24 (k0_pay18 x0 x1) (k0_pay20 (tile i x4))) a (ix3 h d p) = _
  rw [pay1_apply, pay24_apply]; simp only [pay18_apply, pay20_apply]

end Steps

end Cert.KernelIdeal.Pass1

end
-- ==== Proof.Pass1Points.lean ====
/-
  The first kernel call: what the buffers hold after a point, as the body's pure terms of the point's blocks and of
  what the point before left in the accumulators (the per-case terms at the point's own memrefs and blocks).
-/
import proofs.«149626_j38448547234132_2_alg».proof.Proof.Pass1Blocks

set_option maxRecDepth 16384

noncomputable section

namespace Cert.KernelIdeal.Pass1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem ptFirst_o7 (c : Dev nD) (t : Fin cfg0.N) (h0 : t.val % 4 = 0) :
    (ptFirst V c t h0).o7 = k0_pay14 (iblk V c 0 t) (iblk V c 1 t) := by
  unfold ptFirst
  dsimp only
  exact pieceFirst_o7 c _ _ _ _ _ _ _ _ _ _ _ _ _ _ _ _ _ _ _ _ _ _ _ _ _ _ _ _ _ _ _ _ _ _ _ _ _ _ _ _ _ _ _ _

theorem ptFirst_o8 (c : Dev nD) (t : Fin cfg0.N) (h0 : t.val % 4 = 0) :
    (ptFirst V c t h0).o8 = k0_pay15 (iblk V c 0 t) (iblk V c 1 t) := by
  unfold ptFirst
  dsimp only
  exact pieceFirst_o8 c _ _ _ _ _ _ _ _ _ _ _ _ _ _ _ _ _ _ _ _ _ _ _ _ _ _ _ _ _ _ _ _ _ _ _ _ _ _ _ _ _ _ _ _

theorem ptFirst_s0 (c : Dev nD) (t : Fin cfg0.N) (h0 : t.val % 4 = 0) :
    (ptFirst V c t h0).s0 = acc0 (iblk V c 0 t) (iblk V c 1 t) (k0_pay6 (F := F)) := by
  unfold ptFirst
  dsimp only
  exact pieceFirst_s0 c _ _ _ _ _ _ _ _ _ _ _ _ _ _ _ _ _ _ _ _ _ _ _ _ _ _ _ _ _ _ _ _ _ _ _ _ _ _ _ _ _ _ _ _

theorem ptFirst_s1 (c : Dev nD) (t : Fin cfg0.N) (h0 : t.val % 4 = 0) :
    (ptFirst V c t h0).s1 = acc1 (iblk V c 0 t) (iblk V c 1 t) (k0_pay7 (F := F)) := by
  unfold ptFirst
  dsimp only
  exact pieceFirst_s1 c _ _ _ _ _ _ _ _ _ _ _ _ _ _ _ _ _ _ _ _ _ _ _ _ _ _ _ _ _ _ _ _ _ _ _ _ _ _ _ _ _ _ _ _

theorem ptFirst_s2 (c : Dev nD) (t : Fin cfg0.N) (h0 : t.val % 4 = 0) :
    (ptFirst V c t h0).s2 = acc2 (iblk V c 0 t) (iblk V c 1 t) (k0_pay8 (F := F)) := by
  unfold ptFirst
  dsimp only
  exact pieceFirst_s2 c _ _ _ _ _ _ _ _ _ _ _ _ _ _ _ _ _ _ _ _ _ _ _ _ _ _ _ _ _ _ _ _ _ _ _ _ _ _ _ _ _ _ _ _

theorem ptFirst_s3 (c : Dev nD) (t : Fin cfg0.N) (h0 : t.val % 4 = 0) :
    (ptFirst V c t h0).s3 = acc3 (grid0.coords t) (iblk V c 0 t) (iblk V c 1 t) (iblk V c 2 t) (k0_pay9 (F := F)) := by
  unfold ptFirst
  dsimp only
  exact pieceFirst_s3 c _ _ _ _ _ _ _ _ _ _ _ _ _ _ _ _ _ _ _ _ _ _ _ _ _ _ _ _ _ _ _ _ _ _ _ _ _ _ _ _ _ _ _ _

theorem ptFirst_s4 (c : Dev nD) (t : Fin cfg0.N) (h0 : t.val % 4 = 0) :
    (ptFirst V c t h0).s4 = acc4 (grid0.coords t) (iblk V c 0 t) (iblk V c 1 t) (iblk V c 4 t) (k0_pay10 (F := F)) := by
  unfold ptFirst
  dsimp only
  exact pieceFirst_s4 c _ _ _ _ _ _ _ _ _ _ _ _ _ _ _ _ _ _ _ _ _ _ _ _ _ _ _ _ _ _ _ _ _ _ _ _ _ _ _ _ _ _ _ _

theorem ptMid_o7 (c : Dev nD) (t : Fin cfg0.N) (h0 : ¬t.val % 4 = 0) (h1 : ¬t.val % 4 = 3) (p : Outs F) :
    (ptMid V c t h0 h1 p).o7 = k0_pay14 (iblk V c 0 t) (iblk V c 1 t) := by
  unfold ptMid
  dsimp only
  exact pieceMid_o7 c _ _ _ _ _ _ _ _ _ _ _ _ _ _ _ _ _ _ _ _ _ _ _ _ _ _ _ _ _ _ _ _ _ _ _ _ _ _ _ _ _ _ _ _ _ _ _ _ _

theorem ptMid_o8 (c : Dev nD) (t : Fin cfg0.N) (h0 : ¬t.val % 4 = 0) (h1 : ¬t.val % 4 = 3) (p : Outs F) :
    (ptMid V c t h0 h1 p).o8 = k0_pay15 (iblk V c 0 t) (iblk V c 1 t) := by
  unfold ptMid
  dsimp only
  exact pieceMid_o8 c _ _ _ _ _ _ _ _ _ _ _ _ _ _ _ _ _ _ _ _ _ _ _ _ _ _ _ _ _ _ _ _ _ _ _ _ _ _ _ _ _ _ _ _ _ _ _ _ _

theorem ptMid_s0 (c : Dev nD) (t : Fin cfg0.N) (h0 : ¬t.val % 4 = 0) (h1 : ¬t.val % 4 = 3) (p : Outs F) :
    (ptMid V c t h0 h1 p).s0 = acc0 (iblk V c 0 t) (iblk V c 1 t) p.s0 := by
  unfold ptMid
  dsimp only
  exact pieceMid_s0 c _ _ _ _ _ _ _ _ _ _ _ _ _ _ _ _ _ _ _ _ _ _ _ _ _ _ _ _ _ _ _ _ _ _ _ _ _ _ _ _ _ _ _ _ _ _ _ _ _

theorem ptMid_s1 (c : Dev nD) (t : Fin cfg0.N) (h0 : ¬t.val % 4 = 0) (h1 : ¬t.val % 4 = 3) (p : Outs F) :
    (ptMid V c t h0 h1 p).s1 = acc1 (iblk V c 0 t) (iblk V c 1 t) p.s1 := by
  unfold ptMid
  dsimp only
  exact pieceMid_s1 c _ _ _ _ _ _ _ _ _ _ _ _ _ _ _ _ _ _ _ _ _ _ _ _ _ _ _ _ _ _ _ _ _ _ _ _ _ _ _ _ _ _ _ _ _ _ _ _ _

theorem ptMid_s2 (c : Dev nD) (t : Fin cfg0.N) (h0 : ¬t.val % 4 = 0) (h1 : ¬t.val % 4 = 3) (p : Outs F) :
    (ptMid V c t h0 h1 p).s2 = acc2 (iblk V c 0 t) (iblk V c 1 t) p.s2 := by
  unfold ptMid
  dsimp only
  exact pieceMid_s2 c _ _ _ _ _ _ _ _ _ _ _ _ _ _ _ _ _ _ _ _ _ _ _ _ _ _ _ _ _ _ _ _ _ _ _ _ _ _ _ _ _ _ _ _ _ _ _ _ _

theorem ptMid_s3 (c : Dev nD) (t : Fin cfg0.N) (h0 : ¬t.val % 4 = 0) (h1 : ¬t.val % 4 = 3) (p : Outs F) :
    (ptMid V c t h0 h1 p).s3 = acc3 (grid0.coords t) (iblk V c 0 t) (iblk V c 1 t) (iblk V c 2 t) p.s3 := by
  unfold ptMid
  dsimp only
  exact pieceMid_s3 c _ _ _ _ _ _ _ _ _ _ _ _ _ _ _ _ _ _ _ _ _ _ _ _ _ _ _ _ _ _ _ _ _ _ _ _ _ _ _ _ _ _ _ _ _ _ _ _ _

theorem ptMid_s4 (c : Dev nD) (t : Fin cfg0.N) (h0 : ¬t.val % 4 = 0) (h1 : ¬t.val % 4 = 3) (p : Outs F) :
    (ptMid V c t h0 h1 p).s4 = acc4 (grid0.coords t) (iblk V c 0 t) (iblk V c 1 t) (iblk V c 4 t) p.s4 := by
  unfold ptMid
  dsimp only
  exact pieceMid_s4 c _ _ _ _ _ _ _ _ _ _ _ _ _ _ _ _ _ _ _ _ _ _ _ _ _ _ _ _ _ _ _ _ _ _ _ _ _ _ _ _ _ _ _ _ _ _ _ _ _

theorem ptLast_o7 (c : Dev nD) (t : Fin cfg0.N) (h0 : ¬t.val % 4 = 0) (h1 : t.val % 4 = 3) (p : Outs F) :
    (ptLast V c t h0 h1 p).o7 = k0_pay14 (iblk V c 0 t) (iblk V c 1 t) := by
  unfold ptLast
  dsimp only
  exact pieceLast_o7 c _ _ _ _ _ _ _ _ _ _ _ _ _ _ _ _ _ _ _ _ _ _ _ _ _ _ _ _ _ _ _ _ _ _ _ _ _ _ _ _ _ _ _ _ _ _ _ _ _

theorem ptLast_o8 (c : Dev nD) (t : Fin cfg0.N) (h0 : ¬t.val % 4 = 0) (h1 : t.val % 4 = 3) (p : Outs F) :
    (ptLast V c t h0 h1 p).o8 = k0_pay15 (iblk V c 0 t) (iblk V c 1 t) := by
  unfold ptLast
  dsimp only
  exact pieceLast_o8 c _ _ _ _ _ _ _ _ _ _ _ _ _ _ _ _ _ _ _ _ _ _ _ _ _ _ _ _ _ _ _ _ _ _ _ _ _ _ _ _ _ _ _ _ _ _ _ _ _

theorem ptLast_o9 (c : Dev nD) (t : Fin cfg0.N) (h0 : ¬t.val % 4 = 0) (h1 : t.val % 4 = 3) (p : Outs F) :
    (ptLast V c t h0 h1 p).o9 = k0_pay5 (acc1 (iblk V c 0 t) (iblk V c 1 t) p.s1) (acc2 (iblk V c 0 t) (iblk V c 1 t) p.s2) (acc0 (iblk V c 0 t) (iblk V c 1 t) p.s0) (iblk V c 6 t) := by
  unfold ptLast
  dsimp only
  exact pieceLast_o9 c _ _ _ _ _ _ _ _ _ _ _ _ _ _ _ _ _ _ _ _ _ _ _ _ _ _ _ _ _ _ _ _ _ _ _ _ _ _ _ _ _ _ _ _ _ _ _ _ _

theorem ptLast_o10 (c : Dev nD) (t : Fin cfg0.N) (h0 : ¬t.val % 4 = 0) (h1 : t.val % 4 = 3) (p : Outs F) :
    (ptLast V c t h0 h1 p).o10 = k0_pay2 (k0_pay4 (acc1 (iblk V c 0 t) (iblk V c 1 t) p.s1)) (acc3 (grid0.coords t) (iblk V c 0 t) (iblk V c 1 t) (iblk V c 2 t) p.s3) (iblk V c 3 t) := by
  unfold ptLast
  dsimp only
  exact pieceLast_o10 c _ _ _ _ _ _ _ _ _ _ _ _ _ _ _ _ _ _ _ _ _ _ _ _ _ _ _ _ _ _ _ _ _ _ _ _ _ _ _ _ _ _ _ _ _ _ _ _ _

theorem ptLast_o11 (c : Dev nD) (t : Fin cfg0.N) (h0 : ¬t.val % 4 = 0) (h1 : t.val % 4 = 3) (p : Outs F) :
    (ptLast V c t h0 h1 p).o11 = k0_pay3 (acc4 (grid0.coords t) (iblk V c 0 t) (iblk V c 1 t) (iblk V c 4 t) p.s4) (iblk V c 5 t) := by
  unfold ptLast
  dsimp only
  exact pieceLast_o11 c _ _ _ _ _ _ _ _ _ _ _ _ _ _ _ _ _ _ _ _ _ _ _ _ _ _ _ _ _ _ _ _ _ _ _ _ _ _ _ _ _ _ _ _ _ _ _ _ _

theorem ptLast_s0 (c : Dev nD) (t : Fin cfg0.N) (h0 : ¬t.val % 4 = 0) (h1 : t.val % 4 = 3) (p : Outs F) :
    (ptLast V c t h0 h1 p).s0 = acc0 (iblk V c 0 t) (iblk V c 1 t) p.s0 := by
  unfold ptLast
  dsimp only
  exact pieceLast_s0 c _ _ _ _ _ _ _ _ _ _ _ _ _ _ _ _ _ _ _ _ _ _ _ _ _ _ _ _ _ _ _ _ _ _ _ _ _ _ _ _ _ _ _ _ _ _ _ _ _

theorem ptLast_s1 (c : Dev nD) (t : Fin cfg0.N) (h0 : ¬t.val % 4 = 0) (h1 : t.val % 4 = 3) (p : Outs F) :
    (ptLast V c t h0 h1 p).s1 = acc1 (iblk V c 0 t) (iblk V c 1 t) p.s1 := by
  unfold ptLast
  dsimp only
  exact pieceLast_s1 c _ _ _ _ _ _ _ _ _ _ _ _ _ _ _ _ _ _ _ _ _ _ _ _ _ _ _ _ _ _ _ _ _ _ _ _ _ _ _ _ _ _ _ _ _ _ _ _ _

theorem ptLast_s2 (c : Dev nD) (t : Fin cfg0.N) (h0 : ¬t.val % 4 = 0) (h1 : t.val % 4 = 3) (p : Outs F) :
    (ptLast V c t h0 h1 p).s2 = acc2 (iblk V c 0 t) (iblk V c 1 t) p.s2 := by
  unfold ptLast
  dsimp only
  exact pieceLast_s2 c _ _ _ _ _ _ _ _ _ _ _ _ _ _ _ _ _ _ _ _ _ _ _ _ _ _ _ _ _ _ _ _ _ _ _ _ _ _ _ _ _ _ _ _ _ _ _ _ _

theorem ptLast_s3 (c : Dev nD) (t : Fin cfg0.N) (h0 : ¬t.val % 4 = 0) (h1 : t.val % 4 = 3) (p : Outs F) :
    (ptLast V c t h0 h1 p).s3 = acc3 (grid0.coords t) (iblk V c 0 t) (iblk V c 1 t) (iblk V c 2 t) p.s3 := by
  unfold ptLast
  dsimp only
  exact pieceLast_s3 c _ _ _ _ _ _ _ _ _ _ _ _ _ _ _ _ _ _ _ _ _ _ _ _ _ _ _ _ _ _ _ _ _ _ _ _ _ _ _ _ _ _ _ _ _ _ _ _ _

theorem ptLast_s4 (c : Dev nD) (t : Fin cfg0.N) (h0 : ¬t.val % 4 = 0) (h1 : t.val % 4 = 3) (p : Outs F) :
    (ptLast V c t h0 h1 p).s4 = acc4 (grid0.coords t) (iblk V c 0 t) (iblk V c 1 t) (iblk V c 4 t) p.s4 := by
  unfold ptLast
  dsimp only
  exact pieceLast_s4 c _ _ _ _ _ _ _ _ _ _ _ _ _ _ _ _ _ _ _ _ _ _ _ _ _ _ _ _ _ _ _ _ _ _ _ _ _ _ _ _ _ _ _ _ _ _ _ _ _

end Cert.KernelIdeal.Pass1

end
-- ==== Proof.Pass1Totals.lean ====
/-
  The first kernel call: the five accumulators after each point as partial sums over the tiles of the point's batch,
  hence, after a batch's last tile, the spec's tile-by-tile sums (the raw Gram matrix, the two squared row norms, the
  two low-rank projections).
-/
import proofs.«149626_j38448547234132_2_alg».proof.Proof.Pass1Value
import proofs.«149626_j38448547234132_2_alg».proof.Proof.Pass1Points

set_option maxRecDepth 16384

noncomputable section

namespace Cert.KernelIdeal.Pass1

open Cert.KernelIdeal Cert.KernelIdeal.Gen Cert.KernelIdeal.Pass1Pay Cert
open Idealize.ShloMosaic Idealize.ShloMosaic.TcCoe Idealize.ShloMosaic.ValueIdx Idealize.SL.Sem

variable (V : (c : Dev nD) → (b : Ref sig .tc) → Buf (Elt Ideal) ((c : Thread nD τ).loc b)) (c : Dev nD)

theorem lt_N {n : ℕ} (hn : n < 32) : n < cfg0.N := lt_of_lt_of_eq hn (show (32 : ℕ) = cfg0.N from N_0.symm)

/-- One tile's contribution to the accumulator `s0`. -/
def conGram (b : Fin 8) (j : Fin 4) : Fin 8 × Fin 32 × Fin 32 → EReal := fun ⟨h, d, e⟩ =>
  ∑ n' : Fin 2048, Spec.kproj (aW V c) (aX V c) 0 b h d (Spec.tok j n') * Spec.kproj (aW V c) (aX V c) 1 b h e (Spec.tok j n')

theorem firstGram (n : ℕ) (hn : n < 32) (h0 : n % 4 = 0) (i : Fin 8 × Fin 32 × Fin 32) :
    (fun (x : Fin 8 × Fin 32 × Fin 32) => match x with | ⟨h, d, e⟩ => (outsAt V c n (lt_N hn)).s0 (ix3 h d e)) i
      = 0 + conGram V c ⟨n / 4, by omega⟩ ⟨n % 4, Nat.mod_lt _ (by decide)⟩ i := by
  obtain ⟨h, d, e⟩ := i
  show (outsAt V c n (lt_N hn)).s0 (ix3 h d e) = _
  rw [outsAt_first V c ⟨n, lt_N hn⟩ h0, ptFirst_s0, acc0_apply, pay6_apply]
  simp only [tileProj_eq]
  rfl

theorem nextGram (n : ℕ) (hn : n + 1 < 32) (h0 : (n + 1) % 4 ≠ 0) (i : Fin 8 × Fin 32 × Fin 32) :
    (fun (x : Fin 8 × Fin 32 × Fin 32) => match x with | ⟨h, d, e⟩ => (outsAt V c (n + 1) (lt_N hn)).s0 (ix3 h d e)) i
      = (fun (x : Fin 8 × Fin 32 × Fin 32) => match x with | ⟨h, d, e⟩ => (outsAt V c n (lt_N (by omega))).s0 (ix3 h d e)) i
        + conGram V c ⟨(n + 1) / 4, by omega⟩ ⟨(n + 1) % 4, Nat.mod_lt _ (by decide)⟩ i := by
  obtain ⟨h, d, e⟩ := i
  show (outsAt V c (n + 1) (lt_N hn)).s0 (ix3 h d e) = (outsAt V c n _).s0 (ix3 h d e) + _
  by_cases h1 : (n + 1) % 4 = 3
  · rw [outsAt_last V c ⟨n + 1, lt_N hn⟩ h0 h1, ptLast_s0, acc0_apply]
    simp only [tileProj_eq]
    rfl
  · rw [outsAt_mid V c ⟨n + 1, lt_N hn⟩ h0 h1, ptMid_s0, acc0_apply]
    simp only [tileProj_eq]
    rfl

/-- After point `n`: the contributions of tiles `0 … n mod 4` of batch `n / 4`. -/
theorem sumsGram (n : ℕ) (hn : n < 32) (i : Fin 8 × Fin 32 × Fin 32) :
    (fun (x : Fin 8 × Fin 32 × Fin 32) => match x with | ⟨h, d, e⟩ => (outsAt V c n (lt_N hn)).s0 (ix3 h d e)) i
      = part (fun j' => conGram V c ⟨n / 4, by omega⟩ j' i) (n % 4) :=
  accum (fun n hn (x : Fin 8 × Fin 32 × Fin 32) => match x with | ⟨h, d, e⟩ => (outsAt V c n (lt_N hn)).s0 (ix3 h d e)) (conGram V c)
    (firstGram V c) (nextGram V c) n hn i

/-- One tile's contribution to the accumulator `s1`. -/
def conNormQ (b : Fin 8) (j : Fin 4) : Fin 8 × Fin 32 → EReal := fun ⟨h, d⟩ =>
  ∑ n' : Fin 2048, Spec.kproj (aW V c) (aX V c) 0 b h d (Spec.tok j n') * Spec.kproj (aW V c) (aX V c) 0 b h d (Spec.tok j n')

theorem firstNormQ (n : ℕ) (hn : n < 32) (h0 : n % 4 = 0) (i : Fin 8 × Fin 32) :
    (fun (x : Fin 8 × Fin 32) => match x with | ⟨h, d⟩ => (outsAt V c n (lt_N hn)).s1 (ix2 h d)) i
      = 0 + conNormQ V c ⟨n / 4, by omega⟩ ⟨n % 4, Nat.mod_lt _ (by decide)⟩ i := by
  obtain ⟨h, d⟩ := i
  show (outsAt V c n (lt_N hn)).s1 (ix2 h d) = _
  rw [outsAt_first V c ⟨n, lt_N hn⟩ h0, ptFirst_s1, acc1_apply, pay7_apply]
  simp only [tileProj_eq]
  rfl

theorem nextNormQ (n : ℕ) (hn : n + 1 < 32) (h0 : (n + 1) % 4 ≠ 0) (i : Fin 8 × Fin 32) :
    (fun (x : Fin 8 × Fin 32) => match x with | ⟨h, d⟩ => (outsAt V c (n + 1) (lt_N hn)).s1 (ix2 h d)) i
      = (fun (x : Fin 8 × Fin 32) => match x with | ⟨h, d⟩ => (outsAt V c n (lt_N (by omega))).s1 (ix2 h d)) i
        + conNormQ V c ⟨(n + 1) / 4, by omega⟩ ⟨(n + 1) % 4, Nat.mod_lt _ (by decide)⟩ i := by
  obtain ⟨h, d⟩ := i
  show (outsAt V c (n + 1) (lt_N hn)).s1 (ix2 h d) = (outsAt V c n _).s1 (ix2 h d) + _
  by_cases h1 : (n + 1) % 4 = 3
  · rw [outsAt_last V c ⟨n + 1, lt_N hn⟩ h0 h1, ptLast_s1, acc1_apply]
    simp only [tileProj_eq]
    rfl
  · rw [outsAt_mid V c ⟨n + 1, lt_N hn⟩ h0 h1, ptMid_s1, acc1_apply]
    simp only [tileProj_eq]
    rfl

/-- After point `n`: the contributions of tiles `0 … n mod 4` of batch `n / 4`. -/
theorem sumsNormQ (n : ℕ) (hn : n < 32) (i : Fin 8 × Fin 32) :
    (fun (x : Fin 8 × Fin 32) => match x with | ⟨h, d⟩ => (outsAt V c n (lt_N hn)).s1 (ix2 h d)) i
      = part (fun j' => conNormQ V c ⟨n / 4, by omega⟩ j' i) (n % 4) :=
  accum (fun n hn (x : Fin 8 × Fin 32) => match x with | ⟨h, d⟩ => (outsAt V c n (lt_N hn)).s1 (ix2 h d)) (conNormQ V c)
    (firstNormQ V c) (nextNormQ V c) n hn i

/-- One tile's contribution to the accumulator `s2`. -/
def conNormK (b : Fin 8) (j : Fin 4) : Fin 8 × Fin 32 → EReal := fun ⟨h, d⟩ =>
  ∑ n' : Fin 2048, Spec.kproj (aW V c) (aX V c) 1 b h d (Spec.tok j n') * Spec.kproj (aW V c) (aX V c) 1 b h d (Spec.tok j n')

theorem firstNormK (n : ℕ) (hn : n < 32) (h0 : n % 4 = 0) (i : Fin 8 × Fin 32) :
    (fun (x : Fin 8 × Fin 32) => match x with | ⟨h, d⟩ => (outsAt V c n (lt_N hn)).s2 (ix2 h d)) i
      = 0 + conNormK V c ⟨n / 4, by omega⟩ ⟨n % 4, Nat.mod_lt _ (by decide)⟩ i := by
  obtain ⟨h, d⟩ := i
  show (outsAt V c n (lt_N hn)).s2 (ix2 h d) = _
  rw [outsAt_first V c ⟨n, lt_N hn⟩ h0, ptFirst_s2, acc2_apply, pay8_apply]
  simp only [tileProj_eq]
  rfl

theorem nextNormK (n : ℕ) (hn : n + 1 < 32) (h0 : (n + 1) % 4 ≠ 0) (i : Fin 8 × Fin 32) :
    (fun (x : Fin 8 × Fin 32) => match x with | ⟨h, d⟩ => (outsAt V c (n + 1) (lt_N hn)).s2 (ix2 h d)) i
      = (fun (x : Fin 8 × Fin 32) => match x with | ⟨h, d⟩ => (outsAt V c n (lt_N (by omega))).s2 (ix2 h d)) i
        + conNormK V c ⟨(n + 1) / 4, by omega⟩ ⟨(n + 1) % 4, Nat.mod_lt _ (by decide)⟩ i := by
  obtain ⟨h, d⟩ := i
  show (outsAt V c (n + 1) (lt_N hn)).s2 (ix2 h d) = (outsAt V c n _).s2 (ix2 h d) + _
  by_cases h1 : (n + 1) % 4 = 3
  · rw [outsAt_last V c ⟨n + 1, lt_N hn⟩ h0 h1, ptLast_s2, acc2_apply]
    simp only [tileProj_eq]
    rfl
  · rw [outsAt_mid V c ⟨n + 1, lt_N hn⟩ h0 h1, ptMid_s2, acc2_apply]
    simp only [tileProj_eq]
    rfl

/-- After point `n`: the contributions of tiles `0 … n mod 4` of batch `n / 4`. -/
theorem sumsNormK (n : ℕ) (hn : n < 32) (i : Fin 8 × Fin 32) :
    (fun (x : Fin 8 × Fin 32) => match x with | ⟨h, d⟩ => (outsAt V c n (lt_N hn)).s2 (ix2 h d)) i
      = part (fun j' => conNormK V c ⟨n / 4, by omega⟩ j' i) (n % 4) :=
  accum (fun n hn (x : Fin 8 × Fin 32) => match x with | ⟨h, d⟩ => (outsAt V c n (lt_N hn)).s2 (ix2 h d)) (conNormK V c)
    (firstNormK V c) (nextNormK V c) n hn i

/-- One tile's contribution to the accumulator `s3`. -/
def conKeyLow (b : Fin 8) (j : Fin 4) : Fin 8 × Fin 32 × Fin 64 → EReal := fun ⟨h, d, p⟩ =>
  ∑ n' : Fin 2048, Spec.kproj (aW V c) (aX V c) 1 b h d (Spec.tok j n') * aWE V c (ix2 p (Spec.tok j n'))

theorem firstKeyLow (n : ℕ) (hn : n < 32) (h0 : n % 4 = 0) (i : Fin 8 × Fin 32 × Fin 64) :
    (fun (x : Fin 8 × Fin 32 × Fin 64) => match x with | ⟨h, d, p⟩ => (outsAt V c n (lt_N hn)).s3 (ix3 h d p)) i
      = 0 + conKeyLow V c ⟨n / 4, by omega⟩ ⟨n % 4, Nat.mod_lt _ (by decide)⟩ i := by
  obtain ⟨h, d, p⟩ := i
  show (outsAt V c n (lt_N hn)).s3 (ix3 h d p) = _
  rw [outsAt_first V c ⟨n, lt_N hn⟩ h0, ptFirst_s3, acc3_apply, pay9_apply]
  simp only [tileProj_eq, tileWE_eq]
  rfl

theorem nextKeyLow (n : ℕ) (hn : n + 1 < 32) (h0 : (n + 1) % 4 ≠ 0) (i : Fin 8 × Fin 32 × Fin 64) :
    (fun (x : Fin 8 × Fin 32 × Fin 64) => match x with | ⟨h, d, p⟩ => (outsAt V c (n + 1) (lt_N hn)).s3 (ix3 h d p)) i
      = (fun (x : Fin 8 × Fin 32 × Fin 64) => match x with | ⟨h, d, p⟩ => (outsAt V c n (lt_N (by omega))).s3 (ix3 h d p)) i
        + conKeyLow V c ⟨(n + 1) / 4, by omega⟩ ⟨(n + 1) % 4, Nat.mod_lt _ (by decide)⟩ i := by
  obtain ⟨h, d, p⟩ := i
  show (outsAt V c (n + 1) (lt_N hn)).s3 (ix3 h d p) = (outsAt V c n _).s3 (ix3 h d p) + _
  by_cases h1 : (n + 1) % 4 = 3
  · rw [outsAt_last V c ⟨n + 1, lt_N hn⟩ h0 h1, ptLast_s3, acc3_apply]
    simp only [tileProj_eq, tileWE_eq]
    rfl
  · rw [outsAt_mid V c ⟨n + 1, lt_N hn⟩ h0 h1, ptMid_s3, acc3_apply]
    simp only [tileProj_eq, tileWE_eq]
    rfl

/-- After point `n`: the contributions of tiles `0 … n mod 4` of batch `n / 4`. -/
theorem sumsKeyLow (n : ℕ) (hn : n < 32) (i : Fin 8 × Fin 32 × Fin 64) :
    (fun (x : Fin 8 × Fin 32 × Fin 64) => match x with | ⟨h, d, p⟩ => (outsAt V c n (lt_N hn)).s3 (ix3 h d p)) i
      = part (fun j' => conKeyLow V c ⟨n / 4, by omega⟩ j' i) (n % 4) :=
  accum (fun n hn (x : Fin 8 × Fin 32 × Fin 64) => match x with | ⟨h, d, p⟩ => (outsAt V c n (lt_N hn)).s3 (ix3 h d p)) (conKeyLow V c)
    (firstKeyLow V c) (nextKeyLow V c) n hn i

/-- One tile's contribution to the accumulator `s4`. -/
def conValLow (b : Fin 8) (j : Fin 4) : Fin 8 × Fin 32 × Fin 64 → EReal := fun ⟨h, d, p⟩ =>
  ∑ n' : Fin 2048, Spec.kproj (aW V c) (aX V c) 3 b h d (Spec.tok j n') * aWF V c (ix2 p (Spec.tok j n'))

theorem firstValLow (n : ℕ) (hn : n < 32) (h0 : n % 4 = 0) (i : Fin 8 × Fin 32 × Fin 64) :
    (fun (x : Fin 8 × Fin 32 × Fin 64) => match x with | ⟨h, d, p⟩ => (outsAt V c n (lt_N hn)).s4 (ix3 h d p)) i
      = 0 + conValLow V c ⟨n / 4, by omega⟩ ⟨n % 4, Nat.mod_lt _ (by decide)⟩ i := by
  obtain ⟨h, d, p⟩ := i
  show (outsAt V c n (lt_N hn)).s4 (ix3 h d p) = _
  rw [outsAt_first V c ⟨n, lt_N hn⟩ h0, ptFirst_s4, acc4_apply, pay10_apply]
  simp only [tileProj_eq, tileWF_eq]
  rfl

theorem nextValLow (n : ℕ) (hn : n + 1 < 32) (h0 : (n + 1) % 4 ≠ 0) (i : Fin 8 × Fin 32 × Fin 64) :
    (fun (x : Fin 8 × Fin 32 × Fin 64) => match x with | ⟨h, d, p⟩ => (outsAt V c (n + 1) (lt_N hn)).s4 (ix3 h d p)) i
      = (fun (x : Fin 8 × Fin 32 × Fin 64) => match x with | ⟨h, d, p⟩ => (outsAt V c n (lt_N (by omega))).s4 (ix3 h d p)) i
        + conValLow V c ⟨(n + 1) / 4, by omega⟩ ⟨(n + 1) % 4, Nat.mod_lt _ (by decide)⟩ i := by
  obtain ⟨h, d, p⟩ := i
  show (outsAt V c (n + 1) (lt_N hn)).s4 (ix3 h d p) = (outsAt V c n _).s4 (ix3 h d p) + _
  by_cases h1 : (n + 1) % 4 = 3
  · rw [outsAt_last V c ⟨n + 1, lt_N hn⟩ h0 h1, ptLast_s4, acc4_apply]
    simp only [tileProj_eq, tileWF_eq]
    rfl
  · rw [outsAt_mid V c ⟨n + 1, lt_N hn⟩ h0 h1, ptMid_s4, acc4_apply]
    simp only [tileProj_eq, tileWF_eq]
    rfl

/-- After point `n`: the contributions of tiles `0 … n mod 4` of batch `n / 4`. -/
theorem sumsValLow (n : ℕ) (hn : n < 32) (i : Fin 8 × Fin 32 × Fin 64) :
    (fun (x : Fin 8 × Fin 32 × Fin 64) => match x with | ⟨h, d, p⟩ => (outsAt V c n (lt_N hn)).s4 (ix3 h d p)) i
      = part (fun j' => conValLow V c ⟨n / 4, by omega⟩ j' i) (n % 4) :=
  accum (fun n hn (x : Fin 8 × Fin 32 × Fin 64) => match x with | ⟨h, d, p⟩ => (outsAt V c n (lt_N hn)).s4 (ix3 h d p)) (conValLow V c)
    (firstValLow V c) (nextValLow V c) n hn i

/-! ## At a batch's last tile: the spec's sums -/

theorem total_gram (t : Fin cfg0.N) (h3 : t.val % 4 = 3) (h : Fin 8) (d e : Fin 32) :
    (outsAt V c t.val t.isLt).s0 (ix3 h d e) = Spec.kgram (aW V c) (aX V c) (bOf t) h d e := by
  have hn : t.val < 32 := lt_of_lt_of_eq t.isLt N_0
  have := sumsGram V c t.val hn ⟨h, d, e⟩
  rw [h3, part_three] at this
  exact this
theorem total_normQ (t : Fin cfg0.N) (h3 : t.val % 4 = 3) (h : Fin 8) (d : Fin 32) :
    (outsAt V c t.val t.isLt).s1 (ix2 h d) = Spec.knsq (aW V c) (aX V c) 0 (bOf t) h d := by
  have hn : t.val < 32 := lt_of_lt_of_eq t.isLt N_0
  have := sumsNormQ V c t.val hn ⟨h, d⟩
  rw [h3, part_three] at this
  exact this
theorem total_normK (t : Fin cfg0.N) (h3 : t.val % 4 = 3) (h : Fin 8) (d : Fin 32) :
    (outsAt V c t.val t.isLt).s2 (ix2 h d) = Spec.knsq (aW V c) (aX V c) 1 (bOf t) h d := by
  have hn : t.val < 32 := lt_of_lt_of_eq t.isLt N_0
  have := sumsNormK V c t.val hn ⟨h, d⟩
  rw [h3, part_three] at this
  exact this
theorem total_keyLow (t : Fin cfg0.N) (h3 : t.val % 4 = 3) (h : Fin 8) (d : Fin 32) (p : Fin 64) :
    (outsAt V c t.val t.isLt).s3 (ix3 h d p) = Spec.klow (aW V c) (aX V c) 1 (aWE V c) (bOf t) h d p := by
  have hn : t.val < 32 := lt_of_lt_of_eq t.isLt N_0
  have := sumsKeyLow V c t.val hn ⟨h, d, p⟩
  rw [h3, part_three] at this
  exact this
theorem total_valLow (t : Fin cfg0.N) (h3 : t.val % 4 = 3) (h : Fin 8) (d : Fin 32) (p : Fin 64) :
    (outsAt V c t.val t.isLt).s4 (ix3 h d p) = Spec.klow (aW V c) (aX V c) 3 (aWF V c) (bOf t) h d p := by
  have hn : t.val < 32 := lt_of_lt_of_eq t.isLt N_0
  have := sumsValLow V c t.val hn ⟨h, d, p⟩
  rw [h3, part_three] at this
  exact this

end Cert.KernelIdeal.Pass1

end
-- ==== Proof.Pass1Cover.lean ====
/-
  From blocks to arrays in the first kernel call, for the two arrays written back at every point (q and v_ca,
  [8, 8, 32, 8192], block (b, 0, 0, j) of 2048 tokens at point 4b + j): if at every point the buffer holds, at
  (0, h, d, n'), a function's value at batch b and token 2048 j + n', then the array is that function; the point
  covering token n of batch b is 4b + n / 2048.
-/
import proofs.«149626_j38448547234132_2_alg».proof.Proof.Pass1Names
import Idealize.ShloMosaic.Lib.ValueIdx
import Idealize.ShloMosaic.Lib.Pipeline.Value

set_option maxRecDepth 16384

noncomputable section

namespace Cert.KernelIdeal.Pass1

open Cert.KernelIdeal Cert.KernelIdeal.Gen Cert
open Idealize.ShloMosaic Idealize.ShloMosaic.TcCoe Idealize.ShloMosaic.ValueIdx Idealize.SL.Sem

variable (V : (c : Dev nD) → (b : Ref sig .tc) → Buf (Elt Ideal) ((c : Thread nD τ).loc b)) (c : Dev nD)

/-- The printed index maps of windows 7 and 8 over the grid: point t = 4 b + j writes token tile j of batch b. -/
theorem idx7 : ∀ t : Fin cfg0.N, win0_7.index t (0 : Fin 4) = t.val / 4 ∧ win0_7.index t (1 : Fin 4) = 0
    ∧ win0_7.index t (2 : Fin 4) = 0 ∧ win0_7.index t (3 : Fin 4) = t.val % 4 :=
  (by decide +kernel : ∀ t : Fin grid0.N, _)
theorem idx8 : ∀ t : Fin cfg0.N, win0_8.index t (0 : Fin 4) = t.val / 4 ∧ win0_8.index t (1 : Fin 4) = 0
    ∧ win0_8.index t (2 : Fin 4) = 0 ∧ win0_8.index t (3 : Fin 4) = t.val % 4 :=
  (by decide +kernel : ∀ t : Fin grid0.N, _)

/-- A block holding the function's values of batch b and token tile jt, read at a block index, is the function's array
    at the array index the block index sits at. -/
theorem tile_eq (f : Fin 8 → Fin 8 → Fin 32 → Fin 8192 → EReal) (b : Fin 8) (jt : Fin 4) (o : Vec Ideal S1x8x32x2048 .bf16)
    (ho : ∀ (h : Fin 8) (d : Fin 32) (n' : Fin 2048), o (ix4 0 h d n') = f b h d (Spec.tok jt n'))
    (y : S1x8x32x2048.Idx) (i : S8x8x32x8192.Idx)
    (hi0 : (i 0).val = b.val) (hi1 : (i 1).val = (y 1).val) (hi2 : (i 2).val = (y 2).val)
    (hi3 : (i 3).val = jt.val * 2048 + (y 3).val) :
    o y = Spec.of4 f i := by
  obtain ⟨u, h, d, n, rfl⟩ : ∃ (u : Fin 1) (h : Fin 8) (d : Fin 32) (n : Fin 2048), y = ix4 u h d n :=
    ⟨y 0, y 1, y 2, y 3, eq_ix4 y⟩
  obtain rfl : u = 0 := Fin.fin_one_eq_zero u
  rw [ho]
  have eb : (⟨(i 0).val, (i 0).isLt⟩ : Fin 8) = b := Fin.ext hi0
  have eh : (⟨(i 1).val, (i 1).isLt⟩ : Fin 8) = h := Fin.ext hi1
  have ed : (⟨(i 2).val, (i 2).isLt⟩ : Fin 32) = d := Fin.ext hi2
  have en : (⟨(i 3).val, (i 3).isLt⟩ : Fin 8192) = Spec.tok jt n := Fin.ext hi3
  show _ = f ⟨(i 0).val, (i 0).isLt⟩ ⟨(i 1).val, (i 1).isLt⟩ ⟨(i 2).val, (i 2).isLt⟩ ⟨(i 3).val, (i 3).isLt⟩
  rw [eb, eh, ed, en]

/-- What point t writes back to window 7's array is block t of the function's array. -/
theorem flushed7_eq (f : Fin 8 → Fin 8 → Fin 32 → Fin 8192 → EReal)
    (hpt : ∀ (t : Fin cfg0.N) (h : Fin 8) (d : Fin 32) (n' : Fin 2048),
      ((outsAt V c t.val t.isLt).o7 : Vec Ideal S1x8x32x2048 .bf16) (ix4 0 h d n') = f (bOf t) h d (Spec.tok (jOf t) n'))
    (t : Fin cfg0.N) :
    (dat V c).flushed 7 t = ((cfg0.win 7).blk t).view.read (Elt Ideal) (Spec.of4 f) := by
  show (cfg0.win 7).cut (grid0.coords t) ((dat V c).after 7 t) = _
  rw [after_7]
  obtain ⟨e0, e1, e2, e3⟩ := idx7 t
  funext j
  have hj0 : (j 0).val < 1 := (j 0).isLt
  show ((outsAt V c t.val t.isLt).o7 : Vec Ideal S1x8x32x2048 .bf16) j = Spec.of4 f (((cfg0.win 7).blk t).view.emb j)
  refine tile_eq f (bOf t) (jOf t) _ (hpt t) j (((cfg0.win 7).blk t).view.emb j) ?_ ?_ ?_ ?_
  · show win0_7.index t (0 : Fin 4) * 1 + 1 * (j 0).val = t.val / 4; omega
  · show win0_7.index t (1 : Fin 4) * 8 + 1 * (j 1).val = (j 1).val; omega
  · show win0_7.index t (2 : Fin 4) * 32 + 1 * (j 2).val = (j 2).val; omega
  · show win0_7.index t (3 : Fin 4) * 2048 + 1 * (j 3).val = t.val % 4 * 2048 + (j 3).val; omega

/-- The same for window 8. -/
theorem flushed8_eq (f : Fin 8 → Fin 8 → Fin 32 → Fin 8192 → EReal)
    (hpt : ∀ (t : Fin cfg0.N) (h : Fin 8) (d : Fin 32) (n' : Fin 2048),
      ((outsAt V c t.val t.isLt).o8 : Vec Ideal S1x8x32x2048 .bf16) (ix4 0 h d n') = f (bOf t) h d (Spec.tok (jOf t) n'))
    (t : Fin cfg0.N) :
    (dat V c).flushed 8 t = ((cfg0.win 8).blk t).view.read (Elt Ideal) (Spec.of4 f) := by
  show (cfg0.win 8).cut (grid0.coords t) ((dat V c).after 8 t) = _
  rw [after_8]
  obtain ⟨e0, e1, e2, e3⟩ := idx8 t
  funext j
  have hj0 : (j 0).val < 1 := (j 0).isLt
  show ((outsAt V c t.val t.isLt).o8 : Vec Ideal S1x8x32x2048 .bf16) j = Spec.of4 f (((cfg0.win 8).blk t).view.emb j)
  refine tile_eq f (bOf t) (jOf t) _ (hpt t) j (((cfg0.win 8).blk t).view.emb j) ?_ ?_ ?_ ?_
  · show win0_8.index t (0 : Fin 4) * 1 + 1 * (j 0).val = t.val / 4; omega
  · show win0_8.index t (1 : Fin 4) * 8 + 1 * (j 1).val = (j 1).val; omega
  · show win0_8.index t (2 : Fin 4) * 32 + 1 * (j 2).val = (j 2).val; omega
  · show win0_8.index t (3 : Fin 4) * 2048 + 1 * (j 3).val = t.val % 4 * 2048 + (j 3).val; omega

/-- An index of window 7's array is in point t's block iff each coordinate is in the block's range on its axis. -/
theorem mem_blk7 (t : Fin cfg0.N) (i : S8x8x32x8192.Idx) :
    i ∈ ((cfg0.win 7).blk t).view.set ↔ ∀ a : Fin 4, win0_7.index t a * S1x8x32x2048.size a ≤ (i a).val
      ∧ (i a).val < win0_7.index t a * S1x8x32x2048.size a + S1x8x32x2048.size a := by
  show i ∈ ((View.whole main_v2_0).slice (win0_7.rect t)).set ↔ _
  rw [View.set_slice_whole, Rect.mem_set_unit]
  exact Iff.rfl
theorem mem_blk8 (t : Fin cfg0.N) (i : S8x8x32x8192.Idx) :
    i ∈ ((cfg0.win 8).blk t).view.set ↔ ∀ a : Fin 4, win0_8.index t a * S1x8x32x2048.size a ≤ (i a).val
      ∧ (i a).val < win0_8.index t a * S1x8x32x2048.size a + S1x8x32x2048.size a := by
  show i ∈ ((View.whole main_v2_1).slice (win0_8.rect t)).set ↔ _
  rw [View.set_slice_whole, Rect.mem_set_unit]
  exact Iff.rfl

/-- Every index of window 7's array is in the block of the point of its batch and token tile. -/
theorem cover7 (i : S8x8x32x8192.Idx) :
    ∃ t : Fin cfg0.N, (cfg0.win 7).flush t = true ∧ i ∈ ((cfg0.win 7).blk t).view.set := by
  have h0 : (i 0).val < 8 := (i 0).isLt
  have h1 : (i 1).val < 8 := (i 1).isLt
  have h2 : (i 2).val < 32 := (i 2).isLt
  have h3 : (i 3).val < 8192 := (i 3).isLt
  have hlt : 4 * (i 0).val + (i 3).val / 2048 < cfg0.N := by rw [show cfg0.N = 32 from N_0]; omega
  obtain ⟨t, htv⟩ : ∃ t : Fin cfg0.N, t.val = 4 * (i 0).val + (i 3).val / 2048 := ⟨⟨_, hlt⟩, rfl⟩
  obtain ⟨e0, e1, e2, e3⟩ := idx7 t
  refine ⟨t, flush0_7 t, ?_⟩
  rw [mem_blk7]
  intro a
  match a with
  | ⟨0, _⟩ =>
    show win0_7.index t (0 : Fin 4) * 1 ≤ (i 0).val ∧ (i 0).val < win0_7.index t (0 : Fin 4) * 1 + 1
    omega
  | ⟨1, _⟩ =>
    show win0_7.index t (1 : Fin 4) * 8 ≤ (i 1).val ∧ (i 1).val < win0_7.index t (1 : Fin 4) * 8 + 8
    omega
  | ⟨2, _⟩ =>
    show win0_7.index t (2 : Fin 4) * 32 ≤ (i 2).val ∧ (i 2).val < win0_7.index t (2 : Fin 4) * 32 + 32
    omega
  | ⟨3, _⟩ =>
    show win0_7.index t (3 : Fin 4) * 2048 ≤ (i 3).val ∧ (i 3).val < win0_7.index t (3 : Fin 4) * 2048 + 2048
    omega
theorem cover8 (i : S8x8x32x8192.Idx) :
    ∃ t : Fin cfg0.N, (cfg0.win 8).flush t = true ∧ i ∈ ((cfg0.win 8).blk t).view.set := by
  have h0 : (i 0).val < 8 := (i 0).isLt
  have h1 : (i 1).val < 8 := (i 1).isLt
  have h2 : (i 2).val < 32 := (i 2).isLt
  have h3 : (i 3).val < 8192 := (i 3).isLt
  have hlt : 4 * (i 0).val + (i 3).val / 2048 < cfg0.N := by rw [show cfg0.N = 32 from N_0]; omega
  obtain ⟨t, htv⟩ : ∃ t : Fin cfg0.N, t.val = 4 * (i 0).val + (i 3).val / 2048 := ⟨⟨_, hlt⟩, rfl⟩
  obtain ⟨e0, e1, e2, e3⟩ := idx8 t
  refine ⟨t, flush0_8 t, ?_⟩
  rw [mem_blk8]
  intro a
  match a with
  | ⟨0, _⟩ =>
    show win0_8.index t (0 : Fin 4) * 1 ≤ (i 0).val ∧ (i 0).val < win0_8.index t (0 : Fin 4) * 1 + 1
    omega
  | ⟨1, _⟩ =>
    show win0_8.index t (1 : Fin 4) * 8 ≤ (i 1).val ∧ (i 1).val < win0_8.index t (1 : Fin 4) * 8 + 8
    omega
  | ⟨2, _⟩ =>
    show win0_8.index t (2 : Fin 4) * 32 ≤ (i 2).val ∧ (i 2).val < win0_8.index t (2 : Fin 4) * 32 + 32
    omega
  | ⟨3, _⟩ =>
    show win0_8.index t (3 : Fin 4) * 2048 ≤ (i 3).val ∧ (i 3).val < win0_8.index t (3 : Fin 4) * 2048 + 2048
    omega

/-- From blocks to the array, windows 7 and 8 (written back at every point): if at every point the buffer holds, at
    (0, h, d, n'), the function's value at the point's batch and token 2048 (t mod 4) + n', the array is the function. -/
theorem arr7_of (f : Fin 8 → Fin 8 → Fin 32 → Fin 8192 → EReal)
    (hpt : ∀ (t : Fin cfg0.N) (h : Fin 8) (d : Fin 32) (n' : Fin 2048),
      ((outsAt V c t.val t.isLt).o7 : Vec Ideal S1x8x32x2048 .bf16) (ix4 0 h d n') = f (bOf t) h d (Spec.tok (jOf t) n')) :
    (dat V c).arrAt 7 cfg0.N = Spec.of4 f :=
  (dat V c).arrAt_eq_of_cover 7 (Spec.of4 f) (fun t _ => flushed7_eq V c f hpt t) cover7
theorem arr8_of (f : Fin 8 → Fin 8 → Fin 32 → Fin 8192 → EReal)
    (hpt : ∀ (t : Fin cfg0.N) (h : Fin 8) (d : Fin 32) (n' : Fin 2048),
      ((outsAt V c t.val t.isLt).o8 : Vec Ideal S1x8x32x2048 .bf16) (ix4 0 h d n') = f (bOf t) h d (Spec.tok (jOf t) n')) :
    (dat V c).arrAt 8 cfg0.N = Spec.of4 f :=
  (dat V c).arrAt_eq_of_cover 8 (Spec.of4 f) (fun t _ => flushed8_eq V c f hpt t) cover8

end Cert.KernelIdeal.Pass1

end
-- ==== Proof.Pass1CoverLast.lean ====
/-
  From blocks to arrays in the first kernel call, for the three per-batch arrays (written back only after a batch's
  last tile, block (b, 0, 0, 0) at point 4b + 3): if at every such point the buffer holds, at (0, h, d, ·), a
  function's value at batch b, then the array is that function; the point covering batch b is 4b + 3.
-/
import proofs.«149626_j38448547234132_2_alg».proof.Proof.Pass1Names
import Idealize.ShloMosaic.Lib.ValueIdx
import Idealize.ShloMosaic.Lib.Pipeline.Value

set_option maxRecDepth 16384

noncomputable section

namespace Cert.KernelIdeal.Pass1

open Cert.KernelIdeal Cert.KernelIdeal.Gen Cert
open Idealize.ShloMosaic Idealize.ShloMosaic.TcCoe Idealize.ShloMosaic.ValueIdx Idealize.SL.Sem

variable (V : (c : Dev nD) → (b : Ref sig .tc) → Buf (Elt Ideal) ((c : Thread nD τ).loc b)) (c : Dev nD)

/-- A block holding the function's values of batch `b`, read at a block index, is the function's array at the array
    index the block index sits at. -/
theorem batch_eq {cN : ℕ} (f : Fin 8 → Fin 8 → Fin 32 → Fin cN → EReal) (b : Fin 8)
    (o : (⟨4, ![1, 8, 32, cN]⟩ : Shape).Idx → EReal)
    (ho : ∀ (h : Fin 8) (d : Fin 32) (e : Fin cN), o (ix4 0 h d e) = f b h d e)
    (y : (⟨4, ![1, 8, 32, cN]⟩ : Shape).Idx) (i : (⟨4, ![8, 8, 32, cN]⟩ : Shape).Idx)
    (hi0 : (i 0).val = b.val) (hi1 : (i 1).val = (y 1).val) (hi2 : (i 2).val = (y 2).val) (hi3 : (i 3).val = (y 3).val) :
    o y = Spec.of4 f i := by
  obtain ⟨u, h, d, e, rfl⟩ : ∃ (u : Fin 1) (h : Fin 8) (d : Fin 32) (e : Fin cN), y = ix4 u h d e :=
    ⟨y 0, y 1, y 2, y 3, eq_ix4 y⟩
  obtain rfl : u = 0 := Fin.fin_one_eq_zero u
  rw [ho]
  have eb : (⟨(i 0).val, (i 0).isLt⟩ : Fin 8) = b := Fin.ext hi0
  have eh : (⟨(i 1).val, (i 1).isLt⟩ : Fin 8) = h := Fin.ext hi1
  have ed : (⟨(i 2).val, (i 2).isLt⟩ : Fin 32) = d := Fin.ext hi2
  have ee : (⟨(i 3).val, (i 3).isLt⟩ : Fin cN) = e := Fin.ext hi3
  show _ = f ⟨(i 0).val, (i 0).isLt⟩ ⟨(i 1).val, (i 1).isLt⟩ ⟨(i 2).val, (i 2).isLt⟩ ⟨(i 3).val, (i 3).isLt⟩
  rw [eb, eh, ed, ee]

/-- The printed index map of window 9 over the grid: point t = 4 b + j has the block of batch b. -/
theorem idx9 : ∀ t : Fin cfg0.N, win0_9.index t (0 : Fin 4) = t.val / 4 ∧ win0_9.index t (1 : Fin 4) = 0
    ∧ win0_9.index t (2 : Fin 4) = 0 ∧ win0_9.index t (3 : Fin 4) = 0 :=
  (by decide +kernel : ∀ t : Fin grid0.N, _)

/-- What a batch's last tile writes back to window 9's array is that point's block of the function's array. -/
theorem flushed9_eq (f : Fin 8 → Fin 8 → Fin 32 → Fin 32 → EReal)
    (hpt : ∀ (t : Fin cfg0.N), t.val % 4 = 3 → ∀ (h : Fin 8) (d : Fin 32) (e : Fin 32),
      ((outsAt V c t.val t.isLt).o9 : Vec Ideal S1x8x32x32 .f32) (ix4 0 h d e) = f (bOf t) h d e)
    (t : Fin cfg0.N) (hf : (cfg0.win 9).flush t = true) :
    (dat V c).flushed 9 t = ((cfg0.win 9).blk t).view.read (Elt Ideal) (Spec.of4 f) := by
  have ht : t.val % 4 = 3 := (flush0_9 t).mp hf
  show (cfg0.win 9).cut (grid0.coords t) ((dat V c).after 9 t) = _
  rw [after_9]
  obtain ⟨e0, e1, e2, e3⟩ := idx9 t
  funext j
  have hj0 : (j 0).val < 1 := (j 0).isLt
  show ((outsAt V c t.val t.isLt).o9 : Vec Ideal S1x8x32x32 .f32) j = Spec.of4 f (((cfg0.win 9).blk t).view.emb j)
  refine batch_eq f (bOf t) _ (hpt t ht) j (((cfg0.win 9).blk t).view.emb j) ?_ ?_ ?_ ?_
  · show win0_9.index t (0 : Fin 4) * 1 + 1 * (j 0).val = t.val / 4; omega
  · show win0_9.index t (1 : Fin 4) * 8 + 1 * (j 1).val = (j 1).val; omega
  · show win0_9.index t (2 : Fin 4) * 32 + 1 * (j 2).val = (j 2).val; omega
  · show win0_9.index t (3 : Fin 4) * 32 + 1 * (j 3).val = (j 3).val; omega

/-- An index of window 9's array is in point t's block iff each coordinate is in the block's range on its axis. -/
theorem mem_blk9 (t : Fin cfg0.N) (i : S8x8x32x32.Idx) :
    i ∈ ((cfg0.win 9).blk t).view.set ↔ ∀ a : Fin 4, win0_9.index t a * S1x8x32x32.size a ≤ (i a).val
      ∧ (i a).val < win0_9.index t a * S1x8x32x32.size a + S1x8x32x32.size a := by
  show i ∈ ((View.whole main_v2_2).slice (win0_9.rect t)).set ↔ _
  rw [View.set_slice_whole, Rect.mem_set_unit]
  exact Iff.rfl

/-- Every index of window 9's array is in the block of its batch's last tile, which is written back. -/
theorem cover9 (i : S8x8x32x32.Idx) :
    ∃ t : Fin cfg0.N, (cfg0.win 9).flush t = true ∧ i ∈ ((cfg0.win 9).blk t).view.set := by
  have h0 : (i 0).val < 8 := (i 0).isLt
  have h1 : (i 1).val < 8 := (i 1).isLt
  have h2 : (i 2).val < 32 := (i 2).isLt
  have h3 : (i 3).val < 32 := (i 3).isLt
  have hlt : 4 * (i 0).val + 3 < cfg0.N := by rw [show cfg0.N = 32 from N_0]; omega
  obtain ⟨t, htv⟩ : ∃ t : Fin cfg0.N, t.val = 4 * (i 0).val + 3 := ⟨⟨_, hlt⟩, rfl⟩
  obtain ⟨e0, e1, e2, e3⟩ := idx9 t
  refine ⟨t, (flush0_9 t).mpr (by omega), ?_⟩
  rw [mem_blk9]
  intro a
  match a with
  | ⟨0, _⟩ =>
    show win0_9.index t (0 : Fin 4) * 1 ≤ (i 0).val ∧ (i 0).val < win0_9.index t (0 : Fin 4) * 1 + 1
    omega
  | ⟨1, _⟩ =>
    show win0_9.index t (1 : Fin 4) * 8 ≤ (i 1).val ∧ (i 1).val < win0_9.index t (1 : Fin 4) * 8 + 8
    omega
  | ⟨2, _⟩ =>
    show win0_9.index t (2 : Fin 4) * 32 ≤ (i 2).val ∧ (i 2).val < win0_9.index t (2 : Fin 4) * 32 + 32
    omega
  | ⟨3, _⟩ =>
    show win0_9.index t (3 : Fin 4) * 32 ≤ (i 3).val ∧ (i 3).val < win0_9.index t (3 : Fin 4) * 32 + 32
    omega

/-- The printed index map of window 10 over the grid: point t = 4 b + j has the block of batch b. -/
theorem idx10 : ∀ t : Fin cfg0.N, win0_10.index t (0 : Fin 4) = t.val / 4 ∧ win0_10.index t (1 : Fin 4) = 0
    ∧ win0_10.index t (2 : Fin 4) = 0 ∧ win0_10.index t (3 : Fin 4) = 0 :=
  (by decide +kernel : ∀ t : Fin grid0.N, _)

/-- What a batch's last tile writes back to window 10's array is that point's block of the function's array. -/
theorem flushed10_eq (f : Fin 8 → Fin 8 → Fin 32 → Fin 64 → EReal)
    (hpt : ∀ (t : Fin cfg0.N), t.val % 4 = 3 → ∀ (h : Fin 8) (d : Fin 32) (p : Fin 64),
      ((outsAt V c t.val t.isLt).o10 : Vec Ideal S1x8x32x64 .f32) (ix4 0 h d p) = f (bOf t) h d p)
    (t : Fin cfg0.N) (hf : (cfg0.win 10).flush t = true) :
    (dat V c).flushed 10 t = ((cfg0.win 10).blk t).view.read (Elt Ideal) (Spec.of4 f) := by
  have ht : t.val % 4 = 3 := (flush0_10 t).mp hf
  show (cfg0.win 10).cut (grid0.coords t) ((dat V c).after 10 t) = _
  rw [after_10]
  obtain ⟨e0, e1, e2, e3⟩ := idx10 t
  funext j
  have hj0 : (j 0).val < 1 := (j 0).isLt
  show ((outsAt V c t.val t.isLt).o10 : Vec Ideal S1x8x32x64 .f32) j = Spec.of4 f (((cfg0.win 10).blk t).view.emb j)
  refine batch_eq f (bOf t) _ (hpt t ht) j (((cfg0.win 10).blk t).view.emb j) ?_ ?_ ?_ ?_
  · show win0_10.index t (0 : Fin 4) * 1 + 1 * (j 0).val = t.val / 4; omega
  · show win0_10.index t (1 : Fin 4) * 8 + 1 * (j 1).val = (j 1).val; omega
  · show win0_10.index t (2 : Fin 4) * 32 + 1 * (j 2).val = (j 2).val; omega
  · show win0_10.index t (3 : Fin 4) * 64 + 1 * (j 3).val = (j 3).val; omega

/-- An index of window 10's array is in point t's block iff each coordinate is in the block's range on its axis. -/
theorem mem_blk10 (t : Fin cfg0.N) (i : S8x8x32x64.Idx) :
    i ∈ ((cfg0.win 10).blk t).view.set ↔ ∀ a : Fin 4, win0_10.index t a * S1x8x32x64.size a ≤ (i a).val
      ∧ (i a).val < win0_10.index t a * S1x8x32x64.size a + S1x8x32x64.size a := by
  show i ∈ ((View.whole main_v2_3).slice (win0_10.rect t)).set ↔ _
  rw [View.set_slice_whole, Rect.mem_set_unit]
  exact Iff.rfl

/-- Every index of window 10's array is in the block of its batch's last tile, which is written back. -/
theorem cover10 (i : S8x8x32x64.Idx) :
    ∃ t : Fin cfg0.N, (cfg0.win 10).flush t = true ∧ i ∈ ((cfg0.win 10).blk t).view.set := by
  have h0 : (i 0).val < 8 := (i 0).isLt
  have h1 : (i 1).val < 8 := (i 1).isLt
  have h2 : (i 2).val < 32 := (i 2).isLt
  have h3 : (i 3).val < 64 := (i 3).isLt
  have hlt : 4 * (i 0).val + 3 < cfg0.N := by rw [show cfg0.N = 32 from N_0]; omega
  obtain ⟨t, htv⟩ : ∃ t : Fin cfg0.N, t.val = 4 * (i 0).val + 3 := ⟨⟨_, hlt⟩, rfl⟩
  obtain ⟨e0, e1, e2, e3⟩ := idx10 t
  refine ⟨t, (flush0_10 t).mpr (by omega), ?_⟩
  rw [mem_blk10]
  intro a
  match a with
  | ⟨0, _⟩ =>
    show win0_10.index t (0 : Fin 4) * 1 ≤ (i 0).val ∧ (i 0).val < win0_10.index t (0 : Fin 4) * 1 + 1
    omega
  | ⟨1, _⟩ =>
    show win0_10.index t (1 : Fin 4) * 8 ≤ (i 1).val ∧ (i 1).val < win0_10.index t (1 : Fin 4) * 8 + 8
    omega
  | ⟨2, _⟩ =>
    show win0_10.index t (2 : Fin 4) * 32 ≤ (i 2).val ∧ (i 2).val < win0_10.index t (2 : Fin 4) * 32 + 32
    omega
  | ⟨3, _⟩ =>
    show win0_10.index t (3 : Fin 4) * 64 ≤ (i 3).val ∧ (i 3).val < win0_10.index t (3 : Fin 4) * 64 + 64
    omega

/-- The printed index map of window 11 over the grid: point t = 4 b + j has the block of batch b. -/
theorem idx11 : ∀ t : Fin cfg0.N, win0_11.index t (0 : Fin 4) = t.val / 4 ∧ win0_11.index t (1 : Fin 4) = 0
    ∧ win0_11.index t (2 : Fin 4) = 0 ∧ win0_11.index t (3 : Fin 4) = 0 :=
  (by decide +kernel : ∀ t : Fin grid0.N, _)

/-- What a batch's last tile writes back to window 11's array is that point's block of the function's array. -/
theorem flushed11_eq (f : Fin 8 → Fin 8 → Fin 32 → Fin 64 → EReal)
    (hpt : ∀ (t : Fin cfg0.N), t.val % 4 = 3 → ∀ (h : Fin 8) (d : Fin 32) (p : Fin 64),
      ((outsAt V c t.val t.isLt).o11 : Vec Ideal S1x8x32x64 .f32) (ix4 0 h d p) = f (bOf t) h d p)
    (t : Fin cfg0.N) (hf : (cfg0.win 11).flush t = true) :
    (dat V c).flushed 11 t = ((cfg0.win 11).blk t).view.read (Elt Ideal) (Spec.of4 f) := by
  have ht : t.val % 4 = 3 := (flush0_11 t).mp hf
  show (cfg0.win 11).cut (grid0.coords t) ((dat V c).after 11 t) = _
  rw [after_11]
  obtain ⟨e0, e1, e2, e3⟩ := idx11 t
  funext j
  have hj0 : (j 0).val < 1 := (j 0).isLt
  show ((outsAt V c t.val t.isLt).o11 : Vec Ideal S1x8x32x64 .f32) j = Spec.of4 f (((cfg0.win 11).blk t).view.emb j)
  refine batch_eq f (bOf t) _ (hpt t ht) j (((cfg0.win 11).blk t).view.emb j) ?_ ?_ ?_ ?_
  · show win0_11.index t (0 : Fin 4) * 1 + 1 * (j 0).val = t.val / 4; omega
  · show win0_11.index t (1 : Fin 4) * 8 + 1 * (j 1).val = (j 1).val; omega
  · show win0_11.index t (2 : Fin 4) * 32 + 1 * (j 2).val = (j 2).val; omega
  · show win0_11.index t (3 : Fin 4) * 64 + 1 * (j 3).val = (j 3).val; omega

/-- An index of window 11's array is in point t's block iff each coordinate is in the block's range on its axis. -/
theorem mem_blk11 (t : Fin cfg0.N) (i : S8x8x32x64.Idx) :
    i ∈ ((cfg0.win 11).blk t).view.set ↔ ∀ a : Fin 4, win0_11.index t a * S1x8x32x64.size a ≤ (i a).val
      ∧ (i a).val < win0_11.index t a * S1x8x32x64.size a + S1x8x32x64.size a := by
  show i ∈ ((View.whole main_v2_4).slice (win0_11.rect t)).set ↔ _
  rw [View.set_slice_whole, Rect.mem_set_unit]
  exact Iff.rfl

/-- Every index of window 11's array is in the block of its batch's last tile, which is written back. -/
theorem cover11 (i : S8x8x32x64.Idx) :
    ∃ t : Fin cfg0.N, (cfg0.win 11).flush t = true ∧ i ∈ ((cfg0.win 11).blk t).view.set := by
  have h0 : (i 0).val < 8 := (i 0).isLt
  have h1 : (i 1).val < 8 := (i 1).isLt
  have h2 : (i 2).val < 32 := (i 2).isLt
  have h3 : (i 3).val < 64 := (i 3).isLt
  have hlt : 4 * (i 0).val + 3 < cfg0.N := by rw [show cfg0.N = 32 from N_0]; omega
  obtain ⟨t, htv⟩ : ∃ t : Fin cfg0.N, t.val = 4 * (i 0).val + 3 := ⟨⟨_, hlt⟩, rfl⟩
  obtain ⟨e0, e1, e2, e3⟩ := idx11 t
  refine ⟨t, (flush0_11 t).mpr (by omega), ?_⟩
  rw [mem_blk11]
  intro a
  match a with
  | ⟨0, _⟩ =>
    show win0_11.index t (0 : Fin 4) * 1 ≤ (i 0).val ∧ (i 0).val < win0_11.index t (0 : Fin 4) * 1 + 1
    omega
  | ⟨1, _⟩ =>
    show win0_11.index t (1 : Fin 4) * 8 ≤ (i 1).val ∧ (i 1).val < win0_11.index t (1 : Fin 4) * 8 + 8
    omega
  | ⟨2, _⟩ =>
    show win0_11.index t (2 : Fin 4) * 32 ≤ (i 2).val ∧ (i 2).val < win0_11.index t (2 : Fin 4) * 32 + 32
    omega
  | ⟨3, _⟩ =>
    show win0_11.index t (3 : Fin 4) * 64 ≤ (i 3).val ∧ (i 3).val < win0_11.index t (3 : Fin 4) * 64 + 64
    omega

/-- Windows 9, 10, 11 (written back after a batch's last tile only): if at every last tile the buffer holds, at
    (0, h, d, e), the function's value at the point's batch, the array is the function. -/
theorem arr9_of (f : Fin 8 → Fin 8 → Fin 32 → Fin 32 → EReal)
    (hpt : ∀ (t : Fin cfg0.N), t.val % 4 = 3 → ∀ (h : Fin 8) (d e : Fin 32),
      ((outsAt V c t.val t.isLt).o9 : Vec Ideal S1x8x32x32 .f32) (ix4 0 h d e) = f (bOf t) h d e) :
    (dat V c).arrAt 9 cfg0.N = Spec.of4 f :=
  (dat V c).arrAt_eq_of_cover 9 (Spec.of4 f) (fun t hf => flushed9_eq V c f hpt t hf) cover9
theorem arr10_of (f : Fin 8 → Fin 8 → Fin 32 → Fin 64 → EReal)
    (hpt : ∀ (t : Fin cfg0.N), t.val % 4 = 3 → ∀ (h : Fin 8) (d : Fin 32) (p : Fin 64),
      ((outsAt V c t.val t.isLt).o10 : Vec Ideal S1x8x32x64 .f32) (ix4 0 h d p) = f (bOf t) h d p) :
    (dat V c).arrAt 10 cfg0.N = Spec.of4 f :=
  (dat V c).arrAt_eq_of_cover 10 (Spec.of4 f) (fun t hf => flushed10_eq V c f hpt t hf) cover10
theorem arr11_of (f : Fin 8 → Fin 8 → Fin 32 → Fin 64 → EReal)
    (hpt : ∀ (t : Fin cfg0.N), t.val % 4 = 3 → ∀ (h : Fin 8) (d : Fin 32) (p : Fin 64),
      ((outsAt V c t.val t.isLt).o11 : Vec Ideal S1x8x32x64 .f32) (ix4 0 h d p) = f (bOf t) h d p) :
    (dat V c).arrAt 11 cfg0.N = Spec.of4 f :=
  (dat V c).arrAt_eq_of_cover 11 (Spec.of4 f) (fun t hf => flushed11_eq V c f hpt t hf) cover11

end Cert.KernelIdeal.Pass1

end
-- ==== Proof.Pass1Finals.lean ====
/-
  The first kernel call's five results as whole arrays.  At every point the q and v_ca buffers hold the tile's
  projection rows; at a batch's last tile the three per-batch buffers hold the finalising terms of the accumulators'
  totals: the softmax of the raw Gram matrix scaled by the two reciprocal row norms and the temperature, the key
  projection plus its bias scaled by the reciprocal q norm, the value projection plus its bias.
-/
import proofs.«149626_j38448547234132_2_alg».proof.Proof.Pass1Totals
import proofs.«149626_j38448547234132_2_alg».proof.Proof.Pass1Cover
import proofs.«149626_j38448547234132_2_alg».proof.Proof.Pass1CoverLast

set_option maxRecDepth 16384
set_option maxHeartbeats 2000000

noncomputable section

namespace Cert.KernelIdeal.Pass1

open Cert.KernelIdeal Cert.KernelIdeal.Gen Cert.KernelIdeal.Pass1Pay Cert
open Idealize.ShloMosaic Idealize.ShloMosaic.TcCoe Idealize.ShloMosaic.ValueIdx Idealize.SL.Sem

variable (V : (c : Dev nD) → (b : Ref sig .tc) → Buf (Elt Ideal) ((c : Thread nD τ).loc b)) (c : Dev nD)

theorem o7_eq (t : Fin cfg0.N) : (outsAt V c t.val t.isLt).o7 = k0_pay14 (iblk V c 0 t) (iblk V c 1 t) := by
  by_cases h0 : t.val % 4 = 0
  · rw [outsAt_first V c t h0, ptFirst_o7]
  · by_cases h1 : t.val % 4 = 3
    · rw [outsAt_last V c t h0 h1, ptLast_o7]
    · rw [outsAt_mid V c t h0 h1, ptMid_o7]

theorem o8_eq (t : Fin cfg0.N) : (outsAt V c t.val t.isLt).o8 = k0_pay15 (iblk V c 0 t) (iblk V c 1 t) := by
  by_cases h0 : t.val % 4 = 0
  · rw [outsAt_first V c t h0, ptFirst_o8]
  · by_cases h1 : t.val % 4 = 3
    · rw [outsAt_last V c t h0 h1, ptLast_o8]
    · rw [outsAt_mid V c t h0 h1, ptMid_o8]

/-- At a last tile the three per-batch buffers are the finalising terms of the accumulators as they stand. -/
theorem o9_last (t : Fin cfg0.N) (h3 : t.val % 4 = 3) :
    (outsAt V c t.val t.isLt).o9
      = k0_pay5 (outsAt V c t.val t.isLt).s1 (outsAt V c t.val t.isLt).s2 (outsAt V c t.val t.isLt).s0 (iblk V c 6 t) := by
  have h0 : ¬t.val % 4 = 0 := by omega
  rw [outsAt_last V c t h0 h3, ptLast_o9, ptLast_s0, ptLast_s1, ptLast_s2]
theorem o10_last (t : Fin cfg0.N) (h3 : t.val % 4 = 3) :
    (outsAt V c t.val t.isLt).o10
      = k0_pay2 (k0_pay4 (outsAt V c t.val t.isLt).s1) (outsAt V c t.val t.isLt).s3 (iblk V c 3 t) := by
  have h0 : ¬t.val % 4 = 0 := by omega
  rw [outsAt_last V c t h0 h3, ptLast_o10, ptLast_s1, ptLast_s3]
theorem o11_last (t : Fin cfg0.N) (h3 : t.val % 4 = 3) :
    (outsAt V c t.val t.isLt).o11 = k0_pay3 (outsAt V c t.val t.isLt).s4 (iblk V c 5 t) := by
  have h0 : ¬t.val % 4 = 0 := by omega
  rw [outsAt_last V c t h0 h3, ptLast_o11, ptLast_s4]

/-! ## The five arrays -/

theorem final_q : (dat V c).arrAt 7 cfg0.N = Spec.of4 (Spec.kq (aW V c) (aX V c)) :=
  arr7_of V c _ fun t h d n' => by
    rw [o7_eq, pay14_apply, tileProj_eq]; rfl

theorem final_vca : (dat V c).arrAt 8 cfg0.N = Spec.of4 (Spec.kvca (aW V c) (aX V c)) :=
  arr8_of V c _ fun t h d n' => by
    rw [o8_eq, pay15_apply, tileProj_eq]; rfl

theorem final_attn : (dat V c).arrAt 9 cfg0.N = Spec.of4 (Spec.kattn (aW V c) (aX V c) (aT1 V c)) :=
  arr9_of V c _ fun t h3 h d e => by
    rw [o9_last V c t h3, pay5_apply]
    unfold Spec.kattn Spec.klogit Spec.kinv
    simp only [total_gram V c t h3, total_normQ V c t h3, total_normK V c t h3, iblk_w6 V c t]

theorem final_kps : (dat V c).arrAt 10 cfg0.N = Spec.of4 (Spec.kkps (aW V c) (aX V c) (aWE V c) (aBE V c)) :=
  arr10_of V c _ fun t h3 h d p => by
    rw [o10_last V c t h3, pay2_apply, pay4_apply]
    unfold Spec.kkps Spec.kinv
    simp only [total_keyLow V c t h3, total_normQ V c t h3, iblk_w3 V c t]

theorem final_vp : (dat V c).arrAt 11 cfg0.N = Spec.of4 (Spec.kvp (aW V c) (aX V c) (aWF V c) (aBF V c)) :=
  arr11_of V c _ fun t h3 h d p => by
    rw [o11_last V c t h3, pay3_apply]
    unfold Spec.kvp
    simp only [total_valLow V c t h3, iblk_w5 V c t]

end Cert.KernelIdeal.Pass1

end
-- ==== Proof.ValueComposeAll.lean ====
/-
  The kernel's result array as a function of the twelve arguments: the composition of the three calls, with the
  first call's five arrays supplied.
-/
import proofs.«149626_j38448547234132_2_alg».proof.Proof.ValueCompose
import proofs.«149626_j38448547234132_2_alg».proof.Proof.Pass1Finals

noncomputable section

namespace Cert.KernelIdeal.Compose

open Idealize.ShloMosaic Idealize.ShloMosaic.TcCoe Idealize.SL.Sem
open Cert.KernelIdeal Cert.KernelIdeal.Gen Cert.KernelIdeal.Whole

theorem result_eq (m : (ℓ : Loc nD τ sig) → Buf (Elt Ideal) ℓ) (ρ : Dev nD → PrngReg) (c : Dev nD) :
    Whole.result (F := Ideal) m ρ c = kernelOut m c :=
  result_eq_of m ρ c (Pass1.final_q _ c) (Pass1.final_vca _ c) (Pass1.final_attn _ c) (Pass1.final_kps _ c) (Pass1.final_vp _ c)

end Cert.KernelIdeal.Compose

end
-- ==== Proof.LibBinCount.lean ====
/-
  Counting with 0/1 words.

  A comparison of two 32-bit integers yields one bit; widened to 32 bits and read as a signed integer it is
  0 or 1.  This file relates the two ways a histogram bin is counted:

    * summing the widened bits as 32-bit integers (wrapping addition) and converting the total to a real, and
    * converting each widened bit to a real and summing the reals.

  As long as there are fewer than 2^31 summands the integer total cannot wrap, so both give the number of
  set bits.  Also here: a finite sum of real numbers embedded in the extended reals is the embedded sum, and a
  sum over `Fin (a * b)` split into `a` consecutive runs of length `b`.
-/
import Idealize.ShloMosaic.PureOps.Ideal.Laws
import Idealize.ShloMosaic.PureOps.Reduce

noncomputable section

namespace Cert.BinCount

open Idealize.ShloMosaic

/-- "The 32-bit integer `v` equals `c`" as the extended real 0 or 1: the comparison bit, widened to 32 bits,
    read as a signed integer, as a real. -/
def ind (v c : BitVec 32) : EReal := ((((IntOp.cmpi .eq v c).setWidth 32).toInt : ℝ) : EReal)

/-- A finite sum of reals, embedded in the extended reals term by term, is the embedded sum. -/
theorem coe_sum {ι : Type} (s : Finset ι) (f : ι → ℝ) :
    (∑ p ∈ s, ((f p : ℝ) : EReal)) = (((∑ p ∈ s, f p) : ℝ) : EReal) := by
  classical
  induction s using Finset.induction_on with
  | empty => simp
  | insert a s ha ih => rw [Finset.sum_insert ha, Finset.sum_insert ha, ih, EReal.coe_add]

/-- One bit widened to 32 bits, read signed, is the bit's value. -/
theorem toInt_setWidth_bit (b : BitVec 1) : (b.setWidth 32).toInt = (b.toNat : ℤ) := by
  rcases BitVec.eq_zero_or_eq_one b with h | h <;> subst h <;> decide

/-- One bit widened to 32 bits is the 32-bit word of the bit's value. -/
theorem setWidth_bit_eq_ofNat (b : BitVec 1) : b.setWidth 32 = BitVec.ofNat 32 b.toNat := by
  rcases BitVec.eq_zero_or_eq_one b with h | h <;> subst h <;> decide

/-- The wrapping 32-bit sum of widened bits is the 32-bit word of the number of set bits. -/
theorem fold_addi_bits {ι : Type} [DecidableEq ι] (s : Finset ι) (e : ι → BitVec 1) :
    s.fold IntOp.addi 0#32 (fun p => (e p).setWidth 32) = BitVec.ofNat 32 (∑ p ∈ s, (e p).toNat) := by
  induction s using Finset.induction_on with
  | empty => simp
  | insert a s ha ih =>
    rw [Finset.fold_insert ha, ih, Finset.sum_insert ha, setWidth_bit_eq_ofNat]
    show BitVec.ofNat 32 _ + BitVec.ofNat 32 _ = _
    rw [← BitVec.ofNat_add]

/-- With fewer than 2^31 summands the integer total does not wrap: converted to a real it is the sum of the
    bits converted one by one. -/
theorem coe_toInt_fold_addi_bits {N : Nat} (hN : N < 2 ^ 31) (e : Fin N → BitVec 1) :
    (((((Finset.univ : Finset (Fin N)).fold IntOp.addi 0#32 (fun p => (e p).setWidth 32)).toInt : ℤ) : ℝ) : EReal)
      = ∑ p : Fin N, (((((e p).setWidth 32).toInt : ℤ) : ℝ) : EReal) := by
  rw [fold_addi_bits, coe_sum]
  have hle : (∑ p : Fin N, (e p).toNat) ≤ N := by
    calc (∑ p : Fin N, (e p).toNat) ≤ ∑ _p : Fin N, 1 :=
          Finset.sum_le_sum (fun p _ => by have := (e p).isLt; omega)
      _ = N := by simp
  have h1 : (BitVec.ofNat 32 (∑ p : Fin N, (e p).toNat)).toInt = ((∑ p : Fin N, (e p).toNat : ℕ) : ℤ) := by
    have hlt : (∑ p : Fin N, (e p).toNat) < 2 ^ 31 := lt_of_le_of_lt hle hN
    rw [BitVec.toInt_eq_toNat_of_lt (by rw [BitVec.toNat_ofNat, Nat.mod_eq_of_lt (by omega)]; omega),
      BitVec.toNat_ofNat, Nat.mod_eq_of_lt (by omega)]
  rw [h1]
  congr 1
  push_cast
  exact Finset.sum_congr rfl fun p _ => by rw [toInt_setWidth_bit]; push_cast; rfl

/-- A sum over `Fin (a * b)` as `a` consecutive runs of length `b`. -/
theorem sum_runs {M : Type} [AddCommMonoid M] (a b : Nat) (f : Fin (a * b) → M) :
    ∑ p : Fin (a * b), f p
      = ∑ u ∈ Finset.range a, ∑ q : Fin b,
          (if h : u * b + q.val < a * b then f ⟨u * b + q.val, h⟩ else 0) := by
  rw [← Fin.sum_univ_eq_sum_range (fun u => ∑ q : Fin b, (if h : u * b + q.val < a * b then f ⟨u * b + q.val, h⟩ else 0)) a]
  rw [← Fintype.sum_prod_type']
  refine (Fintype.sum_equiv finProdFinEquiv.symm _ _ fun p => ?_)
  have hb : 0 < b := by
    rcases Nat.eq_zero_or_pos b with h | h
    · subst h; exact absurd p.isLt (by simp)
    · exact h
  have e : (finProdFinEquiv.symm p).1.val * b + (finProdFinEquiv.symm p).2.val = p.val := by
    simp [finProdFinEquiv, Fin.divNat, Fin.modNat]
    rw [Nat.mul_comm]; exact Nat.div_add_mod p.val b
  rw [dif_pos (by rw [e]; exact p.isLt)]
  exact congrArg f (Fin.ext e.symm)

end Cert.BinCount

end
-- ==== Proof.SpecAlgebra.lean ====
/-
  The algebra between the two arrangements, entry by entry over the extended reals.

  For real-valued inputs the kernel's three calls composed equal the reference.  The steps:
    * a projected entry is the same finite sum with the factors of each product commuted, and is a real number;
    * a sum over the 8192 tokens is the sum over 4 tiles of 2048 tokens;
    * max(sqrt(sum of squares), eps) is a positive real ρ, and division by ρ is multiplication by 1/ρ;
    * for reals, (∑ q·k)·(1/ρ)·(1/σ) = ∑ (q/ρ)·(k/σ): the scores of the channel attention agree;
    * in the spatial branch the factor 1/ρ moves between the two factors of each product (commutativity and
      associativity of the product alone);
    * the two output branches are then equal term by term.
-/
import proofs.«149626_j38448547234132_2_alg».proof.Proof.ValueSpec
import proofs.«149626_j38448547234132_2_alg».proof.Proof.LibBinCount

noncomputable section

namespace Cert.Spec

open Idealize.ShloMosaic Idealize.ShloMosaic.ValueIdx

/-- "Every entry is a real number." -/
def Real1 {a : Nat} (f : Arr1 a) : Prop := ∀ i, ∃ r : ℝ, f i = (r : EReal)
def Real2 {a b : Nat} (f : Arr2 a b) : Prop := ∀ i, ∃ r : ℝ, f i = (r : EReal)
def Real3 {a b c : Nat} (f : Arr3 a b c) : Prop := ∀ i, ∃ r : ℝ, f i = (r : EReal)

/-! ### The literals -/

/-- The literal `one` denotes the real number 1. -/
theorem one_eq : one = 1 := by
  unfold one
  simp [Ideal.ofBits, Ideal.ieee, -EReal.coe_mul]; norm_num

/-- The literal `eps` denotes a positive real number. -/
theorem eps_pos : ∃ e : ℝ, 0 < e ∧ eps = (e : EReal) := by
  unfold eps
  simp [Ideal.ofBits, Ideal.ieee, -EReal.coe_mul]

/-! ### Division by a nonzero real -/

/-- Dividing by a nonzero real is multiplying by the quotient of `one` by it. -/
theorem div_eq_mul_div_one (x : EReal) {ρ : ℝ} (hρ : ρ ≠ 0) :
    Ideal.div x (ρ : EReal) = x * Ideal.div one (ρ : EReal) := by
  rw [Ideal.div_coe hρ, Ideal.div_coe hρ, one_eq, one_mul]

/-! ### Tiles -/

/-- A sum over the 8192 tokens is the sum over 4 tiles of 2048 tokens. -/
theorem sum_tok {M : Type} [AddCommMonoid M] (f : Fin 8192 → M) :
    ∑ j : Fin 4, ∑ n' : Fin 2048, f (tok j n') = ∑ n : Fin 8192, f n := by
  rw [← Fintype.sum_prod_type' (f := fun j n' => f (tok j n'))]
  refine Fintype.sum_equiv (finProdFinEquiv : Fin 4 × Fin 2048 ≃ Fin (4 * 2048)) _ _ fun p => ?_
  refine congrArg f (Fin.ext ?_)
  show p.1.val * 2048 + p.2.val = p.2.val + 2048 * p.1.val
  omega

/-! ### Projections -/

section

variable (X : Arr3 8 8192 256) (W : Arr2 1024 256)

/-- The two projections differ by the order of the factors of each product. -/
theorem kproj_eq (part : Fin 4) (b : Fin 8) (h : Fin 8) (d : Fin 32) (n : Fin 8192) :
    kproj W X part b h d n = rproj X W part b h d n :=
  Finset.sum_congr rfl fun c _ => mul_comm _ _

/-- A projected entry of real arrays is a real number. -/
theorem rproj_real (hX : Real3 X) (hW : Real2 W) (part : Fin 4) (b : Fin 8) (h : Fin 8) (d : Fin 32) (n : Fin 8192) :
    ∃ r : ℝ, rproj X W part b h d n = (r : EReal) := by
  choose x hx using (show ∀ i, ∃ r : ℝ, X i = (r : EReal) from hX)
  choose w hw using (show ∀ i, ∃ r : ℝ, W i = (r : EReal) from hW)
  refine ⟨∑ c : Fin 256, x (ix3 b n c) * w (ix2 (row part h d) c), ?_⟩
  rw [rproj, ← Cert.BinCount.coe_sum]
  exact Finset.sum_congr rfl fun c _ => by rw [hx, hw, EReal.coe_mul]

/-- max(sqrt(sum of squares), eps) is a positive real number. -/
theorem rnorm_real (hX : Real3 X) (hW : Real2 W) (part : Fin 4) (b : Fin 8) (h : Fin 8) (d : Fin 32) :
    ∃ ρ : ℝ, 0 < ρ ∧ rnorm X W part b h d = (ρ : EReal) := by
  choose P hP using rproj_real X W hX hW part b h d
  obtain ⟨e, he, hE⟩ := eps_pos
  have hs : (∑ n : Fin 8192, rproj X W part b h d n * rproj X W part b h d n)
      = ((∑ n : Fin 8192, P n * P n : ℝ) : EReal) := by
    rw [← Cert.BinCount.coe_sum]
    exact Finset.sum_congr rfl fun n _ => by rw [hP, EReal.coe_mul]
  have h0 : (0 : ℝ) ≤ ∑ n : Fin 8192, P n * P n := Finset.sum_nonneg fun n _ => mul_self_nonneg _
  refine ⟨max (Real.sqrt (∑ n : Fin 8192, P n * P n)) e, lt_max_of_lt_right he, ?_⟩
  rw [rnorm, hs, Ideal.sqrt_coe, if_neg (not_lt.mpr h0), hE]
  exact (EReal.coe_strictMono.monotone.map_max).symm

/-- The squared norm taken tile by tile is the squared norm over all tokens. -/
theorem knsq_eq (part : Fin 4) (b : Fin 8) (h : Fin 8) (d : Fin 32) :
    knsq W X part b h d = ∑ n : Fin 8192, rproj X W part b h d n * rproj X W part b h d n := by
  rw [knsq, sum_tok (fun n => kproj W X part b h d n * kproj W X part b h d n)]
  exact Finset.sum_congr rfl fun n _ => by rw [kproj_eq]

theorem kinv_eq (part : Fin 4) (b : Fin 8) (h : Fin 8) (d : Fin 32) :
    kinv W X part b h d = Ideal.div one (rnorm X W part b h d) := by
  rw [kinv, knsq_eq, rnorm]

/-- The Gram matrix taken tile by tile is the Gram matrix over all tokens. -/
theorem kgram_eq (b : Fin 8) (h : Fin 8) (d e : Fin 32) :
    kgram W X b h d e = ∑ n : Fin 8192, rproj X W 0 b h d n * rproj X W 1 b h e n := by
  rw [kgram, sum_tok (fun n => kproj W X 0 b h d n * kproj W X 1 b h e n)]
  exact Finset.sum_congr rfl fun n _ => by rw [kproj_eq, kproj_eq]

/-- A low-rank projection taken tile by tile is the one over all tokens. -/
theorem klow_eq (part : Fin 4) (M : Arr2 64 8192) (b : Fin 8) (h : Fin 8) (d : Fin 32) (p : Fin 64) :
    klow W X part M b h d p = ∑ n : Fin 8192, rproj X W part b h d n * M (ix2 p n) := by
  rw [klow, sum_tok (fun n => kproj W X part b h d n * M (ix2 p n))]
  exact Finset.sum_congr rfl fun n _ => by rw [kproj_eq]

end

/-! ### The deferred row normalisation -/

/-- For real entries and nonzero real ρ, σ: (∑ p·q)·(1/ρ)·(1/σ) = ∑ (p/ρ)·(q/σ). -/
theorem logit_core (p q : Fin 8192 → EReal) (hp : ∀ n, ∃ r : ℝ, p n = (r : EReal)) (hq : ∀ n, ∃ r : ℝ, q n = (r : EReal))
    {ρ σ : ℝ} (hρ : ρ ≠ 0) (hσ : σ ≠ 0) :
    (∑ n, p n * q n) * Ideal.div one (ρ : EReal) * Ideal.div one (σ : EReal)
      = ∑ n, Ideal.div (p n) (ρ : EReal) * Ideal.div (q n) (σ : EReal) := by
  choose p' hp' using hp
  choose q' hq' using hq
  have hL : (∑ n, p n * q n) = ((∑ n, p' n * q' n : ℝ) : EReal) := by
    rw [← Cert.BinCount.coe_sum]
    exact Finset.sum_congr rfl fun n _ => by rw [hp', hq', EReal.coe_mul]
  have hR : (∑ n, Ideal.div (p n) (ρ : EReal) * Ideal.div (q n) (σ : EReal))
      = ((∑ n, (p' n * (1 / ρ)) * (q' n * (1 / σ)) : ℝ) : EReal) := by
    rw [← Cert.BinCount.coe_sum]
    exact Finset.sum_congr rfl fun n _ => by
      rw [Ideal.div_coe hρ, Ideal.div_coe hσ, hp', hq', ← EReal.coe_mul, ← EReal.coe_mul, ← EReal.coe_mul]
  rw [hL, hR, Ideal.div_coe hρ, Ideal.div_coe hσ, one_eq, one_mul, one_mul, ← EReal.coe_mul, ← EReal.coe_mul]
  congr 1
  rw [Finset.sum_mul, Finset.sum_mul]
  exact Finset.sum_congr rfl fun n _ => by ring

section

variable (X : Arr3 8 8192 256) (W : Arr2 1024 256) (hX : Real3 X) (hW : Real2 W)

include hX hW

/-! ### Channel attention -/

theorem klogit_eq (t1 : Arr3 8 1 1) (b : Fin 8) (h : Fin 8) (d e : Fin 32) :
    klogit W X t1 b h d e = rlogit X W t1 b h d e := by
  obtain ⟨ρ, hρ, hρe⟩ := rnorm_real X W hX hW 0 b h d
  obtain ⟨σ, hσ, hσe⟩ := rnorm_real X W hX hW 1 b h e
  have key := logit_core (fun n => rproj X W 0 b h d n) (fun n => rproj X W 1 b h e n)
    (rproj_real X W hX hW 0 b h d) (rproj_real X W hX hW 1 b h e) hρ.ne' hσ.ne'
  rw [klogit, rlogit, kgram_eq, kinv_eq, kinv_eq]
  unfold rn
  rw [hρe, hσe]
  exact congrArg (· * t1 (ix3 h 0 0)) key

theorem kattn_eq (t1 : Arr3 8 1 1) (b : Fin 8) (h : Fin 8) (d e : Fin 32) :
    kattn W X t1 b h d e = rattn X W t1 b h d e := by
  rw [kattn, rattn]
  exact congrArg (fun s => smax s e) (funext fun e' => klogit_eq X W hX hW t1 b h d e')

theorem kxca_eq (t1 : Arr3 8 1 1) (b : Fin 8) (h : Fin 8) (d : Fin 32) (n : Fin 8192) :
    kxca (of4 (kattn W X t1)) (of4 (kvca W X)) b h d n = rxca X W t1 b h d n := by
  rw [kxca, rxca]
  exact Finset.sum_congr rfl fun e _ => by
    rw [of4_apply, of4_apply, kattn_eq X W hX hW, kvca, kproj_eq]

/-! ### Spatial attention -/

theorem kscore_eq (WE : Arr2 64 8192) (bE : Arr1 64) (t2 : Arr3 8 1 1) (b : Fin 8) (h : Fin 8) (n : Fin 8192) (p : Fin 64) :
    kscore (of4 (kq W X)) (of4 (kkps W X WE (of3 fun _ _ p => bE (ix1 p)))) t2 b h n p
      = rscore X W WE bE t2 b h n p := by
  rw [kscore, rscore]
  refine congrArg (· * t2 (ix3 h 0 0)) (Finset.sum_congr rfl fun d _ => ?_)
  obtain ⟨ρ, hρ, hρe⟩ := rnorm_real X W hX hW 0 b h d
  rw [of4_apply, of4_apply, kq, kkps, kproj_eq, kinv_eq, klow_eq, of3_apply, rn, rlow, hρe,
    div_eq_mul_div_one (rproj X W 0 b h d n) hρ.ne', mul_comm (_ + _) _, ← mul_assoc]

theorem kvp_eq (WF : Arr2 64 8192) (bF : Arr1 64) (b : Fin 8) (h : Fin 8) (d : Fin 32) (p : Fin 64) :
    kvp W X WF (of3 fun _ _ p => bF (ix1 p)) b h d p = rlow X W 3 WF bF b h d p := by
  rw [kvp, klow_eq, of3_apply, rlow]

theorem kxsa_eq (WE : Arr2 64 8192) (bE : Arr1 64) (WF : Arr2 64 8192) (bF : Arr1 64) (t2 : Arr3 8 1 1)
    (b : Fin 8) (h : Fin 8) (d : Fin 32) (n : Fin 8192) :
    kxsa (of4 (kq W X)) (of4 (kkps W X WE (of3 fun _ _ p => bE (ix1 p))))
        (of4 (kvp W X WF (of3 fun _ _ p => bF (ix1 p)))) t2 b h d n
      = rxsa X W WE bE WF bF t2 b h d n := by
  rw [kxsa, rxsa]
  refine Finset.sum_congr rfl fun p _ => ?_
  rw [of4_apply, kvp_eq X W hX hW, mul_comm (rlow X W 3 WF bF b h d p)]
  exact congrArg (fun s => smax s p * rlow X W 3 WF bF b h d p)
    (funext fun p' => kscore_eq X W hX hW WE bE t2 b h n p')

end

/-- The two arrangements agree on real inputs: the kernel's three calls composed (the biases entering as the
    [1,1,64] and [1,128] arrays the host reshapes make of them) against the reference. -/
theorem kernel_eq_reference (X : Arr3 8 8192 256) (W : Arr2 1024 256) (WE : Arr2 64 8192) (bE : Arr1 64) (WF : Arr2 64 8192) (bF : Arr1 64)
    (Wo1 : Arr2 128 256) (bo1 : Arr1 128) (Wo2 : Arr2 128 256) (bo2 : Arr1 128) (t1 t2 : Arr3 8 1 1)
    (hX : Real3 X) (hW : Real2 W) (hWE : Real2 WE) (hbE : Real1 bE) (hWF : Real2 WF) (hbF : Real1 bF)
    (hWo1 : Real2 Wo1) (hbo1 : Real1 bo1) (hWo2 : Real2 Wo2) (hbo2 : Real1 bo2) (ht1 : Real3 t1) (ht2 : Real3 t2)
    (b : Fin 8) (n : Fin 8192) (o : Fin 256) :
    kout (of4 (kvca W X)) (of4 (kattn W X t1))
        (of3 (relay (kxsa (of4 (kq W X)) (of4 (kkps W X WE (of3 fun _ _ p => bE (ix1 p)))) (of4 (kvp W X WF (of3 fun _ _ p => bF (ix1 p)))) t2)))
        Wo1 (of2 fun _ q => bo1 (ix1 q)) Wo2 (of2 fun _ q => bo2 (ix1 q)) b n o
      = rout X W WE bE WF bF Wo1 bo1 Wo2 bo2 t1 t2 b n o := by
  have hx : kxsa (of4 (kq W X)) (of4 (kkps W X WE (of3 fun _ _ p => bE (ix1 p))))
      (of4 (kvp W X WF (of3 fun _ _ p => bF (ix1 p)))) t2 = rxsa X W WE bE WF bF t2 := by
    funext b h d n
    exact kxsa_eq X W hX hW WE bE WF bF t2 b h d n
  by_cases ho : o.val < 128
  · rw [kout, rout, dif_pos ho, dif_pos ho]
    refine congrArg₂ (· + ·) (Finset.sum_congr rfl fun c _ => ?_) rfl
    rw [of3_apply, hx]
  · rw [kout, rout, dif_neg ho, dif_neg ho]
    refine congrArg₂ (· + ·) (Finset.sum_congr rfl fun c _ => ?_) rfl
    rw [kxca_eq X W hX hW]

end Cert.Spec

end
-- ==== Proof.FiniteInputs.lean ====
/-
  Under the precondition — for each of the twelve argument arrays, "every entry has absolute value below +∞", all
  twelve and-ed together — every entry of every argument is a real number: an extended real whose absolute value is
  below +∞ is neither infinity.
-/
import proofs.«149626_j38448547234132_2_alg».proof.Defs
import proofs.«149626_j38448547234132_2_alg».proof.Proof.Gen.Pre_finite_inputs
import proofs.«149626_j38448547234132_2_alg».proof.Proof.Gen.KernelIdeal
import proofs.«149626_j38448547234132_2_alg».proof.Proof.SpecAlgebra
import Idealize.ShloMosaic.Lib.ReduceAll

noncomputable section

namespace Cert.Proof.Finite

open Idealize.ShloMosaic Idealize.ShloMosaic.TcCoe Idealize.SL.Sem Cert

/-- The rank-0 shape has one index. -/
instance subsingleton_idx0 : Subsingleton Cert.Pre_finite_inputs.S_.Idx := ⟨fun a b => funext fun d => d.elim0⟩

/-- The literal the predicate compares against denotes +∞. -/
theorem inf_eq : Ideal.ofBits .f32 0x7F800000#32 = (⊤ : EReal) := by
  simp [Ideal.ofBits, Ideal.ieee]

/-- An extended real whose absolute value max(x, −x) is below +∞ is a real number. -/
theorem real_of_abs_lt (x : EReal)
    (h : Ideal.cmp .olt (max x (-x)) (Ideal.ofBits .f32 0x7F800000#32) = 1#1) : ∃ r : ℝ, x = (r : EReal) := by
  rw [inf_eq] at h
  have hlt : max x (-x) < ⊤ := by
    by_contra hn
    simp [Ideal.cmp, hn] at h
  induction x using EReal.rec with
  | bot => simp at hlt
  | coe r => exact ⟨r, rfl⟩
  | top => simp at hlt

/-- `all(|x| < +∞)` being true says every entry of `x` is a real number. -/
theorem real_of_all {s : Shape} {axes : List (Fin s.rank)} (x : s.Idx → EReal)
    (bc : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
        (cmpf (F := Ideal) (φ := .f32) .olt (Host.absf (F := Ideal) (φ := .f32) x)
          (broadcastInDim s ![] bc (constant (F := Ideal) Cert.Pre_finite_inputs.S_ .f32 0x7F800000#32)))
        (constantI Cert.Pre_finite_inputs.S_ 1 1#1) hr hu ValueIdx.ix0 = 1#1) :
    ∀ i, ∃ r : ℝ, x i = (r : EReal) := by
  intro i
  have h := Host.reduce_andi_all _ _ hr hu ValueIdx.ix0 e i
  exact real_of_abs_lt (x i) h

/-- The conjunction of two one-bit rank-0 arrays is true exactly when both are. -/
theorem andi_ix0 (x y : IVec Cert.Pre_finite_inputs.S_ 1) :
    andi x y ValueIdx.ix0 = 1#1 ↔ x ValueIdx.ix0 = 1#1 ∧ y ValueIdx.ix0 = 1#1 := IntOp.andi_eq_one

/-- Under the precondition every entry of every argument array is a real number. -/
theorem real_of_pre (m : (ℓ : Loc Cert.KernelIdeal.nD Cert.KernelIdeal.τ Cert.KernelIdeal.sig) → Buf (Elt Ideal) ℓ)
    (hpre : Cert.Pre_KernelIdeal m) (c : Dev Cert.KernelIdeal.nD) :
    Spec.Real3 (m ((c.tc : Thread Cert.KernelIdeal.nD Cert.KernelIdeal.τ).loc Cert.KernelIdeal.main_arg0))
    ∧ Spec.Real2 (m ((c.tc : Thread Cert.KernelIdeal.nD Cert.KernelIdeal.τ).loc Cert.KernelIdeal.main_arg1))
    ∧ Spec.Real2 (m ((c.tc : Thread Cert.KernelIdeal.nD Cert.KernelIdeal.τ).loc Cert.KernelIdeal.main_arg2))
    ∧ Spec.Real1 (m ((c.tc : Thread Cert.KernelIdeal.nD Cert.KernelIdeal.τ).loc Cert.KernelIdeal.main_arg3))
    ∧ Spec.Real2 (m ((c.tc : Thread Cert.KernelIdeal.nD Cert.KernelIdeal.τ).loc Cert.KernelIdeal.main_arg4))
    ∧ Spec.Real1 (m ((c.tc : Thread Cert.KernelIdeal.nD Cert.KernelIdeal.τ).loc Cert.KernelIdeal.main_arg5))
    ∧ Spec.Real2 (m ((c.tc : Thread Cert.KernelIdeal.nD Cert.KernelIdeal.τ).loc Cert.KernelIdeal.main_arg6))
    ∧ Spec.Real1 (m ((c.tc : Thread Cert.KernelIdeal.nD Cert.KernelIdeal.τ).loc Cert.KernelIdeal.main_arg7))
    ∧ Spec.Real2 (m ((c.tc : Thread Cert.KernelIdeal.nD Cert.KernelIdeal.τ).loc Cert.KernelIdeal.main_arg8))
    ∧ Spec.Real1 (m ((c.tc : Thread Cert.KernelIdeal.nD Cert.KernelIdeal.τ).loc Cert.KernelIdeal.main_arg9))
    ∧ Spec.Real3 (m ((c.tc : Thread Cert.KernelIdeal.nD Cert.KernelIdeal.τ).loc Cert.KernelIdeal.main_arg10))
    ∧ Spec.Real3 (m ((c.tc : Thread Cert.KernelIdeal.nD Cert.KernelIdeal.τ).loc Cert.KernelIdeal.main_arg11)) := by
  have e := congrFun (hpre c) ValueIdx.ix0
  dsimp only [Cert.Pre_finite_inputs.fn, Cert.Pre_finite_inputs.fn_part1, Cert.Pre_finite_inputs.fn_part2,
    Cert.Pre_finite_inputs.fn_part3] at e
  simp only [andi_ix0] at e
  obtain ⟨⟨⟨⟨⟨⟨⟨⟨⟨⟨⟨h0, h1⟩, h2⟩, h3⟩, h4⟩, h5⟩, h6⟩, h7⟩, h8⟩, h9⟩, h10⟩, h11⟩ := e
  exact ⟨real_of_all _ _ _ _ h0, real_of_all _ _ _ _ h1, real_of_all _ _ _ _ h2, real_of_all _ _ _ _ h3,
    real_of_all _ _ _ _ h4, real_of_all _ _ _ _ h5, real_of_all _ _ _ _ h6, real_of_all _ _ _ _ h7,
    real_of_all _ _ _ _ h8, real_of_all _ _ _ _ h9, real_of_all _ _ _ _ h10, real_of_all _ _ _ _ h11⟩

end Cert.Proof.Finite

end
-- ==== Proof.Claims.lean ====
/-
  The five claims.  Three are frames: each program runs to the end from any memory satisfying the precondition,
  faults nowhere and leaves its twelve argument arrays as launched — for the kernel, at the word level and at the
  idealized level, because its three calls and two host stretches chain and none of them writes an argument; for the
  reference because it is a straight line of host operations.  The idealization rewrote nothing, so there is nothing
  to preserve.  The value claim: both idealized programs end, and the reference's result — the composed term of its
  ninety host operations — is, element by element as extended reals, what the last kernel call's write-backs add up to.
-/
import proofs.«149626_j38448547234132_2_alg».proof.Defs
import proofs.«149626_j38448547234132_2_alg».proof.Proof.WholeRun
import proofs.«149626_j38448547234132_2_alg».proof.Proof.Bits.WholeRun
import proofs.«149626_j38448547234132_2_alg».proof.Proof.RefRun
import proofs.«149626_j38448547234132_2_alg».proof.Proof.RefValue
import proofs.«149626_j38448547234132_2_alg».proof.Proof.ValueComposeAll
import proofs.«149626_j38448547234132_2_alg».proof.Proof.SpecAlgebra
import proofs.«149626_j38448547234132_2_alg».proof.Proof.FiniteInputs
import proofs.«149626_j38448547234132_2_alg».proof.Proof.Gen.Pre_finite_inputs
import proofs.«149626_j38448547234132_2_alg».proof.Proof.Gen.ReferenceIdeal

noncomputable section

namespace Cert.Proof.Claims

open Idealize.ShloMosaic Idealize.ShloMosaic.TcCoe Idealize.SL.Sem

theorem frame_kernel : Cert.frame_Kernel := fun m ρ _ => Cert.Kernel.Whole.frame (F := Bits) m ρ

theorem frame_kernelIdeal : Cert.frame_KernelIdeal := fun m ρ _ => Cert.KernelIdeal.Whole.frame (F := Ideal) m ρ

theorem frame_reference : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both runs end; the reference's composed term is, element by element, what the kernel's three calls compute: each
    side is read as a function of the twelve argument arrays (the reference in its arrangement, the kernel in its
    own), the arguments agree and are real-valued under the precondition, and on real inputs the two arrangements
    are one function. -/
theorem algebraic : Cert.algebraic_KernelIdeal_ReferenceIdeal := by
  intro m ρ m' ρ' hpre hagree
  refine ⟨fun c => Cert.KernelIdeal.Whole.result (F := Ideal) m ρ c, Cert.KernelIdeal.Whole.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  show Cert.ReferenceIdeal.ValueP.res_main_v79 (F := Ideal) m' c = Cert.KernelIdeal.Whole.result (F := Ideal) m ρ c
  rw [Cert.ReferenceIdeal.RefValue.ref_value m' c, Cert.KernelIdeal.Compose.result_eq m ρ c]
  obtain ⟨h0, h1, h2, h3, h4, h5, h6, h7, h8, h9, h10, h11⟩ := hagree c
  obtain ⟨r0, r1, r2, r3, r4, r5, r6, r7, r8, r9, r10, r11⟩ := Cert.Proof.Finite.real_of_pre m hpre c
  rw [h0, h1, h2, h3, h4, h5, h6, h7, h8, h9, h10, h11]
  unfold Cert.KernelIdeal.Compose.kernelOut
  exact congrArg Cert.Spec.of3 (funext fun b => funext fun n => funext fun o =>
    (Cert.Spec.kernel_eq_reference _ _ _ _ _ _ _ _ _ _ _ _ r0 r1 r2 r3 r4 r5 r6 r7 r8 r9 r10 r11 b n o).symm)

end Cert.Proof.Claims

end
-- ==== Proof.lean ====
/-
  An attention layer with two branches sharing one projection of the tokens: a channel-attention branch (the Gram
  matrix of the row-normalised q and k over all 8192 tokens, softmaxed, applied to v_ca) and a low-rank spatial branch
  (keys and values projected to 64 token-mixtures, the row-normalised q scored against them, softmaxed, applied), each
  followed by an output projection, the two results side by side.
  The kernel does this in three calls over token tiles of 2048.  The first projects the tile, stores q and v_ca, and
  accumulates across the four tiles of a batch everything that is a sum over tokens — the RAW Gram matrix, the squared
  row norms, the two low-rank projections —, turning them into the softmaxed channel attention, the key projection
  scaled by 1/‖q‖ and the value projection at the batch's last tile (the row normalisation is a factor per row, so it
  can be applied to the finished sums: this is where the two programs differ in arrangement, and where finiteness of
  the inputs is needed — the extended reals do not distribute at infinities).  The second computes the spatial branch
  tile by tile; a transpose and a reshape on the host re-lay it; the third applies the channel attention and both
  output projections.
  Here: the witnesses of the programs' stated facts, and the five claims (Proof/Claims.lean).
-/
import proofs.«149626_j38448547234132_2_alg».proof.Defs
import proofs.«149626_j38448547234132_2_alg».proof.Proof.Gen.Kernel
import proofs.«149626_j38448547234132_2_alg».proof.Proof.Gen.KernelIdeal
import proofs.«149626_j38448547234132_2_alg».proof.Proof.Gen.ReferenceIdeal
import proofs.«149626_j38448547234132_2_alg».proof.Proof.Gen.Pre_finite_inputs
import proofs.«149626_j38448547234132_2_alg».proof.Proof.Claims

noncomputable section

namespace Cert.Proof

theorem claim : Cert.Claim :=
  ⟨Cert.Kernel.Gen.facts, Cert.KernelIdeal.Gen.facts, Cert.ReferenceIdeal.Gen.facts, Cert.Pre_finite_inputs.Gen.facts,
    Cert.Proof.Claims.frame_kernel, Cert.Proof.Claims.frame_kernelIdeal, Cert.Proof.Claims.frame_reference,
    Cert.Proof.Claims.preserves, Cert.Proof.Claims.algebraic⟩

end Cert.Proof

end
